-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v449) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x64x16 : Shape := ⟨4, ![8, 4096, 64, 16]⟩
abbrev S_ : Shape := ⟨0, ![]⟩

class Facts : Prop where
  bcast_S_S8x4096x64x16 : S_.BroadcastsInDim S8x4096x64x16 (![] : Fin 0 → Fin S8x4096x64x16.rank)
  reducesTo_S8x4096x64x16_S_d0_1_2_3 : S8x4096x64x16.ReducesTo [0, 1, 2, 3] S_
  h_S_ : 0 < S_.numel

variable [Facts]

def fn {F : FTy → Type} [FloatOps F] (main_arg0 : FVec F S8x4096x64x16 .f32) : IVec S_ 1 :=
  let main_v0 : FVec F S8x4096x64x16 .f32 := Host.absf main_arg0
  let main_cst : FVec F S_ .f32 := constant S_ .f32 0x7F800000#32
  let main_v1 : FVec F S8x4096x64x16 .f32 := broadcastInDim S8x4096x64x16 ![] bcast_S_S8x4096x64x16 main_cst
  let main_v2 : IVec S8x4096x64x16 1 := cmpf .olt main_v0 main_v1
  let main_c : IVec S_ 1 := constantI S_ 1 1#1
  let main_v3 : IVec S_ 1 := (fun x v => Host.reduce IntOp.andi x v reducesTo_S8x4096x64x16_S_d0_1_2_3 h_S_) main_v2 main_c
  main_v3
-- ==== Kernel.lean ====
abbrev S8x4096x64x16 : Shape := ⟨4, ![8, 4096, 64, 16]⟩
abbrev S8x4096x1024 : Shape := ⟨3, ![8, 4096, 1024]⟩
abbrev S1x512x1024 : Shape := ⟨3, ![1, 512, 1024]⟩
abbrev S1x1024 : Shape := ⟨2, ![1, 1024]⟩
abbrev S512x1024 : Shape := ⟨2, ![512, 1024]⟩
abbrev S512x512 : Shape := ⟨2, ![512, 512]⟩

abbrev nBuf : Space → Nat
  | .hbm => 4
  | .vmem => 5
  | .smem => 0
  | _ => 0

abbrev bufTy : (tb : Table) → Fin (tcTables nBuf tb) → BufTy
  | .hbm, ⟨0, _⟩ => ⟨S8x4096x64x16, .f32⟩
  | .hbm, ⟨1, _⟩ => ⟨S8x4096x1024, .f32⟩
  | .hbm, ⟨2, _⟩ => ⟨S8x4096x1024, .f32⟩
  | .hbm, ⟨3, _⟩ => ⟨S8x4096x64x16, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1024, .f32⟩
  | _, _ => ⟨S8x4096x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S8x4096x64x16_S8x4096x1024 : S8x4096x64x16.ShapeCasts S8x4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  iota_S512x512_d0_w32 : S512x512.Iotas .tc 32 [0]
  iota_S512x512_d1_w32 : S512x512.Iotas .tc 32 [1]
  broadcasts_S1x1024_S512x1024 : S1x1024.Broadcasts S512x1024
  shapeCasts_S512x1024_S1x512x1024 : S512x1024.ShapeCasts S1x512x1024
  slices_S512x1024_o511_0_S1x1024 : S512x1024.Slices ![511, 0] S1x1024
  shapeCasts_S8x4096x1024_S8x4096x64x16 : S8x4096x1024.ShapeCasts S8x4096x64x16
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x4096x1024.size a
  hwx0_0 : ∀ i : grid0.Coords, EltTy.bits .f32 = 32 ∨ (Rect.block (s := S8x4096x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x4096x1024.size a
  hwx0_1 : ∀ i : grid0.Coords, EltTy.bits .f32 = 32 ∨ (Rect.block (s := S8x4096x1024) S1x512x1024.size (cc0_transform_1 i) (hinb0_1 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x4096x64x16 : Shape := ⟨4, ![8, 4096, 64, 16]⟩
abbrev S2048 : Shape := ⟨1, ![2048]⟩
abbrev S1024 : Shape := ⟨1, ![1024]⟩
abbrev S512 : Shape := ⟨1, ![512]⟩
abbrev S256 : Shape := ⟨1, ![256]⟩
abbrev S128 : Shape := ⟨1, ![128]⟩
abbrev S64 : Shape := ⟨1, ![64]⟩
abbrev S32 : Shape := ⟨1, ![32]⟩
abbrev S16 : Shape := ⟨1, ![16]⟩
abbrev S8 : Shape := ⟨1, ![8]⟩
abbrev S4 : Shape := ⟨1, ![4]⟩
abbrev S2 : Shape := ⟨1, ![2]⟩
abbrev S1 : Shape := ⟨1, ![1]⟩
abbrev S_ : Shape := ⟨0, ![]⟩
abbrev S8x64x16 : Shape := ⟨3, ![8, 64, 16]⟩
abbrev S8x64x4096x16 : Shape := ⟨4, ![8, 64, 4096, 16]⟩
abbrev S2048x1 : Shape := ⟨2, ![2048, 1]⟩
abbrev S8x64x2048x16 : Shape := ⟨4, ![8, 64, 2048, 16]⟩
abbrev S1024x1 : Shape := ⟨2, ![1024, 1]⟩
abbrev S8x64x1024x16 : Shape := ⟨4, ![8, 64, 1024, 16]⟩
abbrev S512x1 : Shape := ⟨2, ![512, 1]⟩
abbrev S8x64x512x16 : Shape := ⟨4, ![8, 64, 512, 16]⟩
abbrev S256x1 : Shape := ⟨2, ![256, 1]⟩
abbrev S8x64x256x16 : Shape := ⟨4, ![8, 64, 256, 16]⟩
abbrev S128x1 : Shape := ⟨2, ![128, 1]⟩
abbrev S8x64x128x16 : Shape := ⟨4, ![8, 64, 128, 16]⟩
abbrev S64x1 : Shape := ⟨2, ![64, 1]⟩
abbrev S8x64x64x16 : Shape := ⟨4, ![8, 64, 64, 16]⟩
abbrev S32x1 : Shape := ⟨2, ![32, 1]⟩
abbrev S8x64x32x16 : Shape := ⟨4, ![8, 64, 32, 16]⟩
abbrev S16x1 : Shape := ⟨2, ![16, 1]⟩
abbrev S8x64x16x16 : Shape := ⟨4, ![8, 64, 16, 16]⟩
abbrev S8x1 : Shape := ⟨2, ![8, 1]⟩
abbrev S8x64x8x16 : Shape := ⟨4, ![8, 64, 8, 16]⟩
abbrev S4x1 : Shape := ⟨2, ![4, 1]⟩
abbrev S8x64x4x16 : Shape := ⟨4, ![8, 64, 4, 16]⟩
abbrev S2x1 : Shape := ⟨2, ![2, 1]⟩
abbrev S8x64x2x16 : Shape := ⟨4, ![8, 64, 2, 16]⟩
abbrev S1x1 : Shape := ⟨2, ![1, 1]⟩
abbrev S8x64x1x16 : Shape := ⟨4, ![8, 64, 1, 16]⟩

abbrev nBuf : Space → Nat
  | .hbm => 669
  | .vmem => 0
  | .smem => 0
  | _ => 0

abbrev hbmTy0_0 (i : Nat) : BufTy := match i % 128 with
  | 0 => ⟨S8x4096x64x16, .f32⟩
  | 1 => ⟨S2048, .i32⟩
  | 2 => ⟨S2048, .i1⟩
  | 3 => ⟨S2048, .i32⟩
  | 4 => ⟨S2048, .i1⟩
  | 5 => ⟨S2048, .i1⟩
  | 6 => ⟨S1024, .i32⟩
  | 7 => ⟨S1024, .i1⟩
  | 8 => ⟨S1024, .i32⟩
  | 9 => ⟨S1024, .i1⟩
  | 10 => ⟨S1024, .i1⟩
  | 11 => ⟨S512, .i32⟩
  | 12 => ⟨S512, .i1⟩
  | 13 => ⟨S512, .i32⟩
  | 14 => ⟨S512, .i1⟩
  | 15 => ⟨S512, .i1⟩
  | 16 => ⟨S256, .i32⟩
  | 17 => ⟨S256, .i1⟩
  | 18 => ⟨S256, .i32⟩
  | 19 => ⟨S256, .i1⟩
  | 20 => ⟨S256, .i1⟩
  | 21 => ⟨S128, .i32⟩
  | 22 => ⟨S128, .i1⟩
  | 23 => ⟨S128, .i32⟩
  | 24 => ⟨S128, .i1⟩
  | 25 => ⟨S128, .i1⟩
  | 26 => ⟨S64, .i32⟩
  | 27 => ⟨S64, .i1⟩
  | 28 => ⟨S64, .i32⟩
  | 29 => ⟨S64, .i1⟩
  | 30 => ⟨S64, .i1⟩
  | 31 => ⟨S32, .i32⟩
  | 32 => ⟨S32, .i1⟩
  | 33 => ⟨S32, .i32⟩
  | 34 => ⟨S32, .i1⟩
  | 35 => ⟨S32, .i1⟩
  | 36 => ⟨S16, .i32⟩
  | 37 => ⟨S16, .i1⟩
  | 38 => ⟨S16, .i32⟩
  | 39 => ⟨S16, .i1⟩
  | 40 => ⟨S16, .i1⟩
  | 41 => ⟨S8, .i32⟩
  | 42 => ⟨S8, .i1⟩
  | 43 => ⟨S8, .i32⟩
  | 44 => ⟨S8, .i1⟩
  | 45 => ⟨S8, .i1⟩
  | 46 => ⟨S4, .i32⟩
  | 47 => ⟨S4, .i1⟩
  | 48 => ⟨S4, .i32⟩
  | 49 => ⟨S4, .i1⟩
  | 50 => ⟨S4, .i1⟩
  | 51 => ⟨S2, .i32⟩
  | 52 => ⟨S2, .i1⟩
  | 53 => ⟨S2, .i32⟩
  | 54 => ⟨S2, .i1⟩
  | 55 => ⟨S2, .i1⟩
  | 56 => ⟨S1, .i32⟩
  | 57 => ⟨S1, .i1⟩
  | 58 => ⟨S1, .i32⟩
  | 59 => ⟨S1, .i1⟩
  | 60 => ⟨S1, .i1⟩
  | 61 => ⟨S1, .i32⟩
  | 62 => ⟨S1, .i1⟩
  | 63 => ⟨S1, .i32⟩
  | 64 => ⟨S1, .i1⟩
  | 65 => ⟨S1, .i1⟩
  | 66 => ⟨S1, .i1⟩
  | 67 => ⟨S2, .i32⟩
  | 68 => ⟨S2, .i1⟩
  | 69 => ⟨S2, .i32⟩
  | 70 => ⟨S2, .i1⟩
  | 71 => ⟨S2, .i1⟩
  | 72 => ⟨S2, .i1⟩
  | 73 => ⟨S4, .i32⟩
  | 74 => ⟨S4, .i1⟩
  | 75 => ⟨S4, .i32⟩
  | 76 => ⟨S4, .i1⟩
  | 77 => ⟨S4, .i1⟩
  | 78 => ⟨S4, .i1⟩
  | 79 => ⟨S8, .i32⟩
  | 80 => ⟨S8, .i1⟩
  | 81 => ⟨S8, .i32⟩
  | 82 => ⟨S8, .i1⟩
  | 83 => ⟨S8, .i1⟩
  | 84 => ⟨S8, .i1⟩
  | 85 => ⟨S16, .i32⟩
  | 86 => ⟨S16, .i1⟩
  | 87 => ⟨S16, .i32⟩
  | 88 => ⟨S16, .i1⟩
  | 89 => ⟨S16, .i1⟩
  | 90 => ⟨S16, .i1⟩
  | 91 => ⟨S32, .i32⟩
  | 92 => ⟨S32, .i1⟩
  | 93 => ⟨S32, .i32⟩
  | 94 => ⟨S32, .i1⟩
  | 95 => ⟨S32, .i1⟩
  | 96 => ⟨S32, .i1⟩
  | 97 => ⟨S64, .i32⟩
  | 98 => ⟨S64, .i1⟩
  | 99 => ⟨S64, .i32⟩
  | 100 => ⟨S64, .i1⟩
  | 101 => ⟨S64, .i1⟩
  | 102 => ⟨S64, .i1⟩
  | 103 => ⟨S128, .i32⟩
  | 104 => ⟨S128, .i1⟩
  | 105 => ⟨S128, .i32⟩
  | 106 => ⟨S128, .i1⟩
  | 107 => ⟨S128, .i1⟩
  | 108 => ⟨S128, .i1⟩
  | 109 => ⟨S256, .i32⟩
  | 110 => ⟨S256, .i1⟩
  | 111 => ⟨S256, .i32⟩
  | 112 => ⟨S256, .i1⟩
  | 113 => ⟨S256, .i1⟩
  | 114 => ⟨S256, .i1⟩
  | 115 => ⟨S512, .i32⟩
  | 116 => ⟨S512, .i1⟩
  | 117 => ⟨S512, .i32⟩
  | 118 => ⟨S512, .i1⟩
  | 119 => ⟨S512, .i1⟩
  | 120 => ⟨S512, .i1⟩
  | 121 => ⟨S1024, .i32⟩
  | 122 => ⟨S1024, .i1⟩
  | 123 => ⟨S1024, .i32⟩
  | 124 => ⟨S1024, .i1⟩
  | 125 => ⟨S1024, .i1⟩
  | 126 => ⟨S1024, .i1⟩
  | 127 => ⟨S2048, .i32⟩
  | _ => ⟨S8x4096x64x16, .f32⟩

abbrev hbmTy0_1 (i : Nat) : BufTy := match i % 128 with
  | 0 => ⟨S2048, .i1⟩
  | 1 => ⟨S2048, .i32⟩
  | 2 => ⟨S2048, .i1⟩
  | 3 => ⟨S2048, .i1⟩
  | 4 => ⟨S2048, .i1⟩
  | 5 => ⟨S_, .f32⟩
  | 6 => ⟨S8x64x16, .f32⟩
  | 7 => ⟨S8x64x4096x16, .f32⟩
  | 8 => ⟨S_, .i32⟩
  | 9 => ⟨S2048, .i32⟩
  | 10 => ⟨S2048, .i32⟩
  | 11 => ⟨S2048, .i32⟩
  | 12 => ⟨S2048x1, .i32⟩
  | 13 => ⟨S8x64x2048x16, .f32⟩
  | 14 => ⟨S_, .i32⟩
  | 15 => ⟨S2048, .i32⟩
  | 16 => ⟨S2048, .i32⟩
  | 17 => ⟨S2048, .i32⟩
  | 18 => ⟨S2048x1, .i32⟩
  | 19 => ⟨S8x64x2048x16, .f32⟩
  | 20 => ⟨S8x64x2048x16, .f32⟩
  | 21 => ⟨S_, .i32⟩
  | 22 => ⟨S2048, .i32⟩
  | 23 => ⟨S2048, .i32⟩
  | 24 => ⟨S2048, .i32⟩
  | 25 => ⟨S2048x1, .i32⟩
  | 26 => ⟨S8x64x4096x16, .f32⟩
  | 27 => ⟨S_, .i32⟩
  | 28 => ⟨S1024, .i32⟩
  | 29 => ⟨S1024, .i32⟩
  | 30 => ⟨S1024, .i32⟩
  | 31 => ⟨S1024x1, .i32⟩
  | 32 => ⟨S8x64x1024x16, .f32⟩
  | 33 => ⟨S_, .i32⟩
  | 34 => ⟨S1024, .i32⟩
  | 35 => ⟨S1024, .i32⟩
  | 36 => ⟨S1024, .i32⟩
  | 37 => ⟨S1024x1, .i32⟩
  | 38 => ⟨S8x64x1024x16, .f32⟩
  | 39 => ⟨S8x64x1024x16, .f32⟩
  | 40 => ⟨S_, .i32⟩
  | 41 => ⟨S1024, .i32⟩
  | 42 => ⟨S1024, .i32⟩
  | 43 => ⟨S1024, .i32⟩
  | 44 => ⟨S1024x1, .i32⟩
  | 45 => ⟨S8x64x4096x16, .f32⟩
  | 46 => ⟨S_, .i32⟩
  | 47 => ⟨S512, .i32⟩
  | 48 => ⟨S512, .i32⟩
  | 49 => ⟨S512, .i32⟩
  | 50 => ⟨S512x1, .i32⟩
  | 51 => ⟨S8x64x512x16, .f32⟩
  | 52 => ⟨S_, .i32⟩
  | 53 => ⟨S512, .i32⟩
  | 54 => ⟨S512, .i32⟩
  | 55 => ⟨S512, .i32⟩
  | 56 => ⟨S512x1, .i32⟩
  | 57 => ⟨S8x64x512x16, .f32⟩
  | 58 => ⟨S8x64x512x16, .f32⟩
  | 59 => ⟨S_, .i32⟩
  | 60 => ⟨S512, .i32⟩
  | 61 => ⟨S512, .i32⟩
  | 62 => ⟨S512, .i32⟩
  | 63 => ⟨S512x1, .i32⟩
  | 64 => ⟨S8x64x4096x16, .f32⟩
  | 65 => ⟨S_, .i32⟩
  | 66 => ⟨S256, .i32⟩
  | 67 => ⟨S256, .i32⟩
  | 68 => ⟨S256, .i32⟩
  | 69 => ⟨S256x1, .i32⟩
  | 70 => ⟨S8x64x256x16, .f32⟩
  | 71 => ⟨S_, .i32⟩
  | 72 => ⟨S256, .i32⟩
  | 73 => ⟨S256, .i32⟩
  | 74 => ⟨S256, .i32⟩
  | 75 => ⟨S256x1, .i32⟩
  | 76 => ⟨S8x64x256x16, .f32⟩
  | 77 => ⟨S8x64x256x16, .f32⟩
  | 78 => ⟨S_, .i32⟩
  | 79 => ⟨S256, .i32⟩
  | 80 => ⟨S256, .i32⟩
  | 81 => ⟨S256, .i32⟩
  | 82 => ⟨S256x1, .i32⟩
  | 83 => ⟨S8x64x4096x16, .f32⟩
  | 84 => ⟨S_, .i32⟩
  | 85 => ⟨S128, .i32⟩
  | 86 => ⟨S128, .i32⟩
  | 87 => ⟨S128, .i32⟩
  | 88 => ⟨S128x1, .i32⟩
  | 89 => ⟨S8x64x128x16, .f32⟩
  | 90 => ⟨S_, .i32⟩
  | 91 => ⟨S128, .i32⟩
  | 92 => ⟨S128, .i32⟩
  | 93 => ⟨S128, .i32⟩
  | 94 => ⟨S128x1, .i32⟩
  | 95 => ⟨S8x64x128x16, .f32⟩
  | 96 => ⟨S8x64x128x16, .f32⟩
  | 97 => ⟨S_, .i32⟩
  | 98 => ⟨S128, .i32⟩
  | 99 => ⟨S128, .i32⟩
  | 100 => ⟨S128, .i32⟩
  | 101 => ⟨S128x1, .i32⟩
  | 102 => ⟨S8x64x4096x16, .f32⟩
  | 103 => ⟨S_, .i32⟩
  | 104 => ⟨S64, .i32⟩
  | 105 => ⟨S64, .i32⟩
  | 106 => ⟨S64, .i32⟩
  | 107 => ⟨S64x1, .i32⟩
  | 108 => ⟨S8x64x64x16, .f32⟩
  | 109 => ⟨S_, .i32⟩
  | 110 => ⟨S64, .i32⟩
  | 111 => ⟨S64, .i32⟩
  | 112 => ⟨S64, .i32⟩
  | 113 => ⟨S64x1, .i32⟩
  | 114 => ⟨S8x64x64x16, .f32⟩
  | 115 => ⟨S8x64x64x16, .f32⟩
  | 116 => ⟨S_, .i32⟩
  | 117 => ⟨S64, .i32⟩
  | 118 => ⟨S64, .i32⟩
  | 119 => ⟨S64, .i32⟩
  | 120 => ⟨S64x1, .i32⟩
  | 121 => ⟨S8x64x4096x16, .f32⟩
  | 122 => ⟨S_, .i32⟩
  | 123 => ⟨S32, .i32⟩
  | 124 => ⟨S32, .i32⟩
  | 125 => ⟨S32, .i32⟩
  | 126 => ⟨S32x1, .i32⟩
  | 127 => ⟨S8x64x32x16, .f32⟩
  | _ => ⟨S8x4096x64x16, .f32⟩

abbrev hbmTy0_2 (i : Nat) : BufTy := match i % 128 with
  | 0 => ⟨S_, .i32⟩
  | 1 => ⟨S32, .i32⟩
  | 2 => ⟨S32, .i32⟩
  | 3 => ⟨S32, .i32⟩
  | 4 => ⟨S32x1, .i32⟩
  | 5 => ⟨S8x64x32x16, .f32⟩
  | 6 => ⟨S8x64x32x16, .f32⟩
  | 7 => ⟨S_, .i32⟩
  | 8 => ⟨S32, .i32⟩
  | 9 => ⟨S32, .i32⟩
  | 10 => ⟨S32, .i32⟩
  | 11 => ⟨S32x1, .i32⟩
  | 12 => ⟨S8x64x4096x16, .f32⟩
  | 13 => ⟨S_, .i32⟩
  | 14 => ⟨S16, .i32⟩
  | 15 => ⟨S16, .i32⟩
  | 16 => ⟨S16, .i32⟩
  | 17 => ⟨S16x1, .i32⟩
  | 18 => ⟨S8x64x16x16, .f32⟩
  | 19 => ⟨S_, .i32⟩
  | 20 => ⟨S16, .i32⟩
  | 21 => ⟨S16, .i32⟩
  | 22 => ⟨S16, .i32⟩
  | 23 => ⟨S16x1, .i32⟩
  | 24 => ⟨S8x64x16x16, .f32⟩
  | 25 => ⟨S8x64x16x16, .f32⟩
  | 26 => ⟨S_, .i32⟩
  | 27 => ⟨S16, .i32⟩
  | 28 => ⟨S16, .i32⟩
  | 29 => ⟨S16, .i32⟩
  | 30 => ⟨S16x1, .i32⟩
  | 31 => ⟨S8x64x4096x16, .f32⟩
  | 32 => ⟨S_, .i32⟩
  | 33 => ⟨S8, .i32⟩
  | 34 => ⟨S8, .i32⟩
  | 35 => ⟨S8, .i32⟩
  | 36 => ⟨S8x1, .i32⟩
  | 37 => ⟨S8x64x8x16, .f32⟩
  | 38 => ⟨S_, .i32⟩
  | 39 => ⟨S8, .i32⟩
  | 40 => ⟨S8, .i32⟩
  | 41 => ⟨S8, .i32⟩
  | 42 => ⟨S8x1, .i32⟩
  | 43 => ⟨S8x64x8x16, .f32⟩
  | 44 => ⟨S8x64x8x16, .f32⟩
  | 45 => ⟨S_, .i32⟩
  | 46 => ⟨S8, .i32⟩
  | 47 => ⟨S8, .i32⟩
  | 48 => ⟨S8, .i32⟩
  | 49 => ⟨S8x1, .i32⟩
  | 50 => ⟨S8x64x4096x16, .f32⟩
  | 51 => ⟨S_, .i32⟩
  | 52 => ⟨S4, .i32⟩
  | 53 => ⟨S4, .i32⟩
  | 54 => ⟨S4, .i32⟩
  | 55 => ⟨S4x1, .i32⟩
  | 56 => ⟨S8x64x4x16, .f32⟩
  | 57 => ⟨S_, .i32⟩
  | 58 => ⟨S4, .i32⟩
  | 59 => ⟨S4, .i32⟩
  | 60 => ⟨S4, .i32⟩
  | 61 => ⟨S4x1, .i32⟩
  | 62 => ⟨S8x64x4x16, .f32⟩
  | 63 => ⟨S8x64x4x16, .f32⟩
  | 64 => ⟨S_, .i32⟩
  | 65 => ⟨S4, .i32⟩
  | 66 => ⟨S4, .i32⟩
  | 67 => ⟨S4, .i32⟩
  | 68 => ⟨S4x1, .i32⟩
  | 69 => ⟨S8x64x4096x16, .f32⟩
  | 70 => ⟨S_, .i32⟩
  | 71 => ⟨S2, .i32⟩
  | 72 => ⟨S2, .i32⟩
  | 73 => ⟨S2, .i32⟩
  | 74 => ⟨S2x1, .i32⟩
  | 75 => ⟨S8x64x2x16, .f32⟩
  | 76 => ⟨S_, .i32⟩
  | 77 => ⟨S2, .i32⟩
  | 78 => ⟨S2, .i32⟩
  | 79 => ⟨S2, .i32⟩
  | 80 => ⟨S2x1, .i32⟩
  | 81 => ⟨S8x64x2x16, .f32⟩
  | 82 => ⟨S8x64x2x16, .f32⟩
  | 83 => ⟨S_, .i32⟩
  | 84 => ⟨S2, .i32⟩
  | 85 => ⟨S2, .i32⟩
  | 86 => ⟨S2, .i32⟩
  | 87 => ⟨S2x1, .i32⟩
  | 88 => ⟨S8x64x4096x16, .f32⟩
  | 89 => ⟨S_, .i32⟩
  | 90 => ⟨S1, .i32⟩
  | 91 => ⟨S1, .i32⟩
  | 92 => ⟨S1, .i32⟩
  | 93 => ⟨S1x1, .i32⟩
  | 94 => ⟨S8x64x1x16, .f32⟩
  | 95 => ⟨S_, .i32⟩
  | 96 => ⟨S1, .i32⟩
  | 97 => ⟨S1, .i32⟩
  | 98 => ⟨S1, .i32⟩
  | 99 => ⟨S1x1, .i32⟩
  | 100 => ⟨S8x64x1x16, .f32⟩
  | 101 => ⟨S8x64x1x16, .f32⟩
  | 102 => ⟨S_, .i32⟩
  | 103 => ⟨S1, .i32⟩
  | 104 => ⟨S1, .i32⟩
  | 105 => ⟨S1, .i32⟩
  | 106 => ⟨S1x1, .i32⟩
  | 107 => ⟨S8x64x4096x16, .f32⟩
  | 108 => ⟨S_, .i32⟩
  | 109 => ⟨S1, .i32⟩
  | 110 => ⟨S8x64x4096x16, .f32⟩
  | 111 => ⟨S_, .i32⟩
  | 112 => ⟨S1, .i32⟩
  | 113 => ⟨S1, .i32⟩
  | 114 => ⟨S1, .i32⟩
  | 115 => ⟨S1x1, .i32⟩
  | 116 => ⟨S8x64x1x16, .f32⟩
  | 117 => ⟨S_, .i32⟩
  | 118 => ⟨S1, .i32⟩
  | 119 => ⟨S1, .i32⟩
  | 120 => ⟨S1, .i32⟩
  | 121 => ⟨S1x1, .i32⟩
  | 122 => ⟨S8x64x1x16, .f32⟩
  | 123 => ⟨S_, .i32⟩
  | 124 => ⟨S1, .i32⟩
  | 125 => ⟨S1, .i32⟩
  | 126 => ⟨S1, .i32⟩
  | 127 => ⟨S1x1, .i32⟩
  | _ => ⟨S8x4096x64x16, .f32⟩

abbrev hbmTy0_3 (i : Nat) : BufTy := match i % 128 with
  | 0 => ⟨S8x64x4096x16, .f32⟩
  | 1 => ⟨S8x64x1x16, .f32⟩
  | 2 => ⟨S_, .i32⟩
  | 3 => ⟨S1, .i32⟩
  | 4 => ⟨S1, .i32⟩
  | 5 => ⟨S1, .i32⟩
  | 6 => ⟨S1x1, .i32⟩
  | 7 => ⟨S8x64x4096x16, .f32⟩
  | 8 => ⟨S_, .i32⟩
  | 9 => ⟨S2, .i32⟩
  | 10 => ⟨S2, .i32⟩
  | 11 => ⟨S2, .i32⟩
  | 12 => ⟨S2x1, .i32⟩
  | 13 => ⟨S8x64x2x16, .f32⟩
  | 14 => ⟨S_, .i32⟩
  | 15 => ⟨S2, .i32⟩
  | 16 => ⟨S2, .i32⟩
  | 17 => ⟨S2, .i32⟩
  | 18 => ⟨S2x1, .i32⟩
  | 19 => ⟨S8x64x2x16, .f32⟩
  | 20 => ⟨S_, .i32⟩
  | 21 => ⟨S2, .i32⟩
  | 22 => ⟨S2, .i32⟩
  | 23 => ⟨S2, .i32⟩
  | 24 => ⟨S2x1, .i32⟩
  | 25 => ⟨S8x64x4096x16, .f32⟩
  | 26 => ⟨S8x64x2x16, .f32⟩
  | 27 => ⟨S_, .i32⟩
  | 28 => ⟨S2, .i32⟩
  | 29 => ⟨S2, .i32⟩
  | 30 => ⟨S2, .i32⟩
  | 31 => ⟨S2x1, .i32⟩
  | 32 => ⟨S8x64x4096x16, .f32⟩
  | 33 => ⟨S_, .i32⟩
  | 34 => ⟨S4, .i32⟩
  | 35 => ⟨S4, .i32⟩
  | 36 => ⟨S4, .i32⟩
  | 37 => ⟨S4x1, .i32⟩
  | 38 => ⟨S8x64x4x16, .f32⟩
  | 39 => ⟨S_, .i32⟩
  | 40 => ⟨S4, .i32⟩
  | 41 => ⟨S4, .i32⟩
  | 42 => ⟨S4, .i32⟩
  | 43 => ⟨S4x1, .i32⟩
  | 44 => ⟨S8x64x4x16, .f32⟩
  | 45 => ⟨S_, .i32⟩
  | 46 => ⟨S4, .i32⟩
  | 47 => ⟨S4, .i32⟩
  | 48 => ⟨S4, .i32⟩
  | 49 => ⟨S4x1, .i32⟩
  | 50 => ⟨S8x64x4096x16, .f32⟩
  | 51 => ⟨S8x64x4x16, .f32⟩
  | 52 => ⟨S_, .i32⟩
  | 53 => ⟨S4, .i32⟩
  | 54 => ⟨S4, .i32⟩
  | 55 => ⟨S4, .i32⟩
  | 56 => ⟨S4x1, .i32⟩
  | 57 => ⟨S8x64x4096x16, .f32⟩
  | 58 => ⟨S_, .i32⟩
  | 59 => ⟨S8, .i32⟩
  | 60 => ⟨S8, .i32⟩
  | 61 => ⟨S8, .i32⟩
  | 62 => ⟨S8x1, .i32⟩
  | 63 => ⟨S8x64x8x16, .f32⟩
  | 64 => ⟨S_, .i32⟩
  | 65 => ⟨S8, .i32⟩
  | 66 => ⟨S8, .i32⟩
  | 67 => ⟨S8, .i32⟩
  | 68 => ⟨S8x1, .i32⟩
  | 69 => ⟨S8x64x8x16, .f32⟩
  | 70 => ⟨S_, .i32⟩
  | 71 => ⟨S8, .i32⟩
  | 72 => ⟨S8, .i32⟩
  | 73 => ⟨S8, .i32⟩
  | 74 => ⟨S8x1, .i32⟩
  | 75 => ⟨S8x64x4096x16, .f32⟩
  | 76 => ⟨S8x64x8x16, .f32⟩
  | 77 => ⟨S_, .i32⟩
  | 78 => ⟨S8, .i32⟩
  | 79 => ⟨S8, .i32⟩
  | 80 => ⟨S8, .i32⟩
  | 81 => ⟨S8x1, .i32⟩
  | 82 => ⟨S8x64x4096x16, .f32⟩
  | 83 => ⟨S_, .i32⟩
  | 84 => ⟨S16, .i32⟩
  | 85 => ⟨S16, .i32⟩
  | 86 => ⟨S16, .i32⟩
  | 87 => ⟨S16x1, .i32⟩
  | 88 => ⟨S8x64x16x16, .f32⟩
  | 89 => ⟨S_, .i32⟩
  | 90 => ⟨S16, .i32⟩
  | 91 => ⟨S16, .i32⟩
  | 92 => ⟨S16, .i32⟩
  | 93 => ⟨S16x1, .i32⟩
  | 94 => ⟨S8x64x16x16, .f32⟩
  | 95 => ⟨S_, .i32⟩
  | 96 => ⟨S16, .i32⟩
  | 97 => ⟨S16, .i32⟩
  | 98 => ⟨S16, .i32⟩
  | 99 => ⟨S16x1, .i32⟩
  | 100 => ⟨S8x64x4096x16, .f32⟩
  | 101 => ⟨S8x64x16x16, .f32⟩
  | 102 => ⟨S_, .i32⟩
  | 103 => ⟨S16, .i32⟩
  | 104 => ⟨S16, .i32⟩
  | 105 => ⟨S16, .i32⟩
  | 106 => ⟨S16x1, .i32⟩
  | 107 => ⟨S8x64x4096x16, .f32⟩
  | 108 => ⟨S_, .i32⟩
  | 109 => ⟨S32, .i32⟩
  | 110 => ⟨S32, .i32⟩
  | 111 => ⟨S32, .i32⟩
  | 112 => ⟨S32x1, .i32⟩
  | 113 => ⟨S8x64x32x16, .f32⟩
  | 114 => ⟨S_, .i32⟩
  | 115 => ⟨S32, .i32⟩
  | 116 => ⟨S32, .i32⟩
  | 117 => ⟨S32, .i32⟩
  | 118 => ⟨S32x1, .i32⟩
  | 119 => ⟨S8x64x32x16, .f32⟩
  | 120 => ⟨S_, .i32⟩
  | 121 => ⟨S32, .i32⟩
  | 122 => ⟨S32, .i32⟩
  | 123 => ⟨S32, .i32⟩
  | 124 => ⟨S32x1, .i32⟩
  | 125 => ⟨S8x64x4096x16, .f32⟩
  | 126 => ⟨S8x64x32x16, .f32⟩
  | 127 => ⟨S_, .i32⟩
  | _ => ⟨S8x4096x64x16, .f32⟩

abbrev hbmTy0_4 (i : Nat) : BufTy := match i % 128 with
  | 0 => ⟨S32, .i32⟩
  | 1 => ⟨S32, .i32⟩
  | 2 => ⟨S32, .i32⟩
  | 3 => ⟨S32x1, .i32⟩
  | 4 => ⟨S8x64x4096x16, .f32⟩
  | 5 => ⟨S_, .i32⟩
  | 6 => ⟨S64, .i32⟩
  | 7 => ⟨S64, .i32⟩
  | 8 => ⟨S64, .i32⟩
  | 9 => ⟨S64x1, .i32⟩
  | 10 => ⟨S8x64x64x16, .f32⟩
  | 11 => ⟨S_, .i32⟩
  | 12 => ⟨S64, .i32⟩
  | 13 => ⟨S64, .i32⟩
  | 14 => ⟨S64, .i32⟩
  | 15 => ⟨S64x1, .i32⟩
  | 16 => ⟨S8x64x64x16, .f32⟩
  | 17 => ⟨S_, .i32⟩
  | 18 => ⟨S64, .i32⟩
  | 19 => ⟨S64, .i32⟩
  | 20 => ⟨S64, .i32⟩
  | 21 => ⟨S64x1, .i32⟩
  | 22 => ⟨S8x64x4096x16, .f32⟩
  | 23 => ⟨S8x64x64x16, .f32⟩
  | 24 => ⟨S_, .i32⟩
  | 25 => ⟨S64, .i32⟩
  | 26 => ⟨S64, .i32⟩
  | 27 => ⟨S64, .i32⟩
  | 28 => ⟨S64x1, .i32⟩
  | 29 => ⟨S8x64x4096x16, .f32⟩
  | 30 => ⟨S_, .i32⟩
  | 31 => ⟨S128, .i32⟩
  | 32 => ⟨S128, .i32⟩
  | 33 => ⟨S128, .i32⟩
  | 34 => ⟨S128x1, .i32⟩
  | 35 => ⟨S8x64x128x16, .f32⟩
  | 36 => ⟨S_, .i32⟩
  | 37 => ⟨S128, .i32⟩
  | 38 => ⟨S128, .i32⟩
  | 39 => ⟨S128, .i32⟩
  | 40 => ⟨S128x1, .i32⟩
  | 41 => ⟨S8x64x128x16, .f32⟩
  | 42 => ⟨S_, .i32⟩
  | 43 => ⟨S128, .i32⟩
  | 44 => ⟨S128, .i32⟩
  | 45 => ⟨S128, .i32⟩
  | 46 => ⟨S128x1, .i32⟩
  | 47 => ⟨S8x64x4096x16, .f32⟩
  | 48 => ⟨S8x64x128x16, .f32⟩
  | 49 => ⟨S_, .i32⟩
  | 50 => ⟨S128, .i32⟩
  | 51 => ⟨S128, .i32⟩
  | 52 => ⟨S128, .i32⟩
  | 53 => ⟨S128x1, .i32⟩
  | 54 => ⟨S8x64x4096x16, .f32⟩
  | 55 => ⟨S_, .i32⟩
  | 56 => ⟨S256, .i32⟩
  | 57 => ⟨S256, .i32⟩
  | 58 => ⟨S256, .i32⟩
  | 59 => ⟨S256x1, .i32⟩
  | 60 => ⟨S8x64x256x16, .f32⟩
  | 61 => ⟨S_, .i32⟩
  | 62 => ⟨S256, .i32⟩
  | 63 => ⟨S256, .i32⟩
  | 64 => ⟨S256, .i32⟩
  | 65 => ⟨S256x1, .i32⟩
  | 66 => ⟨S8x64x256x16, .f32⟩
  | 67 => ⟨S_, .i32⟩
  | 68 => ⟨S256, .i32⟩
  | 69 => ⟨S256, .i32⟩
  | 70 => ⟨S256, .i32⟩
  | 71 => ⟨S256x1, .i32⟩
  | 72 => ⟨S8x64x4096x16, .f32⟩
  | 73 => ⟨S8x64x256x16, .f32⟩
  | 74 => ⟨S_, .i32⟩
  | 75 => ⟨S256, .i32⟩
  | 76 => ⟨S256, .i32⟩
  | 77 => ⟨S256, .i32⟩
  | 78 => ⟨S256x1, .i32⟩
  | 79 => ⟨S8x64x4096x16, .f32⟩
  | 80 => ⟨S_, .i32⟩
  | 81 => ⟨S512, .i32⟩
  | 82 => ⟨S512, .i32⟩
  | 83 => ⟨S512, .i32⟩
  | 84 => ⟨S512x1, .i32⟩
  | 85 => ⟨S8x64x512x16, .f32⟩
  | 86 => ⟨S_, .i32⟩
  | 87 => ⟨S512, .i32⟩
  | 88 => ⟨S512, .i32⟩
  | 89 => ⟨S512, .i32⟩
  | 90 => ⟨S512x1, .i32⟩
  | 91 => ⟨S8x64x512x16, .f32⟩
  | 92 => ⟨S_, .i32⟩
  | 93 => ⟨S512, .i32⟩
  | 94 => ⟨S512, .i32⟩
  | 95 => ⟨S512, .i32⟩
  | 96 => ⟨S512x1, .i32⟩
  | 97 => ⟨S8x64x4096x16, .f32⟩
  | 98 => ⟨S8x64x512x16, .f32⟩
  | 99 => ⟨S_, .i32⟩
  | 100 => ⟨S512, .i32⟩
  | 101 => ⟨S512, .i32⟩
  | 102 => ⟨S512, .i32⟩
  | 103 => ⟨S512x1, .i32⟩
  | 104 => ⟨S8x64x4096x16, .f32⟩
  | 105 => ⟨S_, .i32⟩
  | 106 => ⟨S1024, .i32⟩
  | 107 => ⟨S1024, .i32⟩
  | 108 => ⟨S1024, .i32⟩
  | 109 => ⟨S1024x1, .i32⟩
  | 110 => ⟨S8x64x1024x16, .f32⟩
  | 111 => ⟨S_, .i32⟩
  | 112 => ⟨S1024, .i32⟩
  | 113 => ⟨S1024, .i32⟩
  | 114 => ⟨S1024, .i32⟩
  | 115 => ⟨S1024x1, .i32⟩
  | 116 => ⟨S8x64x1024x16, .f32⟩
  | 117 => ⟨S_, .i32⟩
  | 118 => ⟨S1024, .i32⟩
  | 119 => ⟨S1024, .i32⟩
  | 120 => ⟨S1024, .i32⟩
  | 121 => ⟨S1024x1, .i32⟩
  | 122 => ⟨S8x64x4096x16, .f32⟩
  | 123 => ⟨S8x64x1024x16, .f32⟩
  | 124 => ⟨S_, .i32⟩
  | 125 => ⟨S1024, .i32⟩
  | 126 => ⟨S1024, .i32⟩
  | 127 => ⟨S1024, .i32⟩
  | _ => ⟨S8x4096x64x16, .f32⟩

abbrev hbmTy0_5 (i : Nat) : BufTy := match i % 128 with
  | 0 => ⟨S1024x1, .i32⟩
  | 1 => ⟨S8x64x4096x16, .f32⟩
  | 2 => ⟨S_, .i32⟩
  | 3 => ⟨S2048, .i32⟩
  | 4 => ⟨S2048, .i32⟩
  | 5 => ⟨S2048, .i32⟩
  | 6 => ⟨S2048x1, .i32⟩
  | 7 => ⟨S8x64x2048x16, .f32⟩
  | 8 => ⟨S_, .i32⟩
  | 9 => ⟨S2048, .i32⟩
  | 10 => ⟨S2048, .i32⟩
  | 11 => ⟨S2048, .i32⟩
  | 12 => ⟨S2048x1, .i32⟩
  | 13 => ⟨S8x64x2048x16, .f32⟩
  | 14 => ⟨S_, .i32⟩
  | 15 => ⟨S2048, .i32⟩
  | 16 => ⟨S2048, .i32⟩
  | 17 => ⟨S2048, .i32⟩
  | 18 => ⟨S2048x1, .i32⟩
  | 19 => ⟨S8x64x4096x16, .f32⟩
  | 20 => ⟨S8x64x2048x16, .f32⟩
  | 21 => ⟨S_, .i32⟩
  | 22 => ⟨S2048, .i32⟩
  | 23 => ⟨S2048, .i32⟩
  | 24 => ⟨S2048, .i32⟩
  | 25 => ⟨S2048x1, .i32⟩
  | 26 => ⟨S8x64x4096x16, .f32⟩
  | 27 => ⟨S8x64x4096x16, .f32⟩
  | 28 => ⟨S8x4096x64x16, .f32⟩
  | _ => ⟨S8x4096x64x16, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8x4096x64x16, .f32⟩

abbrev bufTy : (tb : Table) → Fin (tcTables nBuf tb) → BufTy
  | .hbm, ⟨i, _⟩ => hbmTy i
  | _, _ => ⟨S8x4096x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_c_4 : Ref sig .tc := ⟨.hbm, 6, rfl⟩
abbrev main_c_5 : Ref sig .tc := ⟨.hbm, 7, rfl⟩
abbrev main_c_6 : Ref sig .tc := ⟨.hbm, 8, rfl⟩
abbrev main_c_7 : Ref sig .tc := ⟨.hbm, 9, rfl⟩
abbrev main_c_8 : Ref sig .tc := ⟨.hbm, 10, rfl⟩
abbrev main_c_9 : Ref sig .tc := ⟨.hbm, 11, rfl⟩
abbrev main_c_10 : Ref sig .tc := ⟨.hbm, 12, rfl⟩
abbrev main_c_11 : Ref sig .tc := ⟨.hbm, 13, rfl⟩
abbrev main_c_12 : Ref sig .tc := ⟨.hbm, 14, rfl⟩
abbrev main_c_13 : Ref sig .tc := ⟨.hbm, 15, rfl⟩
abbrev main_c_14 : Ref sig .tc := ⟨.hbm, 16, rfl⟩
abbrev main_c_15 : Ref sig .tc := ⟨.hbm, 17, rfl⟩
abbrev main_c_16 : Ref sig .tc := ⟨.hbm, 18, rfl⟩
abbrev main_c_17 : Ref sig .tc := ⟨.hbm, 19, rfl⟩
abbrev main_c_18 : Ref sig .tc := ⟨.hbm, 20, rfl⟩
abbrev main_c_19 : Ref sig .tc := ⟨.hbm, 21, rfl⟩
abbrev main_c_20 : Ref sig .tc := ⟨.hbm, 22, rfl⟩
abbrev main_c_21 : Ref sig .tc := ⟨.hbm, 23, rfl⟩
abbrev main_c_22 : Ref sig .tc := ⟨.hbm, 24, rfl⟩
abbrev main_c_23 : Ref sig .tc := ⟨.hbm, 25, rfl⟩
abbrev main_c_24 : Ref sig .tc := ⟨.hbm, 26, rfl⟩
abbrev main_c_25 : Ref sig .tc := ⟨.hbm, 27, rfl⟩
abbrev main_c_26 : Ref sig .tc := ⟨.hbm, 28, rfl⟩
abbrev main_c_27 : Ref sig .tc := ⟨.hbm, 29, rfl⟩
abbrev main_c_28 : Ref sig .tc := ⟨.hbm, 30, rfl⟩
abbrev main_c_29 : Ref sig .tc := ⟨.hbm, 31, rfl⟩
abbrev main_c_30 : Ref sig .tc := ⟨.hbm, 32, rfl⟩
abbrev main_c_31 : Ref sig .tc := ⟨.hbm, 33, rfl⟩
abbrev main_c_32 : Ref sig .tc := ⟨.hbm, 34, rfl⟩
abbrev main_c_33 : Ref sig .tc := ⟨.hbm, 35, rfl⟩
abbrev main_c_34 : Ref sig .tc := ⟨.hbm, 36, rfl⟩
abbrev main_c_35 : Ref sig .tc := ⟨.hbm, 37, rfl⟩
abbrev main_c_36 : Ref sig .tc := ⟨.hbm, 38, rfl⟩
abbrev main_c_37 : Ref sig .tc := ⟨.hbm, 39, rfl⟩
abbrev main_c_38 : Ref sig .tc := ⟨.hbm, 40, rfl⟩
abbrev main_c_39 : Ref sig .tc := ⟨.hbm, 41, rfl⟩
abbrev main_c_40 : Ref sig .tc := ⟨.hbm, 42, rfl⟩
abbrev main_c_41 : Ref sig .tc := ⟨.hbm, 43, rfl⟩
abbrev main_c_42 : Ref sig .tc := ⟨.hbm, 44, rfl⟩
abbrev main_c_43 : Ref sig .tc := ⟨.hbm, 45, rfl⟩
abbrev main_c_44 : Ref sig .tc := ⟨.hbm, 46, rfl⟩
abbrev main_c_45 : Ref sig .tc := ⟨.hbm, 47, rfl⟩
abbrev main_c_46 : Ref sig .tc := ⟨.hbm, 48, rfl⟩
abbrev main_c_47 : Ref sig .tc := ⟨.hbm, 49, rfl⟩
abbrev main_c_48 : Ref sig .tc := ⟨.hbm, 50, rfl⟩
abbrev main_c_49 : Ref sig .tc := ⟨.hbm, 51, rfl⟩
abbrev main_c_50 : Ref sig .tc := ⟨.hbm, 52, rfl⟩
abbrev main_c_51 : Ref sig .tc := ⟨.hbm, 53, rfl⟩
abbrev main_c_52 : Ref sig .tc := ⟨.hbm, 54, rfl⟩
abbrev main_c_53 : Ref sig .tc := ⟨.hbm, 55, rfl⟩
abbrev main_c_54 : Ref sig .tc := ⟨.hbm, 56, rfl⟩
abbrev main_c_55 : Ref sig .tc := ⟨.hbm, 57, rfl⟩
abbrev main_c_56 : Ref sig .tc := ⟨.hbm, 58, rfl⟩
abbrev main_c_57 : Ref sig .tc := ⟨.hbm, 59, rfl⟩
abbrev main_c_58 : Ref sig .tc := ⟨.hbm, 60, rfl⟩
abbrev main_c_59 : Ref sig .tc := ⟨.hbm, 61, rfl⟩
abbrev main_c_60 : Ref sig .tc := ⟨.hbm, 62, rfl⟩
abbrev main_c_61 : Ref sig .tc := ⟨.hbm, 63, rfl⟩
abbrev main_c_62 : Ref sig .tc := ⟨.hbm, 64, rfl⟩
abbrev main_c_63 : Ref sig .tc := ⟨.hbm, 65, rfl⟩
abbrev main_c_64 : Ref sig .tc := ⟨.hbm, 66, rfl⟩
abbrev main_c_65 : Ref sig .tc := ⟨.hbm, 67, rfl⟩
abbrev main_c_66 : Ref sig .tc := ⟨.hbm, 68, rfl⟩
abbrev main_c_67 : Ref sig .tc := ⟨.hbm, 69, rfl⟩
abbrev main_c_68 : Ref sig .tc := ⟨.hbm, 70, rfl⟩
abbrev main_c_69 : Ref sig .tc := ⟨.hbm, 71, rfl⟩
abbrev main_c_70 : Ref sig .tc := ⟨.hbm, 72, rfl⟩
abbrev main_c_71 : Ref sig .tc := ⟨.hbm, 73, rfl⟩
abbrev main_c_72 : Ref sig .tc := ⟨.hbm, 74, rfl⟩
abbrev main_c_73 : Ref sig .tc := ⟨.hbm, 75, rfl⟩
abbrev main_c_74 : Ref sig .tc := ⟨.hbm, 76, rfl⟩
abbrev main_c_75 : Ref sig .tc := ⟨.hbm, 77, rfl⟩
abbrev main_c_76 : Ref sig .tc := ⟨.hbm, 78, rfl⟩
abbrev main_c_77 : Ref sig .tc := ⟨.hbm, 79, rfl⟩
abbrev main_c_78 : Ref sig .tc := ⟨.hbm, 80, rfl⟩
abbrev main_c_79 : Ref sig .tc := ⟨.hbm, 81, rfl⟩
abbrev main_c_80 : Ref sig .tc := ⟨.hbm, 82, rfl⟩
abbrev main_c_81 : Ref sig .tc := ⟨.hbm, 83, rfl⟩
abbrev main_c_82 : Ref sig .tc := ⟨.hbm, 84, rfl⟩
abbrev main_c_83 : Ref sig .tc := ⟨.hbm, 85, rfl⟩
abbrev main_c_84 : Ref sig .tc := ⟨.hbm, 86, rfl⟩
abbrev main_c_85 : Ref sig .tc := ⟨.hbm, 87, rfl⟩
abbrev main_c_86 : Ref sig .tc := ⟨.hbm, 88, rfl⟩
abbrev main_c_87 : Ref sig .tc := ⟨.hbm, 89, rfl⟩
abbrev main_c_88 : Ref sig .tc := ⟨.hbm, 90, rfl⟩
abbrev main_c_89 : Ref sig .tc := ⟨.hbm, 91, rfl⟩
abbrev main_c_90 : Ref sig .tc := ⟨.hbm, 92, rfl⟩
abbrev main_c_91 : Ref sig .tc := ⟨.hbm, 93, rfl⟩
abbrev main_c_92 : Ref sig .tc := ⟨.hbm, 94, rfl⟩
abbrev main_c_93 : Ref sig .tc := ⟨.hbm, 95, rfl⟩
abbrev main_c_94 : Ref sig .tc := ⟨.hbm, 96, rfl⟩
abbrev main_c_95 : Ref sig .tc := ⟨.hbm, 97, rfl⟩
abbrev main_c_96 : Ref sig .tc := ⟨.hbm, 98, rfl⟩
abbrev main_c_97 : Ref sig .tc := ⟨.hbm, 99, rfl⟩
abbrev main_c_98 : Ref sig .tc := ⟨.hbm, 100, rfl⟩
abbrev main_c_99 : Ref sig .tc := ⟨.hbm, 101, rfl⟩
abbrev main_c_100 : Ref sig .tc := ⟨.hbm, 102, rfl⟩
abbrev main_c_101 : Ref sig .tc := ⟨.hbm, 103, rfl⟩
abbrev main_c_102 : Ref sig .tc := ⟨.hbm, 104, rfl⟩
abbrev main_c_103 : Ref sig .tc := ⟨.hbm, 105, rfl⟩
abbrev main_c_104 : Ref sig .tc := ⟨.hbm, 106, rfl⟩
abbrev main_c_105 : Ref sig .tc := ⟨.hbm, 107, rfl⟩
abbrev main_c_106 : Ref sig .tc := ⟨.hbm, 108, rfl⟩
abbrev main_c_107 : Ref sig .tc := ⟨.hbm, 109, rfl⟩
abbrev main_c_108 : Ref sig .tc := ⟨.hbm, 110, rfl⟩
abbrev main_c_109 : Ref sig .tc := ⟨.hbm, 111, rfl⟩
abbrev main_c_110 : Ref sig .tc := ⟨.hbm, 112, rfl⟩
abbrev main_c_111 : Ref sig .tc := ⟨.hbm, 113, rfl⟩
abbrev main_c_112 : Ref sig .tc := ⟨.hbm, 114, rfl⟩
abbrev main_c_113 : Ref sig .tc := ⟨.hbm, 115, rfl⟩
abbrev main_c_114 : Ref sig .tc := ⟨.hbm, 116, rfl⟩
abbrev main_c_115 : Ref sig .tc := ⟨.hbm, 117, rfl⟩
abbrev main_c_116 : Ref sig .tc := ⟨.hbm, 118, rfl⟩
abbrev main_c_117 : Ref sig .tc := ⟨.hbm, 119, rfl⟩
abbrev main_c_118 : Ref sig .tc := ⟨.hbm, 120, rfl⟩
abbrev main_c_119 : Ref sig .tc := ⟨.hbm, 121, rfl⟩
abbrev main_c_120 : Ref sig .tc := ⟨.hbm, 122, rfl⟩
abbrev main_c_121 : Ref sig .tc := ⟨.hbm, 123, rfl⟩
abbrev main_c_122 : Ref sig .tc := ⟨.hbm, 124, rfl⟩
abbrev main_c_123 : Ref sig .tc := ⟨.hbm, 125, rfl⟩
abbrev main_c_124 : Ref sig .tc := ⟨.hbm, 126, rfl⟩
abbrev main_c_125 : Ref sig .tc := ⟨.hbm, 127, rfl⟩
abbrev main_c_126 : Ref sig .tc := ⟨.hbm, 128, rfl⟩
abbrev main_c_127 : Ref sig .tc := ⟨.hbm, 129, rfl⟩
abbrev main_c_128 : Ref sig .tc := ⟨.hbm, 130, rfl⟩
abbrev main_c_129 : Ref sig .tc := ⟨.hbm, 131, rfl⟩
abbrev main_c_130 : Ref sig .tc := ⟨.hbm, 132, rfl⟩
abbrev main_cst : Ref sig .tc := ⟨.hbm, 133, rfl⟩
abbrev main_v0 : Ref sig .tc := ⟨.hbm, 134, rfl⟩
abbrev main_v1 : Ref sig .tc := ⟨.hbm, 135, rfl⟩
abbrev main_c_131 : Ref sig .tc := ⟨.hbm, 136, rfl⟩
abbrev main_v2 : Ref sig .tc := ⟨.hbm, 137, rfl⟩
abbrev main_v3 : Ref sig .tc := ⟨.hbm, 138, rfl⟩
abbrev main_v4 : Ref sig .tc := ⟨.hbm, 139, rfl⟩
abbrev main_v5 : Ref sig .tc := ⟨.hbm, 140, rfl⟩
abbrev main_v6 : Ref sig .tc := ⟨.hbm, 141, rfl⟩
abbrev main_c_132 : Ref sig .tc := ⟨.hbm, 142, rfl⟩
abbrev main_v7 : Ref sig .tc := ⟨.hbm, 143, rfl⟩
abbrev main_v8 : Ref sig .tc := ⟨.hbm, 144, rfl⟩
abbrev main_v9 : Ref sig .tc := ⟨.hbm, 145, rfl⟩
abbrev main_v10 : Ref sig .tc := ⟨.hbm, 146, rfl⟩
abbrev main_v11 : Ref sig .tc := ⟨.hbm, 147, rfl⟩
abbrev main_v12 : Ref sig .tc := ⟨.hbm, 148, rfl⟩
abbrev main_c_133 : Ref sig .tc := ⟨.hbm, 149, rfl⟩
abbrev main_v13 : Ref sig .tc := ⟨.hbm, 150, rfl⟩
abbrev main_v14 : Ref sig .tc := ⟨.hbm, 151, rfl⟩
abbrev main_v15 : Ref sig .tc := ⟨.hbm, 152, rfl⟩
abbrev main_v16 : Ref sig .tc := ⟨.hbm, 153, rfl⟩
abbrev main_v17 : Ref sig .tc := ⟨.hbm, 154, rfl⟩
abbrev main_c_134 : Ref sig .tc := ⟨.hbm, 155, rfl⟩
abbrev main_v18 : Ref sig .tc := ⟨.hbm, 156, rfl⟩
abbrev main_v19 : Ref sig .tc := ⟨.hbm, 157, rfl⟩
abbrev main_v20 : Ref sig .tc := ⟨.hbm, 158, rfl⟩
abbrev main_v21 : Ref sig .tc := ⟨.hbm, 159, rfl⟩
abbrev main_v22 : Ref sig .tc := ⟨.hbm, 160, rfl⟩
abbrev main_c_135 : Ref sig .tc := ⟨.hbm, 161, rfl⟩
abbrev main_v23 : Ref sig .tc := ⟨.hbm, 162, rfl⟩
abbrev main_v24 : Ref sig .tc := ⟨.hbm, 163, rfl⟩
abbrev main_v25 : Ref sig .tc := ⟨.hbm, 164, rfl⟩
abbrev main_v26 : Ref sig .tc := ⟨.hbm, 165, rfl⟩
abbrev main_v27 : Ref sig .tc := ⟨.hbm, 166, rfl⟩
abbrev main_v28 : Ref sig .tc := ⟨.hbm, 167, rfl⟩
abbrev main_c_136 : Ref sig .tc := ⟨.hbm, 168, rfl⟩
abbrev main_v29 : Ref sig .tc := ⟨.hbm, 169, rfl⟩
abbrev main_v30 : Ref sig .tc := ⟨.hbm, 170, rfl⟩
abbrev main_v31 : Ref sig .tc := ⟨.hbm, 171, rfl⟩
abbrev main_v32 : Ref sig .tc := ⟨.hbm, 172, rfl⟩
abbrev main_v33 : Ref sig .tc := ⟨.hbm, 173, rfl⟩
abbrev main_c_137 : Ref sig .tc := ⟨.hbm, 174, rfl⟩
abbrev main_v34 : Ref sig .tc := ⟨.hbm, 175, rfl⟩
abbrev main_v35 : Ref sig .tc := ⟨.hbm, 176, rfl⟩
abbrev main_v36 : Ref sig .tc := ⟨.hbm, 177, rfl⟩
abbrev main_v37 : Ref sig .tc := ⟨.hbm, 178, rfl⟩
abbrev main_v38 : Ref sig .tc := ⟨.hbm, 179, rfl⟩
abbrev main_c_138 : Ref sig .tc := ⟨.hbm, 180, rfl⟩
abbrev main_v39 : Ref sig .tc := ⟨.hbm, 181, rfl⟩
abbrev main_v40 : Ref sig .tc := ⟨.hbm, 182, rfl⟩
abbrev main_v41 : Ref sig .tc := ⟨.hbm, 183, rfl⟩
abbrev main_v42 : Ref sig .tc := ⟨.hbm, 184, rfl⟩
abbrev main_v43 : Ref sig .tc := ⟨.hbm, 185, rfl⟩
abbrev main_v44 : Ref sig .tc := ⟨.hbm, 186, rfl⟩
abbrev main_c_139 : Ref sig .tc := ⟨.hbm, 187, rfl⟩
abbrev main_v45 : Ref sig .tc := ⟨.hbm, 188, rfl⟩
abbrev main_v46 : Ref sig .tc := ⟨.hbm, 189, rfl⟩
abbrev main_v47 : Ref sig .tc := ⟨.hbm, 190, rfl⟩
abbrev main_v48 : Ref sig .tc := ⟨.hbm, 191, rfl⟩
abbrev main_v49 : Ref sig .tc := ⟨.hbm, 192, rfl⟩
abbrev main_c_140 : Ref sig .tc := ⟨.hbm, 193, rfl⟩
abbrev main_v50 : Ref sig .tc := ⟨.hbm, 194, rfl⟩
abbrev main_v51 : Ref sig .tc := ⟨.hbm, 195, rfl⟩
abbrev main_v52 : Ref sig .tc := ⟨.hbm, 196, rfl⟩
abbrev main_v53 : Ref sig .tc := ⟨.hbm, 197, rfl⟩
abbrev main_v54 : Ref sig .tc := ⟨.hbm, 198, rfl⟩
abbrev main_c_141 : Ref sig .tc := ⟨.hbm, 199, rfl⟩
abbrev main_v55 : Ref sig .tc := ⟨.hbm, 200, rfl⟩
abbrev main_v56 : Ref sig .tc := ⟨.hbm, 201, rfl⟩
abbrev main_v57 : Ref sig .tc := ⟨.hbm, 202, rfl⟩
abbrev main_v58 : Ref sig .tc := ⟨.hbm, 203, rfl⟩
abbrev main_v59 : Ref sig .tc := ⟨.hbm, 204, rfl⟩
abbrev main_v60 : Ref sig .tc := ⟨.hbm, 205, rfl⟩
abbrev main_c_142 : Ref sig .tc := ⟨.hbm, 206, rfl⟩
abbrev main_v61 : Ref sig .tc := ⟨.hbm, 207, rfl⟩
abbrev main_v62 : Ref sig .tc := ⟨.hbm, 208, rfl⟩
abbrev main_v63 : Ref sig .tc := ⟨.hbm, 209, rfl⟩
abbrev main_v64 : Ref sig .tc := ⟨.hbm, 210, rfl⟩
abbrev main_v65 : Ref sig .tc := ⟨.hbm, 211, rfl⟩
abbrev main_c_143 : Ref sig .tc := ⟨.hbm, 212, rfl⟩
abbrev main_v66 : Ref sig .tc := ⟨.hbm, 213, rfl⟩
abbrev main_v67 : Ref sig .tc := ⟨.hbm, 214, rfl⟩
abbrev main_v68 : Ref sig .tc := ⟨.hbm, 215, rfl⟩
abbrev main_v69 : Ref sig .tc := ⟨.hbm, 216, rfl⟩
abbrev main_v70 : Ref sig .tc := ⟨.hbm, 217, rfl⟩
abbrev main_c_144 : Ref sig .tc := ⟨.hbm, 218, rfl⟩
abbrev main_v71 : Ref sig .tc := ⟨.hbm, 219, rfl⟩
abbrev main_v72 : Ref sig .tc := ⟨.hbm, 220, rfl⟩
abbrev main_v73 : Ref sig .tc := ⟨.hbm, 221, rfl⟩
abbrev main_v74 : Ref sig .tc := ⟨.hbm, 222, rfl⟩
abbrev main_v75 : Ref sig .tc := ⟨.hbm, 223, rfl⟩
abbrev main_v76 : Ref sig .tc := ⟨.hbm, 224, rfl⟩
abbrev main_c_145 : Ref sig .tc := ⟨.hbm, 225, rfl⟩
abbrev main_v77 : Ref sig .tc := ⟨.hbm, 226, rfl⟩
abbrev main_v78 : Ref sig .tc := ⟨.hbm, 227, rfl⟩
abbrev main_v79 : Ref sig .tc := ⟨.hbm, 228, rfl⟩
abbrev main_v80 : Ref sig .tc := ⟨.hbm, 229, rfl⟩
abbrev main_v81 : Ref sig .tc := ⟨.hbm, 230, rfl⟩
abbrev main_c_146 : Ref sig .tc := ⟨.hbm, 231, rfl⟩
abbrev main_v82 : Ref sig .tc := ⟨.hbm, 232, rfl⟩
abbrev main_v83 : Ref sig .tc := ⟨.hbm, 233, rfl⟩
abbrev main_v84 : Ref sig .tc := ⟨.hbm, 234, rfl⟩
abbrev main_v85 : Ref sig .tc := ⟨.hbm, 235, rfl⟩
abbrev main_v86 : Ref sig .tc := ⟨.hbm, 236, rfl⟩
abbrev main_c_147 : Ref sig .tc := ⟨.hbm, 237, rfl⟩
abbrev main_v87 : Ref sig .tc := ⟨.hbm, 238, rfl⟩
abbrev main_v88 : Ref sig .tc := ⟨.hbm, 239, rfl⟩
abbrev main_v89 : Ref sig .tc := ⟨.hbm, 240, rfl⟩
abbrev main_v90 : Ref sig .tc := ⟨.hbm, 241, rfl⟩
abbrev main_v91 : Ref sig .tc := ⟨.hbm, 242, rfl⟩
abbrev main_v92 : Ref sig .tc := ⟨.hbm, 243, rfl⟩
abbrev main_c_148 : Ref sig .tc := ⟨.hbm, 244, rfl⟩
abbrev main_v93 : Ref sig .tc := ⟨.hbm, 245, rfl⟩
abbrev main_v94 : Ref sig .tc := ⟨.hbm, 246, rfl⟩
abbrev main_v95 : Ref sig .tc := ⟨.hbm, 247, rfl⟩
abbrev main_v96 : Ref sig .tc := ⟨.hbm, 248, rfl⟩
abbrev main_v97 : Ref sig .tc := ⟨.hbm, 249, rfl⟩
abbrev main_c_149 : Ref sig .tc := ⟨.hbm, 250, rfl⟩
abbrev main_v98 : Ref sig .tc := ⟨.hbm, 251, rfl⟩
abbrev main_v99 : Ref sig .tc := ⟨.hbm, 252, rfl⟩
abbrev main_v100 : Ref sig .tc := ⟨.hbm, 253, rfl⟩
abbrev main_v101 : Ref sig .tc := ⟨.hbm, 254, rfl⟩
abbrev main_v102 : Ref sig .tc := ⟨.hbm, 255, rfl⟩
abbrev main_c_150 : Ref sig .tc := ⟨.hbm, 256, rfl⟩
abbrev main_v103 : Ref sig .tc := ⟨.hbm, 257, rfl⟩
abbrev main_v104 : Ref sig .tc := ⟨.hbm, 258, rfl⟩
abbrev main_v105 : Ref sig .tc := ⟨.hbm, 259, rfl⟩
abbrev main_v106 : Ref sig .tc := ⟨.hbm, 260, rfl⟩
abbrev main_v107 : Ref sig .tc := ⟨.hbm, 261, rfl⟩
abbrev main_v108 : Ref sig .tc := ⟨.hbm, 262, rfl⟩
abbrev main_c_151 : Ref sig .tc := ⟨.hbm, 263, rfl⟩
abbrev main_v109 : Ref sig .tc := ⟨.hbm, 264, rfl⟩
abbrev main_v110 : Ref sig .tc := ⟨.hbm, 265, rfl⟩
abbrev main_v111 : Ref sig .tc := ⟨.hbm, 266, rfl⟩
abbrev main_v112 : Ref sig .tc := ⟨.hbm, 267, rfl⟩
abbrev main_v113 : Ref sig .tc := ⟨.hbm, 268, rfl⟩
abbrev main_c_152 : Ref sig .tc := ⟨.hbm, 269, rfl⟩
abbrev main_v114 : Ref sig .tc := ⟨.hbm, 270, rfl⟩
abbrev main_v115 : Ref sig .tc := ⟨.hbm, 271, rfl⟩
abbrev main_v116 : Ref sig .tc := ⟨.hbm, 272, rfl⟩
abbrev main_v117 : Ref sig .tc := ⟨.hbm, 273, rfl⟩
abbrev main_v118 : Ref sig .tc := ⟨.hbm, 274, rfl⟩
abbrev main_c_153 : Ref sig .tc := ⟨.hbm, 275, rfl⟩
abbrev main_v119 : Ref sig .tc := ⟨.hbm, 276, rfl⟩
abbrev main_v120 : Ref sig .tc := ⟨.hbm, 277, rfl⟩
abbrev main_v121 : Ref sig .tc := ⟨.hbm, 278, rfl⟩
abbrev main_v122 : Ref sig .tc := ⟨.hbm, 279, rfl⟩
abbrev main_v123 : Ref sig .tc := ⟨.hbm, 280, rfl⟩
abbrev main_v124 : Ref sig .tc := ⟨.hbm, 281, rfl⟩
abbrev main_c_154 : Ref sig .tc := ⟨.hbm, 282, rfl⟩
abbrev main_v125 : Ref sig .tc := ⟨.hbm, 283, rfl⟩
abbrev main_v126 : Ref sig .tc := ⟨.hbm, 284, rfl⟩
abbrev main_v127 : Ref sig .tc := ⟨.hbm, 285, rfl⟩
abbrev main_v128 : Ref sig .tc := ⟨.hbm, 286, rfl⟩
abbrev main_v129 : Ref sig .tc := ⟨.hbm, 287, rfl⟩
abbrev main_c_155 : Ref sig .tc := ⟨.hbm, 288, rfl⟩
abbrev main_v130 : Ref sig .tc := ⟨.hbm, 289, rfl⟩
abbrev main_v131 : Ref sig .tc := ⟨.hbm, 290, rfl⟩
abbrev main_v132 : Ref sig .tc := ⟨.hbm, 291, rfl⟩
abbrev main_v133 : Ref sig .tc := ⟨.hbm, 292, rfl⟩
abbrev main_v134 : Ref sig .tc := ⟨.hbm, 293, rfl⟩
abbrev main_c_156 : Ref sig .tc := ⟨.hbm, 294, rfl⟩
abbrev main_v135 : Ref sig .tc := ⟨.hbm, 295, rfl⟩
abbrev main_v136 : Ref sig .tc := ⟨.hbm, 296, rfl⟩
abbrev main_v137 : Ref sig .tc := ⟨.hbm, 297, rfl⟩
abbrev main_v138 : Ref sig .tc := ⟨.hbm, 298, rfl⟩
abbrev main_v139 : Ref sig .tc := ⟨.hbm, 299, rfl⟩
abbrev main_v140 : Ref sig .tc := ⟨.hbm, 300, rfl⟩
abbrev main_c_157 : Ref sig .tc := ⟨.hbm, 301, rfl⟩
abbrev main_v141 : Ref sig .tc := ⟨.hbm, 302, rfl⟩
abbrev main_v142 : Ref sig .tc := ⟨.hbm, 303, rfl⟩
abbrev main_v143 : Ref sig .tc := ⟨.hbm, 304, rfl⟩
abbrev main_v144 : Ref sig .tc := ⟨.hbm, 305, rfl⟩
abbrev main_v145 : Ref sig .tc := ⟨.hbm, 306, rfl⟩
abbrev main_c_158 : Ref sig .tc := ⟨.hbm, 307, rfl⟩
abbrev main_v146 : Ref sig .tc := ⟨.hbm, 308, rfl⟩
abbrev main_v147 : Ref sig .tc := ⟨.hbm, 309, rfl⟩
abbrev main_v148 : Ref sig .tc := ⟨.hbm, 310, rfl⟩
abbrev main_v149 : Ref sig .tc := ⟨.hbm, 311, rfl⟩
abbrev main_v150 : Ref sig .tc := ⟨.hbm, 312, rfl⟩
abbrev main_c_159 : Ref sig .tc := ⟨.hbm, 313, rfl⟩
abbrev main_v151 : Ref sig .tc := ⟨.hbm, 314, rfl⟩
abbrev main_v152 : Ref sig .tc := ⟨.hbm, 315, rfl⟩
abbrev main_v153 : Ref sig .tc := ⟨.hbm, 316, rfl⟩
abbrev main_v154 : Ref sig .tc := ⟨.hbm, 317, rfl⟩
abbrev main_v155 : Ref sig .tc := ⟨.hbm, 318, rfl⟩
abbrev main_v156 : Ref sig .tc := ⟨.hbm, 319, rfl⟩
abbrev main_c_160 : Ref sig .tc := ⟨.hbm, 320, rfl⟩
abbrev main_v157 : Ref sig .tc := ⟨.hbm, 321, rfl⟩
abbrev main_v158 : Ref sig .tc := ⟨.hbm, 322, rfl⟩
abbrev main_v159 : Ref sig .tc := ⟨.hbm, 323, rfl⟩
abbrev main_v160 : Ref sig .tc := ⟨.hbm, 324, rfl⟩
abbrev main_v161 : Ref sig .tc := ⟨.hbm, 325, rfl⟩
abbrev main_c_161 : Ref sig .tc := ⟨.hbm, 326, rfl⟩
abbrev main_v162 : Ref sig .tc := ⟨.hbm, 327, rfl⟩
abbrev main_v163 : Ref sig .tc := ⟨.hbm, 328, rfl⟩
abbrev main_v164 : Ref sig .tc := ⟨.hbm, 329, rfl⟩
abbrev main_v165 : Ref sig .tc := ⟨.hbm, 330, rfl⟩
abbrev main_v166 : Ref sig .tc := ⟨.hbm, 331, rfl⟩
abbrev main_c_162 : Ref sig .tc := ⟨.hbm, 332, rfl⟩
abbrev main_v167 : Ref sig .tc := ⟨.hbm, 333, rfl⟩
abbrev main_v168 : Ref sig .tc := ⟨.hbm, 334, rfl⟩
abbrev main_v169 : Ref sig .tc := ⟨.hbm, 335, rfl⟩
abbrev main_v170 : Ref sig .tc := ⟨.hbm, 336, rfl⟩
abbrev main_v171 : Ref sig .tc := ⟨.hbm, 337, rfl⟩
abbrev main_v172 : Ref sig .tc := ⟨.hbm, 338, rfl⟩
abbrev main_c_163 : Ref sig .tc := ⟨.hbm, 339, rfl⟩
abbrev main_v173 : Ref sig .tc := ⟨.hbm, 340, rfl⟩
abbrev main_v174 : Ref sig .tc := ⟨.hbm, 341, rfl⟩
abbrev main_v175 : Ref sig .tc := ⟨.hbm, 342, rfl⟩
abbrev main_v176 : Ref sig .tc := ⟨.hbm, 343, rfl⟩
abbrev main_v177 : Ref sig .tc := ⟨.hbm, 344, rfl⟩
abbrev main_c_164 : Ref sig .tc := ⟨.hbm, 345, rfl⟩
abbrev main_v178 : Ref sig .tc := ⟨.hbm, 346, rfl⟩
abbrev main_v179 : Ref sig .tc := ⟨.hbm, 347, rfl⟩
abbrev main_v180 : Ref sig .tc := ⟨.hbm, 348, rfl⟩
abbrev main_v181 : Ref sig .tc := ⟨.hbm, 349, rfl⟩
abbrev main_v182 : Ref sig .tc := ⟨.hbm, 350, rfl⟩
abbrev main_c_165 : Ref sig .tc := ⟨.hbm, 351, rfl⟩
abbrev main_v183 : Ref sig .tc := ⟨.hbm, 352, rfl⟩
abbrev main_v184 : Ref sig .tc := ⟨.hbm, 353, rfl⟩
abbrev main_v185 : Ref sig .tc := ⟨.hbm, 354, rfl⟩
abbrev main_v186 : Ref sig .tc := ⟨.hbm, 355, rfl⟩
abbrev main_v187 : Ref sig .tc := ⟨.hbm, 356, rfl⟩
abbrev main_v188 : Ref sig .tc := ⟨.hbm, 357, rfl⟩
abbrev main_c_166 : Ref sig .tc := ⟨.hbm, 358, rfl⟩
abbrev main_v189 : Ref sig .tc := ⟨.hbm, 359, rfl⟩
abbrev main_v190 : Ref sig .tc := ⟨.hbm, 360, rfl⟩
abbrev main_v191 : Ref sig .tc := ⟨.hbm, 361, rfl⟩
abbrev main_v192 : Ref sig .tc := ⟨.hbm, 362, rfl⟩
abbrev main_v193 : Ref sig .tc := ⟨.hbm, 363, rfl⟩
abbrev main_c_167 : Ref sig .tc := ⟨.hbm, 364, rfl⟩
abbrev main_v194 : Ref sig .tc := ⟨.hbm, 365, rfl⟩
abbrev main_v195 : Ref sig .tc := ⟨.hbm, 366, rfl⟩
abbrev main_c_168 : Ref sig .tc := ⟨.hbm, 367, rfl⟩
abbrev main_v196 : Ref sig .tc := ⟨.hbm, 368, rfl⟩
abbrev main_v197 : Ref sig .tc := ⟨.hbm, 369, rfl⟩
abbrev main_v198 : Ref sig .tc := ⟨.hbm, 370, rfl⟩
abbrev main_v199 : Ref sig .tc := ⟨.hbm, 371, rfl⟩
abbrev main_v200 : Ref sig .tc := ⟨.hbm, 372, rfl⟩
abbrev main_c_169 : Ref sig .tc := ⟨.hbm, 373, rfl⟩
abbrev main_v201 : Ref sig .tc := ⟨.hbm, 374, rfl⟩
abbrev main_v202 : Ref sig .tc := ⟨.hbm, 375, rfl⟩
abbrev main_v203 : Ref sig .tc := ⟨.hbm, 376, rfl⟩
abbrev main_v204 : Ref sig .tc := ⟨.hbm, 377, rfl⟩
abbrev main_v205 : Ref sig .tc := ⟨.hbm, 378, rfl⟩
abbrev main_c_170 : Ref sig .tc := ⟨.hbm, 379, rfl⟩
abbrev main_v206 : Ref sig .tc := ⟨.hbm, 380, rfl⟩
abbrev main_v207 : Ref sig .tc := ⟨.hbm, 381, rfl⟩
abbrev main_v208 : Ref sig .tc := ⟨.hbm, 382, rfl⟩
abbrev main_v209 : Ref sig .tc := ⟨.hbm, 383, rfl⟩
abbrev main_v210 : Ref sig .tc := ⟨.hbm, 384, rfl⟩
abbrev main_v211 : Ref sig .tc := ⟨.hbm, 385, rfl⟩
abbrev main_c_171 : Ref sig .tc := ⟨.hbm, 386, rfl⟩
abbrev main_v212 : Ref sig .tc := ⟨.hbm, 387, rfl⟩
abbrev main_v213 : Ref sig .tc := ⟨.hbm, 388, rfl⟩
abbrev main_v214 : Ref sig .tc := ⟨.hbm, 389, rfl⟩
abbrev main_v215 : Ref sig .tc := ⟨.hbm, 390, rfl⟩
abbrev main_v216 : Ref sig .tc := ⟨.hbm, 391, rfl⟩
abbrev main_c_172 : Ref sig .tc := ⟨.hbm, 392, rfl⟩
abbrev main_v217 : Ref sig .tc := ⟨.hbm, 393, rfl⟩
abbrev main_v218 : Ref sig .tc := ⟨.hbm, 394, rfl⟩
abbrev main_v219 : Ref sig .tc := ⟨.hbm, 395, rfl⟩
abbrev main_v220 : Ref sig .tc := ⟨.hbm, 396, rfl⟩
abbrev main_v221 : Ref sig .tc := ⟨.hbm, 397, rfl⟩
abbrev main_c_173 : Ref sig .tc := ⟨.hbm, 398, rfl⟩
abbrev main_v222 : Ref sig .tc := ⟨.hbm, 399, rfl⟩
abbrev main_v223 : Ref sig .tc := ⟨.hbm, 400, rfl⟩
abbrev main_v224 : Ref sig .tc := ⟨.hbm, 401, rfl⟩
abbrev main_v225 : Ref sig .tc := ⟨.hbm, 402, rfl⟩
abbrev main_v226 : Ref sig .tc := ⟨.hbm, 403, rfl⟩
abbrev main_c_174 : Ref sig .tc := ⟨.hbm, 404, rfl⟩
abbrev main_v227 : Ref sig .tc := ⟨.hbm, 405, rfl⟩
abbrev main_v228 : Ref sig .tc := ⟨.hbm, 406, rfl⟩
abbrev main_v229 : Ref sig .tc := ⟨.hbm, 407, rfl⟩
abbrev main_v230 : Ref sig .tc := ⟨.hbm, 408, rfl⟩
abbrev main_v231 : Ref sig .tc := ⟨.hbm, 409, rfl⟩
abbrev main_v232 : Ref sig .tc := ⟨.hbm, 410, rfl⟩
abbrev main_c_175 : Ref sig .tc := ⟨.hbm, 411, rfl⟩
abbrev main_v233 : Ref sig .tc := ⟨.hbm, 412, rfl⟩
abbrev main_v234 : Ref sig .tc := ⟨.hbm, 413, rfl⟩
abbrev main_v235 : Ref sig .tc := ⟨.hbm, 414, rfl⟩
abbrev main_v236 : Ref sig .tc := ⟨.hbm, 415, rfl⟩
abbrev main_v237 : Ref sig .tc := ⟨.hbm, 416, rfl⟩
abbrev main_c_176 : Ref sig .tc := ⟨.hbm, 417, rfl⟩
abbrev main_v238 : Ref sig .tc := ⟨.hbm, 418, rfl⟩
abbrev main_v239 : Ref sig .tc := ⟨.hbm, 419, rfl⟩
abbrev main_v240 : Ref sig .tc := ⟨.hbm, 420, rfl⟩
abbrev main_v241 : Ref sig .tc := ⟨.hbm, 421, rfl⟩
abbrev main_v242 : Ref sig .tc := ⟨.hbm, 422, rfl⟩
abbrev main_c_177 : Ref sig .tc := ⟨.hbm, 423, rfl⟩
abbrev main_v243 : Ref sig .tc := ⟨.hbm, 424, rfl⟩
abbrev main_v244 : Ref sig .tc := ⟨.hbm, 425, rfl⟩
abbrev main_v245 : Ref sig .tc := ⟨.hbm, 426, rfl⟩
abbrev main_v246 : Ref sig .tc := ⟨.hbm, 427, rfl⟩
abbrev main_v247 : Ref sig .tc := ⟨.hbm, 428, rfl⟩
abbrev main_c_178 : Ref sig .tc := ⟨.hbm, 429, rfl⟩
abbrev main_v248 : Ref sig .tc := ⟨.hbm, 430, rfl⟩
abbrev main_v249 : Ref sig .tc := ⟨.hbm, 431, rfl⟩
abbrev main_v250 : Ref sig .tc := ⟨.hbm, 432, rfl⟩
abbrev main_v251 : Ref sig .tc := ⟨.hbm, 433, rfl⟩
abbrev main_v252 : Ref sig .tc := ⟨.hbm, 434, rfl⟩
abbrev main_v253 : Ref sig .tc := ⟨.hbm, 435, rfl⟩
abbrev main_c_179 : Ref sig .tc := ⟨.hbm, 436, rfl⟩
abbrev main_v254 : Ref sig .tc := ⟨.hbm, 437, rfl⟩
abbrev main_v255 : Ref sig .tc := ⟨.hbm, 438, rfl⟩
abbrev main_v256 : Ref sig .tc := ⟨.hbm, 439, rfl⟩
abbrev main_v257 : Ref sig .tc := ⟨.hbm, 440, rfl⟩
abbrev main_v258 : Ref sig .tc := ⟨.hbm, 441, rfl⟩
abbrev main_c_180 : Ref sig .tc := ⟨.hbm, 442, rfl⟩
abbrev main_v259 : Ref sig .tc := ⟨.hbm, 443, rfl⟩
abbrev main_v260 : Ref sig .tc := ⟨.hbm, 444, rfl⟩
abbrev main_v261 : Ref sig .tc := ⟨.hbm, 445, rfl⟩
abbrev main_v262 : Ref sig .tc := ⟨.hbm, 446, rfl⟩
abbrev main_v263 : Ref sig .tc := ⟨.hbm, 447, rfl⟩
abbrev main_c_181 : Ref sig .tc := ⟨.hbm, 448, rfl⟩
abbrev main_v264 : Ref sig .tc := ⟨.hbm, 449, rfl⟩
abbrev main_v265 : Ref sig .tc := ⟨.hbm, 450, rfl⟩
abbrev main_v266 : Ref sig .tc := ⟨.hbm, 451, rfl⟩
abbrev main_v267 : Ref sig .tc := ⟨.hbm, 452, rfl⟩
abbrev main_v268 : Ref sig .tc := ⟨.hbm, 453, rfl⟩
abbrev main_c_182 : Ref sig .tc := ⟨.hbm, 454, rfl⟩
abbrev main_v269 : Ref sig .tc := ⟨.hbm, 455, rfl⟩
abbrev main_v270 : Ref sig .tc := ⟨.hbm, 456, rfl⟩
abbrev main_v271 : Ref sig .tc := ⟨.hbm, 457, rfl⟩
abbrev main_v272 : Ref sig .tc := ⟨.hbm, 458, rfl⟩
abbrev main_v273 : Ref sig .tc := ⟨.hbm, 459, rfl⟩
abbrev main_v274 : Ref sig .tc := ⟨.hbm, 460, rfl⟩
abbrev main_c_183 : Ref sig .tc := ⟨.hbm, 461, rfl⟩
abbrev main_v275 : Ref sig .tc := ⟨.hbm, 462, rfl⟩
abbrev main_v276 : Ref sig .tc := ⟨.hbm, 463, rfl⟩
abbrev main_v277 : Ref sig .tc := ⟨.hbm, 464, rfl⟩
abbrev main_v278 : Ref sig .tc := ⟨.hbm, 465, rfl⟩
abbrev main_v279 : Ref sig .tc := ⟨.hbm, 466, rfl⟩
abbrev main_c_184 : Ref sig .tc := ⟨.hbm, 467, rfl⟩
abbrev main_v280 : Ref sig .tc := ⟨.hbm, 468, rfl⟩
abbrev main_v281 : Ref sig .tc := ⟨.hbm, 469, rfl⟩
abbrev main_v282 : Ref sig .tc := ⟨.hbm, 470, rfl⟩
abbrev main_v283 : Ref sig .tc := ⟨.hbm, 471, rfl⟩
abbrev main_v284 : Ref sig .tc := ⟨.hbm, 472, rfl⟩
abbrev main_c_185 : Ref sig .tc := ⟨.hbm, 473, rfl⟩
abbrev main_v285 : Ref sig .tc := ⟨.hbm, 474, rfl⟩
abbrev main_v286 : Ref sig .tc := ⟨.hbm, 475, rfl⟩
abbrev main_v287 : Ref sig .tc := ⟨.hbm, 476, rfl⟩
abbrev main_v288 : Ref sig .tc := ⟨.hbm, 477, rfl⟩
abbrev main_v289 : Ref sig .tc := ⟨.hbm, 478, rfl⟩
abbrev main_c_186 : Ref sig .tc := ⟨.hbm, 479, rfl⟩
abbrev main_v290 : Ref sig .tc := ⟨.hbm, 480, rfl⟩
abbrev main_v291 : Ref sig .tc := ⟨.hbm, 481, rfl⟩
abbrev main_v292 : Ref sig .tc := ⟨.hbm, 482, rfl⟩
abbrev main_v293 : Ref sig .tc := ⟨.hbm, 483, rfl⟩
abbrev main_v294 : Ref sig .tc := ⟨.hbm, 484, rfl⟩
abbrev main_v295 : Ref sig .tc := ⟨.hbm, 485, rfl⟩
abbrev main_c_187 : Ref sig .tc := ⟨.hbm, 486, rfl⟩
abbrev main_v296 : Ref sig .tc := ⟨.hbm, 487, rfl⟩
abbrev main_v297 : Ref sig .tc := ⟨.hbm, 488, rfl⟩
abbrev main_v298 : Ref sig .tc := ⟨.hbm, 489, rfl⟩
abbrev main_v299 : Ref sig .tc := ⟨.hbm, 490, rfl⟩
abbrev main_v300 : Ref sig .tc := ⟨.hbm, 491, rfl⟩
abbrev main_c_188 : Ref sig .tc := ⟨.hbm, 492, rfl⟩
abbrev main_v301 : Ref sig .tc := ⟨.hbm, 493, rfl⟩
abbrev main_v302 : Ref sig .tc := ⟨.hbm, 494, rfl⟩
abbrev main_v303 : Ref sig .tc := ⟨.hbm, 495, rfl⟩
abbrev main_v304 : Ref sig .tc := ⟨.hbm, 496, rfl⟩
abbrev main_v305 : Ref sig .tc := ⟨.hbm, 497, rfl⟩
abbrev main_c_189 : Ref sig .tc := ⟨.hbm, 498, rfl⟩
abbrev main_v306 : Ref sig .tc := ⟨.hbm, 499, rfl⟩
abbrev main_v307 : Ref sig .tc := ⟨.hbm, 500, rfl⟩
abbrev main_v308 : Ref sig .tc := ⟨.hbm, 501, rfl⟩
abbrev main_v309 : Ref sig .tc := ⟨.hbm, 502, rfl⟩
abbrev main_v310 : Ref sig .tc := ⟨.hbm, 503, rfl⟩
abbrev main_c_190 : Ref sig .tc := ⟨.hbm, 504, rfl⟩
abbrev main_v311 : Ref sig .tc := ⟨.hbm, 505, rfl⟩
abbrev main_v312 : Ref sig .tc := ⟨.hbm, 506, rfl⟩
abbrev main_v313 : Ref sig .tc := ⟨.hbm, 507, rfl⟩
abbrev main_v314 : Ref sig .tc := ⟨.hbm, 508, rfl⟩
abbrev main_v315 : Ref sig .tc := ⟨.hbm, 509, rfl⟩
abbrev main_v316 : Ref sig .tc := ⟨.hbm, 510, rfl⟩
abbrev main_c_191 : Ref sig .tc := ⟨.hbm, 511, rfl⟩
abbrev main_v317 : Ref sig .tc := ⟨.hbm, 512, rfl⟩
abbrev main_v318 : Ref sig .tc := ⟨.hbm, 513, rfl⟩
abbrev main_v319 : Ref sig .tc := ⟨.hbm, 514, rfl⟩
abbrev main_v320 : Ref sig .tc := ⟨.hbm, 515, rfl⟩
abbrev main_v321 : Ref sig .tc := ⟨.hbm, 516, rfl⟩
abbrev main_c_192 : Ref sig .tc := ⟨.hbm, 517, rfl⟩
abbrev main_v322 : Ref sig .tc := ⟨.hbm, 518, rfl⟩
abbrev main_v323 : Ref sig .tc := ⟨.hbm, 519, rfl⟩
abbrev main_v324 : Ref sig .tc := ⟨.hbm, 520, rfl⟩
abbrev main_v325 : Ref sig .tc := ⟨.hbm, 521, rfl⟩
abbrev main_v326 : Ref sig .tc := ⟨.hbm, 522, rfl⟩
abbrev main_c_193 : Ref sig .tc := ⟨.hbm, 523, rfl⟩
abbrev main_v327 : Ref sig .tc := ⟨.hbm, 524, rfl⟩
abbrev main_v328 : Ref sig .tc := ⟨.hbm, 525, rfl⟩
abbrev main_v329 : Ref sig .tc := ⟨.hbm, 526, rfl⟩
abbrev main_v330 : Ref sig .tc := ⟨.hbm, 527, rfl⟩
abbrev main_v331 : Ref sig .tc := ⟨.hbm, 528, rfl⟩
abbrev main_c_194 : Ref sig .tc := ⟨.hbm, 529, rfl⟩
abbrev main_v332 : Ref sig .tc := ⟨.hbm, 530, rfl⟩
abbrev main_v333 : Ref sig .tc := ⟨.hbm, 531, rfl⟩
abbrev main_v334 : Ref sig .tc := ⟨.hbm, 532, rfl⟩
abbrev main_v335 : Ref sig .tc := ⟨.hbm, 533, rfl⟩
abbrev main_v336 : Ref sig .tc := ⟨.hbm, 534, rfl⟩
abbrev main_v337 : Ref sig .tc := ⟨.hbm, 535, rfl⟩
abbrev main_c_195 : Ref sig .tc := ⟨.hbm, 536, rfl⟩
abbrev main_v338 : Ref sig .tc := ⟨.hbm, 537, rfl⟩
abbrev main_v339 : Ref sig .tc := ⟨.hbm, 538, rfl⟩
abbrev main_v340 : Ref sig .tc := ⟨.hbm, 539, rfl⟩
abbrev main_v341 : Ref sig .tc := ⟨.hbm, 540, rfl⟩
abbrev main_v342 : Ref sig .tc := ⟨.hbm, 541, rfl⟩
abbrev main_c_196 : Ref sig .tc := ⟨.hbm, 542, rfl⟩
abbrev main_v343 : Ref sig .tc := ⟨.hbm, 543, rfl⟩
abbrev main_v344 : Ref sig .tc := ⟨.hbm, 544, rfl⟩
abbrev main_v345 : Ref sig .tc := ⟨.hbm, 545, rfl⟩
abbrev main_v346 : Ref sig .tc := ⟨.hbm, 546, rfl⟩
abbrev main_v347 : Ref sig .tc := ⟨.hbm, 547, rfl⟩
abbrev main_c_197 : Ref sig .tc := ⟨.hbm, 548, rfl⟩
abbrev main_v348 : Ref sig .tc := ⟨.hbm, 549, rfl⟩
abbrev main_v349 : Ref sig .tc := ⟨.hbm, 550, rfl⟩
abbrev main_v350 : Ref sig .tc := ⟨.hbm, 551, rfl⟩
abbrev main_v351 : Ref sig .tc := ⟨.hbm, 552, rfl⟩
abbrev main_v352 : Ref sig .tc := ⟨.hbm, 553, rfl⟩
abbrev main_c_198 : Ref sig .tc := ⟨.hbm, 554, rfl⟩
abbrev main_v353 : Ref sig .tc := ⟨.hbm, 555, rfl⟩
abbrev main_v354 : Ref sig .tc := ⟨.hbm, 556, rfl⟩
abbrev main_v355 : Ref sig .tc := ⟨.hbm, 557, rfl⟩
abbrev main_v356 : Ref sig .tc := ⟨.hbm, 558, rfl⟩
abbrev main_v357 : Ref sig .tc := ⟨.hbm, 559, rfl⟩
abbrev main_v358 : Ref sig .tc := ⟨.hbm, 560, rfl⟩
abbrev main_c_199 : Ref sig .tc := ⟨.hbm, 561, rfl⟩
abbrev main_v359 : Ref sig .tc := ⟨.hbm, 562, rfl⟩
abbrev main_v360 : Ref sig .tc := ⟨.hbm, 563, rfl⟩
abbrev main_v361 : Ref sig .tc := ⟨.hbm, 564, rfl⟩
abbrev main_v362 : Ref sig .tc := ⟨.hbm, 565, rfl⟩
abbrev main_v363 : Ref sig .tc := ⟨.hbm, 566, rfl⟩
abbrev main_c_200 : Ref sig .tc := ⟨.hbm, 567, rfl⟩
abbrev main_v364 : Ref sig .tc := ⟨.hbm, 568, rfl⟩
abbrev main_v365 : Ref sig .tc := ⟨.hbm, 569, rfl⟩
abbrev main_v366 : Ref sig .tc := ⟨.hbm, 570, rfl⟩
abbrev main_v367 : Ref sig .tc := ⟨.hbm, 571, rfl⟩
abbrev main_v368 : Ref sig .tc := ⟨.hbm, 572, rfl⟩
abbrev main_c_201 : Ref sig .tc := ⟨.hbm, 573, rfl⟩
abbrev main_v369 : Ref sig .tc := ⟨.hbm, 574, rfl⟩
abbrev main_v370 : Ref sig .tc := ⟨.hbm, 575, rfl⟩
abbrev main_v371 : Ref sig .tc := ⟨.hbm, 576, rfl⟩
abbrev main_v372 : Ref sig .tc := ⟨.hbm, 577, rfl⟩
abbrev main_v373 : Ref sig .tc := ⟨.hbm, 578, rfl⟩
abbrev main_c_202 : Ref sig .tc := ⟨.hbm, 579, rfl⟩
abbrev main_v374 : Ref sig .tc := ⟨.hbm, 580, rfl⟩
abbrev main_v375 : Ref sig .tc := ⟨.hbm, 581, rfl⟩
abbrev main_v376 : Ref sig .tc := ⟨.hbm, 582, rfl⟩
abbrev main_v377 : Ref sig .tc := ⟨.hbm, 583, rfl⟩
abbrev main_v378 : Ref sig .tc := ⟨.hbm, 584, rfl⟩
abbrev main_v379 : Ref sig .tc := ⟨.hbm, 585, rfl⟩
abbrev main_c_203 : Ref sig .tc := ⟨.hbm, 586, rfl⟩
abbrev main_v380 : Ref sig .tc := ⟨.hbm, 587, rfl⟩
abbrev main_v381 : Ref sig .tc := ⟨.hbm, 588, rfl⟩
abbrev main_v382 : Ref sig .tc := ⟨.hbm, 589, rfl⟩
abbrev main_v383 : Ref sig .tc := ⟨.hbm, 590, rfl⟩
abbrev main_v384 : Ref sig .tc := ⟨.hbm, 591, rfl⟩
abbrev main_c_204 : Ref sig .tc := ⟨.hbm, 592, rfl⟩
abbrev main_v385 : Ref sig .tc := ⟨.hbm, 593, rfl⟩
abbrev main_v386 : Ref sig .tc := ⟨.hbm, 594, rfl⟩
abbrev main_v387 : Ref sig .tc := ⟨.hbm, 595, rfl⟩
abbrev main_v388 : Ref sig .tc := ⟨.hbm, 596, rfl⟩
abbrev main_v389 : Ref sig .tc := ⟨.hbm, 597, rfl⟩
abbrev main_c_205 : Ref sig .tc := ⟨.hbm, 598, rfl⟩
abbrev main_v390 : Ref sig .tc := ⟨.hbm, 599, rfl⟩
abbrev main_v391 : Ref sig .tc := ⟨.hbm, 600, rfl⟩
abbrev main_v392 : Ref sig .tc := ⟨.hbm, 601, rfl⟩
abbrev main_v393 : Ref sig .tc := ⟨.hbm, 602, rfl⟩
abbrev main_v394 : Ref sig .tc := ⟨.hbm, 603, rfl⟩
abbrev main_c_206 : Ref sig .tc := ⟨.hbm, 604, rfl⟩
abbrev main_v395 : Ref sig .tc := ⟨.hbm, 605, rfl⟩
abbrev main_v396 : Ref sig .tc := ⟨.hbm, 606, rfl⟩
abbrev main_v397 : Ref sig .tc := ⟨.hbm, 607, rfl⟩
abbrev main_v398 : Ref sig .tc := ⟨.hbm, 608, rfl⟩
abbrev main_v399 : Ref sig .tc := ⟨.hbm, 609, rfl⟩
abbrev main_v400 : Ref sig .tc := ⟨.hbm, 610, rfl⟩
abbrev main_c_207 : Ref sig .tc := ⟨.hbm, 611, rfl⟩
abbrev main_v401 : Ref sig .tc := ⟨.hbm, 612, rfl⟩
abbrev main_v402 : Ref sig .tc := ⟨.hbm, 613, rfl⟩
abbrev main_v403 : Ref sig .tc := ⟨.hbm, 614, rfl⟩
abbrev main_v404 : Ref sig .tc := ⟨.hbm, 615, rfl⟩
abbrev main_v405 : Ref sig .tc := ⟨.hbm, 616, rfl⟩
abbrev main_c_208 : Ref sig .tc := ⟨.hbm, 617, rfl⟩
abbrev main_v406 : Ref sig .tc := ⟨.hbm, 618, rfl⟩
abbrev main_v407 : Ref sig .tc := ⟨.hbm, 619, rfl⟩
abbrev main_v408 : Ref sig .tc := ⟨.hbm, 620, rfl⟩
abbrev main_v409 : Ref sig .tc := ⟨.hbm, 621, rfl⟩
abbrev main_v410 : Ref sig .tc := ⟨.hbm, 622, rfl⟩
abbrev main_c_209 : Ref sig .tc := ⟨.hbm, 623, rfl⟩
abbrev main_v411 : Ref sig .tc := ⟨.hbm, 624, rfl⟩
abbrev main_v412 : Ref sig .tc := ⟨.hbm, 625, rfl⟩
abbrev main_v413 : Ref sig .tc := ⟨.hbm, 626, rfl⟩
abbrev main_v414 : Ref sig .tc := ⟨.hbm, 627, rfl⟩
abbrev main_v415 : Ref sig .tc := ⟨.hbm, 628, rfl⟩
abbrev main_c_210 : Ref sig .tc := ⟨.hbm, 629, rfl⟩
abbrev main_v416 : Ref sig .tc := ⟨.hbm, 630, rfl⟩
abbrev main_v417 : Ref sig .tc := ⟨.hbm, 631, rfl⟩
abbrev main_v418 : Ref sig .tc := ⟨.hbm, 632, rfl⟩
abbrev main_v419 : Ref sig .tc := ⟨.hbm, 633, rfl⟩
abbrev main_v420 : Ref sig .tc := ⟨.hbm, 634, rfl⟩
abbrev main_v421 : Ref sig .tc := ⟨.hbm, 635, rfl⟩
abbrev main_c_211 : Ref sig .tc := ⟨.hbm, 636, rfl⟩
abbrev main_v422 : Ref sig .tc := ⟨.hbm, 637, rfl⟩
abbrev main_v423 : Ref sig .tc := ⟨.hbm, 638, rfl⟩
abbrev main_v424 : Ref sig .tc := ⟨.hbm, 639, rfl⟩
abbrev main_v425 : Ref sig .tc := ⟨.hbm, 640, rfl⟩
abbrev main_v426 : Ref sig .tc := ⟨.hbm, 641, rfl⟩
abbrev main_c_212 : Ref sig .tc := ⟨.hbm, 642, rfl⟩
abbrev main_v427 : Ref sig .tc := ⟨.hbm, 643, rfl⟩
abbrev main_v428 : Ref sig .tc := ⟨.hbm, 644, rfl⟩
abbrev main_v429 : Ref sig .tc := ⟨.hbm, 645, rfl⟩
abbrev main_v430 : Ref sig .tc := ⟨.hbm, 646, rfl⟩
abbrev main_v431 : Ref sig .tc := ⟨.hbm, 647, rfl⟩
abbrev main_c_213 : Ref sig .tc := ⟨.hbm, 648, rfl⟩
abbrev main_v432 : Ref sig .tc := ⟨.hbm, 649, rfl⟩
abbrev main_v433 : Ref sig .tc := ⟨.hbm, 650, rfl⟩
abbrev main_v434 : Ref sig .tc := ⟨.hbm, 651, rfl⟩
abbrev main_v435 : Ref sig .tc := ⟨.hbm, 652, rfl⟩
abbrev main_v436 : Ref sig .tc := ⟨.hbm, 653, rfl⟩
abbrev main_c_214 : Ref sig .tc := ⟨.hbm, 654, rfl⟩
abbrev main_v437 : Ref sig .tc := ⟨.hbm, 655, rfl⟩
abbrev main_v438 : Ref sig .tc := ⟨.hbm, 656, rfl⟩
abbrev main_v439 : Ref sig .tc := ⟨.hbm, 657, rfl⟩
abbrev main_v440 : Ref sig .tc := ⟨.hbm, 658, rfl⟩
abbrev main_v441 : Ref sig .tc := ⟨.hbm, 659, rfl⟩
abbrev main_v442 : Ref sig .tc := ⟨.hbm, 660, rfl⟩
abbrev main_c_215 : Ref sig .tc := ⟨.hbm, 661, rfl⟩
abbrev main_v443 : Ref sig .tc := ⟨.hbm, 662, rfl⟩
abbrev main_v444 : Ref sig .tc := ⟨.hbm, 663, rfl⟩
abbrev main_v445 : Ref sig .tc := ⟨.hbm, 664, rfl⟩
abbrev main_v446 : Ref sig .tc := ⟨.hbm, 665, rfl⟩
abbrev main_v447 : Ref sig .tc := ⟨.hbm, 666, rfl⟩
abbrev main_v448 : Ref sig .tc := ⟨.hbm, 667, rfl⟩
abbrev main_v449 : Ref sig .tc := ⟨.hbm, 668, rfl⟩

abbrev nD : Nat := 1
abbrev τ : Topo := Topo.v7x

variable {F : FTy → Type} [FloatOps F]

class Facts₀ : Prop where
  bcast_S_S8x64x16 : S_.BroadcastsInDim S8x64x16 (![] : Fin 0 → Fin S8x64x16.rank)
  transposes_S8x4096x64x16_S8x64x4096x16_0_2_1_3 : S8x4096x64x16.Transposes [0, 2, 1, 3] S8x64x4096x16
  bcast_S_S2048 : S_.BroadcastsInDim S2048 (![] : Fin 0 → Fin S2048.rank)
  bcast_S2048_S2048x1_0 : S2048.BroadcastsInDim S2048x1 (![0] : Fin 1 → Fin S2048x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S_S512 : S_.BroadcastsInDim S512 (![] : Fin 0 → Fin S512.rank)
  bcast_S512_S512x1_0 : S512.BroadcastsInDim S512x1 (![0] : Fin 1 → Fin S512x1.rank)
  bcast_S_S256 : S_.BroadcastsInDim S256 (![] : Fin 0 → Fin S256.rank)
  bcast_S256_S256x1_0 : S256.BroadcastsInDim S256x1 (![0] : Fin 1 → Fin S256x1.rank)
  bcast_S_S128 : S_.BroadcastsInDim S128 (![] : Fin 0 → Fin S128.rank)
  bcast_S128_S128x1_0 : S128.BroadcastsInDim S128x1 (![0] : Fin 1 → Fin S128x1.rank)
  bcast_S_S64 : S_.BroadcastsInDim S64 (![] : Fin 0 → Fin S64.rank)
  bcast_S64_S64x1_0 : S64.BroadcastsInDim S64x1 (![0] : Fin 1 → Fin S64x1.rank)
  bcast_S_S32 : S_.BroadcastsInDim S32 (![] : Fin 0 → Fin S32.rank)
  bcast_S32_S32x1_0 : S32.BroadcastsInDim S32x1 (![0] : Fin 1 → Fin S32x1.rank)
  bcast_S_S16 : S_.BroadcastsInDim S16 (![] : Fin 0 → Fin S16.rank)
  bcast_S16_S16x1_0 : S16.BroadcastsInDim S16x1 (![0] : Fin 1 → Fin S16x1.rank)
  bcast_S_S8 : S_.BroadcastsInDim S8 (![] : Fin 0 → Fin S8.rank)
  bcast_S8_S8x1_0 : S8.BroadcastsInDim S8x1 (![0] : Fin 1 → Fin S8x1.rank)
  bcast_S_S4 : S_.BroadcastsInDim S4 (![] : Fin 0 → Fin S4.rank)
  bcast_S4_S4x1_0 : S4.BroadcastsInDim S4x1 (![0] : Fin 1 → Fin S4x1.rank)
  bcast_S_S2 : S_.BroadcastsInDim S2 (![] : Fin 0 → Fin S2.rank)
  bcast_S2_S2x1_0 : S2.BroadcastsInDim S2x1 (![0] : Fin 1 → Fin S2x1.rank)
  bcast_S_S1 : S_.BroadcastsInDim S1 (![] : Fin 0 → Fin S1.rank)
  bcast_S1_S1x1_0 : S1.BroadcastsInDim S1x1 (![0] : Fin 1 → Fin S1x1.rank)
  transposes_S8x64x4096x16_S8x4096x64x16_0_2_1_3 : S8x64x4096x16.Transposes [0, 2, 1, 3] S8x4096x64x16
  gather_S8x64x4096x16_S2048x1_S8x64x2048x16_013_2_n_n_2_1_864116_wf : GatherDims.WF S8x64x4096x16 S2048x1 S8x64x2048x16 [0, 1, 3] [2] [] [2] [] 1 ![8, 64, 1, 16]
  scatter_S8x64x4096x16_S2048x1_S8x64x2048x16_013_2_2_1_wf : ScatterDims.WF S8x64x4096x16 S2048x1 S8x64x2048x16 [0, 1, 3] [2] [2] 1
  gather_S8x64x4096x16_S1024x1_S8x64x1024x16_013_2_n_n_2_1_864116_wf : GatherDims.WF S8x64x4096x16 S1024x1 S8x64x1024x16 [0, 1, 3] [2] [] [2] [] 1 ![8, 64, 1, 16]
  scatter_S8x64x4096x16_S1024x1_S8x64x1024x16_013_2_2_1_wf : ScatterDims.WF S8x64x4096x16 S1024x1 S8x64x1024x16 [0, 1, 3] [2] [2] 1
  gather_S8x64x4096x16_S512x1_S8x64x512x16_013_2_n_n_2_1_864116_wf : GatherDims.WF S8x64x4096x16 S512x1 S8x64x512x16 [0, 1, 3] [2] [] [2] [] 1 ![8, 64, 1, 16]
  scatter_S8x64x4096x16_S512x1_S8x64x512x16_013_2_2_1_wf : ScatterDims.WF S8x64x4096x16 S512x1 S8x64x512x16 [0, 1, 3] [2] [2] 1
  gather_S8x64x4096x16_S256x1_S8x64x256x16_013_2_n_n_2_1_864116_wf : GatherDims.WF S8x64x4096x16 S256x1 S8x64x256x16 [0, 1, 3] [2] [] [2] [] 1 ![8, 64, 1, 16]
  scatter_S8x64x4096x16_S256x1_S8x64x256x16_013_2_2_1_wf : ScatterDims.WF S8x64x4096x16 S256x1 S8x64x256x16 [0, 1, 3] [2] [2] 1
  gather_S8x64x4096x16_S128x1_S8x64x128x16_013_2_n_n_2_1_864116_wf : GatherDims.WF S8x64x4096x16 S128x1 S8x64x128x16 [0, 1, 3] [2] [] [2] [] 1 ![8, 64, 1, 16]
  scatter_S8x64x4096x16_S128x1_S8x64x128x16_013_2_2_1_wf : ScatterDims.WF S8x64x4096x16 S128x1 S8x64x128x16 [0, 1, 3] [2] [2] 1
  gather_S8x64x4096x16_S64x1_S8x64x64x16_013_2_n_n_2_1_864116_wf : GatherDims.WF S8x64x4096x16 S64x1 S8x64x64x16 [0, 1, 3] [2] [] [2] [] 1 ![8, 64, 1, 16]
  scatter_S8x64x4096x16_S64x1_S8x64x64x16_013_2_2_1_wf : ScatterDims.WF S8x64x4096x16 S64x1 S8x64x64x16 [0, 1, 3] [2] [2] 1
  gather_S8x64x4096x16_S32x1_S8x64x32x16_013_2_n_n_2_1_864116_wf : GatherDims.WF S8x64x4096x16 S32x1 S8x64x32x16 [0, 1, 3] [2] [] [2] [] 1 ![8, 64, 1, 16]
  scatter_S8x64x4096x16_S32x1_S8x64x32x16_013_2_2_1_wf : ScatterDims.WF S8x64x4096x16 S32x1 S8x64x32x16 [0, 1, 3] [2] [2] 1
  gather_S8x64x4096x16_S16x1_S8x64x16x16_013_2_n_n_2_1_864116_wf : GatherDims.WF S8x64x4096x16 S16x1 S8x64x16x16 [0, 1, 3] [2] [] [2] [] 1 ![8, 64, 1, 16]
  scatter_S8x64x4096x16_S16x1_S8x64x16x16_013_2_2_1_wf : ScatterDims.WF S8x64x4096x16 S16x1 S8x64x16x16 [0, 1, 3] [2] [2] 1
  gather_S8x64x4096x16_S8x1_S8x64x8x16_013_2_n_n_2_1_864116_wf : GatherDims.WF S8x64x4096x16 S8x1 S8x64x8x16 [0, 1, 3] [2] [] [2] [] 1 ![8, 64, 1, 16]
  scatter_S8x64x4096x16_S8x1_S8x64x8x16_013_2_2_1_wf : ScatterDims.WF S8x64x4096x16 S8x1 S8x64x8x16 [0, 1, 3] [2] [2] 1
  gather_S8x64x4096x16_S4x1_S8x64x4x16_013_2_n_n_2_1_864116_wf : GatherDims.WF S8x64x4096x16 S4x1 S8x64x4x16 [0, 1, 3] [2] [] [2] [] 1 ![8, 64, 1, 16]
  scatter_S8x64x4096x16_S4x1_S8x64x4x16_013_2_2_1_wf : ScatterDims.WF S8x64x4096x16 S4x1 S8x64x4x16 [0, 1, 3] [2] [2] 1
  gather_S8x64x4096x16_S2x1_S8x64x2x16_013_2_n_n_2_1_864116_wf : GatherDims.WF S8x64x4096x16 S2x1 S8x64x2x16 [0, 1, 3] [2] [] [2] [] 1 ![8, 64, 1, 16]
  scatter_S8x64x4096x16_S2x1_S8x64x2x16_013_2_2_1_wf : ScatterDims.WF S8x64x4096x16 S2x1 S8x64x2x16 [0, 1, 3] [2] [2] 1
  gather_S8x64x4096x16_S1x1_S8x64x1x16_013_2_n_n_2_1_864116_wf : GatherDims.WF S8x64x4096x16 S1x1 S8x64x1x16 [0, 1, 3] [2] [] [2] [] 1 ![8, 64, 1, 16]
  scatter_S8x64x4096x16_S1x1_S8x64x1x16_013_2_2_1_wf : ScatterDims.WF S8x64x4096x16 S1x1 S8x64x1x16 [0, 1, 3] [2] [2] 1
  scatter_S8x64x4096x16_S1_S8x64x16_012_2_2_0_wf : ScatterDims.WF S8x64x4096x16 S1 S8x64x16 [0, 1, 2] [2] [2] 0

variable [Facts₀]

def gather_S8x64x4096x16_S2048x1_S8x64x2048x16_013_2_n_n_2_1_864116 : GatherDims S8x64x4096x16 S2048x1 S8x64x2048x16 where
  offsetDims := [0, 1, 3]
  collapsedSliceDims := [2]
  operandBatchingDims := []
  startIndicesBatchingDims := []
  startIndexMap := [2]
  indexVectorDim := 1
  sliceSizes := ![8, 64, 1, 16]
  wf := gather_S8x64x4096x16_S2048x1_S8x64x2048x16_013_2_n_n_2_1_864116_wf
def scatter_S8x64x4096x16_S2048x1_S8x64x2048x16_013_2_2_1 : ScatterDims S8x64x4096x16 S2048x1 S8x64x2048x16 where
  updateWindowDims := [0, 1, 3]
  insertedWindowDims := [2]
  scatterDimsToOperandDims := [2]
  indexVectorDim := 1
  wf := scatter_S8x64x4096x16_S2048x1_S8x64x2048x16_013_2_2_1_wf
def gather_S8x64x4096x16_S1024x1_S8x64x1024x16_013_2_n_n_2_1_864116 : GatherDims S8x64x4096x16 S1024x1 S8x64x1024x16 where
  offsetDims := [0, 1, 3]
  collapsedSliceDims := [2]
  operandBatchingDims := []
  startIndicesBatchingDims := []
  startIndexMap := [2]
  indexVectorDim := 1
  sliceSizes := ![8, 64, 1, 16]
  wf := gather_S8x64x4096x16_S1024x1_S8x64x1024x16_013_2_n_n_2_1_864116_wf
def scatter_S8x64x4096x16_S1024x1_S8x64x1024x16_013_2_2_1 : ScatterDims S8x64x4096x16 S1024x1 S8x64x1024x16 where
  updateWindowDims := [0, 1, 3]
  insertedWindowDims := [2]
  scatterDimsToOperandDims := [2]
  indexVectorDim := 1
  wf := scatter_S8x64x4096x16_S1024x1_S8x64x1024x16_013_2_2_1_wf
def gather_S8x64x4096x16_S512x1_S8x64x512x16_013_2_n_n_2_1_864116 : GatherDims S8x64x4096x16 S512x1 S8x64x512x16 where
  offsetDims := [0, 1, 3]
  collapsedSliceDims := [2]
  operandBatchingDims := []
  startIndicesBatchingDims := []
  startIndexMap := [2]
  indexVectorDim := 1
  sliceSizes := ![8, 64, 1, 16]
  wf := gather_S8x64x4096x16_S512x1_S8x64x512x16_013_2_n_n_2_1_864116_wf
def scatter_S8x64x4096x16_S512x1_S8x64x512x16_013_2_2_1 : ScatterDims S8x64x4096x16 S512x1 S8x64x512x16 where
  updateWindowDims := [0, 1, 3]
  insertedWindowDims := [2]
  scatterDimsToOperandDims := [2]
  indexVectorDim := 1
  wf := scatter_S8x64x4096x16_S512x1_S8x64x512x16_013_2_2_1_wf
def gather_S8x64x4096x16_S256x1_S8x64x256x16_013_2_n_n_2_1_864116 : GatherDims S8x64x4096x16 S256x1 S8x64x256x16 where
  offsetDims := [0, 1, 3]
  collapsedSliceDims := [2]
  operandBatchingDims := []
  startIndicesBatchingDims := []
  startIndexMap := [2]
  indexVectorDim := 1
  sliceSizes := ![8, 64, 1, 16]
  wf := gather_S8x64x4096x16_S256x1_S8x64x256x16_013_2_n_n_2_1_864116_wf
def scatter_S8x64x4096x16_S256x1_S8x64x256x16_013_2_2_1 : ScatterDims S8x64x4096x16 S256x1 S8x64x256x16 where
  updateWindowDims := [0, 1, 3]
  insertedWindowDims := [2]
  scatterDimsToOperandDims := [2]
  indexVectorDim := 1
  wf := scatter_S8x64x4096x16_S256x1_S8x64x256x16_013_2_2_1_wf
def gather_S8x64x4096x16_S128x1_S8x64x128x16_013_2_n_n_2_1_864116 : GatherDims S8x64x4096x16 S128x1 S8x64x128x16 where
  offsetDims := [0, 1, 3]
  collapsedSliceDims := [2]
  operandBatchingDims := []
  startIndicesBatchingDims := []
  startIndexMap := [2]
  indexVectorDim := 1
  sliceSizes := ![8, 64, 1, 16]
  wf := gather_S8x64x4096x16_S128x1_S8x64x128x16_013_2_n_n_2_1_864116_wf
def scatter_S8x64x4096x16_S128x1_S8x64x128x16_013_2_2_1 : ScatterDims S8x64x4096x16 S128x1 S8x64x128x16 where
  updateWindowDims := [0, 1, 3]
  insertedWindowDims := [2]
  scatterDimsToOperandDims := [2]
  indexVectorDim := 1
  wf := scatter_S8x64x4096x16_S128x1_S8x64x128x16_013_2_2_1_wf
def gather_S8x64x4096x16_S64x1_S8x64x64x16_013_2_n_n_2_1_864116 : GatherDims S8x64x4096x16 S64x1 S8x64x64x16 where
  offsetDims := [0, 1, 3]
  collapsedSliceDims := [2]
  operandBatchingDims := []
  startIndicesBatchingDims := []
  startIndexMap := [2]
  indexVectorDim := 1
  sliceSizes := ![8, 64, 1, 16]
  wf := gather_S8x64x4096x16_S64x1_S8x64x64x16_013_2_n_n_2_1_864116_wf
def scatter_S8x64x4096x16_S64x1_S8x64x64x16_013_2_2_1 : ScatterDims S8x64x4096x16 S64x1 S8x64x64x16 where
  updateWindowDims := [0, 1, 3]
  insertedWindowDims := [2]
  scatterDimsToOperandDims := [2]
  indexVectorDim := 1
  wf := scatter_S8x64x4096x16_S64x1_S8x64x64x16_013_2_2_1_wf
def gather_S8x64x4096x16_S32x1_S8x64x32x16_013_2_n_n_2_1_864116 : GatherDims S8x64x4096x16 S32x1 S8x64x32x16 where
  offsetDims := [0, 1, 3]
  collapsedSliceDims := [2]
  operandBatchingDims := []
  startIndicesBatchingDims := []
  startIndexMap := [2]
  indexVectorDim := 1
  sliceSizes := ![8, 64, 1, 16]
  wf := gather_S8x64x4096x16_S32x1_S8x64x32x16_013_2_n_n_2_1_864116_wf
def scatter_S8x64x4096x16_S32x1_S8x64x32x16_013_2_2_1 : ScatterDims S8x64x4096x16 S32x1 S8x64x32x16 where
  updateWindowDims := [0, 1, 3]
  insertedWindowDims := [2]
  scatterDimsToOperandDims := [2]
  indexVectorDim := 1
  wf := scatter_S8x64x4096x16_S32x1_S8x64x32x16_013_2_2_1_wf
def gather_S8x64x4096x16_S16x1_S8x64x16x16_013_2_n_n_2_1_864116 : GatherDims S8x64x4096x16 S16x1 S8x64x16x16 where
  offsetDims := [0, 1, 3]
  collapsedSliceDims := [2]
  operandBatchingDims := []
  startIndicesBatchingDims := []
  startIndexMap := [2]
  indexVectorDim := 1
  sliceSizes := ![8, 64, 1, 16]
  wf := gather_S8x64x4096x16_S16x1_S8x64x16x16_013_2_n_n_2_1_864116_wf
def scatter_S8x64x4096x16_S16x1_S8x64x16x16_013_2_2_1 : ScatterDims S8x64x4096x16 S16x1 S8x64x16x16 where
  updateWindowDims := [0, 1, 3]
  insertedWindowDims := [2]
  scatterDimsToOperandDims := [2]
  indexVectorDim := 1
  wf := scatter_S8x64x4096x16_S16x1_S8x64x16x16_013_2_2_1_wf
def gather_S8x64x4096x16_S8x1_S8x64x8x16_013_2_n_n_2_1_864116 : GatherDims S8x64x4096x16 S8x1 S8x64x8x16 where
  offsetDims := [0, 1, 3]
  collapsedSliceDims := [2]
  operandBatchingDims := []
  startIndicesBatchingDims := []
  startIndexMap := [2]
  indexVectorDim := 1
  sliceSizes := ![8, 64, 1, 16]
  wf := gather_S8x64x4096x16_S8x1_S8x64x8x16_013_2_n_n_2_1_864116_wf
def scatter_S8x64x4096x16_S8x1_S8x64x8x16_013_2_2_1 : ScatterDims S8x64x4096x16 S8x1 S8x64x8x16 where
  updateWindowDims := [0, 1, 3]
  insertedWindowDims := [2]
  scatterDimsToOperandDims := [2]
  indexVectorDim := 1
  wf := scatter_S8x64x4096x16_S8x1_S8x64x8x16_013_2_2_1_wf
def gather_S8x64x4096x16_S4x1_S8x64x4x16_013_2_n_n_2_1_864116 : GatherDims S8x64x4096x16 S4x1 S8x64x4x16 where
  offsetDims := [0, 1, 3]
  collapsedSliceDims := [2]
  operandBatchingDims := []
  startIndicesBatchingDims := []
  startIndexMap := [2]
  indexVectorDim := 1
  sliceSizes := ![8, 64, 1, 16]
  wf := gather_S8x64x4096x16_S4x1_S8x64x4x16_013_2_n_n_2_1_864116_wf
def scatter_S8x64x4096x16_S4x1_S8x64x4x16_013_2_2_1 : ScatterDims S8x64x4096x16 S4x1 S8x64x4x16 where
  updateWindowDims := [0, 1, 3]
  insertedWindowDims := [2]
  scatterDimsToOperandDims := [2]
  indexVectorDim := 1
  wf := scatter_S8x64x4096x16_S4x1_S8x64x4x16_013_2_2_1_wf
def gather_S8x64x4096x16_S2x1_S8x64x2x16_013_2_n_n_2_1_864116 : GatherDims S8x64x4096x16 S2x1 S8x64x2x16 where
  offsetDims := [0, 1, 3]
  collapsedSliceDims := [2]
  operandBatchingDims := []
  startIndicesBatchingDims := []
  startIndexMap := [2]
  indexVectorDim := 1
  sliceSizes := ![8, 64, 1, 16]
  wf := gather_S8x64x4096x16_S2x1_S8x64x2x16_013_2_n_n_2_1_864116_wf
def scatter_S8x64x4096x16_S2x1_S8x64x2x16_013_2_2_1 : ScatterDims S8x64x4096x16 S2x1 S8x64x2x16 where
  updateWindowDims := [0, 1, 3]
  insertedWindowDims := [2]
  scatterDimsToOperandDims := [2]
  indexVectorDim := 1
  wf := scatter_S8x64x4096x16_S2x1_S8x64x2x16_013_2_2_1_wf
def gather_S8x64x4096x16_S1x1_S8x64x1x16_013_2_n_n_2_1_864116 : GatherDims S8x64x4096x16 S1x1 S8x64x1x16 where
  offsetDims := [0, 1, 3]
  collapsedSliceDims := [2]
  operandBatchingDims := []
  startIndicesBatchingDims := []
  startIndexMap := [2]
  indexVectorDim := 1
  sliceSizes := ![8, 64, 1, 16]
  wf := gather_S8x64x4096x16_S1x1_S8x64x1x16_013_2_n_n_2_1_864116_wf
def scatter_S8x64x4096x16_S1x1_S8x64x1x16_013_2_2_1 : ScatterDims S8x64x4096x16 S1x1 S8x64x1x16 where
  updateWindowDims := [0, 1, 3]
  insertedWindowDims := [2]
  scatterDimsToOperandDims := [2]
  indexVectorDim := 1
  wf := scatter_S8x64x4096x16_S1x1_S8x64x1x16_013_2_2_1_wf
def scatter_S8x64x4096x16_S1_S8x64x16_012_2_2_0 : ScatterDims S8x64x4096x16 S1 S8x64x16 where
  updateWindowDims := [0, 1, 2]
  insertedWindowDims := [2]
  scatterDimsToOperandDims := [2]
  indexVectorDim := 0
  wf := scatter_S8x64x4096x16_S1_S8x64x16_012_2_2_0_wf

class Facts : Prop extends Facts₀ where

variable [Facts]
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.KernelSums.lean ====
/-
  Finite sums over the 4096 positions of one fiber, cut into chunks of 512.

  For a family g of terms indexed by the positions 0 … 4095 of a commutative additive monoid, the terms of the positions
  a … a + r (r < 512) re-indexed from a are the terms of the chunk starting at a; adding to them the terms of the
  positions before a gives the terms of the positions 0 … a + r.  Only associativity and commutativity of the sum
  are used.  Over the extended reals, a factor that is 1 on the kept positions and 0 on the others selects the kept
  terms (1 · x = x and 0 · x = 0 hold for every extended real, the infinite ones included).
-/
import Idealize.ShloMosaic.PureOps.Ideal

noncomputable section

namespace Cert.KernelSums

variable {M : Type*} [AddCommMonoid M]

/-- The terms of the positions a ≤ j ≤ a + r, re-indexed from a over one chunk of 512. -/
theorem chunk_sum (g : Fin 4096 → M) (a r : ℕ) (ha : a + 512 ≤ 4096) (hr : r < 512) :
    (∑ k : Fin 512, if k.val ≤ r then g ⟨a + k.val, by have := k.isLt; omega⟩ else 0)
      = ∑ j : Fin 4096, if a ≤ j.val ∧ j.val ≤ a + r then g j else 0 := by
  rw [← Finset.sum_filter, ← Finset.sum_filter]
  refine Finset.sum_bij (fun k _ => (⟨a + k.val, by have := k.isLt; omega⟩ : Fin 4096)) ?_ ?_ ?_ ?_
  · intro k hk
    rw [Finset.mem_filter] at hk ⊢
    exact ⟨Finset.mem_univ _, by show a ≤ a + k.val ∧ a + k.val ≤ a + r; have := hk.2; omega⟩
  · intro k _ k' _ h
    have h' : a + k.val = a + k'.val := congrArg Fin.val h
    exact Fin.ext (by omega)
  · intro j hj
    rw [Finset.mem_filter] at hj
    have h1 := hj.2.1
    have h2 := hj.2.2
    refine ⟨⟨j.val - a, by omega⟩, ?_, Fin.ext ?_⟩
    · rw [Finset.mem_filter]; exact ⟨Finset.mem_univ _, by show j.val - a ≤ r; omega⟩
    · show a + (j.val - a) = j.val; omega
  · intro k _; rfl

/-- The chunk's terms up to r, then the terms of the positions before the chunk: the terms up to a + r. -/
theorem chunk_add_prefix (g : Fin 4096 → M) (a r : ℕ) (ha : a + 512 ≤ 4096) (hr : r < 512) :
    (∑ k : Fin 512, if k.val ≤ r then g ⟨a + k.val, by have := k.isLt; omega⟩ else 0)
        + (∑ j : Fin 4096, if j.val < a then g j else 0)
      = ∑ j : Fin 4096, if j.val ≤ a + r then g j else 0 := by
  rw [chunk_sum g a r ha hr, ← Finset.sum_add_distrib]
  refine Finset.sum_congr rfl fun j _ => ?_
  by_cases h1 : j.val < a
  · rw [if_neg (by omega), if_pos h1, if_pos (by omega), zero_add]
  · by_cases h2 : j.val ≤ a + r
    · rw [if_pos ⟨by omega, h2⟩, if_neg h1, if_pos h2, add_zero]
    · rw [if_neg (by omega), if_neg h1, if_neg h2, add_zero]

/-- The same with the earlier positions' terms first. -/
theorem prefix_add_chunk (g : Fin 4096 → M) (a r : ℕ) (ha : a + 512 ≤ 4096) (hr : r < 512) :
    (∑ j : Fin 4096, if j.val < a then g j else 0)
        + (∑ k : Fin 512, if k.val ≤ r then g ⟨a + k.val, by have := k.isLt; omega⟩ else 0)
      = ∑ j : Fin 4096, if j.val ≤ a + r then g j else 0 := by
  rw [add_comm]; exact chunk_add_prefix g a r ha hr

/-- No position is before the first. -/
theorem prefix_zero (g : Fin 4096 → M) : (∑ j : Fin 4096, if j.val < 0 then g j else 0) = 0 :=
  Finset.sum_eq_zero fun j _ => if_neg (Nat.not_lt_zero _)

/-- A chunk's column sums added to the column sums of the earlier chunks: the column sums through this chunk.  The
    chunk is given by its 512 terms `xb`, which are the terms of the positions 512·ci … 512·ci + 511. -/
theorem carry_step (g : Fin 4096 → M) (ci : ℕ) (hci : ci < 8) (xb : Fin 512 → M)
    (hxb : ∀ k : Fin 512, xb k = g ⟨512 * ci + k.val, by have := k.isLt; omega⟩) (cs : M)
    (hcs : cs = ∑ j : Fin 4096, if j.val < 512 * ci then g j else 0) :
    cs + (∑ k : Fin 512, if k.val ≤ 511 then xb k else 0)
      = ∑ j : Fin 4096, if j.val < 512 * (ci + 1) then g j else 0 := by
  subst hcs
  have e : (∑ k : Fin 512, if k.val ≤ 511 then xb k else 0)
      = ∑ k : Fin 512, if k.val ≤ 511 then g ⟨512 * ci + k.val, by have := k.isLt; omega⟩ else 0 :=
    Finset.sum_congr rfl fun k _ => by rw [hxb k]
  rw [e, prefix_add_chunk g (512 * ci) 511 (by omega) (by omega)]
  exact Finset.sum_congr rfl fun j _ => if_congr (by omega) rfl rfl

/-- The chunk's running sum at row r added to the column sums of the earlier chunks: the running sum at the
    position 512·ci + r. -/
theorem out_step (g : Fin 4096 → M) (ci : ℕ) (hci : ci < 8) (xb : Fin 512 → M)
    (hxb : ∀ k : Fin 512, xb k = g ⟨512 * ci + k.val, by have := k.isLt; omega⟩) (cs : M)
    (hcs : cs = ∑ j : Fin 4096, if j.val < 512 * ci then g j else 0) (r : ℕ) (hr : r < 512) :
    (∑ k : Fin 512, if k.val ≤ r then xb k else 0) + cs
      = ∑ j : Fin 4096, if j.val ≤ 512 * ci + r then g j else 0 := by
  subst hcs
  have e : (∑ k : Fin 512, if k.val ≤ r then xb k else 0)
      = ∑ k : Fin 512, if k.val ≤ r then g ⟨512 * ci + k.val, by have := k.isLt; omega⟩ else 0 :=
    Finset.sum_congr rfl fun k _ => by rw [hxb k]
  rw [e, chunk_add_prefix g (512 * ci) r (by omega) hr]

/-- A factor 1 on the kept positions and 0 on the others selects the kept terms. -/
theorem mask_mul (p : Prop) [Decidable p] (x : EReal) : (if p then (1 : EReal) else 0) * x = if p then x else 0 := by
  by_cases h : p
  · rw [if_pos h, if_pos h, one_mul]
  · rw [if_neg h, if_neg h, zero_mul]

end Cert.KernelSums

end
-- ==== Proof.KernelMask.lean ====
/-
  The lower-triangular mask and the product with it.

  The kernel multiplies each 512-row chunk by the 512 × 512 matrix whose entry (r, k) is 1 when k ≤ r and 0 otherwise
  (two coordinate vectors compared, the truth value chosen between the integers 1 and 0 and converted to a float).  Over
  the extended reals the product's entry (r, q) is therefore the sum of the chunk's rows 0 … r in column q: within the
  chunk, an inclusive running sum.
-/
import proofs.«140659_j42700564857293_1_alg».proof.Proof.Gen.KernelIdeal.Skeleton
import proofs.«140659_j42700564857293_1_alg».proof.Proof.LibPlainDot
import proofs.«140659_j42700564857293_1_alg».proof.Proof.KernelSums
import Idealize.ShloMosaic.Lib.Pipeline.Value
import Idealize.ShloMosaic.Lib.ValueLayout
import Idealize.ShloMosaic.Lib.Affine

noncomputable section

namespace Cert.KernelIdeal.CumValue

open Cert.KernelIdeal Cert.KernelIdeal.Gen Idealize.ShloMosaic Idealize.ShloMosaic.ValueIdx

/-- A coordinate below 512 as a 32-bit word, read signed, is itself. -/
theorem toInt_ofNat_small (n : ℕ) (hn : n < 512) : (BitVec.ofNat 32 n).toInt = (n : ℤ) := by
  rw [BitVec.toInt_eq_toNat_cond, BitVec.toNat_ofNat, Nat.mod_eq_of_lt (by omega)]
  rw [if_pos (by omega)]

/-- The mask's entry (r, k): 1 when k ≤ r, 0 otherwise. -/
theorem tri_apply (h0 : S512x512.Iotas .tc 32 [0]) (h1 : S512x512.Iotas .tc 32 [1]) (r k : Fin 512) :
    (sitofp (F := Ideal) .bf16 (select (cmpi .sle (iota .tc S512x512 32 [1] h1) (iota .tc S512x512 32 [0] h0))
        (broadcast S512x512 1#32) (broadcast S512x512 0#32)) : FVec Ideal S512x512 .bf16) (ix2 r k)
      = if k.val ≤ r.val then 1 else 0 := by
  show FloatOps.sitofp (F := Ideal) .bf16 (Scalar.select (IntOp.cmpi .sle (iota .tc S512x512 32 [1] h1 (ix2 r k)) (iota .tc S512x512 32 [0] h0 (ix2 r k))) 1#32 0#32) = _
  rw [iota_single_apply, iota_single_apply]
  show FloatOps.sitofp (F := Ideal) .bf16 (Scalar.select (IntOp.cmpi .sle (BitVec.ofNat 32 k.val) (BitVec.ofNat 32 r.val)) 1#32 0#32) = _
  by_cases h : k.val ≤ r.val
  · have e : IntOp.cmpi .sle (BitVec.ofNat 32 k.val) (BitVec.ofNat 32 r.val) = 1#1 :=
      IntOp.cmpi_sle.mpr (by rw [toInt_ofNat_small _ k.isLt, toInt_ofNat_small _ r.isLt]; exact_mod_cast h)
    rw [e, select_one, if_pos h]
    show (((1#32 : BitVec 32).toInt : ℝ) : EReal) = 1
    rw [show (1#32 : BitVec 32).toInt = 1 from by decide]; simp
  · have e : IntOp.cmpi .sle (BitVec.ofNat 32 k.val) (BitVec.ofNat 32 r.val) = 0#1 :=
      eq_zero_of_ne_one (fun h1 => h (by
        have := IntOp.cmpi_sle.mp h1
        rw [toInt_ofNat_small _ k.isLt, toInt_ofNat_small _ r.isLt] at this; exact_mod_cast this))
    rw [e, select_zero, if_neg h]
    show (((0#32 : BitVec 32).toInt : ℝ) : EReal) = 0
    rw [show (0#32 : BitVec 32).toInt = 0 from by decide]; simp

theorem dot_eq_plain : dot_S512x512_S512x1024_S512x1024_1_0_0_1_n_n = DotDims.plain 512 512 1024 := rfl

/-- The product of the mask with a chunk, at row r and column q: the chunk's rows 0 … r of column q, summed. -/
theorem pay2_apply (x : Vec Ideal S1x512x1024 .f32) (r : Fin 512) (q : Fin 1024) :
    k0_pay2 (F := Ideal) x (ix2 r q) = ∑ k : Fin 512, if k.val ≤ r.val then x (ix3 (0 : Fin 1) k q) else 0 := by
  unfold k0_pay2
  refine (Cert.PlainDot.matmul_zero_apply _ dot_eq_plain none _ _ r q).trans ?_
  refine Finset.sum_congr rfl fun k _ => ?_
  refine (congrArg₂ (· * ·) (tri_apply _ _ r k) ?_).trans (Cert.KernelSums.mask_mul _ _)
  exact shapeCast_1ab_ab_apply x _ k q

end Cert.KernelIdeal.CumValue

end
-- ==== Proof.KernelPieces.lean ====
/-
  What one grid step leaves behind, as functions of the chunk it read and of the carried row.

  A step that is not the first of its batch row (the carried row holds the column sums of the earlier chunks) leaves in
  the output block the masked product plus the carried row laid under every row, and in the carried row the old row plus
  the product's last row.  The first step of a batch row does the same after setting the carried row to zero.  These
  are read off the body's stores: each buffer ends with one store covering it (the first step's carried row with two,
  the later one deciding), and each load reads a whole buffer.
-/
import proofs.«140659_j42700564857293_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.CumValue

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later step's output block: the masked product of the chunk plus the carried row under every row. -/
theorem out_B (c : Dev nD) (i : grid0.Coords) (a2 : Memref sig .tc .vmem S1x512x1024 .f32) (h2 : a2.IsWhole)
    (a3 : Memref sig .tc .vmem S1x512x1024 .f32) (h3 : a3.IsWhole) (a4 : Memref sig .tc .vmem S1x1024 .f32) (h4 : a4.IsWhole)
    (hc : ¬cond0_0 i) (x : Vec F S1x512x1024 .f32) (xs : Vec F S1x1024 .f32) :
    out0_B_1 c i a2 h2 a3 h3 a4 h4 hc x xs = k0_pay3 x xs := by
  unfold out0_B_1
  rw [View.read_writes_eq_canon _ _ _ (cover0_B_1 c i a2 h2 a3 h3 a4 h4 hc x xs)]
  unfold kernelRun0_B
  dsimp only
  rw [View.canon_unit_zero hz3]
  simp only [View.readAt_eq_ld, h2.read_unread, h4.read_unread, View.ld_unit_zero (S := S1x512x1024) hz3,
    View.ld_unit_zero (S := S1x1024) hz2]

/-- A later step's carried row: the old row plus the product's last row. -/
theorem sout_B (c : Dev nD) (i : grid0.Coords) (a2 : Memref sig .tc .vmem S1x512x1024 .f32) (h2 : a2.IsWhole)
    (a3 : Memref sig .tc .vmem S1x512x1024 .f32) (h3 : a3.IsWhole) (a4 : Memref sig .tc .vmem S1x1024 .f32) (h4 : a4.IsWhole)
    (hc : ¬cond0_0 i) (x : Vec F S1x512x1024 .f32) (xs : Vec F S1x1024 .f32) :
    sout0_B_0 c i a2 h2 a3 h3 a4 h4 hc x xs = k0_pay4 x xs := by
  unfold sout0_B_0
  rw [View.read_writes_eq_canon _ _ _ (scover0_B_0 c i a2 h2 a3 h3 a4 h4 hc x xs)]
  unfold kernelRun0_B
  dsimp only
  rw [View.canon_unit_zero hz2]
  simp only [View.readAt_eq_ld, h2.read_unread, h4.read_unread, View.ld_unit_zero (S := S1x512x1024) hz3,
    View.ld_unit_zero (S := S1x1024) hz2]

/-- A first step's output block: as a later step's, over the zero row. -/
theorem out_A (c : Dev nD) (i : grid0.Coords) (a2 : Memref sig .tc .vmem S1x512x1024 .f32) (h2 : a2.IsWhole)
    (a3 : Memref sig .tc .vmem S1x512x1024 .f32) (h3 : a3.IsWhole) (a4 : Memref sig .tc .vmem S1x1024 .f32) (h4 : a4.IsWhole)
    (hc : cond0_0 i) (x : Vec F S1x512x1024 .f32) :
    out0_A_1 c i a2 h2 a3 h3 a4 h4 hc x = k0_pay3 x (k0_pay1 (F := F)) := by
  unfold out0_A_1
  rw [View.read_writes_eq_canon _ _ _ (cover0_A_1 c i a2 h2 a3 h3 a4 h4 hc x)]
  unfold kernelRun0_A
  dsimp only
  sl_unfold_words
  rw [View.canon_unit_zero hz3, View.readCov_unit_zero (S := S1x1024) _ hz2]
  simp only [View.readAt_eq_ld, h2.read_unread, View.ld_unit_zero (S := S1x512x1024) hz3]

/-- A first step's carried row: as a later step's, over the zero row. -/
theorem sout_A (c : Dev nD) (i : grid0.Coords) (a2 : Memref sig .tc .vmem S1x512x1024 .f32) (h2 : a2.IsWhole)
    (a3 : Memref sig .tc .vmem S1x512x1024 .f32) (h3 : a3.IsWhole) (a4 : Memref sig .tc .vmem S1x1024 .f32) (h4 : a4.IsWhole)
    (hc : cond0_0 i) (x : Vec F S1x512x1024 .f32) :
    sout0_A_0 c i a2 h2 a3 h3 a4 h4 hc x = k0_pay4 x (k0_pay1 (F := F)) := by
  unfold sout0_A_0
  rw [View.read_writes_eq_canon _ _ _ (scover0_A_0 c i a2 h2 a3 h3 a4 h4 hc x)]
  unfold kernelRun0_A
  dsimp only
  sl_unfold_words
  rw [View.canon_cons_unit_zero (S := S1x1024) hz2, View.readCov_unit_zero (S := S1x1024) _ hz2]
  simp only [View.readAt_eq_ld, h2.read_unread, View.ld_unit_zero (S := S1x512x1024) hz3]

end Cert.KernelIdeal.CumValue

end
-- ==== Proof.KernelCarry.lean ====
/-
  The carried row and the output block after every grid step.

  The grid step t = 8·b + ci works on chunk ci (rows 512·ci … 512·ci + 511) of batch row b of the array the region
  reads.  By induction on the step: after it the carried row holds, in column q, the sum of the rows before
  512·(ci + 1) of batch row b — a first step (ci = 0) starts from the zero row, a later one from what the step before
  left —, and the output block holds at (r, q) the sum of the rows up to 512·ci + r: the masked product gives the rows
  of the chunk up to r, the carried row the rows of the earlier chunks.
-/
import proofs.«140659_j42700564857293_1_alg».proof.Proof.KernelMask
import proofs.«140659_j42700564857293_1_alg».proof.Proof.KernelPieces
import Idealize.ShloMosaic.Lib.ValueLayout

noncomputable section

open Idealize.ShloMosaic Idealize.ShloMosaic.TcCoe Idealize.SL.Sem
open Idealize.ShloMosaic.Pipeline (Dat)

namespace Cert.KernelIdeal.CumValue

open Cert.KernelIdeal Cert.KernelIdeal.Gen Idealize.ShloMosaic.ValueIdx

/-! ## The body's values at an entry -/

/-- The row a first step starts from is zero. -/
theorem pay1_apply (q : Fin 1024) : k0_pay1 (F := Ideal) (ix2 (0 : Fin 1) q) = 0 := by
  unfold k0_pay1
  refine (congrFun (shapeCast_self _ _) _).trans ?_
  exact Ideal.ofBits_zero_f32

/-- The output block at (r, q): the chunk's rows 0 … r of column q, plus the carried row at q. -/
theorem pay3_apply (x : Vec Ideal S1x512x1024 .f32) (xs : Vec Ideal S1x1024 .f32) (r : Fin 512) (q : Fin 1024) :
    k0_pay3 (F := Ideal) x xs (ix3 (0 : Fin 1) r q)
      = (∑ k : Fin 512, if k.val ≤ r.val then x (ix3 (0 : Fin 1) k q) else 0) + xs (ix2 (0 : Fin 1) q) := by
  unfold k0_pay3
  refine (shapeCast_ab_1ab_apply _ _ (0 : Fin 1) r q).trans ?_
  refine (addf_apply _ _ _).trans ?_
  refine congrArg₂ (· + ·) (pay2_apply x r q) ?_
  refine (broadcastTo_1b_ab_apply _ _ r q).trans ?_
  exact congrFun (shapeCast_self xs _) _

/-- The new carried row at q: the old one plus all 512 rows of the chunk in column q. -/
theorem pay4_apply (x : Vec Ideal S1x512x1024 .f32) (xs : Vec Ideal S1x1024 .f32) (q : Fin 1024) :
    k0_pay4 (F := Ideal) x xs (ix2 (0 : Fin 1) q)
      = xs (ix2 (0 : Fin 1) q) + ∑ k : Fin 512, if k.val ≤ 511 then x (ix3 (0 : Fin 1) k q) else 0 := by
  unfold k0_pay4
  refine (congrFun (shapeCast_self _ _) _).trans ?_
  refine (addf_apply _ _ _).trans ?_
  refine congrArg (xs (ix2 (0 : Fin 1) q) + ·) ?_
  refine (extractStridedSlice_apply _ _ _ (ix2 (0 : Fin 1) q) (ix2 (⟨511, by decide⟩ : Fin 512) q) (fun a => ?_)).trans
    (pay2_apply x ⟨511, by decide⟩ q)
  match a with
  | ⟨0, _⟩ => rfl
  | ⟨1, _⟩ => show q.val = 0 + q.val; omega

/-! ## The chunk a step reads -/

variable {F : FTy → Type} [FloatOps F]

/-- The printed index maps, decided over the grid: step t works on batch row t / 8 and chunk t % 8. -/
theorem idx_facts : ∀ t : Fin cfg0.N, win0_0.index t (0 : Fin 3) = t.val / 8 ∧ win0_0.index t (1 : Fin 3) = t.val % 8
    ∧ win0_0.index t (2 : Fin 3) = 0 ∧ win0_1.index t (0 : Fin 3) = t.val / 8 ∧ win0_1.index t (1 : Fin 3) = t.val % 8
    ∧ win0_1.index t (2 : Fin 3) = 0 :=
  (by decide +kernel : ∀ t : Fin grid0.N, _)

/-- The input block of step 8·b + ci at (r, q) is the array the region reads at (b, 512·ci + r, q). -/
theorem iblk_apply (m : (ℓ : Loc nD τ sig) → Buf (Elt F) ℓ) (c : Dev nD) (t : Fin cfg0.N) (b ci : Fin 8)
    (ht : t.val = 8 * b.val + ci.val) (r : Fin 512) (q : Fin 1024) :
    (iblk m c 0 t : Vec F S1x512x1024 .f32) (ix3 (0 : Fin 1) r q)
      = (V m c main_v0 : S8x4096x1024.Idx → Elt F .f32)
          (ix3 b (⟨512 * ci.val + r.val, by have := ci.isLt; have := r.isLt; omega⟩ : Fin 4096) q) := by
  obtain ⟨e0, e1, e2, -, -, -⟩ := idx_facts t
  have hb := b.isLt
  have hci := ci.isLt
  unfold iblk
  rw [View.read_apply]
  show V m c main_v0 _ = V m c main_v0 _
  refine congrArg _ (funext fun a => Fin.ext ?_)
  match a with
  | ⟨0, _⟩ => show win0_0.index t (0 : Fin 3) * 1 + 1 * 0 = b.val; rw [e0]; omega
  | ⟨1, _⟩ => show win0_0.index t (1 : Fin 3) * 512 + 1 * r.val = 512 * ci.val + r.val; rw [e1]; omega
  | ⟨2, _⟩ => show win0_0.index t (2 : Fin 3) * 1024 + 1 * q.val = q.val; rw [e2]; omega

/-! ## The induction over the steps, over the extended reals -/

variable (m : (ℓ : Loc nD τ sig) → Buf (Elt Ideal) ℓ)

/-- The array the region reads, as a function of its index [batch, position, column]. -/
abbrev X3 (c : Dev nD) : S8x4096x1024.Idx → EReal := V m c main_v0

/-- One step of the carried row: from the sums of the rows before 512·ci to those of the rows before 512·(ci + 1). -/
theorem carry_step_at (c : Dev nD) (t : Fin cfg0.N) (b ci : Fin 8) (ht : t.val = 8 * b.val + ci.val)
    (xs : Vec Ideal S1x1024 .f32)
    (hxs : ∀ q : Fin 1024, xs (ix2 (0 : Fin 1) q) = ∑ j : Fin 4096, if j.val < 512 * ci.val then X3 m c (ix3 b j q) else 0)
    (q : Fin 1024) :
    k0_pay4 (F := Ideal) (iblk m c 0 t) xs (ix2 (0 : Fin 1) q)
      = ∑ j : Fin 4096, if j.val < 512 * (ci.val + 1) then X3 m c (ix3 b j q) else 0 :=
  (pay4_apply (iblk m c 0 t) xs q).trans
    (Cert.KernelSums.carry_step (fun j : Fin 4096 => X3 m c (ix3 b j q)) ci.val ci.isLt
      (fun k : Fin 512 => (iblk m c 0 t : Vec Ideal S1x512x1024 .f32) (ix3 (0 : Fin 1) k q))
      (fun k => iblk_apply m c t b ci ht k q) (xs (ix2 (0 : Fin 1) q)) (hxs q))

/-- The output block of a step over the same carried row: the sums of the rows up to 512·ci + r. -/
theorem out_step_at (c : Dev nD) (t : Fin cfg0.N) (b ci : Fin 8) (ht : t.val = 8 * b.val + ci.val)
    (xs : Vec Ideal S1x1024 .f32)
    (hxs : ∀ q : Fin 1024, xs (ix2 (0 : Fin 1) q) = ∑ j : Fin 4096, if j.val < 512 * ci.val then X3 m c (ix3 b j q) else 0)
    (r : Fin 512) (q : Fin 1024) :
    k0_pay3 (F := Ideal) (iblk m c 0 t) xs (ix3 (0 : Fin 1) r q)
      = ∑ j : Fin 4096, if j.val ≤ 512 * ci.val + r.val then X3 m c (ix3 b j q) else 0 :=
  (pay3_apply (iblk m c 0 t) xs r q).trans
    (Cert.KernelSums.out_step (fun j : Fin 4096 => X3 m c (ix3 b j q)) ci.val ci.isLt
      (fun k : Fin 512 => (iblk m c 0 t : Vec Ideal S1x512x1024 .f32) (ix3 (0 : Fin 1) k q))
      (fun k => iblk_apply m c t b ci ht k q) (xs (ix2 (0 : Fin 1) q)) (hxs q) r.val r.isLt)

/-- The zero row is the (empty) sum of the rows before position 0. -/
theorem zero_row (c : Dev nD) (b ci : Fin 8) (hci : ci.val = 0) (q : Fin 1024) :
    k0_pay1 (F := Ideal) (ix2 (0 : Fin 1) q) = ∑ j : Fin 4096, if j.val < 512 * ci.val then X3 m c (ix3 b j q) else 0 :=
  (pay1_apply q).trans (Finset.sum_eq_zero fun j _ => if_neg (by omega)).symm

/-- THE CARRIED ROW after step n = 8·b + ci: in column q, the sum of the rows before 512·(ci + 1) of batch row b. -/
theorem carry_inv (c : Dev nD) : ∀ (n : ℕ) (hn : n < cfg0.N) (b ci : Fin 8), n = 8 * b.val + ci.val → ∀ q : Fin 1024,
    (outsAt0 m c n hn).2 (ix2 (0 : Fin 1) q)
      = ∑ j : Fin 4096, if j.val < 512 * (ci.val + 1) then X3 m c (ix3 b j q) else 0 := by
  intro n
  induction n using Nat.strong_induction_on with
  | _ n ih =>
    intro hn b ci hbc q
    have hci := ci.isLt
    by_cases h0 : n % 8 = 0
    · rw [outsAt0_A m c ⟨n, hn⟩ h0]
      dsimp only
      rw [sout_A]
      exact carry_step_at m c ⟨n, hn⟩ b ci hbc _ (zero_row m c b ci (by omega)) q
    · rw [outsAt0_B m c ⟨n, hn⟩ h0]
      dsimp only
      rw [sout_B]
      refine carry_step_at m c ⟨n, hn⟩ b ci hbc _ (fun q' => ?_) q
      refine (ih (n - 1) (by omega) (Nat.lt_of_le_of_lt (Nat.sub_le _ _) hn) b ⟨ci.val - 1, by omega⟩
        (by show n - 1 = 8 * b.val + (ci.val - 1); omega) q').trans ?_
      exact Finset.sum_congr rfl fun j _ =>
        if_congr (show j.val < 512 * (ci.val - 1 + 1) ↔ j.val < 512 * ci.val by
          rw [show ci.val - 1 + 1 = ci.val by omega]) rfl rfl

/-- THE OUTPUT BLOCK of step t = 8·b + ci: at (r, q) the sum of the rows up to 512·ci + r of batch row b. -/
theorem out_inv (c : Dev nD) (t : Fin cfg0.N) (b ci : Fin 8) (ht : t.val = 8 * b.val + ci.val) (r : Fin 512)
    (q : Fin 1024) :
    (outsAt0 m c t.val t.isLt).1 (ix3 (0 : Fin 1) r q)
      = ∑ j : Fin 4096, if j.val ≤ 512 * ci.val + r.val then X3 m c (ix3 b j q) else 0 := by
  have hci := ci.isLt
  by_cases h0 : t.val % 8 = 0
  · rw [outsAt0_A m c t h0]
    dsimp only
    rw [out_A]
    exact out_step_at m c t b ci ht _ (zero_row m c b ci (by omega)) r q
  · rw [outsAt0_B m c t h0]
    dsimp only
    rw [out_B]
    refine out_step_at m c t b ci ht _ (fun q' => ?_) r q
    refine (carry_inv m c (t.val - 1) (Nat.lt_of_le_of_lt (Nat.sub_le _ _) t.isLt) b ⟨ci.val - 1, by omega⟩
      (by show t.val - 1 = 8 * b.val + (ci.val - 1); omega) q').trans ?_
    exact Finset.sum_congr rfl fun j _ =>
      if_congr (show j.val < 512 * (ci.val - 1 + 1) ↔ j.val < 512 * ci.val by
        rw [show ci.val - 1 + 1 = ci.val by omega]) rfl rfl

end Cert.KernelIdeal.CumValue

end
-- ==== Proof.KernelBlocks.lean ====
/-
  From the blocks the steps write back to the whole output array of the region.

  Step t = 8·b + ci writes its output block back to the rows 512·ci … 512·ci + 511 of batch row b.  What it writes is
  that block of ONE function of the array the region reads — at [b, l, q] the sum of the rows up to l of batch row b in
  column q —, the 64 blocks cover the array, and so the array ends holding that function.
-/
import proofs.«140659_j42700564857293_1_alg».proof.Proof.KernelCarry
import Idealize.ShloMosaic.Lib.Pipeline.Value

noncomputable section

open Idealize.ShloMosaic Idealize.ShloMosaic.TcCoe Idealize.SL.Sem
open Idealize.ShloMosaic.Pipeline (Dat)

namespace Cert.KernelIdeal.CumValue

open Cert.KernelIdeal Cert.KernelIdeal.Gen Idealize.ShloMosaic.ValueIdx

/-- The inclusive running sum along the position axis of an array [8, 4096, 1024]. -/
def G3 (x : S8x4096x1024.Idx → EReal) : S8x4096x1024.Idx → EReal :=
  fun i => ∑ j : Fin 4096, if j.val ≤ (i 1).val then x (ix3 (i 0) j (i 2)) else 0

theorem G3_ix3 (x : S8x4096x1024.Idx → EReal) (b : Fin 8) (l : Fin 4096) (q : Fin 1024) :
    G3 x (ix3 b l q) = ∑ j : Fin 4096, if j.val ≤ l.val then x (ix3 b j q) else 0 := rfl

variable (m : (ℓ : Loc nD τ sig) → Buf (Elt Ideal) ℓ)

/-- WHAT STEP t WRITES BACK is its block of the running sum of the array the region reads. -/
theorem flushed_eq (c : Dev nD) (t : Fin cfg0.N) :
    (dats m 0 c).flushed 1 t = ((cfg0.win 1).blk t).view.read (Elt Ideal) (G3 (X3 m c)) := by
  have hN : cfg0.N = 64 := N_0
  have htl := t.isLt
  obtain ⟨-, -, -, e0, e1, e2⟩ := idx_facts t
  have hb : t.val / 8 < 8 := by omega
  have hc : t.val % 8 < 8 := Nat.mod_lt _ (by decide)
  show (cfg0.win 1).cut (grid0.coords t) ((dats m 0 c).after 1 t) = _
  rw [after0_1]
  funext y
  obtain ⟨u, r, q, rfl⟩ : ∃ (u : Fin 1) (r : Fin 512) (q : Fin 1024), y = ix3 u r q := ⟨y 0, y 1, y 2, eq_ix3 y⟩
  obtain rfl : u = 0 := Subsingleton.elim _ _
  have hr := r.isLt
  show (outsAt0 m c t.val t.isLt).1 (ix3 (0 : Fin 1) r q)
    = G3 (X3 m c) (((cfg0.win 1).blk t).view.emb (ix3 (0 : Fin 1) r q))
  have e : ((cfg0.win 1).blk t).view.emb (ix3 (0 : Fin 1) r q)
      = ix3 (⟨t.val / 8, hb⟩ : Fin 8) (⟨512 * (t.val % 8) + r.val, by omega⟩ : Fin 4096) q := by
    funext a; apply Fin.ext
    match a with
    | ⟨0, _⟩ => show win0_1.index t (0 : Fin 3) * 1 + 1 * 0 = t.val / 8; rw [e0]; omega
    | ⟨1, _⟩ => show win0_1.index t (1 : Fin 3) * 512 + 1 * r.val = 512 * (t.val % 8) + r.val; rw [e1]; omega
    | ⟨2, _⟩ => show win0_1.index t (2 : Fin 3) * 1024 + 1 * q.val = q.val; rw [e2]; omega
  rw [e, G3_ix3]
  exact out_inv m c t ⟨t.val / 8, hb⟩ ⟨t.val % 8, hc⟩ (by show t.val = 8 * (t.val / 8) + t.val % 8; omega) r q

/-- An index of the array is in step t's block iff each coordinate is in the block's range on its axis. -/
theorem mem_blk (t : Fin cfg0.N) (i : S8x4096x1024.Idx) :
    i ∈ ((cfg0.win 1).blk t).view.set ↔ ∀ a : Fin 3, win0_1.index t a * S1x512x1024.size a ≤ (i a).val
      ∧ (i a).val < win0_1.index t a * S1x512x1024.size a + S1x512x1024.size a := by
  show i ∈ ((View.whole main_v1).slice (win0_1.rect t)).set ↔ _
  rw [View.set_slice_whole, Rect.mem_set_unit]
  exact Iff.rfl

/-- Every index [b, l, q] is in the block of step 8·b + l / 512. -/
theorem cover (i : S8x4096x1024.Idx) :
    ∃ t : Fin cfg0.N, (cfg0.win 1).flush t = true ∧ i ∈ ((cfg0.win 1).blk t).view.set := by
  have hN : cfg0.N = 64 := N_0
  have h0 : (i 0).val < 8 := (i 0).isLt
  have h1 : (i 1).val < 4096 := (i 1).isLt
  have h2 : (i 2).val < 1024 := (i 2).isLt
  obtain ⟨t, ht⟩ : ∃ t : Fin cfg0.N, t.val = 8 * (i 0).val + (i 1).val / 512 :=
    ⟨⟨8 * (i 0).val + (i 1).val / 512, by rw [hN]; omega⟩, rfl⟩
  obtain ⟨-, -, -, e0, e1, e2⟩ := idx_facts t
  refine ⟨t, flush0_1 t, ?_⟩
  rw [mem_blk]
  intro a
  match a with
  | ⟨0, _⟩ =>
    show win0_1.index t (0 : Fin 3) * 1 ≤ (i 0).val ∧ (i 0).val < win0_1.index t (0 : Fin 3) * 1 + 1
    rw [e0]; omega
  | ⟨1, _⟩ =>
    show win0_1.index t (1 : Fin 3) * 512 ≤ (i 1).val ∧ (i 1).val < win0_1.index t (1 : Fin 3) * 512 + 512
    rw [e1]; omega
  | ⟨2, _⟩ =>
    show win0_1.index t (2 : Fin 3) * 1024 ≤ (i 2).val ∧ (i 2).val < win0_1.index t (2 : Fin 3) * 1024 + 1024
    rw [e2]; omega

/-- THE ARRAY after the region: the running sum of the array the region reads. -/
theorem final (c : Dev nD) : (dats m 0 c).arrAt 1 cfg0.N = G3 (X3 m c) :=
  (dats m 0 c).arrAt_eq_of_cover 1 (G3 (X3 m c)) (fun t _ => flushed_eq m c t) cover

end Cert.KernelIdeal.CumValue

end
-- ==== Proof.RunningSum.lean ====
/-
  The inclusive running sum along the position axis of an array [8, 4096, 64, 16], and the work-efficient tree scan
  of a sequence of 4096 terms: the definitions against which both programs are read.

  A sequence X₀ … X₄₀₉₅ in a commutative additive monoid is scanned in three phases.  UP-SWEEP, strides 1, 2, …, 2048:
  at stride s every position p with 2s ∣ p + 1 takes X(p − s) + X(p); after it the position p holds the sum of the
  block of 2^t terms ending at p, where 2^t is the largest power of two (at most 4096) dividing p + 1.  The last entry
  is then CLEARED.  DOWN-SWEEP, strides 2048, 1024, …, 1: at stride s a position p with 2s ∣ p + 1 takes
  X(p − s) + X(p) and the position p − s takes the old X(p); after it position p holds the sum of the terms strictly
  before p.  Adding the original sequence gives the inclusive running sum.
-/
import Idealize.ShloMosaic.Lib.ValueIdx
import Idealize.ShloMosaic.PureOps.Ideal

noncomputable section

namespace Cert.RunningSum

open Idealize.ShloMosaic Idealize.ShloMosaic.ValueIdx

/-- The argument and result layout: [batch, position, channel, lane]. -/
abbrev SX : Shape := ⟨4, ![8, 4096, 64, 16]⟩
/-- The layout the tree scan works in: [batch, channel, position, lane]. -/
abbrev SY : Shape := ⟨4, ![8, 64, 4096, 16]⟩

/-- The inclusive running sum along the position axis. -/
def runningSum (x : SX.Idx → EReal) : SX.Idx → EReal :=
  fun i => ∑ j : Fin 4096, if j.val ≤ (i 1).val then x (ix4 (i 0) j (i 2) (i 3)) else 0

theorem runningSum_ix4 (x : SX.Idx → EReal) (b : Fin 8) (l : Fin 4096) (d : Fin 64) (n : Fin 16) :
    runningSum x (ix4 b l d n) = ∑ j : Fin 4096, if j.val ≤ l.val then x (ix4 b j d n) else 0 := rfl

section sequence

variable {M : Type*} [AddCommMonoid M]

/-- One up-sweep level of stride `s`: a position `p` with `2s ∣ p + 1` takes the entry `s` places before it plus its own. -/
def upLevel (s : ℕ) (X : Fin 4096 → M) : Fin 4096 → M :=
  fun p => if (p.val + 1) % (2 * s) = 0 then X ⟨p.val - s, lt_of_le_of_lt (Nat.sub_le _ _) p.isLt⟩ + X p else X p

/-- The last entry replaced by zero. -/
def clearLast (X : Fin 4096 → M) : Fin 4096 → M :=
  fun p => if p.val = 4095 then 0 else X p

/-- One down-sweep level of stride `s`: a position `p` with `2s ∣ p + 1` takes the entry `s` places before it plus its
    own; a position `p` with `p + 1 ≡ s (mod 2s)` takes the entry `s` places after it; the others keep theirs. -/
def downLevel (s : ℕ) (X : Fin 4096 → M) : Fin 4096 → M :=
  fun p =>
    if (p.val + 1) % (2 * s) = 0 then X ⟨p.val - s, lt_of_le_of_lt (Nat.sub_le _ _) p.isLt⟩ + X p
    else if h : (p.val + 1) % (2 * s) = s ∧ p.val + s < 4096 then X ⟨p.val + s, h.2⟩
    else X p

/-- The up-sweep's first `k` levels: strides 1, 2, …, 2^(k-1), in this order. -/
def upSweep : ℕ → (Fin 4096 → M) → (Fin 4096 → M)
  | 0, X => X
  | k + 1, X => upLevel (2 ^ k) (upSweep k X)

/-- The down-sweep's last `k` levels: strides 2^(k-1), …, 2, 1, in this order. -/
def downSweep : ℕ → (Fin 4096 → M) → (Fin 4096 → M)
  | 0, X => X
  | k + 1, X => downSweep k (downLevel (2 ^ k) X)

/-- The tree scan: twelve levels up, the last entry cleared, twelve levels down, the original sequence added. -/
def treeScan (X : Fin 4096 → M) : Fin 4096 → M :=
  fun p => downSweep 12 (clearLast (upSweep 12 X)) p + X p

end sequence

/-! ## The same on arrays [8, 64, 4096, 16], along the position axis -/

/-- The sequence along the position axis at a fixed batch, channel and lane. -/
def fiber (Y : SY.Idx → EReal) (b : Fin 8) (d : Fin 64) (n : Fin 16) : Fin 4096 → EReal :=
  fun p => Y (ix4 b d p n)

/-- A sequence operation applied to every fiber. -/
def onFibers (op : (Fin 4096 → EReal) → (Fin 4096 → EReal)) (Y : SY.Idx → EReal) : SY.Idx → EReal :=
  fun i => op (fiber Y (i 0) (i 1) (i 3)) (i 2)

theorem onFibers_ix4 (op : (Fin 4096 → EReal) → (Fin 4096 → EReal)) (Y : SY.Idx → EReal)
    (b : Fin 8) (d : Fin 64) (p : Fin 4096) (n : Fin 16) :
    onFibers op Y (ix4 b d p n) = op (fiber Y b d n) p := rfl

theorem fiber_onFibers (op : (Fin 4096 → EReal) → (Fin 4096 → EReal)) (Y : SY.Idx → EReal)
    (b : Fin 8) (d : Fin 64) (n : Fin 16) : fiber (onFibers op Y) b d n = op (fiber Y b d n) := rfl

end Cert.RunningSum

end
-- ==== Proof.KernelValue.lean ====
/-
  The kernel program's result: the inclusive running sum of its argument along the position axis.

  The program lays its argument [8, 4096, 64, 16] out as [8, 4096, 1024] (channel d and lane n at column 16·d + n, the
  same row-major position), runs the region, and lays the region's array back out as [8, 4096, 64, 16].  The region's
  array is the running sum, along the position axis, of the array it reads; the two changes of layout move the
  columns and leave the position axis alone, so the result at [b, l, d, n] is the sum of the argument's entries
  [b, j, d, n] over the positions j ≤ l.
-/
import proofs.«140659_j42700564857293_1_alg».proof.Proof.KernelBlocks
import proofs.«140659_j42700564857293_1_alg».proof.Proof.RunningSum
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.CumValue

open Cert.KernelIdeal Cert.KernelIdeal.Gen Idealize.ShloMosaic.ValueIdx

variable (m : (ℓ : Loc nD τ sig) → Buf (Elt Ideal) ℓ) (ρ : Dev nD → PrngReg)

/-- The array the region reads is the argument laid out as [8, 4096, 1024]. -/
theorem X3_eq (c : Dev nD) :
    X3 m c = shapeCast S8x4096x1024 (m ((c : Thread nD τ).loc main_arg0) : S8x4096x64x16.Idx → EReal)
      shapeCasts_S8x4096x64x16_S8x4096x1024 := by
  show StableHlo.after hostOps0 (fun b => m (c, b)) (Proc.devRef .tc main_v0) = _
  after_results
  rfl

/-- Column 16·d + n of [8, 4096, 1024] is channel d, lane n of [8, 4096, 64, 16]: the same row-major position. -/
theorem col_lt (d : Fin 64) (n : Fin 16) : 16 * d.val + n.val < 1024 := by have := d.isLt; have := n.isLt; omega

theorem to3_apply (x : S8x4096x64x16.Idx → EReal) (h : S8x4096x64x16.ShapeCasts S8x4096x1024)
    (b : Fin 8) (l : Fin 4096) (d : Fin 64) (n : Fin 16) :
    shapeCast S8x4096x1024 x h (ix3 b l (⟨16 * d.val + n.val, col_lt d n⟩ : Fin 1024)) = x (ix4 b l d n) :=
  shapeCast_apply x h _ _ (by
    rw [Shape.rowMajor_val_four, Shape.rowMajor_val_three]
    show ((b.val * 4096 + l.val) * 64 + d.val) * 16 + n.val = (b.val * 4096 + l.val) * 1024 + (16 * d.val + n.val)
    omega)

theorem to4_apply (y : S8x4096x1024.Idx → EReal) (h : S8x4096x1024.ShapeCasts S8x4096x64x16)
    (b : Fin 8) (l : Fin 4096) (d : Fin 64) (n : Fin 16) :
    shapeCast S8x4096x64x16 y h (ix4 b l d n) = y (ix3 b l (⟨16 * d.val + n.val, col_lt d n⟩ : Fin 1024)) :=
  shapeCast_apply y h _ _ (by
    rw [Shape.rowMajor_val_four, Shape.rowMajor_val_three]
    show (b.val * 4096 + l.val) * 1024 + (16 * d.val + n.val) = ((b.val * 4096 + l.val) * 64 + d.val) * 16 + n.val
    omega)

/-- The running sum taken in the [8, 4096, 1024] layout, read back in the argument's layout, is the running sum. -/
theorem layouts (x : S8x4096x64x16.Idx → EReal) (h : S8x4096x64x16.ShapeCasts S8x4096x1024)
    (h' : S8x4096x1024.ShapeCasts S8x4096x64x16) :
    shapeCast S8x4096x64x16 (G3 (shapeCast S8x4096x1024 x h)) h' = Cert.RunningSum.runningSum x := by
  funext i
  obtain ⟨b, l, d, n, rfl⟩ : ∃ (b : Fin 8) (l : Fin 4096) (d : Fin 64) (n : Fin 16), i = ix4 b l d n :=
    ⟨i 0, i 1, i 2, i 3, eq_ix4 i⟩
  rw [to4_apply, G3_ix3, Cert.RunningSum.runningSum_ix4]
  exact Finset.sum_congr rfl fun j _ => by rw [to3_apply]

/-- The result after the lines that follow the region: the region's array laid back out as [8, 4096, 64, 16]. -/
theorem tail_eq (c : Dev nD) :
    Pipeline.afterTail₀ cfgs (dats m) 0 (V0 m) [hostOps1] c main_v2
      = Cert.RunningSum.runningSum (m ((c : Thread nD τ).loc main_arg0) : S8x4096x64x16.Idx → EReal) := by
  unfold Pipeline.afterTail₀
  show StableHlo.after hostOps1 _ (Proc.devRef .tc main_v2) = _
  after_results
  have hw := (Pipeline.withArrays_arr spec0 launch0.win.arr_inj c (V0 m c)
    (fun w => (dats m 0 c).arrAt w (cfgs 0).N) 1).trans (final m c)
  show shapeCast S8x4096x64x16 (Pipeline.withArrays spec0 c (V0 m c) (fun w => (dats m 0 c).arrAt w cfg0.N)
    (Proc.devRef .tc main_v1)) shapeCasts_S8x4096x1024_S8x4096x64x16 = _
  rw [hw, X3_eq]
  exact layouts _ _ _

/-- THE RUN: every execution of the program terminates with its result at the running sum of its argument along the
    position axis, and the argument unchanged. -/
theorem run :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v2)
          = Cert.RunningSum.runningSum (m ((c.tc : Thread Cert.KernelIdeal.nD Cert.KernelIdeal.τ).loc Cert.KernelIdeal.main_arg0))
      ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)) :=
  (θ_run defs _ _).mono (fun r h c =>
      ⟨((h c).2 main_v2 (Pipeline.mem_restRefs_of main_v2 (by decide) (by decide))).trans (tail_eq m c),
        ((h c).2 main_arg0 (Pipeline.mem_restRefs_of main_arg0 (by decide) (by decide))).trans (W_main_arg0 m (dats m) c)⟩)
    (run_main m ρ)

end Cert.KernelIdeal.CumValue

end
-- ==== Proof.RefLine.lean ====
/-
  The reference program's @main as a straight line of 668 host operations, listed window by window in the order the
  program runs them, and its run: every weakly fair execution terminates with each buffer at the fold of the
  operations' results over its launch contents. The operations are copied from the printed program, one list entry per
  statement; nothing is computed here. -/
import proofs.«140659_j42700564857293_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 60 of 668. -/
abbrev ops0 : List (HloOp τ sig (Elt F)) :=
  [ StableHlo.nullary main_c (fun i => lit0 (S2048.rowMajor i)),
    StableHlo.nullary main_c_0 (constantI S2048 1 0#1),
    StableHlo.nullary main_c_1 (fun i => lit1 (S2048.rowMajor i)),
    StableHlo.nullary main_c_2 (constantI S2048 1 0#1),
    StableHlo.nullary main_c_3 (constantI S2048 1 0#1),
    StableHlo.nullary main_c_4 (fun i => lit2 (S1024.rowMajor i)),
    StableHlo.nullary main_c_5 (constantI S1024 1 0#1),
    StableHlo.nullary main_c_6 (fun i => lit3 (S1024.rowMajor i)),
    StableHlo.nullary main_c_7 (constantI S1024 1 0#1),
    StableHlo.nullary main_c_8 (constantI S1024 1 0#1),
    StableHlo.nullary main_c_9 (fun i => lit4 (S512.rowMajor i)),
    StableHlo.nullary main_c_10 (constantI S512 1 0#1),
    StableHlo.nullary main_c_11 (fun i => lit5 (S512.rowMajor i)),
    StableHlo.nullary main_c_12 (constantI S512 1 0#1),
    StableHlo.nullary main_c_13 (constantI S512 1 0#1),
    StableHlo.nullary main_c_14 (fun i => lit6 (S256.rowMajor i)),
    StableHlo.nullary main_c_15 (constantI S256 1 0#1),
    StableHlo.nullary main_c_16 (fun i => lit7 (S256.rowMajor i)),
    StableHlo.nullary main_c_17 (constantI S256 1 0#1),
    StableHlo.nullary main_c_18 (constantI S256 1 0#1),
    StableHlo.nullary main_c_19 (fun i => lit8 (S128.rowMajor i)),
    StableHlo.nullary main_c_20 (constantI S128 1 0#1),
    StableHlo.nullary main_c_21 (fun i => lit9 (S128.rowMajor i)),
    StableHlo.nullary main_c_22 (constantI S128 1 0#1),
    StableHlo.nullary main_c_23 (constantI S128 1 0#1),
    StableHlo.nullary main_c_24 (fun i => lit10 (S64.rowMajor i)),
    StableHlo.nullary main_c_25 (constantI S64 1 0#1),
    StableHlo.nullary main_c_26 (fun i => lit11 (S64.rowMajor i)),
    StableHlo.nullary main_c_27 (constantI S64 1 0#1),
    StableHlo.nullary main_c_28 (constantI S64 1 0#1),
    StableHlo.nullary main_c_29 (fun i => lit12 (S32.rowMajor i)),
    StableHlo.nullary main_c_30 (constantI S32 1 0#1),
    StableHlo.nullary main_c_31 (fun i => lit13 (S32.rowMajor i)),
    StableHlo.nullary main_c_32 (constantI S32 1 0#1),
    StableHlo.nullary main_c_33 (constantI S32 1 0#1),
    StableHlo.nullary main_c_34 (fun i => lit14 (S16.rowMajor i)),
    StableHlo.nullary main_c_35 (constantI S16 1 0#1),
    StableHlo.nullary main_c_36 (fun i => lit15 (S16.rowMajor i)),
    StableHlo.nullary main_c_37 (constantI S16 1 0#1),
    StableHlo.nullary main_c_38 (constantI S16 1 0#1),
    StableHlo.nullary main_c_39 (fun i => lit16 (S8.rowMajor i)),
    StableHlo.nullary main_c_40 (constantI S8 1 0#1),
    StableHlo.nullary main_c_41 (fun i => lit17 (S8.rowMajor i)),
    StableHlo.nullary main_c_42 (constantI S8 1 0#1),
    StableHlo.nullary main_c_43 (constantI S8 1 0#1),
    StableHlo.nullary main_c_44 (fun i => lit18 (S4.rowMajor i)),
    StableHlo.nullary main_c_45 (constantI S4 1 0#1),
    StableHlo.nullary main_c_46 (fun i => lit19 (S4.rowMajor i)),
    StableHlo.nullary main_c_47 (constantI S4 1 0#1),
    StableHlo.nullary main_c_48 (constantI S4 1 0#1),
    StableHlo.nullary main_c_49 (fun i => lit20 (S2.rowMajor i)),
    StableHlo.nullary main_c_50 (constantI S2 1 0#1),
    StableHlo.nullary main_c_51 (fun i => lit21 (S2.rowMajor i)),
    StableHlo.nullary main_c_52 (constantI S2 1 0#1),
    StableHlo.nullary main_c_53 (constantI S2 1 0#1),
    StableHlo.nullary main_c_54 (constantI S1 32 2047#32),
    StableHlo.nullary main_c_55 (constantI S1 1 0#1),
    StableHlo.nullary main_c_56 (constantI S1 32 4095#32),
    StableHlo.nullary main_c_57 (constantI S1 1 0#1),
    StableHlo.nullary main_c_58 (constantI S1 1 0#1) ]

/-- @main's operations 61 … 120 of 668. -/
abbrev ops1 : List (HloOp τ sig (Elt F)) :=
  [ StableHlo.nullary main_c_59 (constantI S1 32 2047#32),
    StableHlo.nullary main_c_60 (constantI S1 1 0#1),
    StableHlo.nullary main_c_61 (constantI S1 32 4095#32),
    StableHlo.nullary main_c_62 (constantI S1 1 0#1),
    StableHlo.nullary main_c_63 (constantI S1 1 0#1),
    StableHlo.nullary main_c_64 (constantI S1 1 0#1),
    StableHlo.nullary main_c_65 (fun i => lit22 (S2.rowMajor i)),
    StableHlo.nullary main_c_66 (constantI S2 1 0#1),
    StableHlo.nullary main_c_67 (fun i => lit23 (S2.rowMajor i)),
    StableHlo.nullary main_c_68 (constantI S2 1 0#1),
    StableHlo.nullary main_c_69 (constantI S2 1 0#1),
    StableHlo.nullary main_c_70 (constantI S2 1 0#1),
    StableHlo.nullary main_c_71 (fun i => lit24 (S4.rowMajor i)),
    StableHlo.nullary main_c_72 (constantI S4 1 0#1),
    StableHlo.nullary main_c_73 (fun i => lit25 (S4.rowMajor i)),
    StableHlo.nullary main_c_74 (constantI S4 1 0#1),
    StableHlo.nullary main_c_75 (constantI S4 1 0#1),
    StableHlo.nullary main_c_76 (constantI S4 1 0#1),
    StableHlo.nullary main_c_77 (fun i => lit26 (S8.rowMajor i)),
    StableHlo.nullary main_c_78 (constantI S8 1 0#1),
    StableHlo.nullary main_c_79 (fun i => lit27 (S8.rowMajor i)),
    StableHlo.nullary main_c_80 (constantI S8 1 0#1),
    StableHlo.nullary main_c_81 (constantI S8 1 0#1),
    StableHlo.nullary main_c_82 (constantI S8 1 0#1),
    StableHlo.nullary main_c_83 (fun i => lit28 (S16.rowMajor i)),
    StableHlo.nullary main_c_84 (constantI S16 1 0#1),
    StableHlo.nullary main_c_85 (fun i => lit29 (S16.rowMajor i)),
    StableHlo.nullary main_c_86 (constantI S16 1 0#1),
    StableHlo.nullary main_c_87 (constantI S16 1 0#1),
    StableHlo.nullary main_c_88 (constantI S16 1 0#1),
    StableHlo.nullary main_c_89 (fun i => lit30 (S32.rowMajor i)),
    StableHlo.nullary main_c_90 (constantI S32 1 0#1),
    StableHlo.nullary main_c_91 (fun i => lit31 (S32.rowMajor i)),
    StableHlo.nullary main_c_92 (constantI S32 1 0#1),
    StableHlo.nullary main_c_93 (constantI S32 1 0#1),
    StableHlo.nullary main_c_94 (constantI S32 1 0#1),
    StableHlo.nullary main_c_95 (fun i => lit32 (S64.rowMajor i)),
    StableHlo.nullary main_c_96 (constantI S64 1 0#1),
    StableHlo.nullary main_c_97 (fun i => lit33 (S64.rowMajor i)),
    StableHlo.nullary main_c_98 (constantI S64 1 0#1),
    StableHlo.nullary main_c_99 (constantI S64 1 0#1),
    StableHlo.nullary main_c_100 (constantI S64 1 0#1),
    StableHlo.nullary main_c_101 (fun i => lit34 (S128.rowMajor i)),
    StableHlo.nullary main_c_102 (constantI S128 1 0#1),
    StableHlo.nullary main_c_103 (fun i => lit35 (S128.rowMajor i)),
    StableHlo.nullary main_c_104 (constantI S128 1 0#1),
    StableHlo.nullary main_c_105 (constantI S128 1 0#1),
    StableHlo.nullary main_c_106 (constantI S128 1 0#1),
    StableHlo.nullary main_c_107 (fun i => lit36 (S256.rowMajor i)),
    StableHlo.nullary main_c_108 (constantI S256 1 0#1),
    StableHlo.nullary main_c_109 (fun i => lit37 (S256.rowMajor i)),
    StableHlo.nullary main_c_110 (constantI S256 1 0#1),
    StableHlo.nullary main_c_111 (constantI S256 1 0#1),
    StableHlo.nullary main_c_112 (constantI S256 1 0#1),
    StableHlo.nullary main_c_113 (fun i => lit38 (S512.rowMajor i)),
    StableHlo.nullary main_c_114 (constantI S512 1 0#1),
    StableHlo.nullary main_c_115 (fun i => lit39 (S512.rowMajor i)),
    StableHlo.nullary main_c_116 (constantI S512 1 0#1),
    StableHlo.nullary main_c_117 (constantI S512 1 0#1),
    StableHlo.nullary main_c_118 (constantI S512 1 0#1) ]

/-- @main's operations 121 … 180 of 668. -/
abbrev ops2 : List (HloOp τ sig (Elt F)) :=
  [ StableHlo.nullary main_c_119 (fun i => lit40 (S1024.rowMajor i)),
    StableHlo.nullary main_c_120 (constantI S1024 1 0#1),
    StableHlo.nullary main_c_121 (fun i => lit41 (S1024.rowMajor i)),
    StableHlo.nullary main_c_122 (constantI S1024 1 0#1),
    StableHlo.nullary main_c_123 (constantI S1024 1 0#1),
    StableHlo.nullary main_c_124 (constantI S1024 1 0#1),
    StableHlo.nullary main_c_125 (fun i => lit42 (S2048.rowMajor i)),
    StableHlo.nullary main_c_126 (constantI S2048 1 0#1),
    StableHlo.nullary main_c_127 (fun i => lit43 (S2048.rowMajor i)),
    StableHlo.nullary main_c_128 (constantI S2048 1 0#1),
    StableHlo.nullary main_c_129 (constantI S2048 1 0#1),
    StableHlo.nullary main_c_130 (constantI S2048 1 0#1),
    StableHlo.nullary main_cst (constant S_ .f32 0x00000000#32),
    StableHlo.unary main_cst main_v0 (broadcastInDim S8x64x16 ![] bcast_S_S8x64x16 : (⟨S_, .f32⟩ : BufTy).Contents (Elt F) → (⟨S8x64x16, .f32⟩ : BufTy).Contents (Elt F)),
    StableHlo.unary main_arg0 main_v1 ((transpose S8x64x4096x16 [0, 2, 1, 3] · transposes_S8x4096x64x16_S8x64x4096x16_0_2_1_3) : (⟨S8x4096x64x16, .f32⟩ : BufTy).Contents (Elt F) → (⟨S8x64x4096x16, .f32⟩ : BufTy).Contents (Elt F)),
    StableHlo.nullary main_c_131 (constantI S_ 32 4096#32),
    StableHlo.unary main_c_131 main_v2 (broadcastInDim S2048 ![] bcast_S_S2048 : (⟨S_, .i32⟩ : BufTy).Contents (Elt F) → (⟨S2048, .i32⟩ : BufTy).Contents (Elt F)),
    StableHlo.binary main_c main_v2 main_v3 (addi : (⟨S2048, .i32⟩ : BufTy).Contents (Elt F) → (⟨S2048, .i32⟩ : BufTy).Contents (Elt F) → (⟨S2048, .i32⟩ : BufTy).Contents (Elt F)),
    StableHlo.ternary main_c_0 main_v3 main_c main_v4 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v4 main_v5 (broadcastInDim S2048x1 ![0] bcast_S2048_S2048x1_0 : (⟨S2048, .i32⟩ : BufTy).Contents (Elt F) → (⟨S2048x1, .i32⟩ : BufTy).Contents (Elt F)),
    StableHlo.binary main_v1 main_v5 main_v6 ((fun x i => Host.gather gather_S8x64x4096x16_S2048x1_S8x64x2048x16_013_2_n_n_2_1_864116 x i) : (⟨S8x64x4096x16, .f32⟩ : BufTy).Contents (Elt F) → (⟨S2048x1, .i32⟩ : BufTy).Contents (Elt F) → (⟨S8x64x2048x16, .f32⟩ : BufTy).Contents (Elt F)),
    StableHlo.nullary main_c_132 (constantI S_ 32 4096#32),
    StableHlo.unary main_c_132 main_v7 (broadcastInDim S2048 ![] bcast_S_S2048 : (⟨S_, .i32⟩ : BufTy).Contents (Elt F) → (⟨S2048, .i32⟩ : BufTy).Contents (Elt F)),
    StableHlo.binary main_c_1 main_v7 main_v8 (addi : (⟨S2048, .i32⟩ : BufTy).Contents (Elt F) → (⟨S2048, .i32⟩ : BufTy).Contents (Elt F) → (⟨S2048, .i32⟩ : BufTy).Contents (Elt F)),
    StableHlo.ternary main_c_2 main_v8 main_c_1 main_v9 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v9 main_v10 (broadcastInDim S2048x1 ![0] bcast_S2048_S2048x1_0 : (⟨S2048, .i32⟩ : BufTy).Contents (Elt F) → (⟨S2048x1, .i32⟩ : BufTy).Contents (Elt F)),
    StableHlo.binary main_v1 main_v10 main_v11 ((fun x i => Host.gather gather_S8x64x4096x16_S2048x1_S8x64x2048x16_013_2_n_n_2_1_864116 x i) : (⟨S8x64x4096x16, .f32⟩ : BufTy).Contents (Elt F) → (⟨S2048x1, .i32⟩ : BufTy).Contents (Elt F) → (⟨S8x64x2048x16, .f32⟩ : BufTy).Contents (Elt F)),
    StableHlo.binary main_v6 main_v11 main_v12 (addf : (⟨S8x64x2048x16, .f32⟩ : BufTy).Contents (Elt F) → (⟨S8x64x2048x16, .f32⟩ : BufTy).Contents (Elt F) → (⟨S8x64x2048x16, .f32⟩ : BufTy).Contents (Elt F)),
    StableHlo.nullary main_c_133 (constantI S_ 32 4096#32),
    StableHlo.unary main_c_133 main_v13 (broadcastInDim S2048 ![] bcast_S_S2048 : (⟨S_, .i32⟩ : BufTy).Contents (Elt F) → (⟨S2048, .i32⟩ : BufTy).Contents (Elt F)),
    StableHlo.binary main_c_1 main_v13 main_v14 (addi : (⟨S2048, .i32⟩ : BufTy).Contents (Elt F) → (⟨S2048, .i32⟩ : BufTy).Contents (Elt F) → (⟨S2048, .i32⟩ : BufTy).Contents (Elt F)),
    StableHlo.ternary main_c_3 main_v14 main_c_1 main_v15 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v15 main_v16 (broadcastInDim S2048x1 ![0] bcast_S2048_S2048x1_0 : (⟨S2048, .i32⟩ : BufTy).Contents (Elt F) → (⟨S2048x1, .i32⟩ : BufTy).Contents (Elt F)),
    StableHlo.ternary main_v1 main_v16 main_v12 main_v17 ((fun x i u => Host.scatter scatter_S8x64x4096x16_S2048x1_S8x64x2048x16_013_2_2_1 (fun _ b => b) x i u) : (⟨S8x64x4096x16, .f32⟩ : BufTy).Contents (Elt F) → (⟨S2048x1, .i32⟩ : BufTy).Contents (Elt F) → (⟨S8x64x2048x16, .f32⟩ : BufTy).Contents (Elt F) → (⟨S8x64x4096x16, .f32⟩ : BufTy).Contents (Elt F)),
    StableHlo.nullary main_c_134 (constantI S_ 32 4096#32),
    StableHlo.unary main_c_134 main_v18 (broadcastInDim S1024 ![] bcast_S_S1024 : (⟨S_, .i32⟩ : BufTy).Contents (Elt F) → (⟨S1024, .i32⟩ : BufTy).Contents (Elt F)),
    StableHlo.binary main_c_4 main_v18 main_v19 (addi : (⟨S1024, .i32⟩ : BufTy).Contents (Elt F) → (⟨S1024, .i32⟩ : BufTy).Contents (Elt F) → (⟨S1024, .i32⟩ : BufTy).Contents (Elt F)),
    StableHlo.ternary main_c_5 main_v19 main_c_4 main_v20 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v20 main_v21 (broadcastInDim S1024x1 ![0] bcast_S1024_S1024x1_0 : (⟨S1024, .i32⟩ : BufTy).Contents (Elt F) → (⟨S1024x1, .i32⟩ : BufTy).Contents (Elt F)),
    StableHlo.binary main_v17 main_v21 main_v22 ((fun x i => Host.gather gather_S8x64x4096x16_S1024x1_S8x64x1024x16_013_2_n_n_2_1_864116 x i) : (⟨S8x64x4096x16, .f32⟩ : BufTy).Contents (Elt F) → (⟨S1024x1, .i32⟩ : BufTy).Contents (Elt F) → (⟨S8x64x1024x16, .f32⟩ : BufTy).Contents (Elt F)),
    StableHlo.nullary main_c_135 (constantI S_ 32 4096#32),
    StableHlo.unary main_c_135 main_v23 (broadcastInDim S1024 ![] bcast_S_S1024 : (⟨S_, .i32⟩ : BufTy).Contents (Elt F) → (⟨S1024, .i32⟩ : BufTy).Contents (Elt F)),
    StableHlo.binary main_c_6 main_v23 main_v24 (addi : (⟨S1024, .i32⟩ : BufTy).Contents (Elt F) → (⟨S1024, .i32⟩ : BufTy).Contents (Elt F) → (⟨S1024, .i32⟩ : BufTy).Contents (Elt F)),
    StableHlo.ternary main_c_7 main_v24 main_c_6 main_v25 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v25 main_v26 (broadcastInDim S1024x1 ![0] bcast_S1024_S1024x1_0 : (⟨S1024, .i32⟩ : BufTy).Contents (Elt F) → (⟨S1024x1, .i32⟩ : BufTy).Contents (Elt F)),
    StableHlo.binary main_v17 main_v26 main_v27 ((fun x i => Host.gather gather_S8x64x4096x16_S1024x1_S8x64x1024x16_013_2_n_n_2_1_864116 x i) : (⟨S8x64x4096x16, .f32⟩ : BufTy).Contents (Elt F) → (⟨S1024x1, .i32⟩ : BufTy).Contents (Elt F) → (⟨S8x64x1024x16, .f32⟩ : BufTy).Contents (Elt F)),
    StableHlo.binary main_v22 main_v27 main_v28 (addf : (⟨S8x64x1024x16, .f32⟩ : BufTy).Contents (Elt F) → (⟨S8x64x1024x16, .f32⟩ : BufTy).Contents (Elt F) → (⟨S8x64x1024x16, .f32⟩ : BufTy).Contents (Elt F)),
    StableHlo.nullary main_c_136 (constantI S_ 32 4096#32),
    StableHlo.unary main_c_136 main_v29 (broadcastInDim S1024 ![] bcast_S_S1024 : (⟨S_, .i32⟩ : BufTy).Contents (Elt F) → (⟨S1024, .i32⟩ : BufTy).Contents (Elt F)),
    StableHlo.binary main_c_6 main_v29 main_v30 (addi : (⟨S1024, .i32⟩ : BufTy).Contents (Elt F) → (⟨S1024, .i32⟩ : BufTy).Contents (Elt F) → (⟨S1024, .i32⟩ : BufTy).Contents (Elt F)),
    StableHlo.ternary main_c_8 main_v30 main_c_6 main_v31 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v31 main_v32 (broadcastInDim S1024x1 ![0] bcast_S1024_S1024x1_0 : (⟨S1024, .i32⟩ : BufTy).Contents (Elt F) → (⟨S1024x1, .i32⟩ : BufTy).Contents (Elt F)),
    StableHlo.ternary main_v17 main_v32 main_v28 main_v33 ((fun x i u => Host.scatter scatter_S8x64x4096x16_S1024x1_S8x64x1024x16_013_2_2_1 (fun _ b => b) x i u) : (⟨S8x64x4096x16, .f32⟩ : BufTy).Contents (Elt F) → (⟨S1024x1, .i32⟩ : BufTy).Contents (Elt F) → (⟨S8x64x1024x16, .f32⟩ : BufTy).Contents (Elt F) → (⟨S8x64x4096x16, .f32⟩ : BufTy).Contents (Elt F)),
    StableHlo.nullary main_c_137 (constantI S_ 32 4096#32),
    StableHlo.unary main_c_137 main_v34 (broadcastInDim S512 ![] bcast_S_S512 : (⟨S_, .i32⟩ : BufTy).Contents (Elt F) → (⟨S512, .i32⟩ : BufTy).Contents (Elt F)),
    StableHlo.binary main_c_9 main_v34 main_v35 (addi : (⟨S512, .i32⟩ : BufTy).Contents (Elt F) → (⟨S512, .i32⟩ : BufTy).Contents (Elt F) → (⟨S512, .i32⟩ : BufTy).Contents (Elt F)),
    StableHlo.ternary main_c_10 main_v35 main_c_9 main_v36 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v36 main_v37 (broadcastInDim S512x1 ![0] bcast_S512_S512x1_0 : (⟨S512, .i32⟩ : BufTy).Contents (Elt F) → (⟨S512x1, .i32⟩ : BufTy).Contents (Elt F)),
    StableHlo.binary main_v33 main_v37 main_v38 ((fun x i => Host.gather gather_S8x64x4096x16_S512x1_S8x64x512x16_013_2_n_n_2_1_864116 x i) : (⟨S8x64x4096x16, .f32⟩ : BufTy).Contents (Elt F) → (⟨S512x1, .i32⟩ : BufTy).Contents (Elt F) → (⟨S8x64x512x16, .f32⟩ : BufTy).Contents (Elt F)),
    StableHlo.nullary main_c_138 (constantI S_ 32 4096#32) ]

/-- @main's operations 181 … 240 of 668. -/
abbrev ops3 : List (HloOp τ sig (Elt F)) :=
  [ StableHlo.unary main_c_138 main_v39 (broadcastInDim S512 ![] bcast_S_S512 : (⟨S_, .i32⟩ : BufTy).Contents (Elt F) → (⟨S512, .i32⟩ : BufTy).Contents (Elt F)),
    StableHlo.binary main_c_11 main_v39 main_v40 (addi : (⟨S512, .i32⟩ : BufTy).Contents (Elt F) → (⟨S512, .i32⟩ : BufTy).Contents (Elt F) → (⟨S512, .i32⟩ : BufTy).Contents (Elt F)),
    StableHlo.ternary main_c_12 main_v40 main_c_11 main_v41 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v41 main_v42 (broadcastInDim S512x1 ![0] bcast_S512_S512x1_0 : (⟨S512, .i32⟩ : BufTy).Contents (Elt F) → (⟨S512x1, .i32⟩ : BufTy).Contents (Elt F)),
    StableHlo.binary main_v33 main_v42 main_v43 ((fun x i => Host.gather gather_S8x64x4096x16_S512x1_S8x64x512x16_013_2_n_n_2_1_864116 x i) : (⟨S8x64x4096x16, .f32⟩ : BufTy).Contents (Elt F) → (⟨S512x1, .i32⟩ : BufTy).Contents (Elt F) → (⟨S8x64x512x16, .f32⟩ : BufTy).Contents (Elt F)),
    StableHlo.binary main_v38 main_v43 main_v44 (addf : (⟨S8x64x512x16, .f32⟩ : BufTy).Contents (Elt F) → (⟨S8x64x512x16, .f32⟩ : BufTy).Contents (Elt F) → (⟨S8x64x512x16, .f32⟩ : BufTy).Contents (Elt F)),
    StableHlo.nullary main_c_139 (constantI S_ 32 4096#32),
    StableHlo.unary main_c_139 main_v45 (broadcastInDim S512 ![] bcast_S_S512 : (⟨S_, .i32⟩ : BufTy).Contents (Elt F) → (⟨S512, .i32⟩ : BufTy).Contents (Elt F)),
    StableHlo.binary main_c_11 main_v45 main_v46 (addi : (⟨S512, .i32⟩ : BufTy).Contents (Elt F) → (⟨S512, .i32⟩ : BufTy).Contents (Elt F) → (⟨S512, .i32⟩ : BufTy).Contents (Elt F)),
    StableHlo.ternary main_c_13 main_v46 main_c_11 main_v47 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v47 main_v48 (broadcastInDim S512x1 ![0] bcast_S512_S512x1_0 : (⟨S512, .i32⟩ : BufTy).Contents (Elt F) → (⟨S512x1, .i32⟩ : BufTy).Contents (Elt F)),
    StableHlo.ternary main_v33 main_v48 main_v44 main_v49 ((fun x i u => Host.scatter scatter_S8x64x4096x16_S512x1_S8x64x512x16_013_2_2_1 (fun _ b => b) x i u) : (⟨S8x64x4096x16, .f32⟩ : BufTy).Contents (Elt F) → (⟨S512x1, .i32⟩ : BufTy).Contents (Elt F) → (⟨S8x64x512x16, .f32⟩ : BufTy).Contents (Elt F) → (⟨S8x64x4096x16, .f32⟩ : BufTy).Contents (Elt F)),
    StableHlo.nullary main_c_140 (constantI S_ 32 4096#32),
    StableHlo.unary main_c_140 main_v50 (broadcastInDim S256 ![] bcast_S_S256 : (⟨S_, .i32⟩ : BufTy).Contents (Elt F) → (⟨S256, .i32⟩ : BufTy).Contents (Elt F)),
    StableHlo.binary main_c_14 main_v50 main_v51 (addi : (⟨S256, .i32⟩ : BufTy).Contents (Elt F) → (⟨S256, .i32⟩ : BufTy).Contents (Elt F) → (⟨S256, .i32⟩ : BufTy).Contents (Elt F)),
    StableHlo.ternary main_c_15 main_v51 main_c_14 main_v52 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v52 main_v53 (broadcastInDim S256x1 ![0] bcast_S256_S256x1_0 : (⟨S256, .i32⟩ : BufTy).Contents (Elt F) → (⟨S256x1, .i32⟩ : BufTy).Contents (Elt F)),
    StableHlo.binary main_v49 main_v53 main_v54 ((fun x i => Host.gather gather_S8x64x4096x16_S256x1_S8x64x256x16_013_2_n_n_2_1_864116 x i) : (⟨S8x64x4096x16, .f32⟩ : BufTy).Contents (Elt F) → (⟨S256x1, .i32⟩ : BufTy).Contents (Elt F) → (⟨S8x64x256x16, .f32⟩ : BufTy).Contents (Elt F)),
    StableHlo.nullary main_c_141 (constantI S_ 32 4096#32),
    StableHlo.unary main_c_141 main_v55 (broadcastInDim S256 ![] bcast_S_S256 : (⟨S_, .i32⟩ : BufTy).Contents (Elt F) → (⟨S256, .i32⟩ : BufTy).Contents (Elt F)),
    StableHlo.binary main_c_16 main_v55 main_v56 (addi : (⟨S256, .i32⟩ : BufTy).Contents (Elt F) → (⟨S256, .i32⟩ : BufTy).Contents (Elt F) → (⟨S256, .i32⟩ : BufTy).Contents (Elt F)),
    StableHlo.ternary main_c_17 main_v56 main_c_16 main_v57 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v57 main_v58 (broadcastInDim S256x1 ![0] bcast_S256_S256x1_0 : (⟨S256, .i32⟩ : BufTy).Contents (Elt F) → (⟨S256x1, .i32⟩ : BufTy).Contents (Elt F)),
    StableHlo.binary main_v49 main_v58 main_v59 ((fun x i => Host.gather gather_S8x64x4096x16_S256x1_S8x64x256x16_013_2_n_n_2_1_864116 x i) : (⟨S8x64x4096x16, .f32⟩ : BufTy).Contents (Elt F) → (⟨S256x1, .i32⟩ : BufTy).Contents (Elt F) → (⟨S8x64x256x16, .f32⟩ : BufTy).Contents (Elt F)),
    StableHlo.binary main_v54 main_v59 main_v60 (addf : (⟨S8x64x256x16, .f32⟩ : BufTy).Contents (Elt F) → (⟨S8x64x256x16, .f32⟩ : BufTy).Contents (Elt F) → (⟨S8x64x256x16, .f32⟩ : BufTy).Contents (Elt F)),
    StableHlo.nullary main_c_142 (constantI S_ 32 4096#32),
    StableHlo.unary main_c_142 main_v61 (broadcastInDim S256 ![] bcast_S_S256 : (⟨S_, .i32⟩ : BufTy).Contents (Elt F) → (⟨S256, .i32⟩ : BufTy).Contents (Elt F)),
    StableHlo.binary main_c_16 main_v61 main_v62 (addi : (⟨S256, .i32⟩ : BufTy).Contents (Elt F) → (⟨S256, .i32⟩ : BufTy).Contents (Elt F) → (⟨S256, .i32⟩ : BufTy).Contents (Elt F)),
    StableHlo.ternary main_c_18 main_v62 main_c_16 main_v63 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v63 main_v64 (broadcastInDim S256x1 ![0] bcast_S256_S256x1_0 : (⟨S256, .i32⟩ : BufTy).Contents (Elt F) → (⟨S256x1, .i32⟩ : BufTy).Contents (Elt F)),
    StableHlo.ternary main_v49 main_v64 main_v60 main_v65 ((fun x i u => Host.scatter scatter_S8x64x4096x16_S256x1_S8x64x256x16_013_2_2_1 (fun _ b => b) x i u) : (⟨S8x64x4096x16, .f32⟩ : BufTy).Contents (Elt F) → (⟨S256x1, .i32⟩ : BufTy).Contents (Elt F) → (⟨S8x64x256x16, .f32⟩ : BufTy).Contents (Elt F) → (⟨S8x64x4096x16, .f32⟩ : BufTy).Contents (Elt F)),
    StableHlo.nullary main_c_143 (constantI S_ 32 4096#32),
    StableHlo.unary main_c_143 main_v66 (broadcastInDim S128 ![] bcast_S_S128 : (⟨S_, .i32⟩ : BufTy).Contents (Elt F) → (⟨S128, .i32⟩ : BufTy).Contents (Elt F)),
    StableHlo.binary main_c_19 main_v66 main_v67 (addi : (⟨S128, .i32⟩ : BufTy).Contents (Elt F) → (⟨S128, .i32⟩ : BufTy).Contents (Elt F) → (⟨S128, .i32⟩ : BufTy).Contents (Elt F)),
    StableHlo.ternary main_c_20 main_v67 main_c_19 main_v68 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v68 main_v69 (broadcastInDim S128x1 ![0] bcast_S128_S128x1_0 : (⟨S128, .i32⟩ : BufTy).Contents (Elt F) → (⟨S128x1, .i32⟩ : BufTy).Contents (Elt F)),
    StableHlo.binary main_v65 main_v69 main_v70 ((fun x i => Host.gather gather_S8x64x4096x16_S128x1_S8x64x128x16_013_2_n_n_2_1_864116 x i) : (⟨S8x64x4096x16, .f32⟩ : BufTy).Contents (Elt F) → (⟨S128x1, .i32⟩ : BufTy).Contents (Elt F) → (⟨S8x64x128x16, .f32⟩ : BufTy).Contents (Elt F)),
    StableHlo.nullary main_c_144 (constantI S_ 32 4096#32),
    StableHlo.unary main_c_144 main_v71 (broadcastInDim S128 ![] bcast_S_S128 : (⟨S_, .i32⟩ : BufTy).Contents (Elt F) → (⟨S128, .i32⟩ : BufTy).Contents (Elt F)),
    StableHlo.binary main_c_21 main_v71 main_v72 (addi : (⟨S128, .i32⟩ : BufTy).Contents (Elt F) → (⟨S128, .i32⟩ : BufTy).Contents (Elt F) → (⟨S128, .i32⟩ : BufTy).Contents (Elt F)),
    StableHlo.ternary main_c_22 main_v72 main_c_21 main_v73 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v73 main_v74 (broadcastInDim S128x1 ![0] bcast_S128_S128x1_0 : (⟨S128, .i32⟩ : BufTy).Contents (Elt F) → (⟨S128x1, .i32⟩ : BufTy).Contents (Elt F)),
    StableHlo.binary main_v65 main_v74 main_v75 ((fun x i => Host.gather gather_S8x64x4096x16_S128x1_S8x64x128x16_013_2_n_n_2_1_864116 x i) : (⟨S8x64x4096x16, .f32⟩ : BufTy).Contents (Elt F) → (⟨S128x1, .i32⟩ : BufTy).Contents (Elt F) → (⟨S8x64x128x16, .f32⟩ : BufTy).Contents (Elt F)),
    StableHlo.binary main_v70 main_v75 main_v76 (addf : (⟨S8x64x128x16, .f32⟩ : BufTy).Contents (Elt F) → (⟨S8x64x128x16, .f32⟩ : BufTy).Contents (Elt F) → (⟨S8x64x128x16, .f32⟩ : BufTy).Contents (Elt F)),
    StableHlo.nullary main_c_145 (constantI S_ 32 4096#32),
    StableHlo.unary main_c_145 main_v77 (broadcastInDim S128 ![] bcast_S_S128 : (⟨S_, .i32⟩ : BufTy).Contents (Elt F) → (⟨S128, .i32⟩ : BufTy).Contents (Elt F)),
    StableHlo.binary main_c_21 main_v77 main_v78 (addi : (⟨S128, .i32⟩ : BufTy).Contents (Elt F) → (⟨S128, .i32⟩ : BufTy).Contents (Elt F) → (⟨S128, .i32⟩ : BufTy).Contents (Elt F)),
    StableHlo.ternary main_c_23 main_v78 main_c_21 main_v79 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v79 main_v80 (broadcastInDim S128x1 ![0] bcast_S128_S128x1_0 : (⟨S128, .i32⟩ : BufTy).Contents (Elt F) → (⟨S128x1, .i32⟩ : BufTy).Contents (Elt F)),
    StableHlo.ternary main_v65 main_v80 main_v76 main_v81 ((fun x i u => Host.scatter scatter_S8x64x4096x16_S128x1_S8x64x128x16_013_2_2_1 (fun _ b => b) x i u) : (⟨S8x64x4096x16, .f32⟩ : BufTy).Contents (Elt F) → (⟨S128x1, .i32⟩ : BufTy).Contents (Elt F) → (⟨S8x64x128x16, .f32⟩ : BufTy).Contents (Elt F) → (⟨S8x64x4096x16, .f32⟩ : BufTy).Contents (Elt F)),
    StableHlo.nullary main_c_146 (constantI S_ 32 4096#32),
    StableHlo.unary main_c_146 main_v82 (broadcastInDim S64 ![] bcast_S_S64 : (⟨S_, .i32⟩ : BufTy).Contents (Elt F) → (⟨S64, .i32⟩ : BufTy).Contents (Elt F)),
    StableHlo.binary main_c_24 main_v82 main_v83 (addi : (⟨S64, .i32⟩ : BufTy).Contents (Elt F) → (⟨S64, .i32⟩ : BufTy).Contents (Elt F) → (⟨S64, .i32⟩ : BufTy).Contents (Elt F)),
    StableHlo.ternary main_c_25 main_v83 main_c_24 main_v84 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v84 main_v85 (broadcastInDim S64x1 ![0] bcast_S64_S64x1_0 : (⟨S64, .i32⟩ : BufTy).Contents (Elt F) → (⟨S64x1, .i32⟩ : BufTy).Contents (Elt F)),
    StableHlo.binary main_v81 main_v85 main_v86 ((fun x i => Host.gather gather_S8x64x4096x16_S64x1_S8x64x64x16_013_2_n_n_2_1_864116 x i) : (⟨S8x64x4096x16, .f32⟩ : BufTy).Contents (Elt F) → (⟨S64x1, .i32⟩ : BufTy).Contents (Elt F) → (⟨S8x64x64x16, .f32⟩ : BufTy).Contents (Elt F)),
    StableHlo.nullary main_c_147 (constantI S_ 32 4096#32),
    StableHlo.unary main_c_147 main_v87 (broadcastInDim S64 ![] bcast_S_S64 : (⟨S_, .i32⟩ : BufTy).Contents (Elt F) → (⟨S64, .i32⟩ : BufTy).Contents (Elt F)),
    StableHlo.binary main_c_26 main_v87 main_v88 (addi : (⟨S64, .i32⟩ : BufTy).Contents (Elt F) → (⟨S64, .i32⟩ : BufTy).Contents (Elt F) → (⟨S64, .i32⟩ : BufTy).Contents (Elt F)),
    StableHlo.ternary main_c_27 main_v88 main_c_26 main_v89 (select : (⟨S64, .i1⟩ : BufTy).Contents (Elt F) → (⟨S64, .i32⟩ : BufTy).Contents (Elt F) → (⟨S64, .i32⟩ : BufTy).Contents (Elt F) → (⟨S64, .i32⟩ : BufTy).Contents (Elt F)) ]

/-- @main's operations 241 … 300 of 668. -/
abbrev ops4 : List (HloOp τ sig (Elt F)) :=
  [ StableHlo.unary main_v89 main_v90 (broadcastInDim S64x1 ![0] bcast_S64_S64x1_0 : (⟨S64, .i32⟩ : BufTy).Contents (Elt F) → (⟨S64x1, .i32⟩ : BufTy).Contents (Elt F)),
    StableHlo.binary main_v81 main_v90 main_v91 ((fun x i => Host.gather gather_S8x64x4096x16_S64x1_S8x64x64x16_013_2_n_n_2_1_864116 x i) : (⟨S8x64x4096x16, .f32⟩ : BufTy).Contents (Elt F) → (⟨S64x1, .i32⟩ : BufTy).Contents (Elt F) → (⟨S8x64x64x16, .f32⟩ : BufTy).Contents (Elt F)),
    StableHlo.binary main_v86 main_v91 main_v92 (addf : (⟨S8x64x64x16, .f32⟩ : BufTy).Contents (Elt F) → (⟨S8x64x64x16, .f32⟩ : BufTy).Contents (Elt F) → (⟨S8x64x64x16, .f32⟩ : BufTy).Contents (Elt F)),
    StableHlo.nullary main_c_148 (constantI S_ 32 4096#32),
    StableHlo.unary main_c_148 main_v93 (broadcastInDim S64 ![] bcast_S_S64 : (⟨S_, .i32⟩ : BufTy).Contents (Elt F) → (⟨S64, .i32⟩ : BufTy).Contents (Elt F)),
    StableHlo.binary main_c_26 main_v93 main_v94 (addi : (⟨S64, .i32⟩ : BufTy).Contents (Elt F) → (⟨S64, .i32⟩ : BufTy).Contents (Elt F) → (⟨S64, .i32⟩ : BufTy).Contents (Elt F)),
    StableHlo.ternary main_c_28 main_v94 main_c_26 main_v95 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v95 main_v96 (broadcastInDim S64x1 ![0] bcast_S64_S64x1_0 : (⟨S64, .i32⟩ : BufTy).Contents (Elt F) → (⟨S64x1, .i32⟩ : BufTy).Contents (Elt F)),
    StableHlo.ternary main_v81 main_v96 main_v92 main_v97 ((fun x i u => Host.scatter scatter_S8x64x4096x16_S64x1_S8x64x64x16_013_2_2_1 (fun _ b => b) x i u) : (⟨S8x64x4096x16, .f32⟩ : BufTy).Contents (Elt F) → (⟨S64x1, .i32⟩ : BufTy).Contents (Elt F) → (⟨S8x64x64x16, .f32⟩ : BufTy).Contents (Elt F) → (⟨S8x64x4096x16, .f32⟩ : BufTy).Contents (Elt F)),
    StableHlo.nullary main_c_149 (constantI S_ 32 4096#32),
    StableHlo.unary main_c_149 main_v98 (broadcastInDim S32 ![] bcast_S_S32 : (⟨S_, .i32⟩ : BufTy).Contents (Elt F) → (⟨S32, .i32⟩ : BufTy).Contents (Elt F)),
    StableHlo.binary main_c_29 main_v98 main_v99 (addi : (⟨S32, .i32⟩ : BufTy).Contents (Elt F) → (⟨S32, .i32⟩ : BufTy).Contents (Elt F) → (⟨S32, .i32⟩ : BufTy).Contents (Elt F)),
    StableHlo.ternary main_c_30 main_v99 main_c_29 main_v100 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v100 main_v101 (broadcastInDim S32x1 ![0] bcast_S32_S32x1_0 : (⟨S32, .i32⟩ : BufTy).Contents (Elt F) → (⟨S32x1, .i32⟩ : BufTy).Contents (Elt F)),
    StableHlo.binary main_v97 main_v101 main_v102 ((fun x i => Host.gather gather_S8x64x4096x16_S32x1_S8x64x32x16_013_2_n_n_2_1_864116 x i) : (⟨S8x64x4096x16, .f32⟩ : BufTy).Contents (Elt F) → (⟨S32x1, .i32⟩ : BufTy).Contents (Elt F) → (⟨S8x64x32x16, .f32⟩ : BufTy).Contents (Elt F)),
    StableHlo.nullary main_c_150 (constantI S_ 32 4096#32),
    StableHlo.unary main_c_150 main_v103 (broadcastInDim S32 ![] bcast_S_S32 : (⟨S_, .i32⟩ : BufTy).Contents (Elt F) → (⟨S32, .i32⟩ : BufTy).Contents (Elt F)),
    StableHlo.binary main_c_31 main_v103 main_v104 (addi : (⟨S32, .i32⟩ : BufTy).Contents (Elt F) → (⟨S32, .i32⟩ : BufTy).Contents (Elt F) → (⟨S32, .i32⟩ : BufTy).Contents (Elt F)),
    StableHlo.ternary main_c_32 main_v104 main_c_31 main_v105 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v105 main_v106 (broadcastInDim S32x1 ![0] bcast_S32_S32x1_0 : (⟨S32, .i32⟩ : BufTy).Contents (Elt F) → (⟨S32x1, .i32⟩ : BufTy).Contents (Elt F)),
    StableHlo.binary main_v97 main_v106 main_v107 ((fun x i => Host.gather gather_S8x64x4096x16_S32x1_S8x64x32x16_013_2_n_n_2_1_864116 x i) : (⟨S8x64x4096x16, .f32⟩ : BufTy).Contents (Elt F) → (⟨S32x1, .i32⟩ : BufTy).Contents (Elt F) → (⟨S8x64x32x16, .f32⟩ : BufTy).Contents (Elt F)),
    StableHlo.binary main_v102 main_v107 main_v108 (addf : (⟨S8x64x32x16, .f32⟩ : BufTy).Contents (Elt F) → (⟨S8x64x32x16, .f32⟩ : BufTy).Contents (Elt F) → (⟨S8x64x32x16, .f32⟩ : BufTy).Contents (Elt F)),
    StableHlo.nullary main_c_151 (constantI S_ 32 4096#32),
    StableHlo.unary main_c_151 main_v109 (broadcastInDim S32 ![] bcast_S_S32 : (⟨S_, .i32⟩ : BufTy).Contents (Elt F) → (⟨S32, .i32⟩ : BufTy).Contents (Elt F)),
    StableHlo.binary main_c_31 main_v109 main_v110 (addi : (⟨S32, .i32⟩ : BufTy).Contents (Elt F) → (⟨S32, .i32⟩ : BufTy).Contents (Elt F) → (⟨S32, .i32⟩ : BufTy).Contents (Elt F)),
    StableHlo.ternary main_c_33 main_v110 main_c_31 main_v111 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v111 main_v112 (broadcastInDim S32x1 ![0] bcast_S32_S32x1_0 : (⟨S32, .i32⟩ : BufTy).Contents (Elt F) → (⟨S32x1, .i32⟩ : BufTy).Contents (Elt F)),
    StableHlo.ternary main_v97 main_v112 main_v108 main_v113 ((fun x i u => Host.scatter scatter_S8x64x4096x16_S32x1_S8x64x32x16_013_2_2_1 (fun _ b => b) x i u) : (⟨S8x64x4096x16, .f32⟩ : BufTy).Contents (Elt F) → (⟨S32x1, .i32⟩ : BufTy).Contents (Elt F) → (⟨S8x64x32x16, .f32⟩ : BufTy).Contents (Elt F) → (⟨S8x64x4096x16, .f32⟩ : BufTy).Contents (Elt F)),
    StableHlo.nullary main_c_152 (constantI S_ 32 4096#32),
    StableHlo.unary main_c_152 main_v114 (broadcastInDim S16 ![] bcast_S_S16 : (⟨S_, .i32⟩ : BufTy).Contents (Elt F) → (⟨S16, .i32⟩ : BufTy).Contents (Elt F)),
    StableHlo.binary main_c_34 main_v114 main_v115 (addi : (⟨S16, .i32⟩ : BufTy).Contents (Elt F) → (⟨S16, .i32⟩ : BufTy).Contents (Elt F) → (⟨S16, .i32⟩ : BufTy).Contents (Elt F)),
    StableHlo.ternary main_c_35 main_v115 main_c_34 main_v116 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.unary main_v116 main_v117 (broadcastInDim S16x1 ![0] bcast_S16_S16x1_0 : (⟨S16, .i32⟩ : BufTy).Contents (Elt F) → (⟨S16x1, .i32⟩ : BufTy).Contents (Elt F)),
    StableHlo.binary main_v113 main_v117 main_v118 ((fun x i => Host.gather gather_S8x64x4096x16_S16x1_S8x64x16x16_013_2_n_n_2_1_864116 x i) : (⟨S8x64x4096x16, .f32⟩ : BufTy).Contents (Elt F) → (⟨S16x1, .i32⟩ : BufTy).Contents (Elt F) → (⟨S8x64x16x16, .f32⟩ : BufTy).Contents (Elt F)),
    StableHlo.nullary main_c_153 (constantI S_ 32 4096#32),
    StableHlo.unary main_c_153 main_v119 (broadcastInDim S16 ![] bcast_S_S16 : (⟨S_, .i32⟩ : BufTy).Contents (Elt F) → (⟨S16, .i32⟩ : BufTy).Contents (Elt F)),
    StableHlo.binary main_c_36 main_v119 main_v120 (addi : (⟨S16, .i32⟩ : BufTy).Contents (Elt F) → (⟨S16, .i32⟩ : BufTy).Contents (Elt F) → (⟨S16, .i32⟩ : BufTy).Contents (Elt F)),
    StableHlo.ternary main_c_37 main_v120 main_c_36 main_v121 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.unary main_v121 main_v122 (broadcastInDim S16x1 ![0] bcast_S16_S16x1_0 : (⟨S16, .i32⟩ : BufTy).Contents (Elt F) → (⟨S16x1, .i32⟩ : BufTy).Contents (Elt F)),
    StableHlo.binary main_v113 main_v122 main_v123 ((fun x i => Host.gather gather_S8x64x4096x16_S16x1_S8x64x16x16_013_2_n_n_2_1_864116 x i) : (⟨S8x64x4096x16, .f32⟩ : BufTy).Contents (Elt F) → (⟨S16x1, .i32⟩ : BufTy).Contents (Elt F) → (⟨S8x64x16x16, .f32⟩ : BufTy).Contents (Elt F)),
    StableHlo.binary main_v118 main_v123 main_v124 (addf : (⟨S8x64x16x16, .f32⟩ : BufTy).Contents (Elt F) → (⟨S8x64x16x16, .f32⟩ : BufTy).Contents (Elt F) → (⟨S8x64x16x16, .f32⟩ : BufTy).Contents (Elt F)),
    StableHlo.nullary main_c_154 (constantI S_ 32 4096#32),
    StableHlo.unary main_c_154 main_v125 (broadcastInDim S16 ![] bcast_S_S16 : (⟨S_, .i32⟩ : BufTy).Contents (Elt F) → (⟨S16, .i32⟩ : BufTy).Contents (Elt F)),
    StableHlo.binary main_c_36 main_v125 main_v126 (addi : (⟨S16, .i32⟩ : BufTy).Contents (Elt F) → (⟨S16, .i32⟩ : BufTy).Contents (Elt F) → (⟨S16, .i32⟩ : BufTy).Contents (Elt F)),
    StableHlo.ternary main_c_38 main_v126 main_c_36 main_v127 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.unary main_v127 main_v128 (broadcastInDim S16x1 ![0] bcast_S16_S16x1_0 : (⟨S16, .i32⟩ : BufTy).Contents (Elt F) → (⟨S16x1, .i32⟩ : BufTy).Contents (Elt F)),
    StableHlo.ternary main_v113 main_v128 main_v124 main_v129 ((fun x i u => Host.scatter scatter_S8x64x4096x16_S16x1_S8x64x16x16_013_2_2_1 (fun _ b => b) x i u) : (⟨S8x64x4096x16, .f32⟩ : BufTy).Contents (Elt F) → (⟨S16x1, .i32⟩ : BufTy).Contents (Elt F) → (⟨S8x64x16x16, .f32⟩ : BufTy).Contents (Elt F) → (⟨S8x64x4096x16, .f32⟩ : BufTy).Contents (Elt F)),
    StableHlo.nullary main_c_155 (constantI S_ 32 4096#32),
    StableHlo.unary main_c_155 main_v130 (broadcastInDim S8 ![] bcast_S_S8 : (⟨S_, .i32⟩ : BufTy).Contents (Elt F) → (⟨S8, .i32⟩ : BufTy).Contents (Elt F)),
    StableHlo.binary main_c_39 main_v130 main_v131 (addi : (⟨S8, .i32⟩ : BufTy).Contents (Elt F) → (⟨S8, .i32⟩ : BufTy).Contents (Elt F) → (⟨S8, .i32⟩ : BufTy).Contents (Elt F)),
    StableHlo.ternary main_c_40 main_v131 main_c_39 main_v132 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v132 main_v133 (broadcastInDim S8x1 ![0] bcast_S8_S8x1_0 : (⟨S8, .i32⟩ : BufTy).Contents (Elt F) → (⟨S8x1, .i32⟩ : BufTy).Contents (Elt F)),
    StableHlo.binary main_v129 main_v133 main_v134 ((fun x i => Host.gather gather_S8x64x4096x16_S8x1_S8x64x8x16_013_2_n_n_2_1_864116 x i) : (⟨S8x64x4096x16, .f32⟩ : BufTy).Contents (Elt F) → (⟨S8x1, .i32⟩ : BufTy).Contents (Elt F) → (⟨S8x64x8x16, .f32⟩ : BufTy).Contents (Elt F)),
    StableHlo.nullary main_c_156 (constantI S_ 32 4096#32),
    StableHlo.unary main_c_156 main_v135 (broadcastInDim S8 ![] bcast_S_S8 : (⟨S_, .i32⟩ : BufTy).Contents (Elt F) → (⟨S8, .i32⟩ : BufTy).Contents (Elt F)),
    StableHlo.binary main_c_41 main_v135 main_v136 (addi : (⟨S8, .i32⟩ : BufTy).Contents (Elt F) → (⟨S8, .i32⟩ : BufTy).Contents (Elt F) → (⟨S8, .i32⟩ : BufTy).Contents (Elt F)),
    StableHlo.ternary main_c_42 main_v136 main_c_41 main_v137 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v137 main_v138 (broadcastInDim S8x1 ![0] bcast_S8_S8x1_0 : (⟨S8, .i32⟩ : BufTy).Contents (Elt F) → (⟨S8x1, .i32⟩ : BufTy).Contents (Elt F)),
    StableHlo.binary main_v129 main_v138 main_v139 ((fun x i => Host.gather gather_S8x64x4096x16_S8x1_S8x64x8x16_013_2_n_n_2_1_864116 x i) : (⟨S8x64x4096x16, .f32⟩ : BufTy).Contents (Elt F) → (⟨S8x1, .i32⟩ : BufTy).Contents (Elt F) → (⟨S8x64x8x16, .f32⟩ : BufTy).Contents (Elt F)),
    StableHlo.binary main_v134 main_v139 main_v140 (addf : (⟨S8x64x8x16, .f32⟩ : BufTy).Contents (Elt F) → (⟨S8x64x8x16, .f32⟩ : BufTy).Contents (Elt F) → (⟨S8x64x8x16, .f32⟩ : BufTy).Contents (Elt F)) ]

/-- @main's operations 301 … 360 of 668. -/
abbrev ops5 : List (HloOp τ sig (Elt F)) :=
  [ StableHlo.nullary main_c_157 (constantI S_ 32 4096#32),
    StableHlo.unary main_c_157 main_v141 (broadcastInDim S8 ![] bcast_S_S8 : (⟨S_, .i32⟩ : BufTy).Contents (Elt F) → (⟨S8, .i32⟩ : BufTy).Contents (Elt F)),
    StableHlo.binary main_c_41 main_v141 main_v142 (addi : (⟨S8, .i32⟩ : BufTy).Contents (Elt F) → (⟨S8, .i32⟩ : BufTy).Contents (Elt F) → (⟨S8, .i32⟩ : BufTy).Contents (Elt F)),
    StableHlo.ternary main_c_43 main_v142 main_c_41 main_v143 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v143 main_v144 (broadcastInDim S8x1 ![0] bcast_S8_S8x1_0 : (⟨S8, .i32⟩ : BufTy).Contents (Elt F) → (⟨S8x1, .i32⟩ : BufTy).Contents (Elt F)),
    StableHlo.ternary main_v129 main_v144 main_v140 main_v145 ((fun x i u => Host.scatter scatter_S8x64x4096x16_S8x1_S8x64x8x16_013_2_2_1 (fun _ b => b) x i u) : (⟨S8x64x4096x16, .f32⟩ : BufTy).Contents (Elt F) → (⟨S8x1, .i32⟩ : BufTy).Contents (Elt F) → (⟨S8x64x8x16, .f32⟩ : BufTy).Contents (Elt F) → (⟨S8x64x4096x16, .f32⟩ : BufTy).Contents (Elt F)),
    StableHlo.nullary main_c_158 (constantI S_ 32 4096#32),
    StableHlo.unary main_c_158 main_v146 (broadcastInDim S4 ![] bcast_S_S4 : (⟨S_, .i32⟩ : BufTy).Contents (Elt F) → (⟨S4, .i32⟩ : BufTy).Contents (Elt F)),
    StableHlo.binary main_c_44 main_v146 main_v147 (addi : (⟨S4, .i32⟩ : BufTy).Contents (Elt F) → (⟨S4, .i32⟩ : BufTy).Contents (Elt F) → (⟨S4, .i32⟩ : BufTy).Contents (Elt F)),
    StableHlo.ternary main_c_45 main_v147 main_c_44 main_v148 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v148 main_v149 (broadcastInDim S4x1 ![0] bcast_S4_S4x1_0 : (⟨S4, .i32⟩ : BufTy).Contents (Elt F) → (⟨S4x1, .i32⟩ : BufTy).Contents (Elt F)),
    StableHlo.binary main_v145 main_v149 main_v150 ((fun x i => Host.gather gather_S8x64x4096x16_S4x1_S8x64x4x16_013_2_n_n_2_1_864116 x i) : (⟨S8x64x4096x16, .f32⟩ : BufTy).Contents (Elt F) → (⟨S4x1, .i32⟩ : BufTy).Contents (Elt F) → (⟨S8x64x4x16, .f32⟩ : BufTy).Contents (Elt F)),
    StableHlo.nullary main_c_159 (constantI S_ 32 4096#32),
    StableHlo.unary main_c_159 main_v151 (broadcastInDim S4 ![] bcast_S_S4 : (⟨S_, .i32⟩ : BufTy).Contents (Elt F) → (⟨S4, .i32⟩ : BufTy).Contents (Elt F)),
    StableHlo.binary main_c_46 main_v151 main_v152 (addi : (⟨S4, .i32⟩ : BufTy).Contents (Elt F) → (⟨S4, .i32⟩ : BufTy).Contents (Elt F) → (⟨S4, .i32⟩ : BufTy).Contents (Elt F)),
    StableHlo.ternary main_c_47 main_v152 main_c_46 main_v153 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v153 main_v154 (broadcastInDim S4x1 ![0] bcast_S4_S4x1_0 : (⟨S4, .i32⟩ : BufTy).Contents (Elt F) → (⟨S4x1, .i32⟩ : BufTy).Contents (Elt F)),
    StableHlo.binary main_v145 main_v154 main_v155 ((fun x i => Host.gather gather_S8x64x4096x16_S4x1_S8x64x4x16_013_2_n_n_2_1_864116 x i) : (⟨S8x64x4096x16, .f32⟩ : BufTy).Contents (Elt F) → (⟨S4x1, .i32⟩ : BufTy).Contents (Elt F) → (⟨S8x64x4x16, .f32⟩ : BufTy).Contents (Elt F)),
    StableHlo.binary main_v150 main_v155 main_v156 (addf : (⟨S8x64x4x16, .f32⟩ : BufTy).Contents (Elt F) → (⟨S8x64x4x16, .f32⟩ : BufTy).Contents (Elt F) → (⟨S8x64x4x16, .f32⟩ : BufTy).Contents (Elt F)),
    StableHlo.nullary main_c_160 (constantI S_ 32 4096#32),
    StableHlo.unary main_c_160 main_v157 (broadcastInDim S4 ![] bcast_S_S4 : (⟨S_, .i32⟩ : BufTy).Contents (Elt F) → (⟨S4, .i32⟩ : BufTy).Contents (Elt F)),
    StableHlo.binary main_c_46 main_v157 main_v158 (addi : (⟨S4, .i32⟩ : BufTy).Contents (Elt F) → (⟨S4, .i32⟩ : BufTy).Contents (Elt F) → (⟨S4, .i32⟩ : BufTy).Contents (Elt F)),
    StableHlo.ternary main_c_48 main_v158 main_c_46 main_v159 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v159 main_v160 (broadcastInDim S4x1 ![0] bcast_S4_S4x1_0 : (⟨S4, .i32⟩ : BufTy).Contents (Elt F) → (⟨S4x1, .i32⟩ : BufTy).Contents (Elt F)),
    StableHlo.ternary main_v145 main_v160 main_v156 main_v161 ((fun x i u => Host.scatter scatter_S8x64x4096x16_S4x1_S8x64x4x16_013_2_2_1 (fun _ b => b) x i u) : (⟨S8x64x4096x16, .f32⟩ : BufTy).Contents (Elt F) → (⟨S4x1, .i32⟩ : BufTy).Contents (Elt F) → (⟨S8x64x4x16, .f32⟩ : BufTy).Contents (Elt F) → (⟨S8x64x4096x16, .f32⟩ : BufTy).Contents (Elt F)),
    StableHlo.nullary main_c_161 (constantI S_ 32 4096#32),
    StableHlo.unary main_c_161 main_v162 (broadcastInDim S2 ![] bcast_S_S2 : (⟨S_, .i32⟩ : BufTy).Contents (Elt F) → (⟨S2, .i32⟩ : BufTy).Contents (Elt F)),
    StableHlo.binary main_c_49 main_v162 main_v163 (addi : (⟨S2, .i32⟩ : BufTy).Contents (Elt F) → (⟨S2, .i32⟩ : BufTy).Contents (Elt F) → (⟨S2, .i32⟩ : BufTy).Contents (Elt F)),
    StableHlo.ternary main_c_50 main_v163 main_c_49 main_v164 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v164 main_v165 (broadcastInDim S2x1 ![0] bcast_S2_S2x1_0 : (⟨S2, .i32⟩ : BufTy).Contents (Elt F) → (⟨S2x1, .i32⟩ : BufTy).Contents (Elt F)),
    StableHlo.binary main_v161 main_v165 main_v166 ((fun x i => Host.gather gather_S8x64x4096x16_S2x1_S8x64x2x16_013_2_n_n_2_1_864116 x i) : (⟨S8x64x4096x16, .f32⟩ : BufTy).Contents (Elt F) → (⟨S2x1, .i32⟩ : BufTy).Contents (Elt F) → (⟨S8x64x2x16, .f32⟩ : BufTy).Contents (Elt F)),
    StableHlo.nullary main_c_162 (constantI S_ 32 4096#32),
    StableHlo.unary main_c_162 main_v167 (broadcastInDim S2 ![] bcast_S_S2 : (⟨S_, .i32⟩ : BufTy).Contents (Elt F) → (⟨S2, .i32⟩ : BufTy).Contents (Elt F)),
    StableHlo.binary main_c_51 main_v167 main_v168 (addi : (⟨S2, .i32⟩ : BufTy).Contents (Elt F) → (⟨S2, .i32⟩ : BufTy).Contents (Elt F) → (⟨S2, .i32⟩ : BufTy).Contents (Elt F)),
    StableHlo.ternary main_c_52 main_v168 main_c_51 main_v169 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v169 main_v170 (broadcastInDim S2x1 ![0] bcast_S2_S2x1_0 : (⟨S2, .i32⟩ : BufTy).Contents (Elt F) → (⟨S2x1, .i32⟩ : BufTy).Contents (Elt F)),
    StableHlo.binary main_v161 main_v170 main_v171 ((fun x i => Host.gather gather_S8x64x4096x16_S2x1_S8x64x2x16_013_2_n_n_2_1_864116 x i) : (⟨S8x64x4096x16, .f32⟩ : BufTy).Contents (Elt F) → (⟨S2x1, .i32⟩ : BufTy).Contents (Elt F) → (⟨S8x64x2x16, .f32⟩ : BufTy).Contents (Elt F)),
    StableHlo.binary main_v166 main_v171 main_v172 (addf : (⟨S8x64x2x16, .f32⟩ : BufTy).Contents (Elt F) → (⟨S8x64x2x16, .f32⟩ : BufTy).Contents (Elt F) → (⟨S8x64x2x16, .f32⟩ : BufTy).Contents (Elt F)),
    StableHlo.nullary main_c_163 (constantI S_ 32 4096#32),
    StableHlo.unary main_c_163 main_v173 (broadcastInDim S2 ![] bcast_S_S2 : (⟨S_, .i32⟩ : BufTy).Contents (Elt F) → (⟨S2, .i32⟩ : BufTy).Contents (Elt F)),
    StableHlo.binary main_c_51 main_v173 main_v174 (addi : (⟨S2, .i32⟩ : BufTy).Contents (Elt F) → (⟨S2, .i32⟩ : BufTy).Contents (Elt F) → (⟨S2, .i32⟩ : BufTy).Contents (Elt F)),
    StableHlo.ternary main_c_53 main_v174 main_c_51 main_v175 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v175 main_v176 (broadcastInDim S2x1 ![0] bcast_S2_S2x1_0 : (⟨S2, .i32⟩ : BufTy).Contents (Elt F) → (⟨S2x1, .i32⟩ : BufTy).Contents (Elt F)),
    StableHlo.ternary main_v161 main_v176 main_v172 main_v177 ((fun x i u => Host.scatter scatter_S8x64x4096x16_S2x1_S8x64x2x16_013_2_2_1 (fun _ b => b) x i u) : (⟨S8x64x4096x16, .f32⟩ : BufTy).Contents (Elt F) → (⟨S2x1, .i32⟩ : BufTy).Contents (Elt F) → (⟨S8x64x2x16, .f32⟩ : BufTy).Contents (Elt F) → (⟨S8x64x4096x16, .f32⟩ : BufTy).Contents (Elt F)),
    StableHlo.nullary main_c_164 (constantI S_ 32 4096#32),
    StableHlo.unary main_c_164 main_v178 (broadcastInDim S1 ![] bcast_S_S1 : (⟨S_, .i32⟩ : BufTy).Contents (Elt F) → (⟨S1, .i32⟩ : BufTy).Contents (Elt F)),
    StableHlo.binary main_c_54 main_v178 main_v179 (addi : (⟨S1, .i32⟩ : BufTy).Contents (Elt F) → (⟨S1, .i32⟩ : BufTy).Contents (Elt F) → (⟨S1, .i32⟩ : BufTy).Contents (Elt F)),
    StableHlo.ternary main_c_55 main_v179 main_c_54 main_v180 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    StableHlo.unary main_v180 main_v181 (broadcastInDim S1x1 ![0] bcast_S1_S1x1_0 : (⟨S1, .i32⟩ : BufTy).Contents (Elt F) → (⟨S1x1, .i32⟩ : BufTy).Contents (Elt F)),
    StableHlo.binary main_v177 main_v181 main_v182 ((fun x i => Host.gather gather_S8x64x4096x16_S1x1_S8x64x1x16_013_2_n_n_2_1_864116 x i) : (⟨S8x64x4096x16, .f32⟩ : BufTy).Contents (Elt F) → (⟨S1x1, .i32⟩ : BufTy).Contents (Elt F) → (⟨S8x64x1x16, .f32⟩ : BufTy).Contents (Elt F)),
    StableHlo.nullary main_c_165 (constantI S_ 32 4096#32),
    StableHlo.unary main_c_165 main_v183 (broadcastInDim S1 ![] bcast_S_S1 : (⟨S_, .i32⟩ : BufTy).Contents (Elt F) → (⟨S1, .i32⟩ : BufTy).Contents (Elt F)),
    StableHlo.binary main_c_56 main_v183 main_v184 (addi : (⟨S1, .i32⟩ : BufTy).Contents (Elt F) → (⟨S1, .i32⟩ : BufTy).Contents (Elt F) → (⟨S1, .i32⟩ : BufTy).Contents (Elt F)),
    StableHlo.ternary main_c_57 main_v184 main_c_56 main_v185 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    StableHlo.unary main_v185 main_v186 (broadcastInDim S1x1 ![0] bcast_S1_S1x1_0 : (⟨S1, .i32⟩ : BufTy).Contents (Elt F) → (⟨S1x1, .i32⟩ : BufTy).Contents (Elt F)),
    StableHlo.binary main_v177 main_v186 main_v187 ((fun x i => Host.gather gather_S8x64x4096x16_S1x1_S8x64x1x16_013_2_n_n_2_1_864116 x i) : (⟨S8x64x4096x16, .f32⟩ : BufTy).Contents (Elt F) → (⟨S1x1, .i32⟩ : BufTy).Contents (Elt F) → (⟨S8x64x1x16, .f32⟩ : BufTy).Contents (Elt F)),
    StableHlo.binary main_v182 main_v187 main_v188 (addf : (⟨S8x64x1x16, .f32⟩ : BufTy).Contents (Elt F) → (⟨S8x64x1x16, .f32⟩ : BufTy).Contents (Elt F) → (⟨S8x64x1x16, .f32⟩ : BufTy).Contents (Elt F)),
    StableHlo.nullary main_c_166 (constantI S_ 32 4096#32),
    StableHlo.unary main_c_166 main_v189 (broadcastInDim S1 ![] bcast_S_S1 : (⟨S_, .i32⟩ : BufTy).Contents (Elt F) → (⟨S1, .i32⟩ : BufTy).Contents (Elt F)),
    StableHlo.binary main_c_56 main_v189 main_v190 (addi : (⟨S1, .i32⟩ : BufTy).Contents (Elt F) → (⟨S1, .i32⟩ : BufTy).Contents (Elt F) → (⟨S1, .i32⟩ : BufTy).Contents (Elt F)) ]

/-- @main's operations 361 … 420 of 668. -/
abbrev ops6 : List (HloOp τ sig (Elt F)) :=
  [ StableHlo.ternary main_c_58 main_v190 main_c_56 main_v191 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    StableHlo.unary main_v191 main_v192 (broadcastInDim S1x1 ![0] bcast_S1_S1x1_0 : (⟨S1, .i32⟩ : BufTy).Contents (Elt F) → (⟨S1x1, .i32⟩ : BufTy).Contents (Elt F)),
    StableHlo.ternary main_v177 main_v192 main_v188 main_v193 ((fun x i u => Host.scatter scatter_S8x64x4096x16_S1x1_S8x64x1x16_013_2_2_1 (fun _ b => b) x i u) : (⟨S8x64x4096x16, .f32⟩ : BufTy).Contents (Elt F) → (⟨S1x1, .i32⟩ : BufTy).Contents (Elt F) → (⟨S8x64x1x16, .f32⟩ : BufTy).Contents (Elt F) → (⟨S8x64x4096x16, .f32⟩ : BufTy).Contents (Elt F)),
    StableHlo.nullary main_c_167 (constantI S_ 32 4095#32),
    StableHlo.unary main_c_167 main_v194 (broadcastInDim S1 ![] bcast_S_S1 : (⟨S_, .i32⟩ : BufTy).Contents (Elt F) → (⟨S1, .i32⟩ : BufTy).Contents (Elt F)),
    StableHlo.ternary main_v193 main_v194 main_v0 main_v195 ((fun x i u => Host.scatter scatter_S8x64x4096x16_S1_S8x64x16_012_2_2_0 (fun _ b => b) x i u) : (⟨S8x64x4096x16, .f32⟩ : BufTy).Contents (Elt F) → (⟨S1, .i32⟩ : BufTy).Contents (Elt F) → (⟨S8x64x16, .f32⟩ : BufTy).Contents (Elt F) → (⟨S8x64x4096x16, .f32⟩ : BufTy).Contents (Elt F)),
    StableHlo.nullary main_c_168 (constantI S_ 32 4096#32),
    StableHlo.unary main_c_168 main_v196 (broadcastInDim S1 ![] bcast_S_S1 : (⟨S_, .i32⟩ : BufTy).Contents (Elt F) → (⟨S1, .i32⟩ : BufTy).Contents (Elt F)),
    StableHlo.binary main_c_59 main_v196 main_v197 (addi : (⟨S1, .i32⟩ : BufTy).Contents (Elt F) → (⟨S1, .i32⟩ : BufTy).Contents (Elt F) → (⟨S1, .i32⟩ : BufTy).Contents (Elt F)),
    StableHlo.ternary main_c_60 main_v197 main_c_59 main_v198 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    StableHlo.unary main_v198 main_v199 (broadcastInDim S1x1 ![0] bcast_S1_S1x1_0 : (⟨S1, .i32⟩ : BufTy).Contents (Elt F) → (⟨S1x1, .i32⟩ : BufTy).Contents (Elt F)),
    StableHlo.binary main_v195 main_v199 main_v200 ((fun x i => Host.gather gather_S8x64x4096x16_S1x1_S8x64x1x16_013_2_n_n_2_1_864116 x i) : (⟨S8x64x4096x16, .f32⟩ : BufTy).Contents (Elt F) → (⟨S1x1, .i32⟩ : BufTy).Contents (Elt F) → (⟨S8x64x1x16, .f32⟩ : BufTy).Contents (Elt F)),
    StableHlo.nullary main_c_169 (constantI S_ 32 4096#32),
    StableHlo.unary main_c_169 main_v201 (broadcastInDim S1 ![] bcast_S_S1 : (⟨S_, .i32⟩ : BufTy).Contents (Elt F) → (⟨S1, .i32⟩ : BufTy).Contents (Elt F)),
    StableHlo.binary main_c_61 main_v201 main_v202 (addi : (⟨S1, .i32⟩ : BufTy).Contents (Elt F) → (⟨S1, .i32⟩ : BufTy).Contents (Elt F) → (⟨S1, .i32⟩ : BufTy).Contents (Elt F)),
    StableHlo.ternary main_c_62 main_v202 main_c_61 main_v203 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    StableHlo.unary main_v203 main_v204 (broadcastInDim S1x1 ![0] bcast_S1_S1x1_0 : (⟨S1, .i32⟩ : BufTy).Contents (Elt F) → (⟨S1x1, .i32⟩ : BufTy).Contents (Elt F)),
    StableHlo.binary main_v195 main_v204 main_v205 ((fun x i => Host.gather gather_S8x64x4096x16_S1x1_S8x64x1x16_013_2_n_n_2_1_864116 x i) : (⟨S8x64x4096x16, .f32⟩ : BufTy).Contents (Elt F) → (⟨S1x1, .i32⟩ : BufTy).Contents (Elt F) → (⟨S8x64x1x16, .f32⟩ : BufTy).Contents (Elt F)),
    StableHlo.nullary main_c_170 (constantI S_ 32 4096#32),
    StableHlo.unary main_c_170 main_v206 (broadcastInDim S1 ![] bcast_S_S1 : (⟨S_, .i32⟩ : BufTy).Contents (Elt F) → (⟨S1, .i32⟩ : BufTy).Contents (Elt F)),
    StableHlo.binary main_c_59 main_v206 main_v207 (addi : (⟨S1, .i32⟩ : BufTy).Contents (Elt F) → (⟨S1, .i32⟩ : BufTy).Contents (Elt F) → (⟨S1, .i32⟩ : BufTy).Contents (Elt F)),
    StableHlo.ternary main_c_63 main_v207 main_c_59 main_v208 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    StableHlo.unary main_v208 main_v209 (broadcastInDim S1x1 ![0] bcast_S1_S1x1_0 : (⟨S1, .i32⟩ : BufTy).Contents (Elt F) → (⟨S1x1, .i32⟩ : BufTy).Contents (Elt F)),
    StableHlo.ternary main_v195 main_v209 main_v205 main_v210 ((fun x i u => Host.scatter scatter_S8x64x4096x16_S1x1_S8x64x1x16_013_2_2_1 (fun _ b => b) x i u) : (⟨S8x64x4096x16, .f32⟩ : BufTy).Contents (Elt F) → (⟨S1x1, .i32⟩ : BufTy).Contents (Elt F) → (⟨S8x64x1x16, .f32⟩ : BufTy).Contents (Elt F) → (⟨S8x64x4096x16, .f32⟩ : BufTy).Contents (Elt F)),
    StableHlo.binary main_v200 main_v205 main_v211 (addf : (⟨S8x64x1x16, .f32⟩ : BufTy).Contents (Elt F) → (⟨S8x64x1x16, .f32⟩ : BufTy).Contents (Elt F) → (⟨S8x64x1x16, .f32⟩ : BufTy).Contents (Elt F)),
    StableHlo.nullary main_c_171 (constantI S_ 32 4096#32),
    StableHlo.unary main_c_171 main_v212 (broadcastInDim S1 ![] bcast_S_S1 : (⟨S_, .i32⟩ : BufTy).Contents (Elt F) → (⟨S1, .i32⟩ : BufTy).Contents (Elt F)),
    StableHlo.binary main_c_61 main_v212 main_v213 (addi : (⟨S1, .i32⟩ : BufTy).Contents (Elt F) → (⟨S1, .i32⟩ : BufTy).Contents (Elt F) → (⟨S1, .i32⟩ : BufTy).Contents (Elt F)),
    StableHlo.ternary main_c_64 main_v213 main_c_61 main_v214 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    StableHlo.unary main_v214 main_v215 (broadcastInDim S1x1 ![0] bcast_S1_S1x1_0 : (⟨S1, .i32⟩ : BufTy).Contents (Elt F) → (⟨S1x1, .i32⟩ : BufTy).Contents (Elt F)),
    StableHlo.ternary main_v210 main_v215 main_v211 main_v216 ((fun x i u => Host.scatter scatter_S8x64x4096x16_S1x1_S8x64x1x16_013_2_2_1 (fun _ b => b) x i u) : (⟨S8x64x4096x16, .f32⟩ : BufTy).Contents (Elt F) → (⟨S1x1, .i32⟩ : BufTy).Contents (Elt F) → (⟨S8x64x1x16, .f32⟩ : BufTy).Contents (Elt F) → (⟨S8x64x4096x16, .f32⟩ : BufTy).Contents (Elt F)),
    StableHlo.nullary main_c_172 (constantI S_ 32 4096#32),
    StableHlo.unary main_c_172 main_v217 (broadcastInDim S2 ![] bcast_S_S2 : (⟨S_, .i32⟩ : BufTy).Contents (Elt F) → (⟨S2, .i32⟩ : BufTy).Contents (Elt F)),
    StableHlo.binary main_c_65 main_v217 main_v218 (addi : (⟨S2, .i32⟩ : BufTy).Contents (Elt F) → (⟨S2, .i32⟩ : BufTy).Contents (Elt F) → (⟨S2, .i32⟩ : BufTy).Contents (Elt F)),
    StableHlo.ternary main_c_66 main_v218 main_c_65 main_v219 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v219 main_v220 (broadcastInDim S2x1 ![0] bcast_S2_S2x1_0 : (⟨S2, .i32⟩ : BufTy).Contents (Elt F) → (⟨S2x1, .i32⟩ : BufTy).Contents (Elt F)),
    StableHlo.binary main_v216 main_v220 main_v221 ((fun x i => Host.gather gather_S8x64x4096x16_S2x1_S8x64x2x16_013_2_n_n_2_1_864116 x i) : (⟨S8x64x4096x16, .f32⟩ : BufTy).Contents (Elt F) → (⟨S2x1, .i32⟩ : BufTy).Contents (Elt F) → (⟨S8x64x2x16, .f32⟩ : BufTy).Contents (Elt F)),
    StableHlo.nullary main_c_173 (constantI S_ 32 4096#32),
    StableHlo.unary main_c_173 main_v222 (broadcastInDim S2 ![] bcast_S_S2 : (⟨S_, .i32⟩ : BufTy).Contents (Elt F) → (⟨S2, .i32⟩ : BufTy).Contents (Elt F)),
    StableHlo.binary main_c_67 main_v222 main_v223 (addi : (⟨S2, .i32⟩ : BufTy).Contents (Elt F) → (⟨S2, .i32⟩ : BufTy).Contents (Elt F) → (⟨S2, .i32⟩ : BufTy).Contents (Elt F)),
    StableHlo.ternary main_c_68 main_v223 main_c_67 main_v224 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v224 main_v225 (broadcastInDim S2x1 ![0] bcast_S2_S2x1_0 : (⟨S2, .i32⟩ : BufTy).Contents (Elt F) → (⟨S2x1, .i32⟩ : BufTy).Contents (Elt F)),
    StableHlo.binary main_v216 main_v225 main_v226 ((fun x i => Host.gather gather_S8x64x4096x16_S2x1_S8x64x2x16_013_2_n_n_2_1_864116 x i) : (⟨S8x64x4096x16, .f32⟩ : BufTy).Contents (Elt F) → (⟨S2x1, .i32⟩ : BufTy).Contents (Elt F) → (⟨S8x64x2x16, .f32⟩ : BufTy).Contents (Elt F)),
    StableHlo.nullary main_c_174 (constantI S_ 32 4096#32),
    StableHlo.unary main_c_174 main_v227 (broadcastInDim S2 ![] bcast_S_S2 : (⟨S_, .i32⟩ : BufTy).Contents (Elt F) → (⟨S2, .i32⟩ : BufTy).Contents (Elt F)),
    StableHlo.binary main_c_65 main_v227 main_v228 (addi : (⟨S2, .i32⟩ : BufTy).Contents (Elt F) → (⟨S2, .i32⟩ : BufTy).Contents (Elt F) → (⟨S2, .i32⟩ : BufTy).Contents (Elt F)),
    StableHlo.ternary main_c_69 main_v228 main_c_65 main_v229 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v229 main_v230 (broadcastInDim S2x1 ![0] bcast_S2_S2x1_0 : (⟨S2, .i32⟩ : BufTy).Contents (Elt F) → (⟨S2x1, .i32⟩ : BufTy).Contents (Elt F)),
    StableHlo.ternary main_v216 main_v230 main_v226 main_v231 ((fun x i u => Host.scatter scatter_S8x64x4096x16_S2x1_S8x64x2x16_013_2_2_1 (fun _ b => b) x i u) : (⟨S8x64x4096x16, .f32⟩ : BufTy).Contents (Elt F) → (⟨S2x1, .i32⟩ : BufTy).Contents (Elt F) → (⟨S8x64x2x16, .f32⟩ : BufTy).Contents (Elt F) → (⟨S8x64x4096x16, .f32⟩ : BufTy).Contents (Elt F)),
    StableHlo.binary main_v221 main_v226 main_v232 (addf : (⟨S8x64x2x16, .f32⟩ : BufTy).Contents (Elt F) → (⟨S8x64x2x16, .f32⟩ : BufTy).Contents (Elt F) → (⟨S8x64x2x16, .f32⟩ : BufTy).Contents (Elt F)),
    StableHlo.nullary main_c_175 (constantI S_ 32 4096#32),
    StableHlo.unary main_c_175 main_v233 (broadcastInDim S2 ![] bcast_S_S2 : (⟨S_, .i32⟩ : BufTy).Contents (Elt F) → (⟨S2, .i32⟩ : BufTy).Contents (Elt F)),
    StableHlo.binary main_c_67 main_v233 main_v234 (addi : (⟨S2, .i32⟩ : BufTy).Contents (Elt F) → (⟨S2, .i32⟩ : BufTy).Contents (Elt F) → (⟨S2, .i32⟩ : BufTy).Contents (Elt F)),
    StableHlo.ternary main_c_70 main_v234 main_c_67 main_v235 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v235 main_v236 (broadcastInDim S2x1 ![0] bcast_S2_S2x1_0 : (⟨S2, .i32⟩ : BufTy).Contents (Elt F) → (⟨S2x1, .i32⟩ : BufTy).Contents (Elt F)),
    StableHlo.ternary main_v231 main_v236 main_v232 main_v237 ((fun x i u => Host.scatter scatter_S8x64x4096x16_S2x1_S8x64x2x16_013_2_2_1 (fun _ b => b) x i u) : (⟨S8x64x4096x16, .f32⟩ : BufTy).Contents (Elt F) → (⟨S2x1, .i32⟩ : BufTy).Contents (Elt F) → (⟨S8x64x2x16, .f32⟩ : BufTy).Contents (Elt F) → (⟨S8x64x4096x16, .f32⟩ : BufTy).Contents (Elt F)),
    StableHlo.nullary main_c_176 (constantI S_ 32 4096#32),
    StableHlo.unary main_c_176 main_v238 (broadcastInDim S4 ![] bcast_S_S4 : (⟨S_, .i32⟩ : BufTy).Contents (Elt F) → (⟨S4, .i32⟩ : BufTy).Contents (Elt F)),
    StableHlo.binary main_c_71 main_v238 main_v239 (addi : (⟨S4, .i32⟩ : BufTy).Contents (Elt F) → (⟨S4, .i32⟩ : BufTy).Contents (Elt F) → (⟨S4, .i32⟩ : BufTy).Contents (Elt F)),
    StableHlo.ternary main_c_72 main_v239 main_c_71 main_v240 (select : (⟨S4, .i1⟩ : BufTy).Contents (Elt F) → (⟨S4, .i32⟩ : BufTy).Contents (Elt F) → (⟨S4, .i32⟩ : BufTy).Contents (Elt F) → (⟨S4, .i32⟩ : BufTy).Contents (Elt F)) ]

/-- @main's operations 421 … 480 of 668. -/
abbrev ops7 : List (HloOp τ sig (Elt F)) :=
  [ StableHlo.unary main_v240 main_v241 (broadcastInDim S4x1 ![0] bcast_S4_S4x1_0 : (⟨S4, .i32⟩ : BufTy).Contents (Elt F) → (⟨S4x1, .i32⟩ : BufTy).Contents (Elt F)),
    StableHlo.binary main_v237 main_v241 main_v242 ((fun x i => Host.gather gather_S8x64x4096x16_S4x1_S8x64x4x16_013_2_n_n_2_1_864116 x i) : (⟨S8x64x4096x16, .f32⟩ : BufTy).Contents (Elt F) → (⟨S4x1, .i32⟩ : BufTy).Contents (Elt F) → (⟨S8x64x4x16, .f32⟩ : BufTy).Contents (Elt F)),
    StableHlo.nullary main_c_177 (constantI S_ 32 4096#32),
    StableHlo.unary main_c_177 main_v243 (broadcastInDim S4 ![] bcast_S_S4 : (⟨S_, .i32⟩ : BufTy).Contents (Elt F) → (⟨S4, .i32⟩ : BufTy).Contents (Elt F)),
    StableHlo.binary main_c_73 main_v243 main_v244 (addi : (⟨S4, .i32⟩ : BufTy).Contents (Elt F) → (⟨S4, .i32⟩ : BufTy).Contents (Elt F) → (⟨S4, .i32⟩ : BufTy).Contents (Elt F)),
    StableHlo.ternary main_c_74 main_v244 main_c_73 main_v245 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v245 main_v246 (broadcastInDim S4x1 ![0] bcast_S4_S4x1_0 : (⟨S4, .i32⟩ : BufTy).Contents (Elt F) → (⟨S4x1, .i32⟩ : BufTy).Contents (Elt F)),
    StableHlo.binary main_v237 main_v246 main_v247 ((fun x i => Host.gather gather_S8x64x4096x16_S4x1_S8x64x4x16_013_2_n_n_2_1_864116 x i) : (⟨S8x64x4096x16, .f32⟩ : BufTy).Contents (Elt F) → (⟨S4x1, .i32⟩ : BufTy).Contents (Elt F) → (⟨S8x64x4x16, .f32⟩ : BufTy).Contents (Elt F)),
    StableHlo.nullary main_c_178 (constantI S_ 32 4096#32),
    StableHlo.unary main_c_178 main_v248 (broadcastInDim S4 ![] bcast_S_S4 : (⟨S_, .i32⟩ : BufTy).Contents (Elt F) → (⟨S4, .i32⟩ : BufTy).Contents (Elt F)),
    StableHlo.binary main_c_71 main_v248 main_v249 (addi : (⟨S4, .i32⟩ : BufTy).Contents (Elt F) → (⟨S4, .i32⟩ : BufTy).Contents (Elt F) → (⟨S4, .i32⟩ : BufTy).Contents (Elt F)),
    StableHlo.ternary main_c_75 main_v249 main_c_71 main_v250 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v250 main_v251 (broadcastInDim S4x1 ![0] bcast_S4_S4x1_0 : (⟨S4, .i32⟩ : BufTy).Contents (Elt F) → (⟨S4x1, .i32⟩ : BufTy).Contents (Elt F)),
    StableHlo.ternary main_v237 main_v251 main_v247 main_v252 ((fun x i u => Host.scatter scatter_S8x64x4096x16_S4x1_S8x64x4x16_013_2_2_1 (fun _ b => b) x i u) : (⟨S8x64x4096x16, .f32⟩ : BufTy).Contents (Elt F) → (⟨S4x1, .i32⟩ : BufTy).Contents (Elt F) → (⟨S8x64x4x16, .f32⟩ : BufTy).Contents (Elt F) → (⟨S8x64x4096x16, .f32⟩ : BufTy).Contents (Elt F)),
    StableHlo.binary main_v242 main_v247 main_v253 (addf : (⟨S8x64x4x16, .f32⟩ : BufTy).Contents (Elt F) → (⟨S8x64x4x16, .f32⟩ : BufTy).Contents (Elt F) → (⟨S8x64x4x16, .f32⟩ : BufTy).Contents (Elt F)),
    StableHlo.nullary main_c_179 (constantI S_ 32 4096#32),
    StableHlo.unary main_c_179 main_v254 (broadcastInDim S4 ![] bcast_S_S4 : (⟨S_, .i32⟩ : BufTy).Contents (Elt F) → (⟨S4, .i32⟩ : BufTy).Contents (Elt F)),
    StableHlo.binary main_c_73 main_v254 main_v255 (addi : (⟨S4, .i32⟩ : BufTy).Contents (Elt F) → (⟨S4, .i32⟩ : BufTy).Contents (Elt F) → (⟨S4, .i32⟩ : BufTy).Contents (Elt F)),
    StableHlo.ternary main_c_76 main_v255 main_c_73 main_v256 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v256 main_v257 (broadcastInDim S4x1 ![0] bcast_S4_S4x1_0 : (⟨S4, .i32⟩ : BufTy).Contents (Elt F) → (⟨S4x1, .i32⟩ : BufTy).Contents (Elt F)),
    StableHlo.ternary main_v252 main_v257 main_v253 main_v258 ((fun x i u => Host.scatter scatter_S8x64x4096x16_S4x1_S8x64x4x16_013_2_2_1 (fun _ b => b) x i u) : (⟨S8x64x4096x16, .f32⟩ : BufTy).Contents (Elt F) → (⟨S4x1, .i32⟩ : BufTy).Contents (Elt F) → (⟨S8x64x4x16, .f32⟩ : BufTy).Contents (Elt F) → (⟨S8x64x4096x16, .f32⟩ : BufTy).Contents (Elt F)),
    StableHlo.nullary main_c_180 (constantI S_ 32 4096#32),
    StableHlo.unary main_c_180 main_v259 (broadcastInDim S8 ![] bcast_S_S8 : (⟨S_, .i32⟩ : BufTy).Contents (Elt F) → (⟨S8, .i32⟩ : BufTy).Contents (Elt F)),
    StableHlo.binary main_c_77 main_v259 main_v260 (addi : (⟨S8, .i32⟩ : BufTy).Contents (Elt F) → (⟨S8, .i32⟩ : BufTy).Contents (Elt F) → (⟨S8, .i32⟩ : BufTy).Contents (Elt F)),
    StableHlo.ternary main_c_78 main_v260 main_c_77 main_v261 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v261 main_v262 (broadcastInDim S8x1 ![0] bcast_S8_S8x1_0 : (⟨S8, .i32⟩ : BufTy).Contents (Elt F) → (⟨S8x1, .i32⟩ : BufTy).Contents (Elt F)),
    StableHlo.binary main_v258 main_v262 main_v263 ((fun x i => Host.gather gather_S8x64x4096x16_S8x1_S8x64x8x16_013_2_n_n_2_1_864116 x i) : (⟨S8x64x4096x16, .f32⟩ : BufTy).Contents (Elt F) → (⟨S8x1, .i32⟩ : BufTy).Contents (Elt F) → (⟨S8x64x8x16, .f32⟩ : BufTy).Contents (Elt F)),
    StableHlo.nullary main_c_181 (constantI S_ 32 4096#32),
    StableHlo.unary main_c_181 main_v264 (broadcastInDim S8 ![] bcast_S_S8 : (⟨S_, .i32⟩ : BufTy).Contents (Elt F) → (⟨S8, .i32⟩ : BufTy).Contents (Elt F)),
    StableHlo.binary main_c_79 main_v264 main_v265 (addi : (⟨S8, .i32⟩ : BufTy).Contents (Elt F) → (⟨S8, .i32⟩ : BufTy).Contents (Elt F) → (⟨S8, .i32⟩ : BufTy).Contents (Elt F)),
    StableHlo.ternary main_c_80 main_v265 main_c_79 main_v266 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v266 main_v267 (broadcastInDim S8x1 ![0] bcast_S8_S8x1_0 : (⟨S8, .i32⟩ : BufTy).Contents (Elt F) → (⟨S8x1, .i32⟩ : BufTy).Contents (Elt F)),
    StableHlo.binary main_v258 main_v267 main_v268 ((fun x i => Host.gather gather_S8x64x4096x16_S8x1_S8x64x8x16_013_2_n_n_2_1_864116 x i) : (⟨S8x64x4096x16, .f32⟩ : BufTy).Contents (Elt F) → (⟨S8x1, .i32⟩ : BufTy).Contents (Elt F) → (⟨S8x64x8x16, .f32⟩ : BufTy).Contents (Elt F)),
    StableHlo.nullary main_c_182 (constantI S_ 32 4096#32),
    StableHlo.unary main_c_182 main_v269 (broadcastInDim S8 ![] bcast_S_S8 : (⟨S_, .i32⟩ : BufTy).Contents (Elt F) → (⟨S8, .i32⟩ : BufTy).Contents (Elt F)),
    StableHlo.binary main_c_77 main_v269 main_v270 (addi : (⟨S8, .i32⟩ : BufTy).Contents (Elt F) → (⟨S8, .i32⟩ : BufTy).Contents (Elt F) → (⟨S8, .i32⟩ : BufTy).Contents (Elt F)),
    StableHlo.ternary main_c_81 main_v270 main_c_77 main_v271 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v271 main_v272 (broadcastInDim S8x1 ![0] bcast_S8_S8x1_0 : (⟨S8, .i32⟩ : BufTy).Contents (Elt F) → (⟨S8x1, .i32⟩ : BufTy).Contents (Elt F)),
    StableHlo.ternary main_v258 main_v272 main_v268 main_v273 ((fun x i u => Host.scatter scatter_S8x64x4096x16_S8x1_S8x64x8x16_013_2_2_1 (fun _ b => b) x i u) : (⟨S8x64x4096x16, .f32⟩ : BufTy).Contents (Elt F) → (⟨S8x1, .i32⟩ : BufTy).Contents (Elt F) → (⟨S8x64x8x16, .f32⟩ : BufTy).Contents (Elt F) → (⟨S8x64x4096x16, .f32⟩ : BufTy).Contents (Elt F)),
    StableHlo.binary main_v263 main_v268 main_v274 (addf : (⟨S8x64x8x16, .f32⟩ : BufTy).Contents (Elt F) → (⟨S8x64x8x16, .f32⟩ : BufTy).Contents (Elt F) → (⟨S8x64x8x16, .f32⟩ : BufTy).Contents (Elt F)),
    StableHlo.nullary main_c_183 (constantI S_ 32 4096#32),
    StableHlo.unary main_c_183 main_v275 (broadcastInDim S8 ![] bcast_S_S8 : (⟨S_, .i32⟩ : BufTy).Contents (Elt F) → (⟨S8, .i32⟩ : BufTy).Contents (Elt F)),
    StableHlo.binary main_c_79 main_v275 main_v276 (addi : (⟨S8, .i32⟩ : BufTy).Contents (Elt F) → (⟨S8, .i32⟩ : BufTy).Contents (Elt F) → (⟨S8, .i32⟩ : BufTy).Contents (Elt F)),
    StableHlo.ternary main_c_82 main_v276 main_c_79 main_v277 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v277 main_v278 (broadcastInDim S8x1 ![0] bcast_S8_S8x1_0 : (⟨S8, .i32⟩ : BufTy).Contents (Elt F) → (⟨S8x1, .i32⟩ : BufTy).Contents (Elt F)),
    StableHlo.ternary main_v273 main_v278 main_v274 main_v279 ((fun x i u => Host.scatter scatter_S8x64x4096x16_S8x1_S8x64x8x16_013_2_2_1 (fun _ b => b) x i u) : (⟨S8x64x4096x16, .f32⟩ : BufTy).Contents (Elt F) → (⟨S8x1, .i32⟩ : BufTy).Contents (Elt F) → (⟨S8x64x8x16, .f32⟩ : BufTy).Contents (Elt F) → (⟨S8x64x4096x16, .f32⟩ : BufTy).Contents (Elt F)),
    StableHlo.nullary main_c_184 (constantI S_ 32 4096#32),
    StableHlo.unary main_c_184 main_v280 (broadcastInDim S16 ![] bcast_S_S16 : (⟨S_, .i32⟩ : BufTy).Contents (Elt F) → (⟨S16, .i32⟩ : BufTy).Contents (Elt F)),
    StableHlo.binary main_c_83 main_v280 main_v281 (addi : (⟨S16, .i32⟩ : BufTy).Contents (Elt F) → (⟨S16, .i32⟩ : BufTy).Contents (Elt F) → (⟨S16, .i32⟩ : BufTy).Contents (Elt F)),
    StableHlo.ternary main_c_84 main_v281 main_c_83 main_v282 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.unary main_v282 main_v283 (broadcastInDim S16x1 ![0] bcast_S16_S16x1_0 : (⟨S16, .i32⟩ : BufTy).Contents (Elt F) → (⟨S16x1, .i32⟩ : BufTy).Contents (Elt F)),
    StableHlo.binary main_v279 main_v283 main_v284 ((fun x i => Host.gather gather_S8x64x4096x16_S16x1_S8x64x16x16_013_2_n_n_2_1_864116 x i) : (⟨S8x64x4096x16, .f32⟩ : BufTy).Contents (Elt F) → (⟨S16x1, .i32⟩ : BufTy).Contents (Elt F) → (⟨S8x64x16x16, .f32⟩ : BufTy).Contents (Elt F)),
    StableHlo.nullary main_c_185 (constantI S_ 32 4096#32),
    StableHlo.unary main_c_185 main_v285 (broadcastInDim S16 ![] bcast_S_S16 : (⟨S_, .i32⟩ : BufTy).Contents (Elt F) → (⟨S16, .i32⟩ : BufTy).Contents (Elt F)),
    StableHlo.binary main_c_85 main_v285 main_v286 (addi : (⟨S16, .i32⟩ : BufTy).Contents (Elt F) → (⟨S16, .i32⟩ : BufTy).Contents (Elt F) → (⟨S16, .i32⟩ : BufTy).Contents (Elt F)),
    StableHlo.ternary main_c_86 main_v286 main_c_85 main_v287 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.unary main_v287 main_v288 (broadcastInDim S16x1 ![0] bcast_S16_S16x1_0 : (⟨S16, .i32⟩ : BufTy).Contents (Elt F) → (⟨S16x1, .i32⟩ : BufTy).Contents (Elt F)),
    StableHlo.binary main_v279 main_v288 main_v289 ((fun x i => Host.gather gather_S8x64x4096x16_S16x1_S8x64x16x16_013_2_n_n_2_1_864116 x i) : (⟨S8x64x4096x16, .f32⟩ : BufTy).Contents (Elt F) → (⟨S16x1, .i32⟩ : BufTy).Contents (Elt F) → (⟨S8x64x16x16, .f32⟩ : BufTy).Contents (Elt F)),
    StableHlo.nullary main_c_186 (constantI S_ 32 4096#32),
    StableHlo.unary main_c_186 main_v290 (broadcastInDim S16 ![] bcast_S_S16 : (⟨S_, .i32⟩ : BufTy).Contents (Elt F) → (⟨S16, .i32⟩ : BufTy).Contents (Elt F)) ]

/-- @main's operations 481 … 540 of 668. -/
abbrev ops8 : List (HloOp τ sig (Elt F)) :=
  [ StableHlo.binary main_c_83 main_v290 main_v291 (addi : (⟨S16, .i32⟩ : BufTy).Contents (Elt F) → (⟨S16, .i32⟩ : BufTy).Contents (Elt F) → (⟨S16, .i32⟩ : BufTy).Contents (Elt F)),
    StableHlo.ternary main_c_87 main_v291 main_c_83 main_v292 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.unary main_v292 main_v293 (broadcastInDim S16x1 ![0] bcast_S16_S16x1_0 : (⟨S16, .i32⟩ : BufTy).Contents (Elt F) → (⟨S16x1, .i32⟩ : BufTy).Contents (Elt F)),
    StableHlo.ternary main_v279 main_v293 main_v289 main_v294 ((fun x i u => Host.scatter scatter_S8x64x4096x16_S16x1_S8x64x16x16_013_2_2_1 (fun _ b => b) x i u) : (⟨S8x64x4096x16, .f32⟩ : BufTy).Contents (Elt F) → (⟨S16x1, .i32⟩ : BufTy).Contents (Elt F) → (⟨S8x64x16x16, .f32⟩ : BufTy).Contents (Elt F) → (⟨S8x64x4096x16, .f32⟩ : BufTy).Contents (Elt F)),
    StableHlo.binary main_v284 main_v289 main_v295 (addf : (⟨S8x64x16x16, .f32⟩ : BufTy).Contents (Elt F) → (⟨S8x64x16x16, .f32⟩ : BufTy).Contents (Elt F) → (⟨S8x64x16x16, .f32⟩ : BufTy).Contents (Elt F)),
    StableHlo.nullary main_c_187 (constantI S_ 32 4096#32),
    StableHlo.unary main_c_187 main_v296 (broadcastInDim S16 ![] bcast_S_S16 : (⟨S_, .i32⟩ : BufTy).Contents (Elt F) → (⟨S16, .i32⟩ : BufTy).Contents (Elt F)),
    StableHlo.binary main_c_85 main_v296 main_v297 (addi : (⟨S16, .i32⟩ : BufTy).Contents (Elt F) → (⟨S16, .i32⟩ : BufTy).Contents (Elt F) → (⟨S16, .i32⟩ : BufTy).Contents (Elt F)),
    StableHlo.ternary main_c_88 main_v297 main_c_85 main_v298 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.unary main_v298 main_v299 (broadcastInDim S16x1 ![0] bcast_S16_S16x1_0 : (⟨S16, .i32⟩ : BufTy).Contents (Elt F) → (⟨S16x1, .i32⟩ : BufTy).Contents (Elt F)),
    StableHlo.ternary main_v294 main_v299 main_v295 main_v300 ((fun x i u => Host.scatter scatter_S8x64x4096x16_S16x1_S8x64x16x16_013_2_2_1 (fun _ b => b) x i u) : (⟨S8x64x4096x16, .f32⟩ : BufTy).Contents (Elt F) → (⟨S16x1, .i32⟩ : BufTy).Contents (Elt F) → (⟨S8x64x16x16, .f32⟩ : BufTy).Contents (Elt F) → (⟨S8x64x4096x16, .f32⟩ : BufTy).Contents (Elt F)),
    StableHlo.nullary main_c_188 (constantI S_ 32 4096#32),
    StableHlo.unary main_c_188 main_v301 (broadcastInDim S32 ![] bcast_S_S32 : (⟨S_, .i32⟩ : BufTy).Contents (Elt F) → (⟨S32, .i32⟩ : BufTy).Contents (Elt F)),
    StableHlo.binary main_c_89 main_v301 main_v302 (addi : (⟨S32, .i32⟩ : BufTy).Contents (Elt F) → (⟨S32, .i32⟩ : BufTy).Contents (Elt F) → (⟨S32, .i32⟩ : BufTy).Contents (Elt F)),
    StableHlo.ternary main_c_90 main_v302 main_c_89 main_v303 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v303 main_v304 (broadcastInDim S32x1 ![0] bcast_S32_S32x1_0 : (⟨S32, .i32⟩ : BufTy).Contents (Elt F) → (⟨S32x1, .i32⟩ : BufTy).Contents (Elt F)),
    StableHlo.binary main_v300 main_v304 main_v305 ((fun x i => Host.gather gather_S8x64x4096x16_S32x1_S8x64x32x16_013_2_n_n_2_1_864116 x i) : (⟨S8x64x4096x16, .f32⟩ : BufTy).Contents (Elt F) → (⟨S32x1, .i32⟩ : BufTy).Contents (Elt F) → (⟨S8x64x32x16, .f32⟩ : BufTy).Contents (Elt F)),
    StableHlo.nullary main_c_189 (constantI S_ 32 4096#32),
    StableHlo.unary main_c_189 main_v306 (broadcastInDim S32 ![] bcast_S_S32 : (⟨S_, .i32⟩ : BufTy).Contents (Elt F) → (⟨S32, .i32⟩ : BufTy).Contents (Elt F)),
    StableHlo.binary main_c_91 main_v306 main_v307 (addi : (⟨S32, .i32⟩ : BufTy).Contents (Elt F) → (⟨S32, .i32⟩ : BufTy).Contents (Elt F) → (⟨S32, .i32⟩ : BufTy).Contents (Elt F)),
    StableHlo.ternary main_c_92 main_v307 main_c_91 main_v308 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v308 main_v309 (broadcastInDim S32x1 ![0] bcast_S32_S32x1_0 : (⟨S32, .i32⟩ : BufTy).Contents (Elt F) → (⟨S32x1, .i32⟩ : BufTy).Contents (Elt F)),
    StableHlo.binary main_v300 main_v309 main_v310 ((fun x i => Host.gather gather_S8x64x4096x16_S32x1_S8x64x32x16_013_2_n_n_2_1_864116 x i) : (⟨S8x64x4096x16, .f32⟩ : BufTy).Contents (Elt F) → (⟨S32x1, .i32⟩ : BufTy).Contents (Elt F) → (⟨S8x64x32x16, .f32⟩ : BufTy).Contents (Elt F)),
    StableHlo.nullary main_c_190 (constantI S_ 32 4096#32),
    StableHlo.unary main_c_190 main_v311 (broadcastInDim S32 ![] bcast_S_S32 : (⟨S_, .i32⟩ : BufTy).Contents (Elt F) → (⟨S32, .i32⟩ : BufTy).Contents (Elt F)),
    StableHlo.binary main_c_89 main_v311 main_v312 (addi : (⟨S32, .i32⟩ : BufTy).Contents (Elt F) → (⟨S32, .i32⟩ : BufTy).Contents (Elt F) → (⟨S32, .i32⟩ : BufTy).Contents (Elt F)),
    StableHlo.ternary main_c_93 main_v312 main_c_89 main_v313 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v313 main_v314 (broadcastInDim S32x1 ![0] bcast_S32_S32x1_0 : (⟨S32, .i32⟩ : BufTy).Contents (Elt F) → (⟨S32x1, .i32⟩ : BufTy).Contents (Elt F)),
    StableHlo.ternary main_v300 main_v314 main_v310 main_v315 ((fun x i u => Host.scatter scatter_S8x64x4096x16_S32x1_S8x64x32x16_013_2_2_1 (fun _ b => b) x i u) : (⟨S8x64x4096x16, .f32⟩ : BufTy).Contents (Elt F) → (⟨S32x1, .i32⟩ : BufTy).Contents (Elt F) → (⟨S8x64x32x16, .f32⟩ : BufTy).Contents (Elt F) → (⟨S8x64x4096x16, .f32⟩ : BufTy).Contents (Elt F)),
    StableHlo.binary main_v305 main_v310 main_v316 (addf : (⟨S8x64x32x16, .f32⟩ : BufTy).Contents (Elt F) → (⟨S8x64x32x16, .f32⟩ : BufTy).Contents (Elt F) → (⟨S8x64x32x16, .f32⟩ : BufTy).Contents (Elt F)),
    StableHlo.nullary main_c_191 (constantI S_ 32 4096#32),
    StableHlo.unary main_c_191 main_v317 (broadcastInDim S32 ![] bcast_S_S32 : (⟨S_, .i32⟩ : BufTy).Contents (Elt F) → (⟨S32, .i32⟩ : BufTy).Contents (Elt F)),
    StableHlo.binary main_c_91 main_v317 main_v318 (addi : (⟨S32, .i32⟩ : BufTy).Contents (Elt F) → (⟨S32, .i32⟩ : BufTy).Contents (Elt F) → (⟨S32, .i32⟩ : BufTy).Contents (Elt F)),
    StableHlo.ternary main_c_94 main_v318 main_c_91 main_v319 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v319 main_v320 (broadcastInDim S32x1 ![0] bcast_S32_S32x1_0 : (⟨S32, .i32⟩ : BufTy).Contents (Elt F) → (⟨S32x1, .i32⟩ : BufTy).Contents (Elt F)),
    StableHlo.ternary main_v315 main_v320 main_v316 main_v321 ((fun x i u => Host.scatter scatter_S8x64x4096x16_S32x1_S8x64x32x16_013_2_2_1 (fun _ b => b) x i u) : (⟨S8x64x4096x16, .f32⟩ : BufTy).Contents (Elt F) → (⟨S32x1, .i32⟩ : BufTy).Contents (Elt F) → (⟨S8x64x32x16, .f32⟩ : BufTy).Contents (Elt F) → (⟨S8x64x4096x16, .f32⟩ : BufTy).Contents (Elt F)),
    StableHlo.nullary main_c_192 (constantI S_ 32 4096#32),
    StableHlo.unary main_c_192 main_v322 (broadcastInDim S64 ![] bcast_S_S64 : (⟨S_, .i32⟩ : BufTy).Contents (Elt F) → (⟨S64, .i32⟩ : BufTy).Contents (Elt F)),
    StableHlo.binary main_c_95 main_v322 main_v323 (addi : (⟨S64, .i32⟩ : BufTy).Contents (Elt F) → (⟨S64, .i32⟩ : BufTy).Contents (Elt F) → (⟨S64, .i32⟩ : BufTy).Contents (Elt F)),
    StableHlo.ternary main_c_96 main_v323 main_c_95 main_v324 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v324 main_v325 (broadcastInDim S64x1 ![0] bcast_S64_S64x1_0 : (⟨S64, .i32⟩ : BufTy).Contents (Elt F) → (⟨S64x1, .i32⟩ : BufTy).Contents (Elt F)),
    StableHlo.binary main_v321 main_v325 main_v326 ((fun x i => Host.gather gather_S8x64x4096x16_S64x1_S8x64x64x16_013_2_n_n_2_1_864116 x i) : (⟨S8x64x4096x16, .f32⟩ : BufTy).Contents (Elt F) → (⟨S64x1, .i32⟩ : BufTy).Contents (Elt F) → (⟨S8x64x64x16, .f32⟩ : BufTy).Contents (Elt F)),
    StableHlo.nullary main_c_193 (constantI S_ 32 4096#32),
    StableHlo.unary main_c_193 main_v327 (broadcastInDim S64 ![] bcast_S_S64 : (⟨S_, .i32⟩ : BufTy).Contents (Elt F) → (⟨S64, .i32⟩ : BufTy).Contents (Elt F)),
    StableHlo.binary main_c_97 main_v327 main_v328 (addi : (⟨S64, .i32⟩ : BufTy).Contents (Elt F) → (⟨S64, .i32⟩ : BufTy).Contents (Elt F) → (⟨S64, .i32⟩ : BufTy).Contents (Elt F)),
    StableHlo.ternary main_c_98 main_v328 main_c_97 main_v329 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v329 main_v330 (broadcastInDim S64x1 ![0] bcast_S64_S64x1_0 : (⟨S64, .i32⟩ : BufTy).Contents (Elt F) → (⟨S64x1, .i32⟩ : BufTy).Contents (Elt F)),
    StableHlo.binary main_v321 main_v330 main_v331 ((fun x i => Host.gather gather_S8x64x4096x16_S64x1_S8x64x64x16_013_2_n_n_2_1_864116 x i) : (⟨S8x64x4096x16, .f32⟩ : BufTy).Contents (Elt F) → (⟨S64x1, .i32⟩ : BufTy).Contents (Elt F) → (⟨S8x64x64x16, .f32⟩ : BufTy).Contents (Elt F)),
    StableHlo.nullary main_c_194 (constantI S_ 32 4096#32),
    StableHlo.unary main_c_194 main_v332 (broadcastInDim S64 ![] bcast_S_S64 : (⟨S_, .i32⟩ : BufTy).Contents (Elt F) → (⟨S64, .i32⟩ : BufTy).Contents (Elt F)),
    StableHlo.binary main_c_95 main_v332 main_v333 (addi : (⟨S64, .i32⟩ : BufTy).Contents (Elt F) → (⟨S64, .i32⟩ : BufTy).Contents (Elt F) → (⟨S64, .i32⟩ : BufTy).Contents (Elt F)),
    StableHlo.ternary main_c_99 main_v333 main_c_95 main_v334 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v334 main_v335 (broadcastInDim S64x1 ![0] bcast_S64_S64x1_0 : (⟨S64, .i32⟩ : BufTy).Contents (Elt F) → (⟨S64x1, .i32⟩ : BufTy).Contents (Elt F)),
    StableHlo.ternary main_v321 main_v335 main_v331 main_v336 ((fun x i u => Host.scatter scatter_S8x64x4096x16_S64x1_S8x64x64x16_013_2_2_1 (fun _ b => b) x i u) : (⟨S8x64x4096x16, .f32⟩ : BufTy).Contents (Elt F) → (⟨S64x1, .i32⟩ : BufTy).Contents (Elt F) → (⟨S8x64x64x16, .f32⟩ : BufTy).Contents (Elt F) → (⟨S8x64x4096x16, .f32⟩ : BufTy).Contents (Elt F)),
    StableHlo.binary main_v326 main_v331 main_v337 (addf : (⟨S8x64x64x16, .f32⟩ : BufTy).Contents (Elt F) → (⟨S8x64x64x16, .f32⟩ : BufTy).Contents (Elt F) → (⟨S8x64x64x16, .f32⟩ : BufTy).Contents (Elt F)),
    StableHlo.nullary main_c_195 (constantI S_ 32 4096#32),
    StableHlo.unary main_c_195 main_v338 (broadcastInDim S64 ![] bcast_S_S64 : (⟨S_, .i32⟩ : BufTy).Contents (Elt F) → (⟨S64, .i32⟩ : BufTy).Contents (Elt F)),
    StableHlo.binary main_c_97 main_v338 main_v339 (addi : (⟨S64, .i32⟩ : BufTy).Contents (Elt F) → (⟨S64, .i32⟩ : BufTy).Contents (Elt F) → (⟨S64, .i32⟩ : BufTy).Contents (Elt F)),
    StableHlo.ternary main_c_100 main_v339 main_c_97 main_v340 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v340 main_v341 (broadcastInDim S64x1 ![0] bcast_S64_S64x1_0 : (⟨S64, .i32⟩ : BufTy).Contents (Elt F) → (⟨S64x1, .i32⟩ : BufTy).Contents (Elt F)) ]

/-- @main's operations 541 … 600 of 668. -/
abbrev ops9 : List (HloOp τ sig (Elt F)) :=
  [ StableHlo.ternary main_v336 main_v341 main_v337 main_v342 ((fun x i u => Host.scatter scatter_S8x64x4096x16_S64x1_S8x64x64x16_013_2_2_1 (fun _ b => b) x i u) : (⟨S8x64x4096x16, .f32⟩ : BufTy).Contents (Elt F) → (⟨S64x1, .i32⟩ : BufTy).Contents (Elt F) → (⟨S8x64x64x16, .f32⟩ : BufTy).Contents (Elt F) → (⟨S8x64x4096x16, .f32⟩ : BufTy).Contents (Elt F)),
    StableHlo.nullary main_c_196 (constantI S_ 32 4096#32),
    StableHlo.unary main_c_196 main_v343 (broadcastInDim S128 ![] bcast_S_S128 : (⟨S_, .i32⟩ : BufTy).Contents (Elt F) → (⟨S128, .i32⟩ : BufTy).Contents (Elt F)),
    StableHlo.binary main_c_101 main_v343 main_v344 (addi : (⟨S128, .i32⟩ : BufTy).Contents (Elt F) → (⟨S128, .i32⟩ : BufTy).Contents (Elt F) → (⟨S128, .i32⟩ : BufTy).Contents (Elt F)),
    StableHlo.ternary main_c_102 main_v344 main_c_101 main_v345 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v345 main_v346 (broadcastInDim S128x1 ![0] bcast_S128_S128x1_0 : (⟨S128, .i32⟩ : BufTy).Contents (Elt F) → (⟨S128x1, .i32⟩ : BufTy).Contents (Elt F)),
    StableHlo.binary main_v342 main_v346 main_v347 ((fun x i => Host.gather gather_S8x64x4096x16_S128x1_S8x64x128x16_013_2_n_n_2_1_864116 x i) : (⟨S8x64x4096x16, .f32⟩ : BufTy).Contents (Elt F) → (⟨S128x1, .i32⟩ : BufTy).Contents (Elt F) → (⟨S8x64x128x16, .f32⟩ : BufTy).Contents (Elt F)),
    StableHlo.nullary main_c_197 (constantI S_ 32 4096#32),
    StableHlo.unary main_c_197 main_v348 (broadcastInDim S128 ![] bcast_S_S128 : (⟨S_, .i32⟩ : BufTy).Contents (Elt F) → (⟨S128, .i32⟩ : BufTy).Contents (Elt F)),
    StableHlo.binary main_c_103 main_v348 main_v349 (addi : (⟨S128, .i32⟩ : BufTy).Contents (Elt F) → (⟨S128, .i32⟩ : BufTy).Contents (Elt F) → (⟨S128, .i32⟩ : BufTy).Contents (Elt F)),
    StableHlo.ternary main_c_104 main_v349 main_c_103 main_v350 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v350 main_v351 (broadcastInDim S128x1 ![0] bcast_S128_S128x1_0 : (⟨S128, .i32⟩ : BufTy).Contents (Elt F) → (⟨S128x1, .i32⟩ : BufTy).Contents (Elt F)),
    StableHlo.binary main_v342 main_v351 main_v352 ((fun x i => Host.gather gather_S8x64x4096x16_S128x1_S8x64x128x16_013_2_n_n_2_1_864116 x i) : (⟨S8x64x4096x16, .f32⟩ : BufTy).Contents (Elt F) → (⟨S128x1, .i32⟩ : BufTy).Contents (Elt F) → (⟨S8x64x128x16, .f32⟩ : BufTy).Contents (Elt F)),
    StableHlo.nullary main_c_198 (constantI S_ 32 4096#32),
    StableHlo.unary main_c_198 main_v353 (broadcastInDim S128 ![] bcast_S_S128 : (⟨S_, .i32⟩ : BufTy).Contents (Elt F) → (⟨S128, .i32⟩ : BufTy).Contents (Elt F)),
    StableHlo.binary main_c_101 main_v353 main_v354 (addi : (⟨S128, .i32⟩ : BufTy).Contents (Elt F) → (⟨S128, .i32⟩ : BufTy).Contents (Elt F) → (⟨S128, .i32⟩ : BufTy).Contents (Elt F)),
    StableHlo.ternary main_c_105 main_v354 main_c_101 main_v355 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v355 main_v356 (broadcastInDim S128x1 ![0] bcast_S128_S128x1_0 : (⟨S128, .i32⟩ : BufTy).Contents (Elt F) → (⟨S128x1, .i32⟩ : BufTy).Contents (Elt F)),
    StableHlo.ternary main_v342 main_v356 main_v352 main_v357 ((fun x i u => Host.scatter scatter_S8x64x4096x16_S128x1_S8x64x128x16_013_2_2_1 (fun _ b => b) x i u) : (⟨S8x64x4096x16, .f32⟩ : BufTy).Contents (Elt F) → (⟨S128x1, .i32⟩ : BufTy).Contents (Elt F) → (⟨S8x64x128x16, .f32⟩ : BufTy).Contents (Elt F) → (⟨S8x64x4096x16, .f32⟩ : BufTy).Contents (Elt F)),
    StableHlo.binary main_v347 main_v352 main_v358 (addf : (⟨S8x64x128x16, .f32⟩ : BufTy).Contents (Elt F) → (⟨S8x64x128x16, .f32⟩ : BufTy).Contents (Elt F) → (⟨S8x64x128x16, .f32⟩ : BufTy).Contents (Elt F)),
    StableHlo.nullary main_c_199 (constantI S_ 32 4096#32),
    StableHlo.unary main_c_199 main_v359 (broadcastInDim S128 ![] bcast_S_S128 : (⟨S_, .i32⟩ : BufTy).Contents (Elt F) → (⟨S128, .i32⟩ : BufTy).Contents (Elt F)),
    StableHlo.binary main_c_103 main_v359 main_v360 (addi : (⟨S128, .i32⟩ : BufTy).Contents (Elt F) → (⟨S128, .i32⟩ : BufTy).Contents (Elt F) → (⟨S128, .i32⟩ : BufTy).Contents (Elt F)),
    StableHlo.ternary main_c_106 main_v360 main_c_103 main_v361 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v361 main_v362 (broadcastInDim S128x1 ![0] bcast_S128_S128x1_0 : (⟨S128, .i32⟩ : BufTy).Contents (Elt F) → (⟨S128x1, .i32⟩ : BufTy).Contents (Elt F)),
    StableHlo.ternary main_v357 main_v362 main_v358 main_v363 ((fun x i u => Host.scatter scatter_S8x64x4096x16_S128x1_S8x64x128x16_013_2_2_1 (fun _ b => b) x i u) : (⟨S8x64x4096x16, .f32⟩ : BufTy).Contents (Elt F) → (⟨S128x1, .i32⟩ : BufTy).Contents (Elt F) → (⟨S8x64x128x16, .f32⟩ : BufTy).Contents (Elt F) → (⟨S8x64x4096x16, .f32⟩ : BufTy).Contents (Elt F)),
    StableHlo.nullary main_c_200 (constantI S_ 32 4096#32),
    StableHlo.unary main_c_200 main_v364 (broadcastInDim S256 ![] bcast_S_S256 : (⟨S_, .i32⟩ : BufTy).Contents (Elt F) → (⟨S256, .i32⟩ : BufTy).Contents (Elt F)),
    StableHlo.binary main_c_107 main_v364 main_v365 (addi : (⟨S256, .i32⟩ : BufTy).Contents (Elt F) → (⟨S256, .i32⟩ : BufTy).Contents (Elt F) → (⟨S256, .i32⟩ : BufTy).Contents (Elt F)),
    StableHlo.ternary main_c_108 main_v365 main_c_107 main_v366 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v366 main_v367 (broadcastInDim S256x1 ![0] bcast_S256_S256x1_0 : (⟨S256, .i32⟩ : BufTy).Contents (Elt F) → (⟨S256x1, .i32⟩ : BufTy).Contents (Elt F)),
    StableHlo.binary main_v363 main_v367 main_v368 ((fun x i => Host.gather gather_S8x64x4096x16_S256x1_S8x64x256x16_013_2_n_n_2_1_864116 x i) : (⟨S8x64x4096x16, .f32⟩ : BufTy).Contents (Elt F) → (⟨S256x1, .i32⟩ : BufTy).Contents (Elt F) → (⟨S8x64x256x16, .f32⟩ : BufTy).Contents (Elt F)),
    StableHlo.nullary main_c_201 (constantI S_ 32 4096#32),
    StableHlo.unary main_c_201 main_v369 (broadcastInDim S256 ![] bcast_S_S256 : (⟨S_, .i32⟩ : BufTy).Contents (Elt F) → (⟨S256, .i32⟩ : BufTy).Contents (Elt F)),
    StableHlo.binary main_c_109 main_v369 main_v370 (addi : (⟨S256, .i32⟩ : BufTy).Contents (Elt F) → (⟨S256, .i32⟩ : BufTy).Contents (Elt F) → (⟨S256, .i32⟩ : BufTy).Contents (Elt F)),
    StableHlo.ternary main_c_110 main_v370 main_c_109 main_v371 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v371 main_v372 (broadcastInDim S256x1 ![0] bcast_S256_S256x1_0 : (⟨S256, .i32⟩ : BufTy).Contents (Elt F) → (⟨S256x1, .i32⟩ : BufTy).Contents (Elt F)),
    StableHlo.binary main_v363 main_v372 main_v373 ((fun x i => Host.gather gather_S8x64x4096x16_S256x1_S8x64x256x16_013_2_n_n_2_1_864116 x i) : (⟨S8x64x4096x16, .f32⟩ : BufTy).Contents (Elt F) → (⟨S256x1, .i32⟩ : BufTy).Contents (Elt F) → (⟨S8x64x256x16, .f32⟩ : BufTy).Contents (Elt F)),
    StableHlo.nullary main_c_202 (constantI S_ 32 4096#32),
    StableHlo.unary main_c_202 main_v374 (broadcastInDim S256 ![] bcast_S_S256 : (⟨S_, .i32⟩ : BufTy).Contents (Elt F) → (⟨S256, .i32⟩ : BufTy).Contents (Elt F)),
    StableHlo.binary main_c_107 main_v374 main_v375 (addi : (⟨S256, .i32⟩ : BufTy).Contents (Elt F) → (⟨S256, .i32⟩ : BufTy).Contents (Elt F) → (⟨S256, .i32⟩ : BufTy).Contents (Elt F)),
    StableHlo.ternary main_c_111 main_v375 main_c_107 main_v376 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v376 main_v377 (broadcastInDim S256x1 ![0] bcast_S256_S256x1_0 : (⟨S256, .i32⟩ : BufTy).Contents (Elt F) → (⟨S256x1, .i32⟩ : BufTy).Contents (Elt F)),
    StableHlo.ternary main_v363 main_v377 main_v373 main_v378 ((fun x i u => Host.scatter scatter_S8x64x4096x16_S256x1_S8x64x256x16_013_2_2_1 (fun _ b => b) x i u) : (⟨S8x64x4096x16, .f32⟩ : BufTy).Contents (Elt F) → (⟨S256x1, .i32⟩ : BufTy).Contents (Elt F) → (⟨S8x64x256x16, .f32⟩ : BufTy).Contents (Elt F) → (⟨S8x64x4096x16, .f32⟩ : BufTy).Contents (Elt F)),
    StableHlo.binary main_v368 main_v373 main_v379 (addf : (⟨S8x64x256x16, .f32⟩ : BufTy).Contents (Elt F) → (⟨S8x64x256x16, .f32⟩ : BufTy).Contents (Elt F) → (⟨S8x64x256x16, .f32⟩ : BufTy).Contents (Elt F)),
    StableHlo.nullary main_c_203 (constantI S_ 32 4096#32),
    StableHlo.unary main_c_203 main_v380 (broadcastInDim S256 ![] bcast_S_S256 : (⟨S_, .i32⟩ : BufTy).Contents (Elt F) → (⟨S256, .i32⟩ : BufTy).Contents (Elt F)),
    StableHlo.binary main_c_109 main_v380 main_v381 (addi : (⟨S256, .i32⟩ : BufTy).Contents (Elt F) → (⟨S256, .i32⟩ : BufTy).Contents (Elt F) → (⟨S256, .i32⟩ : BufTy).Contents (Elt F)),
    StableHlo.ternary main_c_112 main_v381 main_c_109 main_v382 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v382 main_v383 (broadcastInDim S256x1 ![0] bcast_S256_S256x1_0 : (⟨S256, .i32⟩ : BufTy).Contents (Elt F) → (⟨S256x1, .i32⟩ : BufTy).Contents (Elt F)),
    StableHlo.ternary main_v378 main_v383 main_v379 main_v384 ((fun x i u => Host.scatter scatter_S8x64x4096x16_S256x1_S8x64x256x16_013_2_2_1 (fun _ b => b) x i u) : (⟨S8x64x4096x16, .f32⟩ : BufTy).Contents (Elt F) → (⟨S256x1, .i32⟩ : BufTy).Contents (Elt F) → (⟨S8x64x256x16, .f32⟩ : BufTy).Contents (Elt F) → (⟨S8x64x4096x16, .f32⟩ : BufTy).Contents (Elt F)),
    StableHlo.nullary main_c_204 (constantI S_ 32 4096#32),
    StableHlo.unary main_c_204 main_v385 (broadcastInDim S512 ![] bcast_S_S512 : (⟨S_, .i32⟩ : BufTy).Contents (Elt F) → (⟨S512, .i32⟩ : BufTy).Contents (Elt F)),
    StableHlo.binary main_c_113 main_v385 main_v386 (addi : (⟨S512, .i32⟩ : BufTy).Contents (Elt F) → (⟨S512, .i32⟩ : BufTy).Contents (Elt F) → (⟨S512, .i32⟩ : BufTy).Contents (Elt F)),
    StableHlo.ternary main_c_114 main_v386 main_c_113 main_v387 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v387 main_v388 (broadcastInDim S512x1 ![0] bcast_S512_S512x1_0 : (⟨S512, .i32⟩ : BufTy).Contents (Elt F) → (⟨S512x1, .i32⟩ : BufTy).Contents (Elt F)),
    StableHlo.binary main_v384 main_v388 main_v389 ((fun x i => Host.gather gather_S8x64x4096x16_S512x1_S8x64x512x16_013_2_n_n_2_1_864116 x i) : (⟨S8x64x4096x16, .f32⟩ : BufTy).Contents (Elt F) → (⟨S512x1, .i32⟩ : BufTy).Contents (Elt F) → (⟨S8x64x512x16, .f32⟩ : BufTy).Contents (Elt F)),
    StableHlo.nullary main_c_205 (constantI S_ 32 4096#32),
    StableHlo.unary main_c_205 main_v390 (broadcastInDim S512 ![] bcast_S_S512 : (⟨S_, .i32⟩ : BufTy).Contents (Elt F) → (⟨S512, .i32⟩ : BufTy).Contents (Elt F)),
    StableHlo.binary main_c_115 main_v390 main_v391 (addi : (⟨S512, .i32⟩ : BufTy).Contents (Elt F) → (⟨S512, .i32⟩ : BufTy).Contents (Elt F) → (⟨S512, .i32⟩ : BufTy).Contents (Elt F)) ]

/-- @main's operations 601 … 660 of 668. -/
abbrev ops10 : List (HloOp τ sig (Elt F)) :=
  [ StableHlo.ternary main_c_116 main_v391 main_c_115 main_v392 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v392 main_v393 (broadcastInDim S512x1 ![0] bcast_S512_S512x1_0 : (⟨S512, .i32⟩ : BufTy).Contents (Elt F) → (⟨S512x1, .i32⟩ : BufTy).Contents (Elt F)),
    StableHlo.binary main_v384 main_v393 main_v394 ((fun x i => Host.gather gather_S8x64x4096x16_S512x1_S8x64x512x16_013_2_n_n_2_1_864116 x i) : (⟨S8x64x4096x16, .f32⟩ : BufTy).Contents (Elt F) → (⟨S512x1, .i32⟩ : BufTy).Contents (Elt F) → (⟨S8x64x512x16, .f32⟩ : BufTy).Contents (Elt F)),
    StableHlo.nullary main_c_206 (constantI S_ 32 4096#32),
    StableHlo.unary main_c_206 main_v395 (broadcastInDim S512 ![] bcast_S_S512 : (⟨S_, .i32⟩ : BufTy).Contents (Elt F) → (⟨S512, .i32⟩ : BufTy).Contents (Elt F)),
    StableHlo.binary main_c_113 main_v395 main_v396 (addi : (⟨S512, .i32⟩ : BufTy).Contents (Elt F) → (⟨S512, .i32⟩ : BufTy).Contents (Elt F) → (⟨S512, .i32⟩ : BufTy).Contents (Elt F)),
    StableHlo.ternary main_c_117 main_v396 main_c_113 main_v397 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v397 main_v398 (broadcastInDim S512x1 ![0] bcast_S512_S512x1_0 : (⟨S512, .i32⟩ : BufTy).Contents (Elt F) → (⟨S512x1, .i32⟩ : BufTy).Contents (Elt F)),
    StableHlo.ternary main_v384 main_v398 main_v394 main_v399 ((fun x i u => Host.scatter scatter_S8x64x4096x16_S512x1_S8x64x512x16_013_2_2_1 (fun _ b => b) x i u) : (⟨S8x64x4096x16, .f32⟩ : BufTy).Contents (Elt F) → (⟨S512x1, .i32⟩ : BufTy).Contents (Elt F) → (⟨S8x64x512x16, .f32⟩ : BufTy).Contents (Elt F) → (⟨S8x64x4096x16, .f32⟩ : BufTy).Contents (Elt F)),
    StableHlo.binary main_v389 main_v394 main_v400 (addf : (⟨S8x64x512x16, .f32⟩ : BufTy).Contents (Elt F) → (⟨S8x64x512x16, .f32⟩ : BufTy).Contents (Elt F) → (⟨S8x64x512x16, .f32⟩ : BufTy).Contents (Elt F)),
    StableHlo.nullary main_c_207 (constantI S_ 32 4096#32),
    StableHlo.unary main_c_207 main_v401 (broadcastInDim S512 ![] bcast_S_S512 : (⟨S_, .i32⟩ : BufTy).Contents (Elt F) → (⟨S512, .i32⟩ : BufTy).Contents (Elt F)),
    StableHlo.binary main_c_115 main_v401 main_v402 (addi : (⟨S512, .i32⟩ : BufTy).Contents (Elt F) → (⟨S512, .i32⟩ : BufTy).Contents (Elt F) → (⟨S512, .i32⟩ : BufTy).Contents (Elt F)),
    StableHlo.ternary main_c_118 main_v402 main_c_115 main_v403 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v403 main_v404 (broadcastInDim S512x1 ![0] bcast_S512_S512x1_0 : (⟨S512, .i32⟩ : BufTy).Contents (Elt F) → (⟨S512x1, .i32⟩ : BufTy).Contents (Elt F)),
    StableHlo.ternary main_v399 main_v404 main_v400 main_v405 ((fun x i u => Host.scatter scatter_S8x64x4096x16_S512x1_S8x64x512x16_013_2_2_1 (fun _ b => b) x i u) : (⟨S8x64x4096x16, .f32⟩ : BufTy).Contents (Elt F) → (⟨S512x1, .i32⟩ : BufTy).Contents (Elt F) → (⟨S8x64x512x16, .f32⟩ : BufTy).Contents (Elt F) → (⟨S8x64x4096x16, .f32⟩ : BufTy).Contents (Elt F)),
    StableHlo.nullary main_c_208 (constantI S_ 32 4096#32),
    StableHlo.unary main_c_208 main_v406 (broadcastInDim S1024 ![] bcast_S_S1024 : (⟨S_, .i32⟩ : BufTy).Contents (Elt F) → (⟨S1024, .i32⟩ : BufTy).Contents (Elt F)),
    StableHlo.binary main_c_119 main_v406 main_v407 (addi : (⟨S1024, .i32⟩ : BufTy).Contents (Elt F) → (⟨S1024, .i32⟩ : BufTy).Contents (Elt F) → (⟨S1024, .i32⟩ : BufTy).Contents (Elt F)),
    StableHlo.ternary main_c_120 main_v407 main_c_119 main_v408 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v408 main_v409 (broadcastInDim S1024x1 ![0] bcast_S1024_S1024x1_0 : (⟨S1024, .i32⟩ : BufTy).Contents (Elt F) → (⟨S1024x1, .i32⟩ : BufTy).Contents (Elt F)),
    StableHlo.binary main_v405 main_v409 main_v410 ((fun x i => Host.gather gather_S8x64x4096x16_S1024x1_S8x64x1024x16_013_2_n_n_2_1_864116 x i) : (⟨S8x64x4096x16, .f32⟩ : BufTy).Contents (Elt F) → (⟨S1024x1, .i32⟩ : BufTy).Contents (Elt F) → (⟨S8x64x1024x16, .f32⟩ : BufTy).Contents (Elt F)),
    StableHlo.nullary main_c_209 (constantI S_ 32 4096#32),
    StableHlo.unary main_c_209 main_v411 (broadcastInDim S1024 ![] bcast_S_S1024 : (⟨S_, .i32⟩ : BufTy).Contents (Elt F) → (⟨S1024, .i32⟩ : BufTy).Contents (Elt F)),
    StableHlo.binary main_c_121 main_v411 main_v412 (addi : (⟨S1024, .i32⟩ : BufTy).Contents (Elt F) → (⟨S1024, .i32⟩ : BufTy).Contents (Elt F) → (⟨S1024, .i32⟩ : BufTy).Contents (Elt F)),
    StableHlo.ternary main_c_122 main_v412 main_c_121 main_v413 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v413 main_v414 (broadcastInDim S1024x1 ![0] bcast_S1024_S1024x1_0 : (⟨S1024, .i32⟩ : BufTy).Contents (Elt F) → (⟨S1024x1, .i32⟩ : BufTy).Contents (Elt F)),
    StableHlo.binary main_v405 main_v414 main_v415 ((fun x i => Host.gather gather_S8x64x4096x16_S1024x1_S8x64x1024x16_013_2_n_n_2_1_864116 x i) : (⟨S8x64x4096x16, .f32⟩ : BufTy).Contents (Elt F) → (⟨S1024x1, .i32⟩ : BufTy).Contents (Elt F) → (⟨S8x64x1024x16, .f32⟩ : BufTy).Contents (Elt F)),
    StableHlo.nullary main_c_210 (constantI S_ 32 4096#32),
    StableHlo.unary main_c_210 main_v416 (broadcastInDim S1024 ![] bcast_S_S1024 : (⟨S_, .i32⟩ : BufTy).Contents (Elt F) → (⟨S1024, .i32⟩ : BufTy).Contents (Elt F)),
    StableHlo.binary main_c_119 main_v416 main_v417 (addi : (⟨S1024, .i32⟩ : BufTy).Contents (Elt F) → (⟨S1024, .i32⟩ : BufTy).Contents (Elt F) → (⟨S1024, .i32⟩ : BufTy).Contents (Elt F)),
    StableHlo.ternary main_c_123 main_v417 main_c_119 main_v418 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v418 main_v419 (broadcastInDim S1024x1 ![0] bcast_S1024_S1024x1_0 : (⟨S1024, .i32⟩ : BufTy).Contents (Elt F) → (⟨S1024x1, .i32⟩ : BufTy).Contents (Elt F)),
    StableHlo.ternary main_v405 main_v419 main_v415 main_v420 ((fun x i u => Host.scatter scatter_S8x64x4096x16_S1024x1_S8x64x1024x16_013_2_2_1 (fun _ b => b) x i u) : (⟨S8x64x4096x16, .f32⟩ : BufTy).Contents (Elt F) → (⟨S1024x1, .i32⟩ : BufTy).Contents (Elt F) → (⟨S8x64x1024x16, .f32⟩ : BufTy).Contents (Elt F) → (⟨S8x64x4096x16, .f32⟩ : BufTy).Contents (Elt F)),
    StableHlo.binary main_v410 main_v415 main_v421 (addf : (⟨S8x64x1024x16, .f32⟩ : BufTy).Contents (Elt F) → (⟨S8x64x1024x16, .f32⟩ : BufTy).Contents (Elt F) → (⟨S8x64x1024x16, .f32⟩ : BufTy).Contents (Elt F)),
    StableHlo.nullary main_c_211 (constantI S_ 32 4096#32),
    StableHlo.unary main_c_211 main_v422 (broadcastInDim S1024 ![] bcast_S_S1024 : (⟨S_, .i32⟩ : BufTy).Contents (Elt F) → (⟨S1024, .i32⟩ : BufTy).Contents (Elt F)),
    StableHlo.binary main_c_121 main_v422 main_v423 (addi : (⟨S1024, .i32⟩ : BufTy).Contents (Elt F) → (⟨S1024, .i32⟩ : BufTy).Contents (Elt F) → (⟨S1024, .i32⟩ : BufTy).Contents (Elt F)),
    StableHlo.ternary main_c_124 main_v423 main_c_121 main_v424 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v424 main_v425 (broadcastInDim S1024x1 ![0] bcast_S1024_S1024x1_0 : (⟨S1024, .i32⟩ : BufTy).Contents (Elt F) → (⟨S1024x1, .i32⟩ : BufTy).Contents (Elt F)),
    StableHlo.ternary main_v420 main_v425 main_v421 main_v426 ((fun x i u => Host.scatter scatter_S8x64x4096x16_S1024x1_S8x64x1024x16_013_2_2_1 (fun _ b => b) x i u) : (⟨S8x64x4096x16, .f32⟩ : BufTy).Contents (Elt F) → (⟨S1024x1, .i32⟩ : BufTy).Contents (Elt F) → (⟨S8x64x1024x16, .f32⟩ : BufTy).Contents (Elt F) → (⟨S8x64x4096x16, .f32⟩ : BufTy).Contents (Elt F)),
    StableHlo.nullary main_c_212 (constantI S_ 32 4096#32),
    StableHlo.unary main_c_212 main_v427 (broadcastInDim S2048 ![] bcast_S_S2048 : (⟨S_, .i32⟩ : BufTy).Contents (Elt F) → (⟨S2048, .i32⟩ : BufTy).Contents (Elt F)),
    StableHlo.binary main_c_125 main_v427 main_v428 (addi : (⟨S2048, .i32⟩ : BufTy).Contents (Elt F) → (⟨S2048, .i32⟩ : BufTy).Contents (Elt F) → (⟨S2048, .i32⟩ : BufTy).Contents (Elt F)),
    StableHlo.ternary main_c_126 main_v428 main_c_125 main_v429 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v429 main_v430 (broadcastInDim S2048x1 ![0] bcast_S2048_S2048x1_0 : (⟨S2048, .i32⟩ : BufTy).Contents (Elt F) → (⟨S2048x1, .i32⟩ : BufTy).Contents (Elt F)),
    StableHlo.binary main_v426 main_v430 main_v431 ((fun x i => Host.gather gather_S8x64x4096x16_S2048x1_S8x64x2048x16_013_2_n_n_2_1_864116 x i) : (⟨S8x64x4096x16, .f32⟩ : BufTy).Contents (Elt F) → (⟨S2048x1, .i32⟩ : BufTy).Contents (Elt F) → (⟨S8x64x2048x16, .f32⟩ : BufTy).Contents (Elt F)),
    StableHlo.nullary main_c_213 (constantI S_ 32 4096#32),
    StableHlo.unary main_c_213 main_v432 (broadcastInDim S2048 ![] bcast_S_S2048 : (⟨S_, .i32⟩ : BufTy).Contents (Elt F) → (⟨S2048, .i32⟩ : BufTy).Contents (Elt F)),
    StableHlo.binary main_c_127 main_v432 main_v433 (addi : (⟨S2048, .i32⟩ : BufTy).Contents (Elt F) → (⟨S2048, .i32⟩ : BufTy).Contents (Elt F) → (⟨S2048, .i32⟩ : BufTy).Contents (Elt F)),
    StableHlo.ternary main_c_128 main_v433 main_c_127 main_v434 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v434 main_v435 (broadcastInDim S2048x1 ![0] bcast_S2048_S2048x1_0 : (⟨S2048, .i32⟩ : BufTy).Contents (Elt F) → (⟨S2048x1, .i32⟩ : BufTy).Contents (Elt F)),
    StableHlo.binary main_v426 main_v435 main_v436 ((fun x i => Host.gather gather_S8x64x4096x16_S2048x1_S8x64x2048x16_013_2_n_n_2_1_864116 x i) : (⟨S8x64x4096x16, .f32⟩ : BufTy).Contents (Elt F) → (⟨S2048x1, .i32⟩ : BufTy).Contents (Elt F) → (⟨S8x64x2048x16, .f32⟩ : BufTy).Contents (Elt F)),
    StableHlo.nullary main_c_214 (constantI S_ 32 4096#32),
    StableHlo.unary main_c_214 main_v437 (broadcastInDim S2048 ![] bcast_S_S2048 : (⟨S_, .i32⟩ : BufTy).Contents (Elt F) → (⟨S2048, .i32⟩ : BufTy).Contents (Elt F)),
    StableHlo.binary main_c_125 main_v437 main_v438 (addi : (⟨S2048, .i32⟩ : BufTy).Contents (Elt F) → (⟨S2048, .i32⟩ : BufTy).Contents (Elt F) → (⟨S2048, .i32⟩ : BufTy).Contents (Elt F)),
    StableHlo.ternary main_c_129 main_v438 main_c_125 main_v439 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v439 main_v440 (broadcastInDim S2048x1 ![0] bcast_S2048_S2048x1_0 : (⟨S2048, .i32⟩ : BufTy).Contents (Elt F) → (⟨S2048x1, .i32⟩ : BufTy).Contents (Elt F)),
    StableHlo.ternary main_v426 main_v440 main_v436 main_v441 ((fun x i u => Host.scatter scatter_S8x64x4096x16_S2048x1_S8x64x2048x16_013_2_2_1 (fun _ b => b) x i u) : (⟨S8x64x4096x16, .f32⟩ : BufTy).Contents (Elt F) → (⟨S2048x1, .i32⟩ : BufTy).Contents (Elt F) → (⟨S8x64x2048x16, .f32⟩ : BufTy).Contents (Elt F) → (⟨S8x64x4096x16, .f32⟩ : BufTy).Contents (Elt F)),
    StableHlo.binary main_v431 main_v436 main_v442 (addf : (⟨S8x64x2048x16, .f32⟩ : BufTy).Contents (Elt F) → (⟨S8x64x2048x16, .f32⟩ : BufTy).Contents (Elt F) → (⟨S8x64x2048x16, .f32⟩ : BufTy).Contents (Elt F)) ]

/-- @main's operations 661 … 668 of 668. -/
abbrev ops11 : List (HloOp τ sig (Elt F)) :=
  [ StableHlo.nullary main_c_215 (constantI S_ 32 4096#32),
    StableHlo.unary main_c_215 main_v443 (broadcastInDim S2048 ![] bcast_S_S2048 : (⟨S_, .i32⟩ : BufTy).Contents (Elt F) → (⟨S2048, .i32⟩ : BufTy).Contents (Elt F)),
    StableHlo.binary main_c_127 main_v443 main_v444 (addi : (⟨S2048, .i32⟩ : BufTy).Contents (Elt F) → (⟨S2048, .i32⟩ : BufTy).Contents (Elt F) → (⟨S2048, .i32⟩ : BufTy).Contents (Elt F)),
    StableHlo.ternary main_c_130 main_v444 main_c_127 main_v445 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v445 main_v446 (broadcastInDim S2048x1 ![0] bcast_S2048_S2048x1_0 : (⟨S2048, .i32⟩ : BufTy).Contents (Elt F) → (⟨S2048x1, .i32⟩ : BufTy).Contents (Elt F)),
    StableHlo.ternary main_v441 main_v446 main_v442 main_v447 ((fun x i u => Host.scatter scatter_S8x64x4096x16_S2048x1_S8x64x2048x16_013_2_2_1 (fun _ b => b) x i u) : (⟨S8x64x4096x16, .f32⟩ : BufTy).Contents (Elt F) → (⟨S2048x1, .i32⟩ : BufTy).Contents (Elt F) → (⟨S8x64x2048x16, .f32⟩ : BufTy).Contents (Elt F) → (⟨S8x64x4096x16, .f32⟩ : BufTy).Contents (Elt F)),
    StableHlo.binary main_v447 main_v1 main_v448 (addf : (⟨S8x64x4096x16, .f32⟩ : BufTy).Contents (Elt F) → (⟨S8x64x4096x16, .f32⟩ : BufTy).Contents (Elt F) → (⟨S8x64x4096x16, .f32⟩ : BufTy).Contents (Elt F)),
    StableHlo.unary main_v448 main_v449 ((transpose S8x4096x64x16 [0, 2, 1, 3] · transposes_S8x64x4096x16_S8x4096x64x16_0_2_1_3) : (⟨S8x64x4096x16, .f32⟩ : BufTy).Contents (Elt F) → (⟨S8x4096x64x16, .f32⟩ : BufTy).Contents (Elt F)) ]

/-- @main's 668 operations, in order. -/
abbrev ops : List (HloOp τ sig (Elt F)) :=
  ops0 ++ (ops1 ++ (ops2 ++ (ops3 ++ (ops4 ++ (ops5 ++ (ops6 ++ (ops7 ++ (ops8 ++ (ops9 ++ (ops10 ++ (ops11)))))))))))

set_option maxRecDepth 8192 in
theorem main_part0_eq (c : Dev nD) : main_part0 (F := F) c = seq ops0 := rfl
set_option maxRecDepth 8192 in
theorem main_part1_eq (c : Dev nD) : main_part1 (F := F) c = seq ops1 := rfl
set_option maxRecDepth 8192 in
theorem main_part2_eq (c : Dev nD) : main_part2 (F := F) c = seq ops2 := rfl
set_option maxRecDepth 8192 in
theorem main_part3_eq (c : Dev nD) : main_part3 (F := F) c = seq ops3 := rfl
set_option maxRecDepth 8192 in
theorem main_part4_eq (c : Dev nD) : main_part4 (F := F) c = seq ops4 := rfl
set_option maxRecDepth 8192 in
theorem main_part5_eq (c : Dev nD) : main_part5 (F := F) c = seq ops5 := rfl
set_option maxRecDepth 8192 in
theorem main_part6_eq (c : Dev nD) : main_part6 (F := F) c = seq ops6 := rfl
set_option maxRecDepth 8192 in
theorem main_part7_eq (c : Dev nD) : main_part7 (F := F) c = seq ops7 := rfl
set_option maxRecDepth 8192 in
theorem main_part8_eq (c : Dev nD) : main_part8 (F := F) c = seq ops8 := rfl
set_option maxRecDepth 8192 in
theorem main_part9_eq (c : Dev nD) : main_part9 (F := F) c = seq ops9 := rfl
set_option maxRecDepth 8192 in
theorem main_part10_eq (c : Dev nD) : main_part10 (F := F) c = seq ops10 := rfl
set_option maxRecDepth 8192 in
theorem main_part11_eq (c : Dev nD) : main_part11 (F := F) c = seq ops11 := rfl
set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c, ← main_part9_eq c, ← main_part10_eq c, ← main_part11_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops0_sub : (ops0 : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub ..⟩
set_option maxRecDepth 8192 in
theorem ops1_sub : (ops1 : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub ..⟩
set_option maxRecDepth 8192 in
theorem ops2_sub : (ops2 : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., unary_bufs_sub .., unary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., nullary_bufs_sub ..⟩
set_option maxRecDepth 8192 in
theorem ops3_sub : (ops3 : List (HloOp τ sig (Elt F))).Forall fun op => op.bufs ⊆ tcRefs τ sig :=
  ⟨unary_bufs_sub .., binary_bufs_sub .., ternary_bufs_sub .., unary_bufs_sub .., binary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., nullary_bufs_sub .., unary_bufs_sub .., binary_bufs_sub .., ternary_bufs_sub ..⟩
set_option maxRecDepth 8192 in
theorem ops4_sub : (ops4 : List (HloOp τ sig (Elt F))).Forall fun op => op.bufs ⊆ tcRefs τ sig :=
  ⟨unary_bufs_sub .., binary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub ..⟩
set_option maxRecDepth 8192 in
theorem ops5_sub : (ops5 : List (HloOp τ sig (Elt F))).Forall fun op => op.bufs ⊆ tcRefs τ sig :=
  ⟨nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub ..⟩
set_option maxRecDepth 8192 in
theorem ops6_sub : (ops6 : List (HloOp τ sig (Elt F))).Forall fun op => op.bufs ⊆ tcRefs τ sig :=
  ⟨ternary_bufs_sub .., unary_bufs_sub .., ternary_bufs_sub .., nullary_bufs_sub .., unary_bufs_sub .., ternary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., ternary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., ternary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub ..⟩
set_option maxRecDepth 8192 in
theorem ops7_sub : (ops7 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., ternary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., ternary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., nullary_bufs_sub .., unary_bufs_sub ..⟩
set_option maxRecDepth 8192 in
theorem ops8_sub : (ops8 : List (HloOp τ sig (Elt F))).Forall fun op => op.bufs ⊆ tcRefs τ sig :=
  ⟨binary_bufs_sub .., ternary_bufs_sub .., unary_bufs_sub .., ternary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., ternary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., ternary_bufs_sub .., binary_bufs_sub .., nullary_bufs_sub .., unary_bufs_sub .., binary_bufs_sub .., ternary_bufs_sub .., unary_bufs_sub ..⟩
set_option maxRecDepth 8192 in
theorem ops9_sub : (ops9 : List (HloOp τ sig (Elt F))).Forall fun op => op.bufs ⊆ tcRefs τ sig :=
  ⟨ternary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., ternary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., ternary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., nullary_bufs_sub .., unary_bufs_sub .., binary_bufs_sub ..⟩
set_option maxRecDepth 8192 in
theorem ops10_sub : (ops10 : List (HloOp τ sig (Elt F))).Forall fun op => op.bufs ⊆ tcRefs τ sig :=
  ⟨ternary_bufs_sub .., unary_bufs_sub .., binary_bufs_sub .., nullary_bufs_sub .., unary_bufs_sub .., binary_bufs_sub .., ternary_bufs_sub .., unary_bufs_sub .., ternary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., ternary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., ternary_bufs_sub .., binary_bufs_sub ..⟩
set_option maxRecDepth 8192 in
theorem ops11_sub : (ops11 : List (HloOp τ sig (Elt F))).Forall fun op => op.bufs ⊆ tcRefs τ sig :=
  ⟨nullary_bufs_sub .., unary_bufs_sub .., binary_bufs_sub .., ternary_bufs_sub .., unary_bufs_sub .., ternary_bufs_sub .., binary_bufs_sub .., unary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h, List.forall_iff_forall_mem.mp ops8_sub op h, List.forall_iff_forall_mem.mp ops9_sub op h, List.forall_iff_forall_mem.mp ops10_sub op h, List.forall_iff_forall_mem.mp ops11_sub op h]

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops7_fresh : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops8_fresh : (ops8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops9_fresh : (ops9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops10_fresh : (ops10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops11_fresh : (ops11 : List (HloOp τ sig (Elt F))).Forall fun op => op.fresh = ∅ :=
  ⟨rfl, rfl, rfl, rfl, rfl, rfl, rfl, rfl⟩
theorem ops_fresh : ∀ op ∈ (ops : List (HloOp τ sig (Elt F))), op.fresh = ∅ := fun op h => by
  simp only [ops, List.mem_append] at h
  rcases h with h | h | h | h | h | h | h | h | h | h | h | h
  exacts [List.forall_iff_forall_mem.mp ops0_fresh op h, List.forall_iff_forall_mem.mp ops1_fresh op h, List.forall_iff_forall_mem.mp ops2_fresh op h, List.forall_iff_forall_mem.mp ops3_fresh op h, List.forall_iff_forall_mem.mp ops4_fresh op h, List.forall_iff_forall_mem.mp ops5_fresh op h, List.forall_iff_forall_mem.mp ops6_fresh op h, List.forall_iff_forall_mem.mp ops7_fresh op h, List.forall_iff_forall_mem.mp ops8_fresh op h, List.forall_iff_forall_mem.mp ops9_fresh op h, List.forall_iff_forall_mem.mp ops10_fresh op h, List.forall_iff_forall_mem.mp ops11_fresh op h]

/-- On every device, from any memory with zero counters: every weakly fair execution of @main terminates, with every
    buffer at the fold of the operations' results over the launch contents. -/
theorem run_line (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after (ops (F := F)) (launchContents m c) (Proc.devRef .tc b) :=
  run_seq scopedRefs_eq scopedSems_eq defs main (fun _ => ops) main_eq (fun _ => ops_sub) m ρ (fun _ => ops_fresh)

end Cert.ReferenceIdeal.Line

end
-- ==== Proof.SingleAssignment.lean ====
/-
  A straight line of host operations in which every buffer is written at most once.

  `StableHlo.after l V` is the valuation after the operations `l`, run in order from the valuation `V`.  When no two
  operations of the line write a common buffer, a buffer written by operation k is never written again, so the whole
  line leaves there what operation k left; and an operand of operation k that was written by an earlier operation
  (or by none) already has, when operation k runs, the contents the whole line ends with.  So the final valuation
  E = after l V satisfies every operation's own equation,

      E y = f (E a) (E b)      for an operation  y := f a b  of the line,

  and a long line can be read one equation at a time, each intermediate value named once however often it is used.
-/
import Idealize.ShloMosaic.Lib.StableHlo.Run

namespace Cert.SingleAssignment

open Idealize.ShloMosaic Idealize.ShloMosaic.StableHlo Idealize.ShloMosaic.TcCoe

variable {τ : Topo} {sig : RefSig} {Val : EltTy → Type}

/-- Running a concatenation is running the first stretch, then the second from what the first leaves. -/
theorem after_app (l₁ l₂ : List (HloOp τ sig Val)) (V : Valuation τ sig Val) :
    after (l₁ ++ l₂) V = after l₂ (after l₁ V) := by
  induction l₁ generalizing V with
  | nil => rfl
  | cons op ops ih => exact ih (op.result V)

/-- No two operations of the line write a common buffer. -/
def Single (l : List (HloOp τ sig Val)) : Prop :=
  l.Pairwise fun o o' => Disjoint o.writes o'.writes

/-- The line writes the buffers `ys`, one per operation, in order, and `key` tells them apart. -/
theorem single_of_keys (l : List (HloOp τ sig Val)) (ys : List (Ref sig .tc)) (key : Ref sig .tc → ℕ)
    (hw : l.map (fun o => o.writes) = ys.map fun y => ({Proc.devRef (τ := τ) .tc y} : Finset (DevRef τ sig)))
    (hk : (ys.map key).Nodup) : Single l := by
  have h1 : (ys.map fun y => ({Proc.devRef (τ := τ) .tc y} : Finset (DevRef τ sig))).Pairwise Disjoint := by
    rw [List.pairwise_map]
    refine (List.pairwise_map.mp hk).imp ?_
    intro a b hab
    rw [Finset.disjoint_singleton]
    exact devRef_ne_of_ne fun e => hab (congrArg key e)
  rw [← hw, List.pairwise_map] at h1
  exact h1

/-- A buffer whose key is not among the keys of the buffers the line writes is written by no operation of it. -/
theorem unwritten_of_keys (l : List (HloOp τ sig Val)) (ys : List (Ref sig .tc)) (key : Ref sig .tc → ℕ)
    (hw : l.map (fun o => o.writes) = ys.map fun y => ({Proc.devRef (τ := τ) .tc y} : Finset (DevRef τ sig)))
    (r : Ref sig .tc) (hr : key r ∉ ys.map key) : ∀ op ∈ l, Proc.devRef (τ := τ) .tc r ∉ op.writes := by
  intro op hop hmem
  have h1 : op.writes ∈ l.map (fun o => o.writes) := List.mem_map.mpr ⟨op, hop, rfl⟩
  rw [hw] at h1
  obtain ⟨y, hy, he⟩ := List.mem_map.mp h1
  rw [← he, Finset.mem_singleton] at hmem
  exact hr (List.mem_map.mpr ⟨y, hy, congrArg key (Proc.devRef_injective _ hmem).symm⟩)

variable {l : List (HloOp τ sig Val)}

/-- A buffer written by operation `i` is written by no operation from position `k > i` on. -/
theorem not_written_from (hl : Single l) {i k : ℕ} (hik : i < k) (hi : i < l.length) {r : DevRef τ sig}
    (hr : r ∈ (l[i]).writes) : ∀ op ∈ l.drop k, r ∉ op.writes := by
  intro op hop hmem
  obtain ⟨j, hj, rfl⟩ := List.getElem_of_mem hop
  rw [List.getElem_drop] at hmem
  have hjl : k + j < l.length := by
    rw [List.length_drop] at hj; omega
  have hd := (List.pairwise_iff_getElem.mp hl) i (k + j) hi hjl (by omega)
  exact (Finset.disjoint_left.mp hd) hr hmem

/-- What the whole line leaves at a buffer written by operation `k`: what operation `k` left there. -/
theorem after_eq_result (hl : Single l) (V : Valuation τ sig Val) {k : ℕ} (hk : k < l.length) {r : DevRef τ sig}
    (hr : r ∈ (l[k]).writes) : after l V r = (l[k]).result (after (l.take k) V) r := by
  have hsplit : l = l.take k ++ (l[k] :: l.drop (k + 1)) := by
    rw [← List.drop_eq_getElem_cons hk, List.take_append_drop]
  conv_lhs => rw [hsplit]
  rw [after_app, after_cons]
  exact after_of_forall_not_mem _ _ (not_written_from hl (Nat.lt_succ_self k) hk hr)

/-- An operand written by an earlier operation `i < k` has, before operation `k`, the contents the whole line ends with. -/
theorem take_eq_of_earlier (hl : Single l) (V : Valuation τ sig Val) {i k : ℕ} (hik : i < k) (hi : i < l.length)
    {r : DevRef τ sig} (hr : r ∈ (l[i]).writes) : after (l.take k) V r = after l V r := by
  conv_rhs => rw [← List.take_append_drop k l, after_app]
  exact (after_of_forall_not_mem _ _ (not_written_from hl hik hi hr)).symm

/-- An operand no operation writes (an argument of the program) keeps its launch contents throughout. -/
theorem take_eq_of_unwritten (V : Valuation τ sig Val) (k : ℕ) {r : DevRef τ sig} (hr : ∀ op ∈ l, r ∉ op.writes) :
    after (l.take k) V r = after l V r := by
  rw [after_of_forall_not_mem _ _ hr, after_of_forall_not_mem _ _ fun op hop => hr op (List.mem_of_mem_take hop)]

section equations

variable (hl : Single l) (V : Valuation τ sig Val) {k : ℕ} (hk : k < l.length)
include hl

/-- The equation of a constant. -/
theorem nullary_eq (y : Ref sig .tc) (v : y.ty.Contents Val) (hy) (hop : l[k] = nullary y v hy) :
    after l V y = v := by
  rw [after_eq_result hl V hk (r := (y : DevRef τ sig)) (by rw [hop]; exact Finset.mem_singleton_self _), hop,
    nullary_result]

/-- The equation of a one-operand operation. -/
theorem unary_eq (x y : Ref sig .tc) (f : x.ty.Contents Val → y.ty.Contents Val) (hx hy)
    (hop : l[k] = unary x y f hx hy)
    (sx : after (l.take k) V x = after l V x) :
    after l V y = f (after l V x) := by
  rw [after_eq_result hl V hk (r := (y : DevRef τ sig)) (by rw [hop]; exact Finset.mem_singleton_self _), hop,
    unary_result, sx]

/-- The equation of a two-operand operation. -/
theorem binary_eq (a b y : Ref sig .tc) (f : a.ty.Contents Val → b.ty.Contents Val → y.ty.Contents Val) (ha hb hy)
    (hop : l[k] = binary a b y f ha hb hy)
    (sa : after (l.take k) V a = after l V a) (sb : after (l.take k) V b = after l V b) :
    after l V y = f (after l V a) (after l V b) := by
  rw [after_eq_result hl V hk (r := (y : DevRef τ sig)) (by rw [hop]; exact Finset.mem_singleton_self _), hop,
    binary_result, sa, sb]

/-- The equation of a three-operand operation. -/
theorem ternary_eq (c a b y : Ref sig .tc)
    (f : c.ty.Contents Val → a.ty.Contents Val → b.ty.Contents Val → y.ty.Contents Val) (hc ha hb hy)
    (hop : l[k] = ternary c a b y f hc ha hb hy)
    (sc : after (l.take k) V c = after l V c) (sa : after (l.take k) V a = after l V a)
    (sb : after (l.take k) V b = after l V b) :
    after l V y = f (after l V c) (after l V a) (after l V b) := by
  rw [after_eq_result hl V hk (r := (y : DevRef τ sig)) (by rw [hop]; exact Finset.mem_singleton_self _), hop,
    ternary_result, sc, sa, sb]

end equations

end Cert.SingleAssignment
-- ==== Proof.RefSingle.lean ====
/-
  The reference's line of operations writes 668 buffers, one per operation and pairwise distinct (told apart by their
  index in the buffer table), and never its argument: the hypotheses under which the final valuation satisfies every
  operation's own equation.
-/
import proofs.«140659_j42700564857293_1_alg».proof.Proof.RefLine
import proofs.«140659_j42700564857293_1_alg».proof.Proof.SingleAssignment

noncomputable section

namespace Cert.ReferenceIdeal.Line

open Cert.ReferenceIdeal Cert.ReferenceIdeal.Gen Idealize.ShloMosaic Idealize.ShloMosaic.TcCoe Idealize.SL.Sem Idealize.ShloMosaic.StableHlo Cert.SingleAssignment

variable {F : FTy → Type} [FloatOps F]

/-- The buffers the operations write, in order. -/
abbrev outs : List (Ref sig .tc) :=
  [ main_c, main_c_0, main_c_1, main_c_2, main_c_3, main_c_4, main_c_5, main_c_6, main_c_7, main_c_8, main_c_9, main_c_10,
    main_c_11, main_c_12, main_c_13, main_c_14, main_c_15, main_c_16, main_c_17, main_c_18, main_c_19, main_c_20, main_c_21, main_c_22,
    main_c_23, main_c_24, main_c_25, main_c_26, main_c_27, main_c_28, main_c_29, main_c_30, main_c_31, main_c_32, main_c_33, main_c_34,
    main_c_35, main_c_36, main_c_37, main_c_38, main_c_39, main_c_40, main_c_41, main_c_42, main_c_43, main_c_44, main_c_45, main_c_46,
    main_c_47, main_c_48, main_c_49, main_c_50, main_c_51, main_c_52, main_c_53, main_c_54, main_c_55, main_c_56, main_c_57, main_c_58,
    main_c_59, main_c_60, main_c_61, main_c_62, main_c_63, main_c_64, main_c_65, main_c_66, main_c_67, main_c_68, main_c_69, main_c_70,
    main_c_71, main_c_72, main_c_73, main_c_74, main_c_75, main_c_76, main_c_77, main_c_78, main_c_79, main_c_80, main_c_81, main_c_82,
    main_c_83, main_c_84, main_c_85, main_c_86, main_c_87, main_c_88, main_c_89, main_c_90, main_c_91, main_c_92, main_c_93, main_c_94,
    main_c_95, main_c_96, main_c_97, main_c_98, main_c_99, main_c_100, main_c_101, main_c_102, main_c_103, main_c_104, main_c_105, main_c_106,
    main_c_107, main_c_108, main_c_109, main_c_110, main_c_111, main_c_112, main_c_113, main_c_114, main_c_115, main_c_116, main_c_117, main_c_118,
    main_c_119, main_c_120, main_c_121, main_c_122, main_c_123, main_c_124, main_c_125, main_c_126, main_c_127, main_c_128, main_c_129, main_c_130,
    main_cst, main_v0, main_v1, main_c_131, main_v2, main_v3, main_v4, main_v5, main_v6, main_c_132, main_v7, main_v8,
    main_v9, main_v10, main_v11, main_v12, main_c_133, main_v13, main_v14, main_v15, main_v16, main_v17, main_c_134, main_v18,
    main_v19, main_v20, main_v21, main_v22, main_c_135, main_v23, main_v24, main_v25, main_v26, main_v27, main_v28, main_c_136,
    main_v29, main_v30, main_v31, main_v32, main_v33, main_c_137, main_v34, main_v35, main_v36, main_v37, main_v38, main_c_138,
    main_v39, main_v40, main_v41, main_v42, main_v43, main_v44, main_c_139, main_v45, main_v46, main_v47, main_v48, main_v49,
    main_c_140, main_v50, main_v51, main_v52, main_v53, main_v54, main_c_141, main_v55, main_v56, main_v57, main_v58, main_v59,
    main_v60, main_c_142, main_v61, main_v62, main_v63, main_v64, main_v65, main_c_143, main_v66, main_v67, main_v68, main_v69,
    main_v70, main_c_144, main_v71, main_v72, main_v73, main_v74, main_v75, main_v76, main_c_145, main_v77, main_v78, main_v79,
    main_v80, main_v81, main_c_146, main_v82, main_v83, main_v84, main_v85, main_v86, main_c_147, main_v87, main_v88, main_v89,
    main_v90, main_v91, main_v92, main_c_148, main_v93, main_v94, main_v95, main_v96, main_v97, main_c_149, main_v98, main_v99,
    main_v100, main_v101, main_v102, main_c_150, main_v103, main_v104, main_v105, main_v106, main_v107, main_v108, main_c_151, main_v109,
    main_v110, main_v111, main_v112, main_v113, main_c_152, main_v114, main_v115, main_v116, main_v117, main_v118, main_c_153, main_v119,
    main_v120, main_v121, main_v122, main_v123, main_v124, main_c_154, main_v125, main_v126, main_v127, main_v128, main_v129, main_c_155,
    main_v130, main_v131, main_v132, main_v133, main_v134, main_c_156, main_v135, main_v136, main_v137, main_v138, main_v139, main_v140,
    main_c_157, main_v141, main_v142, main_v143, main_v144, main_v145, main_c_158, main_v146, main_v147, main_v148, main_v149, main_v150,
    main_c_159, main_v151, main_v152, main_v153, main_v154, main_v155, main_v156, main_c_160, main_v157, main_v158, main_v159, main_v160,
    main_v161, main_c_161, main_v162, main_v163, main_v164, main_v165, main_v166, main_c_162, main_v167, main_v168, main_v169, main_v170,
    main_v171, main_v172, main_c_163, main_v173, main_v174, main_v175, main_v176, main_v177, main_c_164, main_v178, main_v179, main_v180,
    main_v181, main_v182, main_c_165, main_v183, main_v184, main_v185, main_v186, main_v187, main_v188, main_c_166, main_v189, main_v190,
    main_v191, main_v192, main_v193, main_c_167, main_v194, main_v195, main_c_168, main_v196, main_v197, main_v198, main_v199, main_v200,
    main_c_169, main_v201, main_v202, main_v203, main_v204, main_v205, main_c_170, main_v206, main_v207, main_v208, main_v209, main_v210,
    main_v211, main_c_171, main_v212, main_v213, main_v214, main_v215, main_v216, main_c_172, main_v217, main_v218, main_v219, main_v220,
    main_v221, main_c_173, main_v222, main_v223, main_v224, main_v225, main_v226, main_c_174, main_v227, main_v228, main_v229, main_v230,
    main_v231, main_v232, main_c_175, main_v233, main_v234, main_v235, main_v236, main_v237, main_c_176, main_v238, main_v239, main_v240,
    main_v241, main_v242, main_c_177, main_v243, main_v244, main_v245, main_v246, main_v247, main_c_178, main_v248, main_v249, main_v250,
    main_v251, main_v252, main_v253, main_c_179, main_v254, main_v255, main_v256, main_v257, main_v258, main_c_180, main_v259, main_v260,
    main_v261, main_v262, main_v263, main_c_181, main_v264, main_v265, main_v266, main_v267, main_v268, main_c_182, main_v269, main_v270,
    main_v271, main_v272, main_v273, main_v274, main_c_183, main_v275, main_v276, main_v277, main_v278, main_v279, main_c_184, main_v280,
    main_v281, main_v282, main_v283, main_v284, main_c_185, main_v285, main_v286, main_v287, main_v288, main_v289, main_c_186, main_v290,
    main_v291, main_v292, main_v293, main_v294, main_v295, main_c_187, main_v296, main_v297, main_v298, main_v299, main_v300, main_c_188,
    main_v301, main_v302, main_v303, main_v304, main_v305, main_c_189, main_v306, main_v307, main_v308, main_v309, main_v310, main_c_190,
    main_v311, main_v312, main_v313, main_v314, main_v315, main_v316, main_c_191, main_v317, main_v318, main_v319, main_v320, main_v321,
    main_c_192, main_v322, main_v323, main_v324, main_v325, main_v326, main_c_193, main_v327, main_v328, main_v329, main_v330, main_v331,
    main_c_194, main_v332, main_v333, main_v334, main_v335, main_v336, main_v337, main_c_195, main_v338, main_v339, main_v340, main_v341,
    main_v342, main_c_196, main_v343, main_v344, main_v345, main_v346, main_v347, main_c_197, main_v348, main_v349, main_v350, main_v351,
    main_v352, main_c_198, main_v353, main_v354, main_v355, main_v356, main_v357, main_v358, main_c_199, main_v359, main_v360, main_v361,
    main_v362, main_v363, main_c_200, main_v364, main_v365, main_v366, main_v367, main_v368, main_c_201, main_v369, main_v370, main_v371,
    main_v372, main_v373, main_c_202, main_v374, main_v375, main_v376, main_v377, main_v378, main_v379, main_c_203, main_v380, main_v381,
    main_v382, main_v383, main_v384, main_c_204, main_v385, main_v386, main_v387, main_v388, main_v389, main_c_205, main_v390, main_v391,
    main_v392, main_v393, main_v394, main_c_206, main_v395, main_v396, main_v397, main_v398, main_v399, main_v400, main_c_207, main_v401,
    main_v402, main_v403, main_v404, main_v405, main_c_208, main_v406, main_v407, main_v408, main_v409, main_v410, main_c_209, main_v411,
    main_v412, main_v413, main_v414, main_v415, main_c_210, main_v416, main_v417, main_v418, main_v419, main_v420, main_v421, main_c_211,
    main_v422, main_v423, main_v424, main_v425, main_v426, main_c_212, main_v427, main_v428, main_v429, main_v430, main_v431, main_c_213,
    main_v432, main_v433, main_v434, main_v435, main_v436, main_c_214, main_v437, main_v438, main_v439, main_v440, main_v441, main_v442,
    main_c_215, main_v443, main_v444, main_v445, main_v446, main_v447, main_v448, main_v449 ]

/-- A buffer's index in the table of its memory space. -/
abbrev key (r : Ref sig .tc) : ℕ := r.idx.val

set_option maxRecDepth 16384 in
theorem ops_writes : (ops (F := F)).map (fun o => o.writes) = outs.map fun y => ({Proc.devRef (τ := τ) .tc y} : Finset (DevRef τ sig)) := rfl
set_option maxRecDepth 16384 in
/-- The written buffers are the table's entries 1, 2, …, 668, in this order. -/
theorem outs_keys : outs.map key = List.range' 1 668 := by decide +kernel
theorem outs_nodup : (outs.map key).Nodup := by
  rw [outs_keys]
  exact List.nodup_range' 1 Nat.one_pos
theorem ops_single : Single (ops (F := F)) := single_of_keys _ outs key ops_writes outs_nodup
set_option maxRecDepth 16384 in
theorem arg0_unwritten : ∀ op ∈ (ops (F := F)), Proc.devRef (τ := τ) .tc main_arg0 ∉ op.writes :=
  unwritten_of_keys _ outs key ops_writes main_arg0 (by decide)
set_option maxRecDepth 16384 in
theorem ops_length : (ops (F := F)).length = 668 := rfl

end Cert.ReferenceIdeal.Line

end
-- ==== Proof.RefEq0.lean ====
/-
  The equations of the reference's operations in its window 0: what the whole line leaves at each operation's result is
  the operation's function of what the whole line leaves at its operands.
-/
import proofs.«140659_j42700564857293_1_alg».proof.Proof.RefSingle

noncomputable section

namespace Cert.ReferenceIdeal.Line

open Cert.ReferenceIdeal Cert.ReferenceIdeal.Gen Idealize.ShloMosaic Idealize.ShloMosaic.TcCoe Idealize.SL.Sem Idealize.ShloMosaic.StableHlo Cert.SingleAssignment

variable {F : FTy → Type} [FloatOps F]

theorem eq_main_c (V : Valuation τ sig (Elt F)) :
    after (ops (F := F)) V main_c = (fun i => lit0 (S2048.rowMajor i)) :=
  nullary_eq ops_single V (lt_of_lt_of_eq (by decide : 0 < 668) ops_length.symm) main_c (fun i => lit0 (S2048.rowMajor i)) ⟨by decide, rfl⟩ rfl
theorem eq_main_c_0 (V : Valuation τ sig (Elt F)) :
    after (ops (F := F)) V main_c_0 = (constantI S2048 1 0#1) :=
  nullary_eq ops_single V (lt_of_lt_of_eq (by decide : 1 < 668) ops_length.symm) main_c_0 (constantI S2048 1 0#1) ⟨by decide, rfl⟩ rfl
theorem eq_main_c_1 (V : Valuation τ sig (Elt F)) :
    after (ops (F := F)) V main_c_1 = (fun i => lit1 (S2048.rowMajor i)) :=
  nullary_eq ops_single V (lt_of_lt_of_eq (by decide : 2 < 668) ops_length.symm) main_c_1 (fun i => lit1 (S2048.rowMajor i)) ⟨by decide, rfl⟩ rfl
theorem eq_main_c_2 (V : Valuation τ sig (Elt F)) :
    after (ops (F := F)) V main_c_2 = (constantI S2048 1 0#1) :=
  nullary_eq ops_single V (lt_of_lt_of_eq (by decide : 3 < 668) ops_length.symm) main_c_2 (constantI S2048 1 0#1) ⟨by decide, rfl⟩ rfl
theorem eq_main_c_3 (V : Valuation τ sig (Elt F)) :
    after (ops (F := F)) V main_c_3 = (constantI S2048 1 0#1) :=
  nullary_eq ops_single V (lt_of_lt_of_eq (by decide : 4 < 668) ops_length.symm) main_c_3 (constantI S2048 1 0#1) ⟨by decide, rfl⟩ rfl
theorem eq_main_c_4 (V : Valuation τ sig (Elt F)) :
    after (ops (F := F)) V main_c_4 = (fun i => lit2 (S1024.rowMajor i)) :=
  nullary_eq ops_single V (lt_of_lt_of_eq (by decide : 5 < 668) ops_length.symm) main_c_4 (fun i => lit2 (S1024.rowMajor i)) ⟨by decide, rfl⟩ rfl
theorem eq_main_c_5 (V : Valuation τ sig (Elt F)) :
    after (ops (F := F)) V main_c_5 = (constantI S1024 1 0#1) :=
  nullary_eq ops_single V (lt_of_lt_of_eq (by decide : 6 < 668) ops_length.symm) main_c_5 (constantI S1024 1 0#1) ⟨by decide, rfl⟩ rfl
theorem eq_main_c_6 (V : Valuation τ sig (Elt F)) :
    after (ops (F := F)) V main_c_6 = (fun i => lit3 (S1024.rowMajor i)) :=
  nullary_eq ops_single V (lt_of_lt_of_eq (by decide : 7 < 668) ops_length.symm) main_c_6 (fun i => lit3 (S1024.rowMajor i)) ⟨by decide, rfl⟩ rfl
theorem eq_main_c_7 (V : Valuation τ sig (Elt F)) :
    after (ops (F := F)) V main_c_7 = (constantI S1024 1 0#1) :=
  nullary_eq ops_single V (lt_of_lt_of_eq (by decide : 8 < 668) ops_length.symm) main_c_7 (constantI S1024 1 0#1) ⟨by decide, rfl⟩ rfl
theorem eq_main_c_8 (V : Valuation τ sig (Elt F)) :
    after (ops (F := F)) V main_c_8 = (constantI S1024 1 0#1) :=
  nullary_eq ops_single V (lt_of_lt_of_eq (by decide : 9 < 668) ops_length.symm) main_c_8 (constantI S1024 1 0#1) ⟨by decide, rfl⟩ rfl
theorem eq_main_c_9 (V : Valuation τ sig (Elt F)) :
    after (ops (F := F)) V main_c_9 = (fun i => lit4 (S512.rowMajor i)) :=
  nullary_eq ops_single V (lt_of_lt_of_eq (by decide : 10 < 668) ops_length.symm) main_c_9 (fun i => lit4 (S512.rowMajor i)) ⟨by decide, rfl⟩ rfl
theorem eq_main_c_10 (V : Valuation τ sig (Elt F)) :
    after (ops (F := F)) V main_c_10 = (constantI S512 1 0#1) :=
  nullary_eq ops_single V (lt_of_lt_of_eq (by decide : 11 < 668) ops_length.symm) main_c_10 (constantI S512 1 0#1) ⟨by decide, rfl⟩ rfl
theorem eq_main_c_11 (V : Valuation τ sig (Elt F)) :
    after (ops (F := F)) V main_c_11 = (fun i => lit5 (S512.rowMajor i)) :=
  nullary_eq ops_single V (lt_of_lt_of_eq (by decide : 12 < 668) ops_length.symm) main_c_11 (fun i => lit5 (S512.rowMajor i)) ⟨by decide, rfl⟩ rfl
theorem eq_main_c_12 (V : Valuation τ sig (Elt F)) :
    after (ops (F := F)) V main_c_12 = (constantI S512 1 0#1) :=
  nullary_eq ops_single V (lt_of_lt_of_eq (by decide : 13 < 668) ops_length.symm) main_c_12 (constantI S512 1 0#1) ⟨by decide, rfl⟩ rfl
theorem eq_main_c_13 (V : Valuation τ sig (Elt F)) :
    after (ops (F := F)) V main_c_13 = (constantI S512 1 0#1) :=
  nullary_eq ops_single V (lt_of_lt_of_eq (by decide : 14 < 668) ops_length.symm) main_c_13 (constantI S512 1 0#1) ⟨by decide, rfl⟩ rfl
theorem eq_main_c_14 (V : Valuation τ sig (Elt F)) :
    after (ops (F := F)) V main_c_14 = (fun i => lit6 (S256.rowMajor i)) :=
  nullary_eq ops_single V (lt_of_lt_of_eq (by decide : 15 < 668) ops_length.symm) main_c_14 (fun i => lit6 (S256.rowMajor i)) ⟨by decide, rfl⟩ rfl
theorem eq_main_c_15 (V : Valuation τ sig (Elt F)) :
    after (ops (F := F)) V main_c_15 = (constantI S256 1 0#1) :=
  nullary_eq ops_single V (lt_of_lt_of_eq (by decide : 16 < 668) ops_length.symm) main_c_15 (constantI S256 1 0#1) ⟨by decide, rfl⟩ rfl
theorem eq_main_c_16 (V : Valuation τ sig (Elt F)) :
    after (ops (F := F)) V main_c_16 = (fun i => lit7 (S256.rowMajor i)) :=
  nullary_eq ops_single V (lt_of_lt_of_eq (by decide : 17 < 668) ops_length.symm) main_c_16 (fun i => lit7 (S256.rowMajor i)) ⟨by decide, rfl⟩ rfl
theorem eq_main_c_17 (V : Valuation τ sig (Elt F)) :
    after (ops (F := F)) V main_c_17 = (constantI S256 1 0#1) :=
  nullary_eq ops_single V (lt_of_lt_of_eq (by decide : 18 < 668) ops_length.symm) main_c_17 (constantI S256 1 0#1) ⟨by decide, rfl⟩ rfl
theorem eq_main_c_18 (V : Valuation τ sig (Elt F)) :
    after (ops (F := F)) V main_c_18 = (constantI S256 1 0#1) :=
  nullary_eq ops_single V (lt_of_lt_of_eq (by decide : 19 < 668) ops_length.symm) main_c_18 (constantI S256 1 0#1) ⟨by decide, rfl⟩ rfl
theorem eq_main_c_19 (V : Valuation τ sig (Elt F)) :
    after (ops (F := F)) V main_c_19 = (fun i => lit8 (S128.rowMajor i)) :=
  nullary_eq ops_single V (lt_of_lt_of_eq (by decide : 20 < 668) ops_length.symm) main_c_19 (fun i => lit8 (S128.rowMajor i)) ⟨by decide, rfl⟩ rfl
theorem eq_main_c_20 (V : Valuation τ sig (Elt F)) :
    after (ops (F := F)) V main_c_20 = (constantI S128 1 0#1) :=
  nullary_eq ops_single V (lt_of_lt_of_eq (by decide : 21 < 668) ops_length.symm) main_c_20 (constantI S128 1 0#1) ⟨by decide, rfl⟩ rfl
theorem eq_main_c_21 (V : Valuation τ sig (Elt F)) :
    after (ops (F := F)) V main_c_21 = (fun i => lit9 (S128.rowMajor i)) :=
  nullary_eq ops_single V (lt_of_lt_of_eq (by decide : 22 < 668) ops_length.symm) main_c_21 (fun i => lit9 (S128.rowMajor i)) ⟨by decide, rfl⟩ rfl
theorem eq_main_c_22 (V : Valuation τ sig (Elt F)) :
    after (ops (F := F)) V main_c_22 = (constantI S128 1 0#1) :=
  nullary_eq ops_single V (lt_of_lt_of_eq (by decide : 23 < 668) ops_length.symm) main_c_22 (constantI S128 1 0#1) ⟨by decide, rfl⟩ rfl
theorem eq_main_c_23 (V : Valuation τ sig (Elt F)) :
    after (ops (F := F)) V main_c_23 = (constantI S128 1 0#1) :=
  nullary_eq ops_single V (lt_of_lt_of_eq (by decide : 24 < 668) ops_length.symm) main_c_23 (constantI S128 1 0#1) ⟨by decide, rfl⟩ rfl
theorem eq_main_c_24 (V : Valuation τ sig (Elt F)) :
    after (ops (F := F)) V main_c_24 = (fun i => lit10 (S64.rowMajor i)) :=
  nullary_eq ops_single V (lt_of_lt_of_eq (by decide : 25 < 668) ops_length.symm) main_c_24 (fun i => lit10 (S64.rowMajor i)) ⟨by decide, rfl⟩ rfl
theorem eq_main_c_25 (V : Valuation τ sig (Elt F)) :
    after (ops (F := F)) V main_c_25 = (constantI S64 1 0#1) :=
  nullary_eq ops_single V (lt_of_lt_of_eq (by decide : 26 < 668) ops_length.symm) main_c_25 (constantI S64 1 0#1) ⟨by decide, rfl⟩ rfl
theorem eq_main_c_26 (V : Valuation τ sig (Elt F)) :
    after (ops (F := F)) V main_c_26 = (fun i => lit11 (S64.rowMajor i)) :=
  nullary_eq ops_single V (lt_of_lt_of_eq (by decide : 27 < 668) ops_length.symm) main_c_26 (fun i => lit11 (S64.rowMajor i)) ⟨by decide, rfl⟩ rfl
theorem eq_main_c_27 (V : Valuation τ sig (Elt F)) :
    after (ops (F := F)) V main_c_27 = (constantI S64 1 0#1) :=
  nullary_eq ops_single V (lt_of_lt_of_eq (by decide : 28 < 668) ops_length.symm) main_c_27 (constantI S64 1 0#1) ⟨by decide, rfl⟩ rfl
theorem eq_main_c_28 (V : Valuation τ sig (Elt F)) :
    after (ops (F := F)) V main_c_28 = (constantI S64 1 0#1) :=
  nullary_eq ops_single V (lt_of_lt_of_eq (by decide : 29 < 668) ops_length.symm) main_c_28 (constantI S64 1 0#1) ⟨by decide, rfl⟩ rfl
theorem eq_main_c_29 (V : Valuation τ sig (Elt F)) :
    after (ops (F := F)) V main_c_29 = (fun i => lit12 (S32.rowMajor i)) :=
  nullary_eq ops_single V (lt_of_lt_of_eq (by decide : 30 < 668) ops_length.symm) main_c_29 (fun i => lit12 (S32.rowMajor i)) ⟨by decide, rfl⟩ rfl
theorem eq_main_c_30 (V : Valuation τ sig (Elt F)) :
    after (ops (F := F)) V main_c_30 = (constantI S32 1 0#1) :=
  nullary_eq ops_single V (lt_of_lt_of_eq (by decide : 31 < 668) ops_length.symm) main_c_30 (constantI S32 1 0#1) ⟨by decide, rfl⟩ rfl
theorem eq_main_c_31 (V : Valuation τ sig (Elt F)) :
    after (ops (F := F)) V main_c_31 = (fun i => lit13 (S32.rowMajor i)) :=
  nullary_eq ops_single V (lt_of_lt_of_eq (by decide : 32 < 668) ops_length.symm) main_c_31 (fun i => lit13 (S32.rowMajor i)) ⟨by decide, rfl⟩ rfl
theorem eq_main_c_32 (V : Valuation τ sig (Elt F)) :
    after (ops (F := F)) V main_c_32 = (constantI S32 1 0#1) :=
  nullary_eq ops_single V (lt_of_lt_of_eq (by decide : 33 < 668) ops_length.symm) main_c_32 (constantI S32 1 0#1) ⟨by decide, rfl⟩ rfl
theorem eq_main_c_33 (V : Valuation τ sig (Elt F)) :
    after (ops (F := F)) V main_c_33 = (constantI S32 1 0#1) :=
  nullary_eq ops_single V (lt_of_lt_of_eq (by decide : 34 < 668) ops_length.symm) main_c_33 (constantI S32 1 0#1) ⟨by decide, rfl⟩ rfl
theorem eq_main_c_34 (V : Valuation τ sig (Elt F)) :
    after (ops (F := F)) V main_c_34 = (fun i => lit14 (S16.rowMajor i)) :=
  nullary_eq ops_single V (lt_of_lt_of_eq (by decide : 35 < 668) ops_length.symm) main_c_34 (fun i => lit14 (S16.rowMajor i)) ⟨by decide, rfl⟩ rfl
theorem eq_main_c_35 (V : Valuation τ sig (Elt F)) :
    after (ops (F := F)) V main_c_35 = (constantI S16 1 0#1) :=
  nullary_eq ops_single V (lt_of_lt_of_eq (by decide : 36 < 668) ops_length.symm) main_c_35 (constantI S16 1 0#1) ⟨by decide, rfl⟩ rfl
theorem eq_main_c_36 (V : Valuation τ sig (Elt F)) :
    after (ops (F := F)) V main_c_36 = (fun i => lit15 (S16.rowMajor i)) :=
  nullary_eq ops_single V (lt_of_lt_of_eq (by decide : 37 < 668) ops_length.symm) main_c_36 (fun i => lit15 (S16.rowMajor i)) ⟨by decide, rfl⟩ rfl
theorem eq_main_c_37 (V : Valuation τ sig (Elt F)) :
    after (ops (F := F)) V main_c_37 = (constantI S16 1 0#1) :=
  nullary_eq ops_single V (lt_of_lt_of_eq (by decide : 38 < 668) ops_length.symm) main_c_37 (constantI S16 1 0#1) ⟨by decide, rfl⟩ rfl
theorem eq_main_c_38 (V : Valuation τ sig (Elt F)) :
    after (ops (F := F)) V main_c_38 = (constantI S16 1 0#1) :=
  nullary_eq ops_single V (lt_of_lt_of_eq (by decide : 39 < 668) ops_length.symm) main_c_38 (constantI S16 1 0#1) ⟨by decide, rfl⟩ rfl
theorem eq_main_c_39 (V : Valuation τ sig (Elt F)) :
    after (ops (F := F)) V main_c_39 = (fun i => lit16 (S8.rowMajor i)) :=
  nullary_eq ops_single V (lt_of_lt_of_eq (by decide : 40 < 668) ops_length.symm) main_c_39 (fun i => lit16 (S8.rowMajor i)) ⟨by decide, rfl⟩ rfl
theorem eq_main_c_40 (V : Valuation τ sig (Elt F)) :
    after (ops (F := F)) V main_c_40 = (constantI S8 1 0#1) :=
  nullary_eq ops_single V (lt_of_lt_of_eq (by decide : 41 < 668) ops_length.symm) main_c_40 (constantI S8 1 0#1) ⟨by decide, rfl⟩ rfl
theorem eq_main_c_41 (V : Valuation τ sig (Elt F)) :
    after (ops (F := F)) V main_c_41 = (fun i => lit17 (S8.rowMajor i)) :=
  nullary_eq ops_single V (lt_of_lt_of_eq (by decide : 42 < 668) ops_length.symm) main_c_41 (fun i => lit17 (S8.rowMajor i)) ⟨by decide, rfl⟩ rfl
theorem eq_main_c_42 (V : Valuation τ sig (Elt F)) :
    after (ops (F := F)) V main_c_42 = (constantI S8 1 0#1) :=
  nullary_eq ops_single V (lt_of_lt_of_eq (by decide : 43 < 668) ops_length.symm) main_c_42 (constantI S8 1 0#1) ⟨by decide, rfl⟩ rfl
theorem eq_main_c_43 (V : Valuation τ sig (Elt F)) :
    after (ops (F := F)) V main_c_43 = (constantI S8 1 0#1) :=
  nullary_eq ops_single V (lt_of_lt_of_eq (by decide : 44 < 668) ops_length.symm) main_c_43 (constantI S8 1 0#1) ⟨by decide, rfl⟩ rfl
theorem eq_main_c_44 (V : Valuation τ sig (Elt F)) :
    after (ops (F := F)) V main_c_44 = (fun i => lit18 (S4.rowMajor i)) :=
  nullary_eq ops_single V (lt_of_lt_of_eq (by decide : 45 < 668) ops_length.symm) main_c_44 (fun i => lit18 (S4.rowMajor i)) ⟨by decide, rfl⟩ rfl
theorem eq_main_c_45 (V : Valuation τ sig (Elt F)) :
    after (ops (F := F)) V main_c_45 = (constantI S4 1 0#1) :=
  nullary_eq ops_single V (lt_of_lt_of_eq (by decide : 46 < 668) ops_length.symm) main_c_45 (constantI S4 1 0#1) ⟨by decide, rfl⟩ rfl
theorem eq_main_c_46 (V : Valuation τ sig (Elt F)) :
    after (ops (F := F)) V main_c_46 = (fun i => lit19 (S4.rowMajor i)) :=
  nullary_eq ops_single V (lt_of_lt_of_eq (by decide : 47 < 668) ops_length.symm) main_c_46 (fun i => lit19 (S4.rowMajor i)) ⟨by decide, rfl⟩ rfl
theorem eq_main_c_47 (V : Valuation τ sig (Elt F)) :
    after (ops (F := F)) V main_c_47 = (constantI S4 1 0#1) :=
  nullary_eq ops_single V (lt_of_lt_of_eq (by decide : 48 < 668) ops_length.symm) main_c_47 (constantI S4 1 0#1) ⟨by decide, rfl⟩ rfl
theorem eq_main_c_48 (V : Valuation τ sig (Elt F)) :
    after (ops (F := F)) V main_c_48 = (constantI S4 1 0#1) :=
  nullary_eq ops_single V (lt_of_lt_of_eq (by decide : 49 < 668) ops_length.symm) main_c_48 (constantI S4 1 0#1) ⟨by decide, rfl⟩ rfl
theorem eq_main_c_49 (V : Valuation τ sig (Elt F)) :
    after (ops (F := F)) V main_c_49 = (fun i => lit20 (S2.rowMajor i)) :=
  nullary_eq ops_single V (lt_of_lt_of_eq (by decide : 50 < 668) ops_length.symm) main_c_49 (fun i => lit20 (S2.rowMajor i)) ⟨by decide, rfl⟩ rfl
theorem eq_main_c_50 (V : Valuation τ sig (Elt F)) :
    after (ops (F := F)) V main_c_50 = (constantI S2 1 0#1) :=
  nullary_eq ops_single V (lt_of_lt_of_eq (by decide : 51 < 668) ops_length.symm) main_c_50 (constantI S2 1 0#1) ⟨by decide, rfl⟩ rfl
theorem eq_main_c_51 (V : Valuation τ sig (Elt F)) :
    after (ops (F := F)) V main_c_51 = (fun i => lit21 (S2.rowMajor i)) :=
  nullary_eq ops_single V (lt_of_lt_of_eq (by decide : 52 < 668) ops_length.symm) main_c_51 (fun i => lit21 (S2.rowMajor i)) ⟨by decide, rfl⟩ rfl
theorem eq_main_c_52 (V : Valuation τ sig (Elt F)) :
    after (ops (F := F)) V main_c_52 = (constantI S2 1 0#1) :=
  nullary_eq ops_single V (lt_of_lt_of_eq (by decide : 53 < 668) ops_length.symm) main_c_52 (constantI S2 1 0#1) ⟨by decide, rfl⟩ rfl
theorem eq_main_c_53 (V : Valuation τ sig (Elt F)) :
    after (ops (F := F)) V main_c_53 = (constantI S2 1 0#1) :=
  nullary_eq ops_single V (lt_of_lt_of_eq (by decide : 54 < 668) ops_length.symm) main_c_53 (constantI S2 1 0#1) ⟨by decide, rfl⟩ rfl
theorem eq_main_c_54 (V : Valuation τ sig (Elt F)) :
    after (ops (F := F)) V main_c_54 = (constantI S1 32 2047#32) :=
  nullary_eq ops_single V (lt_of_lt_of_eq (by decide : 55 < 668) ops_length.symm) main_c_54 (constantI S1 32 2047#32) ⟨by decide, rfl⟩ rfl
theorem eq_main_c_55 (V : Valuation τ sig (Elt F)) :
    after (ops (F := F)) V main_c_55 = (constantI S1 1 0#1) :=
  nullary_eq ops_single V (lt_of_lt_of_eq (by decide : 56 < 668) ops_length.symm) main_c_55 (constantI S1 1 0#1) ⟨by decide, rfl⟩ rfl
theorem eq_main_c_56 (V : Valuation τ sig (Elt F)) :
    after (ops (F := F)) V main_c_56 = (constantI S1 32 4095#32) :=
  nullary_eq ops_single V (lt_of_lt_of_eq (by decide : 57 < 668) ops_length.symm) main_c_56 (constantI S1 32 4095#32) ⟨by decide, rfl⟩ rfl
theorem eq_main_c_57 (V : Valuation τ sig (Elt F)) :
    after (ops (F := F)) V main_c_57 = (constantI S1 1 0#1) :=
  nullary_eq ops_single V (lt_of_lt_of_eq (by decide : 58 < 668) ops_length.symm) main_c_57 (constantI S1 1 0#1) ⟨by decide, rfl⟩ rfl
theorem eq_main_c_58 (V : Valuation τ sig (Elt F)) :
    after (ops (F := F)) V main_c_58 = (constantI S1 1 0#1) :=
  nullary_eq ops_single V (lt_of_lt_of_eq (by decide : 59 < 668) ops_length.symm) main_c_58 (constantI S1 1 0#1) ⟨by decide, rfl⟩ rfl

end Cert.ReferenceIdeal.Line

end
-- ==== Proof.RefEq1.lean ====
/-
  The equations of the reference's operations in its window 1: what the whole line leaves at each operation's result is
  the operation's function of what the whole line leaves at its operands.
-/
import proofs.«140659_j42700564857293_1_alg».proof.Proof.RefSingle

noncomputable section

namespace Cert.ReferenceIdeal.Line

open Cert.ReferenceIdeal Cert.ReferenceIdeal.Gen Idealize.ShloMosaic Idealize.ShloMosaic.TcCoe Idealize.SL.Sem Idealize.ShloMosaic.StableHlo Cert.SingleAssignment

variable {F : FTy → Type} [FloatOps F]

theorem eq_main_c_59 (V : Valuation τ sig (Elt F)) :
    after (ops (F := F)) V main_c_59 = (constantI S1 32 2047#32) :=
  nullary_eq ops_single V (lt_of_lt_of_eq (by decide : 60 < 668) ops_length.symm) main_c_59 (constantI S1 32 2047#32) ⟨by decide, rfl⟩ rfl
theorem eq_main_c_60 (V : Valuation τ sig (Elt F)) :
    after (ops (F := F)) V main_c_60 = (constantI S1 1 0#1) :=
  nullary_eq ops_single V (lt_of_lt_of_eq (by decide : 61 < 668) ops_length.symm) main_c_60 (constantI S1 1 0#1) ⟨by decide, rfl⟩ rfl
theorem eq_main_c_61 (V : Valuation τ sig (Elt F)) :
    after (ops (F := F)) V main_c_61 = (constantI S1 32 4095#32) :=
  nullary_eq ops_single V (lt_of_lt_of_eq (by decide : 62 < 668) ops_length.symm) main_c_61 (constantI S1 32 4095#32) ⟨by decide, rfl⟩ rfl
theorem eq_main_c_62 (V : Valuation τ sig (Elt F)) :
    after (ops (F := F)) V main_c_62 = (constantI S1 1 0#1) :=
  nullary_eq ops_single V (lt_of_lt_of_eq (by decide : 63 < 668) ops_length.symm) main_c_62 (constantI S1 1 0#1) ⟨by decide, rfl⟩ rfl
theorem eq_main_c_63 (V : Valuation τ sig (Elt F)) :
    after (ops (F := F)) V main_c_63 = (constantI S1 1 0#1) :=
  nullary_eq ops_single V (lt_of_lt_of_eq (by decide : 64 < 668) ops_length.symm) main_c_63 (constantI S1 1 0#1) ⟨by decide, rfl⟩ rfl
theorem eq_main_c_64 (V : Valuation τ sig (Elt F)) :
    after (ops (F := F)) V main_c_64 = (constantI S1 1 0#1) :=
  nullary_eq ops_single V (lt_of_lt_of_eq (by decide : 65 < 668) ops_length.symm) main_c_64 (constantI S1 1 0#1) ⟨by decide, rfl⟩ rfl
theorem eq_main_c_65 (V : Valuation τ sig (Elt F)) :
    after (ops (F := F)) V main_c_65 = (fun i => lit22 (S2.rowMajor i)) :=
  nullary_eq ops_single V (lt_of_lt_of_eq (by decide : 66 < 668) ops_length.symm) main_c_65 (fun i => lit22 (S2.rowMajor i)) ⟨by decide, rfl⟩ rfl
theorem eq_main_c_66 (V : Valuation τ sig (Elt F)) :
    after (ops (F := F)) V main_c_66 = (constantI S2 1 0#1) :=
  nullary_eq ops_single V (lt_of_lt_of_eq (by decide : 67 < 668) ops_length.symm) main_c_66 (constantI S2 1 0#1) ⟨by decide, rfl⟩ rfl
theorem eq_main_c_67 (V : Valuation τ sig (Elt F)) :
    after (ops (F := F)) V main_c_67 = (fun i => lit23 (S2.rowMajor i)) :=
  nullary_eq ops_single V (lt_of_lt_of_eq (by decide : 68 < 668) ops_length.symm) main_c_67 (fun i => lit23 (S2.rowMajor i)) ⟨by decide, rfl⟩ rfl
theorem eq_main_c_68 (V : Valuation τ sig (Elt F)) :
    after (ops (F := F)) V main_c_68 = (constantI S2 1 0#1) :=
  nullary_eq ops_single V (lt_of_lt_of_eq (by decide : 69 < 668) ops_length.symm) main_c_68 (constantI S2 1 0#1) ⟨by decide, rfl⟩ rfl
theorem eq_main_c_69 (V : Valuation τ sig (Elt F)) :
    after (ops (F := F)) V main_c_69 = (constantI S2 1 0#1) :=
  nullary_eq ops_single V (lt_of_lt_of_eq (by decide : 70 < 668) ops_length.symm) main_c_69 (constantI S2 1 0#1) ⟨by decide, rfl⟩ rfl
theorem eq_main_c_70 (V : Valuation τ sig (Elt F)) :
    after (ops (F := F)) V main_c_70 = (constantI S2 1 0#1) :=
  nullary_eq ops_single V (lt_of_lt_of_eq (by decide : 71 < 668) ops_length.symm) main_c_70 (constantI S2 1 0#1) ⟨by decide, rfl⟩ rfl
theorem eq_main_c_71 (V : Valuation τ sig (Elt F)) :
    after (ops (F := F)) V main_c_71 = (fun i => lit24 (S4.rowMajor i)) :=
  nullary_eq ops_single V (lt_of_lt_of_eq (by decide : 72 < 668) ops_length.symm) main_c_71 (fun i => lit24 (S4.rowMajor i)) ⟨by decide, rfl⟩ rfl
theorem eq_main_c_72 (V : Valuation τ sig (Elt F)) :
    after (ops (F := F)) V main_c_72 = (constantI S4 1 0#1) :=
  nullary_eq ops_single V (lt_of_lt_of_eq (by decide : 73 < 668) ops_length.symm) main_c_72 (constantI S4 1 0#1) ⟨by decide, rfl⟩ rfl
theorem eq_main_c_73 (V : Valuation τ sig (Elt F)) :
    after (ops (F := F)) V main_c_73 = (fun i => lit25 (S4.rowMajor i)) :=
  nullary_eq ops_single V (lt_of_lt_of_eq (by decide : 74 < 668) ops_length.symm) main_c_73 (fun i => lit25 (S4.rowMajor i)) ⟨by decide, rfl⟩ rfl
theorem eq_main_c_74 (V : Valuation τ sig (Elt F)) :
    after (ops (F := F)) V main_c_74 = (constantI S4 1 0#1) :=
  nullary_eq ops_single V (lt_of_lt_of_eq (by decide : 75 < 668) ops_length.symm) main_c_74 (constantI S4 1 0#1) ⟨by decide, rfl⟩ rfl
theorem eq_main_c_75 (V : Valuation τ sig (Elt F)) :
    after (ops (F := F)) V main_c_75 = (constantI S4 1 0#1) :=
  nullary_eq ops_single V (lt_of_lt_of_eq (by decide : 76 < 668) ops_length.symm) main_c_75 (constantI S4 1 0#1) ⟨by decide, rfl⟩ rfl
theorem eq_main_c_76 (V : Valuation τ sig (Elt F)) :
    after (ops (F := F)) V main_c_76 = (constantI S4 1 0#1) :=
  nullary_eq ops_single V (lt_of_lt_of_eq (by decide : 77 < 668) ops_length.symm) main_c_76 (constantI S4 1 0#1) ⟨by decide, rfl⟩ rfl
theorem eq_main_c_77 (V : Valuation τ sig (Elt F)) :
    after (ops (F := F)) V main_c_77 = (fun i => lit26 (S8.rowMajor i)) :=
  nullary_eq ops_single V (lt_of_lt_of_eq (by decide : 78 < 668) ops_length.symm) main_c_77 (fun i => lit26 (S8.rowMajor i)) ⟨by decide, rfl⟩ rfl
theorem eq_main_c_78 (V : Valuation τ sig (Elt F)) :
    after (ops (F := F)) V main_c_78 = (constantI S8 1 0#1) :=
  nullary_eq ops_single V (lt_of_lt_of_eq (by decide : 79 < 668) ops_length.symm) main_c_78 (constantI S8 1 0#1) ⟨by decide, rfl⟩ rfl
theorem eq_main_c_79 (V : Valuation τ sig (Elt F)) :
    after (ops (F := F)) V main_c_79 = (fun i => lit27 (S8.rowMajor i)) :=
  nullary_eq ops_single V (lt_of_lt_of_eq (by decide : 80 < 668) ops_length.symm) main_c_79 (fun i => lit27 (S8.rowMajor i)) ⟨by decide, rfl⟩ rfl
theorem eq_main_c_80 (V : Valuation τ sig (Elt F)) :
    after (ops (F := F)) V main_c_80 = (constantI S8 1 0#1) :=
  nullary_eq ops_single V (lt_of_lt_of_eq (by decide : 81 < 668) ops_length.symm) main_c_80 (constantI S8 1 0#1) ⟨by decide, rfl⟩ rfl
theorem eq_main_c_81 (V : Valuation τ sig (Elt F)) :
    after (ops (F := F)) V main_c_81 = (constantI S8 1 0#1) :=
  nullary_eq ops_single V (lt_of_lt_of_eq (by decide : 82 < 668) ops_length.symm) main_c_81 (constantI S8 1 0#1) ⟨by decide, rfl⟩ rfl
theorem eq_main_c_82 (V : Valuation τ sig (Elt F)) :
    after (ops (F := F)) V main_c_82 = (constantI S8 1 0#1) :=
  nullary_eq ops_single V (lt_of_lt_of_eq (by decide : 83 < 668) ops_length.symm) main_c_82 (constantI S8 1 0#1) ⟨by decide, rfl⟩ rfl
theorem eq_main_c_83 (V : Valuation τ sig (Elt F)) :
    after (ops (F := F)) V main_c_83 = (fun i => lit28 (S16.rowMajor i)) :=
  nullary_eq ops_single V (lt_of_lt_of_eq (by decide : 84 < 668) ops_length.symm) main_c_83 (fun i => lit28 (S16.rowMajor i)) ⟨by decide, rfl⟩ rfl
theorem eq_main_c_84 (V : Valuation τ sig (Elt F)) :
    after (ops (F := F)) V main_c_84 = (constantI S16 1 0#1) :=
  nullary_eq ops_single V (lt_of_lt_of_eq (by decide : 85 < 668) ops_length.symm) main_c_84 (constantI S16 1 0#1) ⟨by decide, rfl⟩ rfl
theorem eq_main_c_85 (V : Valuation τ sig (Elt F)) :
    after (ops (F := F)) V main_c_85 = (fun i => lit29 (S16.rowMajor i)) :=
  nullary_eq ops_single V (lt_of_lt_of_eq (by decide : 86 < 668) ops_length.symm) main_c_85 (fun i => lit29 (S16.rowMajor i)) ⟨by decide, rfl⟩ rfl
theorem eq_main_c_86 (V : Valuation τ sig (Elt F)) :
    after (ops (F := F)) V main_c_86 = (constantI S16 1 0#1) :=
  nullary_eq ops_single V (lt_of_lt_of_eq (by decide : 87 < 668) ops_length.symm) main_c_86 (constantI S16 1 0#1) ⟨by decide, rfl⟩ rfl
theorem eq_main_c_87 (V : Valuation τ sig (Elt F)) :
    after (ops (F := F)) V main_c_87 = (constantI S16 1 0#1) :=
  nullary_eq ops_single V (lt_of_lt_of_eq (by decide : 88 < 668) ops_length.symm) main_c_87 (constantI S16 1 0#1) ⟨by decide, rfl⟩ rfl
theorem eq_main_c_88 (V : Valuation τ sig (Elt F)) :
    after (ops (F := F)) V main_c_88 = (constantI S16 1 0#1) :=
  nullary_eq ops_single V (lt_of_lt_of_eq (by decide : 89 < 668) ops_length.symm) main_c_88 (constantI S16 1 0#1) ⟨by decide, rfl⟩ rfl
theorem eq_main_c_89 (V : Valuation τ sig (Elt F)) :
    after (ops (F := F)) V main_c_89 = (fun i => lit30 (S32.rowMajor i)) :=
  nullary_eq ops_single V (lt_of_lt_of_eq (by decide : 90 < 668) ops_length.symm) main_c_89 (fun i => lit30 (S32.rowMajor i)) ⟨by decide, rfl⟩ rfl
theorem eq_main_c_90 (V : Valuation τ sig (Elt F)) :
    after (ops (F := F)) V main_c_90 = (constantI S32 1 0#1) :=
  nullary_eq ops_single V (lt_of_lt_of_eq (by decide : 91 < 668) ops_length.symm) main_c_90 (constantI S32 1 0#1) ⟨by decide, rfl⟩ rfl
theorem eq_main_c_91 (V : Valuation τ sig (Elt F)) :
    after (ops (F := F)) V main_c_91 = (fun i => lit31 (S32.rowMajor i)) :=
  nullary_eq ops_single V (lt_of_lt_of_eq (by decide : 92 < 668) ops_length.symm) main_c_91 (fun i => lit31 (S32.rowMajor i)) ⟨by decide, rfl⟩ rfl
theorem eq_main_c_92 (V : Valuation τ sig (Elt F)) :
    after (ops (F := F)) V main_c_92 = (constantI S32 1 0#1) :=
  nullary_eq ops_single V (lt_of_lt_of_eq (by decide : 93 < 668) ops_length.symm) main_c_92 (constantI S32 1 0#1) ⟨by decide, rfl⟩ rfl
theorem eq_main_c_93 (V : Valuation τ sig (Elt F)) :
    after (ops (F := F)) V main_c_93 = (constantI S32 1 0#1) :=
  nullary_eq ops_single V (lt_of_lt_of_eq (by decide : 94 < 668) ops_length.symm) main_c_93 (constantI S32 1 0#1) ⟨by decide, rfl⟩ rfl
theorem eq_main_c_94 (V : Valuation τ sig (Elt F)) :
    after (ops (F := F)) V main_c_94 = (constantI S32 1 0#1) :=
  nullary_eq ops_single V (lt_of_lt_of_eq (by decide : 95 < 668) ops_length.symm) main_c_94 (constantI S32 1 0#1) ⟨by decide, rfl⟩ rfl
theorem eq_main_c_95 (V : Valuation τ sig (Elt F)) :
    after (ops (F := F)) V main_c_95 = (fun i => lit32 (S64.rowMajor i)) :=
  nullary_eq ops_single V (lt_of_lt_of_eq (by decide : 96 < 668) ops_length.symm) main_c_95 (fun i => lit32 (S64.rowMajor i)) ⟨by decide, rfl⟩ rfl
theorem eq_main_c_96 (V : Valuation τ sig (Elt F)) :
    after (ops (F := F)) V main_c_96 = (constantI S64 1 0#1) :=
  nullary_eq ops_single V (lt_of_lt_of_eq (by decide : 97 < 668) ops_length.symm) main_c_96 (constantI S64 1 0#1) ⟨by decide, rfl⟩ rfl
theorem eq_main_c_97 (V : Valuation τ sig (Elt F)) :
    after (ops (F := F)) V main_c_97 = (fun i => lit33 (S64.rowMajor i)) :=
  nullary_eq ops_single V (lt_of_lt_of_eq (by decide : 98 < 668) ops_length.symm) main_c_97 (fun i => lit33 (S64.rowMajor i)) ⟨by decide, rfl⟩ rfl
theorem eq_main_c_98 (V : Valuation τ sig (Elt F)) :
    after (ops (F := F)) V main_c_98 = (constantI S64 1 0#1) :=
  nullary_eq ops_single V (lt_of_lt_of_eq (by decide : 99 < 668) ops_length.symm) main_c_98 (constantI S64 1 0#1) ⟨by decide, rfl⟩ rfl
theorem eq_main_c_99 (V : Valuation τ sig (Elt F)) :
    after (ops (F := F)) V main_c_99 = (constantI S64 1 0#1) :=
  nullary_eq ops_single V (lt_of_lt_of_eq (by decide : 100 < 668) ops_length.symm) main_c_99 (constantI S64 1 0#1) ⟨by decide, rfl⟩ rfl
theorem eq_main_c_100 (V : Valuation τ sig (Elt F)) :
    after (ops (F := F)) V main_c_100 = (constantI S64 1 0#1) :=
  nullary_eq ops_single V (lt_of_lt_of_eq (by decide : 101 < 668) ops_length.symm) main_c_100 (constantI S64 1 0#1) ⟨by decide, rfl⟩ rfl
theorem eq_main_c_101 (V : Valuation τ sig (Elt F)) :
    after (ops (F := F)) V main_c_101 = (fun i => lit34 (S128.rowMajor i)) :=
  nullary_eq ops_single V (lt_of_lt_of_eq (by decide : 102 < 668) ops_length.symm) main_c_101 (fun i => lit34 (S128.rowMajor i)) ⟨by decide, rfl⟩ rfl
theorem eq_main_c_102 (V : Valuation τ sig (Elt F)) :
    after (ops (F := F)) V main_c_102 = (constantI S128 1 0#1) :=
  nullary_eq ops_single V (lt_of_lt_of_eq (by decide : 103 < 668) ops_length.symm) main_c_102 (constantI S128 1 0#1) ⟨by decide, rfl⟩ rfl
theorem eq_main_c_103 (V : Valuation τ sig (Elt F)) :
    after (ops (F := F)) V main_c_103 = (fun i => lit35 (S128.rowMajor i)) :=
  nullary_eq ops_single V (lt_of_lt_of_eq (by decide : 104 < 668) ops_length.symm) main_c_103 (fun i => lit35 (S128.rowMajor i)) ⟨by decide, rfl⟩ rfl
theorem eq_main_c_104 (V : Valuation τ sig (Elt F)) :
    after (ops (F := F)) V main_c_104 = (constantI S128 1 0#1) :=
  nullary_eq ops_single V (lt_of_lt_of_eq (by decide : 105 < 668) ops_length.symm) main_c_104 (constantI S128 1 0#1) ⟨by decide, rfl⟩ rfl
theorem eq_main_c_105 (V : Valuation τ sig (Elt F)) :
    after (ops (F := F)) V main_c_105 = (constantI S128 1 0#1) :=
  nullary_eq ops_single V (lt_of_lt_of_eq (by decide : 106 < 668) ops_length.symm) main_c_105 (constantI S128 1 0#1) ⟨by decide, rfl⟩ rfl
theorem eq_main_c_106 (V : Valuation τ sig (Elt F)) :
    after (ops (F := F)) V main_c_106 = (constantI S128 1 0#1) :=
  nullary_eq ops_single V (lt_of_lt_of_eq (by decide : 107 < 668) ops_length.symm) main_c_106 (constantI S128 1 0#1) ⟨by decide, rfl⟩ rfl
theorem eq_main_c_107 (V : Valuation τ sig (Elt F)) :
    after (ops (F := F)) V main_c_107 = (fun i => lit36 (S256.rowMajor i)) :=
  nullary_eq ops_single V (lt_of_lt_of_eq (by decide : 108 < 668) ops_length.symm) main_c_107 (fun i => lit36 (S256.rowMajor i)) ⟨by decide, rfl⟩ rfl
theorem eq_main_c_108 (V : Valuation τ sig (Elt F)) :
    after (ops (F := F)) V main_c_108 = (constantI S256 1 0#1) :=
  nullary_eq ops_single V (lt_of_lt_of_eq (by decide : 109 < 668) ops_length.symm) main_c_108 (constantI S256 1 0#1) ⟨by decide, rfl⟩ rfl
theorem eq_main_c_109 (V : Valuation τ sig (Elt F)) :
    after (ops (F := F)) V main_c_109 = (fun i => lit37 (S256.rowMajor i)) :=
  nullary_eq ops_single V (lt_of_lt_of_eq (by decide : 110 < 668) ops_length.symm) main_c_109 (fun i => lit37 (S256.rowMajor i)) ⟨by decide, rfl⟩ rfl
theorem eq_main_c_110 (V : Valuation τ sig (Elt F)) :
    after (ops (F := F)) V main_c_110 = (constantI S256 1 0#1) :=
  nullary_eq ops_single V (lt_of_lt_of_eq (by decide : 111 < 668) ops_length.symm) main_c_110 (constantI S256 1 0#1) ⟨by decide, rfl⟩ rfl
theorem eq_main_c_111 (V : Valuation τ sig (Elt F)) :
    after (ops (F := F)) V main_c_111 = (constantI S256 1 0#1) :=
  nullary_eq ops_single V (lt_of_lt_of_eq (by decide : 112 < 668) ops_length.symm) main_c_111 (constantI S256 1 0#1) ⟨by decide, rfl⟩ rfl
theorem eq_main_c_112 (V : Valuation τ sig (Elt F)) :
    after (ops (F := F)) V main_c_112 = (constantI S256 1 0#1) :=
  nullary_eq ops_single V (lt_of_lt_of_eq (by decide : 113 < 668) ops_length.symm) main_c_112 (constantI S256 1 0#1) ⟨by decide, rfl⟩ rfl
theorem eq_main_c_113 (V : Valuation τ sig (Elt F)) :
    after (ops (F := F)) V main_c_113 = (fun i => lit38 (S512.rowMajor i)) :=
  nullary_eq ops_single V (lt_of_lt_of_eq (by decide : 114 < 668) ops_length.symm) main_c_113 (fun i => lit38 (S512.rowMajor i)) ⟨by decide, rfl⟩ rfl
theorem eq_main_c_114 (V : Valuation τ sig (Elt F)) :
    after (ops (F := F)) V main_c_114 = (constantI S512 1 0#1) :=
  nullary_eq ops_single V (lt_of_lt_of_eq (by decide : 115 < 668) ops_length.symm) main_c_114 (constantI S512 1 0#1) ⟨by decide, rfl⟩ rfl
theorem eq_main_c_115 (V : Valuation τ sig (Elt F)) :
    after (ops (F := F)) V main_c_115 = (fun i => lit39 (S512.rowMajor i)) :=
  nullary_eq ops_single V (lt_of_lt_of_eq (by decide : 116 < 668) ops_length.symm) main_c_115 (fun i => lit39 (S512.rowMajor i)) ⟨by decide, rfl⟩ rfl
theorem eq_main_c_116 (V : Valuation τ sig (Elt F)) :
    after (ops (F := F)) V main_c_116 = (constantI S512 1 0#1) :=
  nullary_eq ops_single V (lt_of_lt_of_eq (by decide : 117 < 668) ops_length.symm) main_c_116 (constantI S512 1 0#1) ⟨by decide, rfl⟩ rfl
theorem eq_main_c_117 (V : Valuation τ sig (Elt F)) :
    after (ops (F := F)) V main_c_117 = (constantI S512 1 0#1) :=
  nullary_eq ops_single V (lt_of_lt_of_eq (by decide : 118 < 668) ops_length.symm) main_c_117 (constantI S512 1 0#1) ⟨by decide, rfl⟩ rfl
theorem eq_main_c_118 (V : Valuation τ sig (Elt F)) :
    after (ops (F := F)) V main_c_118 = (constantI S512 1 0#1) :=
  nullary_eq ops_single V (lt_of_lt_of_eq (by decide : 119 < 668) ops_length.symm) main_c_118 (constantI S512 1 0#1) ⟨by decide, rfl⟩ rfl

end Cert.ReferenceIdeal.Line

end
-- ==== Proof.RefEq2.lean ====
/-
  The equations of the reference's operations in its window 2: what the whole line leaves at each operation's result is
  the operation's function of what the whole line leaves at its operands.
-/
import proofs.«140659_j42700564857293_1_alg».proof.Proof.RefSingle

noncomputable section

namespace Cert.ReferenceIdeal.Line

open Cert.ReferenceIdeal Cert.ReferenceIdeal.Gen Idealize.ShloMosaic Idealize.ShloMosaic.TcCoe Idealize.SL.Sem Idealize.ShloMosaic.StableHlo Cert.SingleAssignment

variable {F : FTy → Type} [FloatOps F]

theorem eq_main_c_119 (V : Valuation τ sig (Elt F)) :
    after (ops (F := F)) V main_c_119 = (fun i => lit40 (S1024.rowMajor i)) :=
  nullary_eq ops_single V (lt_of_lt_of_eq (by decide : 120 < 668) ops_length.symm) main_c_119 (fun i => lit40 (S1024.rowMajor i)) ⟨by decide, rfl⟩ rfl
theorem eq_main_c_120 (V : Valuation τ sig (Elt F)) :
    after (ops (F := F)) V main_c_120 = (constantI S1024 1 0#1) :=
  nullary_eq ops_single V (lt_of_lt_of_eq (by decide : 121 < 668) ops_length.symm) main_c_120 (constantI S1024 1 0#1) ⟨by decide, rfl⟩ rfl
theorem eq_main_c_121 (V : Valuation τ sig (Elt F)) :
    after (ops (F := F)) V main_c_121 = (fun i => lit41 (S1024.rowMajor i)) :=
  nullary_eq ops_single V (lt_of_lt_of_eq (by decide : 122 < 668) ops_length.symm) main_c_121 (fun i => lit41 (S1024.rowMajor i)) ⟨by decide, rfl⟩ rfl
theorem eq_main_c_122 (V : Valuation τ sig (Elt F)) :
    after (ops (F := F)) V main_c_122 = (constantI S1024 1 0#1) :=
  nullary_eq ops_single V (lt_of_lt_of_eq (by decide : 123 < 668) ops_length.symm) main_c_122 (constantI S1024 1 0#1) ⟨by decide, rfl⟩ rfl
theorem eq_main_c_123 (V : Valuation τ sig (Elt F)) :
    after (ops (F := F)) V main_c_123 = (constantI S1024 1 0#1) :=
  nullary_eq ops_single V (lt_of_lt_of_eq (by decide : 124 < 668) ops_length.symm) main_c_123 (constantI S1024 1 0#1) ⟨by decide, rfl⟩ rfl
theorem eq_main_c_124 (V : Valuation τ sig (Elt F)) :
    after (ops (F := F)) V main_c_124 = (constantI S1024 1 0#1) :=
  nullary_eq ops_single V (lt_of_lt_of_eq (by decide : 125 < 668) ops_length.symm) main_c_124 (constantI S1024 1 0#1) ⟨by decide, rfl⟩ rfl
theorem eq_main_c_125 (V : Valuation τ sig (Elt F)) :
    after (ops (F := F)) V main_c_125 = (fun i => lit42 (S2048.rowMajor i)) :=
  nullary_eq ops_single V (lt_of_lt_of_eq (by decide : 126 < 668) ops_length.symm) main_c_125 (fun i => lit42 (S2048.rowMajor i)) ⟨by decide, rfl⟩ rfl
theorem eq_main_c_126 (V : Valuation τ sig (Elt F)) :
    after (ops (F := F)) V main_c_126 = (constantI S2048 1 0#1) :=
  nullary_eq ops_single V (lt_of_lt_of_eq (by decide : 127 < 668) ops_length.symm) main_c_126 (constantI S2048 1 0#1) ⟨by decide, rfl⟩ rfl
theorem eq_main_c_127 (V : Valuation τ sig (Elt F)) :
    after (ops (F := F)) V main_c_127 = (fun i => lit43 (S2048.rowMajor i)) :=
  nullary_eq ops_single V (lt_of_lt_of_eq (by decide : 128 < 668) ops_length.symm) main_c_127 (fun i => lit43 (S2048.rowMajor i)) ⟨by decide, rfl⟩ rfl
theorem eq_main_c_128 (V : Valuation τ sig (Elt F)) :
    after (ops (F := F)) V main_c_128 = (constantI S2048 1 0#1) :=
  nullary_eq ops_single V (lt_of_lt_of_eq (by decide : 129 < 668) ops_length.symm) main_c_128 (constantI S2048 1 0#1) ⟨by decide, rfl⟩ rfl
theorem eq_main_c_129 (V : Valuation τ sig (Elt F)) :
    after (ops (F := F)) V main_c_129 = (constantI S2048 1 0#1) :=
  nullary_eq ops_single V (lt_of_lt_of_eq (by decide : 130 < 668) ops_length.symm) main_c_129 (constantI S2048 1 0#1) ⟨by decide, rfl⟩ rfl
theorem eq_main_c_130 (V : Valuation τ sig (Elt F)) :
    after (ops (F := F)) V main_c_130 = (constantI S2048 1 0#1) :=
  nullary_eq ops_single V (lt_of_lt_of_eq (by decide : 131 < 668) ops_length.symm) main_c_130 (constantI S2048 1 0#1) ⟨by decide, rfl⟩ rfl
theorem eq_main_cst (V : Valuation τ sig (Elt F)) :
    after (ops (F := F)) V main_cst = (constant S_ .f32 0x00000000#32) :=
  nullary_eq ops_single V (lt_of_lt_of_eq (by decide : 132 < 668) ops_length.symm) main_cst (constant S_ .f32 0x00000000#32) ⟨by decide, rfl⟩ rfl
theorem eq_main_v0 (V : Valuation τ sig (Elt F)) :
    after (ops (F := F)) V main_v0 = (broadcastInDim S8x64x16 ![] bcast_S_S8x64x16 : (⟨S_, .f32⟩ : BufTy).Contents (Elt F) → (⟨S8x64x16, .f32⟩ : BufTy).Contents (Elt F)) (after (ops (F := F)) V main_cst) :=
  unary_eq ops_single V (lt_of_lt_of_eq (by decide : 133 < 668) ops_length.symm) main_cst main_v0 (broadcastInDim S8x64x16 ![] bcast_S_S8x64x16 : (⟨S_, .f32⟩ : BufTy).Contents (Elt F) → (⟨S8x64x16, .f32⟩ : BufTy).Contents (Elt F)) ⟨by decide, rfl⟩ ⟨by decide, rfl⟩ rfl (take_eq_of_earlier ops_single V (i := 132) (k := 133) (by decide) (lt_of_lt_of_eq (by decide : 132 < 668) ops_length.symm) (Finset.mem_singleton_self _))
theorem eq_main_v1 (V : Valuation τ sig (Elt F)) :
    after (ops (F := F)) V main_v1 = ((transpose S8x64x4096x16 [0, 2, 1, 3] · transposes_S8x4096x64x16_S8x64x4096x16_0_2_1_3) : (⟨S8x4096x64x16, .f32⟩ : BufTy).Contents (Elt F) → (⟨S8x64x4096x16, .f32⟩ : BufTy).Contents (Elt F)) (after (ops (F := F)) V main_arg0) :=
  unary_eq ops_single V (lt_of_lt_of_eq (by decide : 134 < 668) ops_length.symm) main_arg0 main_v1 ((transpose S8x64x4096x16 [0, 2, 1, 3] · transposes_S8x4096x64x16_S8x64x4096x16_0_2_1_3) : (⟨S8x4096x64x16, .f32⟩ : BufTy).Contents (Elt F) → (⟨S8x64x4096x16, .f32⟩ : BufTy).Contents (Elt F)) ⟨by decide, rfl⟩ ⟨by decide, rfl⟩ rfl (take_eq_of_unwritten V 134 arg0_unwritten)
theorem eq_main_c_131 (V : Valuation τ sig (Elt F)) :
    after (ops (F := F)) V main_c_131 = (constantI S_ 32 4096#32) :=
  nullary_eq ops_single V (lt_of_lt_of_eq (by decide : 135 < 668) ops_length.symm) main_c_131 (constantI S_ 32 4096#32) ⟨by decide, rfl⟩ rfl
theorem eq_main_v2 (V : Valuation τ sig (Elt F)) :
    after (ops (F := F)) V main_v2 = (broadcastInDim S2048 ![] bcast_S_S2048 : (⟨S_, .i32⟩ : BufTy).Contents (Elt F) → (⟨S2048, .i32⟩ : BufTy).Contents (Elt F)) (after (ops (F := F)) V main_c_131) :=
  unary_eq ops_single V (lt_of_lt_of_eq (by decide : 136 < 668) ops_length.symm) main_c_131 main_v2 (broadcastInDim S2048 ![] bcast_S_S2048 : (⟨S_, .i32⟩ : BufTy).Contents (Elt F) → (⟨S2048, .i32⟩ : BufTy).Contents (Elt F)) ⟨by decide, rfl⟩ ⟨by decide, rfl⟩ rfl (take_eq_of_earlier ops_single V (i := 135) (k := 136) (by decide) (lt_of_lt_of_eq (by decide : 135 < 668) ops_length.symm) (Finset.mem_singleton_self _))
theorem eq_main_v3 (V : Valuation τ sig (Elt F)) :
    after (ops (F := F)) V main_v3 = (addi : (⟨S2048, .i32⟩ : BufTy).Contents (Elt F) → (⟨S2048, .i32⟩ : BufTy).Contents (Elt F) → (⟨S2048, .i32⟩ : BufTy).Contents (Elt F)) (after (ops (F := F)) V main_c) (after (ops (F := F)) V main_v2) :=
  binary_eq ops_single V (lt_of_lt_of_eq (by decide : 137 < 668) ops_length.symm) main_c main_v2 main_v3 (addi : (⟨S2048, .i32⟩ : BufTy).Contents (Elt F) → (⟨S2048, .i32⟩ : BufTy).Contents (Elt F) → (⟨S2048, .i32⟩ : BufTy).Contents (Elt F)) ⟨by decide, rfl⟩ ⟨by decide, rfl⟩ ⟨by decide, rfl⟩ rfl (take_eq_of_earlier ops_single V (i := 0) (k := 137) (by decide) (lt_of_lt_of_eq (by decide : 0 < 668) ops_length.symm) (Finset.mem_singleton_self _)) (take_eq_of_earlier ops_single V (i := 136) (k := 137) (by decide) (lt_of_lt_of_eq (by decide : 136 < 668) ops_length.symm) (Finset.mem_singleton_self _))
theorem eq_main_v4 (V : Valuation τ sig (Elt F)) :
    after (ops (F := F)) V main_v4 = (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) (after (ops (F := F)) V main_c_0) (after (ops (F := F)) V main_v3) (after (ops (F := F)) V main_c) :=
  ternary_eq ops_single V (lt_of_lt_of_eq (by decide : 138 < 668) ops_length.symm) main_c_0 main_v3 main_c main_v4 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) ⟨by decide, rfl⟩ ⟨by decide, rfl⟩ ⟨by decide, rfl⟩ ⟨by decide, rfl⟩ rfl (take_eq_of_earlier ops_single V (i := 1) (k := 138) (by decide) (lt_of_lt_of_eq (by decide : 1 < 668) ops_length.symm) (Finset.mem_singleton_self _)) (take_eq_of_earlier ops_single V (i := 137) (k := 138) (by decide) (lt_of_lt_of_eq (by decide : 137 < 668) ops_length.symm) (Finset.mem_singleton_self _)) (take_eq_of_earlier ops_single V (i := 0) (k := 138) (by decide) (lt_of_lt_of_eq (by decide : 0 < 668) ops_length.symm) (Finset.mem_singleton_self _))
theorem eq_main_v5 (V : Valuation τ sig (Elt F)) :
    after (ops (F := F)) V main_v5 = (broadcastInDim S2048x1 ![0] bcast_S2048_S2048x1_0 : (⟨S2048, .i32⟩ : BufTy).Contents (Elt F) → (⟨S2048x1, .i32⟩ : BufTy).Contents (Elt F)) (after (ops (F := F)) V main_v4) :=
  unary_eq ops_single V (lt_of_lt_of_eq (by decide : 139 < 668) ops_length.symm) main_v4 main_v5 (broadcastInDim S2048x1 ![0] bcast_S2048_S2048x1_0 : (⟨S2048, .i32⟩ : BufTy).Contents (Elt F) → (⟨S2048x1, .i32⟩ : BufTy).Contents (Elt F)) ⟨by decide, rfl⟩ ⟨by decide, rfl⟩ rfl (take_eq_of_earlier ops_single V (i := 138) (k := 139) (by decide) (lt_of_lt_of_eq (by decide : 138 < 668) ops_length.symm) (Finset.mem_singleton_self _))
theorem eq_main_v6 (V : Valuation τ sig (Elt F)) :
    after (ops (F := F)) V main_v6 = ((fun x i => Host.gather gather_S8x64x4096x16_S2048x1_S8x64x2048x16_013_2_n_n_2_1_864116 x i) : (⟨S8x64x4096x16, .f32⟩ : BufTy).Contents (Elt F) → (⟨S2048x1, .i32⟩ : BufTy).Contents (Elt F) → (⟨S8x64x2048x16, .f32⟩ : BufTy).Contents (Elt F)) (after (ops (F := F)) V main_v1) (after (ops (F := F)) V main_v5) :=
  binary_eq ops_single V (lt_of_lt_of_eq (by decide : 140 < 668) ops_length.symm) main_v1 main_v5 main_v6 ((fun x i => Host.gather gather_S8x64x4096x16_S2048x1_S8x64x2048x16_013_2_n_n_2_1_864116 x i) : (⟨S8x64x4096x16, .f32⟩ : BufTy).Contents (Elt F) → (⟨S2048x1, .i32⟩ : BufTy).Contents (Elt F) → (⟨S8x64x2048x16, .f32⟩ : BufTy).Contents (Elt F)) ⟨by decide, rfl⟩ ⟨by decide, rfl⟩ ⟨by decide, rfl⟩ rfl (take_eq_of_earlier ops_single V (i := 134) (k := 140) (by decide) (lt_of_lt_of_eq (by decide : 134 < 668) ops_length.symm) (Finset.mem_singleton_self _)) (take_eq_of_earlier ops_single V (i := 139) (k := 140) (by decide) (lt_of_lt_of_eq (by decide : 139 < 668) ops_length.symm) (Finset.mem_singleton_self _))
theorem eq_main_c_132 (V : Valuation τ sig (Elt F)) :
    after (ops (F := F)) V main_c_132 = (constantI S_ 32 4096#32) :=
  nullary_eq ops_single V (lt_of_lt_of_eq (by decide : 141 < 668) ops_length.symm) main_c_132 (constantI S_ 32 4096#32) ⟨by decide, rfl⟩ rfl
theorem eq_main_v7 (V : Valuation τ sig (Elt F)) :
    after (ops (F := F)) V main_v7 = (broadcastInDim S2048 ![] bcast_S_S2048 : (⟨S_, .i32⟩ : BufTy).Contents (Elt F) → (⟨S2048, .i32⟩ : BufTy).Contents (Elt F)) (after (ops (F := F)) V main_c_132) :=
  unary_eq ops_single V (lt_of_lt_of_eq (by decide : 142 < 668) ops_length.symm) main_c_132 main_v7 (broadcastInDim S2048 ![] bcast_S_S2048 : (⟨S_, .i32⟩ : BufTy).Contents (Elt F) → (⟨S2048, .i32⟩ : BufTy).Contents (Elt F)) ⟨by decide, rfl⟩ ⟨by decide, rfl⟩ rfl (take_eq_of_earlier ops_single V (i := 141) (k := 142) (by decide) (lt_of_lt_of_eq (by decide : 141 < 668) ops_length.symm) (Finset.mem_singleton_self _))
theorem eq_main_v8 (V : Valuation τ sig (Elt F)) :
    after (ops (F := F)) V main_v8 = (addi : (⟨S2048, .i32⟩ : BufTy).Contents (Elt F) → (⟨S2048, .i32⟩ : BufTy).Contents (Elt F) → (⟨S2048, .i32⟩ : BufTy).Contents (Elt F)) (after (ops (F := F)) V main_c_1) (after (ops (F := F)) V main_v7) :=
  binary_eq ops_single V (lt_of_lt_of_eq (by decide : 143 < 668) ops_length.symm) main_c_1 main_v7 main_v8 (addi : (⟨S2048, .i32⟩ : BufTy).Contents (Elt F) → (⟨S2048, .i32⟩ : BufTy).Contents (Elt F) → (⟨S2048, .i32⟩ : BufTy).Contents (Elt F)) ⟨by decide, rfl⟩ ⟨by decide, rfl⟩ ⟨by decide, rfl⟩ rfl (take_eq_of_earlier ops_single V (i := 2) (k := 143) (by decide) (lt_of_lt_of_eq (by decide : 2 < 668) ops_length.symm) (Finset.mem_singleton_self _)) (take_eq_of_earlier ops_single V (i := 142) (k := 143) (by decide) (lt_of_lt_of_eq (by decide : 142 < 668) ops_length.symm) (Finset.mem_singleton_self _))
theorem eq_main_v9 (V : Valuation τ sig (Elt F)) :
    after (ops (F := F)) V main_v9 = (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) (after (ops (F := F)) V main_c_2) (after (ops (F := F)) V main_v8) (after (ops (F := F)) V main_c_1) :=
  ternary_eq ops_single V (lt_of_lt_of_eq (by decide : 144 < 668) ops_length.symm) main_c_2 main_v8 main_c_1 main_v9 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) ⟨by decide, rfl⟩ ⟨by decide, rfl⟩ ⟨by decide, rfl⟩ ⟨by decide, rfl⟩ rfl (take_eq_of_earlier ops_single V (i := 3) (k := 144) (by decide) (lt_of_lt_of_eq (by decide : 3 < 668) ops_length.symm) (Finset.mem_singleton_self _)) (take_eq_of_earlier ops_single V (i := 143) (k := 144) (by decide) (lt_of_lt_of_eq (by decide : 143 < 668) ops_length.symm) (Finset.mem_singleton_self _)) (take_eq_of_earlier ops_single V (i := 2) (k := 144) (by decide) (lt_of_lt_of_eq (by decide : 2 < 668) ops_length.symm) (Finset.mem_singleton_self _))
theorem eq_main_v10 (V : Valuation τ sig (Elt F)) :
    after (ops (F := F)) V main_v10 = (broadcastInDim S2048x1 ![0] bcast_S2048_S2048x1_0 : (⟨S2048, .i32⟩ : BufTy).Contents (Elt F) → (⟨S2048x1, .i32⟩ : BufTy).Contents (Elt F)) (after (ops (F := F)) V main_v9) :=
  unary_eq ops_single V (lt_of_lt_of_eq (by decide : 145 < 668) ops_length.symm) main_v9 main_v10 (broadcastInDim S2048x1 ![0] bcast_S2048_S2048x1_0 : (⟨S2048, .i32⟩ : BufTy).Contents (Elt F) → (⟨S2048x1, .i32⟩ : BufTy).Contents (Elt F)) ⟨by decide, rfl⟩ ⟨by decide, rfl⟩ rfl (take_eq_of_earlier ops_single V (i := 144) (k := 145) (by decide) (lt_of_lt_of_eq (by decide : 144 < 668) ops_length.symm) (Finset.mem_singleton_self _))
theorem eq_main_v11 (V : Valuation τ sig (Elt F)) :
    after (ops (F := F)) V main_v11 = ((fun x i => Host.gather gather_S8x64x4096x16_S2048x1_S8x64x2048x16_013_2_n_n_2_1_864116 x i) : (⟨S8x64x4096x16, .f32⟩ : BufTy).Contents (Elt F) → (⟨S2048x1, .i32⟩ : BufTy).Contents (Elt F) → (⟨S8x64x2048x16, .f32⟩ : BufTy).Contents (Elt F)) (after (ops (F := F)) V main_v1) (after (ops (F := F)) V main_v10) :=
  binary_eq ops_single V (lt_of_lt_of_eq (by decide : 146 < 668) ops_length.symm) main_v1 main_v10 main_v11 ((fun x i => Host.gather gather_S8x64x4096x16_S2048x1_S8x64x2048x16_013_2_n_n_2_1_864116 x i) : (⟨S8x64x4096x16, .f32⟩ : BufTy).Contents (Elt F) → (⟨S2048x1, .i32⟩ : BufTy).Contents (Elt F) → (⟨S8x64x2048x16, .f32⟩ : BufTy).Contents (Elt F)) ⟨by decide, rfl⟩ ⟨by decide, rfl⟩ ⟨by decide, rfl⟩ rfl (take_eq_of_earlier ops_single V (i := 134) (k := 146) (by decide) (lt_of_lt_of_eq (by decide : 134 < 668) ops_length.symm) (Finset.mem_singleton_self _)) (take_eq_of_earlier ops_single V (i := 145) (k := 146) (by decide) (lt_of_lt_of_eq (by decide : 145 < 668) ops_length.symm) (Finset.mem_singleton_self _))
theorem eq_main_v12 (V : Valuation τ sig (Elt F)) :
    after (ops (F := F)) V main_v12 = (addf : (⟨S8x64x2048x16, .f32⟩ : BufTy).Contents (Elt F) → (⟨S8x64x2048x16, .f32⟩ : BufTy).Contents (Elt F) → (⟨S8x64x2048x16, .f32⟩ : BufTy).Contents (Elt F)) (after (ops (F := F)) V main_v6) (after (ops (F := F)) V main_v11) :=
  binary_eq ops_single V (lt_of_lt_of_eq (by decide : 147 < 668) ops_length.symm) main_v6 main_v11 main_v12 (addf : (⟨S8x64x2048x16, .f32⟩ : BufTy).Contents (Elt F) → (⟨S8x64x2048x16, .f32⟩ : BufTy).Contents (Elt F) → (⟨S8x64x2048x16, .f32⟩ : BufTy).Contents (Elt F)) ⟨by decide, rfl⟩ ⟨by decide, rfl⟩ ⟨by decide, rfl⟩ rfl (take_eq_of_earlier ops_single V (i := 140) (k := 147) (by decide) (lt_of_lt_of_eq (by decide : 140 < 668) ops_length.symm) (Finset.mem_singleton_self _)) (take_eq_of_earlier ops_single V (i := 146) (k := 147) (by decide) (lt_of_lt_of_eq (by decide : 146 < 668) ops_length.symm) (Finset.mem_singleton_self _))
theorem eq_main_c_133 (V : Valuation τ sig (Elt F)) :
    after (ops (F := F)) V main_c_133 = (constantI S_ 32 4096#32) :=
  nullary_eq ops_single V (lt_of_lt_of_eq (by decide : 148 < 668) ops_length.symm) main_c_133 (constantI S_ 32 4096#32) ⟨by decide, rfl⟩ rfl
theorem eq_main_v13 (V : Valuation τ sig (Elt F)) :
    after (ops (F := F)) V main_v13 = (broadcastInDim S2048 ![] bcast_S_S2048 : (⟨S_, .i32⟩ : BufTy).Contents (Elt F) → (⟨S2048, .i32⟩ : BufTy).Contents (Elt F)) (after (ops (F := F)) V main_c_133) :=
  unary_eq ops_single V (lt_of_lt_of_eq (by decide : 149 < 668) ops_length.symm) main_c_133 main_v13 (broadcastInDim S2048 ![] bcast_S_S2048 : (⟨S_, .i32⟩ : BufTy).Contents (Elt F) → (⟨S2048, .i32⟩ : BufTy).Contents (Elt F)) ⟨by decide, rfl⟩ ⟨by decide, rfl⟩ rfl (take_eq_of_earlier ops_single V (i := 148) (k := 149) (by decide) (lt_of_lt_of_eq (by decide : 148 < 668) ops_length.symm) (Finset.mem_singleton_self _))
theorem eq_main_v14 (V : Valuation τ sig (Elt F)) :
    after (ops (F := F)) V main_v14 = (addi : (⟨S2048, .i32⟩ : BufTy).Contents (Elt F) → (⟨S2048, .i32⟩ : BufTy).Contents (Elt F) → (⟨S2048, .i32⟩ : BufTy).Contents (Elt F)) (after (ops (F := F)) V main_c_1) (after (ops (F := F)) V main_v13) :=
  binary_eq ops_single V (lt_of_lt_of_eq (by decide : 150 < 668) ops_length.symm) main_c_1 main_v13 main_v14 (addi : (⟨S2048, .i32⟩ : BufTy).Contents (Elt F) → (⟨S2048, .i32⟩ : BufTy).Contents (Elt F) → (⟨S2048, .i32⟩ : BufTy).Contents (Elt F)) ⟨by decide, rfl⟩ ⟨by decide, rfl⟩ ⟨by decide, rfl⟩ rfl (take_eq_of_earlier ops_single V (i := 2) (k := 150) (by decide) (lt_of_lt_of_eq (by decide : 2 < 668) ops_length.symm) (Finset.mem_singleton_self _)) (take_eq_of_earlier ops_single V (i := 149) (k := 150) (by decide) (lt_of_lt_of_eq (by decide : 149 < 668) ops_length.symm) (Finset.mem_singleton_self _))
theorem eq_main_v15 (V : Valuation τ sig (Elt F)) :
    after (ops (F := F)) V main_v15 = (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) (after (ops (F := F)) V main_c_3) (after (ops (F := F)) V main_v14) (after (ops (F := F)) V main_c_1) :=
  ternary_eq ops_single V (lt_of_lt_of_eq (by decide : 151 < 668) ops_length.symm) main_c_3 main_v14 main_c_1 main_v15 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) ⟨by decide, rfl⟩ ⟨by decide, rfl⟩ ⟨by decide, rfl⟩ ⟨by decide, rfl⟩ rfl (take_eq_of_earlier ops_single V (i := 4) (k := 151) (by decide) (lt_of_lt_of_eq (by decide : 4 < 668) ops_length.symm) (Finset.mem_singleton_self _)) (take_eq_of_earlier ops_single V (i := 150) (k := 151) (by decide) (lt_of_lt_of_eq (by decide : 150 < 668) ops_length.symm) (Finset.mem_singleton_self _)) (take_eq_of_earlier ops_single V (i := 2) (k := 151) (by decide) (lt_of_lt_of_eq (by decide : 2 < 668) ops_length.symm) (Finset.mem_singleton_self _))
theorem eq_main_v16 (V : Valuation τ sig (Elt F)) :
    after (ops (F := F)) V main_v16 = (broadcastInDim S2048x1 ![0] bcast_S2048_S2048x1_0 : (⟨S2048, .i32⟩ : BufTy).Contents (Elt F) → (⟨S2048x1, .i32⟩ : BufTy).Contents (Elt F)) (after (ops (F := F)) V main_v15) :=
  unary_eq ops_single V (lt_of_lt_of_eq (by decide : 152 < 668) ops_length.symm) main_v15 main_v16 (broadcastInDim S2048x1 ![0] bcast_S2048_S2048x1_0 : (⟨S2048, .i32⟩ : BufTy).Contents (Elt F) → (⟨S2048x1, .i32⟩ : BufTy).Contents (Elt F)) ⟨by decide, rfl⟩ ⟨by decide, rfl⟩ rfl (take_eq_of_earlier ops_single V (i := 151) (k := 152) (by decide) (lt_of_lt_of_eq (by decide : 151 < 668) ops_length.symm) (Finset.mem_singleton_self _))
theorem eq_main_v17 (V : Valuation τ sig (Elt F)) :
    after (ops (F := F)) V main_v17 = ((fun x i u => Host.scatter scatter_S8x64x4096x16_S2048x1_S8x64x2048x16_013_2_2_1 (fun _ b => b) x i u) : (⟨S8x64x4096x16, .f32⟩ : BufTy).Contents (Elt F) → (⟨S2048x1, .i32⟩ : BufTy).Contents (Elt F) → (⟨S8x64x2048x16, .f32⟩ : BufTy).Contents (Elt F) → (⟨S8x64x4096x16, .f32⟩ : BufTy).Contents (Elt F)) (after (ops (F := F)) V main_v1) (after (ops (F := F)) V main_v16) (after (ops (F := F)) V main_v12) :=
  ternary_eq ops_single V (lt_of_lt_of_eq (by decide : 153 < 668) ops_length.symm) main_v1 main_v16 main_v12 main_v17 ((fun x i u => Host.scatter scatter_S8x64x4096x16_S2048x1_S8x64x2048x16_013_2_2_1 (fun _ b => b) x i u) : (⟨S8x64x4096x16, .f32⟩ : BufTy).Contents (Elt F) → (⟨S2048x1, .i32⟩ : BufTy).Contents (Elt F) → (⟨S8x64x2048x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 134) (k := 153) (by decide) (lt_of_lt_of_eq (by decide : 134 < 668) ops_length.symm) (Finset.mem_singleton_self _)) (take_eq_of_earlier ops_single V (i := 152) (k := 153) (by decide) (lt_of_lt_of_eq (by decide : 152 < 668) ops_length.symm) (Finset.mem_singleton_self _)) (take_eq_of_earlier ops_single V (i := 147) (k := 153) (by decide) (lt_of_lt_of_eq (by decide : 147 < 668) ops_length.symm) (Finset.mem_singleton_self _))
theorem eq_main_c_134 (V : Valuation τ sig (Elt F)) :
    after (ops (F := F)) V main_c_134 = (constantI S_ 32 4096#32) :=
  nullary_eq ops_single V (lt_of_lt_of_eq (by decide : 154 < 668) ops_length.symm) main_c_134 (constantI S_ 32 4096#32) ⟨by decide, rfl⟩ rfl
theorem eq_main_v18 (V : Valuation τ sig (Elt F)) :
    after (ops (F := F)) V main_v18 = (broadcastInDim S1024 ![] bcast_S_S1024 : (⟨S_, .i32⟩ : BufTy).Contents (Elt F) → (⟨S1024, .i32⟩ : BufTy).Contents (Elt F)) (after (ops (F := F)) V main_c_134) :=
  unary_eq ops_single V (lt_of_lt_of_eq (by decide : 155 < 668) ops_length.symm) main_c_134 main_v18 (broadcastInDim S1024 ![] bcast_S_S1024 : (⟨S_, .i32⟩ : BufTy).Contents (Elt F) → (⟨S1024, .i32⟩ : BufTy).Contents (Elt F)) ⟨by decide, rfl⟩ ⟨by decide, rfl⟩ rfl (take_eq_of_earlier ops_single V (i := 154) (k := 155) (by decide) (lt_of_lt_of_eq (by decide : 154 < 668) ops_length.symm) (Finset.mem_singleton_self _))
theorem eq_main_v19 (V : Valuation τ sig (Elt F)) :
    after (ops (F := F)) V main_v19 = (addi : (⟨S1024, .i32⟩ : BufTy).Contents (Elt F) → (⟨S1024, .i32⟩ : BufTy).Contents (Elt F) → (⟨S1024, .i32⟩ : BufTy).Contents (Elt F)) (after (ops (F := F)) V main_c_4) (after (ops (F := F)) V main_v18) :=
  binary_eq ops_single V (lt_of_lt_of_eq (by decide : 156 < 668) ops_length.symm) main_c_4 main_v18 main_v19 (addi : (⟨S1024, .i32⟩ : BufTy).Contents (Elt F) → (⟨S1024, .i32⟩ : BufTy).Contents (Elt F) → (⟨S1024, .i32⟩ : BufTy).Contents (Elt F)) ⟨by decide, rfl⟩ ⟨by decide, rfl⟩ ⟨by decide, rfl⟩ rfl (take_eq_of_earlier ops_single V (i := 5) (k := 156) (by decide) (lt_of_lt_of_eq (by decide : 5 < 668) ops_length.symm) (Finset.mem_singleton_self _)) (take_eq_of_earlier ops_single V (i := 155) (k := 156) (by decide) (lt_of_lt_of_eq (by decide : 155 < 668) ops_length.symm) (Finset.mem_singleton_self _))
theorem eq_main_v20 (V : Valuation τ sig (Elt F)) :
    after (ops (F := F)) V main_v20 = (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) (after (ops (F := F)) V main_c_5) (after (ops (F := F)) V main_v19) (after (ops (F := F)) V main_c_4) :=
  ternary_eq ops_single V (lt_of_lt_of_eq (by decide : 157 < 668) ops_length.symm) main_c_5 main_v19 main_c_4 main_v20 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) ⟨by decide, rfl⟩ ⟨by decide, rfl⟩ ⟨by decide, rfl⟩ ⟨by decide, rfl⟩ rfl (take_eq_of_earlier ops_single V (i := 6) (k := 157) (by decide) (lt_of_lt_of_eq (by decide : 6 < 668) ops_length.symm) (Finset.mem_singleton_self _)) (take_eq_of_earlier ops_single V (i := 156) (k := 157) (by decide) (lt_of_lt_of_eq (by decide : 156 < 668) ops_length.symm) (Finset.mem_singleton_self _)) (take_eq_of_earlier ops_single V (i := 5) (k := 157) (by decide) (lt_of_lt_of_eq (by decide : 5 < 668) ops_length.symm) (Finset.mem_singleton_self _))
theorem eq_main_v21 (V : Valuation τ sig (Elt F)) :
    after (ops (F := F)) V main_v21 = (broadcastInDim S1024x1 ![0] bcast_S1024_S1024x1_0 : (⟨S1024, .i32⟩ : BufTy).Contents (Elt F) → (⟨S1024x1, .i32⟩ : BufTy).Contents (Elt F)) (after (ops (F := F)) V main_v20) :=
  unary_eq ops_single V (lt_of_lt_of_eq (by decide : 158 < 668) ops_length.symm) main_v20 main_v21 (broadcastInDim S1024x1 ![0] bcast_S1024_S1024x1_0 : (⟨S1024, .i32⟩ : BufTy).Contents (Elt F) → (⟨S1024x1, .i32⟩ : BufTy).Contents (Elt F)) ⟨by decide, rfl⟩ ⟨by decide, rfl⟩ rfl (take_eq_of_earlier ops_single V (i := 157) (k := 158) (by decide) (lt_of_lt_of_eq (by decide : 157 < 668) ops_length.symm) (Finset.mem_singleton_self _))
theorem eq_main_v22 (V : Valuation τ sig (Elt F)) :
    after (ops (F := F)) V main_v22 = ((fun x i => Host.gather gather_S8x64x4096x16_S1024x1_S8x64x1024x16_013_2_n_n_2_1_864116 x i) : (⟨S8x64x4096x16, .f32⟩ : BufTy).Contents (Elt F) → (⟨S1024x1, .i32⟩ : BufTy).Contents (Elt F) → (⟨S8x64x1024x16, .f32⟩ : BufTy).Contents (Elt F)) (after (ops (F := F)) V main_v17) (after (ops (F := F)) V main_v21) :=
  binary_eq ops_single V (lt_of_lt_of_eq (by decide : 159 < 668) ops_length.symm) main_v17 main_v21 main_v22 ((fun x i => Host.gather gather_S8x64x4096x16_S1024x1_S8x64x1024x16_013_2_n_n_2_1_864116 x i) : (⟨S8x64x4096x16, .f32⟩ : BufTy).Contents (Elt F) → (⟨S1024x1, .i32⟩ : BufTy).Contents (Elt F) → (⟨S8x64x1024x16, .f32⟩ : BufTy).Contents (Elt F)) ⟨by decide, rfl⟩ ⟨by decide, rfl⟩ ⟨by decide, rfl⟩ rfl (take_eq_of_earlier ops_single V (i := 153) (k := 159) (by decide) (lt_of_lt_of_eq (by decide : 153 < 668) ops_length.symm) (Finset.mem_singleton_self _)) (take_eq_of_earlier ops_single V (i := 158) (k := 159) (by decide) (lt_of_lt_of_eq (by decide : 158 < 668) ops_length.symm) (Finset.mem_singleton_self _))
theorem eq_main_c_135 (V : Valuation τ sig (Elt F)) :
    after (ops (F := F)) V main_c_135 = (constantI S_ 32 4096#32) :=
  nullary_eq ops_single V (lt_of_lt_of_eq (by decide : 160 < 668) ops_length.symm) main_c_135 (constantI S_ 32 4096#32) ⟨by decide, rfl⟩ rfl
theorem eq_main_v23 (V : Valuation τ sig (Elt F)) :
    after (ops (F := F)) V main_v23 = (broadcastInDim S1024 ![] bcast_S_S1024 : (⟨S_, .i32⟩ : BufTy).Contents (Elt F) → (⟨S1024, .i32⟩ : BufTy).Contents (Elt F)) (after (ops (F := F)) V main_c_135) :=
  unary_eq ops_single V (lt_of_lt_of_eq (by decide : 161 < 668) ops_length.symm) main_c_135 main_v23 (broadcastInDim S1024 ![] bcast_S_S1024 : (⟨S_, .i32⟩ : BufTy).Contents (Elt F) → (⟨S1024, .i32⟩ : BufTy).Contents (Elt F)) ⟨by decide, rfl⟩ ⟨by decide, rfl⟩ rfl (take_eq_of_earlier ops_single V (i := 160) (k := 161) (by decide) (lt_of_lt_of_eq (by decide : 160 < 668) ops_length.symm) (Finset.mem_singleton_self _))
theorem eq_main_v24 (V : Valuation τ sig (Elt F)) :
    after (ops (F := F)) V main_v24 = (addi : (⟨S1024, .i32⟩ : BufTy).Contents (Elt F) → (⟨S1024, .i32⟩ : BufTy).Contents (Elt F) → (⟨S1024, .i32⟩ : BufTy).Contents (Elt F)) (after (ops (F := F)) V main_c_6) (after (ops (F := F)) V main_v23) :=
  binary_eq ops_single V (lt_of_lt_of_eq (by decide : 162 < 668) ops_length.symm) main_c_6 main_v23 main_v24 (addi : (⟨S1024, .i32⟩ : BufTy).Contents (Elt F) → (⟨S1024, .i32⟩ : BufTy).Contents (Elt F) → (⟨S1024, .i32⟩ : BufTy).Contents (Elt F)) ⟨by decide, rfl⟩ ⟨by decide, rfl⟩ ⟨by decide, rfl⟩ rfl (take_eq_of_earlier ops_single V (i := 7) (k := 162) (by decide) (lt_of_lt_of_eq (by decide : 7 < 668) ops_length.symm) (Finset.mem_singleton_self _)) (take_eq_of_earlier ops_single V (i := 161) (k := 162) (by decide) (lt_of_lt_of_eq (by decide : 161 < 668) ops_length.symm) (Finset.mem_singleton_self _))
theorem eq_main_v25 (V : Valuation τ sig (Elt F)) :
    after (ops (F := F)) V main_v25 = (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) (after (ops (F := F)) V main_c_7) (after (ops (F := F)) V main_v24) (after (ops (F := F)) V main_c_6) :=
  ternary_eq ops_single V (lt_of_lt_of_eq (by decide : 163 < 668) ops_length.symm) main_c_7 main_v24 main_c_6 main_v25 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) ⟨by decide, rfl⟩ ⟨by decide, rfl⟩ ⟨by decide, rfl⟩ ⟨by decide, rfl⟩ rfl (take_eq_of_earlier ops_single V (i := 8) (k := 163) (by decide) (lt_of_lt_of_eq (by decide : 8 < 668) ops_length.symm) (Finset.mem_singleton_self _)) (take_eq_of_earlier ops_single V (i := 162) (k := 163) (by decide) (lt_of_lt_of_eq (by decide : 162 < 668) ops_length.symm) (Finset.mem_singleton_self _)) (take_eq_of_earlier ops_single V (i := 7) (k := 163) (by decide) (lt_of_lt_of_eq (by decide : 7 < 668) ops_length.symm) (Finset.mem_singleton_self _))
theorem eq_main_v26 (V : Valuation τ sig (Elt F)) :
    after (ops (F := F)) V main_v26 = (broadcastInDim S1024x1 ![0] bcast_S1024_S1024x1_0 : (⟨S1024, .i32⟩ : BufTy).Contents (Elt F) → (⟨S1024x1, .i32⟩ : BufTy).Contents (Elt F)) (after (ops (F := F)) V main_v25) :=
  unary_eq ops_single V (lt_of_lt_of_eq (by decide : 164 < 668) ops_length.symm) main_v25 main_v26 (broadcastInDim S1024x1 ![0] bcast_S1024_S1024x1_0 : (⟨S1024, .i32⟩ : BufTy).Contents (Elt F) → (⟨S1024x1, .i32⟩ : BufTy).Contents (Elt F)) ⟨by decide, rfl⟩ ⟨by decide, rfl⟩ rfl (take_eq_of_earlier ops_single V (i := 163) (k := 164) (by decide) (lt_of_lt_of_eq (by decide : 163 < 668) ops_length.symm) (Finset.mem_singleton_self _))
theorem eq_main_v27 (V : Valuation τ sig (Elt F)) :
    after (ops (F := F)) V main_v27 = ((fun x i => Host.gather gather_S8x64x4096x16_S1024x1_S8x64x1024x16_013_2_n_n_2_1_864116 x i) : (⟨S8x64x4096x16, .f32⟩ : BufTy).Contents (Elt F) → (⟨S1024x1, .i32⟩ : BufTy).Contents (Elt F) → (⟨S8x64x1024x16, .f32⟩ : BufTy).Contents (Elt F)) (after (ops (F := F)) V main_v17) (after (ops (F := F)) V main_v26) :=
  binary_eq ops_single V (lt_of_lt_of_eq (by decide : 165 < 668) ops_length.symm) main_v17 main_v26 main_v27 ((fun x i => Host.gather gather_S8x64x4096x16_S1024x1_S8x64x1024x16_013_2_n_n_2_1_864116 x i) : (⟨S8x64x4096x16, .f32⟩ : BufTy).Contents (Elt F) → (⟨S1024x1, .i32⟩ : BufTy).Contents (Elt F) → (⟨S8x64x1024x16, .f32⟩ : BufTy).Contents (Elt F)) ⟨by decide, rfl⟩ ⟨by decide, rfl⟩ ⟨by decide, rfl⟩ rfl (take_eq_of_earlier ops_single V (i := 153) (k := 165) (by decide) (lt_of_lt_of_eq (by decide : 153 < 668) ops_length.symm) (Finset.mem_singleton_self _)) (take_eq_of_earlier ops_single V (i := 164) (k := 165) (by decide) (lt_of_lt_of_eq (by decide : 164 < 668) ops_length.symm) (Finset.mem_singleton_self _))
theorem eq_main_v28 (V : Valuation τ sig (Elt F)) :
    after (ops (F := F)) V main_v28 = (addf : (⟨S8x64x1024x16, .f32⟩ : BufTy).Contents (Elt F) → (⟨S8x64x1024x16, .f32⟩ : BufTy).Contents (Elt F) → (⟨S8x64x1024x16, .f32⟩ : BufTy).Contents (Elt F)) (after (ops (F := F)) V main_v22) (after (ops (F := F)) V main_v27) :=
  binary_eq ops_single V (lt_of_lt_of_eq (by decide : 166 < 668) ops_length.symm) main_v22 main_v27 main_v28 (addf : (⟨S8x64x1024x16, .f32⟩ : BufTy).Contents (Elt F) → (⟨S8x64x1024x16, .f32⟩ : BufTy).Contents (Elt F) → (⟨S8x64x1024x16, .f32⟩ : BufTy).Contents (Elt F)) ⟨by decide, rfl⟩ ⟨by decide, rfl⟩ ⟨by decide, rfl⟩ rfl (take_eq_of_earlier ops_single V (i := 159) (k := 166) (by decide) (lt_of_lt_of_eq (by decide : 159 < 668) ops_length.symm) (Finset.mem_singleton_self _)) (take_eq_of_earlier ops_single V (i := 165) (k := 166) (by decide) (lt_of_lt_of_eq (by decide : 165 < 668) ops_length.symm) (Finset.mem_singleton_self _))
theorem eq_main_c_136 (V : Valuation τ sig (Elt F)) :
    after (ops (F := F)) V main_c_136 = (constantI S_ 32 4096#32) :=
  nullary_eq ops_single V (lt_of_lt_of_eq (by decide : 167 < 668) ops_length.symm) main_c_136 (constantI S_ 32 4096#32) ⟨by decide, rfl⟩ rfl
theorem eq_main_v29 (V : Valuation τ sig (Elt F)) :
    after (ops (F := F)) V main_v29 = (broadcastInDim S1024 ![] bcast_S_S1024 : (⟨S_, .i32⟩ : BufTy).Contents (Elt F) → (⟨S1024, .i32⟩ : BufTy).Contents (Elt F)) (after (ops (F := F)) V main_c_136) :=
  unary_eq ops_single V (lt_of_lt_of_eq (by decide : 168 < 668) ops_length.symm) main_c_136 main_v29 (broadcastInDim S1024 ![] bcast_S_S1024 : (⟨S_, .i32⟩ : BufTy).Contents (Elt F) → (⟨S1024, .i32⟩ : BufTy).Contents (Elt F)) ⟨by decide, rfl⟩ ⟨by decide, rfl⟩ rfl (take_eq_of_earlier ops_single V (i := 167) (k := 168) (by decide) (lt_of_lt_of_eq (by decide : 167 < 668) ops_length.symm) (Finset.mem_singleton_self _))
theorem eq_main_v30 (V : Valuation τ sig (Elt F)) :
    after (ops (F := F)) V main_v30 = (addi : (⟨S1024, .i32⟩ : BufTy).Contents (Elt F) → (⟨S1024, .i32⟩ : BufTy).Contents (Elt F) → (⟨S1024, .i32⟩ : BufTy).Contents (Elt F)) (after (ops (F := F)) V main_c_6) (after (ops (F := F)) V main_v29) :=
  binary_eq ops_single V (lt_of_lt_of_eq (by decide : 169 < 668) ops_length.symm) main_c_6 main_v29 main_v30 (addi : (⟨S1024, .i32⟩ : BufTy).Contents (Elt F) → (⟨S1024, .i32⟩ : BufTy).Contents (Elt F) → (⟨S1024, .i32⟩ : BufTy).Contents (Elt F)) ⟨by decide, rfl⟩ ⟨by decide, rfl⟩ ⟨by decide, rfl⟩ rfl (take_eq_of_earlier ops_single V (i := 7) (k := 169) (by decide) (lt_of_lt_of_eq (by decide : 7 < 668) ops_length.symm) (Finset.mem_singleton_self _)) (take_eq_of_earlier ops_single V (i := 168) (k := 169) (by decide) (lt_of_lt_of_eq (by decide : 168 < 668) ops_length.symm) (Finset.mem_singleton_self _))
theorem eq_main_v31 (V : Valuation τ sig (Elt F)) :
    after (ops (F := F)) V main_v31 = (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) (after (ops (F := F)) V main_c_8) (after (ops (F := F)) V main_v30) (after (ops (F := F)) V main_c_6) :=
  ternary_eq ops_single V (lt_of_lt_of_eq (by decide : 170 < 668) ops_length.symm) main_c_8 main_v30 main_c_6 main_v31 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) ⟨by decide, rfl⟩ ⟨by decide, rfl⟩ ⟨by decide, rfl⟩ ⟨by decide, rfl⟩ rfl (take_eq_of_earlier ops_single V (i := 9) (k := 170) (by decide) (lt_of_lt_of_eq (by decide : 9 < 668) ops_length.symm) (Finset.mem_singleton_self _)) (take_eq_of_earlier ops_single V (i := 169) (k := 170) (by decide) (lt_of_lt_of_eq (by decide : 169 < 668) ops_length.symm) (Finset.mem_singleton_self _)) (take_eq_of_earlier ops_single V (i := 7) (k := 170) (by decide) (lt_of_lt_of_eq (by decide : 7 < 668) ops_length.symm) (Finset.mem_singleton_self _))
theorem eq_main_v32 (V : Valuation τ sig (Elt F)) :
    after (ops (F := F)) V main_v32 = (broadcastInDim S1024x1 ![0] bcast_S1024_S1024x1_0 : (⟨S1024, .i32⟩ : BufTy).Contents (Elt F) → (⟨S1024x1, .i32⟩ : BufTy).Contents (Elt F)) (after (ops (F := F)) V main_v31) :=
  unary_eq ops_single V (lt_of_lt_of_eq (by decide : 171 < 668) ops_length.symm) main_v31 main_v32 (broadcastInDim S1024x1 ![0] bcast_S1024_S1024x1_0 : (⟨S1024, .i32⟩ : BufTy).Contents (Elt F) → (⟨S1024x1, .i32⟩ : BufTy).Contents (Elt F)) ⟨by decide, rfl⟩ ⟨by decide, rfl⟩ rfl (take_eq_of_earlier ops_single V (i := 170) (k := 171) (by decide) (lt_of_lt_of_eq (by decide : 170 < 668) ops_length.symm) (Finset.mem_singleton_self _))
theorem eq_main_v33 (V : Valuation τ sig (Elt F)) :
    after (ops (F := F)) V main_v33 = ((fun x i u => Host.scatter scatter_S8x64x4096x16_S1024x1_S8x64x1024x16_013_2_2_1 (fun _ b => b) x i u) : (⟨S8x64x4096x16, .f32⟩ : BufTy).Contents (Elt F) → (⟨S1024x1, .i32⟩ : BufTy).Contents (Elt F) → (⟨S8x64x1024x16, .f32⟩ : BufTy).Contents (Elt F) → (⟨S8x64x4096x16, .f32⟩ : BufTy).Contents (Elt F)) (after (ops (F := F)) V main_v17) (after (ops (F := F)) V main_v32) (after (ops (F := F)) V main_v28) :=
  ternary_eq ops_single V (lt_of_lt_of_eq (by decide : 172 < 668) ops_length.symm) main_v17 main_v32 main_v28 main_v33 ((fun x i u => Host.scatter scatter_S8x64x4096x16_S1024x1_S8x64x1024x16_013_2_2_1 (fun _ b => b) x i u) : (⟨S8x64x4096x16, .f32⟩ : BufTy).Contents (Elt F) → (⟨S1024x1, .i32⟩ : BufTy).Contents (Elt F) → (⟨S8x64x1024x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 153) (k := 172) (by decide) (lt_of_lt_of_eq (by decide : 153 < 668) ops_length.symm) (Finset.mem_singleton_self _)) (take_eq_of_earlier ops_single V (i := 171) (k := 172) (by decide) (lt_of_lt_of_eq (by decide : 171 < 668) ops_length.symm) (Finset.mem_singleton_self _)) (take_eq_of_earlier ops_single V (i := 166) (k := 172) (by decide) (lt_of_lt_of_eq (by decide : 166 < 668) ops_length.symm) (Finset.mem_singleton_self _))
theorem eq_main_c_137 (V : Valuation τ sig (Elt F)) :
    after (ops (F := F)) V main_c_137 = (constantI S_ 32 4096#32) :=
  nullary_eq ops_single V (lt_of_lt_of_eq (by decide : 173 < 668) ops_length.symm) main_c_137 (constantI S_ 32 4096#32) ⟨by decide, rfl⟩ rfl
theorem eq_main_v34 (V : Valuation τ sig (Elt F)) :
    after (ops (F := F)) V main_v34 = (broadcastInDim S512 ![] bcast_S_S512 : (⟨S_, .i32⟩ : BufTy).Contents (Elt F) → (⟨S512, .i32⟩ : BufTy).Contents (Elt F)) (after (ops (F := F)) V main_c_137) :=
  unary_eq ops_single V (lt_of_lt_of_eq (by decide : 174 < 668) ops_length.symm) main_c_137 main_v34 (broadcastInDim S512 ![] bcast_S_S512 : (⟨S_, .i32⟩ : BufTy).Contents (Elt F) → (⟨S512, .i32⟩ : BufTy).Contents (Elt F)) ⟨by decide, rfl⟩ ⟨by decide, rfl⟩ rfl (take_eq_of_earlier ops_single V (i := 173) (k := 174) (by decide) (lt_of_lt_of_eq (by decide : 173 < 668) ops_length.symm) (Finset.mem_singleton_self _))
theorem eq_main_v35 (V : Valuation τ sig (Elt F)) :
    after (ops (F := F)) V main_v35 = (addi : (⟨S512, .i32⟩ : BufTy).Contents (Elt F) → (⟨S512, .i32⟩ : BufTy).Contents (Elt F) → (⟨S512, .i32⟩ : BufTy).Contents (Elt F)) (after (ops (F := F)) V main_c_9) (after (ops (F := F)) V main_v34) :=
  binary_eq ops_single V (lt_of_lt_of_eq (by decide : 175 < 668) ops_length.symm) main_c_9 main_v34 main_v35 (addi : (⟨S512, .i32⟩ : BufTy).Contents (Elt F) → (⟨S512, .i32⟩ : BufTy).Contents (Elt F) → (⟨S512, .i32⟩ : BufTy).Contents (Elt F)) ⟨by decide, rfl⟩ ⟨by decide, rfl⟩ ⟨by decide, rfl⟩ rfl (take_eq_of_earlier ops_single V (i := 10) (k := 175) (by decide) (lt_of_lt_of_eq (by decide : 10 < 668) ops_length.symm) (Finset.mem_singleton_self _)) (take_eq_of_earlier ops_single V (i := 174) (k := 175) (by decide) (lt_of_lt_of_eq (by decide : 174 < 668) ops_length.symm) (Finset.mem_singleton_self _))
theorem eq_main_v36 (V : Valuation τ sig (Elt F)) :
    after (ops (F := F)) V main_v36 = (select : (⟨S512, .i1⟩ : BufTy).Contents (Elt F) → (⟨S512, .i32⟩ : BufTy).Contents (Elt F) → (⟨S512, .i32⟩ : BufTy).Contents (Elt F) → (⟨S512, .i32⟩ : BufTy).Contents (Elt F)) (after (ops (F := F)) V main_c_10) (after (ops (F := F)) V main_v35) (after (ops (F := F)) V main_c_9) :=
  ternary_eq ops_single V (lt_of_lt_of_eq (by decide : 176 < 668) ops_length.symm) main_c_10 main_v35 main_c_9 main_v36 (select : (⟨S512, .i1⟩ : BufTy).Contents (Elt F) → (⟨S512, .i32⟩ : BufTy).Contents (Elt F) → (⟨S512, .i32⟩ : BufTy).Contents (Elt F) → (⟨S512, .i32⟩ : BufTy).Contents (Elt F)) ⟨by decide, rfl⟩ ⟨by decide, rfl⟩ ⟨by decide, rfl⟩ ⟨by decide, rfl⟩ rfl (take_eq_of_earlier ops_single V (i := 11) (k := 176) (by decide) (lt_of_lt_of_eq (by decide : 11 < 668) ops_length.symm) (Finset.mem_singleton_self _)) (take_eq_of_earlier ops_single V (i := 175) (k := 176) (by decide) (lt_of_lt_of_eq (by decide : 175 < 668) ops_length.symm) (Finset.mem_singleton_self _)) (take_eq_of_earlier ops_single V (i := 10) (k := 176) (by decide) (lt_of_lt_of_eq (by decide : 10 < 668) ops_length.symm) (Finset.mem_singleton_self _))
theorem eq_main_v37 (V : Valuation τ sig (Elt F)) :
    after (ops (F := F)) V main_v37 = (broadcastInDim S512x1 ![0] bcast_S512_S512x1_0 : (⟨S512, .i32⟩ : BufTy).Contents (Elt F) → (⟨S512x1, .i32⟩ : BufTy).Contents (Elt F)) (after (ops (F := F)) V main_v36) :=
  unary_eq ops_single V (lt_of_lt_of_eq (by decide : 177 < 668) ops_length.symm) main_v36 main_v37 (broadcastInDim S512x1 ![0] bcast_S512_S512x1_0 : (⟨S512, .i32⟩ : BufTy).Contents (Elt F) → (⟨S512x1, .i32⟩ : BufTy).Contents (Elt F)) ⟨by decide, rfl⟩ ⟨by decide, rfl⟩ rfl (take_eq_of_earlier ops_single V (i := 176) (k := 177) (by decide) (lt_of_lt_of_eq (by decide : 176 < 668) ops_length.symm) (Finset.mem_singleton_self _))
theorem eq_main_v38 (V : Valuation τ sig (Elt F)) :
    after (ops (F := F)) V main_v38 = ((fun x i => Host.gather gather_S8x64x4096x16_S512x1_S8x64x512x16_013_2_n_n_2_1_864116 x i) : (⟨S8x64x4096x16, .f32⟩ : BufTy).Contents (Elt F) → (⟨S512x1, .i32⟩ : BufTy).Contents (Elt F) → (⟨S8x64x512x16, .f32⟩ : BufTy).Contents (Elt F)) (after (ops (F := F)) V main_v33) (after (ops (F := F)) V main_v37) :=
  binary_eq ops_single V (lt_of_lt_of_eq (by decide : 178 < 668) ops_length.symm) main_v33 main_v37 main_v38 ((fun x i => Host.gather gather_S8x64x4096x16_S512x1_S8x64x512x16_013_2_n_n_2_1_864116 x i) : (⟨S8x64x4096x16, .f32⟩ : BufTy).Contents (Elt F) → (⟨S512x1, .i32⟩ : BufTy).Contents (Elt F) → (⟨S8x64x512x16, .f32⟩ : BufTy).Contents (Elt F)) ⟨by decide, rfl⟩ ⟨by decide, rfl⟩ ⟨by decide, rfl⟩ rfl (take_eq_of_earlier ops_single V (i := 172) (k := 178) (by decide) (lt_of_lt_of_eq (by decide : 172 < 668) ops_length.symm) (Finset.mem_singleton_self _)) (take_eq_of_earlier ops_single V (i := 177) (k := 178) (by decide) (lt_of_lt_of_eq (by decide : 177 < 668) ops_length.symm) (Finset.mem_singleton_self _))
theorem eq_main_c_138 (V : Valuation τ sig (Elt F)) :
    after (ops (F := F)) V main_c_138 = (constantI S_ 32 4096#32) :=
  nullary_eq ops_single V (lt_of_lt_of_eq (by decide : 179 < 668) ops_length.symm) main_c_138 (constantI S_ 32 4096#32) ⟨by decide, rfl⟩ rfl

end Cert.ReferenceIdeal.Line

end
-- ==== Proof.RefEq3.lean ====
/-
  The equations of the reference's operations in its window 3: what the whole line leaves at each operation's result is
  the operation's function of what the whole line leaves at its operands.
-/
import proofs.«140659_j42700564857293_1_alg».proof.Proof.RefSingle

noncomputable section

namespace Cert.ReferenceIdeal.Line

open Cert.ReferenceIdeal Cert.ReferenceIdeal.Gen Idealize.ShloMosaic Idealize.ShloMosaic.TcCoe Idealize.SL.Sem Idealize.ShloMosaic.StableHlo Cert.SingleAssignment

variable {F : FTy → Type} [FloatOps F]

theorem eq_main_v39 (V : Valuation τ sig (Elt F)) :
    after (ops (F := F)) V main_v39 = (broadcastInDim S512 ![] bcast_S_S512 : (⟨S_, .i32⟩ : BufTy).Contents (Elt F) → (⟨S512, .i32⟩ : BufTy).Contents (Elt F)) (after (ops (F := F)) V main_c_138) :=
  unary_eq ops_single V (lt_of_lt_of_eq (by decide : 180 < 668) ops_length.symm) main_c_138 main_v39 (broadcastInDim S512 ![] bcast_S_S512 : (⟨S_, .i32⟩ : BufTy).Contents (Elt F) → (⟨S512, .i32⟩ : BufTy).Contents (Elt F)) ⟨by decide, rfl⟩ ⟨by decide, rfl⟩ rfl (take_eq_of_earlier ops_single V (i := 179) (k := 180) (by decide) (lt_of_lt_of_eq (by decide : 179 < 668) ops_length.symm) (Finset.mem_singleton_self _))
theorem eq_main_v40 (V : Valuation τ sig (Elt F)) :
    after (ops (F := F)) V main_v40 = (addi : (⟨S512, .i32⟩ : BufTy).Contents (Elt F) → (⟨S512, .i32⟩ : BufTy).Contents (Elt F) → (⟨S512, .i32⟩ : BufTy).Contents (Elt F)) (after (ops (F := F)) V main_c_11) (after (ops (F := F)) V main_v39) :=
  binary_eq ops_single V (lt_of_lt_of_eq (by decide : 181 < 668) ops_length.symm) main_c_11 main_v39 main_v40 (addi : (⟨S512, .i32⟩ : BufTy).Contents (Elt F) → (⟨S512, .i32⟩ : BufTy).Contents (Elt F) → (⟨S512, .i32⟩ : BufTy).Contents (Elt F)) ⟨by decide, rfl⟩ ⟨by decide, rfl⟩ ⟨by decide, rfl⟩ rfl (take_eq_of_earlier ops_single V (i := 12) (k := 181) (by decide) (lt_of_lt_of_eq (by decide : 12 < 668) ops_length.symm) (Finset.mem_singleton_self _)) (take_eq_of_earlier ops_single V (i := 180) (k := 181) (by decide) (lt_of_lt_of_eq (by decide : 180 < 668) ops_length.symm) (Finset.mem_singleton_self _))
theorem eq_main_v41 (V : Valuation τ sig (Elt F)) :
    after (ops (F := F)) V main_v41 = (select : (⟨S512, .i1⟩ : BufTy).Contents (Elt F) → (⟨S512, .i32⟩ : BufTy).Contents (Elt F) → (⟨S512, .i32⟩ : BufTy).Contents (Elt F) → (⟨S512, .i32⟩ : BufTy).Contents (Elt F)) (after (ops (F := F)) V main_c_12) (after (ops (F := F)) V main_v40) (after (ops (F := F)) V main_c_11) :=
  ternary_eq ops_single V (lt_of_lt_of_eq (by decide : 182 < 668) ops_length.symm) main_c_12 main_v40 main_c_11 main_v41 (select : (⟨S512, .i1⟩ : BufTy).Contents (Elt F) → (⟨S512, .i32⟩ : BufTy).Contents (Elt F) → (⟨S512, .i32⟩ : BufTy).Contents (Elt F) → (⟨S512, .i32⟩ : BufTy).Contents (Elt F)) ⟨by decide, rfl⟩ ⟨by decide, rfl⟩ ⟨by decide, rfl⟩ ⟨by decide, rfl⟩ rfl (take_eq_of_earlier ops_single V (i := 13) (k := 182) (by decide) (lt_of_lt_of_eq (by decide : 13 < 668) ops_length.symm) (Finset.mem_singleton_self _)) (take_eq_of_earlier ops_single V (i := 181) (k := 182) (by decide) (lt_of_lt_of_eq (by decide : 181 < 668) ops_length.symm) (Finset.mem_singleton_self _)) (take_eq_of_earlier ops_single V (i := 12) (k := 182) (by decide) (lt_of_lt_of_eq (by decide : 12 < 668) ops_length.symm) (Finset.mem_singleton_self _))
theorem eq_main_v42 (V : Valuation τ sig (Elt F)) :
    after (ops (F := F)) V main_v42 = (broadcastInDim S512x1 ![0] bcast_S512_S512x1_0 : (⟨S512, .i32⟩ : BufTy).Contents (Elt F) → (⟨S512x1, .i32⟩ : BufTy).Contents (Elt F)) (after (ops (F := F)) V main_v41) :=
  unary_eq ops_single V (lt_of_lt_of_eq (by decide : 183 < 668) ops_length.symm) main_v41 main_v42 (broadcastInDim S512x1 ![0] bcast_S512_S512x1_0 : (⟨S512, .i32⟩ : BufTy).Contents (Elt F) → (⟨S512x1, .i32⟩ : BufTy).Contents (Elt F)) ⟨by decide, rfl⟩ ⟨by decide, rfl⟩ rfl (take_eq_of_earlier ops_single V (i := 182) (k := 183) (by decide) (lt_of_lt_of_eq (by decide : 182 < 668) ops_length.symm) (Finset.mem_singleton_self _))
theorem eq_main_v43 (V : Valuation τ sig (Elt F)) :
    after (ops (F := F)) V main_v43 = ((fun x i => Host.gather gather_S8x64x4096x16_S512x1_S8x64x512x16_013_2_n_n_2_1_864116 x i) : (⟨S8x64x4096x16, .f32⟩ : BufTy).Contents (Elt F) → (⟨S512x1, .i32⟩ : BufTy).Contents (Elt F) → (⟨S8x64x512x16, .f32⟩ : BufTy).Contents (Elt F)) (after (ops (F := F)) V main_v33) (after (ops (F := F)) V main_v42) :=
  binary_eq ops_single V (lt_of_lt_of_eq (by decide : 184 < 668) ops_length.symm) main_v33 main_v42 main_v43 ((fun x i => Host.gather gather_S8x64x4096x16_S512x1_S8x64x512x16_013_2_n_n_2_1_864116 x i) : (⟨S8x64x4096x16, .f32⟩ : BufTy).Contents (Elt F) → (⟨S512x1, .i32⟩ : BufTy).Contents (Elt F) → (⟨S8x64x512x16, .f32⟩ : BufTy).Contents (Elt F)) ⟨by decide, rfl⟩ ⟨by decide, rfl⟩ ⟨by decide, rfl⟩ rfl (take_eq_of_earlier ops_single V (i := 172) (k := 184) (by decide) (lt_of_lt_of_eq (by decide : 172 < 668) ops_length.symm) (Finset.mem_singleton_self _)) (take_eq_of_earlier ops_single V (i := 183) (k := 184) (by decide) (lt_of_lt_of_eq (by decide : 183 < 668) ops_length.symm) (Finset.mem_singleton_self _))
theorem eq_main_v44 (V : Valuation τ sig (Elt F)) :
    after (ops (F := F)) V main_v44 = (addf : (⟨S8x64x512x16, .f32⟩ : BufTy).Contents (Elt F) → (⟨S8x64x512x16, .f32⟩ : BufTy).Contents (Elt F) → (⟨S8x64x512x16, .f32⟩ : BufTy).Contents (Elt F)) (after (ops (F := F)) V main_v38) (after (ops (F := F)) V main_v43) :=
  binary_eq ops_single V (lt_of_lt_of_eq (by decide : 185 < 668) ops_length.symm) main_v38 main_v43 main_v44 (addf : (⟨S8x64x512x16, .f32⟩ : BufTy).Contents (Elt F) → (⟨S8x64x512x16, .f32⟩ : BufTy).Contents (Elt F) → (⟨S8x64x512x16, .f32⟩ : BufTy).Contents (Elt F)) ⟨by decide, rfl⟩ ⟨by decide, rfl⟩ ⟨by decide, rfl⟩ rfl (take_eq_of_earlier ops_single V (i := 178) (k := 185) (by decide) (lt_of_lt_of_eq (by decide : 178 < 668) ops_length.symm) (Finset.mem_singleton_self _)) (take_eq_of_earlier ops_single V (i := 184) (k := 185) (by decide) (lt_of_lt_of_eq (by decide : 184 < 668) ops_length.symm) (Finset.mem_singleton_self _))
theorem eq_main_c_139 (V : Valuation τ sig (Elt F)) :
    after (ops (F := F)) V main_c_139 = (constantI S_ 32 4096#32) :=
  nullary_eq ops_single V (lt_of_lt_of_eq (by decide : 186 < 668) ops_length.symm) main_c_139 (constantI S_ 32 4096#32) ⟨by decide, rfl⟩ rfl
theorem eq_main_v45 (V : Valuation τ sig (Elt F)) :
    after (ops (F := F)) V main_v45 = (broadcastInDim S512 ![] bcast_S_S512 : (⟨S_, .i32⟩ : BufTy).Contents (Elt F) → (⟨S512, .i32⟩ : BufTy).Contents (Elt F)) (after (ops (F := F)) V main_c_139) :=
  unary_eq ops_single V (lt_of_lt_of_eq (by decide : 187 < 668) ops_length.symm) main_c_139 main_v45 (broadcastInDim S512 ![] bcast_S_S512 : (⟨S_, .i32⟩ : BufTy).Contents (Elt F) → (⟨S512, .i32⟩ : BufTy).Contents (Elt F)) ⟨by decide, rfl⟩ ⟨by decide, rfl⟩ rfl (take_eq_of_earlier ops_single V (i := 186) (k := 187) (by decide) (lt_of_lt_of_eq (by decide : 186 < 668) ops_length.symm) (Finset.mem_singleton_self _))
theorem eq_main_v46 (V : Valuation τ sig (Elt F)) :
    after (ops (F := F)) V main_v46 = (addi : (⟨S512, .i32⟩ : BufTy).Contents (Elt F) → (⟨S512, .i32⟩ : BufTy).Contents (Elt F) → (⟨S512, .i32⟩ : BufTy).Contents (Elt F)) (after (ops (F := F)) V main_c_11) (after (ops (F := F)) V main_v45) :=
  binary_eq ops_single V (lt_of_lt_of_eq (by decide : 188 < 668) ops_length.symm) main_c_11 main_v45 main_v46 (addi : (⟨S512, .i32⟩ : BufTy).Contents (Elt F) → (⟨S512, .i32⟩ : BufTy).Contents (Elt F) → (⟨S512, .i32⟩ : BufTy).Contents (Elt F)) ⟨by decide, rfl⟩ ⟨by decide, rfl⟩ ⟨by decide, rfl⟩ rfl (take_eq_of_earlier ops_single V (i := 12) (k := 188) (by decide) (lt_of_lt_of_eq (by decide : 12 < 668) ops_length.symm) (Finset.mem_singleton_self _)) (take_eq_of_earlier ops_single V (i := 187) (k := 188) (by decide) (lt_of_lt_of_eq (by decide : 187 < 668) ops_length.symm) (Finset.mem_singleton_self _))
theorem eq_main_v47 (V : Valuation τ sig (Elt F)) :
    after (ops (F := F)) V main_v47 = (select : (⟨S512, .i1⟩ : BufTy).Contents (Elt F) → (⟨S512, .i32⟩ : BufTy).Contents (Elt F) → (⟨S512, .i32⟩ : BufTy).Contents (Elt F) → (⟨S512, .i32⟩ : BufTy).Contents (Elt F)) (after (ops (F := F)) V main_c_13) (after (ops (F := F)) V main_v46) (after (ops (F := F)) V main_c_11) :=
  ternary_eq ops_single V (lt_of_lt_of_eq (by decide : 189 < 668) ops_length.symm) main_c_13 main_v46 main_c_11 main_v47 (select : (⟨S512, .i1⟩ : BufTy).Contents (Elt F) → (⟨S512, .i32⟩ : BufTy).Contents (Elt F) → (⟨S512, .i32⟩ : BufTy).Contents (Elt F) → (⟨S512, .i32⟩ : BufTy).Contents (Elt F)) ⟨by decide, rfl⟩ ⟨by decide, rfl⟩ ⟨by decide, rfl⟩ ⟨by decide, rfl⟩ rfl (take_eq_of_earlier ops_single V (i := 14) (k := 189) (by decide) (lt_of_lt_of_eq (by decide : 14 < 668) ops_length.symm) (Finset.mem_singleton_self _)) (take_eq_of_earlier ops_single V (i := 188) (k := 189) (by decide) (lt_of_lt_of_eq (by decide : 188 < 668) ops_length.symm) (Finset.mem_singleton_self _)) (take_eq_of_earlier ops_single V (i := 12) (k := 189) (by decide) (lt_of_lt_of_eq (by decide : 12 < 668) ops_length.symm) (Finset.mem_singleton_self _))
theorem eq_main_v48 (V : Valuation τ sig (Elt F)) :
    after (ops (F := F)) V main_v48 = (broadcastInDim S512x1 ![0] bcast_S512_S512x1_0 : (⟨S512, .i32⟩ : BufTy).Contents (Elt F) → (⟨S512x1, .i32⟩ : BufTy).Contents (Elt F)) (after (ops (F := F)) V main_v47) :=
  unary_eq ops_single V (lt_of_lt_of_eq (by decide : 190 < 668) ops_length.symm) main_v47 main_v48 (broadcastInDim S512x1 ![0] bcast_S512_S512x1_0 : (⟨S512, .i32⟩ : BufTy).Contents (Elt F) → (⟨S512x1, .i32⟩ : BufTy).Contents (Elt F)) ⟨by decide, rfl⟩ ⟨by decide, rfl⟩ rfl (take_eq_of_earlier ops_single V (i := 189) (k := 190) (by decide) (lt_of_lt_of_eq (by decide : 189 < 668) ops_length.symm) (Finset.mem_singleton_self _))
theorem eq_main_v49 (V : Valuation τ sig (Elt F)) :
    after (ops (F := F)) V main_v49 = ((fun x i u => Host.scatter scatter_S8x64x4096x16_S512x1_S8x64x512x16_013_2_2_1 (fun _ b => b) x i u) : (⟨S8x64x4096x16, .f32⟩ : BufTy).Contents (Elt F) → (⟨S512x1, .i32⟩ : BufTy).Contents (Elt F) → (⟨S8x64x512x16, .f32⟩ : BufTy).Contents (Elt F) → (⟨S8x64x4096x16, .f32⟩ : BufTy).Contents (Elt F)) (after (ops (F := F)) V main_v33) (after (ops (F := F)) V main_v48) (after (ops (F := F)) V main_v44) :=
  ternary_eq ops_single V (lt_of_lt_of_eq (by decide : 191 < 668) ops_length.symm) main_v33 main_v48 main_v44 main_v49 ((fun x i u => Host.scatter scatter_S8x64x4096x16_S512x1_S8x64x512x16_013_2_2_1 (fun _ b => b) x i u) : (⟨S8x64x4096x16, .f32⟩ : BufTy).Contents (Elt F) → (⟨S512x1, .i32⟩ : BufTy).Contents (Elt F) → (⟨S8x64x512x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 172) (k := 191) (by decide) (lt_of_lt_of_eq (by decide : 172 < 668) ops_length.symm) (Finset.mem_singleton_self _)) (take_eq_of_earlier ops_single V (i := 190) (k := 191) (by decide) (lt_of_lt_of_eq (by decide : 190 < 668) ops_length.symm) (Finset.mem_singleton_self _)) (take_eq_of_earlier ops_single V (i := 185) (k := 191) (by decide) (lt_of_lt_of_eq (by decide : 185 < 668) ops_length.symm) (Finset.mem_singleton_self _))
theorem eq_main_c_140 (V : Valuation τ sig (Elt F)) :
    after (ops (F := F)) V main_c_140 = (constantI S_ 32 4096#32) :=
  nullary_eq ops_single V (lt_of_lt_of_eq (by decide : 192 < 668) ops_length.symm) main_c_140 (constantI S_ 32 4096#32) ⟨by decide, rfl⟩ rfl
theorem eq_main_v50 (V : Valuation τ sig (Elt F)) :
    after (ops (F := F)) V main_v50 = (broadcastInDim S256 ![] bcast_S_S256 : (⟨S_, .i32⟩ : BufTy).Contents (Elt F) → (⟨S256, .i32⟩ : BufTy).Contents (Elt F)) (after (ops (F := F)) V main_c_140) :=
  unary_eq ops_single V (lt_of_lt_of_eq (by decide : 193 < 668) ops_length.symm) main_c_140 main_v50 (broadcastInDim S256 ![] bcast_S_S256 : (⟨S_, .i32⟩ : BufTy).Contents (Elt F) → (⟨S256, .i32⟩ : BufTy).Contents (Elt F)) ⟨by decide, rfl⟩ ⟨by decide, rfl⟩ rfl (take_eq_of_earlier ops_single V (i := 192) (k := 193) (by decide) (lt_of_lt_of_eq (by decide : 192 < 668) ops_length.symm) (Finset.mem_singleton_self _))
theorem eq_main_v51 (V : Valuation τ sig (Elt F)) :
    after (ops (F := F)) V main_v51 = (addi : (⟨S256, .i32⟩ : BufTy).Contents (Elt F) → (⟨S256, .i32⟩ : BufTy).Contents (Elt F) → (⟨S256, .i32⟩ : BufTy).Contents (Elt F)) (after (ops (F := F)) V main_c_14) (after (ops (F := F)) V main_v50) :=
  binary_eq ops_single V (lt_of_lt_of_eq (by decide : 194 < 668) ops_length.symm) main_c_14 main_v50 main_v51 (addi : (⟨S256, .i32⟩ : BufTy).Contents (Elt F) → (⟨S256, .i32⟩ : BufTy).Contents (Elt F) → (⟨S256, .i32⟩ : BufTy).Contents (Elt F)) ⟨by decide, rfl⟩ ⟨by decide, rfl⟩ ⟨by decide, rfl⟩ rfl (take_eq_of_earlier ops_single V (i := 15) (k := 194) (by decide) (lt_of_lt_of_eq (by decide : 15 < 668) ops_length.symm) (Finset.mem_singleton_self _)) (take_eq_of_earlier ops_single V (i := 193) (k := 194) (by decide) (lt_of_lt_of_eq (by decide : 193 < 668) ops_length.symm) (Finset.mem_singleton_self _))
theorem eq_main_v52 (V : Valuation τ sig (Elt F)) :
    after (ops (F := F)) V main_v52 = (select : (⟨S256, .i1⟩ : BufTy).Contents (Elt F) → (⟨S256, .i32⟩ : BufTy).Contents (Elt F) → (⟨S256, .i32⟩ : BufTy).Contents (Elt F) → (⟨S256, .i32⟩ : BufTy).Contents (Elt F)) (after (ops (F := F)) V main_c_15) (after (ops (F := F)) V main_v51) (after (ops (F := F)) V main_c_14) :=
  ternary_eq ops_single V (lt_of_lt_of_eq (by decide : 195 < 668) ops_length.symm) main_c_15 main_v51 main_c_14 main_v52 (select : (⟨S256, .i1⟩ : BufTy).Contents (Elt F) → (⟨S256, .i32⟩ : BufTy).Contents (Elt F) → (⟨S256, .i32⟩ : BufTy).Contents (Elt F) → (⟨S256, .i32⟩ : BufTy).Contents (Elt F)) ⟨by decide, rfl⟩ ⟨by decide, rfl⟩ ⟨by decide, rfl⟩ ⟨by decide, rfl⟩ rfl (take_eq_of_earlier ops_single V (i := 16) (k := 195) (by decide) (lt_of_lt_of_eq (by decide : 16 < 668) ops_length.symm) (Finset.mem_singleton_self _)) (take_eq_of_earlier ops_single V (i := 194) (k := 195) (by decide) (lt_of_lt_of_eq (by decide : 194 < 668) ops_length.symm) (Finset.mem_singleton_self _)) (take_eq_of_earlier ops_single V (i := 15) (k := 195) (by decide) (lt_of_lt_of_eq (by decide : 15 < 668) ops_length.symm) (Finset.mem_singleton_self _))
theorem eq_main_v53 (V : Valuation τ sig (Elt F)) :
    after (ops (F := F)) V main_v53 = (broadcastInDim S256x1 ![0] bcast_S256_S256x1_0 : (⟨S256, .i32⟩ : BufTy).Contents (Elt F) → (⟨S256x1, .i32⟩ : BufTy).Contents (Elt F)) (after (ops (F := F)) V main_v52) :=
  unary_eq ops_single V (lt_of_lt_of_eq (by decide : 196 < 668) ops_length.symm) main_v52 main_v53 (broadcastInDim S256x1 ![0] bcast_S256_S256x1_0 : (⟨S256, .i32⟩ : BufTy).Contents (Elt F) → (⟨S256x1, .i32⟩ : BufTy).Contents (Elt F)) ⟨by decide, rfl⟩ ⟨by decide, rfl⟩ rfl (take_eq_of_earlier ops_single V (i := 195) (k := 196) (by decide) (lt_of_lt_of_eq (by decide : 195 < 668) ops_length.symm) (Finset.mem_singleton_self _))
theorem eq_main_v54 (V : Valuation τ sig (Elt F)) :
    after (ops (F := F)) V main_v54 = ((fun x i => Host.gather gather_S8x64x4096x16_S256x1_S8x64x256x16_013_2_n_n_2_1_864116 x i) : (⟨S8x64x4096x16, .f32⟩ : BufTy).Contents (Elt F) → (⟨S256x1, .i32⟩ : BufTy).Contents (Elt F) → (⟨S8x64x256x16, .f32⟩ : BufTy).Contents (Elt F)) (after (ops (F := F)) V main_v49) (after (ops (F := F)) V main_v53) :=
  binary_eq ops_single V (lt_of_lt_of_eq (by decide : 197 < 668) ops_length.symm) main_v49 main_v53 main_v54 ((fun x i => Host.gather gather_S8x64x4096x16_S256x1_S8x64x256x16_013_2_n_n_2_1_864116 x i) : (⟨S8x64x4096x16, .f32⟩ : BufTy).Contents (Elt F) → (⟨S256x1, .i32⟩ : BufTy).Contents (Elt F) → (⟨S8x64x256x16, .f32⟩ : BufTy).Contents (Elt F)) ⟨by decide, rfl⟩ ⟨by decide, rfl⟩ ⟨by decide, rfl⟩ rfl (take_eq_of_earlier ops_single V (i := 191) (k := 197) (by decide) (lt_of_lt_of_eq (by decide : 191 < 668) ops_length.symm) (Finset.mem_singleton_self _)) (take_eq_of_earlier ops_single V (i := 196) (k := 197) (by decide) (lt_of_lt_of_eq (by decide : 196 < 668) ops_length.symm) (Finset.mem_singleton_self _))
theorem eq_main_c_141 (V : Valuation τ sig (Elt F)) :
    after (ops (F := F)) V main_c_141 = (constantI S_ 32 4096#32) :=
  nullary_eq ops_single V (lt_of_lt_of_eq (by decide : 198 < 668) ops_length.symm) main_c_141 (constantI S_ 32 4096#32) ⟨by decide, rfl⟩ rfl
theorem eq_main_v55 (V : Valuation τ sig (Elt F)) :
    after (ops (F := F)) V main_v55 = (broadcastInDim S256 ![] bcast_S_S256 : (⟨S_, .i32⟩ : BufTy).Contents (Elt F) → (⟨S256, .i32⟩ : BufTy).Contents (Elt F)) (after (ops (F := F)) V main_c_141) :=
  unary_eq ops_single V (lt_of_lt_of_eq (by decide : 199 < 668) ops_length.symm) main_c_141 main_v55 (broadcastInDim S256 ![] bcast_S_S256 : (⟨S_, .i32⟩ : BufTy).Contents (Elt F) → (⟨S256, .i32⟩ : BufTy).Contents (Elt F)) ⟨by decide, rfl⟩ ⟨by decide, rfl⟩ rfl (take_eq_of_earlier ops_single V (i := 198) (k := 199) (by decide) (lt_of_lt_of_eq (by decide : 198 < 668) ops_length.symm) (Finset.mem_singleton_self _))
theorem eq_main_v56 (V : Valuation τ sig (Elt F)) :
    after (ops (F := F)) V main_v56 = (addi : (⟨S256, .i32⟩ : BufTy).Contents (Elt F) → (⟨S256, .i32⟩ : BufTy).Contents (Elt F) → (⟨S256, .i32⟩ : BufTy).Contents (Elt F)) (after (ops (F := F)) V main_c_16) (after (ops (F := F)) V main_v55) :=
  binary_eq ops_single V (lt_of_lt_of_eq (by decide : 200 < 668) ops_length.symm) main_c_16 main_v55 main_v56 (addi : (⟨S256, .i32⟩ : BufTy).Contents (Elt F) → (⟨S256, .i32⟩ : BufTy).Contents (Elt F) → (⟨S256, .i32⟩ : BufTy).Contents (Elt F)) ⟨by decide, rfl⟩ ⟨by decide, rfl⟩ ⟨by decide, rfl⟩ rfl (take_eq_of_earlier ops_single V (i := 17) (k := 200) (by decide) (lt_of_lt_of_eq (by decide : 17 < 668) ops_length.symm) (Finset.mem_singleton_self _)) (take_eq_of_earlier ops_single V (i := 199) (k := 200) (by decide) (lt_of_lt_of_eq (by decide : 199 < 668) ops_length.symm) (Finset.mem_singleton_self _))
theorem eq_main_v57 (V : Valuation τ sig (Elt F)) :
    after (ops (F := F)) V main_v57 = (select : (⟨S256, .i1⟩ : BufTy).Contents (Elt F) → (⟨S256, .i32⟩ : BufTy).Contents (Elt F) → (⟨S256, .i32⟩ : BufTy).Contents (Elt F) → (⟨S256, .i32⟩ : BufTy).Contents (Elt F)) (after (ops (F := F)) V main_c_17) (after (ops (F := F)) V main_v56) (after (ops (F := F)) V main_c_16) :=
  ternary_eq ops_single V (lt_of_lt_of_eq (by decide : 201 < 668) ops_length.symm) main_c_17 main_v56 main_c_16 main_v57 (select : (⟨S256, .i1⟩ : BufTy).Contents (Elt F) → (⟨S256, .i32⟩ : BufTy).Contents (Elt F) → (⟨S256, .i32⟩ : BufTy).Contents (Elt F) → (⟨S256, .i32⟩ : BufTy).Contents (Elt F)) ⟨by decide, rfl⟩ ⟨by decide, rfl⟩ ⟨by decide, rfl⟩ ⟨by decide, rfl⟩ rfl (take_eq_of_earlier ops_single V (i := 18) (k := 201) (by decide) (lt_of_lt_of_eq (by decide : 18 < 668) ops_length.symm) (Finset.mem_singleton_self _)) (take_eq_of_earlier ops_single V (i := 200) (k := 201) (by decide) (lt_of_lt_of_eq (by decide : 200 < 668) ops_length.symm) (Finset.mem_singleton_self _)) (take_eq_of_earlier ops_single V (i := 17) (k := 201) (by decide) (lt_of_lt_of_eq (by decide : 17 < 668) ops_length.symm) (Finset.mem_singleton_self _))
theorem eq_main_v58 (V : Valuation τ sig (Elt F)) :
    after (ops (F := F)) V main_v58 = (broadcastInDim S256x1 ![0] bcast_S256_S256x1_0 : (⟨S256, .i32⟩ : BufTy).Contents (Elt F) → (⟨S256x1, .i32⟩ : BufTy).Contents (Elt F)) (after (ops (F := F)) V main_v57) :=
  unary_eq ops_single V (lt_of_lt_of_eq (by decide : 202 < 668) ops_length.symm) main_v57 main_v58 (broadcastInDim S256x1 ![0] bcast_S256_S256x1_0 : (⟨S256, .i32⟩ : BufTy).Contents (Elt F) → (⟨S256x1, .i32⟩ : BufTy).Contents (Elt F)) ⟨by decide, rfl⟩ ⟨by decide, rfl⟩ rfl (take_eq_of_earlier ops_single V (i := 201) (k := 202) (by decide) (lt_of_lt_of_eq (by decide : 201 < 668) ops_length.symm) (Finset.mem_singleton_self _))
theorem eq_main_v59 (V : Valuation τ sig (Elt F)) :
    after (ops (F := F)) V main_v59 = ((fun x i => Host.gather gather_S8x64x4096x16_S256x1_S8x64x256x16_013_2_n_n_2_1_864116 x i) : (⟨S8x64x4096x16, .f32⟩ : BufTy).Contents (Elt F) → (⟨S256x1, .i32⟩ : BufTy).Contents (Elt F) → (⟨S8x64x256x16, .f32⟩ : BufTy).Contents (Elt F)) (after (ops (F := F)) V main_v49) (after (ops (F := F)) V main_v58) :=
  binary_eq ops_single V (lt_of_lt_of_eq (by decide : 203 < 668) ops_length.symm) main_v49 main_v58 main_v59 ((fun x i => Host.gather gather_S8x64x4096x16_S256x1_S8x64x256x16_013_2_n_n_2_1_864116 x i) : (⟨S8x64x4096x16, .f32⟩ : BufTy).Contents (Elt F) → (⟨S256x1, .i32⟩ : BufTy).Contents (Elt F) → (⟨S8x64x256x16, .f32⟩ : BufTy).Contents (Elt F)) ⟨by decide, rfl⟩ ⟨by decide, rfl⟩ ⟨by decide, rfl⟩ rfl (take_eq_of_earlier ops_single V (i := 191) (k := 203) (by decide) (lt_of_lt_of_eq (by decide : 191 < 668) ops_length.symm) (Finset.mem_singleton_self _)) (take_eq_of_earlier ops_single V (i := 202) (k := 203) (by decide) (lt_of_lt_of_eq (by decide : 202 < 668) ops_length.symm) (Finset.mem_singleton_self _))
theorem eq_main_v60 (V : Valuation τ sig (Elt F)) :
    after (ops (F := F)) V main_v60 = (addf : (⟨S8x64x256x16, .f32⟩ : BufTy).Contents (Elt F) → (⟨S8x64x256x16, .f32⟩ : BufTy).Contents (Elt F) → (⟨S8x64x256x16, .f32⟩ : BufTy).Contents (Elt F)) (after (ops (F := F)) V main_v54) (after (ops (F := F)) V main_v59) :=
  binary_eq ops_single V (lt_of_lt_of_eq (by decide : 204 < 668) ops_length.symm) main_v54 main_v59 main_v60 (addf : (⟨S8x64x256x16, .f32⟩ : BufTy).Contents (Elt F) → (⟨S8x64x256x16, .f32⟩ : BufTy).Contents (Elt F) → (⟨S8x64x256x16, .f32⟩ : BufTy).Contents (Elt F)) ⟨by decide, rfl⟩ ⟨by decide, rfl⟩ ⟨by decide, rfl⟩ rfl (take_eq_of_earlier ops_single V (i := 197) (k := 204) (by decide) (lt_of_lt_of_eq (by decide : 197 < 668) ops_length.symm) (Finset.mem_singleton_self _)) (take_eq_of_earlier ops_single V (i := 203) (k := 204) (by decide) (lt_of_lt_of_eq (by decide : 203 < 668) ops_length.symm) (Finset.mem_singleton_self _))
theorem eq_main_c_142 (V : Valuation τ sig (Elt F)) :
    after (ops (F := F)) V main_c_142 = (constantI S_ 32 4096#32) :=
  nullary_eq ops_single V (lt_of_lt_of_eq (by decide : 205 < 668) ops_length.symm) main_c_142 (constantI S_ 32 4096#32) ⟨by decide, rfl⟩ rfl
theorem eq_main_v61 (V : Valuation τ sig (Elt F)) :
    after (ops (F := F)) V main_v61 = (broadcastInDim S256 ![] bcast_S_S256 : (⟨S_, .i32⟩ : BufTy).Contents (Elt F) → (⟨S256, .i32⟩ : BufTy).Contents (Elt F)) (after (ops (F := F)) V main_c_142) :=
  unary_eq ops_single V (lt_of_lt_of_eq (by decide : 206 < 668) ops_length.symm) main_c_142 main_v61 (broadcastInDim S256 ![] bcast_S_S256 : (⟨S_, .i32⟩ : BufTy).Contents (Elt F) → (⟨S256, .i32⟩ : BufTy).Contents (Elt F)) ⟨by decide, rfl⟩ ⟨by decide, rfl⟩ rfl (take_eq_of_earlier ops_single V (i := 205) (k := 206) (by decide) (lt_of_lt_of_eq (by decide : 205 < 668) ops_length.symm) (Finset.mem_singleton_self _))
theorem eq_main_v62 (V : Valuation τ sig (Elt F)) :
    after (ops (F := F)) V main_v62 = (addi : (⟨S256, .i32⟩ : BufTy).Contents (Elt F) → (⟨S256, .i32⟩ : BufTy).Contents (Elt F) → (⟨S256, .i32⟩ : BufTy).Contents (Elt F)) (after (ops (F := F)) V main_c_16) (after (ops (F := F)) V main_v61) :=
  binary_eq ops_single V (lt_of_lt_of_eq (by decide : 207 < 668) ops_length.symm) main_c_16 main_v61 main_v62 (addi : (⟨S256, .i32⟩ : BufTy).Contents (Elt F) → (⟨S256, .i32⟩ : BufTy).Contents (Elt F) → (⟨S256, .i32⟩ : BufTy).Contents (Elt F)) ⟨by decide, rfl⟩ ⟨by decide, rfl⟩ ⟨by decide, rfl⟩ rfl (take_eq_of_earlier ops_single V (i := 17) (k := 207) (by decide) (lt_of_lt_of_eq (by decide : 17 < 668) ops_length.symm) (Finset.mem_singleton_self _)) (take_eq_of_earlier ops_single V (i := 206) (k := 207) (by decide) (lt_of_lt_of_eq (by decide : 206 < 668) ops_length.symm) (Finset.mem_singleton_self _))
theorem eq_main_v63 (V : Valuation τ sig (Elt F)) :
    after (ops (F := F)) V main_v63 = (select : (⟨S256, .i1⟩ : BufTy).Contents (Elt F) → (⟨S256, .i32⟩ : BufTy).Contents (Elt F) → (⟨S256, .i32⟩ : BufTy).Contents (Elt F) → (⟨S256, .i32⟩ : BufTy).Contents (Elt F)) (after (ops (F := F)) V main_c_18) (after (ops (F := F)) V main_v62) (after (ops (F := F)) V main_c_16) :=
  ternary_eq ops_single V (lt_of_lt_of_eq (by decide : 208 < 668) ops_length.symm) main_c_18 main_v62 main_c_16 main_v63 (select : (⟨S256, .i1⟩ : BufTy).Contents (Elt F) → (⟨S256, .i32⟩ : BufTy).Contents (Elt F) → (⟨S256, .i32⟩ : BufTy).Contents (Elt F) → (⟨S256, .i32⟩ : BufTy).Contents (Elt F)) ⟨by decide, rfl⟩ ⟨by decide, rfl⟩ ⟨by decide, rfl⟩ ⟨by decide, rfl⟩ rfl (take_eq_of_earlier ops_single V (i := 19) (k := 208) (by decide) (lt_of_lt_of_eq (by decide : 19 < 668) ops_length.symm) (Finset.mem_singleton_self _)) (take_eq_of_earlier ops_single V (i := 207) (k := 208) (by decide) (lt_of_lt_of_eq (by decide : 207 < 668) ops_length.symm) (Finset.mem_singleton_self _)) (take_eq_of_earlier ops_single V (i := 17) (k := 208) (by decide) (lt_of_lt_of_eq (by decide : 17 < 668) ops_length.symm) (Finset.mem_singleton_self _))
theorem eq_main_v64 (V : Valuation τ sig (Elt F)) :
    after (ops (F := F)) V main_v64 = (broadcastInDim S256x1 ![0] bcast_S256_S256x1_0 : (⟨S256, .i32⟩ : BufTy).Contents (Elt F) → (⟨S256x1, .i32⟩ : BufTy).Contents (Elt F)) (after (ops (F := F)) V main_v63) :=
  unary_eq ops_single V (lt_of_lt_of_eq (by decide : 209 < 668) ops_length.symm) main_v63 main_v64 (broadcastInDim S256x1 ![0] bcast_S256_S256x1_0 : (⟨S256, .i32⟩ : BufTy).Contents (Elt F) → (⟨S256x1, .i32⟩ : BufTy).Contents (Elt F)) ⟨by decide, rfl⟩ ⟨by decide, rfl⟩ rfl (take_eq_of_earlier ops_single V (i := 208) (k := 209) (by decide) (lt_of_lt_of_eq (by decide : 208 < 668) ops_length.symm) (Finset.mem_singleton_self _))
theorem eq_main_v65 (V : Valuation τ sig (Elt F)) :
    after (ops (F := F)) V main_v65 = ((fun x i u => Host.scatter scatter_S8x64x4096x16_S256x1_S8x64x256x16_013_2_2_1 (fun _ b => b) x i u) : (⟨S8x64x4096x16, .f32⟩ : BufTy).Contents (Elt F) → (⟨S256x1, .i32⟩ : BufTy).Contents (Elt F) → (⟨S8x64x256x16, .f32⟩ : BufTy).Contents (Elt F) → (⟨S8x64x4096x16, .f32⟩ : BufTy).Contents (Elt F)) (after (ops (F := F)) V main_v49) (after (ops (F := F)) V main_v64) (after (ops (F := F)) V main_v60) :=
  ternary_eq ops_single V (lt_of_lt_of_eq (by decide : 210 < 668) ops_length.symm) main_v49 main_v64 main_v60 main_v65 ((fun x i u => Host.scatter scatter_S8x64x4096x16_S256x1_S8x64x256x16_013_2_2_1 (fun _ b => b) x i u) : (⟨S8x64x4096x16, .f32⟩ : BufTy).Contents (Elt F) → (⟨S256x1, .i32⟩ : BufTy).Contents (Elt F) → (⟨S8x64x256x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 191) (k := 210) (by decide) (lt_of_lt_of_eq (by decide : 191 < 668) ops_length.symm) (Finset.mem_singleton_self _)) (take_eq_of_earlier ops_single V (i := 209) (k := 210) (by decide) (lt_of_lt_of_eq (by decide : 209 < 668) ops_length.symm) (Finset.mem_singleton_self _)) (take_eq_of_earlier ops_single V (i := 204) (k := 210) (by decide) (lt_of_lt_of_eq (by decide : 204 < 668) ops_length.symm) (Finset.mem_singleton_self _))
theorem eq_main_c_143 (V : Valuation τ sig (Elt F)) :
    after (ops (F := F)) V main_c_143 = (constantI S_ 32 4096#32) :=
  nullary_eq ops_single V (lt_of_lt_of_eq (by decide : 211 < 668) ops_length.symm) main_c_143 (constantI S_ 32 4096#32) ⟨by decide, rfl⟩ rfl
theorem eq_main_v66 (V : Valuation τ sig (Elt F)) :
    after (ops (F := F)) V main_v66 = (broadcastInDim S128 ![] bcast_S_S128 : (⟨S_, .i32⟩ : BufTy).Contents (Elt F) → (⟨S128, .i32⟩ : BufTy).Contents (Elt F)) (after (ops (F := F)) V main_c_143) :=
  unary_eq ops_single V (lt_of_lt_of_eq (by decide : 212 < 668) ops_length.symm) main_c_143 main_v66 (broadcastInDim S128 ![] bcast_S_S128 : (⟨S_, .i32⟩ : BufTy).Contents (Elt F) → (⟨S128, .i32⟩ : BufTy).Contents (Elt F)) ⟨by decide, rfl⟩ ⟨by decide, rfl⟩ rfl (take_eq_of_earlier ops_single V (i := 211) (k := 212) (by decide) (lt_of_lt_of_eq (by decide : 211 < 668) ops_length.symm) (Finset.mem_singleton_self _))
theorem eq_main_v67 (V : Valuation τ sig (Elt F)) :
    after (ops (F := F)) V main_v67 = (addi : (⟨S128, .i32⟩ : BufTy).Contents (Elt F) → (⟨S128, .i32⟩ : BufTy).Contents (Elt F) → (⟨S128, .i32⟩ : BufTy).Contents (Elt F)) (after (ops (F := F)) V main_c_19) (after (ops (F := F)) V main_v66) :=
  binary_eq ops_single V (lt_of_lt_of_eq (by decide : 213 < 668) ops_length.symm) main_c_19 main_v66 main_v67 (addi : (⟨S128, .i32⟩ : BufTy).Contents (Elt F) → (⟨S128, .i32⟩ : BufTy).Contents (Elt F) → (⟨S128, .i32⟩ : BufTy).Contents (Elt F)) ⟨by decide, rfl⟩ ⟨by decide, rfl⟩ ⟨by decide, rfl⟩ rfl (take_eq_of_earlier ops_single V (i := 20) (k := 213) (by decide) (lt_of_lt_of_eq (by decide : 20 < 668) ops_length.symm) (Finset.mem_singleton_self _)) (take_eq_of_earlier ops_single V (i := 212) (k := 213) (by decide) (lt_of_lt_of_eq (by decide : 212 < 668) ops_length.symm) (Finset.mem_singleton_self _))
theorem eq_main_v68 (V : Valuation τ sig (Elt F)) :
    after (ops (F := F)) V main_v68 = (select : (⟨S128, .i1⟩ : BufTy).Contents (Elt F) → (⟨S128, .i32⟩ : BufTy).Contents (Elt F) → (⟨S128, .i32⟩ : BufTy).Contents (Elt F) → (⟨S128, .i32⟩ : BufTy).Contents (Elt F)) (after (ops (F := F)) V main_c_20) (after (ops (F := F)) V main_v67) (after (ops (F := F)) V main_c_19) :=
  ternary_eq ops_single V (lt_of_lt_of_eq (by decide : 214 < 668) ops_length.symm) main_c_20 main_v67 main_c_19 main_v68 (select : (⟨S128, .i1⟩ : BufTy).Contents (Elt F) → (⟨S128, .i32⟩ : BufTy).Contents (Elt F) → (⟨S128, .i32⟩ : BufTy).Contents (Elt F) → (⟨S128, .i32⟩ : BufTy).Contents (Elt F)) ⟨by decide, rfl⟩ ⟨by decide, rfl⟩ ⟨by decide, rfl⟩ ⟨by decide, rfl⟩ rfl (take_eq_of_earlier ops_single V (i := 21) (k := 214) (by decide) (lt_of_lt_of_eq (by decide : 21 < 668) ops_length.symm) (Finset.mem_singleton_self _)) (take_eq_of_earlier ops_single V (i := 213) (k := 214) (by decide) (lt_of_lt_of_eq (by decide : 213 < 668) ops_length.symm) (Finset.mem_singleton_self _)) (take_eq_of_earlier ops_single V (i := 20) (k := 214) (by decide) (lt_of_lt_of_eq (by decide : 20 < 668) ops_length.symm) (Finset.mem_singleton_self _))
theorem eq_main_v69 (V : Valuation τ sig (Elt F)) :
    after (ops (F := F)) V main_v69 = (broadcastInDim S128x1 ![0] bcast_S128_S128x1_0 : (⟨S128, .i32⟩ : BufTy).Contents (Elt F) → (⟨S128x1, .i32⟩ : BufTy).Contents (Elt F)) (after (ops (F := F)) V main_v68) :=
  unary_eq ops_single V (lt_of_lt_of_eq (by decide : 215 < 668) ops_length.symm) main_v68 main_v69 (broadcastInDim S128x1 ![0] bcast_S128_S128x1_0 : (⟨S128, .i32⟩ : BufTy).Contents (Elt F) → (⟨S128x1, .i32⟩ : BufTy).Contents (Elt F)) ⟨by decide, rfl⟩ ⟨by decide, rfl⟩ rfl (take_eq_of_earlier ops_single V (i := 214) (k := 215) (by decide) (lt_of_lt_of_eq (by decide : 214 < 668) ops_length.symm) (Finset.mem_singleton_self _))
theorem eq_main_v70 (V : Valuation τ sig (Elt F)) :
    after (ops (F := F)) V main_v70 = ((fun x i => Host.gather gather_S8x64x4096x16_S128x1_S8x64x128x16_013_2_n_n_2_1_864116 x i) : (⟨S8x64x4096x16, .f32⟩ : BufTy).Contents (Elt F) → (⟨S128x1, .i32⟩ : BufTy).Contents (Elt F) → (⟨S8x64x128x16, .f32⟩ : BufTy).Contents (Elt F)) (after (ops (F := F)) V main_v65) (after (ops (F := F)) V main_v69) :=
  binary_eq ops_single V (lt_of_lt_of_eq (by decide : 216 < 668) ops_length.symm) main_v65 main_v69 main_v70 ((fun x i => Host.gather gather_S8x64x4096x16_S128x1_S8x64x128x16_013_2_n_n_2_1_864116 x i) : (⟨S8x64x4096x16, .f32⟩ : BufTy).Contents (Elt F) → (⟨S128x1, .i32⟩ : BufTy).Contents (Elt F) → (⟨S8x64x128x16, .f32⟩ : BufTy).Contents (Elt F)) ⟨by decide, rfl⟩ ⟨by decide, rfl⟩ ⟨by decide, rfl⟩ rfl (take_eq_of_earlier ops_single V (i := 210) (k := 216) (by decide) (lt_of_lt_of_eq (by decide : 210 < 668) ops_length.symm) (Finset.mem_singleton_self _)) (take_eq_of_earlier ops_single V (i := 215) (k := 216) (by decide) (lt_of_lt_of_eq (by decide : 215 < 668) ops_length.symm) (Finset.mem_singleton_self _))
theorem eq_main_c_144 (V : Valuation τ sig (Elt F)) :
    after (ops (F := F)) V main_c_144 = (constantI S_ 32 4096#32) :=
  nullary_eq ops_single V (lt_of_lt_of_eq (by decide : 217 < 668) ops_length.symm) main_c_144 (constantI S_ 32 4096#32) ⟨by decide, rfl⟩ rfl
theorem eq_main_v71 (V : Valuation τ sig (Elt F)) :
    after (ops (F := F)) V main_v71 = (broadcastInDim S128 ![] bcast_S_S128 : (⟨S_, .i32⟩ : BufTy).Contents (Elt F) → (⟨S128, .i32⟩ : BufTy).Contents (Elt F)) (after (ops (F := F)) V main_c_144) :=
  unary_eq ops_single V (lt_of_lt_of_eq (by decide : 218 < 668) ops_length.symm) main_c_144 main_v71 (broadcastInDim S128 ![] bcast_S_S128 : (⟨S_, .i32⟩ : BufTy).Contents (Elt F) → (⟨S128, .i32⟩ : BufTy).Contents (Elt F)) ⟨by decide, rfl⟩ ⟨by decide, rfl⟩ rfl (take_eq_of_earlier ops_single V (i := 217) (k := 218) (by decide) (lt_of_lt_of_eq (by decide : 217 < 668) ops_length.symm) (Finset.mem_singleton_self _))
theorem eq_main_v72 (V : Valuation τ sig (Elt F)) :
    after (ops (F := F)) V main_v72 = (addi : (⟨S128, .i32⟩ : BufTy).Contents (Elt F) → (⟨S128, .i32⟩ : BufTy).Contents (Elt F) → (⟨S128, .i32⟩ : BufTy).Contents (Elt F)) (after (ops (F := F)) V main_c_21) (after (ops (F := F)) V main_v71) :=
  binary_eq ops_single V (lt_of_lt_of_eq (by decide : 219 < 668) ops_length.symm) main_c_21 main_v71 main_v72 (addi : (⟨S128, .i32⟩ : BufTy).Contents (Elt F) → (⟨S128, .i32⟩ : BufTy).Contents (Elt F) → (⟨S128, .i32⟩ : BufTy).Contents (Elt F)) ⟨by decide, rfl⟩ ⟨by decide, rfl⟩ ⟨by decide, rfl⟩ rfl (take_eq_of_earlier ops_single V (i := 22) (k := 219) (by decide) (lt_of_lt_of_eq (by decide : 22 < 668) ops_length.symm) (Finset.mem_singleton_self _)) (take_eq_of_earlier ops_single V (i := 218) (k := 219) (by decide) (lt_of_lt_of_eq (by decide : 218 < 668) ops_length.symm) (Finset.mem_singleton_self _))
theorem eq_main_v73 (V : Valuation τ sig (Elt F)) :
    after (ops (F := F)) V main_v73 = (select : (⟨S128, .i1⟩ : BufTy).Contents (Elt F) → (⟨S128, .i32⟩ : BufTy).Contents (Elt F) → (⟨S128, .i32⟩ : BufTy).Contents (Elt F) → (⟨S128, .i32⟩ : BufTy).Contents (Elt F)) (after (ops (F := F)) V main_c_22) (after (ops (F := F)) V main_v72) (after (ops (F := F)) V main_c_21) :=
  ternary_eq ops_single V (lt_of_lt_of_eq (by decide : 220 < 668) ops_length.symm) main_c_22 main_v72 main_c_21 main_v73 (select : (⟨S128, .i1⟩ : BufTy).Contents (Elt F) → (⟨S128, .i32⟩ : BufTy).Contents (Elt F) → (⟨S128, .i32⟩ : BufTy).Contents (Elt F) → (⟨S128, .i32⟩ : BufTy).Contents (Elt F)) ⟨by decide, rfl⟩ ⟨by decide, rfl⟩ ⟨by decide, rfl⟩ ⟨by decide, rfl⟩ rfl (take_eq_of_earlier ops_single V (i := 23) (k := 220) (by decide) (lt_of_lt_of_eq (by decide : 23 < 668) ops_length.symm) (Finset.mem_singleton_self _)) (take_eq_of_earlier ops_single V (i := 219) (k := 220) (by decide) (lt_of_lt_of_eq (by decide : 219 < 668) ops_length.symm) (Finset.mem_singleton_self _)) (take_eq_of_earlier ops_single V (i := 22) (k := 220) (by decide) (lt_of_lt_of_eq (by decide : 22 < 668) ops_length.symm) (Finset.mem_singleton_self _))
theorem eq_main_v74 (V : Valuation τ sig (Elt F)) :
    after (ops (F := F)) V main_v74 = (broadcastInDim S128x1 ![0] bcast_S128_S128x1_0 : (⟨S128, .i32⟩ : BufTy).Contents (Elt F) → (⟨S128x1, .i32⟩ : BufTy).Contents (Elt F)) (after (ops (F := F)) V main_v73) :=
  unary_eq ops_single V (lt_of_lt_of_eq (by decide : 221 < 668) ops_length.symm) main_v73 main_v74 (broadcastInDim S128x1 ![0] bcast_S128_S128x1_0 : (⟨S128, .i32⟩ : BufTy).Contents (Elt F) → (⟨S128x1, .i32⟩ : BufTy).Contents (Elt F)) ⟨by decide, rfl⟩ ⟨by decide, rfl⟩ rfl (take_eq_of_earlier ops_single V (i := 220) (k := 221) (by decide) (lt_of_lt_of_eq (by decide : 220 < 668) ops_length.symm) (Finset.mem_singleton_self _))
theorem eq_main_v75 (V : Valuation τ sig (Elt F)) :
    after (ops (F := F)) V main_v75 = ((fun x i => Host.gather gather_S8x64x4096x16_S128x1_S8x64x128x16_013_2_n_n_2_1_864116 x i) : (⟨S8x64x4096x16, .f32⟩ : BufTy).Contents (Elt F) → (⟨S128x1, .i32⟩ : BufTy).Contents (Elt F) → (⟨S8x64x128x16, .f32⟩ : BufTy).Contents (Elt F)) (after (ops (F := F)) V main_v65) (after (ops (F := F)) V main_v74) :=
  binary_eq ops_single V (lt_of_lt_of_eq (by decide : 222 < 668) ops_length.symm) main_v65 main_v74 main_v75 ((fun x i => Host.gather gather_S8x64x4096x16_S128x1_S8x64x128x16_013_2_n_n_2_1_864116 x i) : (⟨S8x64x4096x16, .f32⟩ : BufTy).Contents (Elt F) → (⟨S128x1, .i32⟩ : BufTy).Contents (Elt F) → (⟨S8x64x128x16, .f32⟩ : BufTy).Contents (Elt F)) ⟨by decide, rfl⟩ ⟨by decide, rfl⟩ ⟨by decide, rfl⟩ rfl (take_eq_of_earlier ops_single V (i := 210) (k := 222) (by decide) (lt_of_lt_of_eq (by decide : 210 < 668) ops_length.symm) (Finset.mem_singleton_self _)) (take_eq_of_earlier ops_single V (i := 221) (k := 222) (by decide) (lt_of_lt_of_eq (by decide : 221 < 668) ops_length.symm) (Finset.mem_singleton_self _))
theorem eq_main_v76 (V : Valuation τ sig (Elt F)) :
    after (ops (F := F)) V main_v76 = (addf : (⟨S8x64x128x16, .f32⟩ : BufTy).Contents (Elt F) → (⟨S8x64x128x16, .f32⟩ : BufTy).Contents (Elt F) → (⟨S8x64x128x16, .f32⟩ : BufTy).Contents (Elt F)) (after (ops (F := F)) V main_v70) (after (ops (F := F)) V main_v75) :=
  binary_eq ops_single V (lt_of_lt_of_eq (by decide : 223 < 668) ops_length.symm) main_v70 main_v75 main_v76 (addf : (⟨S8x64x128x16, .f32⟩ : BufTy).Contents (Elt F) → (⟨S8x64x128x16, .f32⟩ : BufTy).Contents (Elt F) → (⟨S8x64x128x16, .f32⟩ : BufTy).Contents (Elt F)) ⟨by decide, rfl⟩ ⟨by decide, rfl⟩ ⟨by decide, rfl⟩ rfl (take_eq_of_earlier ops_single V (i := 216) (k := 223) (by decide) (lt_of_lt_of_eq (by decide : 216 < 668) ops_length.symm) (Finset.mem_singleton_self _)) (take_eq_of_earlier ops_single V (i := 222) (k := 223) (by decide) (lt_of_lt_of_eq (by decide : 222 < 668) ops_length.symm) (Finset.mem_singleton_self _))
theorem eq_main_c_145 (V : Valuation τ sig (Elt F)) :
    after (ops (F := F)) V main_c_145 = (constantI S_ 32 4096#32) :=
  nullary_eq ops_single V (lt_of_lt_of_eq (by decide : 224 < 668) ops_length.symm) main_c_145 (constantI S_ 32 4096#32) ⟨by decide, rfl⟩ rfl
theorem eq_main_v77 (V : Valuation τ sig (Elt F)) :
    after (ops (F := F)) V main_v77 = (broadcastInDim S128 ![] bcast_S_S128 : (⟨S_, .i32⟩ : BufTy).Contents (Elt F) → (⟨S128, .i32⟩ : BufTy).Contents (Elt F)) (after (ops (F := F)) V main_c_145) :=
  unary_eq ops_single V (lt_of_lt_of_eq (by decide : 225 < 668) ops_length.symm) main_c_145 main_v77 (broadcastInDim S128 ![] bcast_S_S128 : (⟨S_, .i32⟩ : BufTy).Contents (Elt F) → (⟨S128, .i32⟩ : BufTy).Contents (Elt F)) ⟨by decide, rfl⟩ ⟨by decide, rfl⟩ rfl (take_eq_of_earlier ops_single V (i := 224) (k := 225) (by decide) (lt_of_lt_of_eq (by decide : 224 < 668) ops_length.symm) (Finset.mem_singleton_self _))
theorem eq_main_v78 (V : Valuation τ sig (Elt F)) :
    after (ops (F := F)) V main_v78 = (addi : (⟨S128, .i32⟩ : BufTy).Contents (Elt F) → (⟨S128, .i32⟩ : BufTy).Contents (Elt F) → (⟨S128, .i32⟩ : BufTy).Contents (Elt F)) (after (ops (F := F)) V main_c_21) (after (ops (F := F)) V main_v77) :=
  binary_eq ops_single V (lt_of_lt_of_eq (by decide : 226 < 668) ops_length.symm) main_c_21 main_v77 main_v78 (addi : (⟨S128, .i32⟩ : BufTy).Contents (Elt F) → (⟨S128, .i32⟩ : BufTy).Contents (Elt F) → (⟨S128, .i32⟩ : BufTy).Contents (Elt F)) ⟨by decide, rfl⟩ ⟨by decide, rfl⟩ ⟨by decide, rfl⟩ rfl (take_eq_of_earlier ops_single V (i := 22) (k := 226) (by decide) (lt_of_lt_of_eq (by decide : 22 < 668) ops_length.symm) (Finset.mem_singleton_self _)) (take_eq_of_earlier ops_single V (i := 225) (k := 226) (by decide) (lt_of_lt_of_eq (by decide : 225 < 668) ops_length.symm) (Finset.mem_singleton_self _))
theorem eq_main_v79 (V : Valuation τ sig (Elt F)) :
    after (ops (F := F)) V main_v79 = (select : (⟨S128, .i1⟩ : BufTy).Contents (Elt F) → (⟨S128, .i32⟩ : BufTy).Contents (Elt F) → (⟨S128, .i32⟩ : BufTy).Contents (Elt F) → (⟨S128, .i32⟩ : BufTy).Contents (Elt F)) (after (ops (F := F)) V main_c_23) (after (ops (F := F)) V main_v78) (after (ops (F := F)) V main_c_21) :=
  ternary_eq ops_single V (lt_of_lt_of_eq (by decide : 227 < 668) ops_length.symm) main_c_23 main_v78 main_c_21 main_v79 (select : (⟨S128, .i1⟩ : BufTy).Contents (Elt F) → (⟨S128, .i32⟩ : BufTy).Contents (Elt F) → (⟨S128, .i32⟩ : BufTy).Contents (Elt F) → (⟨S128, .i32⟩ : BufTy).Contents (Elt F)) ⟨by decide, rfl⟩ ⟨by decide, rfl⟩ ⟨by decide, rfl⟩ ⟨by decide, rfl⟩ rfl (take_eq_of_earlier ops_single V (i := 24) (k := 227) (by decide) (lt_of_lt_of_eq (by decide : 24 < 668) ops_length.symm) (Finset.mem_singleton_self _)) (take_eq_of_earlier ops_single V (i := 226) (k := 227) (by decide) (lt_of_lt_of_eq (by decide : 226 < 668) ops_length.symm) (Finset.mem_singleton_self _)) (take_eq_of_earlier ops_single V (i := 22) (k := 227) (by decide) (lt_of_lt_of_eq (by decide : 22 < 668) ops_length.symm) (Finset.mem_singleton_self _))
theorem eq_main_v80 (V : Valuation τ sig (Elt F)) :
    after (ops (F := F)) V main_v80 = (broadcastInDim S128x1 ![0] bcast_S128_S128x1_0 : (⟨S128, .i32⟩ : BufTy).Contents (Elt F) → (⟨S128x1, .i32⟩ : BufTy).Contents (Elt F)) (after (ops (F := F)) V main_v79) :=
  unary_eq ops_single V (lt_of_lt_of_eq (by decide : 228 < 668) ops_length.symm) main_v79 main_v80 (broadcastInDim S128x1 ![0] bcast_S128_S128x1_0 : (⟨S128, .i32⟩ : BufTy).Contents (Elt F) → (⟨S128x1, .i32⟩ : BufTy).Contents (Elt F)) ⟨by decide, rfl⟩ ⟨by decide, rfl⟩ rfl (take_eq_of_earlier ops_single V (i := 227) (k := 228) (by decide) (lt_of_lt_of_eq (by decide : 227 < 668) ops_length.symm) (Finset.mem_singleton_self _))
theorem eq_main_v81 (V : Valuation τ sig (Elt F)) :
    after (ops (F := F)) V main_v81 = ((fun x i u => Host.scatter scatter_S8x64x4096x16_S128x1_S8x64x128x16_013_2_2_1 (fun _ b => b) x i u) : (⟨S8x64x4096x16, .f32⟩ : BufTy).Contents (Elt F) → (⟨S128x1, .i32⟩ : BufTy).Contents (Elt F) → (⟨S8x64x128x16, .f32⟩ : BufTy).Contents (Elt F) → (⟨S8x64x4096x16, .f32⟩ : BufTy).Contents (Elt F)) (after (ops (F := F)) V main_v65) (after (ops (F := F)) V main_v80) (after (ops (F := F)) V main_v76) :=
  ternary_eq ops_single V (lt_of_lt_of_eq (by decide : 229 < 668) ops_length.symm) main_v65 main_v80 main_v76 main_v81 ((fun x i u => Host.scatter scatter_S8x64x4096x16_S128x1_S8x64x128x16_013_2_2_1 (fun _ b => b) x i u) : (⟨S8x64x4096x16, .f32⟩ : BufTy).Contents (Elt F) → (⟨S128x1, .i32⟩ : BufTy).Contents (Elt F) → (⟨S8x64x128x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 210) (k := 229) (by decide) (lt_of_lt_of_eq (by decide : 210 < 668) ops_length.symm) (Finset.mem_singleton_self _)) (take_eq_of_earlier ops_single V (i := 228) (k := 229) (by decide) (lt_of_lt_of_eq (by decide : 228 < 668) ops_length.symm) (Finset.mem_singleton_self _)) (take_eq_of_earlier ops_single V (i := 223) (k := 229) (by decide) (lt_of_lt_of_eq (by decide : 223 < 668) ops_length.symm) (Finset.mem_singleton_self _))
theorem eq_main_c_146 (V : Valuation τ sig (Elt F)) :
    after (ops (F := F)) V main_c_146 = (constantI S_ 32 4096#32) :=
  nullary_eq ops_single V (lt_of_lt_of_eq (by decide : 230 < 668) ops_length.symm) main_c_146 (constantI S_ 32 4096#32) ⟨by decide, rfl⟩ rfl
theorem eq_main_v82 (V : Valuation τ sig (Elt F)) :
    after (ops (F := F)) V main_v82 = (broadcastInDim S64 ![] bcast_S_S64 : (⟨S_, .i32⟩ : BufTy).Contents (Elt F) → (⟨S64, .i32⟩ : BufTy).Contents (Elt F)) (after (ops (F := F)) V main_c_146) :=
  unary_eq ops_single V (lt_of_lt_of_eq (by decide : 231 < 668) ops_length.symm) main_c_146 main_v82 (broadcastInDim S64 ![] bcast_S_S64 : (⟨S_, .i32⟩ : BufTy).Contents (Elt F) → (⟨S64, .i32⟩ : BufTy).Contents (Elt F)) ⟨by decide, rfl⟩ ⟨by decide, rfl⟩ rfl (take_eq_of_earlier ops_single V (i := 230) (k := 231) (by decide) (lt_of_lt_of_eq (by decide : 230 < 668) ops_length.symm) (Finset.mem_singleton_self _))
theorem eq_main_v83 (V : Valuation τ sig (Elt F)) :
    after (ops (F := F)) V main_v83 = (addi : (⟨S64, .i32⟩ : BufTy).Contents (Elt F) → (⟨S64, .i32⟩ : BufTy).Contents (Elt F) → (⟨S64, .i32⟩ : BufTy).Contents (Elt F)) (after (ops (F := F)) V main_c_24) (after (ops (F := F)) V main_v82) :=
  binary_eq ops_single V (lt_of_lt_of_eq (by decide : 232 < 668) ops_length.symm) main_c_24 main_v82 main_v83 (addi : (⟨S64, .i32⟩ : BufTy).Contents (Elt F) → (⟨S64, .i32⟩ : BufTy).Contents (Elt F) → (⟨S64, .i32⟩ : BufTy).Contents (Elt F)) ⟨by decide, rfl⟩ ⟨by decide, rfl⟩ ⟨by decide, rfl⟩ rfl (take_eq_of_earlier ops_single V (i := 25) (k := 232) (by decide) (lt_of_lt_of_eq (by decide : 25 < 668) ops_length.symm) (Finset.mem_singleton_self _)) (take_eq_of_earlier ops_single V (i := 231) (k := 232) (by decide) (lt_of_lt_of_eq (by decide : 231 < 668) ops_length.symm) (Finset.mem_singleton_self _))
theorem eq_main_v84 (V : Valuation τ sig (Elt F)) :
    after (ops (F := F)) V main_v84 = (select : (⟨S64, .i1⟩ : BufTy).Contents (Elt F) → (⟨S64, .i32⟩ : BufTy).Contents (Elt F) → (⟨S64, .i32⟩ : BufTy).Contents (Elt F) → (⟨S64, .i32⟩ : BufTy).Contents (Elt F)) (after (ops (F := F)) V main_c_25) (after (ops (F := F)) V main_v83) (after (ops (F := F)) V main_c_24) :=
  ternary_eq ops_single V (lt_of_lt_of_eq (by decide : 233 < 668) ops_length.symm) main_c_25 main_v83 main_c_24 main_v84 (select : (⟨S64, .i1⟩ : BufTy).Contents (Elt F) → (⟨S64, .i32⟩ : BufTy).Contents (Elt F) → (⟨S64, .i32⟩ : BufTy).Contents (Elt F) → (⟨S64, .i32⟩ : BufTy).Contents (Elt F)) ⟨by decide, rfl⟩ ⟨by decide, rfl⟩ ⟨by decide, rfl⟩ ⟨by decide, rfl⟩ rfl (take_eq_of_earlier ops_single V (i := 26) (k := 233) (by decide) (lt_of_lt_of_eq (by decide : 26 < 668) ops_length.symm) (Finset.mem_singleton_self _)) (take_eq_of_earlier ops_single V (i := 232) (k := 233) (by decide) (lt_of_lt_of_eq (by decide : 232 < 668) ops_length.symm) (Finset.mem_singleton_self _)) (take_eq_of_earlier ops_single V (i := 25) (k := 233) (by decide) (lt_of_lt_of_eq (by decide : 25 < 668) ops_length.symm) (Finset.mem_singleton_self _))
theorem eq_main_v85 (V : Valuation τ sig (Elt F)) :
    after (ops (F := F)) V main_v85 = (broadcastInDim S64x1 ![0] bcast_S64_S64x1_0 : (⟨S64, .i32⟩ : BufTy).Contents (Elt F) → (⟨S64x1, .i32⟩ : BufTy).Contents (Elt F)) (after (ops (F := F)) V main_v84) :=
  unary_eq ops_single V (lt_of_lt_of_eq (by decide : 234 < 668) ops_length.symm) main_v84 main_v85 (broadcastInDim S64x1 ![0] bcast_S64_S64x1_0 : (⟨S64, .i32⟩ : BufTy).Contents (Elt F) → (⟨S64x1, .i32⟩ : BufTy).Contents (Elt F)) ⟨by decide, rfl⟩ ⟨by decide, rfl⟩ rfl (take_eq_of_earlier ops_single V (i := 233) (k := 234) (by decide) (lt_of_lt_of_eq (by decide : 233 < 668) ops_length.symm) (Finset.mem_singleton_self _))
theorem eq_main_v86 (V : Valuation τ sig (Elt F)) :
    after (ops (F := F)) V main_v86 = ((fun x i => Host.gather gather_S8x64x4096x16_S64x1_S8x64x64x16_013_2_n_n_2_1_864116 x i) : (⟨S8x64x4096x16, .f32⟩ : BufTy).Contents (Elt F) → (⟨S64x1, .i32⟩ : BufTy).Contents (Elt F) → (⟨S8x64x64x16, .f32⟩ : BufTy).Contents (Elt F)) (after (ops (F := F)) V main_v81) (after (ops (F := F)) V main_v85) :=
  binary_eq ops_single V (lt_of_lt_of_eq (by decide : 235 < 668) ops_length.symm) main_v81 main_v85 main_v86 ((fun x i => Host.gather gather_S8x64x4096x16_S64x1_S8x64x64x16_013_2_n_n_2_1_864116 x i) : (⟨S8x64x4096x16, .f32⟩ : BufTy).Contents (Elt F) → (⟨S64x1, .i32⟩ : BufTy).Contents (Elt F) → (⟨S8x64x64x16, .f32⟩ : BufTy).Contents (Elt F)) ⟨by decide, rfl⟩ ⟨by decide, rfl⟩ ⟨by decide, rfl⟩ rfl (take_eq_of_earlier ops_single V (i := 229) (k := 235) (by decide) (lt_of_lt_of_eq (by decide : 229 < 668) ops_length.symm) (Finset.mem_singleton_self _)) (take_eq_of_earlier ops_single V (i := 234) (k := 235) (by decide) (lt_of_lt_of_eq (by decide : 234 < 668) ops_length.symm) (Finset.mem_singleton_self _))
theorem eq_main_c_147 (V : Valuation τ sig (Elt F)) :
    after (ops (F := F)) V main_c_147 = (constantI S_ 32 4096#32) :=
  nullary_eq ops_single V (lt_of_lt_of_eq (by decide : 236 < 668) ops_length.symm) main_c_147 (constantI S_ 32 4096#32) ⟨by decide, rfl⟩ rfl
theorem eq_main_v87 (V : Valuation τ sig (Elt F)) :
    after (ops (F := F)) V main_v87 = (broadcastInDim S64 ![] bcast_S_S64 : (⟨S_, .i32⟩ : BufTy).Contents (Elt F) → (⟨S64, .i32⟩ : BufTy).Contents (Elt F)) (after (ops (F := F)) V main_c_147) :=
  unary_eq ops_single V (lt_of_lt_of_eq (by decide : 237 < 668) ops_length.symm) main_c_147 main_v87 (broadcastInDim S64 ![] bcast_S_S64 : (⟨S_, .i32⟩ : BufTy).Contents (Elt F) → (⟨S64, .i32⟩ : BufTy).Contents (Elt F)) ⟨by decide, rfl⟩ ⟨by decide, rfl⟩ rfl (take_eq_of_earlier ops_single V (i := 236) (k := 237) (by decide) (lt_of_lt_of_eq (by decide : 236 < 668) ops_length.symm) (Finset.mem_singleton_self _))
theorem eq_main_v88 (V : Valuation τ sig (Elt F)) :
    after (ops (F := F)) V main_v88 = (addi : (⟨S64, .i32⟩ : BufTy).Contents (Elt F) → (⟨S64, .i32⟩ : BufTy).Contents (Elt F) → (⟨S64, .i32⟩ : BufTy).Contents (Elt F)) (after (ops (F := F)) V main_c_26) (after (ops (F := F)) V main_v87) :=
  binary_eq ops_single V (lt_of_lt_of_eq (by decide : 238 < 668) ops_length.symm) main_c_26 main_v87 main_v88 (addi : (⟨S64, .i32⟩ : BufTy).Contents (Elt F) → (⟨S64, .i32⟩ : BufTy).Contents (Elt F) → (⟨S64, .i32⟩ : BufTy).Contents (Elt F)) ⟨by decide, rfl⟩ ⟨by decide, rfl⟩ ⟨by decide, rfl⟩ rfl (take_eq_of_earlier ops_single V (i := 27) (k := 238) (by decide) (lt_of_lt_of_eq (by decide : 27 < 668) ops_length.symm) (Finset.mem_singleton_self _)) (take_eq_of_earlier ops_single V (i := 237) (k := 238) (by decide) (lt_of_lt_of_eq (by decide : 237 < 668) ops_length.symm) (Finset.mem_singleton_self _))
theorem eq_main_v89 (V : Valuation τ sig (Elt F)) :
    after (ops (F := F)) V main_v89 = (select : (⟨S64, .i1⟩ : BufTy).Contents (Elt F) → (⟨S64, .i32⟩ : BufTy).Contents (Elt F) → (⟨S64, .i32⟩ : BufTy).Contents (Elt F) → (⟨S64, .i32⟩ : BufTy).Contents (Elt F)) (after (ops (F := F)) V main_c_27) (after (ops (F := F)) V main_v88) (after (ops (F := F)) V main_c_26) :=
  ternary_eq ops_single V (lt_of_lt_of_eq (by decide : 239 < 668) ops_length.symm) main_c_27 main_v88 main_c_26 main_v89 (select : (⟨S64, .i1⟩ : BufTy).Contents (Elt F) → (⟨S64, .i32⟩ : BufTy).Contents (Elt F) → (⟨S64, .i32⟩ : BufTy).Contents (Elt F) → (⟨S64, .i32⟩ : BufTy).Contents (Elt F)) ⟨by decide, rfl⟩ ⟨by decide, rfl⟩ ⟨by decide, rfl⟩ ⟨by decide, rfl⟩ rfl (take_eq_of_earlier ops_single V (i := 28) (k := 239) (by decide) (lt_of_lt_of_eq (by decide : 28 < 668) ops_length.symm) (Finset.mem_singleton_self _)) (take_eq_of_earlier ops_single V (i := 238) (k := 239) (by decide) (lt_of_lt_of_eq (by decide : 238 < 668) ops_length.symm) (Finset.mem_singleton_self _)) (take_eq_of_earlier ops_single V (i := 27) (k := 239) (by decide) (lt_of_lt_of_eq (by decide : 27 < 668) ops_length.symm) (Finset.mem_singleton_self _))

end Cert.ReferenceIdeal.Line

end
-- ==== Proof.RefEq4.lean ====
/-
  The equations of the reference's operations in its window 4: what the whole line leaves at each operation's result is
  the operation's function of what the whole line leaves at its operands.
-/
import proofs.«140659_j42700564857293_1_alg».proof.Proof.RefSingle

noncomputable section

namespace Cert.ReferenceIdeal.Line

open Cert.ReferenceIdeal Cert.ReferenceIdeal.Gen Idealize.ShloMosaic Idealize.ShloMosaic.TcCoe Idealize.SL.Sem Idealize.ShloMosaic.StableHlo Cert.SingleAssignment

variable {F : FTy → Type} [FloatOps F]

theorem eq_main_v90 (V : Valuation τ sig (Elt F)) :
    after (ops (F := F)) V main_v90 = (broadcastInDim S64x1 ![0] bcast_S64_S64x1_0 : (⟨S64, .i32⟩ : BufTy).Contents (Elt F) → (⟨S64x1, .i32⟩ : BufTy).Contents (Elt F)) (after (ops (F := F)) V main_v89) :=
  unary_eq ops_single V (lt_of_lt_of_eq (by decide : 240 < 668) ops_length.symm) main_v89 main_v90 (broadcastInDim S64x1 ![0] bcast_S64_S64x1_0 : (⟨S64, .i32⟩ : BufTy).Contents (Elt F) → (⟨S64x1, .i32⟩ : BufTy).Contents (Elt F)) ⟨by decide, rfl⟩ ⟨by decide, rfl⟩ rfl (take_eq_of_earlier ops_single V (i := 239) (k := 240) (by decide) (lt_of_lt_of_eq (by decide : 239 < 668) ops_length.symm) (Finset.mem_singleton_self _))
theorem eq_main_v91 (V : Valuation τ sig (Elt F)) :
    after (ops (F := F)) V main_v91 = ((fun x i => Host.gather gather_S8x64x4096x16_S64x1_S8x64x64x16_013_2_n_n_2_1_864116 x i) : (⟨S8x64x4096x16, .f32⟩ : BufTy).Contents (Elt F) → (⟨S64x1, .i32⟩ : BufTy).Contents (Elt F) → (⟨S8x64x64x16, .f32⟩ : BufTy).Contents (Elt F)) (after (ops (F := F)) V main_v81) (after (ops (F := F)) V main_v90) :=
  binary_eq ops_single V (lt_of_lt_of_eq (by decide : 241 < 668) ops_length.symm) main_v81 main_v90 main_v91 ((fun x i => Host.gather gather_S8x64x4096x16_S64x1_S8x64x64x16_013_2_n_n_2_1_864116 x i) : (⟨S8x64x4096x16, .f32⟩ : BufTy).Contents (Elt F) → (⟨S64x1, .i32⟩ : BufTy).Contents (Elt F) → (⟨S8x64x64x16, .f32⟩ : BufTy).Contents (Elt F)) ⟨by decide, rfl⟩ ⟨by decide, rfl⟩ ⟨by decide, rfl⟩ rfl (take_eq_of_earlier ops_single V (i := 229) (k := 241) (by decide) (lt_of_lt_of_eq (by decide : 229 < 668) ops_length.symm) (Finset.mem_singleton_self _)) (take_eq_of_earlier ops_single V (i := 240) (k := 241) (by decide) (lt_of_lt_of_eq (by decide : 240 < 668) ops_length.symm) (Finset.mem_singleton_self _))
theorem eq_main_v92 (V : Valuation τ sig (Elt F)) :
    after (ops (F := F)) V main_v92 = (addf : (⟨S8x64x64x16, .f32⟩ : BufTy).Contents (Elt F) → (⟨S8x64x64x16, .f32⟩ : BufTy).Contents (Elt F) → (⟨S8x64x64x16, .f32⟩ : BufTy).Contents (Elt F)) (after (ops (F := F)) V main_v86) (after (ops (F := F)) V main_v91) :=
  binary_eq ops_single V (lt_of_lt_of_eq (by decide : 242 < 668) ops_length.symm) main_v86 main_v91 main_v92 (addf : (⟨S8x64x64x16, .f32⟩ : BufTy).Contents (Elt F) → (⟨S8x64x64x16, .f32⟩ : BufTy).Contents (Elt F) → (⟨S8x64x64x16, .f32⟩ : BufTy).Contents (Elt F)) ⟨by decide, rfl⟩ ⟨by decide, rfl⟩ ⟨by decide, rfl⟩ rfl (take_eq_of_earlier ops_single V (i := 235) (k := 242) (by decide) (lt_of_lt_of_eq (by decide : 235 < 668) ops_length.symm) (Finset.mem_singleton_self _)) (take_eq_of_earlier ops_single V (i := 241) (k := 242) (by decide) (lt_of_lt_of_eq (by decide : 241 < 668) ops_length.symm) (Finset.mem_singleton_self _))
theorem eq_main_c_148 (V : Valuation τ sig (Elt F)) :
    after (ops (F := F)) V main_c_148 = (constantI S_ 32 4096#32) :=
  nullary_eq ops_single V (lt_of_lt_of_eq (by decide : 243 < 668) ops_length.symm) main_c_148 (constantI S_ 32 4096#32) ⟨by decide, rfl⟩ rfl
theorem eq_main_v93 (V : Valuation τ sig (Elt F)) :
    after (ops (F := F)) V main_v93 = (broadcastInDim S64 ![] bcast_S_S64 : (⟨S_, .i32⟩ : BufTy).Contents (Elt F) → (⟨S64, .i32⟩ : BufTy).Contents (Elt F)) (after (ops (F := F)) V main_c_148) :=
  unary_eq ops_single V (lt_of_lt_of_eq (by decide : 244 < 668) ops_length.symm) main_c_148 main_v93 (broadcastInDim S64 ![] bcast_S_S64 : (⟨S_, .i32⟩ : BufTy).Contents (Elt F) → (⟨S64, .i32⟩ : BufTy).Contents (Elt F)) ⟨by decide, rfl⟩ ⟨by decide, rfl⟩ rfl (take_eq_of_earlier ops_single V (i := 243) (k := 244) (by decide) (lt_of_lt_of_eq (by decide : 243 < 668) ops_length.symm) (Finset.mem_singleton_self _))
theorem eq_main_v94 (V : Valuation τ sig (Elt F)) :
    after (ops (F := F)) V main_v94 = (addi : (⟨S64, .i32⟩ : BufTy).Contents (Elt F) → (⟨S64, .i32⟩ : BufTy).Contents (Elt F) → (⟨S64, .i32⟩ : BufTy).Contents (Elt F)) (after (ops (F := F)) V main_c_26) (after (ops (F := F)) V main_v93) :=
  binary_eq ops_single V (lt_of_lt_of_eq (by decide : 245 < 668) ops_length.symm) main_c_26 main_v93 main_v94 (addi : (⟨S64, .i32⟩ : BufTy).Contents (Elt F) → (⟨S64, .i32⟩ : BufTy).Contents (Elt F) → (⟨S64, .i32⟩ : BufTy).Contents (Elt F)) ⟨by decide, rfl⟩ ⟨by decide, rfl⟩ ⟨by decide, rfl⟩ rfl (take_eq_of_earlier ops_single V (i := 27) (k := 245) (by decide) (lt_of_lt_of_eq (by decide : 27 < 668) ops_length.symm) (Finset.mem_singleton_self _)) (take_eq_of_earlier ops_single V (i := 244) (k := 245) (by decide) (lt_of_lt_of_eq (by decide : 244 < 668) ops_length.symm) (Finset.mem_singleton_self _))
theorem eq_main_v95 (V : Valuation τ sig (Elt F)) :
    after (ops (F := F)) V main_v95 = (select : (⟨S64, .i1⟩ : BufTy).Contents (Elt F) → (⟨S64, .i32⟩ : BufTy).Contents (Elt F) → (⟨S64, .i32⟩ : BufTy).Contents (Elt F) → (⟨S64, .i32⟩ : BufTy).Contents (Elt F)) (after (ops (F := F)) V main_c_28) (after (ops (F := F)) V main_v94) (after (ops (F := F)) V main_c_26) :=
  ternary_eq ops_single V (lt_of_lt_of_eq (by decide : 246 < 668) ops_length.symm) main_c_28 main_v94 main_c_26 main_v95 (select : (⟨S64, .i1⟩ : BufTy).Contents (Elt F) → (⟨S64, .i32⟩ : BufTy).Contents (Elt F) → (⟨S64, .i32⟩ : BufTy).Contents (Elt F) → (⟨S64, .i32⟩ : BufTy).Contents (Elt F)) ⟨by decide, rfl⟩ ⟨by decide, rfl⟩ ⟨by decide, rfl⟩ ⟨by decide, rfl⟩ rfl (take_eq_of_earlier ops_single V (i := 29) (k := 246) (by decide) (lt_of_lt_of_eq (by decide : 29 < 668) ops_length.symm) (Finset.mem_singleton_self _)) (take_eq_of_earlier ops_single V (i := 245) (k := 246) (by decide) (lt_of_lt_of_eq (by decide : 245 < 668) ops_length.symm) (Finset.mem_singleton_self _)) (take_eq_of_earlier ops_single V (i := 27) (k := 246) (by decide) (lt_of_lt_of_eq (by decide : 27 < 668) ops_length.symm) (Finset.mem_singleton_self _))
theorem eq_main_v96 (V : Valuation τ sig (Elt F)) :
    after (ops (F := F)) V main_v96 = (broadcastInDim S64x1 ![0] bcast_S64_S64x1_0 : (⟨S64, .i32⟩ : BufTy).Contents (Elt F) → (⟨S64x1, .i32⟩ : BufTy).Contents (Elt F)) (after (ops (F := F)) V main_v95) :=
  unary_eq ops_single V (lt_of_lt_of_eq (by decide : 247 < 668) ops_length.symm) main_v95 main_v96 (broadcastInDim S64x1 ![0] bcast_S64_S64x1_0 : (⟨S64, .i32⟩ : BufTy).Contents (Elt F) → (⟨S64x1, .i32⟩ : BufTy).Contents (Elt F)) ⟨by decide, rfl⟩ ⟨by decide, rfl⟩ rfl (take_eq_of_earlier ops_single V (i := 246) (k := 247) (by decide) (lt_of_lt_of_eq (by decide : 246 < 668) ops_length.symm) (Finset.mem_singleton_self _))
theorem eq_main_v97 (V : Valuation τ sig (Elt F)) :
    after (ops (F := F)) V main_v97 = ((fun x i u => Host.scatter scatter_S8x64x4096x16_S64x1_S8x64x64x16_013_2_2_1 (fun _ b => b) x i u) : (⟨S8x64x4096x16, .f32⟩ : BufTy).Contents (Elt F) → (⟨S64x1, .i32⟩ : BufTy).Contents (Elt F) → (⟨S8x64x64x16, .f32⟩ : BufTy).Contents (Elt F) → (⟨S8x64x4096x16, .f32⟩ : BufTy).Contents (Elt F)) (after (ops (F := F)) V main_v81) (after (ops (F := F)) V main_v96) (after (ops (F := F)) V main_v92) :=
  ternary_eq ops_single V (lt_of_lt_of_eq (by decide : 248 < 668) ops_length.symm) main_v81 main_v96 main_v92 main_v97 ((fun x i u => Host.scatter scatter_S8x64x4096x16_S64x1_S8x64x64x16_013_2_2_1 (fun _ b => b) x i u) : (⟨S8x64x4096x16, .f32⟩ : BufTy).Contents (Elt F) → (⟨S64x1, .i32⟩ : BufTy).Contents (Elt F) → (⟨S8x64x64x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 229) (k := 248) (by decide) (lt_of_lt_of_eq (by decide : 229 < 668) ops_length.symm) (Finset.mem_singleton_self _)) (take_eq_of_earlier ops_single V (i := 247) (k := 248) (by decide) (lt_of_lt_of_eq (by decide : 247 < 668) ops_length.symm) (Finset.mem_singleton_self _)) (take_eq_of_earlier ops_single V (i := 242) (k := 248) (by decide) (lt_of_lt_of_eq (by decide : 242 < 668) ops_length.symm) (Finset.mem_singleton_self _))
theorem eq_main_c_149 (V : Valuation τ sig (Elt F)) :
    after (ops (F := F)) V main_c_149 = (constantI S_ 32 4096#32) :=
  nullary_eq ops_single V (lt_of_lt_of_eq (by decide : 249 < 668) ops_length.symm) main_c_149 (constantI S_ 32 4096#32) ⟨by decide, rfl⟩ rfl
theorem eq_main_v98 (V : Valuation τ sig (Elt F)) :
    after (ops (F := F)) V main_v98 = (broadcastInDim S32 ![] bcast_S_S32 : (⟨S_, .i32⟩ : BufTy).Contents (Elt F) → (⟨S32, .i32⟩ : BufTy).Contents (Elt F)) (after (ops (F := F)) V main_c_149) :=
  unary_eq ops_single V (lt_of_lt_of_eq (by decide : 250 < 668) ops_length.symm) main_c_149 main_v98 (broadcastInDim S32 ![] bcast_S_S32 : (⟨S_, .i32⟩ : BufTy).Contents (Elt F) → (⟨S32, .i32⟩ : BufTy).Contents (Elt F)) ⟨by decide, rfl⟩ ⟨by decide, rfl⟩ rfl (take_eq_of_earlier ops_single V (i := 249) (k := 250) (by decide) (lt_of_lt_of_eq (by decide : 249 < 668) ops_length.symm) (Finset.mem_singleton_self _))
theorem eq_main_v99 (V : Valuation τ sig (Elt F)) :
    after (ops (F := F)) V main_v99 = (addi : (⟨S32, .i32⟩ : BufTy).Contents (Elt F) → (⟨S32, .i32⟩ : BufTy).Contents (Elt F) → (⟨S32, .i32⟩ : BufTy).Contents (Elt F)) (after (ops (F := F)) V main_c_29) (after (ops (F := F)) V main_v98) :=
  binary_eq ops_single V (lt_of_lt_of_eq (by decide : 251 < 668) ops_length.symm) main_c_29 main_v98 main_v99 (addi : (⟨S32, .i32⟩ : BufTy).Contents (Elt F) → (⟨S32, .i32⟩ : BufTy).Contents (Elt F) → (⟨S32, .i32⟩ : BufTy).Contents (Elt F)) ⟨by decide, rfl⟩ ⟨by decide, rfl⟩ ⟨by decide, rfl⟩ rfl (take_eq_of_earlier ops_single V (i := 30) (k := 251) (by decide) (lt_of_lt_of_eq (by decide : 30 < 668) ops_length.symm) (Finset.mem_singleton_self _)) (take_eq_of_earlier ops_single V (i := 250) (k := 251) (by decide) (lt_of_lt_of_eq (by decide : 250 < 668) ops_length.symm) (Finset.mem_singleton_self _))
theorem eq_main_v100 (V : Valuation τ sig (Elt F)) :
    after (ops (F := F)) V main_v100 = (select : (⟨S32, .i1⟩ : BufTy).Contents (Elt F) → (⟨S32, .i32⟩ : BufTy).Contents (Elt F) → (⟨S32, .i32⟩ : BufTy).Contents (Elt F) → (⟨S32, .i32⟩ : BufTy).Contents (Elt F)) (after (ops (F := F)) V main_c_30) (after (ops (F := F)) V main_v99) (after (ops (F := F)) V main_c_29) :=
  ternary_eq ops_single V (lt_of_lt_of_eq (by decide : 252 < 668) ops_length.symm) main_c_30 main_v99 main_c_29 main_v100 (select : (⟨S32, .i1⟩ : BufTy).Contents (Elt F) → (⟨S32, .i32⟩ : BufTy).Contents (Elt F) → (⟨S32, .i32⟩ : BufTy).Contents (Elt F) → (⟨S32, .i32⟩ : BufTy).Contents (Elt F)) ⟨by decide, rfl⟩ ⟨by decide, rfl⟩ ⟨by decide, rfl⟩ ⟨by decide, rfl⟩ rfl (take_eq_of_earlier ops_single V (i := 31) (k := 252) (by decide) (lt_of_lt_of_eq (by decide : 31 < 668) ops_length.symm) (Finset.mem_singleton_self _)) (take_eq_of_earlier ops_single V (i := 251) (k := 252) (by decide) (lt_of_lt_of_eq (by decide : 251 < 668) ops_length.symm) (Finset.mem_singleton_self _)) (take_eq_of_earlier ops_single V (i := 30) (k := 252) (by decide) (lt_of_lt_of_eq (by decide : 30 < 668) ops_length.symm) (Finset.mem_singleton_self _))
theorem eq_main_v101 (V : Valuation τ sig (Elt F)) :
    after (ops (F := F)) V main_v101 = (broadcastInDim S32x1 ![0] bcast_S32_S32x1_0 : (⟨S32, .i32⟩ : BufTy).Contents (Elt F) → (⟨S32x1, .i32⟩ : BufTy).Contents (Elt F)) (after (ops (F := F)) V main_v100) :=
  unary_eq ops_single V (lt_of_lt_of_eq (by decide : 253 < 668) ops_length.symm) main_v100 main_v101 (broadcastInDim S32x1 ![0] bcast_S32_S32x1_0 : (⟨S32, .i32⟩ : BufTy).Contents (Elt F) → (⟨S32x1, .i32⟩ : BufTy).Contents (Elt F)) ⟨by decide, rfl⟩ ⟨by decide, rfl⟩ rfl (take_eq_of_earlier ops_single V (i := 252) (k := 253) (by decide) (lt_of_lt_of_eq (by decide : 252 < 668) ops_length.symm) (Finset.mem_singleton_self _))
theorem eq_main_v102 (V : Valuation τ sig (Elt F)) :
    after (ops (F := F)) V main_v102 = ((fun x i => Host.gather gather_S8x64x4096x16_S32x1_S8x64x32x16_013_2_n_n_2_1_864116 x i) : (⟨S8x64x4096x16, .f32⟩ : BufTy).Contents (Elt F) → (⟨S32x1, .i32⟩ : BufTy).Contents (Elt F) → (⟨S8x64x32x16, .f32⟩ : BufTy).Contents (Elt F)) (after (ops (F := F)) V main_v97) (after (ops (F := F)) V main_v101) :=
  binary_eq ops_single V (lt_of_lt_of_eq (by decide : 254 < 668) ops_length.symm) main_v97 main_v101 main_v102 ((fun x i => Host.gather gather_S8x64x4096x16_S32x1_S8x64x32x16_013_2_n_n_2_1_864116 x i) : (⟨S8x64x4096x16, .f32⟩ : BufTy).Contents (Elt F) → (⟨S32x1, .i32⟩ : BufTy).Contents (Elt F) → (⟨S8x64x32x16, .f32⟩ : BufTy).Contents (Elt F)) ⟨by decide, rfl⟩ ⟨by decide, rfl⟩ ⟨by decide, rfl⟩ rfl (take_eq_of_earlier ops_single V (i := 248) (k := 254) (by decide) (lt_of_lt_of_eq (by decide : 248 < 668) ops_length.symm) (Finset.mem_singleton_self _)) (take_eq_of_earlier ops_single V (i := 253) (k := 254) (by decide) (lt_of_lt_of_eq (by decide : 253 < 668) ops_length.symm) (Finset.mem_singleton_self _))
theorem eq_main_c_150 (V : Valuation τ sig (Elt F)) :
    after (ops (F := F)) V main_c_150 = (constantI S_ 32 4096#32) :=
  nullary_eq ops_single V (lt_of_lt_of_eq (by decide : 255 < 668) ops_length.symm) main_c_150 (constantI S_ 32 4096#32) ⟨by decide, rfl⟩ rfl
theorem eq_main_v103 (V : Valuation τ sig (Elt F)) :
    after (ops (F := F)) V main_v103 = (broadcastInDim S32 ![] bcast_S_S32 : (⟨S_, .i32⟩ : BufTy).Contents (Elt F) → (⟨S32, .i32⟩ : BufTy).Contents (Elt F)) (after (ops (F := F)) V main_c_150) :=
  unary_eq ops_single V (lt_of_lt_of_eq (by decide : 256 < 668) ops_length.symm) main_c_150 main_v103 (broadcastInDim S32 ![] bcast_S_S32 : (⟨S_, .i32⟩ : BufTy).Contents (Elt F) → (⟨S32, .i32⟩ : BufTy).Contents (Elt F)) ⟨by decide, rfl⟩ ⟨by decide, rfl⟩ rfl (take_eq_of_earlier ops_single V (i := 255) (k := 256) (by decide) (lt_of_lt_of_eq (by decide : 255 < 668) ops_length.symm) (Finset.mem_singleton_self _))
theorem eq_main_v104 (V : Valuation τ sig (Elt F)) :
    after (ops (F := F)) V main_v104 = (addi : (⟨S32, .i32⟩ : BufTy).Contents (Elt F) → (⟨S32, .i32⟩ : BufTy).Contents (Elt F) → (⟨S32, .i32⟩ : BufTy).Contents (Elt F)) (after (ops (F := F)) V main_c_31) (after (ops (F := F)) V main_v103) :=
  binary_eq ops_single V (lt_of_lt_of_eq (by decide : 257 < 668) ops_length.symm) main_c_31 main_v103 main_v104 (addi : (⟨S32, .i32⟩ : BufTy).Contents (Elt F) → (⟨S32, .i32⟩ : BufTy).Contents (Elt F) → (⟨S32, .i32⟩ : BufTy).Contents (Elt F)) ⟨by decide, rfl⟩ ⟨by decide, rfl⟩ ⟨by decide, rfl⟩ rfl (take_eq_of_earlier ops_single V (i := 32) (k := 257) (by decide) (lt_of_lt_of_eq (by decide : 32 < 668) ops_length.symm) (Finset.mem_singleton_self _)) (take_eq_of_earlier ops_single V (i := 256) (k := 257) (by decide) (lt_of_lt_of_eq (by decide : 256 < 668) ops_length.symm) (Finset.mem_singleton_self _))
theorem eq_main_v105 (V : Valuation τ sig (Elt F)) :
    after (ops (F := F)) V main_v105 = (select : (⟨S32, .i1⟩ : BufTy).Contents (Elt F) → (⟨S32, .i32⟩ : BufTy).Contents (Elt F) → (⟨S32, .i32⟩ : BufTy).Contents (Elt F) → (⟨S32, .i32⟩ : BufTy).Contents (Elt F)) (after (ops (F := F)) V main_c_32) (after (ops (F := F)) V main_v104) (after (ops (F := F)) V main_c_31) :=
  ternary_eq ops_single V (lt_of_lt_of_eq (by decide : 258 < 668) ops_length.symm) main_c_32 main_v104 main_c_31 main_v105 (select : (⟨S32, .i1⟩ : BufTy).Contents (Elt F) → (⟨S32, .i32⟩ : BufTy).Contents (Elt F) → (⟨S32, .i32⟩ : BufTy).Contents (Elt F) → (⟨S32, .i32⟩ : BufTy).Contents (Elt F)) ⟨by decide, rfl⟩ ⟨by decide, rfl⟩ ⟨by decide, rfl⟩ ⟨by decide, rfl⟩ rfl (take_eq_of_earlier ops_single V (i := 33) (k := 258) (by decide) (lt_of_lt_of_eq (by decide : 33 < 668) ops_length.symm) (Finset.mem_singleton_self _)) (take_eq_of_earlier ops_single V (i := 257) (k := 258) (by decide) (lt_of_lt_of_eq (by decide : 257 < 668) ops_length.symm) (Finset.mem_singleton_self _)) (take_eq_of_earlier ops_single V (i := 32) (k := 258) (by decide) (lt_of_lt_of_eq (by decide : 32 < 668) ops_length.symm) (Finset.mem_singleton_self _))
theorem eq_main_v106 (V : Valuation τ sig (Elt F)) :
    after (ops (F := F)) V main_v106 = (broadcastInDim S32x1 ![0] bcast_S32_S32x1_0 : (⟨S32, .i32⟩ : BufTy).Contents (Elt F) → (⟨S32x1, .i32⟩ : BufTy).Contents (Elt F)) (after (ops (F := F)) V main_v105) :=
  unary_eq ops_single V (lt_of_lt_of_eq (by decide : 259 < 668) ops_length.symm) main_v105 main_v106 (broadcastInDim S32x1 ![0] bcast_S32_S32x1_0 : (⟨S32, .i32⟩ : BufTy).Contents (Elt F) → (⟨S32x1, .i32⟩ : BufTy).Contents (Elt F)) ⟨by decide, rfl⟩ ⟨by decide, rfl⟩ rfl (take_eq_of_earlier ops_single V (i := 258) (k := 259) (by decide) (lt_of_lt_of_eq (by decide : 258 < 668) ops_length.symm) (Finset.mem_singleton_self _))
theorem eq_main_v107 (V : Valuation τ sig (Elt F)) :
    after (ops (F := F)) V main_v107 = ((fun x i => Host.gather gather_S8x64x4096x16_S32x1_S8x64x32x16_013_2_n_n_2_1_864116 x i) : (⟨S8x64x4096x16, .f32⟩ : BufTy).Contents (Elt F) → (⟨S32x1, .i32⟩ : BufTy).Contents (Elt F) → (⟨S8x64x32x16, .f32⟩ : BufTy).Contents (Elt F)) (after (ops (F := F)) V main_v97) (after (ops (F := F)) V main_v106) :=
  binary_eq ops_single V (lt_of_lt_of_eq (by decide : 260 < 668) ops_length.symm) main_v97 main_v106 main_v107 ((fun x i => Host.gather gather_S8x64x4096x16_S32x1_S8x64x32x16_013_2_n_n_2_1_864116 x i) : (⟨S8x64x4096x16, .f32⟩ : BufTy).Contents (Elt F) → (⟨S32x1, .i32⟩ : BufTy).Contents (Elt F) → (⟨S8x64x32x16, .f32⟩ : BufTy).Contents (Elt F)) ⟨by decide, rfl⟩ ⟨by decide, rfl⟩ ⟨by decide, rfl⟩ rfl (take_eq_of_earlier ops_single V (i := 248) (k := 260) (by decide) (lt_of_lt_of_eq (by decide : 248 < 668) ops_length.symm) (Finset.mem_singleton_self _)) (take_eq_of_earlier ops_single V (i := 259) (k := 260) (by decide) (lt_of_lt_of_eq (by decide : 259 < 668) ops_length.symm) (Finset.mem_singleton_self _))
theorem eq_main_v108 (V : Valuation τ sig (Elt F)) :
    after (ops (F := F)) V main_v108 = (addf : (⟨S8x64x32x16, .f32⟩ : BufTy).Contents (Elt F) → (⟨S8x64x32x16, .f32⟩ : BufTy).Contents (Elt F) → (⟨S8x64x32x16, .f32⟩ : BufTy).Contents (Elt F)) (after (ops (F := F)) V main_v102) (after (ops (F := F)) V main_v107) :=
  binary_eq ops_single V (lt_of_lt_of_eq (by decide : 261 < 668) ops_length.symm) main_v102 main_v107 main_v108 (addf : (⟨S8x64x32x16, .f32⟩ : BufTy).Contents (Elt F) → (⟨S8x64x32x16, .f32⟩ : BufTy).Contents (Elt F) → (⟨S8x64x32x16, .f32⟩ : BufTy).Contents (Elt F)) ⟨by decide, rfl⟩ ⟨by decide, rfl⟩ ⟨by decide, rfl⟩ rfl (take_eq_of_earlier ops_single V (i := 254) (k := 261) (by decide) (lt_of_lt_of_eq (by decide : 254 < 668) ops_length.symm) (Finset.mem_singleton_self _)) (take_eq_of_earlier ops_single V (i := 260) (k := 261) (by decide) (lt_of_lt_of_eq (by decide : 260 < 668) ops_length.symm) (Finset.mem_singleton_self _))
theorem eq_main_c_151 (V : Valuation τ sig (Elt F)) :
    after (ops (F := F)) V main_c_151 = (constantI S_ 32 4096#32) :=
  nullary_eq ops_single V (lt_of_lt_of_eq (by decide : 262 < 668) ops_length.symm) main_c_151 (constantI S_ 32 4096#32) ⟨by decide, rfl⟩ rfl
theorem eq_main_v109 (V : Valuation τ sig (Elt F)) :
    after (ops (F := F)) V main_v109 = (broadcastInDim S32 ![] bcast_S_S32 : (⟨S_, .i32⟩ : BufTy).Contents (Elt F) → (⟨S32, .i32⟩ : BufTy).Contents (Elt F)) (after (ops (F := F)) V main_c_151) :=
  unary_eq ops_single V (lt_of_lt_of_eq (by decide : 263 < 668) ops_length.symm) main_c_151 main_v109 (broadcastInDim S32 ![] bcast_S_S32 : (⟨S_, .i32⟩ : BufTy).Contents (Elt F) → (⟨S32, .i32⟩ : BufTy).Contents (Elt F)) ⟨by decide, rfl⟩ ⟨by decide, rfl⟩ rfl (take_eq_of_earlier ops_single V (i := 262) (k := 263) (by decide) (lt_of_lt_of_eq (by decide : 262 < 668) ops_length.symm) (Finset.mem_singleton_self _))
theorem eq_main_v110 (V : Valuation τ sig (Elt F)) :
    after (ops (F := F)) V main_v110 = (addi : (⟨S32, .i32⟩ : BufTy).Contents (Elt F) → (⟨S32, .i32⟩ : BufTy).Contents (Elt F) → (⟨S32, .i32⟩ : BufTy).Contents (Elt F)) (after (ops (F := F)) V main_c_31) (after (ops (F := F)) V main_v109) :=
  binary_eq ops_single V (lt_of_lt_of_eq (by decide : 264 < 668) ops_length.symm) main_c_31 main_v109 main_v110 (addi : (⟨S32, .i32⟩ : BufTy).Contents (Elt F) → (⟨S32, .i32⟩ : BufTy).Contents (Elt F) → (⟨S32, .i32⟩ : BufTy).Contents (Elt F)) ⟨by decide, rfl⟩ ⟨by decide, rfl⟩ ⟨by decide, rfl⟩ rfl (take_eq_of_earlier ops_single V (i := 32) (k := 264) (by decide) (lt_of_lt_of_eq (by decide : 32 < 668) ops_length.symm) (Finset.mem_singleton_self _)) (take_eq_of_earlier ops_single V (i := 263) (k := 264) (by decide) (lt_of_lt_of_eq (by decide : 263 < 668) ops_length.symm) (Finset.mem_singleton_self _))
theorem eq_main_v111 (V : Valuation τ sig (Elt F)) :
    after (ops (F := F)) V main_v111 = (select : (⟨S32, .i1⟩ : BufTy).Contents (Elt F) → (⟨S32, .i32⟩ : BufTy).Contents (Elt F) → (⟨S32, .i32⟩ : BufTy).Contents (Elt F) → (⟨S32, .i32⟩ : BufTy).Contents (Elt F)) (after (ops (F := F)) V main_c_33) (after (ops (F := F)) V main_v110) (after (ops (F := F)) V main_c_31) :=
  ternary_eq ops_single V (lt_of_lt_of_eq (by decide : 265 < 668) ops_length.symm) main_c_33 main_v110 main_c_31 main_v111 (select : (⟨S32, .i1⟩ : BufTy).Contents (Elt F) → (⟨S32, .i32⟩ : BufTy).Contents (Elt F) → (⟨S32, .i32⟩ : BufTy).Contents (Elt F) → (⟨S32, .i32⟩ : BufTy).Contents (Elt F)) ⟨by decide, rfl⟩ ⟨by decide, rfl⟩ ⟨by decide, rfl⟩ ⟨by decide, rfl⟩ rfl (take_eq_of_earlier ops_single V (i := 34) (k := 265) (by decide) (lt_of_lt_of_eq (by decide : 34 < 668) ops_length.symm) (Finset.mem_singleton_self _)) (take_eq_of_earlier ops_single V (i := 264) (k := 265) (by decide) (lt_of_lt_of_eq (by decide : 264 < 668) ops_length.symm) (Finset.mem_singleton_self _)) (take_eq_of_earlier ops_single V (i := 32) (k := 265) (by decide) (lt_of_lt_of_eq (by decide : 32 < 668) ops_length.symm) (Finset.mem_singleton_self _))
theorem eq_main_v112 (V : Valuation τ sig (Elt F)) :
    after (ops (F := F)) V main_v112 = (broadcastInDim S32x1 ![0] bcast_S32_S32x1_0 : (⟨S32, .i32⟩ : BufTy).Contents (Elt F) → (⟨S32x1, .i32⟩ : BufTy).Contents (Elt F)) (after (ops (F := F)) V main_v111) :=
  unary_eq ops_single V (lt_of_lt_of_eq (by decide : 266 < 668) ops_length.symm) main_v111 main_v112 (broadcastInDim S32x1 ![0] bcast_S32_S32x1_0 : (⟨S32, .i32⟩ : BufTy).Contents (Elt F) → (⟨S32x1, .i32⟩ : BufTy).Contents (Elt F)) ⟨by decide, rfl⟩ ⟨by decide, rfl⟩ rfl (take_eq_of_earlier ops_single V (i := 265) (k := 266) (by decide) (lt_of_lt_of_eq (by decide : 265 < 668) ops_length.symm) (Finset.mem_singleton_self _))
theorem eq_main_v113 (V : Valuation τ sig (Elt F)) :
    after (ops (F := F)) V main_v113 = ((fun x i u => Host.scatter scatter_S8x64x4096x16_S32x1_S8x64x32x16_013_2_2_1 (fun _ b => b) x i u) : (⟨S8x64x4096x16, .f32⟩ : BufTy).Contents (Elt F) → (⟨S32x1, .i32⟩ : BufTy).Contents (Elt F) → (⟨S8x64x32x16, .f32⟩ : BufTy).Contents (Elt F) → (⟨S8x64x4096x16, .f32⟩ : BufTy).Contents (Elt F)) (after (ops (F := F)) V main_v97) (after (ops (F := F)) V main_v112) (after (ops (F := F)) V main_v108) :=
  ternary_eq ops_single V (lt_of_lt_of_eq (by decide : 267 < 668) ops_length.symm) main_v97 main_v112 main_v108 main_v113 ((fun x i u => Host.scatter scatter_S8x64x4096x16_S32x1_S8x64x32x16_013_2_2_1 (fun _ b => b) x i u) : (⟨S8x64x4096x16, .f32⟩ : BufTy).Contents (Elt F) → (⟨S32x1, .i32⟩ : BufTy).Contents (Elt F) → (⟨S8x64x32x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 248) (k := 267) (by decide) (lt_of_lt_of_eq (by decide : 248 < 668) ops_length.symm) (Finset.mem_singleton_self _)) (take_eq_of_earlier ops_single V (i := 266) (k := 267) (by decide) (lt_of_lt_of_eq (by decide : 266 < 668) ops_length.symm) (Finset.mem_singleton_self _)) (take_eq_of_earlier ops_single V (i := 261) (k := 267) (by decide) (lt_of_lt_of_eq (by decide : 261 < 668) ops_length.symm) (Finset.mem_singleton_self _))
theorem eq_main_c_152 (V : Valuation τ sig (Elt F)) :
    after (ops (F := F)) V main_c_152 = (constantI S_ 32 4096#32) :=
  nullary_eq ops_single V (lt_of_lt_of_eq (by decide : 268 < 668) ops_length.symm) main_c_152 (constantI S_ 32 4096#32) ⟨by decide, rfl⟩ rfl
theorem eq_main_v114 (V : Valuation τ sig (Elt F)) :
    after (ops (F := F)) V main_v114 = (broadcastInDim S16 ![] bcast_S_S16 : (⟨S_, .i32⟩ : BufTy).Contents (Elt F) → (⟨S16, .i32⟩ : BufTy).Contents (Elt F)) (after (ops (F := F)) V main_c_152) :=
  unary_eq ops_single V (lt_of_lt_of_eq (by decide : 269 < 668) ops_length.symm) main_c_152 main_v114 (broadcastInDim S16 ![] bcast_S_S16 : (⟨S_, .i32⟩ : BufTy).Contents (Elt F) → (⟨S16, .i32⟩ : BufTy).Contents (Elt F)) ⟨by decide, rfl⟩ ⟨by decide, rfl⟩ rfl (take_eq_of_earlier ops_single V (i := 268) (k := 269) (by decide) (lt_of_lt_of_eq (by decide : 268 < 668) ops_length.symm) (Finset.mem_singleton_self _))
theorem eq_main_v115 (V : Valuation τ sig (Elt F)) :
    after (ops (F := F)) V main_v115 = (addi : (⟨S16, .i32⟩ : BufTy).Contents (Elt F) → (⟨S16, .i32⟩ : BufTy).Contents (Elt F) → (⟨S16, .i32⟩ : BufTy).Contents (Elt F)) (after (ops (F := F)) V main_c_34) (after (ops (F := F)) V main_v114) :=
  binary_eq ops_single V (lt_of_lt_of_eq (by decide : 270 < 668) ops_length.symm) main_c_34 main_v114 main_v115 (addi : (⟨S16, .i32⟩ : BufTy).Contents (Elt F) → (⟨S16, .i32⟩ : BufTy).Contents (Elt F) → (⟨S16, .i32⟩ : BufTy).Contents (Elt F)) ⟨by decide, rfl⟩ ⟨by decide, rfl⟩ ⟨by decide, rfl⟩ rfl (take_eq_of_earlier ops_single V (i := 35) (k := 270) (by decide) (lt_of_lt_of_eq (by decide : 35 < 668) ops_length.symm) (Finset.mem_singleton_self _)) (take_eq_of_earlier ops_single V (i := 269) (k := 270) (by decide) (lt_of_lt_of_eq (by decide : 269 < 668) ops_length.symm) (Finset.mem_singleton_self _))
theorem eq_main_v116 (V : Valuation τ sig (Elt F)) :
    after (ops (F := F)) V main_v116 = (select : (⟨S16, .i1⟩ : BufTy).Contents (Elt F) → (⟨S16, .i32⟩ : BufTy).Contents (Elt F) → (⟨S16, .i32⟩ : BufTy).Contents (Elt F) → (⟨S16, .i32⟩ : BufTy).Contents (Elt F)) (after (ops (F := F)) V main_c_35) (after (ops (F := F)) V main_v115) (after (ops (F := F)) V main_c_34) :=
  ternary_eq ops_single V (lt_of_lt_of_eq (by decide : 271 < 668) ops_length.symm) main_c_35 main_v115 main_c_34 main_v116 (select : (⟨S16, .i1⟩ : BufTy).Contents (Elt F) → (⟨S16, .i32⟩ : BufTy).Contents (Elt F) → (⟨S16, .i32⟩ : BufTy).Contents (Elt F) → (⟨S16, .i32⟩ : BufTy).Contents (Elt F)) ⟨by decide, rfl⟩ ⟨by decide, rfl⟩ ⟨by decide, rfl⟩ ⟨by decide, rfl⟩ rfl (take_eq_of_earlier ops_single V (i := 36) (k := 271) (by decide) (lt_of_lt_of_eq (by decide : 36 < 668) ops_length.symm) (Finset.mem_singleton_self _)) (take_eq_of_earlier ops_single V (i := 270) (k := 271) (by decide) (lt_of_lt_of_eq (by decide : 270 < 668) ops_length.symm) (Finset.mem_singleton_self _)) (take_eq_of_earlier ops_single V (i := 35) (k := 271) (by decide) (lt_of_lt_of_eq (by decide : 35 < 668) ops_length.symm) (Finset.mem_singleton_self _))
theorem eq_main_v117 (V : Valuation τ sig (Elt F)) :
    after (ops (F := F)) V main_v117 = (broadcastInDim S16x1 ![0] bcast_S16_S16x1_0 : (⟨S16, .i32⟩ : BufTy).Contents (Elt F) → (⟨S16x1, .i32⟩ : BufTy).Contents (Elt F)) (after (ops (F := F)) V main_v116) :=
  unary_eq ops_single V (lt_of_lt_of_eq (by decide : 272 < 668) ops_length.symm) main_v116 main_v117 (broadcastInDim S16x1 ![0] bcast_S16_S16x1_0 : (⟨S16, .i32⟩ : BufTy).Contents (Elt F) → (⟨S16x1, .i32⟩ : BufTy).Contents (Elt F)) ⟨by decide, rfl⟩ ⟨by decide, rfl⟩ rfl (take_eq_of_earlier ops_single V (i := 271) (k := 272) (by decide) (lt_of_lt_of_eq (by decide : 271 < 668) ops_length.symm) (Finset.mem_singleton_self _))
theorem eq_main_v118 (V : Valuation τ sig (Elt F)) :
    after (ops (F := F)) V main_v118 = ((fun x i => Host.gather gather_S8x64x4096x16_S16x1_S8x64x16x16_013_2_n_n_2_1_864116 x i) : (⟨S8x64x4096x16, .f32⟩ : BufTy).Contents (Elt F) → (⟨S16x1, .i32⟩ : BufTy).Contents (Elt F) → (⟨S8x64x16x16, .f32⟩ : BufTy).Contents (Elt F)) (after (ops (F := F)) V main_v113) (after (ops (F := F)) V main_v117) :=
  binary_eq ops_single V (lt_of_lt_of_eq (by decide : 273 < 668) ops_length.symm) main_v113 main_v117 main_v118 ((fun x i => Host.gather gather_S8x64x4096x16_S16x1_S8x64x16x16_013_2_n_n_2_1_864116 x i) : (⟨S8x64x4096x16, .f32⟩ : BufTy).Contents (Elt F) → (⟨S16x1, .i32⟩ : BufTy).Contents (Elt F) → (⟨S8x64x16x16, .f32⟩ : BufTy).Contents (Elt F)) ⟨by decide, rfl⟩ ⟨by decide, rfl⟩ ⟨by decide, rfl⟩ rfl (take_eq_of_earlier ops_single V (i := 267) (k := 273) (by decide) (lt_of_lt_of_eq (by decide : 267 < 668) ops_length.symm) (Finset.mem_singleton_self _)) (take_eq_of_earlier ops_single V (i := 272) (k := 273) (by decide) (lt_of_lt_of_eq (by decide : 272 < 668) ops_length.symm) (Finset.mem_singleton_self _))
theorem eq_main_c_153 (V : Valuation τ sig (Elt F)) :
    after (ops (F := F)) V main_c_153 = (constantI S_ 32 4096#32) :=
  nullary_eq ops_single V (lt_of_lt_of_eq (by decide : 274 < 668) ops_length.symm) main_c_153 (constantI S_ 32 4096#32) ⟨by decide, rfl⟩ rfl
theorem eq_main_v119 (V : Valuation τ sig (Elt F)) :
    after (ops (F := F)) V main_v119 = (broadcastInDim S16 ![] bcast_S_S16 : (⟨S_, .i32⟩ : BufTy).Contents (Elt F) → (⟨S16, .i32⟩ : BufTy).Contents (Elt F)) (after (ops (F := F)) V main_c_153) :=
  unary_eq ops_single V (lt_of_lt_of_eq (by decide : 275 < 668) ops_length.symm) main_c_153 main_v119 (broadcastInDim S16 ![] bcast_S_S16 : (⟨S_, .i32⟩ : BufTy).Contents (Elt F) → (⟨S16, .i32⟩ : BufTy).Contents (Elt F)) ⟨by decide, rfl⟩ ⟨by decide, rfl⟩ rfl (take_eq_of_earlier ops_single V (i := 274) (k := 275) (by decide) (lt_of_lt_of_eq (by decide : 274 < 668) ops_length.symm) (Finset.mem_singleton_self _))
theorem eq_main_v120 (V : Valuation τ sig (Elt F)) :
    after (ops (F := F)) V main_v120 = (addi : (⟨S16, .i32⟩ : BufTy).Contents (Elt F) → (⟨S16, .i32⟩ : BufTy).Contents (Elt F) → (⟨S16, .i32⟩ : BufTy).Contents (Elt F)) (after (ops (F := F)) V main_c_36) (after (ops (F := F)) V main_v119) :=
  binary_eq ops_single V (lt_of_lt_of_eq (by decide : 276 < 668) ops_length.symm) main_c_36 main_v119 main_v120 (addi : (⟨S16, .i32⟩ : BufTy).Contents (Elt F) → (⟨S16, .i32⟩ : BufTy).Contents (Elt F) → (⟨S16, .i32⟩ : BufTy).Contents (Elt F)) ⟨by decide, rfl⟩ ⟨by decide, rfl⟩ ⟨by decide, rfl⟩ rfl (take_eq_of_earlier ops_single V (i := 37) (k := 276) (by decide) (lt_of_lt_of_eq (by decide : 37 < 668) ops_length.symm) (Finset.mem_singleton_self _)) (take_eq_of_earlier ops_single V (i := 275) (k := 276) (by decide) (lt_of_lt_of_eq (by decide : 275 < 668) ops_length.symm) (Finset.mem_singleton_self _))
theorem eq_main_v121 (V : Valuation τ sig (Elt F)) :
    after (ops (F := F)) V main_v121 = (select : (⟨S16, .i1⟩ : BufTy).Contents (Elt F) → (⟨S16, .i32⟩ : BufTy).Contents (Elt F) → (⟨S16, .i32⟩ : BufTy).Contents (Elt F) → (⟨S16, .i32⟩ : BufTy).Contents (Elt F)) (after (ops (F := F)) V main_c_37) (after (ops (F := F)) V main_v120) (after (ops (F := F)) V main_c_36) :=
  ternary_eq ops_single V (lt_of_lt_of_eq (by decide : 277 < 668) ops_length.symm) main_c_37 main_v120 main_c_36 main_v121 (select : (⟨S16, .i1⟩ : BufTy).Contents (Elt F) → (⟨S16, .i32⟩ : BufTy).Contents (Elt F) → (⟨S16, .i32⟩ : BufTy).Contents (Elt F) → (⟨S16, .i32⟩ : BufTy).Contents (Elt F)) ⟨by decide, rfl⟩ ⟨by decide, rfl⟩ ⟨by decide, rfl⟩ ⟨by decide, rfl⟩ rfl (take_eq_of_earlier ops_single V (i := 38) (k := 277) (by decide) (lt_of_lt_of_eq (by decide : 38 < 668) ops_length.symm) (Finset.mem_singleton_self _)) (take_eq_of_earlier ops_single V (i := 276) (k := 277) (by decide) (lt_of_lt_of_eq (by decide : 276 < 668) ops_length.symm) (Finset.mem_singleton_self _)) (take_eq_of_earlier ops_single V (i := 37) (k := 277) (by decide) (lt_of_lt_of_eq (by decide : 37 < 668) ops_length.symm) (Finset.mem_singleton_self _))
theorem eq_main_v122 (V : Valuation τ sig (Elt F)) :
    after (ops (F := F)) V main_v122 = (broadcastInDim S16x1 ![0] bcast_S16_S16x1_0 : (⟨S16, .i32⟩ : BufTy).Contents (Elt F) → (⟨S16x1, .i32⟩ : BufTy).Contents (Elt F)) (after (ops (F := F)) V main_v121) :=
  unary_eq ops_single V (lt_of_lt_of_eq (by decide : 278 < 668) ops_length.symm) main_v121 main_v122 (broadcastInDim S16x1 ![0] bcast_S16_S16x1_0 : (⟨S16, .i32⟩ : BufTy).Contents (Elt F) → (⟨S16x1, .i32⟩ : BufTy).Contents (Elt F)) ⟨by decide, rfl⟩ ⟨by decide, rfl⟩ rfl (take_eq_of_earlier ops_single V (i := 277) (k := 278) (by decide) (lt_of_lt_of_eq (by decide : 277 < 668) ops_length.symm) (Finset.mem_singleton_self _))
theorem eq_main_v123 (V : Valuation τ sig (Elt F)) :
    after (ops (F := F)) V main_v123 = ((fun x i => Host.gather gather_S8x64x4096x16_S16x1_S8x64x16x16_013_2_n_n_2_1_864116 x i) : (⟨S8x64x4096x16, .f32⟩ : BufTy).Contents (Elt F) → (⟨S16x1, .i32⟩ : BufTy).Contents (Elt F) → (⟨S8x64x16x16, .f32⟩ : BufTy).Contents (Elt F)) (after (ops (F := F)) V main_v113) (after (ops (F := F)) V main_v122) :=
  binary_eq ops_single V (lt_of_lt_of_eq (by decide : 279 < 668) ops_length.symm) main_v113 main_v122 main_v123 ((fun x i => Host.gather gather_S8x64x4096x16_S16x1_S8x64x16x16_013_2_n_n_2_1_864116 x i) : (⟨S8x64x4096x16, .f32⟩ : BufTy).Contents (Elt F) → (⟨S16x1, .i32⟩ : BufTy).Contents (Elt F) → (⟨S8x64x16x16, .f32⟩ : BufTy).Contents (Elt F)) ⟨by decide, rfl⟩ ⟨by decide, rfl⟩ ⟨by decide, rfl⟩ rfl (take_eq_of_earlier ops_single V (i := 267) (k := 279) (by decide) (lt_of_lt_of_eq (by decide : 267 < 668) ops_length.symm) (Finset.mem_singleton_self _)) (take_eq_of_earlier ops_single V (i := 278) (k := 279) (by decide) (lt_of_lt_of_eq (by decide : 278 < 668) ops_length.symm) (Finset.mem_singleton_self _))
theorem eq_main_v124 (V : Valuation τ sig (Elt F)) :
    after (ops (F := F)) V main_v124 = (addf : (⟨S8x64x16x16, .f32⟩ : BufTy).Contents (Elt F) → (⟨S8x64x16x16, .f32⟩ : BufTy).Contents (Elt F) → (⟨S8x64x16x16, .f32⟩ : BufTy).Contents (Elt F)) (after (ops (F := F)) V main_v118) (after (ops (F := F)) V main_v123) :=
  binary_eq ops_single V (lt_of_lt_of_eq (by decide : 280 < 668) ops_length.symm) main_v118 main_v123 main_v124 (addf : (⟨S8x64x16x16, .f32⟩ : BufTy).Contents (Elt F) → (⟨S8x64x16x16, .f32⟩ : BufTy).Contents (Elt F) → (⟨S8x64x16x16, .f32⟩ : BufTy).Contents (Elt F)) ⟨by decide, rfl⟩ ⟨by decide, rfl⟩ ⟨by decide, rfl⟩ rfl (take_eq_of_earlier ops_single V (i := 273) (k := 280) (by decide) (lt_of_lt_of_eq (by decide : 273 < 668) ops_length.symm) (Finset.mem_singleton_self _)) (take_eq_of_earlier ops_single V (i := 279) (k := 280) (by decide) (lt_of_lt_of_eq (by decide : 279 < 668) ops_length.symm) (Finset.mem_singleton_self _))
theorem eq_main_c_154 (V : Valuation τ sig (Elt F)) :
    after (ops (F := F)) V main_c_154 = (constantI S_ 32 4096#32) :=
  nullary_eq ops_single V (lt_of_lt_of_eq (by decide : 281 < 668) ops_length.symm) main_c_154 (constantI S_ 32 4096#32) ⟨by decide, rfl⟩ rfl
theorem eq_main_v125 (V : Valuation τ sig (Elt F)) :
    after (ops (F := F)) V main_v125 = (broadcastInDim S16 ![] bcast_S_S16 : (⟨S_, .i32⟩ : BufTy).Contents (Elt F) → (⟨S16, .i32⟩ : BufTy).Contents (Elt F)) (after (ops (F := F)) V main_c_154) :=
  unary_eq ops_single V (lt_of_lt_of_eq (by decide : 282 < 668) ops_length.symm) main_c_154 main_v125 (broadcastInDim S16 ![] bcast_S_S16 : (⟨S_, .i32⟩ : BufTy).Contents (Elt F) → (⟨S16, .i32⟩ : BufTy).Contents (Elt F)) ⟨by decide, rfl⟩ ⟨by decide, rfl⟩ rfl (take_eq_of_earlier ops_single V (i := 281) (k := 282) (by decide) (lt_of_lt_of_eq (by decide : 281 < 668) ops_length.symm) (Finset.mem_singleton_self _))
theorem eq_main_v126 (V : Valuation τ sig (Elt F)) :
    after (ops (F := F)) V main_v126 = (addi : (⟨S16, .i32⟩ : BufTy).Contents (Elt F) → (⟨S16, .i32⟩ : BufTy).Contents (Elt F) → (⟨S16, .i32⟩ : BufTy).Contents (Elt F)) (after (ops (F := F)) V main_c_36) (after (ops (F := F)) V main_v125) :=
  binary_eq ops_single V (lt_of_lt_of_eq (by decide : 283 < 668) ops_length.symm) main_c_36 main_v125 main_v126 (addi : (⟨S16, .i32⟩ : BufTy).Contents (Elt F) → (⟨S16, .i32⟩ : BufTy).Contents (Elt F) → (⟨S16, .i32⟩ : BufTy).Contents (Elt F)) ⟨by decide, rfl⟩ ⟨by decide, rfl⟩ ⟨by decide, rfl⟩ rfl (take_eq_of_earlier ops_single V (i := 37) (k := 283) (by decide) (lt_of_lt_of_eq (by decide : 37 < 668) ops_length.symm) (Finset.mem_singleton_self _)) (take_eq_of_earlier ops_single V (i := 282) (k := 283) (by decide) (lt_of_lt_of_eq (by decide : 282 < 668) ops_length.symm) (Finset.mem_singleton_self _))
theorem eq_main_v127 (V : Valuation τ sig (Elt F)) :
    after (ops (F := F)) V main_v127 = (select : (⟨S16, .i1⟩ : BufTy).Contents (Elt F) → (⟨S16, .i32⟩ : BufTy).Contents (Elt F) → (⟨S16, .i32⟩ : BufTy).Contents (Elt F) → (⟨S16, .i32⟩ : BufTy).Contents (Elt F)) (after (ops (F := F)) V main_c_38) (after (ops (F := F)) V main_v126) (after (ops (F := F)) V main_c_36) :=
  ternary_eq ops_single V (lt_of_lt_of_eq (by decide : 284 < 668) ops_length.symm) main_c_38 main_v126 main_c_36 main_v127 (select : (⟨S16, .i1⟩ : BufTy).Contents (Elt F) → (⟨S16, .i32⟩ : BufTy).Contents (Elt F) → (⟨S16, .i32⟩ : BufTy).Contents (Elt F) → (⟨S16, .i32⟩ : BufTy).Contents (Elt F)) ⟨by decide, rfl⟩ ⟨by decide, rfl⟩ ⟨by decide, rfl⟩ ⟨by decide, rfl⟩ rfl (take_eq_of_earlier ops_single V (i := 39) (k := 284) (by decide) (lt_of_lt_of_eq (by decide : 39 < 668) ops_length.symm) (Finset.mem_singleton_self _)) (take_eq_of_earlier ops_single V (i := 283) (k := 284) (by decide) (lt_of_lt_of_eq (by decide : 283 < 668) ops_length.symm) (Finset.mem_singleton_self _)) (take_eq_of_earlier ops_single V (i := 37) (k := 284) (by decide) (lt_of_lt_of_eq (by decide : 37 < 668) ops_length.symm) (Finset.mem_singleton_self _))
theorem eq_main_v128 (V : Valuation τ sig (Elt F)) :
    after (ops (F := F)) V main_v128 = (broadcastInDim S16x1 ![0] bcast_S16_S16x1_0 : (⟨S16, .i32⟩ : BufTy).Contents (Elt F) → (⟨S16x1, .i32⟩ : BufTy).Contents (Elt F)) (after (ops (F := F)) V main_v127) :=
  unary_eq ops_single V (lt_of_lt_of_eq (by decide : 285 < 668) ops_length.symm) main_v127 main_v128 (broadcastInDim S16x1 ![0] bcast_S16_S16x1_0 : (⟨S16, .i32⟩ : BufTy).Contents (Elt F) → (⟨S16x1, .i32⟩ : BufTy).Contents (Elt F)) ⟨by decide, rfl⟩ ⟨by decide, rfl⟩ rfl (take_eq_of_earlier ops_single V (i := 284) (k := 285) (by decide) (lt_of_lt_of_eq (by decide : 284 < 668) ops_length.symm) (Finset.mem_singleton_self _))
theorem eq_main_v129 (V : Valuation τ sig (Elt F)) :
    after (ops (F := F)) V main_v129 = ((fun x i u => Host.scatter scatter_S8x64x4096x16_S16x1_S8x64x16x16_013_2_2_1 (fun _ b => b) x i u) : (⟨S8x64x4096x16, .f32⟩ : BufTy).Contents (Elt F) → (⟨S16x1, .i32⟩ : BufTy).Contents (Elt F) → (⟨S8x64x16x16, .f32⟩ : BufTy).Contents (Elt F) → (⟨S8x64x4096x16, .f32⟩ : BufTy).Contents (Elt F)) (after (ops (F := F)) V main_v113) (after (ops (F := F)) V main_v128) (after (ops (F := F)) V main_v124) :=
  ternary_eq ops_single V (lt_of_lt_of_eq (by decide : 286 < 668) ops_length.symm) main_v113 main_v128 main_v124 main_v129 ((fun x i u => Host.scatter scatter_S8x64x4096x16_S16x1_S8x64x16x16_013_2_2_1 (fun _ b => b) x i u) : (⟨S8x64x4096x16, .f32⟩ : BufTy).Contents (Elt F) → (⟨S16x1, .i32⟩ : BufTy).Contents (Elt F) → (⟨S8x64x16x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 267) (k := 286) (by decide) (lt_of_lt_of_eq (by decide : 267 < 668) ops_length.symm) (Finset.mem_singleton_self _)) (take_eq_of_earlier ops_single V (i := 285) (k := 286) (by decide) (lt_of_lt_of_eq (by decide : 285 < 668) ops_length.symm) (Finset.mem_singleton_self _)) (take_eq_of_earlier ops_single V (i := 280) (k := 286) (by decide) (lt_of_lt_of_eq (by decide : 280 < 668) ops_length.symm) (Finset.mem_singleton_self _))
theorem eq_main_c_155 (V : Valuation τ sig (Elt F)) :
    after (ops (F := F)) V main_c_155 = (constantI S_ 32 4096#32) :=
  nullary_eq ops_single V (lt_of_lt_of_eq (by decide : 287 < 668) ops_length.symm) main_c_155 (constantI S_ 32 4096#32) ⟨by decide, rfl⟩ rfl
theorem eq_main_v130 (V : Valuation τ sig (Elt F)) :
    after (ops (F := F)) V main_v130 = (broadcastInDim S8 ![] bcast_S_S8 : (⟨S_, .i32⟩ : BufTy).Contents (Elt F) → (⟨S8, .i32⟩ : BufTy).Contents (Elt F)) (after (ops (F := F)) V main_c_155) :=
  unary_eq ops_single V (lt_of_lt_of_eq (by decide : 288 < 668) ops_length.symm) main_c_155 main_v130 (broadcastInDim S8 ![] bcast_S_S8 : (⟨S_, .i32⟩ : BufTy).Contents (Elt F) → (⟨S8, .i32⟩ : BufTy).Contents (Elt F)) ⟨by decide, rfl⟩ ⟨by decide, rfl⟩ rfl (take_eq_of_earlier ops_single V (i := 287) (k := 288) (by decide) (lt_of_lt_of_eq (by decide : 287 < 668) ops_length.symm) (Finset.mem_singleton_self _))
theorem eq_main_v131 (V : Valuation τ sig (Elt F)) :
    after (ops (F := F)) V main_v131 = (addi : (⟨S8, .i32⟩ : BufTy).Contents (Elt F) → (⟨S8, .i32⟩ : BufTy).Contents (Elt F) → (⟨S8, .i32⟩ : BufTy).Contents (Elt F)) (after (ops (F := F)) V main_c_39) (after (ops (F := F)) V main_v130) :=
  binary_eq ops_single V (lt_of_lt_of_eq (by decide : 289 < 668) ops_length.symm) main_c_39 main_v130 main_v131 (addi : (⟨S8, .i32⟩ : BufTy).Contents (Elt F) → (⟨S8, .i32⟩ : BufTy).Contents (Elt F) → (⟨S8, .i32⟩ : BufTy).Contents (Elt F)) ⟨by decide, rfl⟩ ⟨by decide, rfl⟩ ⟨by decide, rfl⟩ rfl (take_eq_of_earlier ops_single V (i := 40) (k := 289) (by decide) (lt_of_lt_of_eq (by decide : 40 < 668) ops_length.symm) (Finset.mem_singleton_self _)) (take_eq_of_earlier ops_single V (i := 288) (k := 289) (by decide) (lt_of_lt_of_eq (by decide : 288 < 668) ops_length.symm) (Finset.mem_singleton_self _))
theorem eq_main_v132 (V : Valuation τ sig (Elt F)) :
    after (ops (F := F)) V main_v132 = (select : (⟨S8, .i1⟩ : BufTy).Contents (Elt F) → (⟨S8, .i32⟩ : BufTy).Contents (Elt F) → (⟨S8, .i32⟩ : BufTy).Contents (Elt F) → (⟨S8, .i32⟩ : BufTy).Contents (Elt F)) (after (ops (F := F)) V main_c_40) (after (ops (F := F)) V main_v131) (after (ops (F := F)) V main_c_39) :=
  ternary_eq ops_single V (lt_of_lt_of_eq (by decide : 290 < 668) ops_length.symm) main_c_40 main_v131 main_c_39 main_v132 (select : (⟨S8, .i1⟩ : BufTy).Contents (Elt F) → (⟨S8, .i32⟩ : BufTy).Contents (Elt F) → (⟨S8, .i32⟩ : BufTy).Contents (Elt F) → (⟨S8, .i32⟩ : BufTy).Contents (Elt F)) ⟨by decide, rfl⟩ ⟨by decide, rfl⟩ ⟨by decide, rfl⟩ ⟨by decide, rfl⟩ rfl (take_eq_of_earlier ops_single V (i := 41) (k := 290) (by decide) (lt_of_lt_of_eq (by decide : 41 < 668) ops_length.symm) (Finset.mem_singleton_self _)) (take_eq_of_earlier ops_single V (i := 289) (k := 290) (by decide) (lt_of_lt_of_eq (by decide : 289 < 668) ops_length.symm) (Finset.mem_singleton_self _)) (take_eq_of_earlier ops_single V (i := 40) (k := 290) (by decide) (lt_of_lt_of_eq (by decide : 40 < 668) ops_length.symm) (Finset.mem_singleton_self _))
theorem eq_main_v133 (V : Valuation τ sig (Elt F)) :
    after (ops (F := F)) V main_v133 = (broadcastInDim S8x1 ![0] bcast_S8_S8x1_0 : (⟨S8, .i32⟩ : BufTy).Contents (Elt F) → (⟨S8x1, .i32⟩ : BufTy).Contents (Elt F)) (after (ops (F := F)) V main_v132) :=
  unary_eq ops_single V (lt_of_lt_of_eq (by decide : 291 < 668) ops_length.symm) main_v132 main_v133 (broadcastInDim S8x1 ![0] bcast_S8_S8x1_0 : (⟨S8, .i32⟩ : BufTy).Contents (Elt F) → (⟨S8x1, .i32⟩ : BufTy).Contents (Elt F)) ⟨by decide, rfl⟩ ⟨by decide, rfl⟩ rfl (take_eq_of_earlier ops_single V (i := 290) (k := 291) (by decide) (lt_of_lt_of_eq (by decide : 290 < 668) ops_length.symm) (Finset.mem_singleton_self _))
theorem eq_main_v134 (V : Valuation τ sig (Elt F)) :
    after (ops (F := F)) V main_v134 = ((fun x i => Host.gather gather_S8x64x4096x16_S8x1_S8x64x8x16_013_2_n_n_2_1_864116 x i) : (⟨S8x64x4096x16, .f32⟩ : BufTy).Contents (Elt F) → (⟨S8x1, .i32⟩ : BufTy).Contents (Elt F) → (⟨S8x64x8x16, .f32⟩ : BufTy).Contents (Elt F)) (after (ops (F := F)) V main_v129) (after (ops (F := F)) V main_v133) :=
  binary_eq ops_single V (lt_of_lt_of_eq (by decide : 292 < 668) ops_length.symm) main_v129 main_v133 main_v134 ((fun x i => Host.gather gather_S8x64x4096x16_S8x1_S8x64x8x16_013_2_n_n_2_1_864116 x i) : (⟨S8x64x4096x16, .f32⟩ : BufTy).Contents (Elt F) → (⟨S8x1, .i32⟩ : BufTy).Contents (Elt F) → (⟨S8x64x8x16, .f32⟩ : BufTy).Contents (Elt F)) ⟨by decide, rfl⟩ ⟨by decide, rfl⟩ ⟨by decide, rfl⟩ rfl (take_eq_of_earlier ops_single V (i := 286) (k := 292) (by decide) (lt_of_lt_of_eq (by decide : 286 < 668) ops_length.symm) (Finset.mem_singleton_self _)) (take_eq_of_earlier ops_single V (i := 291) (k := 292) (by decide) (lt_of_lt_of_eq (by decide : 291 < 668) ops_length.symm) (Finset.mem_singleton_self _))
theorem eq_main_c_156 (V : Valuation τ sig (Elt F)) :
    after (ops (F := F)) V main_c_156 = (constantI S_ 32 4096#32) :=
  nullary_eq ops_single V (lt_of_lt_of_eq (by decide : 293 < 668) ops_length.symm) main_c_156 (constantI S_ 32 4096#32) ⟨by decide, rfl⟩ rfl
theorem eq_main_v135 (V : Valuation τ sig (Elt F)) :
    after (ops (F := F)) V main_v135 = (broadcastInDim S8 ![] bcast_S_S8 : (⟨S_, .i32⟩ : BufTy).Contents (Elt F) → (⟨S8, .i32⟩ : BufTy).Contents (Elt F)) (after (ops (F := F)) V main_c_156) :=
  unary_eq ops_single V (lt_of_lt_of_eq (by decide : 294 < 668) ops_length.symm) main_c_156 main_v135 (broadcastInDim S8 ![] bcast_S_S8 : (⟨S_, .i32⟩ : BufTy).Contents (Elt F) → (⟨S8, .i32⟩ : BufTy).Contents (Elt F)) ⟨by decide, rfl⟩ ⟨by decide, rfl⟩ rfl (take_eq_of_earlier ops_single V (i := 293) (k := 294) (by decide) (lt_of_lt_of_eq (by decide : 293 < 668) ops_length.symm) (Finset.mem_singleton_self _))
theorem eq_main_v136 (V : Valuation τ sig (Elt F)) :
    after (ops (F := F)) V main_v136 = (addi : (⟨S8, .i32⟩ : BufTy).Contents (Elt F) → (⟨S8, .i32⟩ : BufTy).Contents (Elt F) → (⟨S8, .i32⟩ : BufTy).Contents (Elt F)) (after (ops (F := F)) V main_c_41) (after (ops (F := F)) V main_v135) :=
  binary_eq ops_single V (lt_of_lt_of_eq (by decide : 295 < 668) ops_length.symm) main_c_41 main_v135 main_v136 (addi : (⟨S8, .i32⟩ : BufTy).Contents (Elt F) → (⟨S8, .i32⟩ : BufTy).Contents (Elt F) → (⟨S8, .i32⟩ : BufTy).Contents (Elt F)) ⟨by decide, rfl⟩ ⟨by decide, rfl⟩ ⟨by decide, rfl⟩ rfl (take_eq_of_earlier ops_single V (i := 42) (k := 295) (by decide) (lt_of_lt_of_eq (by decide : 42 < 668) ops_length.symm) (Finset.mem_singleton_self _)) (take_eq_of_earlier ops_single V (i := 294) (k := 295) (by decide) (lt_of_lt_of_eq (by decide : 294 < 668) ops_length.symm) (Finset.mem_singleton_self _))
theorem eq_main_v137 (V : Valuation τ sig (Elt F)) :
    after (ops (F := F)) V main_v137 = (select : (⟨S8, .i1⟩ : BufTy).Contents (Elt F) → (⟨S8, .i32⟩ : BufTy).Contents (Elt F) → (⟨S8, .i32⟩ : BufTy).Contents (Elt F) → (⟨S8, .i32⟩ : BufTy).Contents (Elt F)) (after (ops (F := F)) V main_c_42) (after (ops (F := F)) V main_v136) (after (ops (F := F)) V main_c_41) :=
  ternary_eq ops_single V (lt_of_lt_of_eq (by decide : 296 < 668) ops_length.symm) main_c_42 main_v136 main_c_41 main_v137 (select : (⟨S8, .i1⟩ : BufTy).Contents (Elt F) → (⟨S8, .i32⟩ : BufTy).Contents (Elt F) → (⟨S8, .i32⟩ : BufTy).Contents (Elt F) → (⟨S8, .i32⟩ : BufTy).Contents (Elt F)) ⟨by decide, rfl⟩ ⟨by decide, rfl⟩ ⟨by decide, rfl⟩ ⟨by decide, rfl⟩ rfl (take_eq_of_earlier ops_single V (i := 43) (k := 296) (by decide) (lt_of_lt_of_eq (by decide : 43 < 668) ops_length.symm) (Finset.mem_singleton_self _)) (take_eq_of_earlier ops_single V (i := 295) (k := 296) (by decide) (lt_of_lt_of_eq (by decide : 295 < 668) ops_length.symm) (Finset.mem_singleton_self _)) (take_eq_of_earlier ops_single V (i := 42) (k := 296) (by decide) (lt_of_lt_of_eq (by decide : 42 < 668) ops_length.symm) (Finset.mem_singleton_self _))
theorem eq_main_v138 (V : Valuation τ sig (Elt F)) :
    after (ops (F := F)) V main_v138 = (broadcastInDim S8x1 ![0] bcast_S8_S8x1_0 : (⟨S8, .i32⟩ : BufTy).Contents (Elt F) → (⟨S8x1, .i32⟩ : BufTy).Contents (Elt F)) (after (ops (F := F)) V main_v137) :=
  unary_eq ops_single V (lt_of_lt_of_eq (by decide : 297 < 668) ops_length.symm) main_v137 main_v138 (broadcastInDim S8x1 ![0] bcast_S8_S8x1_0 : (⟨S8, .i32⟩ : BufTy).Contents (Elt F) → (⟨S8x1, .i32⟩ : BufTy).Contents (Elt F)) ⟨by decide, rfl⟩ ⟨by decide, rfl⟩ rfl (take_eq_of_earlier ops_single V (i := 296) (k := 297) (by decide) (lt_of_lt_of_eq (by decide : 296 < 668) ops_length.symm) (Finset.mem_singleton_self _))
theorem eq_main_v139 (V : Valuation τ sig (Elt F)) :
    after (ops (F := F)) V main_v139 = ((fun x i => Host.gather gather_S8x64x4096x16_S8x1_S8x64x8x16_013_2_n_n_2_1_864116 x i) : (⟨S8x64x4096x16, .f32⟩ : BufTy).Contents (Elt F) → (⟨S8x1, .i32⟩ : BufTy).Contents (Elt F) → (⟨S8x64x8x16, .f32⟩ : BufTy).Contents (Elt F)) (after (ops (F := F)) V main_v129) (after (ops (F := F)) V main_v138) :=
  binary_eq ops_single V (lt_of_lt_of_eq (by decide : 298 < 668) ops_length.symm) main_v129 main_v138 main_v139 ((fun x i => Host.gather gather_S8x64x4096x16_S8x1_S8x64x8x16_013_2_n_n_2_1_864116 x i) : (⟨S8x64x4096x16, .f32⟩ : BufTy).Contents (Elt F) → (⟨S8x1, .i32⟩ : BufTy).Contents (Elt F) → (⟨S8x64x8x16, .f32⟩ : BufTy).Contents (Elt F)) ⟨by decide, rfl⟩ ⟨by decide, rfl⟩ ⟨by decide, rfl⟩ rfl (take_eq_of_earlier ops_single V (i := 286) (k := 298) (by decide) (lt_of_lt_of_eq (by decide : 286 < 668) ops_length.symm) (Finset.mem_singleton_self _)) (take_eq_of_earlier ops_single V (i := 297) (k := 298) (by decide) (lt_of_lt_of_eq (by decide : 297 < 668) ops_length.symm) (Finset.mem_singleton_self _))
theorem eq_main_v140 (V : Valuation τ sig (Elt F)) :
    after (ops (F := F)) V main_v140 = (addf : (⟨S8x64x8x16, .f32⟩ : BufTy).Contents (Elt F) → (⟨S8x64x8x16, .f32⟩ : BufTy).Contents (Elt F) → (⟨S8x64x8x16, .f32⟩ : BufTy).Contents (Elt F)) (after (ops (F := F)) V main_v134) (after (ops (F := F)) V main_v139) :=
  binary_eq ops_single V (lt_of_lt_of_eq (by decide : 299 < 668) ops_length.symm) main_v134 main_v139 main_v140 (addf : (⟨S8x64x8x16, .f32⟩ : BufTy).Contents (Elt F) → (⟨S8x64x8x16, .f32⟩ : BufTy).Contents (Elt F) → (⟨S8x64x8x16, .f32⟩ : BufTy).Contents (Elt F)) ⟨by decide, rfl⟩ ⟨by decide, rfl⟩ ⟨by decide, rfl⟩ rfl (take_eq_of_earlier ops_single V (i := 292) (k := 299) (by decide) (lt_of_lt_of_eq (by decide : 292 < 668) ops_length.symm) (Finset.mem_singleton_self _)) (take_eq_of_earlier ops_single V (i := 298) (k := 299) (by decide) (lt_of_lt_of_eq (by decide : 298 < 668) ops_length.symm) (Finset.mem_singleton_self _))

end Cert.ReferenceIdeal.Line

end
-- ==== Proof.RefEq5.lean ====
/-
  The equations of the reference's operations in its window 5: what the whole line leaves at each operation's result is
  the operation's function of what the whole line leaves at its operands.
-/
import proofs.«140659_j42700564857293_1_alg».proof.Proof.RefSingle

noncomputable section

namespace Cert.ReferenceIdeal.Line

open Cert.ReferenceIdeal Cert.ReferenceIdeal.Gen Idealize.ShloMosaic Idealize.ShloMosaic.TcCoe Idealize.SL.Sem Idealize.ShloMosaic.StableHlo Cert.SingleAssignment

variable {F : FTy → Type} [FloatOps F]

theorem eq_main_c_157 (V : Valuation τ sig (Elt F)) :
    after (ops (F := F)) V main_c_157 = (constantI S_ 32 4096#32) :=
  nullary_eq ops_single V (lt_of_lt_of_eq (by decide : 300 < 668) ops_length.symm) main_c_157 (constantI S_ 32 4096#32) ⟨by decide, rfl⟩ rfl
theorem eq_main_v141 (V : Valuation τ sig (Elt F)) :
    after (ops (F := F)) V main_v141 = (broadcastInDim S8 ![] bcast_S_S8 : (⟨S_, .i32⟩ : BufTy).Contents (Elt F) → (⟨S8, .i32⟩ : BufTy).Contents (Elt F)) (after (ops (F := F)) V main_c_157) :=
  unary_eq ops_single V (lt_of_lt_of_eq (by decide : 301 < 668) ops_length.symm) main_c_157 main_v141 (broadcastInDim S8 ![] bcast_S_S8 : (⟨S_, .i32⟩ : BufTy).Contents (Elt F) → (⟨S8, .i32⟩ : BufTy).Contents (Elt F)) ⟨by decide, rfl⟩ ⟨by decide, rfl⟩ rfl (take_eq_of_earlier ops_single V (i := 300) (k := 301) (by decide) (lt_of_lt_of_eq (by decide : 300 < 668) ops_length.symm) (Finset.mem_singleton_self _))
theorem eq_main_v142 (V : Valuation τ sig (Elt F)) :
    after (ops (F := F)) V main_v142 = (addi : (⟨S8, .i32⟩ : BufTy).Contents (Elt F) → (⟨S8, .i32⟩ : BufTy).Contents (Elt F) → (⟨S8, .i32⟩ : BufTy).Contents (Elt F)) (after (ops (F := F)) V main_c_41) (after (ops (F := F)) V main_v141) :=
  binary_eq ops_single V (lt_of_lt_of_eq (by decide : 302 < 668) ops_length.symm) main_c_41 main_v141 main_v142 (addi : (⟨S8, .i32⟩ : BufTy).Contents (Elt F) → (⟨S8, .i32⟩ : BufTy).Contents (Elt F) → (⟨S8, .i32⟩ : BufTy).Contents (Elt F)) ⟨by decide, rfl⟩ ⟨by decide, rfl⟩ ⟨by decide, rfl⟩ rfl (take_eq_of_earlier ops_single V (i := 42) (k := 302) (by decide) (lt_of_lt_of_eq (by decide : 42 < 668) ops_length.symm) (Finset.mem_singleton_self _)) (take_eq_of_earlier ops_single V (i := 301) (k := 302) (by decide) (lt_of_lt_of_eq (by decide : 301 < 668) ops_length.symm) (Finset.mem_singleton_self _))
theorem eq_main_v143 (V : Valuation τ sig (Elt F)) :
    after (ops (F := F)) V main_v143 = (select : (⟨S8, .i1⟩ : BufTy).Contents (Elt F) → (⟨S8, .i32⟩ : BufTy).Contents (Elt F) → (⟨S8, .i32⟩ : BufTy).Contents (Elt F) → (⟨S8, .i32⟩ : BufTy).Contents (Elt F)) (after (ops (F := F)) V main_c_43) (after (ops (F := F)) V main_v142) (after (ops (F := F)) V main_c_41) :=
  ternary_eq ops_single V (lt_of_lt_of_eq (by decide : 303 < 668) ops_length.symm) main_c_43 main_v142 main_c_41 main_v143 (select : (⟨S8, .i1⟩ : BufTy).Contents (Elt F) → (⟨S8, .i32⟩ : BufTy).Contents (Elt F) → (⟨S8, .i32⟩ : BufTy).Contents (Elt F) → (⟨S8, .i32⟩ : BufTy).Contents (Elt F)) ⟨by decide, rfl⟩ ⟨by decide, rfl⟩ ⟨by decide, rfl⟩ ⟨by decide, rfl⟩ rfl (take_eq_of_earlier ops_single V (i := 44) (k := 303) (by decide) (lt_of_lt_of_eq (by decide : 44 < 668) ops_length.symm) (Finset.mem_singleton_self _)) (take_eq_of_earlier ops_single V (i := 302) (k := 303) (by decide) (lt_of_lt_of_eq (by decide : 302 < 668) ops_length.symm) (Finset.mem_singleton_self _)) (take_eq_of_earlier ops_single V (i := 42) (k := 303) (by decide) (lt_of_lt_of_eq (by decide : 42 < 668) ops_length.symm) (Finset.mem_singleton_self _))
theorem eq_main_v144 (V : Valuation τ sig (Elt F)) :
    after (ops (F := F)) V main_v144 = (broadcastInDim S8x1 ![0] bcast_S8_S8x1_0 : (⟨S8, .i32⟩ : BufTy).Contents (Elt F) → (⟨S8x1, .i32⟩ : BufTy).Contents (Elt F)) (after (ops (F := F)) V main_v143) :=
  unary_eq ops_single V (lt_of_lt_of_eq (by decide : 304 < 668) ops_length.symm) main_v143 main_v144 (broadcastInDim S8x1 ![0] bcast_S8_S8x1_0 : (⟨S8, .i32⟩ : BufTy).Contents (Elt F) → (⟨S8x1, .i32⟩ : BufTy).Contents (Elt F)) ⟨by decide, rfl⟩ ⟨by decide, rfl⟩ rfl (take_eq_of_earlier ops_single V (i := 303) (k := 304) (by decide) (lt_of_lt_of_eq (by decide : 303 < 668) ops_length.symm) (Finset.mem_singleton_self _))
theorem eq_main_v145 (V : Valuation τ sig (Elt F)) :
    after (ops (F := F)) V main_v145 = ((fun x i u => Host.scatter scatter_S8x64x4096x16_S8x1_S8x64x8x16_013_2_2_1 (fun _ b => b) x i u) : (⟨S8x64x4096x16, .f32⟩ : BufTy).Contents (Elt F) → (⟨S8x1, .i32⟩ : BufTy).Contents (Elt F) → (⟨S8x64x8x16, .f32⟩ : BufTy).Contents (Elt F) → (⟨S8x64x4096x16, .f32⟩ : BufTy).Contents (Elt F)) (after (ops (F := F)) V main_v129) (after (ops (F := F)) V main_v144) (after (ops (F := F)) V main_v140) :=
  ternary_eq ops_single V (lt_of_lt_of_eq (by decide : 305 < 668) ops_length.symm) main_v129 main_v144 main_v140 main_v145 ((fun x i u => Host.scatter scatter_S8x64x4096x16_S8x1_S8x64x8x16_013_2_2_1 (fun _ b => b) x i u) : (⟨S8x64x4096x16, .f32⟩ : BufTy).Contents (Elt F) → (⟨S8x1, .i32⟩ : BufTy).Contents (Elt F) → (⟨S8x64x8x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 286) (k := 305) (by decide) (lt_of_lt_of_eq (by decide : 286 < 668) ops_length.symm) (Finset.mem_singleton_self _)) (take_eq_of_earlier ops_single V (i := 304) (k := 305) (by decide) (lt_of_lt_of_eq (by decide : 304 < 668) ops_length.symm) (Finset.mem_singleton_self _)) (take_eq_of_earlier ops_single V (i := 299) (k := 305) (by decide) (lt_of_lt_of_eq (by decide : 299 < 668) ops_length.symm) (Finset.mem_singleton_self _))
theorem eq_main_c_158 (V : Valuation τ sig (Elt F)) :
    after (ops (F := F)) V main_c_158 = (constantI S_ 32 4096#32) :=
  nullary_eq ops_single V (lt_of_lt_of_eq (by decide : 306 < 668) ops_length.symm) main_c_158 (constantI S_ 32 4096#32) ⟨by decide, rfl⟩ rfl
theorem eq_main_v146 (V : Valuation τ sig (Elt F)) :
    after (ops (F := F)) V main_v146 = (broadcastInDim S4 ![] bcast_S_S4 : (⟨S_, .i32⟩ : BufTy).Contents (Elt F) → (⟨S4, .i32⟩ : BufTy).Contents (Elt F)) (after (ops (F := F)) V main_c_158) :=
  unary_eq ops_single V (lt_of_lt_of_eq (by decide : 307 < 668) ops_length.symm) main_c_158 main_v146 (broadcastInDim S4 ![] bcast_S_S4 : (⟨S_, .i32⟩ : BufTy).Contents (Elt F) → (⟨S4, .i32⟩ : BufTy).Contents (Elt F)) ⟨by decide, rfl⟩ ⟨by decide, rfl⟩ rfl (take_eq_of_earlier ops_single V (i := 306) (k := 307) (by decide) (lt_of_lt_of_eq (by decide : 306 < 668) ops_length.symm) (Finset.mem_singleton_self _))
theorem eq_main_v147 (V : Valuation τ sig (Elt F)) :
    after (ops (F := F)) V main_v147 = (addi : (⟨S4, .i32⟩ : BufTy).Contents (Elt F) → (⟨S4, .i32⟩ : BufTy).Contents (Elt F) → (⟨S4, .i32⟩ : BufTy).Contents (Elt F)) (after (ops (F := F)) V main_c_44) (after (ops (F := F)) V main_v146) :=
  binary_eq ops_single V (lt_of_lt_of_eq (by decide : 308 < 668) ops_length.symm) main_c_44 main_v146 main_v147 (addi : (⟨S4, .i32⟩ : BufTy).Contents (Elt F) → (⟨S4, .i32⟩ : BufTy).Contents (Elt F) → (⟨S4, .i32⟩ : BufTy).Contents (Elt F)) ⟨by decide, rfl⟩ ⟨by decide, rfl⟩ ⟨by decide, rfl⟩ rfl (take_eq_of_earlier ops_single V (i := 45) (k := 308) (by decide) (lt_of_lt_of_eq (by decide : 45 < 668) ops_length.symm) (Finset.mem_singleton_self _)) (take_eq_of_earlier ops_single V (i := 307) (k := 308) (by decide) (lt_of_lt_of_eq (by decide : 307 < 668) ops_length.symm) (Finset.mem_singleton_self _))
theorem eq_main_v148 (V : Valuation τ sig (Elt F)) :
    after (ops (F := F)) V main_v148 = (select : (⟨S4, .i1⟩ : BufTy).Contents (Elt F) → (⟨S4, .i32⟩ : BufTy).Contents (Elt F) → (⟨S4, .i32⟩ : BufTy).Contents (Elt F) → (⟨S4, .i32⟩ : BufTy).Contents (Elt F)) (after (ops (F := F)) V main_c_45) (after (ops (F := F)) V main_v147) (after (ops (F := F)) V main_c_44) :=
  ternary_eq ops_single V (lt_of_lt_of_eq (by decide : 309 < 668) ops_length.symm) main_c_45 main_v147 main_c_44 main_v148 (select : (⟨S4, .i1⟩ : BufTy).Contents (Elt F) → (⟨S4, .i32⟩ : BufTy).Contents (Elt F) → (⟨S4, .i32⟩ : BufTy).Contents (Elt F) → (⟨S4, .i32⟩ : BufTy).Contents (Elt F)) ⟨by decide, rfl⟩ ⟨by decide, rfl⟩ ⟨by decide, rfl⟩ ⟨by decide, rfl⟩ rfl (take_eq_of_earlier ops_single V (i := 46) (k := 309) (by decide) (lt_of_lt_of_eq (by decide : 46 < 668) ops_length.symm) (Finset.mem_singleton_self _)) (take_eq_of_earlier ops_single V (i := 308) (k := 309) (by decide) (lt_of_lt_of_eq (by decide : 308 < 668) ops_length.symm) (Finset.mem_singleton_self _)) (take_eq_of_earlier ops_single V (i := 45) (k := 309) (by decide) (lt_of_lt_of_eq (by decide : 45 < 668) ops_length.symm) (Finset.mem_singleton_self _))
theorem eq_main_v149 (V : Valuation τ sig (Elt F)) :
    after (ops (F := F)) V main_v149 = (broadcastInDim S4x1 ![0] bcast_S4_S4x1_0 : (⟨S4, .i32⟩ : BufTy).Contents (Elt F) → (⟨S4x1, .i32⟩ : BufTy).Contents (Elt F)) (after (ops (F := F)) V main_v148) :=
  unary_eq ops_single V (lt_of_lt_of_eq (by decide : 310 < 668) ops_length.symm) main_v148 main_v149 (broadcastInDim S4x1 ![0] bcast_S4_S4x1_0 : (⟨S4, .i32⟩ : BufTy).Contents (Elt F) → (⟨S4x1, .i32⟩ : BufTy).Contents (Elt F)) ⟨by decide, rfl⟩ ⟨by decide, rfl⟩ rfl (take_eq_of_earlier ops_single V (i := 309) (k := 310) (by decide) (lt_of_lt_of_eq (by decide : 309 < 668) ops_length.symm) (Finset.mem_singleton_self _))
theorem eq_main_v150 (V : Valuation τ sig (Elt F)) :
    after (ops (F := F)) V main_v150 = ((fun x i => Host.gather gather_S8x64x4096x16_S4x1_S8x64x4x16_013_2_n_n_2_1_864116 x i) : (⟨S8x64x4096x16, .f32⟩ : BufTy).Contents (Elt F) → (⟨S4x1, .i32⟩ : BufTy).Contents (Elt F) → (⟨S8x64x4x16, .f32⟩ : BufTy).Contents (Elt F)) (after (ops (F := F)) V main_v145) (after (ops (F := F)) V main_v149) :=
  binary_eq ops_single V (lt_of_lt_of_eq (by decide : 311 < 668) ops_length.symm) main_v145 main_v149 main_v150 ((fun x i => Host.gather gather_S8x64x4096x16_S4x1_S8x64x4x16_013_2_n_n_2_1_864116 x i) : (⟨S8x64x4096x16, .f32⟩ : BufTy).Contents (Elt F) → (⟨S4x1, .i32⟩ : BufTy).Contents (Elt F) → (⟨S8x64x4x16, .f32⟩ : BufTy).Contents (Elt F)) ⟨by decide, rfl⟩ ⟨by decide, rfl⟩ ⟨by decide, rfl⟩ rfl (take_eq_of_earlier ops_single V (i := 305) (k := 311) (by decide) (lt_of_lt_of_eq (by decide : 305 < 668) ops_length.symm) (Finset.mem_singleton_self _)) (take_eq_of_earlier ops_single V (i := 310) (k := 311) (by decide) (lt_of_lt_of_eq (by decide : 310 < 668) ops_length.symm) (Finset.mem_singleton_self _))
theorem eq_main_c_159 (V : Valuation τ sig (Elt F)) :
    after (ops (F := F)) V main_c_159 = (constantI S_ 32 4096#32) :=
  nullary_eq ops_single V (lt_of_lt_of_eq (by decide : 312 < 668) ops_length.symm) main_c_159 (constantI S_ 32 4096#32) ⟨by decide, rfl⟩ rfl
theorem eq_main_v151 (V : Valuation τ sig (Elt F)) :
    after (ops (F := F)) V main_v151 = (broadcastInDim S4 ![] bcast_S_S4 : (⟨S_, .i32⟩ : BufTy).Contents (Elt F) → (⟨S4, .i32⟩ : BufTy).Contents (Elt F)) (after (ops (F := F)) V main_c_159) :=
  unary_eq ops_single V (lt_of_lt_of_eq (by decide : 313 < 668) ops_length.symm) main_c_159 main_v151 (broadcastInDim S4 ![] bcast_S_S4 : (⟨S_, .i32⟩ : BufTy).Contents (Elt F) → (⟨S4, .i32⟩ : BufTy).Contents (Elt F)) ⟨by decide, rfl⟩ ⟨by decide, rfl⟩ rfl (take_eq_of_earlier ops_single V (i := 312) (k := 313) (by decide) (lt_of_lt_of_eq (by decide : 312 < 668) ops_length.symm) (Finset.mem_singleton_self _))
theorem eq_main_v152 (V : Valuation τ sig (Elt F)) :
    after (ops (F := F)) V main_v152 = (addi : (⟨S4, .i32⟩ : BufTy).Contents (Elt F) → (⟨S4, .i32⟩ : BufTy).Contents (Elt F) → (⟨S4, .i32⟩ : BufTy).Contents (Elt F)) (after (ops (F := F)) V main_c_46) (after (ops (F := F)) V main_v151) :=
  binary_eq ops_single V (lt_of_lt_of_eq (by decide : 314 < 668) ops_length.symm) main_c_46 main_v151 main_v152 (addi : (⟨S4, .i32⟩ : BufTy).Contents (Elt F) → (⟨S4, .i32⟩ : BufTy).Contents (Elt F) → (⟨S4, .i32⟩ : BufTy).Contents (Elt F)) ⟨by decide, rfl⟩ ⟨by decide, rfl⟩ ⟨by decide, rfl⟩ rfl (take_eq_of_earlier ops_single V (i := 47) (k := 314) (by decide) (lt_of_lt_of_eq (by decide : 47 < 668) ops_length.symm) (Finset.mem_singleton_self _)) (take_eq_of_earlier ops_single V (i := 313) (k := 314) (by decide) (lt_of_lt_of_eq (by decide : 313 < 668) ops_length.symm) (Finset.mem_singleton_self _))
theorem eq_main_v153 (V : Valuation τ sig (Elt F)) :
    after (ops (F := F)) V main_v153 = (select : (⟨S4, .i1⟩ : BufTy).Contents (Elt F) → (⟨S4, .i32⟩ : BufTy).Contents (Elt F) → (⟨S4, .i32⟩ : BufTy).Contents (Elt F) → (⟨S4, .i32⟩ : BufTy).Contents (Elt F)) (after (ops (F := F)) V main_c_47) (after (ops (F := F)) V main_v152) (after (ops (F := F)) V main_c_46) :=
  ternary_eq ops_single V (lt_of_lt_of_eq (by decide : 315 < 668) ops_length.symm) main_c_47 main_v152 main_c_46 main_v153 (select : (⟨S4, .i1⟩ : BufTy).Contents (Elt F) → (⟨S4, .i32⟩ : BufTy).Contents (Elt F) → (⟨S4, .i32⟩ : BufTy).Contents (Elt F) → (⟨S4, .i32⟩ : BufTy).Contents (Elt F)) ⟨by decide, rfl⟩ ⟨by decide, rfl⟩ ⟨by decide, rfl⟩ ⟨by decide, rfl⟩ rfl (take_eq_of_earlier ops_single V (i := 48) (k := 315) (by decide) (lt_of_lt_of_eq (by decide : 48 < 668) ops_length.symm) (Finset.mem_singleton_self _)) (take_eq_of_earlier ops_single V (i := 314) (k := 315) (by decide) (lt_of_lt_of_eq (by decide : 314 < 668) ops_length.symm) (Finset.mem_singleton_self _)) (take_eq_of_earlier ops_single V (i := 47) (k := 315) (by decide) (lt_of_lt_of_eq (by decide : 47 < 668) ops_length.symm) (Finset.mem_singleton_self _))
theorem eq_main_v154 (V : Valuation τ sig (Elt F)) :
    after (ops (F := F)) V main_v154 = (broadcastInDim S4x1 ![0] bcast_S4_S4x1_0 : (⟨S4, .i32⟩ : BufTy).Contents (Elt F) → (⟨S4x1, .i32⟩ : BufTy).Contents (Elt F)) (after (ops (F := F)) V main_v153) :=
  unary_eq ops_single V (lt_of_lt_of_eq (by decide : 316 < 668) ops_length.symm) main_v153 main_v154 (broadcastInDim S4x1 ![0] bcast_S4_S4x1_0 : (⟨S4, .i32⟩ : BufTy).Contents (Elt F) → (⟨S4x1, .i32⟩ : BufTy).Contents (Elt F)) ⟨by decide, rfl⟩ ⟨by decide, rfl⟩ rfl (take_eq_of_earlier ops_single V (i := 315) (k := 316) (by decide) (lt_of_lt_of_eq (by decide : 315 < 668) ops_length.symm) (Finset.mem_singleton_self _))
theorem eq_main_v155 (V : Valuation τ sig (Elt F)) :
    after (ops (F := F)) V main_v155 = ((fun x i => Host.gather gather_S8x64x4096x16_S4x1_S8x64x4x16_013_2_n_n_2_1_864116 x i) : (⟨S8x64x4096x16, .f32⟩ : BufTy).Contents (Elt F) → (⟨S4x1, .i32⟩ : BufTy).Contents (Elt F) → (⟨S8x64x4x16, .f32⟩ : BufTy).Contents (Elt F)) (after (ops (F := F)) V main_v145) (after (ops (F := F)) V main_v154) :=
  binary_eq ops_single V (lt_of_lt_of_eq (by decide : 317 < 668) ops_length.symm) main_v145 main_v154 main_v155 ((fun x i => Host.gather gather_S8x64x4096x16_S4x1_S8x64x4x16_013_2_n_n_2_1_864116 x i) : (⟨S8x64x4096x16, .f32⟩ : BufTy).Contents (Elt F) → (⟨S4x1, .i32⟩ : BufTy).Contents (Elt F) → (⟨S8x64x4x16, .f32⟩ : BufTy).Contents (Elt F)) ⟨by decide, rfl⟩ ⟨by decide, rfl⟩ ⟨by decide, rfl⟩ rfl (take_eq_of_earlier ops_single V (i := 305) (k := 317) (by decide) (lt_of_lt_of_eq (by decide : 305 < 668) ops_length.symm) (Finset.mem_singleton_self _)) (take_eq_of_earlier ops_single V (i := 316) (k := 317) (by decide) (lt_of_lt_of_eq (by decide : 316 < 668) ops_length.symm) (Finset.mem_singleton_self _))
theorem eq_main_v156 (V : Valuation τ sig (Elt F)) :
    after (ops (F := F)) V main_v156 = (addf : (⟨S8x64x4x16, .f32⟩ : BufTy).Contents (Elt F) → (⟨S8x64x4x16, .f32⟩ : BufTy).Contents (Elt F) → (⟨S8x64x4x16, .f32⟩ : BufTy).Contents (Elt F)) (after (ops (F := F)) V main_v150) (after (ops (F := F)) V main_v155) :=
  binary_eq ops_single V (lt_of_lt_of_eq (by decide : 318 < 668) ops_length.symm) main_v150 main_v155 main_v156 (addf : (⟨S8x64x4x16, .f32⟩ : BufTy).Contents (Elt F) → (⟨S8x64x4x16, .f32⟩ : BufTy).Contents (Elt F) → (⟨S8x64x4x16, .f32⟩ : BufTy).Contents (Elt F)) ⟨by decide, rfl⟩ ⟨by decide, rfl⟩ ⟨by decide, rfl⟩ rfl (take_eq_of_earlier ops_single V (i := 311) (k := 318) (by decide) (lt_of_lt_of_eq (by decide : 311 < 668) ops_length.symm) (Finset.mem_singleton_self _)) (take_eq_of_earlier ops_single V (i := 317) (k := 318) (by decide) (lt_of_lt_of_eq (by decide : 317 < 668) ops_length.symm) (Finset.mem_singleton_self _))
theorem eq_main_c_160 (V : Valuation τ sig (Elt F)) :
    after (ops (F := F)) V main_c_160 = (constantI S_ 32 4096#32) :=
  nullary_eq ops_single V (lt_of_lt_of_eq (by decide : 319 < 668) ops_length.symm) main_c_160 (constantI S_ 32 4096#32) ⟨by decide, rfl⟩ rfl
theorem eq_main_v157 (V : Valuation τ sig (Elt F)) :
    after (ops (F := F)) V main_v157 = (broadcastInDim S4 ![] bcast_S_S4 : (⟨S_, .i32⟩ : BufTy).Contents (Elt F) → (⟨S4, .i32⟩ : BufTy).Contents (Elt F)) (after (ops (F := F)) V main_c_160) :=
  unary_eq ops_single V (lt_of_lt_of_eq (by decide : 320 < 668) ops_length.symm) main_c_160 main_v157 (broadcastInDim S4 ![] bcast_S_S4 : (⟨S_, .i32⟩ : BufTy).Contents (Elt F) → (⟨S4, .i32⟩ : BufTy).Contents (Elt F)) ⟨by decide, rfl⟩ ⟨by decide, rfl⟩ rfl (take_eq_of_earlier ops_single V (i := 319) (k := 320) (by decide) (lt_of_lt_of_eq (by decide : 319 < 668) ops_length.symm) (Finset.mem_singleton_self _))
theorem eq_main_v158 (V : Valuation τ sig (Elt F)) :
    after (ops (F := F)) V main_v158 = (addi : (⟨S4, .i32⟩ : BufTy).Contents (Elt F) → (⟨S4, .i32⟩ : BufTy).Contents (Elt F) → (⟨S4, .i32⟩ : BufTy).Contents (Elt F)) (after (ops (F := F)) V main_c_46) (after (ops (F := F)) V main_v157) :=
  binary_eq ops_single V (lt_of_lt_of_eq (by decide : 321 < 668) ops_length.symm) main_c_46 main_v157 main_v158 (addi : (⟨S4, .i32⟩ : BufTy).Contents (Elt F) → (⟨S4, .i32⟩ : BufTy).Contents (Elt F) → (⟨S4, .i32⟩ : BufTy).Contents (Elt F)) ⟨by decide, rfl⟩ ⟨by decide, rfl⟩ ⟨by decide, rfl⟩ rfl (take_eq_of_earlier ops_single V (i := 47) (k := 321) (by decide) (lt_of_lt_of_eq (by decide : 47 < 668) ops_length.symm) (Finset.mem_singleton_self _)) (take_eq_of_earlier ops_single V (i := 320) (k := 321) (by decide) (lt_of_lt_of_eq (by decide : 320 < 668) ops_length.symm) (Finset.mem_singleton_self _))
theorem eq_main_v159 (V : Valuation τ sig (Elt F)) :
    after (ops (F := F)) V main_v159 = (select : (⟨S4, .i1⟩ : BufTy).Contents (Elt F) → (⟨S4, .i32⟩ : BufTy).Contents (Elt F) → (⟨S4, .i32⟩ : BufTy).Contents (Elt F) → (⟨S4, .i32⟩ : BufTy).Contents (Elt F)) (after (ops (F := F)) V main_c_48) (after (ops (F := F)) V main_v158) (after (ops (F := F)) V main_c_46) :=
  ternary_eq ops_single V (lt_of_lt_of_eq (by decide : 322 < 668) ops_length.symm) main_c_48 main_v158 main_c_46 main_v159 (select : (⟨S4, .i1⟩ : BufTy).Contents (Elt F) → (⟨S4, .i32⟩ : BufTy).Contents (Elt F) → (⟨S4, .i32⟩ : BufTy).Contents (Elt F) → (⟨S4, .i32⟩ : BufTy).Contents (Elt F)) ⟨by decide, rfl⟩ ⟨by decide, rfl⟩ ⟨by decide, rfl⟩ ⟨by decide, rfl⟩ rfl (take_eq_of_earlier ops_single V (i := 49) (k := 322) (by decide) (lt_of_lt_of_eq (by decide : 49 < 668) ops_length.symm) (Finset.mem_singleton_self _)) (take_eq_of_earlier ops_single V (i := 321) (k := 322) (by decide) (lt_of_lt_of_eq (by decide : 321 < 668) ops_length.symm) (Finset.mem_singleton_self _)) (take_eq_of_earlier ops_single V (i := 47) (k := 322) (by decide) (lt_of_lt_of_eq (by decide : 47 < 668) ops_length.symm) (Finset.mem_singleton_self _))
theorem eq_main_v160 (V : Valuation τ sig (Elt F)) :
    after (ops (F := F)) V main_v160 = (broadcastInDim S4x1 ![0] bcast_S4_S4x1_0 : (⟨S4, .i32⟩ : BufTy).Contents (Elt F) → (⟨S4x1, .i32⟩ : BufTy).Contents (Elt F)) (after (ops (F := F)) V main_v159) :=
  unary_eq ops_single V (lt_of_lt_of_eq (by decide : 323 < 668) ops_length.symm) main_v159 main_v160 (broadcastInDim S4x1 ![0] bcast_S4_S4x1_0 : (⟨S4, .i32⟩ : BufTy).Contents (Elt F) → (⟨S4x1, .i32⟩ : BufTy).Contents (Elt F)) ⟨by decide, rfl⟩ ⟨by decide, rfl⟩ rfl (take_eq_of_earlier ops_single V (i := 322) (k := 323) (by decide) (lt_of_lt_of_eq (by decide : 322 < 668) ops_length.symm) (Finset.mem_singleton_self _))
theorem eq_main_v161 (V : Valuation τ sig (Elt F)) :
    after (ops (F := F)) V main_v161 = ((fun x i u => Host.scatter scatter_S8x64x4096x16_S4x1_S8x64x4x16_013_2_2_1 (fun _ b => b) x i u) : (⟨S8x64x4096x16, .f32⟩ : BufTy).Contents (Elt F) → (⟨S4x1, .i32⟩ : BufTy).Contents (Elt F) → (⟨S8x64x4x16, .f32⟩ : BufTy).Contents (Elt F) → (⟨S8x64x4096x16, .f32⟩ : BufTy).Contents (Elt F)) (after (ops (F := F)) V main_v145) (after (ops (F := F)) V main_v160) (after (ops (F := F)) V main_v156) :=
  ternary_eq ops_single V (lt_of_lt_of_eq (by decide : 324 < 668) ops_length.symm) main_v145 main_v160 main_v156 main_v161 ((fun x i u => Host.scatter scatter_S8x64x4096x16_S4x1_S8x64x4x16_013_2_2_1 (fun _ b => b) x i u) : (⟨S8x64x4096x16, .f32⟩ : BufTy).Contents (Elt F) → (⟨S4x1, .i32⟩ : BufTy).Contents (Elt F) → (⟨S8x64x4x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 305) (k := 324) (by decide) (lt_of_lt_of_eq (by decide : 305 < 668) ops_length.symm) (Finset.mem_singleton_self _)) (take_eq_of_earlier ops_single V (i := 323) (k := 324) (by decide) (lt_of_lt_of_eq (by decide : 323 < 668) ops_length.symm) (Finset.mem_singleton_self _)) (take_eq_of_earlier ops_single V (i := 318) (k := 324) (by decide) (lt_of_lt_of_eq (by decide : 318 < 668) ops_length.symm) (Finset.mem_singleton_self _))
theorem eq_main_c_161 (V : Valuation τ sig (Elt F)) :
    after (ops (F := F)) V main_c_161 = (constantI S_ 32 4096#32) :=
  nullary_eq ops_single V (lt_of_lt_of_eq (by decide : 325 < 668) ops_length.symm) main_c_161 (constantI S_ 32 4096#32) ⟨by decide, rfl⟩ rfl
theorem eq_main_v162 (V : Valuation τ sig (Elt F)) :
    after (ops (F := F)) V main_v162 = (broadcastInDim S2 ![] bcast_S_S2 : (⟨S_, .i32⟩ : BufTy).Contents (Elt F) → (⟨S2, .i32⟩ : BufTy).Contents (Elt F)) (after (ops (F := F)) V main_c_161) :=
  unary_eq ops_single V (lt_of_lt_of_eq (by decide : 326 < 668) ops_length.symm) main_c_161 main_v162 (broadcastInDim S2 ![] bcast_S_S2 : (⟨S_, .i32⟩ : BufTy).Contents (Elt F) → (⟨S2, .i32⟩ : BufTy).Contents (Elt F)) ⟨by decide, rfl⟩ ⟨by decide, rfl⟩ rfl (take_eq_of_earlier ops_single V (i := 325) (k := 326) (by decide) (lt_of_lt_of_eq (by decide : 325 < 668) ops_length.symm) (Finset.mem_singleton_self _))
theorem eq_main_v163 (V : Valuation τ sig (Elt F)) :
    after (ops (F := F)) V main_v163 = (addi : (⟨S2, .i32⟩ : BufTy).Contents (Elt F) → (⟨S2, .i32⟩ : BufTy).Contents (Elt F) → (⟨S2, .i32⟩ : BufTy).Contents (Elt F)) (after (ops (F := F)) V main_c_49) (after (ops (F := F)) V main_v162) :=
  binary_eq ops_single V (lt_of_lt_of_eq (by decide : 327 < 668) ops_length.symm) main_c_49 main_v162 main_v163 (addi : (⟨S2, .i32⟩ : BufTy).Contents (Elt F) → (⟨S2, .i32⟩ : BufTy).Contents (Elt F) → (⟨S2, .i32⟩ : BufTy).Contents (Elt F)) ⟨by decide, rfl⟩ ⟨by decide, rfl⟩ ⟨by decide, rfl⟩ rfl (take_eq_of_earlier ops_single V (i := 50) (k := 327) (by decide) (lt_of_lt_of_eq (by decide : 50 < 668) ops_length.symm) (Finset.mem_singleton_self _)) (take_eq_of_earlier ops_single V (i := 326) (k := 327) (by decide) (lt_of_lt_of_eq (by decide : 326 < 668) ops_length.symm) (Finset.mem_singleton_self _))
theorem eq_main_v164 (V : Valuation τ sig (Elt F)) :
    after (ops (F := F)) V main_v164 = (select : (⟨S2, .i1⟩ : BufTy).Contents (Elt F) → (⟨S2, .i32⟩ : BufTy).Contents (Elt F) → (⟨S2, .i32⟩ : BufTy).Contents (Elt F) → (⟨S2, .i32⟩ : BufTy).Contents (Elt F)) (after (ops (F := F)) V main_c_50) (after (ops (F := F)) V main_v163) (after (ops (F := F)) V main_c_49) :=
  ternary_eq ops_single V (lt_of_lt_of_eq (by decide : 328 < 668) ops_length.symm) main_c_50 main_v163 main_c_49 main_v164 (select : (⟨S2, .i1⟩ : BufTy).Contents (Elt F) → (⟨S2, .i32⟩ : BufTy).Contents (Elt F) → (⟨S2, .i32⟩ : BufTy).Contents (Elt F) → (⟨S2, .i32⟩ : BufTy).Contents (Elt F)) ⟨by decide, rfl⟩ ⟨by decide, rfl⟩ ⟨by decide, rfl⟩ ⟨by decide, rfl⟩ rfl (take_eq_of_earlier ops_single V (i := 51) (k := 328) (by decide) (lt_of_lt_of_eq (by decide : 51 < 668) ops_length.symm) (Finset.mem_singleton_self _)) (take_eq_of_earlier ops_single V (i := 327) (k := 328) (by decide) (lt_of_lt_of_eq (by decide : 327 < 668) ops_length.symm) (Finset.mem_singleton_self _)) (take_eq_of_earlier ops_single V (i := 50) (k := 328) (by decide) (lt_of_lt_of_eq (by decide : 50 < 668) ops_length.symm) (Finset.mem_singleton_self _))
theorem eq_main_v165 (V : Valuation τ sig (Elt F)) :
    after (ops (F := F)) V main_v165 = (broadcastInDim S2x1 ![0] bcast_S2_S2x1_0 : (⟨S2, .i32⟩ : BufTy).Contents (Elt F) → (⟨S2x1, .i32⟩ : BufTy).Contents (Elt F)) (after (ops (F := F)) V main_v164) :=
  unary_eq ops_single V (lt_of_lt_of_eq (by decide : 329 < 668) ops_length.symm) main_v164 main_v165 (broadcastInDim S2x1 ![0] bcast_S2_S2x1_0 : (⟨S2, .i32⟩ : BufTy).Contents (Elt F) → (⟨S2x1, .i32⟩ : BufTy).Contents (Elt F)) ⟨by decide, rfl⟩ ⟨by decide, rfl⟩ rfl (take_eq_of_earlier ops_single V (i := 328) (k := 329) (by decide) (lt_of_lt_of_eq (by decide : 328 < 668) ops_length.symm) (Finset.mem_singleton_self _))
theorem eq_main_v166 (V : Valuation τ sig (Elt F)) :
    after (ops (F := F)) V main_v166 = ((fun x i => Host.gather gather_S8x64x4096x16_S2x1_S8x64x2x16_013_2_n_n_2_1_864116 x i) : (⟨S8x64x4096x16, .f32⟩ : BufTy).Contents (Elt F) → (⟨S2x1, .i32⟩ : BufTy).Contents (Elt F) → (⟨S8x64x2x16, .f32⟩ : BufTy).Contents (Elt F)) (after (ops (F := F)) V main_v161) (after (ops (F := F)) V main_v165) :=
  binary_eq ops_single V (lt_of_lt_of_eq (by decide : 330 < 668) ops_length.symm) main_v161 main_v165 main_v166 ((fun x i => Host.gather gather_S8x64x4096x16_S2x1_S8x64x2x16_013_2_n_n_2_1_864116 x i) : (⟨S8x64x4096x16, .f32⟩ : BufTy).Contents (Elt F) → (⟨S2x1, .i32⟩ : BufTy).Contents (Elt F) → (⟨S8x64x2x16, .f32⟩ : BufTy).Contents (Elt F)) ⟨by decide, rfl⟩ ⟨by decide, rfl⟩ ⟨by decide, rfl⟩ rfl (take_eq_of_earlier ops_single V (i := 324) (k := 330) (by decide) (lt_of_lt_of_eq (by decide : 324 < 668) ops_length.symm) (Finset.mem_singleton_self _)) (take_eq_of_earlier ops_single V (i := 329) (k := 330) (by decide) (lt_of_lt_of_eq (by decide : 329 < 668) ops_length.symm) (Finset.mem_singleton_self _))
theorem eq_main_c_162 (V : Valuation τ sig (Elt F)) :
    after (ops (F := F)) V main_c_162 = (constantI S_ 32 4096#32) :=
  nullary_eq ops_single V (lt_of_lt_of_eq (by decide : 331 < 668) ops_length.symm) main_c_162 (constantI S_ 32 4096#32) ⟨by decide, rfl⟩ rfl
theorem eq_main_v167 (V : Valuation τ sig (Elt F)) :
    after (ops (F := F)) V main_v167 = (broadcastInDim S2 ![] bcast_S_S2 : (⟨S_, .i32⟩ : BufTy).Contents (Elt F) → (⟨S2, .i32⟩ : BufTy).Contents (Elt F)) (after (ops (F := F)) V main_c_162) :=
  unary_eq ops_single V (lt_of_lt_of_eq (by decide : 332 < 668) ops_length.symm) main_c_162 main_v167 (broadcastInDim S2 ![] bcast_S_S2 : (⟨S_, .i32⟩ : BufTy).Contents (Elt F) → (⟨S2, .i32⟩ : BufTy).Contents (Elt F)) ⟨by decide, rfl⟩ ⟨by decide, rfl⟩ rfl (take_eq_of_earlier ops_single V (i := 331) (k := 332) (by decide) (lt_of_lt_of_eq (by decide : 331 < 668) ops_length.symm) (Finset.mem_singleton_self _))
theorem eq_main_v168 (V : Valuation τ sig (Elt F)) :
    after (ops (F := F)) V main_v168 = (addi : (⟨S2, .i32⟩ : BufTy).Contents (Elt F) → (⟨S2, .i32⟩ : BufTy).Contents (Elt F) → (⟨S2, .i32⟩ : BufTy).Contents (Elt F)) (after (ops (F := F)) V main_c_51) (after (ops (F := F)) V main_v167) :=
  binary_eq ops_single V (lt_of_lt_of_eq (by decide : 333 < 668) ops_length.symm) main_c_51 main_v167 main_v168 (addi : (⟨S2, .i32⟩ : BufTy).Contents (Elt F) → (⟨S2, .i32⟩ : BufTy).Contents (Elt F) → (⟨S2, .i32⟩ : BufTy).Contents (Elt F)) ⟨by decide, rfl⟩ ⟨by decide, rfl⟩ ⟨by decide, rfl⟩ rfl (take_eq_of_earlier ops_single V (i := 52) (k := 333) (by decide) (lt_of_lt_of_eq (by decide : 52 < 668) ops_length.symm) (Finset.mem_singleton_self _)) (take_eq_of_earlier ops_single V (i := 332) (k := 333) (by decide) (lt_of_lt_of_eq (by decide : 332 < 668) ops_length.symm) (Finset.mem_singleton_self _))
theorem eq_main_v169 (V : Valuation τ sig (Elt F)) :
    after (ops (F := F)) V main_v169 = (select : (⟨S2, .i1⟩ : BufTy).Contents (Elt F) → (⟨S2, .i32⟩ : BufTy).Contents (Elt F) → (⟨S2, .i32⟩ : BufTy).Contents (Elt F) → (⟨S2, .i32⟩ : BufTy).Contents (Elt F)) (after (ops (F := F)) V main_c_52) (after (ops (F := F)) V main_v168) (after (ops (F := F)) V main_c_51) :=
  ternary_eq ops_single V (lt_of_lt_of_eq (by decide : 334 < 668) ops_length.symm) main_c_52 main_v168 main_c_51 main_v169 (select : (⟨S2, .i1⟩ : BufTy).Contents (Elt F) → (⟨S2, .i32⟩ : BufTy).Contents (Elt F) → (⟨S2, .i32⟩ : BufTy).Contents (Elt F) → (⟨S2, .i32⟩ : BufTy).Contents (Elt F)) ⟨by decide, rfl⟩ ⟨by decide, rfl⟩ ⟨by decide, rfl⟩ ⟨by decide, rfl⟩ rfl (take_eq_of_earlier ops_single V (i := 53) (k := 334) (by decide) (lt_of_lt_of_eq (by decide : 53 < 668) ops_length.symm) (Finset.mem_singleton_self _)) (take_eq_of_earlier ops_single V (i := 333) (k := 334) (by decide) (lt_of_lt_of_eq (by decide : 333 < 668) ops_length.symm) (Finset.mem_singleton_self _)) (take_eq_of_earlier ops_single V (i := 52) (k := 334) (by decide) (lt_of_lt_of_eq (by decide : 52 < 668) ops_length.symm) (Finset.mem_singleton_self _))
theorem eq_main_v170 (V : Valuation τ sig (Elt F)) :
    after (ops (F := F)) V main_v170 = (broadcastInDim S2x1 ![0] bcast_S2_S2x1_0 : (⟨S2, .i32⟩ : BufTy).Contents (Elt F) → (⟨S2x1, .i32⟩ : BufTy).Contents (Elt F)) (after (ops (F := F)) V main_v169) :=
  unary_eq ops_single V (lt_of_lt_of_eq (by decide : 335 < 668) ops_length.symm) main_v169 main_v170 (broadcastInDim S2x1 ![0] bcast_S2_S2x1_0 : (⟨S2, .i32⟩ : BufTy).Contents (Elt F) → (⟨S2x1, .i32⟩ : BufTy).Contents (Elt F)) ⟨by decide, rfl⟩ ⟨by decide, rfl⟩ rfl (take_eq_of_earlier ops_single V (i := 334) (k := 335) (by decide) (lt_of_lt_of_eq (by decide : 334 < 668) ops_length.symm) (Finset.mem_singleton_self _))
theorem eq_main_v171 (V : Valuation τ sig (Elt F)) :
    after (ops (F := F)) V main_v171 = ((fun x i => Host.gather gather_S8x64x4096x16_S2x1_S8x64x2x16_013_2_n_n_2_1_864116 x i) : (⟨S8x64x4096x16, .f32⟩ : BufTy).Contents (Elt F) → (⟨S2x1, .i32⟩ : BufTy).Contents (Elt F) → (⟨S8x64x2x16, .f32⟩ : BufTy).Contents (Elt F)) (after (ops (F := F)) V main_v161) (after (ops (F := F)) V main_v170) :=
  binary_eq ops_single V (lt_of_lt_of_eq (by decide : 336 < 668) ops_length.symm) main_v161 main_v170 main_v171 ((fun x i => Host.gather gather_S8x64x4096x16_S2x1_S8x64x2x16_013_2_n_n_2_1_864116 x i) : (⟨S8x64x4096x16, .f32⟩ : BufTy).Contents (Elt F) → (⟨S2x1, .i32⟩ : BufTy).Contents (Elt F) → (⟨S8x64x2x16, .f32⟩ : BufTy).Contents (Elt F)) ⟨by decide, rfl⟩ ⟨by decide, rfl⟩ ⟨by decide, rfl⟩ rfl (take_eq_of_earlier ops_single V (i := 324) (k := 336) (by decide) (lt_of_lt_of_eq (by decide : 324 < 668) ops_length.symm) (Finset.mem_singleton_self _)) (take_eq_of_earlier ops_single V (i := 335) (k := 336) (by decide) (lt_of_lt_of_eq (by decide : 335 < 668) ops_length.symm) (Finset.mem_singleton_self _))
theorem eq_main_v172 (V : Valuation τ sig (Elt F)) :
    after (ops (F := F)) V main_v172 = (addf : (⟨S8x64x2x16, .f32⟩ : BufTy).Contents (Elt F) → (⟨S8x64x2x16, .f32⟩ : BufTy).Contents (Elt F) → (⟨S8x64x2x16, .f32⟩ : BufTy).Contents (Elt F)) (after (ops (F := F)) V main_v166) (after (ops (F := F)) V main_v171) :=
  binary_eq ops_single V (lt_of_lt_of_eq (by decide : 337 < 668) ops_length.symm) main_v166 main_v171 main_v172 (addf : (⟨S8x64x2x16, .f32⟩ : BufTy).Contents (Elt F) → (⟨S8x64x2x16, .f32⟩ : BufTy).Contents (Elt F) → (⟨S8x64x2x16, .f32⟩ : BufTy).Contents (Elt F)) ⟨by decide, rfl⟩ ⟨by decide, rfl⟩ ⟨by decide, rfl⟩ rfl (take_eq_of_earlier ops_single V (i := 330) (k := 337) (by decide) (lt_of_lt_of_eq (by decide : 330 < 668) ops_length.symm) (Finset.mem_singleton_self _)) (take_eq_of_earlier ops_single V (i := 336) (k := 337) (by decide) (lt_of_lt_of_eq (by decide : 336 < 668) ops_length.symm) (Finset.mem_singleton_self _))
theorem eq_main_c_163 (V : Valuation τ sig (Elt F)) :
    after (ops (F := F)) V main_c_163 = (constantI S_ 32 4096#32) :=
  nullary_eq ops_single V (lt_of_lt_of_eq (by decide : 338 < 668) ops_length.symm) main_c_163 (constantI S_ 32 4096#32) ⟨by decide, rfl⟩ rfl
theorem eq_main_v173 (V : Valuation τ sig (Elt F)) :
    after (ops (F := F)) V main_v173 = (broadcastInDim S2 ![] bcast_S_S2 : (⟨S_, .i32⟩ : BufTy).Contents (Elt F) → (⟨S2, .i32⟩ : BufTy).Contents (Elt F)) (after (ops (F := F)) V main_c_163) :=
  unary_eq ops_single V (lt_of_lt_of_eq (by decide : 339 < 668) ops_length.symm) main_c_163 main_v173 (broadcastInDim S2 ![] bcast_S_S2 : (⟨S_, .i32⟩ : BufTy).Contents (Elt F) → (⟨S2, .i32⟩ : BufTy).Contents (Elt F)) ⟨by decide, rfl⟩ ⟨by decide, rfl⟩ rfl (take_eq_of_earlier ops_single V (i := 338) (k := 339) (by decide) (lt_of_lt_of_eq (by decide : 338 < 668) ops_length.symm) (Finset.mem_singleton_self _))
theorem eq_main_v174 (V : Valuation τ sig (Elt F)) :
    after (ops (F := F)) V main_v174 = (addi : (⟨S2, .i32⟩ : BufTy).Contents (Elt F) → (⟨S2, .i32⟩ : BufTy).Contents (Elt F) → (⟨S2, .i32⟩ : BufTy).Contents (Elt F)) (after (ops (F := F)) V main_c_51) (after (ops (F := F)) V main_v173) :=
  binary_eq ops_single V (lt_of_lt_of_eq (by decide : 340 < 668) ops_length.symm) main_c_51 main_v173 main_v174 (addi : (⟨S2, .i32⟩ : BufTy).Contents (Elt F) → (⟨S2, .i32⟩ : BufTy).Contents (Elt F) → (⟨S2, .i32⟩ : BufTy).Contents (Elt F)) ⟨by decide, rfl⟩ ⟨by decide, rfl⟩ ⟨by decide, rfl⟩ rfl (take_eq_of_earlier ops_single V (i := 52) (k := 340) (by decide) (lt_of_lt_of_eq (by decide : 52 < 668) ops_length.symm) (Finset.mem_singleton_self _)) (take_eq_of_earlier ops_single V (i := 339) (k := 340) (by decide) (lt_of_lt_of_eq (by decide : 339 < 668) ops_length.symm) (Finset.mem_singleton_self _))
theorem eq_main_v175 (V : Valuation τ sig (Elt F)) :
    after (ops (F := F)) V main_v175 = (select : (⟨S2, .i1⟩ : BufTy).Contents (Elt F) → (⟨S2, .i32⟩ : BufTy).Contents (Elt F) → (⟨S2, .i32⟩ : BufTy).Contents (Elt F) → (⟨S2, .i32⟩ : BufTy).Contents (Elt F)) (after (ops (F := F)) V main_c_53) (after (ops (F := F)) V main_v174) (after (ops (F := F)) V main_c_51) :=
  ternary_eq ops_single V (lt_of_lt_of_eq (by decide : 341 < 668) ops_length.symm) main_c_53 main_v174 main_c_51 main_v175 (select : (⟨S2, .i1⟩ : BufTy).Contents (Elt F) → (⟨S2, .i32⟩ : BufTy).Contents (Elt F) → (⟨S2, .i32⟩ : BufTy).Contents (Elt F) → (⟨S2, .i32⟩ : BufTy).Contents (Elt F)) ⟨by decide, rfl⟩ ⟨by decide, rfl⟩ ⟨by decide, rfl⟩ ⟨by decide, rfl⟩ rfl (take_eq_of_earlier ops_single V (i := 54) (k := 341) (by decide) (lt_of_lt_of_eq (by decide : 54 < 668) ops_length.symm) (Finset.mem_singleton_self _)) (take_eq_of_earlier ops_single V (i := 340) (k := 341) (by decide) (lt_of_lt_of_eq (by decide : 340 < 668) ops_length.symm) (Finset.mem_singleton_self _)) (take_eq_of_earlier ops_single V (i := 52) (k := 341) (by decide) (lt_of_lt_of_eq (by decide : 52 < 668) ops_length.symm) (Finset.mem_singleton_self _))
theorem eq_main_v176 (V : Valuation τ sig (Elt F)) :
    after (ops (F := F)) V main_v176 = (broadcastInDim S2x1 ![0] bcast_S2_S2x1_0 : (⟨S2, .i32⟩ : BufTy).Contents (Elt F) → (⟨S2x1, .i32⟩ : BufTy).Contents (Elt F)) (after (ops (F := F)) V main_v175) :=
  unary_eq ops_single V (lt_of_lt_of_eq (by decide : 342 < 668) ops_length.symm) main_v175 main_v176 (broadcastInDim S2x1 ![0] bcast_S2_S2x1_0 : (⟨S2, .i32⟩ : BufTy).Contents (Elt F) → (⟨S2x1, .i32⟩ : BufTy).Contents (Elt F)) ⟨by decide, rfl⟩ ⟨by decide, rfl⟩ rfl (take_eq_of_earlier ops_single V (i := 341) (k := 342) (by decide) (lt_of_lt_of_eq (by decide : 341 < 668) ops_length.symm) (Finset.mem_singleton_self _))
theorem eq_main_v177 (V : Valuation τ sig (Elt F)) :
    after (ops (F := F)) V main_v177 = ((fun x i u => Host.scatter scatter_S8x64x4096x16_S2x1_S8x64x2x16_013_2_2_1 (fun _ b => b) x i u) : (⟨S8x64x4096x16, .f32⟩ : BufTy).Contents (Elt F) → (⟨S2x1, .i32⟩ : BufTy).Contents (Elt F) → (⟨S8x64x2x16, .f32⟩ : BufTy).Contents (Elt F) → (⟨S8x64x4096x16, .f32⟩ : BufTy).Contents (Elt F)) (after (ops (F := F)) V main_v161) (after (ops (F := F)) V main_v176) (after (ops (F := F)) V main_v172) :=
  ternary_eq ops_single V (lt_of_lt_of_eq (by decide : 343 < 668) ops_length.symm) main_v161 main_v176 main_v172 main_v177 ((fun x i u => Host.scatter scatter_S8x64x4096x16_S2x1_S8x64x2x16_013_2_2_1 (fun _ b => b) x i u) : (⟨S8x64x4096x16, .f32⟩ : BufTy).Contents (Elt F) → (⟨S2x1, .i32⟩ : BufTy).Contents (Elt F) → (⟨S8x64x2x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 324) (k := 343) (by decide) (lt_of_lt_of_eq (by decide : 324 < 668) ops_length.symm) (Finset.mem_singleton_self _)) (take_eq_of_earlier ops_single V (i := 342) (k := 343) (by decide) (lt_of_lt_of_eq (by decide : 342 < 668) ops_length.symm) (Finset.mem_singleton_self _)) (take_eq_of_earlier ops_single V (i := 337) (k := 343) (by decide) (lt_of_lt_of_eq (by decide : 337 < 668) ops_length.symm) (Finset.mem_singleton_self _))
theorem eq_main_c_164 (V : Valuation τ sig (Elt F)) :
    after (ops (F := F)) V main_c_164 = (constantI S_ 32 4096#32) :=
  nullary_eq ops_single V (lt_of_lt_of_eq (by decide : 344 < 668) ops_length.symm) main_c_164 (constantI S_ 32 4096#32) ⟨by decide, rfl⟩ rfl
theorem eq_main_v178 (V : Valuation τ sig (Elt F)) :
    after (ops (F := F)) V main_v178 = (broadcastInDim S1 ![] bcast_S_S1 : (⟨S_, .i32⟩ : BufTy).Contents (Elt F) → (⟨S1, .i32⟩ : BufTy).Contents (Elt F)) (after (ops (F := F)) V main_c_164) :=
  unary_eq ops_single V (lt_of_lt_of_eq (by decide : 345 < 668) ops_length.symm) main_c_164 main_v178 (broadcastInDim S1 ![] bcast_S_S1 : (⟨S_, .i32⟩ : BufTy).Contents (Elt F) → (⟨S1, .i32⟩ : BufTy).Contents (Elt F)) ⟨by decide, rfl⟩ ⟨by decide, rfl⟩ rfl (take_eq_of_earlier ops_single V (i := 344) (k := 345) (by decide) (lt_of_lt_of_eq (by decide : 344 < 668) ops_length.symm) (Finset.mem_singleton_self _))
theorem eq_main_v179 (V : Valuation τ sig (Elt F)) :
    after (ops (F := F)) V main_v179 = (addi : (⟨S1, .i32⟩ : BufTy).Contents (Elt F) → (⟨S1, .i32⟩ : BufTy).Contents (Elt F) → (⟨S1, .i32⟩ : BufTy).Contents (Elt F)) (after (ops (F := F)) V main_c_54) (after (ops (F := F)) V main_v178) :=
  binary_eq ops_single V (lt_of_lt_of_eq (by decide : 346 < 668) ops_length.symm) main_c_54 main_v178 main_v179 (addi : (⟨S1, .i32⟩ : BufTy).Contents (Elt F) → (⟨S1, .i32⟩ : BufTy).Contents (Elt F) → (⟨S1, .i32⟩ : BufTy).Contents (Elt F)) ⟨by decide, rfl⟩ ⟨by decide, rfl⟩ ⟨by decide, rfl⟩ rfl (take_eq_of_earlier ops_single V (i := 55) (k := 346) (by decide) (lt_of_lt_of_eq (by decide : 55 < 668) ops_length.symm) (Finset.mem_singleton_self _)) (take_eq_of_earlier ops_single V (i := 345) (k := 346) (by decide) (lt_of_lt_of_eq (by decide : 345 < 668) ops_length.symm) (Finset.mem_singleton_self _))
theorem eq_main_v180 (V : Valuation τ sig (Elt F)) :
    after (ops (F := F)) V main_v180 = (select : (⟨S1, .i1⟩ : BufTy).Contents (Elt F) → (⟨S1, .i32⟩ : BufTy).Contents (Elt F) → (⟨S1, .i32⟩ : BufTy).Contents (Elt F) → (⟨S1, .i32⟩ : BufTy).Contents (Elt F)) (after (ops (F := F)) V main_c_55) (after (ops (F := F)) V main_v179) (after (ops (F := F)) V main_c_54) :=
  ternary_eq ops_single V (lt_of_lt_of_eq (by decide : 347 < 668) ops_length.symm) main_c_55 main_v179 main_c_54 main_v180 (select : (⟨S1, .i1⟩ : BufTy).Contents (Elt F) → (⟨S1, .i32⟩ : BufTy).Contents (Elt F) → (⟨S1, .i32⟩ : BufTy).Contents (Elt F) → (⟨S1, .i32⟩ : BufTy).Contents (Elt F)) ⟨by decide, rfl⟩ ⟨by decide, rfl⟩ ⟨by decide, rfl⟩ ⟨by decide, rfl⟩ rfl (take_eq_of_earlier ops_single V (i := 56) (k := 347) (by decide) (lt_of_lt_of_eq (by decide : 56 < 668) ops_length.symm) (Finset.mem_singleton_self _)) (take_eq_of_earlier ops_single V (i := 346) (k := 347) (by decide) (lt_of_lt_of_eq (by decide : 346 < 668) ops_length.symm) (Finset.mem_singleton_self _)) (take_eq_of_earlier ops_single V (i := 55) (k := 347) (by decide) (lt_of_lt_of_eq (by decide : 55 < 668) ops_length.symm) (Finset.mem_singleton_self _))
theorem eq_main_v181 (V : Valuation τ sig (Elt F)) :
    after (ops (F := F)) V main_v181 = (broadcastInDim S1x1 ![0] bcast_S1_S1x1_0 : (⟨S1, .i32⟩ : BufTy).Contents (Elt F) → (⟨S1x1, .i32⟩ : BufTy).Contents (Elt F)) (after (ops (F := F)) V main_v180) :=
  unary_eq ops_single V (lt_of_lt_of_eq (by decide : 348 < 668) ops_length.symm) main_v180 main_v181 (broadcastInDim S1x1 ![0] bcast_S1_S1x1_0 : (⟨S1, .i32⟩ : BufTy).Contents (Elt F) → (⟨S1x1, .i32⟩ : BufTy).Contents (Elt F)) ⟨by decide, rfl⟩ ⟨by decide, rfl⟩ rfl (take_eq_of_earlier ops_single V (i := 347) (k := 348) (by decide) (lt_of_lt_of_eq (by decide : 347 < 668) ops_length.symm) (Finset.mem_singleton_self _))
theorem eq_main_v182 (V : Valuation τ sig (Elt F)) :
    after (ops (F := F)) V main_v182 = ((fun x i => Host.gather gather_S8x64x4096x16_S1x1_S8x64x1x16_013_2_n_n_2_1_864116 x i) : (⟨S8x64x4096x16, .f32⟩ : BufTy).Contents (Elt F) → (⟨S1x1, .i32⟩ : BufTy).Contents (Elt F) → (⟨S8x64x1x16, .f32⟩ : BufTy).Contents (Elt F)) (after (ops (F := F)) V main_v177) (after (ops (F := F)) V main_v181) :=
  binary_eq ops_single V (lt_of_lt_of_eq (by decide : 349 < 668) ops_length.symm) main_v177 main_v181 main_v182 ((fun x i => Host.gather gather_S8x64x4096x16_S1x1_S8x64x1x16_013_2_n_n_2_1_864116 x i) : (⟨S8x64x4096x16, .f32⟩ : BufTy).Contents (Elt F) → (⟨S1x1, .i32⟩ : BufTy).Contents (Elt F) → (⟨S8x64x1x16, .f32⟩ : BufTy).Contents (Elt F)) ⟨by decide, rfl⟩ ⟨by decide, rfl⟩ ⟨by decide, rfl⟩ rfl (take_eq_of_earlier ops_single V (i := 343) (k := 349) (by decide) (lt_of_lt_of_eq (by decide : 343 < 668) ops_length.symm) (Finset.mem_singleton_self _)) (take_eq_of_earlier ops_single V (i := 348) (k := 349) (by decide) (lt_of_lt_of_eq (by decide : 348 < 668) ops_length.symm) (Finset.mem_singleton_self _))
theorem eq_main_c_165 (V : Valuation τ sig (Elt F)) :
    after (ops (F := F)) V main_c_165 = (constantI S_ 32 4096#32) :=
  nullary_eq ops_single V (lt_of_lt_of_eq (by decide : 350 < 668) ops_length.symm) main_c_165 (constantI S_ 32 4096#32) ⟨by decide, rfl⟩ rfl
theorem eq_main_v183 (V : Valuation τ sig (Elt F)) :
    after (ops (F := F)) V main_v183 = (broadcastInDim S1 ![] bcast_S_S1 : (⟨S_, .i32⟩ : BufTy).Contents (Elt F) → (⟨S1, .i32⟩ : BufTy).Contents (Elt F)) (after (ops (F := F)) V main_c_165) :=
  unary_eq ops_single V (lt_of_lt_of_eq (by decide : 351 < 668) ops_length.symm) main_c_165 main_v183 (broadcastInDim S1 ![] bcast_S_S1 : (⟨S_, .i32⟩ : BufTy).Contents (Elt F) → (⟨S1, .i32⟩ : BufTy).Contents (Elt F)) ⟨by decide, rfl⟩ ⟨by decide, rfl⟩ rfl (take_eq_of_earlier ops_single V (i := 350) (k := 351) (by decide) (lt_of_lt_of_eq (by decide : 350 < 668) ops_length.symm) (Finset.mem_singleton_self _))
theorem eq_main_v184 (V : Valuation τ sig (Elt F)) :
    after (ops (F := F)) V main_v184 = (addi : (⟨S1, .i32⟩ : BufTy).Contents (Elt F) → (⟨S1, .i32⟩ : BufTy).Contents (Elt F) → (⟨S1, .i32⟩ : BufTy).Contents (Elt F)) (after (ops (F := F)) V main_c_56) (after (ops (F := F)) V main_v183) :=
  binary_eq ops_single V (lt_of_lt_of_eq (by decide : 352 < 668) ops_length.symm) main_c_56 main_v183 main_v184 (addi : (⟨S1, .i32⟩ : BufTy).Contents (Elt F) → (⟨S1, .i32⟩ : BufTy).Contents (Elt F) → (⟨S1, .i32⟩ : BufTy).Contents (Elt F)) ⟨by decide, rfl⟩ ⟨by decide, rfl⟩ ⟨by decide, rfl⟩ rfl (take_eq_of_earlier ops_single V (i := 57) (k := 352) (by decide) (lt_of_lt_of_eq (by decide : 57 < 668) ops_length.symm) (Finset.mem_singleton_self _)) (take_eq_of_earlier ops_single V (i := 351) (k := 352) (by decide) (lt_of_lt_of_eq (by decide : 351 < 668) ops_length.symm) (Finset.mem_singleton_self _))
theorem eq_main_v185 (V : Valuation τ sig (Elt F)) :
    after (ops (F := F)) V main_v185 = (select : (⟨S1, .i1⟩ : BufTy).Contents (Elt F) → (⟨S1, .i32⟩ : BufTy).Contents (Elt F) → (⟨S1, .i32⟩ : BufTy).Contents (Elt F) → (⟨S1, .i32⟩ : BufTy).Contents (Elt F)) (after (ops (F := F)) V main_c_57) (after (ops (F := F)) V main_v184) (after (ops (F := F)) V main_c_56) :=
  ternary_eq ops_single V (lt_of_lt_of_eq (by decide : 353 < 668) ops_length.symm) main_c_57 main_v184 main_c_56 main_v185 (select : (⟨S1, .i1⟩ : BufTy).Contents (Elt F) → (⟨S1, .i32⟩ : BufTy).Contents (Elt F) → (⟨S1, .i32⟩ : BufTy).Contents (Elt F) → (⟨S1, .i32⟩ : BufTy).Contents (Elt F)) ⟨by decide, rfl⟩ ⟨by decide, rfl⟩ ⟨by decide, rfl⟩ ⟨by decide, rfl⟩ rfl (take_eq_of_earlier ops_single V (i := 58) (k := 353) (by decide) (lt_of_lt_of_eq (by decide : 58 < 668) ops_length.symm) (Finset.mem_singleton_self _)) (take_eq_of_earlier ops_single V (i := 352) (k := 353) (by decide) (lt_of_lt_of_eq (by decide : 352 < 668) ops_length.symm) (Finset.mem_singleton_self _)) (take_eq_of_earlier ops_single V (i := 57) (k := 353) (by decide) (lt_of_lt_of_eq (by decide : 57 < 668) ops_length.symm) (Finset.mem_singleton_self _))
theorem eq_main_v186 (V : Valuation τ sig (Elt F)) :
    after (ops (F := F)) V main_v186 = (broadcastInDim S1x1 ![0] bcast_S1_S1x1_0 : (⟨S1, .i32⟩ : BufTy).Contents (Elt F) → (⟨S1x1, .i32⟩ : BufTy).Contents (Elt F)) (after (ops (F := F)) V main_v185) :=
  unary_eq ops_single V (lt_of_lt_of_eq (by decide : 354 < 668) ops_length.symm) main_v185 main_v186 (broadcastInDim S1x1 ![0] bcast_S1_S1x1_0 : (⟨S1, .i32⟩ : BufTy).Contents (Elt F) → (⟨S1x1, .i32⟩ : BufTy).Contents (Elt F)) ⟨by decide, rfl⟩ ⟨by decide, rfl⟩ rfl (take_eq_of_earlier ops_single V (i := 353) (k := 354) (by decide) (lt_of_lt_of_eq (by decide : 353 < 668) ops_length.symm) (Finset.mem_singleton_self _))
theorem eq_main_v187 (V : Valuation τ sig (Elt F)) :
    after (ops (F := F)) V main_v187 = ((fun x i => Host.gather gather_S8x64x4096x16_S1x1_S8x64x1x16_013_2_n_n_2_1_864116 x i) : (⟨S8x64x4096x16, .f32⟩ : BufTy).Contents (Elt F) → (⟨S1x1, .i32⟩ : BufTy).Contents (Elt F) → (⟨S8x64x1x16, .f32⟩ : BufTy).Contents (Elt F)) (after (ops (F := F)) V main_v177) (after (ops (F := F)) V main_v186) :=
  binary_eq ops_single V (lt_of_lt_of_eq (by decide : 355 < 668) ops_length.symm) main_v177 main_v186 main_v187 ((fun x i => Host.gather gather_S8x64x4096x16_S1x1_S8x64x1x16_013_2_n_n_2_1_864116 x i) : (⟨S8x64x4096x16, .f32⟩ : BufTy).Contents (Elt F) → (⟨S1x1, .i32⟩ : BufTy).Contents (Elt F) → (⟨S8x64x1x16, .f32⟩ : BufTy).Contents (Elt F)) ⟨by decide, rfl⟩ ⟨by decide, rfl⟩ ⟨by decide, rfl⟩ rfl (take_eq_of_earlier ops_single V (i := 343) (k := 355) (by decide) (lt_of_lt_of_eq (by decide : 343 < 668) ops_length.symm) (Finset.mem_singleton_self _)) (take_eq_of_earlier ops_single V (i := 354) (k := 355) (by decide) (lt_of_lt_of_eq (by decide : 354 < 668) ops_length.symm) (Finset.mem_singleton_self _))
theorem eq_main_v188 (V : Valuation τ sig (Elt F)) :
    after (ops (F := F)) V main_v188 = (addf : (⟨S8x64x1x16, .f32⟩ : BufTy).Contents (Elt F) → (⟨S8x64x1x16, .f32⟩ : BufTy).Contents (Elt F) → (⟨S8x64x1x16, .f32⟩ : BufTy).Contents (Elt F)) (after (ops (F := F)) V main_v182) (after (ops (F := F)) V main_v187) :=
  binary_eq ops_single V (lt_of_lt_of_eq (by decide : 356 < 668) ops_length.symm) main_v182 main_v187 main_v188 (addf : (⟨S8x64x1x16, .f32⟩ : BufTy).Contents (Elt F) → (⟨S8x64x1x16, .f32⟩ : BufTy).Contents (Elt F) → (⟨S8x64x1x16, .f32⟩ : BufTy).Contents (Elt F)) ⟨by decide, rfl⟩ ⟨by decide, rfl⟩ ⟨by decide, rfl⟩ rfl (take_eq_of_earlier ops_single V (i := 349) (k := 356) (by decide) (lt_of_lt_of_eq (by decide : 349 < 668) ops_length.symm) (Finset.mem_singleton_self _)) (take_eq_of_earlier ops_single V (i := 355) (k := 356) (by decide) (lt_of_lt_of_eq (by decide : 355 < 668) ops_length.symm) (Finset.mem_singleton_self _))
theorem eq_main_c_166 (V : Valuation τ sig (Elt F)) :
    after (ops (F := F)) V main_c_166 = (constantI S_ 32 4096#32) :=
  nullary_eq ops_single V (lt_of_lt_of_eq (by decide : 357 < 668) ops_length.symm) main_c_166 (constantI S_ 32 4096#32) ⟨by decide, rfl⟩ rfl
theorem eq_main_v189 (V : Valuation τ sig (Elt F)) :
    after (ops (F := F)) V main_v189 = (broadcastInDim S1 ![] bcast_S_S1 : (⟨S_, .i32⟩ : BufTy).Contents (Elt F) → (⟨S1, .i32⟩ : BufTy).Contents (Elt F)) (after (ops (F := F)) V main_c_166) :=
  unary_eq ops_single V (lt_of_lt_of_eq (by decide : 358 < 668) ops_length.symm) main_c_166 main_v189 (broadcastInDim S1 ![] bcast_S_S1 : (⟨S_, .i32⟩ : BufTy).Contents (Elt F) → (⟨S1, .i32⟩ : BufTy).Contents (Elt F)) ⟨by decide, rfl⟩ ⟨by decide, rfl⟩ rfl (take_eq_of_earlier ops_single V (i := 357) (k := 358) (by decide) (lt_of_lt_of_eq (by decide : 357 < 668) ops_length.symm) (Finset.mem_singleton_self _))
theorem eq_main_v190 (V : Valuation τ sig (Elt F)) :
    after (ops (F := F)) V main_v190 = (addi : (⟨S1, .i32⟩ : BufTy).Contents (Elt F) → (⟨S1, .i32⟩ : BufTy).Contents (Elt F) → (⟨S1, .i32⟩ : BufTy).Contents (Elt F)) (after (ops (F := F)) V main_c_56) (after (ops (F := F)) V main_v189) :=
  binary_eq ops_single V (lt_of_lt_of_eq (by decide : 359 < 668) ops_length.symm) main_c_56 main_v189 main_v190 (addi : (⟨S1, .i32⟩ : BufTy).Contents (Elt F) → (⟨S1, .i32⟩ : BufTy).Contents (Elt F) → (⟨S1, .i32⟩ : BufTy).Contents (Elt F)) ⟨by decide, rfl⟩ ⟨by decide, rfl⟩ ⟨by decide, rfl⟩ rfl (take_eq_of_earlier ops_single V (i := 57) (k := 359) (by decide) (lt_of_lt_of_eq (by decide : 57 < 668) ops_length.symm) (Finset.mem_singleton_self _)) (take_eq_of_earlier ops_single V (i := 358) (k := 359) (by decide) (lt_of_lt_of_eq (by decide : 358 < 668) ops_length.symm) (Finset.mem_singleton_self _))

end Cert.ReferenceIdeal.Line

end
-- ==== Proof.RefEq6.lean ====
/-
  The equations of the reference's operations in its window 6: what the whole line leaves at each operation's result is
  the operation's function of what the whole line leaves at its operands.
-/
import proofs.«140659_j42700564857293_1_alg».proof.Proof.RefSingle

noncomputable section

namespace Cert.ReferenceIdeal.Line

open Cert.ReferenceIdeal Cert.ReferenceIdeal.Gen Idealize.ShloMosaic Idealize.ShloMosaic.TcCoe Idealize.SL.Sem Idealize.ShloMosaic.StableHlo Cert.SingleAssignment

variable {F : FTy → Type} [FloatOps F]

theorem eq_main_v191 (V : Valuation τ sig (Elt F)) :
    after (ops (F := F)) V main_v191 = (select : (⟨S1, .i1⟩ : BufTy).Contents (Elt F) → (⟨S1, .i32⟩ : BufTy).Contents (Elt F) → (⟨S1, .i32⟩ : BufTy).Contents (Elt F) → (⟨S1, .i32⟩ : BufTy).Contents (Elt F)) (after (ops (F := F)) V main_c_58) (after (ops (F := F)) V main_v190) (after (ops (F := F)) V main_c_56) :=
  ternary_eq ops_single V (lt_of_lt_of_eq (by decide : 360 < 668) ops_length.symm) main_c_58 main_v190 main_c_56 main_v191 (select : (⟨S1, .i1⟩ : BufTy).Contents (Elt F) → (⟨S1, .i32⟩ : BufTy).Contents (Elt F) → (⟨S1, .i32⟩ : BufTy).Contents (Elt F) → (⟨S1, .i32⟩ : BufTy).Contents (Elt F)) ⟨by decide, rfl⟩ ⟨by decide, rfl⟩ ⟨by decide, rfl⟩ ⟨by decide, rfl⟩ rfl (take_eq_of_earlier ops_single V (i := 59) (k := 360) (by decide) (lt_of_lt_of_eq (by decide : 59 < 668) ops_length.symm) (Finset.mem_singleton_self _)) (take_eq_of_earlier ops_single V (i := 359) (k := 360) (by decide) (lt_of_lt_of_eq (by decide : 359 < 668) ops_length.symm) (Finset.mem_singleton_self _)) (take_eq_of_earlier ops_single V (i := 57) (k := 360) (by decide) (lt_of_lt_of_eq (by decide : 57 < 668) ops_length.symm) (Finset.mem_singleton_self _))
theorem eq_main_v192 (V : Valuation τ sig (Elt F)) :
    after (ops (F := F)) V main_v192 = (broadcastInDim S1x1 ![0] bcast_S1_S1x1_0 : (⟨S1, .i32⟩ : BufTy).Contents (Elt F) → (⟨S1x1, .i32⟩ : BufTy).Contents (Elt F)) (after (ops (F := F)) V main_v191) :=
  unary_eq ops_single V (lt_of_lt_of_eq (by decide : 361 < 668) ops_length.symm) main_v191 main_v192 (broadcastInDim S1x1 ![0] bcast_S1_S1x1_0 : (⟨S1, .i32⟩ : BufTy).Contents (Elt F) → (⟨S1x1, .i32⟩ : BufTy).Contents (Elt F)) ⟨by decide, rfl⟩ ⟨by decide, rfl⟩ rfl (take_eq_of_earlier ops_single V (i := 360) (k := 361) (by decide) (lt_of_lt_of_eq (by decide : 360 < 668) ops_length.symm) (Finset.mem_singleton_self _))
theorem eq_main_v193 (V : Valuation τ sig (Elt F)) :
    after (ops (F := F)) V main_v193 = ((fun x i u => Host.scatter scatter_S8x64x4096x16_S1x1_S8x64x1x16_013_2_2_1 (fun _ b => b) x i u) : (⟨S8x64x4096x16, .f32⟩ : BufTy).Contents (Elt F) → (⟨S1x1, .i32⟩ : BufTy).Contents (Elt F) → (⟨S8x64x1x16, .f32⟩ : BufTy).Contents (Elt F) → (⟨S8x64x4096x16, .f32⟩ : BufTy).Contents (Elt F)) (after (ops (F := F)) V main_v177) (after (ops (F := F)) V main_v192) (after (ops (F := F)) V main_v188) :=
  ternary_eq ops_single V (lt_of_lt_of_eq (by decide : 362 < 668) ops_length.symm) main_v177 main_v192 main_v188 main_v193 ((fun x i u => Host.scatter scatter_S8x64x4096x16_S1x1_S8x64x1x16_013_2_2_1 (fun _ b => b) x i u) : (⟨S8x64x4096x16, .f32⟩ : BufTy).Contents (Elt F) → (⟨S1x1, .i32⟩ : BufTy).Contents (Elt F) → (⟨S8x64x1x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 343) (k := 362) (by decide) (lt_of_lt_of_eq (by decide : 343 < 668) ops_length.symm) (Finset.mem_singleton_self _)) (take_eq_of_earlier ops_single V (i := 361) (k := 362) (by decide) (lt_of_lt_of_eq (by decide : 361 < 668) ops_length.symm) (Finset.mem_singleton_self _)) (take_eq_of_earlier ops_single V (i := 356) (k := 362) (by decide) (lt_of_lt_of_eq (by decide : 356 < 668) ops_length.symm) (Finset.mem_singleton_self _))
theorem eq_main_c_167 (V : Valuation τ sig (Elt F)) :
    after (ops (F := F)) V main_c_167 = (constantI S_ 32 4095#32) :=
  nullary_eq ops_single V (lt_of_lt_of_eq (by decide : 363 < 668) ops_length.symm) main_c_167 (constantI S_ 32 4095#32) ⟨by decide, rfl⟩ rfl
theorem eq_main_v194 (V : Valuation τ sig (Elt F)) :
    after (ops (F := F)) V main_v194 = (broadcastInDim S1 ![] bcast_S_S1 : (⟨S_, .i32⟩ : BufTy).Contents (Elt F) → (⟨S1, .i32⟩ : BufTy).Contents (Elt F)) (after (ops (F := F)) V main_c_167) :=
  unary_eq ops_single V (lt_of_lt_of_eq (by decide : 364 < 668) ops_length.symm) main_c_167 main_v194 (broadcastInDim S1 ![] bcast_S_S1 : (⟨S_, .i32⟩ : BufTy).Contents (Elt F) → (⟨S1, .i32⟩ : BufTy).Contents (Elt F)) ⟨by decide, rfl⟩ ⟨by decide, rfl⟩ rfl (take_eq_of_earlier ops_single V (i := 363) (k := 364) (by decide) (lt_of_lt_of_eq (by decide : 363 < 668) ops_length.symm) (Finset.mem_singleton_self _))
theorem eq_main_v195 (V : Valuation τ sig (Elt F)) :
    after (ops (F := F)) V main_v195 = ((fun x i u => Host.scatter scatter_S8x64x4096x16_S1_S8x64x16_012_2_2_0 (fun _ b => b) x i u) : (⟨S8x64x4096x16, .f32⟩ : BufTy).Contents (Elt F) → (⟨S1, .i32⟩ : BufTy).Contents (Elt F) → (⟨S8x64x16, .f32⟩ : BufTy).Contents (Elt F) → (⟨S8x64x4096x16, .f32⟩ : BufTy).Contents (Elt F)) (after (ops (F := F)) V main_v193) (after (ops (F := F)) V main_v194) (after (ops (F := F)) V main_v0) :=
  ternary_eq ops_single V (lt_of_lt_of_eq (by decide : 365 < 668) ops_length.symm) main_v193 main_v194 main_v0 main_v195 ((fun x i u => Host.scatter scatter_S8x64x4096x16_S1_S8x64x16_012_2_2_0 (fun _ b => b) x i u) : (⟨S8x64x4096x16, .f32⟩ : BufTy).Contents (Elt F) → (⟨S1, .i32⟩ : BufTy).Contents (Elt F) → (⟨S8x64x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 362) (k := 365) (by decide) (lt_of_lt_of_eq (by decide : 362 < 668) ops_length.symm) (Finset.mem_singleton_self _)) (take_eq_of_earlier ops_single V (i := 364) (k := 365) (by decide) (lt_of_lt_of_eq (by decide : 364 < 668) ops_length.symm) (Finset.mem_singleton_self _)) (take_eq_of_earlier ops_single V (i := 133) (k := 365) (by decide) (lt_of_lt_of_eq (by decide : 133 < 668) ops_length.symm) (Finset.mem_singleton_self _))
theorem eq_main_c_168 (V : Valuation τ sig (Elt F)) :
    after (ops (F := F)) V main_c_168 = (constantI S_ 32 4096#32) :=
  nullary_eq ops_single V (lt_of_lt_of_eq (by decide : 366 < 668) ops_length.symm) main_c_168 (constantI S_ 32 4096#32) ⟨by decide, rfl⟩ rfl
theorem eq_main_v196 (V : Valuation τ sig (Elt F)) :
    after (ops (F := F)) V main_v196 = (broadcastInDim S1 ![] bcast_S_S1 : (⟨S_, .i32⟩ : BufTy).Contents (Elt F) → (⟨S1, .i32⟩ : BufTy).Contents (Elt F)) (after (ops (F := F)) V main_c_168) :=
  unary_eq ops_single V (lt_of_lt_of_eq (by decide : 367 < 668) ops_length.symm) main_c_168 main_v196 (broadcastInDim S1 ![] bcast_S_S1 : (⟨S_, .i32⟩ : BufTy).Contents (Elt F) → (⟨S1, .i32⟩ : BufTy).Contents (Elt F)) ⟨by decide, rfl⟩ ⟨by decide, rfl⟩ rfl (take_eq_of_earlier ops_single V (i := 366) (k := 367) (by decide) (lt_of_lt_of_eq (by decide : 366 < 668) ops_length.symm) (Finset.mem_singleton_self _))
theorem eq_main_v197 (V : Valuation τ sig (Elt F)) :
    after (ops (F := F)) V main_v197 = (addi : (⟨S1, .i32⟩ : BufTy).Contents (Elt F) → (⟨S1, .i32⟩ : BufTy).Contents (Elt F) → (⟨S1, .i32⟩ : BufTy).Contents (Elt F)) (after (ops (F := F)) V main_c_59) (after (ops (F := F)) V main_v196) :=
  binary_eq ops_single V (lt_of_lt_of_eq (by decide : 368 < 668) ops_length.symm) main_c_59 main_v196 main_v197 (addi : (⟨S1, .i32⟩ : BufTy).Contents (Elt F) → (⟨S1, .i32⟩ : BufTy).Contents (Elt F) → (⟨S1, .i32⟩ : BufTy).Contents (Elt F)) ⟨by decide, rfl⟩ ⟨by decide, rfl⟩ ⟨by decide, rfl⟩ rfl (take_eq_of_earlier ops_single V (i := 60) (k := 368) (by decide) (lt_of_lt_of_eq (by decide : 60 < 668) ops_length.symm) (Finset.mem_singleton_self _)) (take_eq_of_earlier ops_single V (i := 367) (k := 368) (by decide) (lt_of_lt_of_eq (by decide : 367 < 668) ops_length.symm) (Finset.mem_singleton_self _))
theorem eq_main_v198 (V : Valuation τ sig (Elt F)) :
    after (ops (F := F)) V main_v198 = (select : (⟨S1, .i1⟩ : BufTy).Contents (Elt F) → (⟨S1, .i32⟩ : BufTy).Contents (Elt F) → (⟨S1, .i32⟩ : BufTy).Contents (Elt F) → (⟨S1, .i32⟩ : BufTy).Contents (Elt F)) (after (ops (F := F)) V main_c_60) (after (ops (F := F)) V main_v197) (after (ops (F := F)) V main_c_59) :=
  ternary_eq ops_single V (lt_of_lt_of_eq (by decide : 369 < 668) ops_length.symm) main_c_60 main_v197 main_c_59 main_v198 (select : (⟨S1, .i1⟩ : BufTy).Contents (Elt F) → (⟨S1, .i32⟩ : BufTy).Contents (Elt F) → (⟨S1, .i32⟩ : BufTy).Contents (Elt F) → (⟨S1, .i32⟩ : BufTy).Contents (Elt F)) ⟨by decide, rfl⟩ ⟨by decide, rfl⟩ ⟨by decide, rfl⟩ ⟨by decide, rfl⟩ rfl (take_eq_of_earlier ops_single V (i := 61) (k := 369) (by decide) (lt_of_lt_of_eq (by decide : 61 < 668) ops_length.symm) (Finset.mem_singleton_self _)) (take_eq_of_earlier ops_single V (i := 368) (k := 369) (by decide) (lt_of_lt_of_eq (by decide : 368 < 668) ops_length.symm) (Finset.mem_singleton_self _)) (take_eq_of_earlier ops_single V (i := 60) (k := 369) (by decide) (lt_of_lt_of_eq (by decide : 60 < 668) ops_length.symm) (Finset.mem_singleton_self _))
theorem eq_main_v199 (V : Valuation τ sig (Elt F)) :
    after (ops (F := F)) V main_v199 = (broadcastInDim S1x1 ![0] bcast_S1_S1x1_0 : (⟨S1, .i32⟩ : BufTy).Contents (Elt F) → (⟨S1x1, .i32⟩ : BufTy).Contents (Elt F)) (after (ops (F := F)) V main_v198) :=
  unary_eq ops_single V (lt_of_lt_of_eq (by decide : 370 < 668) ops_length.symm) main_v198 main_v199 (broadcastInDim S1x1 ![0] bcast_S1_S1x1_0 : (⟨S1, .i32⟩ : BufTy).Contents (Elt F) → (⟨S1x1, .i32⟩ : BufTy).Contents (Elt F)) ⟨by decide, rfl⟩ ⟨by decide, rfl⟩ rfl (take_eq_of_earlier ops_single V (i := 369) (k := 370) (by decide) (lt_of_lt_of_eq (by decide : 369 < 668) ops_length.symm) (Finset.mem_singleton_self _))
theorem eq_main_v200 (V : Valuation τ sig (Elt F)) :
    after (ops (F := F)) V main_v200 = ((fun x i => Host.gather gather_S8x64x4096x16_S1x1_S8x64x1x16_013_2_n_n_2_1_864116 x i) : (⟨S8x64x4096x16, .f32⟩ : BufTy).Contents (Elt F) → (⟨S1x1, .i32⟩ : BufTy).Contents (Elt F) → (⟨S8x64x1x16, .f32⟩ : BufTy).Contents (Elt F)) (after (ops (F := F)) V main_v195) (after (ops (F := F)) V main_v199) :=
  binary_eq ops_single V (lt_of_lt_of_eq (by decide : 371 < 668) ops_length.symm) main_v195 main_v199 main_v200 ((fun x i => Host.gather gather_S8x64x4096x16_S1x1_S8x64x1x16_013_2_n_n_2_1_864116 x i) : (⟨S8x64x4096x16, .f32⟩ : BufTy).Contents (Elt F) → (⟨S1x1, .i32⟩ : BufTy).Contents (Elt F) → (⟨S8x64x1x16, .f32⟩ : BufTy).Contents (Elt F)) ⟨by decide, rfl⟩ ⟨by decide, rfl⟩ ⟨by decide, rfl⟩ rfl (take_eq_of_earlier ops_single V (i := 365) (k := 371) (by decide) (lt_of_lt_of_eq (by decide : 365 < 668) ops_length.symm) (Finset.mem_singleton_self _)) (take_eq_of_earlier ops_single V (i := 370) (k := 371) (by decide) (lt_of_lt_of_eq (by decide : 370 < 668) ops_length.symm) (Finset.mem_singleton_self _))
theorem eq_main_c_169 (V : Valuation τ sig (Elt F)) :
    after (ops (F := F)) V main_c_169 = (constantI S_ 32 4096#32) :=
  nullary_eq ops_single V (lt_of_lt_of_eq (by decide : 372 < 668) ops_length.symm) main_c_169 (constantI S_ 32 4096#32) ⟨by decide, rfl⟩ rfl
theorem eq_main_v201 (V : Valuation τ sig (Elt F)) :
    after (ops (F := F)) V main_v201 = (broadcastInDim S1 ![] bcast_S_S1 : (⟨S_, .i32⟩ : BufTy).Contents (Elt F) → (⟨S1, .i32⟩ : BufTy).Contents (Elt F)) (after (ops (F := F)) V main_c_169) :=
  unary_eq ops_single V (lt_of_lt_of_eq (by decide : 373 < 668) ops_length.symm) main_c_169 main_v201 (broadcastInDim S1 ![] bcast_S_S1 : (⟨S_, .i32⟩ : BufTy).Contents (Elt F) → (⟨S1, .i32⟩ : BufTy).Contents (Elt F)) ⟨by decide, rfl⟩ ⟨by decide, rfl⟩ rfl (take_eq_of_earlier ops_single V (i := 372) (k := 373) (by decide) (lt_of_lt_of_eq (by decide : 372 < 668) ops_length.symm) (Finset.mem_singleton_self _))
theorem eq_main_v202 (V : Valuation τ sig (Elt F)) :
    after (ops (F := F)) V main_v202 = (addi : (⟨S1, .i32⟩ : BufTy).Contents (Elt F) → (⟨S1, .i32⟩ : BufTy).Contents (Elt F) → (⟨S1, .i32⟩ : BufTy).Contents (Elt F)) (after (ops (F := F)) V main_c_61) (after (ops (F := F)) V main_v201) :=
  binary_eq ops_single V (lt_of_lt_of_eq (by decide : 374 < 668) ops_length.symm) main_c_61 main_v201 main_v202 (addi : (⟨S1, .i32⟩ : BufTy).Contents (Elt F) → (⟨S1, .i32⟩ : BufTy).Contents (Elt F) → (⟨S1, .i32⟩ : BufTy).Contents (Elt F)) ⟨by decide, rfl⟩ ⟨by decide, rfl⟩ ⟨by decide, rfl⟩ rfl (take_eq_of_earlier ops_single V (i := 62) (k := 374) (by decide) (lt_of_lt_of_eq (by decide : 62 < 668) ops_length.symm) (Finset.mem_singleton_self _)) (take_eq_of_earlier ops_single V (i := 373) (k := 374) (by decide) (lt_of_lt_of_eq (by decide : 373 < 668) ops_length.symm) (Finset.mem_singleton_self _))
theorem eq_main_v203 (V : Valuation τ sig (Elt F)) :
    after (ops (F := F)) V main_v203 = (select : (⟨S1, .i1⟩ : BufTy).Contents (Elt F) → (⟨S1, .i32⟩ : BufTy).Contents (Elt F) → (⟨S1, .i32⟩ : BufTy).Contents (Elt F) → (⟨S1, .i32⟩ : BufTy).Contents (Elt F)) (after (ops (F := F)) V main_c_62) (after (ops (F := F)) V main_v202) (after (ops (F := F)) V main_c_61) :=
  ternary_eq ops_single V (lt_of_lt_of_eq (by decide : 375 < 668) ops_length.symm) main_c_62 main_v202 main_c_61 main_v203 (select : (⟨S1, .i1⟩ : BufTy).Contents (Elt F) → (⟨S1, .i32⟩ : BufTy).Contents (Elt F) → (⟨S1, .i32⟩ : BufTy).Contents (Elt F) → (⟨S1, .i32⟩ : BufTy).Contents (Elt F)) ⟨by decide, rfl⟩ ⟨by decide, rfl⟩ ⟨by decide, rfl⟩ ⟨by decide, rfl⟩ rfl (take_eq_of_earlier ops_single V (i := 63) (k := 375) (by decide) (lt_of_lt_of_eq (by decide : 63 < 668) ops_length.symm) (Finset.mem_singleton_self _)) (take_eq_of_earlier ops_single V (i := 374) (k := 375) (by decide) (lt_of_lt_of_eq (by decide : 374 < 668) ops_length.symm) (Finset.mem_singleton_self _)) (take_eq_of_earlier ops_single V (i := 62) (k := 375) (by decide) (lt_of_lt_of_eq (by decide : 62 < 668) ops_length.symm) (Finset.mem_singleton_self _))
theorem eq_main_v204 (V : Valuation τ sig (Elt F)) :
    after (ops (F := F)) V main_v204 = (broadcastInDim S1x1 ![0] bcast_S1_S1x1_0 : (⟨S1, .i32⟩ : BufTy).Contents (Elt F) → (⟨S1x1, .i32⟩ : BufTy).Contents (Elt F)) (after (ops (F := F)) V main_v203) :=
  unary_eq ops_single V (lt_of_lt_of_eq (by decide : 376 < 668) ops_length.symm) main_v203 main_v204 (broadcastInDim S1x1 ![0] bcast_S1_S1x1_0 : (⟨S1, .i32⟩ : BufTy).Contents (Elt F) → (⟨S1x1, .i32⟩ : BufTy).Contents (Elt F)) ⟨by decide, rfl⟩ ⟨by decide, rfl⟩ rfl (take_eq_of_earlier ops_single V (i := 375) (k := 376) (by decide) (lt_of_lt_of_eq (by decide : 375 < 668) ops_length.symm) (Finset.mem_singleton_self _))
theorem eq_main_v205 (V : Valuation τ sig (Elt F)) :
    after (ops (F := F)) V main_v205 = ((fun x i => Host.gather gather_S8x64x4096x16_S1x1_S8x64x1x16_013_2_n_n_2_1_864116 x i) : (⟨S8x64x4096x16, .f32⟩ : BufTy).Contents (Elt F) → (⟨S1x1, .i32⟩ : BufTy).Contents (Elt F) → (⟨S8x64x1x16, .f32⟩ : BufTy).Contents (Elt F)) (after (ops (F := F)) V main_v195) (after (ops (F := F)) V main_v204) :=
  binary_eq ops_single V (lt_of_lt_of_eq (by decide : 377 < 668) ops_length.symm) main_v195 main_v204 main_v205 ((fun x i => Host.gather gather_S8x64x4096x16_S1x1_S8x64x1x16_013_2_n_n_2_1_864116 x i) : (⟨S8x64x4096x16, .f32⟩ : BufTy).Contents (Elt F) → (⟨S1x1, .i32⟩ : BufTy).Contents (Elt F) → (⟨S8x64x1x16, .f32⟩ : BufTy).Contents (Elt F)) ⟨by decide, rfl⟩ ⟨by decide, rfl⟩ ⟨by decide, rfl⟩ rfl (take_eq_of_earlier ops_single V (i := 365) (k := 377) (by decide) (lt_of_lt_of_eq (by decide : 365 < 668) ops_length.symm) (Finset.mem_singleton_self _)) (take_eq_of_earlier ops_single V (i := 376) (k := 377) (by decide) (lt_of_lt_of_eq (by decide : 376 < 668) ops_length.symm) (Finset.mem_singleton_self _))
theorem eq_main_c_170 (V : Valuation τ sig (Elt F)) :
    after (ops (F := F)) V main_c_170 = (constantI S_ 32 4096#32) :=
  nullary_eq ops_single V (lt_of_lt_of_eq (by decide : 378 < 668) ops_length.symm) main_c_170 (constantI S_ 32 4096#32) ⟨by decide, rfl⟩ rfl
theorem eq_main_v206 (V : Valuation τ sig (Elt F)) :
    after (ops (F := F)) V main_v206 = (broadcastInDim S1 ![] bcast_S_S1 : (⟨S_, .i32⟩ : BufTy).Contents (Elt F) → (⟨S1, .i32⟩ : BufTy).Contents (Elt F)) (after (ops (F := F)) V main_c_170) :=
  unary_eq ops_single V (lt_of_lt_of_eq (by decide : 379 < 668) ops_length.symm) main_c_170 main_v206 (broadcastInDim S1 ![] bcast_S_S1 : (⟨S_, .i32⟩ : BufTy).Contents (Elt F) → (⟨S1, .i32⟩ : BufTy).Contents (Elt F)) ⟨by decide, rfl⟩ ⟨by decide, rfl⟩ rfl (take_eq_of_earlier ops_single V (i := 378) (k := 379) (by decide) (lt_of_lt_of_eq (by decide : 378 < 668) ops_length.symm) (Finset.mem_singleton_self _))
theorem eq_main_v207 (V : Valuation τ sig (Elt F)) :
    after (ops (F := F)) V main_v207 = (addi : (⟨S1, .i32⟩ : BufTy).Contents (Elt F) → (⟨S1, .i32⟩ : BufTy).Contents (Elt F) → (⟨S1, .i32⟩ : BufTy).Contents (Elt F)) (after (ops (F := F)) V main_c_59) (after (ops (F := F)) V main_v206) :=
  binary_eq ops_single V (lt_of_lt_of_eq (by decide : 380 < 668) ops_length.symm) main_c_59 main_v206 main_v207 (addi : (⟨S1, .i32⟩ : BufTy).Contents (Elt F) → (⟨S1, .i32⟩ : BufTy).Contents (Elt F) → (⟨S1, .i32⟩ : BufTy).Contents (Elt F)) ⟨by decide, rfl⟩ ⟨by decide, rfl⟩ ⟨by decide, rfl⟩ rfl (take_eq_of_earlier ops_single V (i := 60) (k := 380) (by decide) (lt_of_lt_of_eq (by decide : 60 < 668) ops_length.symm) (Finset.mem_singleton_self _)) (take_eq_of_earlier ops_single V (i := 379) (k := 380) (by decide) (lt_of_lt_of_eq (by decide : 379 < 668) ops_length.symm) (Finset.mem_singleton_self _))
theorem eq_main_v208 (V : Valuation τ sig (Elt F)) :
    after (ops (F := F)) V main_v208 = (select : (⟨S1, .i1⟩ : BufTy).Contents (Elt F) → (⟨S1, .i32⟩ : BufTy).Contents (Elt F) → (⟨S1, .i32⟩ : BufTy).Contents (Elt F) → (⟨S1, .i32⟩ : BufTy).Contents (Elt F)) (after (ops (F := F)) V main_c_63) (after (ops (F := F)) V main_v207) (after (ops (F := F)) V main_c_59) :=
  ternary_eq ops_single V (lt_of_lt_of_eq (by decide : 381 < 668) ops_length.symm) main_c_63 main_v207 main_c_59 main_v208 (select : (⟨S1, .i1⟩ : BufTy).Contents (Elt F) → (⟨S1, .i32⟩ : BufTy).Contents (Elt F) → (⟨S1, .i32⟩ : BufTy).Contents (Elt F) → (⟨S1, .i32⟩ : BufTy).Contents (Elt F)) ⟨by decide, rfl⟩ ⟨by decide, rfl⟩ ⟨by decide, rfl⟩ ⟨by decide, rfl⟩ rfl (take_eq_of_earlier ops_single V (i := 64) (k := 381) (by decide) (lt_of_lt_of_eq (by decide : 64 < 668) ops_length.symm) (Finset.mem_singleton_self _)) (take_eq_of_earlier ops_single V (i := 380) (k := 381) (by decide) (lt_of_lt_of_eq (by decide : 380 < 668) ops_length.symm) (Finset.mem_singleton_self _)) (take_eq_of_earlier ops_single V (i := 60) (k := 381) (by decide) (lt_of_lt_of_eq (by decide : 60 < 668) ops_length.symm) (Finset.mem_singleton_self _))
theorem eq_main_v209 (V : Valuation τ sig (Elt F)) :
    after (ops (F := F)) V main_v209 = (broadcastInDim S1x1 ![0] bcast_S1_S1x1_0 : (⟨S1, .i32⟩ : BufTy).Contents (Elt F) → (⟨S1x1, .i32⟩ : BufTy).Contents (Elt F)) (after (ops (F := F)) V main_v208) :=
  unary_eq ops_single V (lt_of_lt_of_eq (by decide : 382 < 668) ops_length.symm) main_v208 main_v209 (broadcastInDim S1x1 ![0] bcast_S1_S1x1_0 : (⟨S1, .i32⟩ : BufTy).Contents (Elt F) → (⟨S1x1, .i32⟩ : BufTy).Contents (Elt F)) ⟨by decide, rfl⟩ ⟨by decide, rfl⟩ rfl (take_eq_of_earlier ops_single V (i := 381) (k := 382) (by decide) (lt_of_lt_of_eq (by decide : 381 < 668) ops_length.symm) (Finset.mem_singleton_self _))
theorem eq_main_v210 (V : Valuation τ sig (Elt F)) :
    after (ops (F := F)) V main_v210 = ((fun x i u => Host.scatter scatter_S8x64x4096x16_S1x1_S8x64x1x16_013_2_2_1 (fun _ b => b) x i u) : (⟨S8x64x4096x16, .f32⟩ : BufTy).Contents (Elt F) → (⟨S1x1, .i32⟩ : BufTy).Contents (Elt F) → (⟨S8x64x1x16, .f32⟩ : BufTy).Contents (Elt F) → (⟨S8x64x4096x16, .f32⟩ : BufTy).Contents (Elt F)) (after (ops (F := F)) V main_v195) (after (ops (F := F)) V main_v209) (after (ops (F := F)) V main_v205) :=
  ternary_eq ops_single V (lt_of_lt_of_eq (by decide : 383 < 668) ops_length.symm) main_v195 main_v209 main_v205 main_v210 ((fun x i u => Host.scatter scatter_S8x64x4096x16_S1x1_S8x64x1x16_013_2_2_1 (fun _ b => b) x i u) : (⟨S8x64x4096x16, .f32⟩ : BufTy).Contents (Elt F) → (⟨S1x1, .i32⟩ : BufTy).Contents (Elt F) → (⟨S8x64x1x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 365) (k := 383) (by decide) (lt_of_lt_of_eq (by decide : 365 < 668) ops_length.symm) (Finset.mem_singleton_self _)) (take_eq_of_earlier ops_single V (i := 382) (k := 383) (by decide) (lt_of_lt_of_eq (by decide : 382 < 668) ops_length.symm) (Finset.mem_singleton_self _)) (take_eq_of_earlier ops_single V (i := 377) (k := 383) (by decide) (lt_of_lt_of_eq (by decide : 377 < 668) ops_length.symm) (Finset.mem_singleton_self _))
theorem eq_main_v211 (V : Valuation τ sig (Elt F)) :
    after (ops (F := F)) V main_v211 = (addf : (⟨S8x64x1x16, .f32⟩ : BufTy).Contents (Elt F) → (⟨S8x64x1x16, .f32⟩ : BufTy).Contents (Elt F) → (⟨S8x64x1x16, .f32⟩ : BufTy).Contents (Elt F)) (after (ops (F := F)) V main_v200) (after (ops (F := F)) V main_v205) :=
  binary_eq ops_single V (lt_of_lt_of_eq (by decide : 384 < 668) ops_length.symm) main_v200 main_v205 main_v211 (addf : (⟨S8x64x1x16, .f32⟩ : BufTy).Contents (Elt F) → (⟨S8x64x1x16, .f32⟩ : BufTy).Contents (Elt F) → (⟨S8x64x1x16, .f32⟩ : BufTy).Contents (Elt F)) ⟨by decide, rfl⟩ ⟨by decide, rfl⟩ ⟨by decide, rfl⟩ rfl (take_eq_of_earlier ops_single V (i := 371) (k := 384) (by decide) (lt_of_lt_of_eq (by decide : 371 < 668) ops_length.symm) (Finset.mem_singleton_self _)) (take_eq_of_earlier ops_single V (i := 377) (k := 384) (by decide) (lt_of_lt_of_eq (by decide : 377 < 668) ops_length.symm) (Finset.mem_singleton_self _))
theorem eq_main_c_171 (V : Valuation τ sig (Elt F)) :
    after (ops (F := F)) V main_c_171 = (constantI S_ 32 4096#32) :=
  nullary_eq ops_single V (lt_of_lt_of_eq (by decide : 385 < 668) ops_length.symm) main_c_171 (constantI S_ 32 4096#32) ⟨by decide, rfl⟩ rfl
theorem eq_main_v212 (V : Valuation τ sig (Elt F)) :
    after (ops (F := F)) V main_v212 = (broadcastInDim S1 ![] bcast_S_S1 : (⟨S_, .i32⟩ : BufTy).Contents (Elt F) → (⟨S1, .i32⟩ : BufTy).Contents (Elt F)) (after (ops (F := F)) V main_c_171) :=
  unary_eq ops_single V (lt_of_lt_of_eq (by decide : 386 < 668) ops_length.symm) main_c_171 main_v212 (broadcastInDim S1 ![] bcast_S_S1 : (⟨S_, .i32⟩ : BufTy).Contents (Elt F) → (⟨S1, .i32⟩ : BufTy).Contents (Elt F)) ⟨by decide, rfl⟩ ⟨by decide, rfl⟩ rfl (take_eq_of_earlier ops_single V (i := 385) (k := 386) (by decide) (lt_of_lt_of_eq (by decide : 385 < 668) ops_length.symm) (Finset.mem_singleton_self _))
theorem eq_main_v213 (V : Valuation τ sig (Elt F)) :
    after (ops (F := F)) V main_v213 = (addi : (⟨S1, .i32⟩ : BufTy).Contents (Elt F) → (⟨S1, .i32⟩ : BufTy).Contents (Elt F) → (⟨S1, .i32⟩ : BufTy).Contents (Elt F)) (after (ops (F := F)) V main_c_61) (after (ops (F := F)) V main_v212) :=
  binary_eq ops_single V (lt_of_lt_of_eq (by decide : 387 < 668) ops_length.symm) main_c_61 main_v212 main_v213 (addi : (⟨S1, .i32⟩ : BufTy).Contents (Elt F) → (⟨S1, .i32⟩ : BufTy).Contents (Elt F) → (⟨S1, .i32⟩ : BufTy).Contents (Elt F)) ⟨by decide, rfl⟩ ⟨by decide, rfl⟩ ⟨by decide, rfl⟩ rfl (take_eq_of_earlier ops_single V (i := 62) (k := 387) (by decide) (lt_of_lt_of_eq (by decide : 62 < 668) ops_length.symm) (Finset.mem_singleton_self _)) (take_eq_of_earlier ops_single V (i := 386) (k := 387) (by decide) (lt_of_lt_of_eq (by decide : 386 < 668) ops_length.symm) (Finset.mem_singleton_self _))
theorem eq_main_v214 (V : Valuation τ sig (Elt F)) :
    after (ops (F := F)) V main_v214 = (select : (⟨S1, .i1⟩ : BufTy).Contents (Elt F) → (⟨S1, .i32⟩ : BufTy).Contents (Elt F) → (⟨S1, .i32⟩ : BufTy).Contents (Elt F) → (⟨S1, .i32⟩ : BufTy).Contents (Elt F)) (after (ops (F := F)) V main_c_64) (after (ops (F := F)) V main_v213) (after (ops (F := F)) V main_c_61) :=
  ternary_eq ops_single V (lt_of_lt_of_eq (by decide : 388 < 668) ops_length.symm) main_c_64 main_v213 main_c_61 main_v214 (select : (⟨S1, .i1⟩ : BufTy).Contents (Elt F) → (⟨S1, .i32⟩ : BufTy).Contents (Elt F) → (⟨S1, .i32⟩ : BufTy).Contents (Elt F) → (⟨S1, .i32⟩ : BufTy).Contents (Elt F)) ⟨by decide, rfl⟩ ⟨by decide, rfl⟩ ⟨by decide, rfl⟩ ⟨by decide, rfl⟩ rfl (take_eq_of_earlier ops_single V (i := 65) (k := 388) (by decide) (lt_of_lt_of_eq (by decide : 65 < 668) ops_length.symm) (Finset.mem_singleton_self _)) (take_eq_of_earlier ops_single V (i := 387) (k := 388) (by decide) (lt_of_lt_of_eq (by decide : 387 < 668) ops_length.symm) (Finset.mem_singleton_self _)) (take_eq_of_earlier ops_single V (i := 62) (k := 388) (by decide) (lt_of_lt_of_eq (by decide : 62 < 668) ops_length.symm) (Finset.mem_singleton_self _))
theorem eq_main_v215 (V : Valuation τ sig (Elt F)) :
    after (ops (F := F)) V main_v215 = (broadcastInDim S1x1 ![0] bcast_S1_S1x1_0 : (⟨S1, .i32⟩ : BufTy).Contents (Elt F) → (⟨S1x1, .i32⟩ : BufTy).Contents (Elt F)) (after (ops (F := F)) V main_v214) :=
  unary_eq ops_single V (lt_of_lt_of_eq (by decide : 389 < 668) ops_length.symm) main_v214 main_v215 (broadcastInDim S1x1 ![0] bcast_S1_S1x1_0 : (⟨S1, .i32⟩ : BufTy).Contents (Elt F) → (⟨S1x1, .i32⟩ : BufTy).Contents (Elt F)) ⟨by decide, rfl⟩ ⟨by decide, rfl⟩ rfl (take_eq_of_earlier ops_single V (i := 388) (k := 389) (by decide) (lt_of_lt_of_eq (by decide : 388 < 668) ops_length.symm) (Finset.mem_singleton_self _))
theorem eq_main_v216 (V : Valuation τ sig (Elt F)) :
    after (ops (F := F)) V main_v216 = ((fun x i u => Host.scatter scatter_S8x64x4096x16_S1x1_S8x64x1x16_013_2_2_1 (fun _ b => b) x i u) : (⟨S8x64x4096x16, .f32⟩ : BufTy).Contents (Elt F) → (⟨S1x1, .i32⟩ : BufTy).Contents (Elt F) → (⟨S8x64x1x16, .f32⟩ : BufTy).Contents (Elt F) → (⟨S8x64x4096x16, .f32⟩ : BufTy).Contents (Elt F)) (after (ops (F := F)) V main_v210) (after (ops (F := F)) V main_v215) (after (ops (F := F)) V main_v211) :=
  ternary_eq ops_single V (lt_of_lt_of_eq (by decide : 390 < 668) ops_length.symm) main_v210 main_v215 main_v211 main_v216 ((fun x i u => Host.scatter scatter_S8x64x4096x16_S1x1_S8x64x1x16_013_2_2_1 (fun _ b => b) x i u) : (⟨S8x64x4096x16, .f32⟩ : BufTy).Contents (Elt F) → (⟨S1x1, .i32⟩ : BufTy).Contents (Elt F) → (⟨S8x64x1x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 383) (k := 390) (by decide) (lt_of_lt_of_eq (by decide : 383 < 668) ops_length.symm) (Finset.mem_singleton_self _)) (take_eq_of_earlier ops_single V (i := 389) (k := 390) (by decide) (lt_of_lt_of_eq (by decide : 389 < 668) ops_length.symm) (Finset.mem_singleton_self _)) (take_eq_of_earlier ops_single V (i := 384) (k := 390) (by decide) (lt_of_lt_of_eq (by decide : 384 < 668) ops_length.symm) (Finset.mem_singleton_self _))
theorem eq_main_c_172 (V : Valuation τ sig (Elt F)) :
    after (ops (F := F)) V main_c_172 = (constantI S_ 32 4096#32) :=
  nullary_eq ops_single V (lt_of_lt_of_eq (by decide : 391 < 668) ops_length.symm) main_c_172 (constantI S_ 32 4096#32) ⟨by decide, rfl⟩ rfl
theorem eq_main_v217 (V : Valuation τ sig (Elt F)) :
    after (ops (F := F)) V main_v217 = (broadcastInDim S2 ![] bcast_S_S2 : (⟨S_, .i32⟩ : BufTy).Contents (Elt F) → (⟨S2, .i32⟩ : BufTy).Contents (Elt F)) (after (ops (F := F)) V main_c_172) :=
  unary_eq ops_single V (lt_of_lt_of_eq (by decide : 392 < 668) ops_length.symm) main_c_172 main_v217 (broadcastInDim S2 ![] bcast_S_S2 : (⟨S_, .i32⟩ : BufTy).Contents (Elt F) → (⟨S2, .i32⟩ : BufTy).Contents (Elt F)) ⟨by decide, rfl⟩ ⟨by decide, rfl⟩ rfl (take_eq_of_earlier ops_single V (i := 391) (k := 392) (by decide) (lt_of_lt_of_eq (by decide : 391 < 668) ops_length.symm) (Finset.mem_singleton_self _))
theorem eq_main_v218 (V : Valuation τ sig (Elt F)) :
    after (ops (F := F)) V main_v218 = (addi : (⟨S2, .i32⟩ : BufTy).Contents (Elt F) → (⟨S2, .i32⟩ : BufTy).Contents (Elt F) → (⟨S2, .i32⟩ : BufTy).Contents (Elt F)) (after (ops (F := F)) V main_c_65) (after (ops (F := F)) V main_v217) :=
  binary_eq ops_single V (lt_of_lt_of_eq (by decide : 393 < 668) ops_length.symm) main_c_65 main_v217 main_v218 (addi : (⟨S2, .i32⟩ : BufTy).Contents (Elt F) → (⟨S2, .i32⟩ : BufTy).Contents (Elt F) → (⟨S2, .i32⟩ : BufTy).Contents (Elt F)) ⟨by decide, rfl⟩ ⟨by decide, rfl⟩ ⟨by decide, rfl⟩ rfl (take_eq_of_earlier ops_single V (i := 66) (k := 393) (by decide) (lt_of_lt_of_eq (by decide : 66 < 668) ops_length.symm) (Finset.mem_singleton_self _)) (take_eq_of_earlier ops_single V (i := 392) (k := 393) (by decide) (lt_of_lt_of_eq (by decide : 392 < 668) ops_length.symm) (Finset.mem_singleton_self _))
theorem eq_main_v219 (V : Valuation τ sig (Elt F)) :
    after (ops (F := F)) V main_v219 = (select : (⟨S2, .i1⟩ : BufTy).Contents (Elt F) → (⟨S2, .i32⟩ : BufTy).Contents (Elt F) → (⟨S2, .i32⟩ : BufTy).Contents (Elt F) → (⟨S2, .i32⟩ : BufTy).Contents (Elt F)) (after (ops (F := F)) V main_c_66) (after (ops (F := F)) V main_v218) (after (ops (F := F)) V main_c_65) :=
  ternary_eq ops_single V (lt_of_lt_of_eq (by decide : 394 < 668) ops_length.symm) main_c_66 main_v218 main_c_65 main_v219 (select : (⟨S2, .i1⟩ : BufTy).Contents (Elt F) → (⟨S2, .i32⟩ : BufTy).Contents (Elt F) → (⟨S2, .i32⟩ : BufTy).Contents (Elt F) → (⟨S2, .i32⟩ : BufTy).Contents (Elt F)) ⟨by decide, rfl⟩ ⟨by decide, rfl⟩ ⟨by decide, rfl⟩ ⟨by decide, rfl⟩ rfl (take_eq_of_earlier ops_single V (i := 67) (k := 394) (by decide) (lt_of_lt_of_eq (by decide : 67 < 668) ops_length.symm) (Finset.mem_singleton_self _)) (take_eq_of_earlier ops_single V (i := 393) (k := 394) (by decide) (lt_of_lt_of_eq (by decide : 393 < 668) ops_length.symm) (Finset.mem_singleton_self _)) (take_eq_of_earlier ops_single V (i := 66) (k := 394) (by decide) (lt_of_lt_of_eq (by decide : 66 < 668) ops_length.symm) (Finset.mem_singleton_self _))
theorem eq_main_v220 (V : Valuation τ sig (Elt F)) :
    after (ops (F := F)) V main_v220 = (broadcastInDim S2x1 ![0] bcast_S2_S2x1_0 : (⟨S2, .i32⟩ : BufTy).Contents (Elt F) → (⟨S2x1, .i32⟩ : BufTy).Contents (Elt F)) (after (ops (F := F)) V main_v219) :=
  unary_eq ops_single V (lt_of_lt_of_eq (by decide : 395 < 668) ops_length.symm) main_v219 main_v220 (broadcastInDim S2x1 ![0] bcast_S2_S2x1_0 : (⟨S2, .i32⟩ : BufTy).Contents (Elt F) → (⟨S2x1, .i32⟩ : BufTy).Contents (Elt F)) ⟨by decide, rfl⟩ ⟨by decide, rfl⟩ rfl (take_eq_of_earlier ops_single V (i := 394) (k := 395) (by decide) (lt_of_lt_of_eq (by decide : 394 < 668) ops_length.symm) (Finset.mem_singleton_self _))
theorem eq_main_v221 (V : Valuation τ sig (Elt F)) :
    after (ops (F := F)) V main_v221 = ((fun x i => Host.gather gather_S8x64x4096x16_S2x1_S8x64x2x16_013_2_n_n_2_1_864116 x i) : (⟨S8x64x4096x16, .f32⟩ : BufTy).Contents (Elt F) → (⟨S2x1, .i32⟩ : BufTy).Contents (Elt F) → (⟨S8x64x2x16, .f32⟩ : BufTy).Contents (Elt F)) (after (ops (F := F)) V main_v216) (after (ops (F := F)) V main_v220) :=
  binary_eq ops_single V (lt_of_lt_of_eq (by decide : 396 < 668) ops_length.symm) main_v216 main_v220 main_v221 ((fun x i => Host.gather gather_S8x64x4096x16_S2x1_S8x64x2x16_013_2_n_n_2_1_864116 x i) : (⟨S8x64x4096x16, .f32⟩ : BufTy).Contents (Elt F) → (⟨S2x1, .i32⟩ : BufTy).Contents (Elt F) → (⟨S8x64x2x16, .f32⟩ : BufTy).Contents (Elt F)) ⟨by decide, rfl⟩ ⟨by decide, rfl⟩ ⟨by decide, rfl⟩ rfl (take_eq_of_earlier ops_single V (i := 390) (k := 396) (by decide) (lt_of_lt_of_eq (by decide : 390 < 668) ops_length.symm) (Finset.mem_singleton_self _)) (take_eq_of_earlier ops_single V (i := 395) (k := 396) (by decide) (lt_of_lt_of_eq (by decide : 395 < 668) ops_length.symm) (Finset.mem_singleton_self _))
theorem eq_main_c_173 (V : Valuation τ sig (Elt F)) :
    after (ops (F := F)) V main_c_173 = (constantI S_ 32 4096#32) :=
  nullary_eq ops_single V (lt_of_lt_of_eq (by decide : 397 < 668) ops_length.symm) main_c_173 (constantI S_ 32 4096#32) ⟨by decide, rfl⟩ rfl
theorem eq_main_v222 (V : Valuation τ sig (Elt F)) :
    after (ops (F := F)) V main_v222 = (broadcastInDim S2 ![] bcast_S_S2 : (⟨S_, .i32⟩ : BufTy).Contents (Elt F) → (⟨S2, .i32⟩ : BufTy).Contents (Elt F)) (after (ops (F := F)) V main_c_173) :=
  unary_eq ops_single V (lt_of_lt_of_eq (by decide : 398 < 668) ops_length.symm) main_c_173 main_v222 (broadcastInDim S2 ![] bcast_S_S2 : (⟨S_, .i32⟩ : BufTy).Contents (Elt F) → (⟨S2, .i32⟩ : BufTy).Contents (Elt F)) ⟨by decide, rfl⟩ ⟨by decide, rfl⟩ rfl (take_eq_of_earlier ops_single V (i := 397) (k := 398) (by decide) (lt_of_lt_of_eq (by decide : 397 < 668) ops_length.symm) (Finset.mem_singleton_self _))
theorem eq_main_v223 (V : Valuation τ sig (Elt F)) :
    after (ops (F := F)) V main_v223 = (addi : (⟨S2, .i32⟩ : BufTy).Contents (Elt F) → (⟨S2, .i32⟩ : BufTy).Contents (Elt F) → (⟨S2, .i32⟩ : BufTy).Contents (Elt F)) (after (ops (F := F)) V main_c_67) (after (ops (F := F)) V main_v222) :=
  binary_eq ops_single V (lt_of_lt_of_eq (by decide : 399 < 668) ops_length.symm) main_c_67 main_v222 main_v223 (addi : (⟨S2, .i32⟩ : BufTy).Contents (Elt F) → (⟨S2, .i32⟩ : BufTy).Contents (Elt F) → (⟨S2, .i32⟩ : BufTy).Contents (Elt F)) ⟨by decide, rfl⟩ ⟨by decide, rfl⟩ ⟨by decide, rfl⟩ rfl (take_eq_of_earlier ops_single V (i := 68) (k := 399) (by decide) (lt_of_lt_of_eq (by decide : 68 < 668) ops_length.symm) (Finset.mem_singleton_self _)) (take_eq_of_earlier ops_single V (i := 398) (k := 399) (by decide) (lt_of_lt_of_eq (by decide : 398 < 668) ops_length.symm) (Finset.mem_singleton_self _))
theorem eq_main_v224 (V : Valuation τ sig (Elt F)) :
    after (ops (F := F)) V main_v224 = (select : (⟨S2, .i1⟩ : BufTy).Contents (Elt F) → (⟨S2, .i32⟩ : BufTy).Contents (Elt F) → (⟨S2, .i32⟩ : BufTy).Contents (Elt F) → (⟨S2, .i32⟩ : BufTy).Contents (Elt F)) (after (ops (F := F)) V main_c_68) (after (ops (F := F)) V main_v223) (after (ops (F := F)) V main_c_67) :=
  ternary_eq ops_single V (lt_of_lt_of_eq (by decide : 400 < 668) ops_length.symm) main_c_68 main_v223 main_c_67 main_v224 (select : (⟨S2, .i1⟩ : BufTy).Contents (Elt F) → (⟨S2, .i32⟩ : BufTy).Contents (Elt F) → (⟨S2, .i32⟩ : BufTy).Contents (Elt F) → (⟨S2, .i32⟩ : BufTy).Contents (Elt F)) ⟨by decide, rfl⟩ ⟨by decide, rfl⟩ ⟨by decide, rfl⟩ ⟨by decide, rfl⟩ rfl (take_eq_of_earlier ops_single V (i := 69) (k := 400) (by decide) (lt_of_lt_of_eq (by decide : 69 < 668) ops_length.symm) (Finset.mem_singleton_self _)) (take_eq_of_earlier ops_single V (i := 399) (k := 400) (by decide) (lt_of_lt_of_eq (by decide : 399 < 668) ops_length.symm) (Finset.mem_singleton_self _)) (take_eq_of_earlier ops_single V (i := 68) (k := 400) (by decide) (lt_of_lt_of_eq (by decide : 68 < 668) ops_length.symm) (Finset.mem_singleton_self _))
theorem eq_main_v225 (V : Valuation τ sig (Elt F)) :
    after (ops (F := F)) V main_v225 = (broadcastInDim S2x1 ![0] bcast_S2_S2x1_0 : (⟨S2, .i32⟩ : BufTy).Contents (Elt F) → (⟨S2x1, .i32⟩ : BufTy).Contents (Elt F)) (after (ops (F := F)) V main_v224) :=
  unary_eq ops_single V (lt_of_lt_of_eq (by decide : 401 < 668) ops_length.symm) main_v224 main_v225 (broadcastInDim S2x1 ![0] bcast_S2_S2x1_0 : (⟨S2, .i32⟩ : BufTy).Contents (Elt F) → (⟨S2x1, .i32⟩ : BufTy).Contents (Elt F)) ⟨by decide, rfl⟩ ⟨by decide, rfl⟩ rfl (take_eq_of_earlier ops_single V (i := 400) (k := 401) (by decide) (lt_of_lt_of_eq (by decide : 400 < 668) ops_length.symm) (Finset.mem_singleton_self _))
theorem eq_main_v226 (V : Valuation τ sig (Elt F)) :
    after (ops (F := F)) V main_v226 = ((fun x i => Host.gather gather_S8x64x4096x16_S2x1_S8x64x2x16_013_2_n_n_2_1_864116 x i) : (⟨S8x64x4096x16, .f32⟩ : BufTy).Contents (Elt F) → (⟨S2x1, .i32⟩ : BufTy).Contents (Elt F) → (⟨S8x64x2x16, .f32⟩ : BufTy).Contents (Elt F)) (after (ops (F := F)) V main_v216) (after (ops (F := F)) V main_v225) :=
  binary_eq ops_single V (lt_of_lt_of_eq (by decide : 402 < 668) ops_length.symm) main_v216 main_v225 main_v226 ((fun x i => Host.gather gather_S8x64x4096x16_S2x1_S8x64x2x16_013_2_n_n_2_1_864116 x i) : (⟨S8x64x4096x16, .f32⟩ : BufTy).Contents (Elt F) → (⟨S2x1, .i32⟩ : BufTy).Contents (Elt F) → (⟨S8x64x2x16, .f32⟩ : BufTy).Contents (Elt F)) ⟨by decide, rfl⟩ ⟨by decide, rfl⟩ ⟨by decide, rfl⟩ rfl (take_eq_of_earlier ops_single V (i := 390) (k := 402) (by decide) (lt_of_lt_of_eq (by decide : 390 < 668) ops_length.symm) (Finset.mem_singleton_self _)) (take_eq_of_earlier ops_single V (i := 401) (k := 402) (by decide) (lt_of_lt_of_eq (by decide : 401 < 668) ops_length.symm) (Finset.mem_singleton_self _))
theorem eq_main_c_174 (V : Valuation τ sig (Elt F)) :
    after (ops (F := F)) V main_c_174 = (constantI S_ 32 4096#32) :=
  nullary_eq ops_single V (lt_of_lt_of_eq (by decide : 403 < 668) ops_length.symm) main_c_174 (constantI S_ 32 4096#32) ⟨by decide, rfl⟩ rfl
theorem eq_main_v227 (V : Valuation τ sig (Elt F)) :
    after (ops (F := F)) V main_v227 = (broadcastInDim S2 ![] bcast_S_S2 : (⟨S_, .i32⟩ : BufTy).Contents (Elt F) → (⟨S2, .i32⟩ : BufTy).Contents (Elt F)) (after (ops (F := F)) V main_c_174) :=
  unary_eq ops_single V (lt_of_lt_of_eq (by decide : 404 < 668) ops_length.symm) main_c_174 main_v227 (broadcastInDim S2 ![] bcast_S_S2 : (⟨S_, .i32⟩ : BufTy).Contents (Elt F) → (⟨S2, .i32⟩ : BufTy).Contents (Elt F)) ⟨by decide, rfl⟩ ⟨by decide, rfl⟩ rfl (take_eq_of_earlier ops_single V (i := 403) (k := 404) (by decide) (lt_of_lt_of_eq (by decide : 403 < 668) ops_length.symm) (Finset.mem_singleton_self _))
theorem eq_main_v228 (V : Valuation τ sig (Elt F)) :
    after (ops (F := F)) V main_v228 = (addi : (⟨S2, .i32⟩ : BufTy).Contents (Elt F) → (⟨S2, .i32⟩ : BufTy).Contents (Elt F) → (⟨S2, .i32⟩ : BufTy).Contents (Elt F)) (after (ops (F := F)) V main_c_65) (after (ops (F := F)) V main_v227) :=
  binary_eq ops_single V (lt_of_lt_of_eq (by decide : 405 < 668) ops_length.symm) main_c_65 main_v227 main_v228 (addi : (⟨S2, .i32⟩ : BufTy).Contents (Elt F) → (⟨S2, .i32⟩ : BufTy).Contents (Elt F) → (⟨S2, .i32⟩ : BufTy).Contents (Elt F)) ⟨by decide, rfl⟩ ⟨by decide, rfl⟩ ⟨by decide, rfl⟩ rfl (take_eq_of_earlier ops_single V (i := 66) (k := 405) (by decide) (lt_of_lt_of_eq (by decide : 66 < 668) ops_length.symm) (Finset.mem_singleton_self _)) (take_eq_of_earlier ops_single V (i := 404) (k := 405) (by decide) (lt_of_lt_of_eq (by decide : 404 < 668) ops_length.symm) (Finset.mem_singleton_self _))
theorem eq_main_v229 (V : Valuation τ sig (Elt F)) :
    after (ops (F := F)) V main_v229 = (select : (⟨S2, .i1⟩ : BufTy).Contents (Elt F) → (⟨S2, .i32⟩ : BufTy).Contents (Elt F) → (⟨S2, .i32⟩ : BufTy).Contents (Elt F) → (⟨S2, .i32⟩ : BufTy).Contents (Elt F)) (after (ops (F := F)) V main_c_69) (after (ops (F := F)) V main_v228) (after (ops (F := F)) V main_c_65) :=
  ternary_eq ops_single V (lt_of_lt_of_eq (by decide : 406 < 668) ops_length.symm) main_c_69 main_v228 main_c_65 main_v229 (select : (⟨S2, .i1⟩ : BufTy).Contents (Elt F) → (⟨S2, .i32⟩ : BufTy).Contents (Elt F) → (⟨S2, .i32⟩ : BufTy).Contents (Elt F) → (⟨S2, .i32⟩ : BufTy).Contents (Elt F)) ⟨by decide, rfl⟩ ⟨by decide, rfl⟩ ⟨by decide, rfl⟩ ⟨by decide, rfl⟩ rfl (take_eq_of_earlier ops_single V (i := 70) (k := 406) (by decide) (lt_of_lt_of_eq (by decide : 70 < 668) ops_length.symm) (Finset.mem_singleton_self _)) (take_eq_of_earlier ops_single V (i := 405) (k := 406) (by decide) (lt_of_lt_of_eq (by decide : 405 < 668) ops_length.symm) (Finset.mem_singleton_self _)) (take_eq_of_earlier ops_single V (i := 66) (k := 406) (by decide) (lt_of_lt_of_eq (by decide : 66 < 668) ops_length.symm) (Finset.mem_singleton_self _))
theorem eq_main_v230 (V : Valuation τ sig (Elt F)) :
    after (ops (F := F)) V main_v230 = (broadcastInDim S2x1 ![0] bcast_S2_S2x1_0 : (⟨S2, .i32⟩ : BufTy).Contents (Elt F) → (⟨S2x1, .i32⟩ : BufTy).Contents (Elt F)) (after (ops (F := F)) V main_v229) :=
  unary_eq ops_single V (lt_of_lt_of_eq (by decide : 407 < 668) ops_length.symm) main_v229 main_v230 (broadcastInDim S2x1 ![0] bcast_S2_S2x1_0 : (⟨S2, .i32⟩ : BufTy).Contents (Elt F) → (⟨S2x1, .i32⟩ : BufTy).Contents (Elt F)) ⟨by decide, rfl⟩ ⟨by decide, rfl⟩ rfl (take_eq_of_earlier ops_single V (i := 406) (k := 407) (by decide) (lt_of_lt_of_eq (by decide : 406 < 668) ops_length.symm) (Finset.mem_singleton_self _))
theorem eq_main_v231 (V : Valuation τ sig (Elt F)) :
    after (ops (F := F)) V main_v231 = ((fun x i u => Host.scatter scatter_S8x64x4096x16_S2x1_S8x64x2x16_013_2_2_1 (fun _ b => b) x i u) : (⟨S8x64x4096x16, .f32⟩ : BufTy).Contents (Elt F) → (⟨S2x1, .i32⟩ : BufTy).Contents (Elt F) → (⟨S8x64x2x16, .f32⟩ : BufTy).Contents (Elt F) → (⟨S8x64x4096x16, .f32⟩ : BufTy).Contents (Elt F)) (after (ops (F := F)) V main_v216) (after (ops (F := F)) V main_v230) (after (ops (F := F)) V main_v226) :=
  ternary_eq ops_single V (lt_of_lt_of_eq (by decide : 408 < 668) ops_length.symm) main_v216 main_v230 main_v226 main_v231 ((fun x i u => Host.scatter scatter_S8x64x4096x16_S2x1_S8x64x2x16_013_2_2_1 (fun _ b => b) x i u) : (⟨S8x64x4096x16, .f32⟩ : BufTy).Contents (Elt F) → (⟨S2x1, .i32⟩ : BufTy).Contents (Elt F) → (⟨S8x64x2x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 390) (k := 408) (by decide) (lt_of_lt_of_eq (by decide : 390 < 668) ops_length.symm) (Finset.mem_singleton_self _)) (take_eq_of_earlier ops_single V (i := 407) (k := 408) (by decide) (lt_of_lt_of_eq (by decide : 407 < 668) ops_length.symm) (Finset.mem_singleton_self _)) (take_eq_of_earlier ops_single V (i := 402) (k := 408) (by decide) (lt_of_lt_of_eq (by decide : 402 < 668) ops_length.symm) (Finset.mem_singleton_self _))
theorem eq_main_v232 (V : Valuation τ sig (Elt F)) :
    after (ops (F := F)) V main_v232 = (addf : (⟨S8x64x2x16, .f32⟩ : BufTy).Contents (Elt F) → (⟨S8x64x2x16, .f32⟩ : BufTy).Contents (Elt F) → (⟨S8x64x2x16, .f32⟩ : BufTy).Contents (Elt F)) (after (ops (F := F)) V main_v221) (after (ops (F := F)) V main_v226) :=
  binary_eq ops_single V (lt_of_lt_of_eq (by decide : 409 < 668) ops_length.symm) main_v221 main_v226 main_v232 (addf : (⟨S8x64x2x16, .f32⟩ : BufTy).Contents (Elt F) → (⟨S8x64x2x16, .f32⟩ : BufTy).Contents (Elt F) → (⟨S8x64x2x16, .f32⟩ : BufTy).Contents (Elt F)) ⟨by decide, rfl⟩ ⟨by decide, rfl⟩ ⟨by decide, rfl⟩ rfl (take_eq_of_earlier ops_single V (i := 396) (k := 409) (by decide) (lt_of_lt_of_eq (by decide : 396 < 668) ops_length.symm) (Finset.mem_singleton_self _)) (take_eq_of_earlier ops_single V (i := 402) (k := 409) (by decide) (lt_of_lt_of_eq (by decide : 402 < 668) ops_length.symm) (Finset.mem_singleton_self _))
theorem eq_main_c_175 (V : Valuation τ sig (Elt F)) :
    after (ops (F := F)) V main_c_175 = (constantI S_ 32 4096#32) :=
  nullary_eq ops_single V (lt_of_lt_of_eq (by decide : 410 < 668) ops_length.symm) main_c_175 (constantI S_ 32 4096#32) ⟨by decide, rfl⟩ rfl
theorem eq_main_v233 (V : Valuation τ sig (Elt F)) :
    after (ops (F := F)) V main_v233 = (broadcastInDim S2 ![] bcast_S_S2 : (⟨S_, .i32⟩ : BufTy).Contents (Elt F) → (⟨S2, .i32⟩ : BufTy).Contents (Elt F)) (after (ops (F := F)) V main_c_175) :=
  unary_eq ops_single V (lt_of_lt_of_eq (by decide : 411 < 668) ops_length.symm) main_c_175 main_v233 (broadcastInDim S2 ![] bcast_S_S2 : (⟨S_, .i32⟩ : BufTy).Contents (Elt F) → (⟨S2, .i32⟩ : BufTy).Contents (Elt F)) ⟨by decide, rfl⟩ ⟨by decide, rfl⟩ rfl (take_eq_of_earlier ops_single V (i := 410) (k := 411) (by decide) (lt_of_lt_of_eq (by decide : 410 < 668) ops_length.symm) (Finset.mem_singleton_self _))
theorem eq_main_v234 (V : Valuation τ sig (Elt F)) :
    after (ops (F := F)) V main_v234 = (addi : (⟨S2, .i32⟩ : BufTy).Contents (Elt F) → (⟨S2, .i32⟩ : BufTy).Contents (Elt F) → (⟨S2, .i32⟩ : BufTy).Contents (Elt F)) (after (ops (F := F)) V main_c_67) (after (ops (F := F)) V main_v233) :=
  binary_eq ops_single V (lt_of_lt_of_eq (by decide : 412 < 668) ops_length.symm) main_c_67 main_v233 main_v234 (addi : (⟨S2, .i32⟩ : BufTy).Contents (Elt F) → (⟨S2, .i32⟩ : BufTy).Contents (Elt F) → (⟨S2, .i32⟩ : BufTy).Contents (Elt F)) ⟨by decide, rfl⟩ ⟨by decide, rfl⟩ ⟨by decide, rfl⟩ rfl (take_eq_of_earlier ops_single V (i := 68) (k := 412) (by decide) (lt_of_lt_of_eq (by decide : 68 < 668) ops_length.symm) (Finset.mem_singleton_self _)) (take_eq_of_earlier ops_single V (i := 411) (k := 412) (by decide) (lt_of_lt_of_eq (by decide : 411 < 668) ops_length.symm) (Finset.mem_singleton_self _))
theorem eq_main_v235 (V : Valuation τ sig (Elt F)) :
    after (ops (F := F)) V main_v235 = (select : (⟨S2, .i1⟩ : BufTy).Contents (Elt F) → (⟨S2, .i32⟩ : BufTy).Contents (Elt F) → (⟨S2, .i32⟩ : BufTy).Contents (Elt F) → (⟨S2, .i32⟩ : BufTy).Contents (Elt F)) (after (ops (F := F)) V main_c_70) (after (ops (F := F)) V main_v234) (after (ops (F := F)) V main_c_67) :=
  ternary_eq ops_single V (lt_of_lt_of_eq (by decide : 413 < 668) ops_length.symm) main_c_70 main_v234 main_c_67 main_v235 (select : (⟨S2, .i1⟩ : BufTy).Contents (Elt F) → (⟨S2, .i32⟩ : BufTy).Contents (Elt F) → (⟨S2, .i32⟩ : BufTy).Contents (Elt F) → (⟨S2, .i32⟩ : BufTy).Contents (Elt F)) ⟨by decide, rfl⟩ ⟨by decide, rfl⟩ ⟨by decide, rfl⟩ ⟨by decide, rfl⟩ rfl (take_eq_of_earlier ops_single V (i := 71) (k := 413) (by decide) (lt_of_lt_of_eq (by decide : 71 < 668) ops_length.symm) (Finset.mem_singleton_self _)) (take_eq_of_earlier ops_single V (i := 412) (k := 413) (by decide) (lt_of_lt_of_eq (by decide : 412 < 668) ops_length.symm) (Finset.mem_singleton_self _)) (take_eq_of_earlier ops_single V (i := 68) (k := 413) (by decide) (lt_of_lt_of_eq (by decide : 68 < 668) ops_length.symm) (Finset.mem_singleton_self _))
theorem eq_main_v236 (V : Valuation τ sig (Elt F)) :
    after (ops (F := F)) V main_v236 = (broadcastInDim S2x1 ![0] bcast_S2_S2x1_0 : (⟨S2, .i32⟩ : BufTy).Contents (Elt F) → (⟨S2x1, .i32⟩ : BufTy).Contents (Elt F)) (after (ops (F := F)) V main_v235) :=
  unary_eq ops_single V (lt_of_lt_of_eq (by decide : 414 < 668) ops_length.symm) main_v235 main_v236 (broadcastInDim S2x1 ![0] bcast_S2_S2x1_0 : (⟨S2, .i32⟩ : BufTy).Contents (Elt F) → (⟨S2x1, .i32⟩ : BufTy).Contents (Elt F)) ⟨by decide, rfl⟩ ⟨by decide, rfl⟩ rfl (take_eq_of_earlier ops_single V (i := 413) (k := 414) (by decide) (lt_of_lt_of_eq (by decide : 413 < 668) ops_length.symm) (Finset.mem_singleton_self _))
theorem eq_main_v237 (V : Valuation τ sig (Elt F)) :
    after (ops (F := F)) V main_v237 = ((fun x i u => Host.scatter scatter_S8x64x4096x16_S2x1_S8x64x2x16_013_2_2_1 (fun _ b => b) x i u) : (⟨S8x64x4096x16, .f32⟩ : BufTy).Contents (Elt F) → (⟨S2x1, .i32⟩ : BufTy).Contents (Elt F) → (⟨S8x64x2x16, .f32⟩ : BufTy).Contents (Elt F) → (⟨S8x64x4096x16, .f32⟩ : BufTy).Contents (Elt F)) (after (ops (F := F)) V main_v231) (after (ops (F := F)) V main_v236) (after (ops (F := F)) V main_v232) :=
  ternary_eq ops_single V (lt_of_lt_of_eq (by decide : 415 < 668) ops_length.symm) main_v231 main_v236 main_v232 main_v237 ((fun x i u => Host.scatter scatter_S8x64x4096x16_S2x1_S8x64x2x16_013_2_2_1 (fun _ b => b) x i u) : (⟨S8x64x4096x16, .f32⟩ : BufTy).Contents (Elt F) → (⟨S2x1, .i32⟩ : BufTy).Contents (Elt F) → (⟨S8x64x2x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 408) (k := 415) (by decide) (lt_of_lt_of_eq (by decide : 408 < 668) ops_length.symm) (Finset.mem_singleton_self _)) (take_eq_of_earlier ops_single V (i := 414) (k := 415) (by decide) (lt_of_lt_of_eq (by decide : 414 < 668) ops_length.symm) (Finset.mem_singleton_self _)) (take_eq_of_earlier ops_single V (i := 409) (k := 415) (by decide) (lt_of_lt_of_eq (by decide : 409 < 668) ops_length.symm) (Finset.mem_singleton_self _))
theorem eq_main_c_176 (V : Valuation τ sig (Elt F)) :
    after (ops (F := F)) V main_c_176 = (constantI S_ 32 4096#32) :=
  nullary_eq ops_single V (lt_of_lt_of_eq (by decide : 416 < 668) ops_length.symm) main_c_176 (constantI S_ 32 4096#32) ⟨by decide, rfl⟩ rfl
theorem eq_main_v238 (V : Valuation τ sig (Elt F)) :
    after (ops (F := F)) V main_v238 = (broadcastInDim S4 ![] bcast_S_S4 : (⟨S_, .i32⟩ : BufTy).Contents (Elt F) → (⟨S4, .i32⟩ : BufTy).Contents (Elt F)) (after (ops (F := F)) V main_c_176) :=
  unary_eq ops_single V (lt_of_lt_of_eq (by decide : 417 < 668) ops_length.symm) main_c_176 main_v238 (broadcastInDim S4 ![] bcast_S_S4 : (⟨S_, .i32⟩ : BufTy).Contents (Elt F) → (⟨S4, .i32⟩ : BufTy).Contents (Elt F)) ⟨by decide, rfl⟩ ⟨by decide, rfl⟩ rfl (take_eq_of_earlier ops_single V (i := 416) (k := 417) (by decide) (lt_of_lt_of_eq (by decide : 416 < 668) ops_length.symm) (Finset.mem_singleton_self _))
theorem eq_main_v239 (V : Valuation τ sig (Elt F)) :
    after (ops (F := F)) V main_v239 = (addi : (⟨S4, .i32⟩ : BufTy).Contents (Elt F) → (⟨S4, .i32⟩ : BufTy).Contents (Elt F) → (⟨S4, .i32⟩ : BufTy).Contents (Elt F)) (after (ops (F := F)) V main_c_71) (after (ops (F := F)) V main_v238) :=
  binary_eq ops_single V (lt_of_lt_of_eq (by decide : 418 < 668) ops_length.symm) main_c_71 main_v238 main_v239 (addi : (⟨S4, .i32⟩ : BufTy).Contents (Elt F) → (⟨S4, .i32⟩ : BufTy).Contents (Elt F) → (⟨S4, .i32⟩ : BufTy).Contents (Elt F)) ⟨by decide, rfl⟩ ⟨by decide, rfl⟩ ⟨by decide, rfl⟩ rfl (take_eq_of_earlier ops_single V (i := 72) (k := 418) (by decide) (lt_of_lt_of_eq (by decide : 72 < 668) ops_length.symm) (Finset.mem_singleton_self _)) (take_eq_of_earlier ops_single V (i := 417) (k := 418) (by decide) (lt_of_lt_of_eq (by decide : 417 < 668) ops_length.symm) (Finset.mem_singleton_self _))
theorem eq_main_v240 (V : Valuation τ sig (Elt F)) :
    after (ops (F := F)) V main_v240 = (select : (⟨S4, .i1⟩ : BufTy).Contents (Elt F) → (⟨S4, .i32⟩ : BufTy).Contents (Elt F) → (⟨S4, .i32⟩ : BufTy).Contents (Elt F) → (⟨S4, .i32⟩ : BufTy).Contents (Elt F)) (after (ops (F := F)) V main_c_72) (after (ops (F := F)) V main_v239) (after (ops (F := F)) V main_c_71) :=
  ternary_eq ops_single V (lt_of_lt_of_eq (by decide : 419 < 668) ops_length.symm) main_c_72 main_v239 main_c_71 main_v240 (select : (⟨S4, .i1⟩ : BufTy).Contents (Elt F) → (⟨S4, .i32⟩ : BufTy).Contents (Elt F) → (⟨S4, .i32⟩ : BufTy).Contents (Elt F) → (⟨S4, .i32⟩ : BufTy).Contents (Elt F)) ⟨by decide, rfl⟩ ⟨by decide, rfl⟩ ⟨by decide, rfl⟩ ⟨by decide, rfl⟩ rfl (take_eq_of_earlier ops_single V (i := 73) (k := 419) (by decide) (lt_of_lt_of_eq (by decide : 73 < 668) ops_length.symm) (Finset.mem_singleton_self _)) (take_eq_of_earlier ops_single V (i := 418) (k := 419) (by decide) (lt_of_lt_of_eq (by decide : 418 < 668) ops_length.symm) (Finset.mem_singleton_self _)) (take_eq_of_earlier ops_single V (i := 72) (k := 419) (by decide) (lt_of_lt_of_eq (by decide : 72 < 668) ops_length.symm) (Finset.mem_singleton_self _))

end Cert.ReferenceIdeal.Line

end
-- ==== Proof.RefEq7.lean ====
/-
  The equations of the reference's operations in its window 7: what the whole line leaves at each operation's result is
  the operation's function of what the whole line leaves at its operands.
-/
import proofs.«140659_j42700564857293_1_alg».proof.Proof.RefSingle

noncomputable section

namespace Cert.ReferenceIdeal.Line

open Cert.ReferenceIdeal Cert.ReferenceIdeal.Gen Idealize.ShloMosaic Idealize.ShloMosaic.TcCoe Idealize.SL.Sem Idealize.ShloMosaic.StableHlo Cert.SingleAssignment

variable {F : FTy → Type} [FloatOps F]

theorem eq_main_v241 (V : Valuation τ sig (Elt F)) :
    after (ops (F := F)) V main_v241 = (broadcastInDim S4x1 ![0] bcast_S4_S4x1_0 : (⟨S4, .i32⟩ : BufTy).Contents (Elt F) → (⟨S4x1, .i32⟩ : BufTy).Contents (Elt F)) (after (ops (F := F)) V main_v240) :=
  unary_eq ops_single V (lt_of_lt_of_eq (by decide : 420 < 668) ops_length.symm) main_v240 main_v241 (broadcastInDim S4x1 ![0] bcast_S4_S4x1_0 : (⟨S4, .i32⟩ : BufTy).Contents (Elt F) → (⟨S4x1, .i32⟩ : BufTy).Contents (Elt F)) ⟨by decide, rfl⟩ ⟨by decide, rfl⟩ rfl (take_eq_of_earlier ops_single V (i := 419) (k := 420) (by decide) (lt_of_lt_of_eq (by decide : 419 < 668) ops_length.symm) (Finset.mem_singleton_self _))
theorem eq_main_v242 (V : Valuation τ sig (Elt F)) :
    after (ops (F := F)) V main_v242 = ((fun x i => Host.gather gather_S8x64x4096x16_S4x1_S8x64x4x16_013_2_n_n_2_1_864116 x i) : (⟨S8x64x4096x16, .f32⟩ : BufTy).Contents (Elt F) → (⟨S4x1, .i32⟩ : BufTy).Contents (Elt F) → (⟨S8x64x4x16, .f32⟩ : BufTy).Contents (Elt F)) (after (ops (F := F)) V main_v237) (after (ops (F := F)) V main_v241) :=
  binary_eq ops_single V (lt_of_lt_of_eq (by decide : 421 < 668) ops_length.symm) main_v237 main_v241 main_v242 ((fun x i => Host.gather gather_S8x64x4096x16_S4x1_S8x64x4x16_013_2_n_n_2_1_864116 x i) : (⟨S8x64x4096x16, .f32⟩ : BufTy).Contents (Elt F) → (⟨S4x1, .i32⟩ : BufTy).Contents (Elt F) → (⟨S8x64x4x16, .f32⟩ : BufTy).Contents (Elt F)) ⟨by decide, rfl⟩ ⟨by decide, rfl⟩ ⟨by decide, rfl⟩ rfl (take_eq_of_earlier ops_single V (i := 415) (k := 421) (by decide) (lt_of_lt_of_eq (by decide : 415 < 668) ops_length.symm) (Finset.mem_singleton_self _)) (take_eq_of_earlier ops_single V (i := 420) (k := 421) (by decide) (lt_of_lt_of_eq (by decide : 420 < 668) ops_length.symm) (Finset.mem_singleton_self _))
theorem eq_main_c_177 (V : Valuation τ sig (Elt F)) :
    after (ops (F := F)) V main_c_177 = (constantI S_ 32 4096#32) :=
  nullary_eq ops_single V (lt_of_lt_of_eq (by decide : 422 < 668) ops_length.symm) main_c_177 (constantI S_ 32 4096#32) ⟨by decide, rfl⟩ rfl
theorem eq_main_v243 (V : Valuation τ sig (Elt F)) :
    after (ops (F := F)) V main_v243 = (broadcastInDim S4 ![] bcast_S_S4 : (⟨S_, .i32⟩ : BufTy).Contents (Elt F) → (⟨S4, .i32⟩ : BufTy).Contents (Elt F)) (after (ops (F := F)) V main_c_177) :=
  unary_eq ops_single V (lt_of_lt_of_eq (by decide : 423 < 668) ops_length.symm) main_c_177 main_v243 (broadcastInDim S4 ![] bcast_S_S4 : (⟨S_, .i32⟩ : BufTy).Contents (Elt F) → (⟨S4, .i32⟩ : BufTy).Contents (Elt F)) ⟨by decide, rfl⟩ ⟨by decide, rfl⟩ rfl (take_eq_of_earlier ops_single V (i := 422) (k := 423) (by decide) (lt_of_lt_of_eq (by decide : 422 < 668) ops_length.symm) (Finset.mem_singleton_self _))
theorem eq_main_v244 (V : Valuation τ sig (Elt F)) :
    after (ops (F := F)) V main_v244 = (addi : (⟨S4, .i32⟩ : BufTy).Contents (Elt F) → (⟨S4, .i32⟩ : BufTy).Contents (Elt F) → (⟨S4, .i32⟩ : BufTy).Contents (Elt F)) (after (ops (F := F)) V main_c_73) (after (ops (F := F)) V main_v243) :=
  binary_eq ops_single V (lt_of_lt_of_eq (by decide : 424 < 668) ops_length.symm) main_c_73 main_v243 main_v244 (addi : (⟨S4, .i32⟩ : BufTy).Contents (Elt F) → (⟨S4, .i32⟩ : BufTy).Contents (Elt F) → (⟨S4, .i32⟩ : BufTy).Contents (Elt F)) ⟨by decide, rfl⟩ ⟨by decide, rfl⟩ ⟨by decide, rfl⟩ rfl (take_eq_of_earlier ops_single V (i := 74) (k := 424) (by decide) (lt_of_lt_of_eq (by decide : 74 < 668) ops_length.symm) (Finset.mem_singleton_self _)) (take_eq_of_earlier ops_single V (i := 423) (k := 424) (by decide) (lt_of_lt_of_eq (by decide : 423 < 668) ops_length.symm) (Finset.mem_singleton_self _))
theorem eq_main_v245 (V : Valuation τ sig (Elt F)) :
    after (ops (F := F)) V main_v245 = (select : (⟨S4, .i1⟩ : BufTy).Contents (Elt F) → (⟨S4, .i32⟩ : BufTy).Contents (Elt F) → (⟨S4, .i32⟩ : BufTy).Contents (Elt F) → (⟨S4, .i32⟩ : BufTy).Contents (Elt F)) (after (ops (F := F)) V main_c_74) (after (ops (F := F)) V main_v244) (after (ops (F := F)) V main_c_73) :=
  ternary_eq ops_single V (lt_of_lt_of_eq (by decide : 425 < 668) ops_length.symm) main_c_74 main_v244 main_c_73 main_v245 (select : (⟨S4, .i1⟩ : BufTy).Contents (Elt F) → (⟨S4, .i32⟩ : BufTy).Contents (Elt F) → (⟨S4, .i32⟩ : BufTy).Contents (Elt F) → (⟨S4, .i32⟩ : BufTy).Contents (Elt F)) ⟨by decide, rfl⟩ ⟨by decide, rfl⟩ ⟨by decide, rfl⟩ ⟨by decide, rfl⟩ rfl (take_eq_of_earlier ops_single V (i := 75) (k := 425) (by decide) (lt_of_lt_of_eq (by decide : 75 < 668) ops_length.symm) (Finset.mem_singleton_self _)) (take_eq_of_earlier ops_single V (i := 424) (k := 425) (by decide) (lt_of_lt_of_eq (by decide : 424 < 668) ops_length.symm) (Finset.mem_singleton_self _)) (take_eq_of_earlier ops_single V (i := 74) (k := 425) (by decide) (lt_of_lt_of_eq (by decide : 74 < 668) ops_length.symm) (Finset.mem_singleton_self _))
theorem eq_main_v246 (V : Valuation τ sig (Elt F)) :
    after (ops (F := F)) V main_v246 = (broadcastInDim S4x1 ![0] bcast_S4_S4x1_0 : (⟨S4, .i32⟩ : BufTy).Contents (Elt F) → (⟨S4x1, .i32⟩ : BufTy).Contents (Elt F)) (after (ops (F := F)) V main_v245) :=
  unary_eq ops_single V (lt_of_lt_of_eq (by decide : 426 < 668) ops_length.symm) main_v245 main_v246 (broadcastInDim S4x1 ![0] bcast_S4_S4x1_0 : (⟨S4, .i32⟩ : BufTy).Contents (Elt F) → (⟨S4x1, .i32⟩ : BufTy).Contents (Elt F)) ⟨by decide, rfl⟩ ⟨by decide, rfl⟩ rfl (take_eq_of_earlier ops_single V (i := 425) (k := 426) (by decide) (lt_of_lt_of_eq (by decide : 425 < 668) ops_length.symm) (Finset.mem_singleton_self _))
theorem eq_main_v247 (V : Valuation τ sig (Elt F)) :
    after (ops (F := F)) V main_v247 = ((fun x i => Host.gather gather_S8x64x4096x16_S4x1_S8x64x4x16_013_2_n_n_2_1_864116 x i) : (⟨S8x64x4096x16, .f32⟩ : BufTy).Contents (Elt F) → (⟨S4x1, .i32⟩ : BufTy).Contents (Elt F) → (⟨S8x64x4x16, .f32⟩ : BufTy).Contents (Elt F)) (after (ops (F := F)) V main_v237) (after (ops (F := F)) V main_v246) :=
  binary_eq ops_single V (lt_of_lt_of_eq (by decide : 427 < 668) ops_length.symm) main_v237 main_v246 main_v247 ((fun x i => Host.gather gather_S8x64x4096x16_S4x1_S8x64x4x16_013_2_n_n_2_1_864116 x i) : (⟨S8x64x4096x16, .f32⟩ : BufTy).Contents (Elt F) → (⟨S4x1, .i32⟩ : BufTy).Contents (Elt F) → (⟨S8x64x4x16, .f32⟩ : BufTy).Contents (Elt F)) ⟨by decide, rfl⟩ ⟨by decide, rfl⟩ ⟨by decide, rfl⟩ rfl (take_eq_of_earlier ops_single V (i := 415) (k := 427) (by decide) (lt_of_lt_of_eq (by decide : 415 < 668) ops_length.symm) (Finset.mem_singleton_self _)) (take_eq_of_earlier ops_single V (i := 426) (k := 427) (by decide) (lt_of_lt_of_eq (by decide : 426 < 668) ops_length.symm) (Finset.mem_singleton_self _))
theorem eq_main_c_178 (V : Valuation τ sig (Elt F)) :
    after (ops (F := F)) V main_c_178 = (constantI S_ 32 4096#32) :=
  nullary_eq ops_single V (lt_of_lt_of_eq (by decide : 428 < 668) ops_length.symm) main_c_178 (constantI S_ 32 4096#32) ⟨by decide, rfl⟩ rfl
theorem eq_main_v248 (V : Valuation τ sig (Elt F)) :
    after (ops (F := F)) V main_v248 = (broadcastInDim S4 ![] bcast_S_S4 : (⟨S_, .i32⟩ : BufTy).Contents (Elt F) → (⟨S4, .i32⟩ : BufTy).Contents (Elt F)) (after (ops (F := F)) V main_c_178) :=
  unary_eq ops_single V (lt_of_lt_of_eq (by decide : 429 < 668) ops_length.symm) main_c_178 main_v248 (broadcastInDim S4 ![] bcast_S_S4 : (⟨S_, .i32⟩ : BufTy).Contents (Elt F) → (⟨S4, .i32⟩ : BufTy).Contents (Elt F)) ⟨by decide, rfl⟩ ⟨by decide, rfl⟩ rfl (take_eq_of_earlier ops_single V (i := 428) (k := 429) (by decide) (lt_of_lt_of_eq (by decide : 428 < 668) ops_length.symm) (Finset.mem_singleton_self _))
theorem eq_main_v249 (V : Valuation τ sig (Elt F)) :
    after (ops (F := F)) V main_v249 = (addi : (⟨S4, .i32⟩ : BufTy).Contents (Elt F) → (⟨S4, .i32⟩ : BufTy).Contents (Elt F) → (⟨S4, .i32⟩ : BufTy).Contents (Elt F)) (after (ops (F := F)) V main_c_71) (after (ops (F := F)) V main_v248) :=
  binary_eq ops_single V (lt_of_lt_of_eq (by decide : 430 < 668) ops_length.symm) main_c_71 main_v248 main_v249 (addi : (⟨S4, .i32⟩ : BufTy).Contents (Elt F) → (⟨S4, .i32⟩ : BufTy).Contents (Elt F) → (⟨S4, .i32⟩ : BufTy).Contents (Elt F)) ⟨by decide, rfl⟩ ⟨by decide, rfl⟩ ⟨by decide, rfl⟩ rfl (take_eq_of_earlier ops_single V (i := 72) (k := 430) (by decide) (lt_of_lt_of_eq (by decide : 72 < 668) ops_length.symm) (Finset.mem_singleton_self _)) (take_eq_of_earlier ops_single V (i := 429) (k := 430) (by decide) (lt_of_lt_of_eq (by decide : 429 < 668) ops_length.symm) (Finset.mem_singleton_self _))
theorem eq_main_v250 (V : Valuation τ sig (Elt F)) :
    after (ops (F := F)) V main_v250 = (select : (⟨S4, .i1⟩ : BufTy).Contents (Elt F) → (⟨S4, .i32⟩ : BufTy).Contents (Elt F) → (⟨S4, .i32⟩ : BufTy).Contents (Elt F) → (⟨S4, .i32⟩ : BufTy).Contents (Elt F)) (after (ops (F := F)) V main_c_75) (after (ops (F := F)) V main_v249) (after (ops (F := F)) V main_c_71) :=
  ternary_eq ops_single V (lt_of_lt_of_eq (by decide : 431 < 668) ops_length.symm) main_c_75 main_v249 main_c_71 main_v250 (select : (⟨S4, .i1⟩ : BufTy).Contents (Elt F) → (⟨S4, .i32⟩ : BufTy).Contents (Elt F) → (⟨S4, .i32⟩ : BufTy).Contents (Elt F) → (⟨S4, .i32⟩ : BufTy).Contents (Elt F)) ⟨by decide, rfl⟩ ⟨by decide, rfl⟩ ⟨by decide, rfl⟩ ⟨by decide, rfl⟩ rfl (take_eq_of_earlier ops_single V (i := 76) (k := 431) (by decide) (lt_of_lt_of_eq (by decide : 76 < 668) ops_length.symm) (Finset.mem_singleton_self _)) (take_eq_of_earlier ops_single V (i := 430) (k := 431) (by decide) (lt_of_lt_of_eq (by decide : 430 < 668) ops_length.symm) (Finset.mem_singleton_self _)) (take_eq_of_earlier ops_single V (i := 72) (k := 431) (by decide) (lt_of_lt_of_eq (by decide : 72 < 668) ops_length.symm) (Finset.mem_singleton_self _))
theorem eq_main_v251 (V : Valuation τ sig (Elt F)) :
    after (ops (F := F)) V main_v251 = (broadcastInDim S4x1 ![0] bcast_S4_S4x1_0 : (⟨S4, .i32⟩ : BufTy).Contents (Elt F) → (⟨S4x1, .i32⟩ : BufTy).Contents (Elt F)) (after (ops (F := F)) V main_v250) :=
  unary_eq ops_single V (lt_of_lt_of_eq (by decide : 432 < 668) ops_length.symm) main_v250 main_v251 (broadcastInDim S4x1 ![0] bcast_S4_S4x1_0 : (⟨S4, .i32⟩ : BufTy).Contents (Elt F) → (⟨S4x1, .i32⟩ : BufTy).Contents (Elt F)) ⟨by decide, rfl⟩ ⟨by decide, rfl⟩ rfl (take_eq_of_earlier ops_single V (i := 431) (k := 432) (by decide) (lt_of_lt_of_eq (by decide : 431 < 668) ops_length.symm) (Finset.mem_singleton_self _))
theorem eq_main_v252 (V : Valuation τ sig (Elt F)) :
    after (ops (F := F)) V main_v252 = ((fun x i u => Host.scatter scatter_S8x64x4096x16_S4x1_S8x64x4x16_013_2_2_1 (fun _ b => b) x i u) : (⟨S8x64x4096x16, .f32⟩ : BufTy).Contents (Elt F) → (⟨S4x1, .i32⟩ : BufTy).Contents (Elt F) → (⟨S8x64x4x16, .f32⟩ : BufTy).Contents (Elt F) → (⟨S8x64x4096x16, .f32⟩ : BufTy).Contents (Elt F)) (after (ops (F := F)) V main_v237) (after (ops (F := F)) V main_v251) (after (ops (F := F)) V main_v247) :=
  ternary_eq ops_single V (lt_of_lt_of_eq (by decide : 433 < 668) ops_length.symm) main_v237 main_v251 main_v247 main_v252 ((fun x i u => Host.scatter scatter_S8x64x4096x16_S4x1_S8x64x4x16_013_2_2_1 (fun _ b => b) x i u) : (⟨S8x64x4096x16, .f32⟩ : BufTy).Contents (Elt F) → (⟨S4x1, .i32⟩ : BufTy).Contents (Elt F) → (⟨S8x64x4x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 415) (k := 433) (by decide) (lt_of_lt_of_eq (by decide : 415 < 668) ops_length.symm) (Finset.mem_singleton_self _)) (take_eq_of_earlier ops_single V (i := 432) (k := 433) (by decide) (lt_of_lt_of_eq (by decide : 432 < 668) ops_length.symm) (Finset.mem_singleton_self _)) (take_eq_of_earlier ops_single V (i := 427) (k := 433) (by decide) (lt_of_lt_of_eq (by decide : 427 < 668) ops_length.symm) (Finset.mem_singleton_self _))
theorem eq_main_v253 (V : Valuation τ sig (Elt F)) :
    after (ops (F := F)) V main_v253 = (addf : (⟨S8x64x4x16, .f32⟩ : BufTy).Contents (Elt F) → (⟨S8x64x4x16, .f32⟩ : BufTy).Contents (Elt F) → (⟨S8x64x4x16, .f32⟩ : BufTy).Contents (Elt F)) (after (ops (F := F)) V main_v242) (after (ops (F := F)) V main_v247) :=
  binary_eq ops_single V (lt_of_lt_of_eq (by decide : 434 < 668) ops_length.symm) main_v242 main_v247 main_v253 (addf : (⟨S8x64x4x16, .f32⟩ : BufTy).Contents (Elt F) → (⟨S8x64x4x16, .f32⟩ : BufTy).Contents (Elt F) → (⟨S8x64x4x16, .f32⟩ : BufTy).Contents (Elt F)) ⟨by decide, rfl⟩ ⟨by decide, rfl⟩ ⟨by decide, rfl⟩ rfl (take_eq_of_earlier ops_single V (i := 421) (k := 434) (by decide) (lt_of_lt_of_eq (by decide : 421 < 668) ops_length.symm) (Finset.mem_singleton_self _)) (take_eq_of_earlier ops_single V (i := 427) (k := 434) (by decide) (lt_of_lt_of_eq (by decide : 427 < 668) ops_length.symm) (Finset.mem_singleton_self _))
theorem eq_main_c_179 (V : Valuation τ sig (Elt F)) :
    after (ops (F := F)) V main_c_179 = (constantI S_ 32 4096#32) :=
  nullary_eq ops_single V (lt_of_lt_of_eq (by decide : 435 < 668) ops_length.symm) main_c_179 (constantI S_ 32 4096#32) ⟨by decide, rfl⟩ rfl
theorem eq_main_v254 (V : Valuation τ sig (Elt F)) :
    after (ops (F := F)) V main_v254 = (broadcastInDim S4 ![] bcast_S_S4 : (⟨S_, .i32⟩ : BufTy).Contents (Elt F) → (⟨S4, .i32⟩ : BufTy).Contents (Elt F)) (after (ops (F := F)) V main_c_179) :=
  unary_eq ops_single V (lt_of_lt_of_eq (by decide : 436 < 668) ops_length.symm) main_c_179 main_v254 (broadcastInDim S4 ![] bcast_S_S4 : (⟨S_, .i32⟩ : BufTy).Contents (Elt F) → (⟨S4, .i32⟩ : BufTy).Contents (Elt F)) ⟨by decide, rfl⟩ ⟨by decide, rfl⟩ rfl (take_eq_of_earlier ops_single V (i := 435) (k := 436) (by decide) (lt_of_lt_of_eq (by decide : 435 < 668) ops_length.symm) (Finset.mem_singleton_self _))
theorem eq_main_v255 (V : Valuation τ sig (Elt F)) :
    after (ops (F := F)) V main_v255 = (addi : (⟨S4, .i32⟩ : BufTy).Contents (Elt F) → (⟨S4, .i32⟩ : BufTy).Contents (Elt F) → (⟨S4, .i32⟩ : BufTy).Contents (Elt F)) (after (ops (F := F)) V main_c_73) (after (ops (F := F)) V main_v254) :=
  binary_eq ops_single V (lt_of_lt_of_eq (by decide : 437 < 668) ops_length.symm) main_c_73 main_v254 main_v255 (addi : (⟨S4, .i32⟩ : BufTy).Contents (Elt F) → (⟨S4, .i32⟩ : BufTy).Contents (Elt F) → (⟨S4, .i32⟩ : BufTy).Contents (Elt F)) ⟨by decide, rfl⟩ ⟨by decide, rfl⟩ ⟨by decide, rfl⟩ rfl (take_eq_of_earlier ops_single V (i := 74) (k := 437) (by decide) (lt_of_lt_of_eq (by decide : 74 < 668) ops_length.symm) (Finset.mem_singleton_self _)) (take_eq_of_earlier ops_single V (i := 436) (k := 437) (by decide) (lt_of_lt_of_eq (by decide : 436 < 668) ops_length.symm) (Finset.mem_singleton_self _))
theorem eq_main_v256 (V : Valuation τ sig (Elt F)) :
    after (ops (F := F)) V main_v256 = (select : (⟨S4, .i1⟩ : BufTy).Contents (Elt F) → (⟨S4, .i32⟩ : BufTy).Contents (Elt F) → (⟨S4, .i32⟩ : BufTy).Contents (Elt F) → (⟨S4, .i32⟩ : BufTy).Contents (Elt F)) (after (ops (F := F)) V main_c_76) (after (ops (F := F)) V main_v255) (after (ops (F := F)) V main_c_73) :=
  ternary_eq ops_single V (lt_of_lt_of_eq (by decide : 438 < 668) ops_length.symm) main_c_76 main_v255 main_c_73 main_v256 (select : (⟨S4, .i1⟩ : BufTy).Contents (Elt F) → (⟨S4, .i32⟩ : BufTy).Contents (Elt F) → (⟨S4, .i32⟩ : BufTy).Contents (Elt F) → (⟨S4, .i32⟩ : BufTy).Contents (Elt F)) ⟨by decide, rfl⟩ ⟨by decide, rfl⟩ ⟨by decide, rfl⟩ ⟨by decide, rfl⟩ rfl (take_eq_of_earlier ops_single V (i := 77) (k := 438) (by decide) (lt_of_lt_of_eq (by decide : 77 < 668) ops_length.symm) (Finset.mem_singleton_self _)) (take_eq_of_earlier ops_single V (i := 437) (k := 438) (by decide) (lt_of_lt_of_eq (by decide : 437 < 668) ops_length.symm) (Finset.mem_singleton_self _)) (take_eq_of_earlier ops_single V (i := 74) (k := 438) (by decide) (lt_of_lt_of_eq (by decide : 74 < 668) ops_length.symm) (Finset.mem_singleton_self _))
theorem eq_main_v257 (V : Valuation τ sig (Elt F)) :
    after (ops (F := F)) V main_v257 = (broadcastInDim S4x1 ![0] bcast_S4_S4x1_0 : (⟨S4, .i32⟩ : BufTy).Contents (Elt F) → (⟨S4x1, .i32⟩ : BufTy).Contents (Elt F)) (after (ops (F := F)) V main_v256) :=
  unary_eq ops_single V (lt_of_lt_of_eq (by decide : 439 < 668) ops_length.symm) main_v256 main_v257 (broadcastInDim S4x1 ![0] bcast_S4_S4x1_0 : (⟨S4, .i32⟩ : BufTy).Contents (Elt F) → (⟨S4x1, .i32⟩ : BufTy).Contents (Elt F)) ⟨by decide, rfl⟩ ⟨by decide, rfl⟩ rfl (take_eq_of_earlier ops_single V (i := 438) (k := 439) (by decide) (lt_of_lt_of_eq (by decide : 438 < 668) ops_length.symm) (Finset.mem_singleton_self _))
theorem eq_main_v258 (V : Valuation τ sig (Elt F)) :
    after (ops (F := F)) V main_v258 = ((fun x i u => Host.scatter scatter_S8x64x4096x16_S4x1_S8x64x4x16_013_2_2_1 (fun _ b => b) x i u) : (⟨S8x64x4096x16, .f32⟩ : BufTy).Contents (Elt F) → (⟨S4x1, .i32⟩ : BufTy).Contents (Elt F) → (⟨S8x64x4x16, .f32⟩ : BufTy).Contents (Elt F) → (⟨S8x64x4096x16, .f32⟩ : BufTy).Contents (Elt F)) (after (ops (F := F)) V main_v252) (after (ops (F := F)) V main_v257) (after (ops (F := F)) V main_v253) :=
  ternary_eq ops_single V (lt_of_lt_of_eq (by decide : 440 < 668) ops_length.symm) main_v252 main_v257 main_v253 main_v258 ((fun x i u => Host.scatter scatter_S8x64x4096x16_S4x1_S8x64x4x16_013_2_2_1 (fun _ b => b) x i u) : (⟨S8x64x4096x16, .f32⟩ : BufTy).Contents (Elt F) → (⟨S4x1, .i32⟩ : BufTy).Contents (Elt F) → (⟨S8x64x4x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 433) (k := 440) (by decide) (lt_of_lt_of_eq (by decide : 433 < 668) ops_length.symm) (Finset.mem_singleton_self _)) (take_eq_of_earlier ops_single V (i := 439) (k := 440) (by decide) (lt_of_lt_of_eq (by decide : 439 < 668) ops_length.symm) (Finset.mem_singleton_self _)) (take_eq_of_earlier ops_single V (i := 434) (k := 440) (by decide) (lt_of_lt_of_eq (by decide : 434 < 668) ops_length.symm) (Finset.mem_singleton_self _))
theorem eq_main_c_180 (V : Valuation τ sig (Elt F)) :
    after (ops (F := F)) V main_c_180 = (constantI S_ 32 4096#32) :=
  nullary_eq ops_single V (lt_of_lt_of_eq (by decide : 441 < 668) ops_length.symm) main_c_180 (constantI S_ 32 4096#32) ⟨by decide, rfl⟩ rfl
theorem eq_main_v259 (V : Valuation τ sig (Elt F)) :
    after (ops (F := F)) V main_v259 = (broadcastInDim S8 ![] bcast_S_S8 : (⟨S_, .i32⟩ : BufTy).Contents (Elt F) → (⟨S8, .i32⟩ : BufTy).Contents (Elt F)) (after (ops (F := F)) V main_c_180) :=
  unary_eq ops_single V (lt_of_lt_of_eq (by decide : 442 < 668) ops_length.symm) main_c_180 main_v259 (broadcastInDim S8 ![] bcast_S_S8 : (⟨S_, .i32⟩ : BufTy).Contents (Elt F) → (⟨S8, .i32⟩ : BufTy).Contents (Elt F)) ⟨by decide, rfl⟩ ⟨by decide, rfl⟩ rfl (take_eq_of_earlier ops_single V (i := 441) (k := 442) (by decide) (lt_of_lt_of_eq (by decide : 441 < 668) ops_length.symm) (Finset.mem_singleton_self _))
theorem eq_main_v260 (V : Valuation τ sig (Elt F)) :
    after (ops (F := F)) V main_v260 = (addi : (⟨S8, .i32⟩ : BufTy).Contents (Elt F) → (⟨S8, .i32⟩ : BufTy).Contents (Elt F) → (⟨S8, .i32⟩ : BufTy).Contents (Elt F)) (after (ops (F := F)) V main_c_77) (after (ops (F := F)) V main_v259) :=
  binary_eq ops_single V (lt_of_lt_of_eq (by decide : 443 < 668) ops_length.symm) main_c_77 main_v259 main_v260 (addi : (⟨S8, .i32⟩ : BufTy).Contents (Elt F) → (⟨S8, .i32⟩ : BufTy).Contents (Elt F) → (⟨S8, .i32⟩ : BufTy).Contents (Elt F)) ⟨by decide, rfl⟩ ⟨by decide, rfl⟩ ⟨by decide, rfl⟩ rfl (take_eq_of_earlier ops_single V (i := 78) (k := 443) (by decide) (lt_of_lt_of_eq (by decide : 78 < 668) ops_length.symm) (Finset.mem_singleton_self _)) (take_eq_of_earlier ops_single V (i := 442) (k := 443) (by decide) (lt_of_lt_of_eq (by decide : 442 < 668) ops_length.symm) (Finset.mem_singleton_self _))
theorem eq_main_v261 (V : Valuation τ sig (Elt F)) :
    after (ops (F := F)) V main_v261 = (select : (⟨S8, .i1⟩ : BufTy).Contents (Elt F) → (⟨S8, .i32⟩ : BufTy).Contents (Elt F) → (⟨S8, .i32⟩ : BufTy).Contents (Elt F) → (⟨S8, .i32⟩ : BufTy).Contents (Elt F)) (after (ops (F := F)) V main_c_78) (after (ops (F := F)) V main_v260) (after (ops (F := F)) V main_c_77) :=
  ternary_eq ops_single V (lt_of_lt_of_eq (by decide : 444 < 668) ops_length.symm) main_c_78 main_v260 main_c_77 main_v261 (select : (⟨S8, .i1⟩ : BufTy).Contents (Elt F) → (⟨S8, .i32⟩ : BufTy).Contents (Elt F) → (⟨S8, .i32⟩ : BufTy).Contents (Elt F) → (⟨S8, .i32⟩ : BufTy).Contents (Elt F)) ⟨by decide, rfl⟩ ⟨by decide, rfl⟩ ⟨by decide, rfl⟩ ⟨by decide, rfl⟩ rfl (take_eq_of_earlier ops_single V (i := 79) (k := 444) (by decide) (lt_of_lt_of_eq (by decide : 79 < 668) ops_length.symm) (Finset.mem_singleton_self _)) (take_eq_of_earlier ops_single V (i := 443) (k := 444) (by decide) (lt_of_lt_of_eq (by decide : 443 < 668) ops_length.symm) (Finset.mem_singleton_self _)) (take_eq_of_earlier ops_single V (i := 78) (k := 444) (by decide) (lt_of_lt_of_eq (by decide : 78 < 668) ops_length.symm) (Finset.mem_singleton_self _))
theorem eq_main_v262 (V : Valuation τ sig (Elt F)) :
    after (ops (F := F)) V main_v262 = (broadcastInDim S8x1 ![0] bcast_S8_S8x1_0 : (⟨S8, .i32⟩ : BufTy).Contents (Elt F) → (⟨S8x1, .i32⟩ : BufTy).Contents (Elt F)) (after (ops (F := F)) V main_v261) :=
  unary_eq ops_single V (lt_of_lt_of_eq (by decide : 445 < 668) ops_length.symm) main_v261 main_v262 (broadcastInDim S8x1 ![0] bcast_S8_S8x1_0 : (⟨S8, .i32⟩ : BufTy).Contents (Elt F) → (⟨S8x1, .i32⟩ : BufTy).Contents (Elt F)) ⟨by decide, rfl⟩ ⟨by decide, rfl⟩ rfl (take_eq_of_earlier ops_single V (i := 444) (k := 445) (by decide) (lt_of_lt_of_eq (by decide : 444 < 668) ops_length.symm) (Finset.mem_singleton_self _))
theorem eq_main_v263 (V : Valuation τ sig (Elt F)) :
    after (ops (F := F)) V main_v263 = ((fun x i => Host.gather gather_S8x64x4096x16_S8x1_S8x64x8x16_013_2_n_n_2_1_864116 x i) : (⟨S8x64x4096x16, .f32⟩ : BufTy).Contents (Elt F) → (⟨S8x1, .i32⟩ : BufTy).Contents (Elt F) → (⟨S8x64x8x16, .f32⟩ : BufTy).Contents (Elt F)) (after (ops (F := F)) V main_v258) (after (ops (F := F)) V main_v262) :=
  binary_eq ops_single V (lt_of_lt_of_eq (by decide : 446 < 668) ops_length.symm) main_v258 main_v262 main_v263 ((fun x i => Host.gather gather_S8x64x4096x16_S8x1_S8x64x8x16_013_2_n_n_2_1_864116 x i) : (⟨S8x64x4096x16, .f32⟩ : BufTy).Contents (Elt F) → (⟨S8x1, .i32⟩ : BufTy).Contents (Elt F) → (⟨S8x64x8x16, .f32⟩ : BufTy).Contents (Elt F)) ⟨by decide, rfl⟩ ⟨by decide, rfl⟩ ⟨by decide, rfl⟩ rfl (take_eq_of_earlier ops_single V (i := 440) (k := 446) (by decide) (lt_of_lt_of_eq (by decide : 440 < 668) ops_length.symm) (Finset.mem_singleton_self _)) (take_eq_of_earlier ops_single V (i := 445) (k := 446) (by decide) (lt_of_lt_of_eq (by decide : 445 < 668) ops_length.symm) (Finset.mem_singleton_self _))
theorem eq_main_c_181 (V : Valuation τ sig (Elt F)) :
    after (ops (F := F)) V main_c_181 = (constantI S_ 32 4096#32) :=
  nullary_eq ops_single V (lt_of_lt_of_eq (by decide : 447 < 668) ops_length.symm) main_c_181 (constantI S_ 32 4096#32) ⟨by decide, rfl⟩ rfl
theorem eq_main_v264 (V : Valuation τ sig (Elt F)) :
    after (ops (F := F)) V main_v264 = (broadcastInDim S8 ![] bcast_S_S8 : (⟨S_, .i32⟩ : BufTy).Contents (Elt F) → (⟨S8, .i32⟩ : BufTy).Contents (Elt F)) (after (ops (F := F)) V main_c_181) :=
  unary_eq ops_single V (lt_of_lt_of_eq (by decide : 448 < 668) ops_length.symm) main_c_181 main_v264 (broadcastInDim S8 ![] bcast_S_S8 : (⟨S_, .i32⟩ : BufTy).Contents (Elt F) → (⟨S8, .i32⟩ : BufTy).Contents (Elt F)) ⟨by decide, rfl⟩ ⟨by decide, rfl⟩ rfl (take_eq_of_earlier ops_single V (i := 447) (k := 448) (by decide) (lt_of_lt_of_eq (by decide : 447 < 668) ops_length.symm) (Finset.mem_singleton_self _))
theorem eq_main_v265 (V : Valuation τ sig (Elt F)) :
    after (ops (F := F)) V main_v265 = (addi : (⟨S8, .i32⟩ : BufTy).Contents (Elt F) → (⟨S8, .i32⟩ : BufTy).Contents (Elt F) → (⟨S8, .i32⟩ : BufTy).Contents (Elt F)) (after (ops (F := F)) V main_c_79) (after (ops (F := F)) V main_v264) :=
  binary_eq ops_single V (lt_of_lt_of_eq (by decide : 449 < 668) ops_length.symm) main_c_79 main_v264 main_v265 (addi : (⟨S8, .i32⟩ : BufTy).Contents (Elt F) → (⟨S8, .i32⟩ : BufTy).Contents (Elt F) → (⟨S8, .i32⟩ : BufTy).Contents (Elt F)) ⟨by decide, rfl⟩ ⟨by decide, rfl⟩ ⟨by decide, rfl⟩ rfl (take_eq_of_earlier ops_single V (i := 80) (k := 449) (by decide) (lt_of_lt_of_eq (by decide : 80 < 668) ops_length.symm) (Finset.mem_singleton_self _)) (take_eq_of_earlier ops_single V (i := 448) (k := 449) (by decide) (lt_of_lt_of_eq (by decide : 448 < 668) ops_length.symm) (Finset.mem_singleton_self _))
theorem eq_main_v266 (V : Valuation τ sig (Elt F)) :
    after (ops (F := F)) V main_v266 = (select : (⟨S8, .i1⟩ : BufTy).Contents (Elt F) → (⟨S8, .i32⟩ : BufTy).Contents (Elt F) → (⟨S8, .i32⟩ : BufTy).Contents (Elt F) → (⟨S8, .i32⟩ : BufTy).Contents (Elt F)) (after (ops (F := F)) V main_c_80) (after (ops (F := F)) V main_v265) (after (ops (F := F)) V main_c_79) :=
  ternary_eq ops_single V (lt_of_lt_of_eq (by decide : 450 < 668) ops_length.symm) main_c_80 main_v265 main_c_79 main_v266 (select : (⟨S8, .i1⟩ : BufTy).Contents (Elt F) → (⟨S8, .i32⟩ : BufTy).Contents (Elt F) → (⟨S8, .i32⟩ : BufTy).Contents (Elt F) → (⟨S8, .i32⟩ : BufTy).Contents (Elt F)) ⟨by decide, rfl⟩ ⟨by decide, rfl⟩ ⟨by decide, rfl⟩ ⟨by decide, rfl⟩ rfl (take_eq_of_earlier ops_single V (i := 81) (k := 450) (by decide) (lt_of_lt_of_eq (by decide : 81 < 668) ops_length.symm) (Finset.mem_singleton_self _)) (take_eq_of_earlier ops_single V (i := 449) (k := 450) (by decide) (lt_of_lt_of_eq (by decide : 449 < 668) ops_length.symm) (Finset.mem_singleton_self _)) (take_eq_of_earlier ops_single V (i := 80) (k := 450) (by decide) (lt_of_lt_of_eq (by decide : 80 < 668) ops_length.symm) (Finset.mem_singleton_self _))
theorem eq_main_v267 (V : Valuation τ sig (Elt F)) :
    after (ops (F := F)) V main_v267 = (broadcastInDim S8x1 ![0] bcast_S8_S8x1_0 : (⟨S8, .i32⟩ : BufTy).Contents (Elt F) → (⟨S8x1, .i32⟩ : BufTy).Contents (Elt F)) (after (ops (F := F)) V main_v266) :=
  unary_eq ops_single V (lt_of_lt_of_eq (by decide : 451 < 668) ops_length.symm) main_v266 main_v267 (broadcastInDim S8x1 ![0] bcast_S8_S8x1_0 : (⟨S8, .i32⟩ : BufTy).Contents (Elt F) → (⟨S8x1, .i32⟩ : BufTy).Contents (Elt F)) ⟨by decide, rfl⟩ ⟨by decide, rfl⟩ rfl (take_eq_of_earlier ops_single V (i := 450) (k := 451) (by decide) (lt_of_lt_of_eq (by decide : 450 < 668) ops_length.symm) (Finset.mem_singleton_self _))
theorem eq_main_v268 (V : Valuation τ sig (Elt F)) :
    after (ops (F := F)) V main_v268 = ((fun x i => Host.gather gather_S8x64x4096x16_S8x1_S8x64x8x16_013_2_n_n_2_1_864116 x i) : (⟨S8x64x4096x16, .f32⟩ : BufTy).Contents (Elt F) → (⟨S8x1, .i32⟩ : BufTy).Contents (Elt F) → (⟨S8x64x8x16, .f32⟩ : BufTy).Contents (Elt F)) (after (ops (F := F)) V main_v258) (after (ops (F := F)) V main_v267) :=
  binary_eq ops_single V (lt_of_lt_of_eq (by decide : 452 < 668) ops_length.symm) main_v258 main_v267 main_v268 ((fun x i => Host.gather gather_S8x64x4096x16_S8x1_S8x64x8x16_013_2_n_n_2_1_864116 x i) : (⟨S8x64x4096x16, .f32⟩ : BufTy).Contents (Elt F) → (⟨S8x1, .i32⟩ : BufTy).Contents (Elt F) → (⟨S8x64x8x16, .f32⟩ : BufTy).Contents (Elt F)) ⟨by decide, rfl⟩ ⟨by decide, rfl⟩ ⟨by decide, rfl⟩ rfl (take_eq_of_earlier ops_single V (i := 440) (k := 452) (by decide) (lt_of_lt_of_eq (by decide : 440 < 668) ops_length.symm) (Finset.mem_singleton_self _)) (take_eq_of_earlier ops_single V (i := 451) (k := 452) (by decide) (lt_of_lt_of_eq (by decide : 451 < 668) ops_length.symm) (Finset.mem_singleton_self _))
theorem eq_main_c_182 (V : Valuation τ sig (Elt F)) :
    after (ops (F := F)) V main_c_182 = (constantI S_ 32 4096#32) :=
  nullary_eq ops_single V (lt_of_lt_of_eq (by decide : 453 < 668) ops_length.symm) main_c_182 (constantI S_ 32 4096#32) ⟨by decide, rfl⟩ rfl
theorem eq_main_v269 (V : Valuation τ sig (Elt F)) :
    after (ops (F := F)) V main_v269 = (broadcastInDim S8 ![] bcast_S_S8 : (⟨S_, .i32⟩ : BufTy).Contents (Elt F) → (⟨S8, .i32⟩ : BufTy).Contents (Elt F)) (after (ops (F := F)) V main_c_182) :=
  unary_eq ops_single V (lt_of_lt_of_eq (by decide : 454 < 668) ops_length.symm) main_c_182 main_v269 (broadcastInDim S8 ![] bcast_S_S8 : (⟨S_, .i32⟩ : BufTy).Contents (Elt F) → (⟨S8, .i32⟩ : BufTy).Contents (Elt F)) ⟨by decide, rfl⟩ ⟨by decide, rfl⟩ rfl (take_eq_of_earlier ops_single V (i := 453) (k := 454) (by decide) (lt_of_lt_of_eq (by decide : 453 < 668) ops_length.symm) (Finset.mem_singleton_self _))
theorem eq_main_v270 (V : Valuation τ sig (Elt F)) :
    after (ops (F := F)) V main_v270 = (addi : (⟨S8, .i32⟩ : BufTy).Contents (Elt F) → (⟨S8, .i32⟩ : BufTy).Contents (Elt F) → (⟨S8, .i32⟩ : BufTy).Contents (Elt F)) (after (ops (F := F)) V main_c_77) (after (ops (F := F)) V main_v269) :=
  binary_eq ops_single V (lt_of_lt_of_eq (by decide : 455 < 668) ops_length.symm) main_c_77 main_v269 main_v270 (addi : (⟨S8, .i32⟩ : BufTy).Contents (Elt F) → (⟨S8, .i32⟩ : BufTy).Contents (Elt F) → (⟨S8, .i32⟩ : BufTy).Contents (Elt F)) ⟨by decide, rfl⟩ ⟨by decide, rfl⟩ ⟨by decide, rfl⟩ rfl (take_eq_of_earlier ops_single V (i := 78) (k := 455) (by decide) (lt_of_lt_of_eq (by decide : 78 < 668) ops_length.symm) (Finset.mem_singleton_self _)) (take_eq_of_earlier ops_single V (i := 454) (k := 455) (by decide) (lt_of_lt_of_eq (by decide : 454 < 668) ops_length.symm) (Finset.mem_singleton_self _))
theorem eq_main_v271 (V : Valuation τ sig (Elt F)) :
    after (ops (F := F)) V main_v271 = (select : (⟨S8, .i1⟩ : BufTy).Contents (Elt F) → (⟨S8, .i32⟩ : BufTy).Contents (Elt F) → (⟨S8, .i32⟩ : BufTy).Contents (Elt F) → (⟨S8, .i32⟩ : BufTy).Contents (Elt F)) (after (ops (F := F)) V main_c_81) (after (ops (F := F)) V main_v270) (after (ops (F := F)) V main_c_77) :=
  ternary_eq ops_single V (lt_of_lt_of_eq (by decide : 456 < 668) ops_length.symm) main_c_81 main_v270 main_c_77 main_v271 (select : (⟨S8, .i1⟩ : BufTy).Contents (Elt F) → (⟨S8, .i32⟩ : BufTy).Contents (Elt F) → (⟨S8, .i32⟩ : BufTy).Contents (Elt F) → (⟨S8, .i32⟩ : BufTy).Contents (Elt F)) ⟨by decide, rfl⟩ ⟨by decide, rfl⟩ ⟨by decide, rfl⟩ ⟨by decide, rfl⟩ rfl (take_eq_of_earlier ops_single V (i := 82) (k := 456) (by decide) (lt_of_lt_of_eq (by decide : 82 < 668) ops_length.symm) (Finset.mem_singleton_self _)) (take_eq_of_earlier ops_single V (i := 455) (k := 456) (by decide) (lt_of_lt_of_eq (by decide : 455 < 668) ops_length.symm) (Finset.mem_singleton_self _)) (take_eq_of_earlier ops_single V (i := 78) (k := 456) (by decide) (lt_of_lt_of_eq (by decide : 78 < 668) ops_length.symm) (Finset.mem_singleton_self _))
theorem eq_main_v272 (V : Valuation τ sig (Elt F)) :
    after (ops (F := F)) V main_v272 = (broadcastInDim S8x1 ![0] bcast_S8_S8x1_0 : (⟨S8, .i32⟩ : BufTy).Contents (Elt F) → (⟨S8x1, .i32⟩ : BufTy).Contents (Elt F)) (after (ops (F := F)) V main_v271) :=
  unary_eq ops_single V (lt_of_lt_of_eq (by decide : 457 < 668) ops_length.symm) main_v271 main_v272 (broadcastInDim S8x1 ![0] bcast_S8_S8x1_0 : (⟨S8, .i32⟩ : BufTy).Contents (Elt F) → (⟨S8x1, .i32⟩ : BufTy).Contents (Elt F)) ⟨by decide, rfl⟩ ⟨by decide, rfl⟩ rfl (take_eq_of_earlier ops_single V (i := 456) (k := 457) (by decide) (lt_of_lt_of_eq (by decide : 456 < 668) ops_length.symm) (Finset.mem_singleton_self _))
theorem eq_main_v273 (V : Valuation τ sig (Elt F)) :
    after (ops (F := F)) V main_v273 = ((fun x i u => Host.scatter scatter_S8x64x4096x16_S8x1_S8x64x8x16_013_2_2_1 (fun _ b => b) x i u) : (⟨S8x64x4096x16, .f32⟩ : BufTy).Contents (Elt F) → (⟨S8x1, .i32⟩ : BufTy).Contents (Elt F) → (⟨S8x64x8x16, .f32⟩ : BufTy).Contents (Elt F) → (⟨S8x64x4096x16, .f32⟩ : BufTy).Contents (Elt F)) (after (ops (F := F)) V main_v258) (after (ops (F := F)) V main_v272) (after (ops (F := F)) V main_v268) :=
  ternary_eq ops_single V (lt_of_lt_of_eq (by decide : 458 < 668) ops_length.symm) main_v258 main_v272 main_v268 main_v273 ((fun x i u => Host.scatter scatter_S8x64x4096x16_S8x1_S8x64x8x16_013_2_2_1 (fun _ b => b) x i u) : (⟨S8x64x4096x16, .f32⟩ : BufTy).Contents (Elt F) → (⟨S8x1, .i32⟩ : BufTy).Contents (Elt F) → (⟨S8x64x8x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 440) (k := 458) (by decide) (lt_of_lt_of_eq (by decide : 440 < 668) ops_length.symm) (Finset.mem_singleton_self _)) (take_eq_of_earlier ops_single V (i := 457) (k := 458) (by decide) (lt_of_lt_of_eq (by decide : 457 < 668) ops_length.symm) (Finset.mem_singleton_self _)) (take_eq_of_earlier ops_single V (i := 452) (k := 458) (by decide) (lt_of_lt_of_eq (by decide : 452 < 668) ops_length.symm) (Finset.mem_singleton_self _))
theorem eq_main_v274 (V : Valuation τ sig (Elt F)) :
    after (ops (F := F)) V main_v274 = (addf : (⟨S8x64x8x16, .f32⟩ : BufTy).Contents (Elt F) → (⟨S8x64x8x16, .f32⟩ : BufTy).Contents (Elt F) → (⟨S8x64x8x16, .f32⟩ : BufTy).Contents (Elt F)) (after (ops (F := F)) V main_v263) (after (ops (F := F)) V main_v268) :=
  binary_eq ops_single V (lt_of_lt_of_eq (by decide : 459 < 668) ops_length.symm) main_v263 main_v268 main_v274 (addf : (⟨S8x64x8x16, .f32⟩ : BufTy).Contents (Elt F) → (⟨S8x64x8x16, .f32⟩ : BufTy).Contents (Elt F) → (⟨S8x64x8x16, .f32⟩ : BufTy).Contents (Elt F)) ⟨by decide, rfl⟩ ⟨by decide, rfl⟩ ⟨by decide, rfl⟩ rfl (take_eq_of_earlier ops_single V (i := 446) (k := 459) (by decide) (lt_of_lt_of_eq (by decide : 446 < 668) ops_length.symm) (Finset.mem_singleton_self _)) (take_eq_of_earlier ops_single V (i := 452) (k := 459) (by decide) (lt_of_lt_of_eq (by decide : 452 < 668) ops_length.symm) (Finset.mem_singleton_self _))
theorem eq_main_c_183 (V : Valuation τ sig (Elt F)) :
    after (ops (F := F)) V main_c_183 = (constantI S_ 32 4096#32) :=
  nullary_eq ops_single V (lt_of_lt_of_eq (by decide : 460 < 668) ops_length.symm) main_c_183 (constantI S_ 32 4096#32) ⟨by decide, rfl⟩ rfl
theorem eq_main_v275 (V : Valuation τ sig (Elt F)) :
    after (ops (F := F)) V main_v275 = (broadcastInDim S8 ![] bcast_S_S8 : (⟨S_, .i32⟩ : BufTy).Contents (Elt F) → (⟨S8, .i32⟩ : BufTy).Contents (Elt F)) (after (ops (F := F)) V main_c_183) :=
  unary_eq ops_single V (lt_of_lt_of_eq (by decide : 461 < 668) ops_length.symm) main_c_183 main_v275 (broadcastInDim S8 ![] bcast_S_S8 : (⟨S_, .i32⟩ : BufTy).Contents (Elt F) → (⟨S8, .i32⟩ : BufTy).Contents (Elt F)) ⟨by decide, rfl⟩ ⟨by decide, rfl⟩ rfl (take_eq_of_earlier ops_single V (i := 460) (k := 461) (by decide) (lt_of_lt_of_eq (by decide : 460 < 668) ops_length.symm) (Finset.mem_singleton_self _))
theorem eq_main_v276 (V : Valuation τ sig (Elt F)) :
    after (ops (F := F)) V main_v276 = (addi : (⟨S8, .i32⟩ : BufTy).Contents (Elt F) → (⟨S8, .i32⟩ : BufTy).Contents (Elt F) → (⟨S8, .i32⟩ : BufTy).Contents (Elt F)) (after (ops (F := F)) V main_c_79) (after (ops (F := F)) V main_v275) :=
  binary_eq ops_single V (lt_of_lt_of_eq (by decide : 462 < 668) ops_length.symm) main_c_79 main_v275 main_v276 (addi : (⟨S8, .i32⟩ : BufTy).Contents (Elt F) → (⟨S8, .i32⟩ : BufTy).Contents (Elt F) → (⟨S8, .i32⟩ : BufTy).Contents (Elt F)) ⟨by decide, rfl⟩ ⟨by decide, rfl⟩ ⟨by decide, rfl⟩ rfl (take_eq_of_earlier ops_single V (i := 80) (k := 462) (by decide) (lt_of_lt_of_eq (by decide : 80 < 668) ops_length.symm) (Finset.mem_singleton_self _)) (take_eq_of_earlier ops_single V (i := 461) (k := 462) (by decide) (lt_of_lt_of_eq (by decide : 461 < 668) ops_length.symm) (Finset.mem_singleton_self _))
theorem eq_main_v277 (V : Valuation τ sig (Elt F)) :
    after (ops (F := F)) V main_v277 = (select : (⟨S8, .i1⟩ : BufTy).Contents (Elt F) → (⟨S8, .i32⟩ : BufTy).Contents (Elt F) → (⟨S8, .i32⟩ : BufTy).Contents (Elt F) → (⟨S8, .i32⟩ : BufTy).Contents (Elt F)) (after (ops (F := F)) V main_c_82) (after (ops (F := F)) V main_v276) (after (ops (F := F)) V main_c_79) :=
  ternary_eq ops_single V (lt_of_lt_of_eq (by decide : 463 < 668) ops_length.symm) main_c_82 main_v276 main_c_79 main_v277 (select : (⟨S8, .i1⟩ : BufTy).Contents (Elt F) → (⟨S8, .i32⟩ : BufTy).Contents (Elt F) → (⟨S8, .i32⟩ : BufTy).Contents (Elt F) → (⟨S8, .i32⟩ : BufTy).Contents (Elt F)) ⟨by decide, rfl⟩ ⟨by decide, rfl⟩ ⟨by decide, rfl⟩ ⟨by decide, rfl⟩ rfl (take_eq_of_earlier ops_single V (i := 83) (k := 463) (by decide) (lt_of_lt_of_eq (by decide : 83 < 668) ops_length.symm) (Finset.mem_singleton_self _)) (take_eq_of_earlier ops_single V (i := 462) (k := 463) (by decide) (lt_of_lt_of_eq (by decide : 462 < 668) ops_length.symm) (Finset.mem_singleton_self _)) (take_eq_of_earlier ops_single V (i := 80) (k := 463) (by decide) (lt_of_lt_of_eq (by decide : 80 < 668) ops_length.symm) (Finset.mem_singleton_self _))
theorem eq_main_v278 (V : Valuation τ sig (Elt F)) :
    after (ops (F := F)) V main_v278 = (broadcastInDim S8x1 ![0] bcast_S8_S8x1_0 : (⟨S8, .i32⟩ : BufTy).Contents (Elt F) → (⟨S8x1, .i32⟩ : BufTy).Contents (Elt F)) (after (ops (F := F)) V main_v277) :=
  unary_eq ops_single V (lt_of_lt_of_eq (by decide : 464 < 668) ops_length.symm) main_v277 main_v278 (broadcastInDim S8x1 ![0] bcast_S8_S8x1_0 : (⟨S8, .i32⟩ : BufTy).Contents (Elt F) → (⟨S8x1, .i32⟩ : BufTy).Contents (Elt F)) ⟨by decide, rfl⟩ ⟨by decide, rfl⟩ rfl (take_eq_of_earlier ops_single V (i := 463) (k := 464) (by decide) (lt_of_lt_of_eq (by decide : 463 < 668) ops_length.symm) (Finset.mem_singleton_self _))
theorem eq_main_v279 (V : Valuation τ sig (Elt F)) :
    after (ops (F := F)) V main_v279 = ((fun x i u => Host.scatter scatter_S8x64x4096x16_S8x1_S8x64x8x16_013_2_2_1 (fun _ b => b) x i u) : (⟨S8x64x4096x16, .f32⟩ : BufTy).Contents (Elt F) → (⟨S8x1, .i32⟩ : BufTy).Contents (Elt F) → (⟨S8x64x8x16, .f32⟩ : BufTy).Contents (Elt F) → (⟨S8x64x4096x16, .f32⟩ : BufTy).Contents (Elt F)) (after (ops (F := F)) V main_v273) (after (ops (F := F)) V main_v278) (after (ops (F := F)) V main_v274) :=
  ternary_eq ops_single V (lt_of_lt_of_eq (by decide : 465 < 668) ops_length.symm) main_v273 main_v278 main_v274 main_v279 ((fun x i u => Host.scatter scatter_S8x64x4096x16_S8x1_S8x64x8x16_013_2_2_1 (fun _ b => b) x i u) : (⟨S8x64x4096x16, .f32⟩ : BufTy).Contents (Elt F) → (⟨S8x1, .i32⟩ : BufTy).Contents (Elt F) → (⟨S8x64x8x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 458) (k := 465) (by decide) (lt_of_lt_of_eq (by decide : 458 < 668) ops_length.symm) (Finset.mem_singleton_self _)) (take_eq_of_earlier ops_single V (i := 464) (k := 465) (by decide) (lt_of_lt_of_eq (by decide : 464 < 668) ops_length.symm) (Finset.mem_singleton_self _)) (take_eq_of_earlier ops_single V (i := 459) (k := 465) (by decide) (lt_of_lt_of_eq (by decide : 459 < 668) ops_length.symm) (Finset.mem_singleton_self _))
theorem eq_main_c_184 (V : Valuation τ sig (Elt F)) :
    after (ops (F := F)) V main_c_184 = (constantI S_ 32 4096#32) :=
  nullary_eq ops_single V (lt_of_lt_of_eq (by decide : 466 < 668) ops_length.symm) main_c_184 (constantI S_ 32 4096#32) ⟨by decide, rfl⟩ rfl
theorem eq_main_v280 (V : Valuation τ sig (Elt F)) :
    after (ops (F := F)) V main_v280 = (broadcastInDim S16 ![] bcast_S_S16 : (⟨S_, .i32⟩ : BufTy).Contents (Elt F) → (⟨S16, .i32⟩ : BufTy).Contents (Elt F)) (after (ops (F := F)) V main_c_184) :=
  unary_eq ops_single V (lt_of_lt_of_eq (by decide : 467 < 668) ops_length.symm) main_c_184 main_v280 (broadcastInDim S16 ![] bcast_S_S16 : (⟨S_, .i32⟩ : BufTy).Contents (Elt F) → (⟨S16, .i32⟩ : BufTy).Contents (Elt F)) ⟨by decide, rfl⟩ ⟨by decide, rfl⟩ rfl (take_eq_of_earlier ops_single V (i := 466) (k := 467) (by decide) (lt_of_lt_of_eq (by decide : 466 < 668) ops_length.symm) (Finset.mem_singleton_self _))
theorem eq_main_v281 (V : Valuation τ sig (Elt F)) :
    after (ops (F := F)) V main_v281 = (addi : (⟨S16, .i32⟩ : BufTy).Contents (Elt F) → (⟨S16, .i32⟩ : BufTy).Contents (Elt F) → (⟨S16, .i32⟩ : BufTy).Contents (Elt F)) (after (ops (F := F)) V main_c_83) (after (ops (F := F)) V main_v280) :=
  binary_eq ops_single V (lt_of_lt_of_eq (by decide : 468 < 668) ops_length.symm) main_c_83 main_v280 main_v281 (addi : (⟨S16, .i32⟩ : BufTy).Contents (Elt F) → (⟨S16, .i32⟩ : BufTy).Contents (Elt F) → (⟨S16, .i32⟩ : BufTy).Contents (Elt F)) ⟨by decide, rfl⟩ ⟨by decide, rfl⟩ ⟨by decide, rfl⟩ rfl (take_eq_of_earlier ops_single V (i := 84) (k := 468) (by decide) (lt_of_lt_of_eq (by decide : 84 < 668) ops_length.symm) (Finset.mem_singleton_self _)) (take_eq_of_earlier ops_single V (i := 467) (k := 468) (by decide) (lt_of_lt_of_eq (by decide : 467 < 668) ops_length.symm) (Finset.mem_singleton_self _))
theorem eq_main_v282 (V : Valuation τ sig (Elt F)) :
    after (ops (F := F)) V main_v282 = (select : (⟨S16, .i1⟩ : BufTy).Contents (Elt F) → (⟨S16, .i32⟩ : BufTy).Contents (Elt F) → (⟨S16, .i32⟩ : BufTy).Contents (Elt F) → (⟨S16, .i32⟩ : BufTy).Contents (Elt F)) (after (ops (F := F)) V main_c_84) (after (ops (F := F)) V main_v281) (after (ops (F := F)) V main_c_83) :=
  ternary_eq ops_single V (lt_of_lt_of_eq (by decide : 469 < 668) ops_length.symm) main_c_84 main_v281 main_c_83 main_v282 (select : (⟨S16, .i1⟩ : BufTy).Contents (Elt F) → (⟨S16, .i32⟩ : BufTy).Contents (Elt F) → (⟨S16, .i32⟩ : BufTy).Contents (Elt F) → (⟨S16, .i32⟩ : BufTy).Contents (Elt F)) ⟨by decide, rfl⟩ ⟨by decide, rfl⟩ ⟨by decide, rfl⟩ ⟨by decide, rfl⟩ rfl (take_eq_of_earlier ops_single V (i := 85) (k := 469) (by decide) (lt_of_lt_of_eq (by decide : 85 < 668) ops_length.symm) (Finset.mem_singleton_self _)) (take_eq_of_earlier ops_single V (i := 468) (k := 469) (by decide) (lt_of_lt_of_eq (by decide : 468 < 668) ops_length.symm) (Finset.mem_singleton_self _)) (take_eq_of_earlier ops_single V (i := 84) (k := 469) (by decide) (lt_of_lt_of_eq (by decide : 84 < 668) ops_length.symm) (Finset.mem_singleton_self _))
theorem eq_main_v283 (V : Valuation τ sig (Elt F)) :
    after (ops (F := F)) V main_v283 = (broadcastInDim S16x1 ![0] bcast_S16_S16x1_0 : (⟨S16, .i32⟩ : BufTy).Contents (Elt F) → (⟨S16x1, .i32⟩ : BufTy).Contents (Elt F)) (after (ops (F := F)) V main_v282) :=
  unary_eq ops_single V (lt_of_lt_of_eq (by decide : 470 < 668) ops_length.symm) main_v282 main_v283 (broadcastInDim S16x1 ![0] bcast_S16_S16x1_0 : (⟨S16, .i32⟩ : BufTy).Contents (Elt F) → (⟨S16x1, .i32⟩ : BufTy).Contents (Elt F)) ⟨by decide, rfl⟩ ⟨by decide, rfl⟩ rfl (take_eq_of_earlier ops_single V (i := 469) (k := 470) (by decide) (lt_of_lt_of_eq (by decide : 469 < 668) ops_length.symm) (Finset.mem_singleton_self _))
theorem eq_main_v284 (V : Valuation τ sig (Elt F)) :
    after (ops (F := F)) V main_v284 = ((fun x i => Host.gather gather_S8x64x4096x16_S16x1_S8x64x16x16_013_2_n_n_2_1_864116 x i) : (⟨S8x64x4096x16, .f32⟩ : BufTy).Contents (Elt F) → (⟨S16x1, .i32⟩ : BufTy).Contents (Elt F) → (⟨S8x64x16x16, .f32⟩ : BufTy).Contents (Elt F)) (after (ops (F := F)) V main_v279) (after (ops (F := F)) V main_v283) :=
  binary_eq ops_single V (lt_of_lt_of_eq (by decide : 471 < 668) ops_length.symm) main_v279 main_v283 main_v284 ((fun x i => Host.gather gather_S8x64x4096x16_S16x1_S8x64x16x16_013_2_n_n_2_1_864116 x i) : (⟨S8x64x4096x16, .f32⟩ : BufTy).Contents (Elt F) → (⟨S16x1, .i32⟩ : BufTy).Contents (Elt F) → (⟨S8x64x16x16, .f32⟩ : BufTy).Contents (Elt F)) ⟨by decide, rfl⟩ ⟨by decide, rfl⟩ ⟨by decide, rfl⟩ rfl (take_eq_of_earlier ops_single V (i := 465) (k := 471) (by decide) (lt_of_lt_of_eq (by decide : 465 < 668) ops_length.symm) (Finset.mem_singleton_self _)) (take_eq_of_earlier ops_single V (i := 470) (k := 471) (by decide) (lt_of_lt_of_eq (by decide : 470 < 668) ops_length.symm) (Finset.mem_singleton_self _))
theorem eq_main_c_185 (V : Valuation τ sig (Elt F)) :
    after (ops (F := F)) V main_c_185 = (constantI S_ 32 4096#32) :=
  nullary_eq ops_single V (lt_of_lt_of_eq (by decide : 472 < 668) ops_length.symm) main_c_185 (constantI S_ 32 4096#32) ⟨by decide, rfl⟩ rfl
theorem eq_main_v285 (V : Valuation τ sig (Elt F)) :
    after (ops (F := F)) V main_v285 = (broadcastInDim S16 ![] bcast_S_S16 : (⟨S_, .i32⟩ : BufTy).Contents (Elt F) → (⟨S16, .i32⟩ : BufTy).Contents (Elt F)) (after (ops (F := F)) V main_c_185) :=
  unary_eq ops_single V (lt_of_lt_of_eq (by decide : 473 < 668) ops_length.symm) main_c_185 main_v285 (broadcastInDim S16 ![] bcast_S_S16 : (⟨S_, .i32⟩ : BufTy).Contents (Elt F) → (⟨S16, .i32⟩ : BufTy).Contents (Elt F)) ⟨by decide, rfl⟩ ⟨by decide, rfl⟩ rfl (take_eq_of_earlier ops_single V (i := 472) (k := 473) (by decide) (lt_of_lt_of_eq (by decide : 472 < 668) ops_length.symm) (Finset.mem_singleton_self _))
theorem eq_main_v286 (V : Valuation τ sig (Elt F)) :
    after (ops (F := F)) V main_v286 = (addi : (⟨S16, .i32⟩ : BufTy).Contents (Elt F) → (⟨S16, .i32⟩ : BufTy).Contents (Elt F) → (⟨S16, .i32⟩ : BufTy).Contents (Elt F)) (after (ops (F := F)) V main_c_85) (after (ops (F := F)) V main_v285) :=
  binary_eq ops_single V (lt_of_lt_of_eq (by decide : 474 < 668) ops_length.symm) main_c_85 main_v285 main_v286 (addi : (⟨S16, .i32⟩ : BufTy).Contents (Elt F) → (⟨S16, .i32⟩ : BufTy).Contents (Elt F) → (⟨S16, .i32⟩ : BufTy).Contents (Elt F)) ⟨by decide, rfl⟩ ⟨by decide, rfl⟩ ⟨by decide, rfl⟩ rfl (take_eq_of_earlier ops_single V (i := 86) (k := 474) (by decide) (lt_of_lt_of_eq (by decide : 86 < 668) ops_length.symm) (Finset.mem_singleton_self _)) (take_eq_of_earlier ops_single V (i := 473) (k := 474) (by decide) (lt_of_lt_of_eq (by decide : 473 < 668) ops_length.symm) (Finset.mem_singleton_self _))
theorem eq_main_v287 (V : Valuation τ sig (Elt F)) :
    after (ops (F := F)) V main_v287 = (select : (⟨S16, .i1⟩ : BufTy).Contents (Elt F) → (⟨S16, .i32⟩ : BufTy).Contents (Elt F) → (⟨S16, .i32⟩ : BufTy).Contents (Elt F) → (⟨S16, .i32⟩ : BufTy).Contents (Elt F)) (after (ops (F := F)) V main_c_86) (after (ops (F := F)) V main_v286) (after (ops (F := F)) V main_c_85) :=
  ternary_eq ops_single V (lt_of_lt_of_eq (by decide : 475 < 668) ops_length.symm) main_c_86 main_v286 main_c_85 main_v287 (select : (⟨S16, .i1⟩ : BufTy).Contents (Elt F) → (⟨S16, .i32⟩ : BufTy).Contents (Elt F) → (⟨S16, .i32⟩ : BufTy).Contents (Elt F) → (⟨S16, .i32⟩ : BufTy).Contents (Elt F)) ⟨by decide, rfl⟩ ⟨by decide, rfl⟩ ⟨by decide, rfl⟩ ⟨by decide, rfl⟩ rfl (take_eq_of_earlier ops_single V (i := 87) (k := 475) (by decide) (lt_of_lt_of_eq (by decide : 87 < 668) ops_length.symm) (Finset.mem_singleton_self _)) (take_eq_of_earlier ops_single V (i := 474) (k := 475) (by decide) (lt_of_lt_of_eq (by decide : 474 < 668) ops_length.symm) (Finset.mem_singleton_self _)) (take_eq_of_earlier ops_single V (i := 86) (k := 475) (by decide) (lt_of_lt_of_eq (by decide : 86 < 668) ops_length.symm) (Finset.mem_singleton_self _))
theorem eq_main_v288 (V : Valuation τ sig (Elt F)) :
    after (ops (F := F)) V main_v288 = (broadcastInDim S16x1 ![0] bcast_S16_S16x1_0 : (⟨S16, .i32⟩ : BufTy).Contents (Elt F) → (⟨S16x1, .i32⟩ : BufTy).Contents (Elt F)) (after (ops (F := F)) V main_v287) :=
  unary_eq ops_single V (lt_of_lt_of_eq (by decide : 476 < 668) ops_length.symm) main_v287 main_v288 (broadcastInDim S16x1 ![0] bcast_S16_S16x1_0 : (⟨S16, .i32⟩ : BufTy).Contents (Elt F) → (⟨S16x1, .i32⟩ : BufTy).Contents (Elt F)) ⟨by decide, rfl⟩ ⟨by decide, rfl⟩ rfl (take_eq_of_earlier ops_single V (i := 475) (k := 476) (by decide) (lt_of_lt_of_eq (by decide : 475 < 668) ops_length.symm) (Finset.mem_singleton_self _))
theorem eq_main_v289 (V : Valuation τ sig (Elt F)) :
    after (ops (F := F)) V main_v289 = ((fun x i => Host.gather gather_S8x64x4096x16_S16x1_S8x64x16x16_013_2_n_n_2_1_864116 x i) : (⟨S8x64x4096x16, .f32⟩ : BufTy).Contents (Elt F) → (⟨S16x1, .i32⟩ : BufTy).Contents (Elt F) → (⟨S8x64x16x16, .f32⟩ : BufTy).Contents (Elt F)) (after (ops (F := F)) V main_v279) (after (ops (F := F)) V main_v288) :=
  binary_eq ops_single V (lt_of_lt_of_eq (by decide : 477 < 668) ops_length.symm) main_v279 main_v288 main_v289 ((fun x i => Host.gather gather_S8x64x4096x16_S16x1_S8x64x16x16_013_2_n_n_2_1_864116 x i) : (⟨S8x64x4096x16, .f32⟩ : BufTy).Contents (Elt F) → (⟨S16x1, .i32⟩ : BufTy).Contents (Elt F) → (⟨S8x64x16x16, .f32⟩ : BufTy).Contents (Elt F)) ⟨by decide, rfl⟩ ⟨by decide, rfl⟩ ⟨by decide, rfl⟩ rfl (take_eq_of_earlier ops_single V (i := 465) (k := 477) (by decide) (lt_of_lt_of_eq (by decide : 465 < 668) ops_length.symm) (Finset.mem_singleton_self _)) (take_eq_of_earlier ops_single V (i := 476) (k := 477) (by decide) (lt_of_lt_of_eq (by decide : 476 < 668) ops_length.symm) (Finset.mem_singleton_self _))
theorem eq_main_c_186 (V : Valuation τ sig (Elt F)) :
    after (ops (F := F)) V main_c_186 = (constantI S_ 32 4096#32) :=
  nullary_eq ops_single V (lt_of_lt_of_eq (by decide : 478 < 668) ops_length.symm) main_c_186 (constantI S_ 32 4096#32) ⟨by decide, rfl⟩ rfl
theorem eq_main_v290 (V : Valuation τ sig (Elt F)) :
    after (ops (F := F)) V main_v290 = (broadcastInDim S16 ![] bcast_S_S16 : (⟨S_, .i32⟩ : BufTy).Contents (Elt F) → (⟨S16, .i32⟩ : BufTy).Contents (Elt F)) (after (ops (F := F)) V main_c_186) :=
  unary_eq ops_single V (lt_of_lt_of_eq (by decide : 479 < 668) ops_length.symm) main_c_186 main_v290 (broadcastInDim S16 ![] bcast_S_S16 : (⟨S_, .i32⟩ : BufTy).Contents (Elt F) → (⟨S16, .i32⟩ : BufTy).Contents (Elt F)) ⟨by decide, rfl⟩ ⟨by decide, rfl⟩ rfl (take_eq_of_earlier ops_single V (i := 478) (k := 479) (by decide) (lt_of_lt_of_eq (by decide : 478 < 668) ops_length.symm) (Finset.mem_singleton_self _))

end Cert.ReferenceIdeal.Line

end
-- ==== Proof.RefEq8.lean ====
/-
  The equations of the reference's operations in its window 8: what the whole line leaves at each operation's result is
  the operation's function of what the whole line leaves at its operands.
-/
import proofs.«140659_j42700564857293_1_alg».proof.Proof.RefSingle

noncomputable section

namespace Cert.ReferenceIdeal.Line

open Cert.ReferenceIdeal Cert.ReferenceIdeal.Gen Idealize.ShloMosaic Idealize.ShloMosaic.TcCoe Idealize.SL.Sem Idealize.ShloMosaic.StableHlo Cert.SingleAssignment

variable {F : FTy → Type} [FloatOps F]

theorem eq_main_v291 (V : Valuation τ sig (Elt F)) :
    after (ops (F := F)) V main_v291 = (addi : (⟨S16, .i32⟩ : BufTy).Contents (Elt F) → (⟨S16, .i32⟩ : BufTy).Contents (Elt F) → (⟨S16, .i32⟩ : BufTy).Contents (Elt F)) (after (ops (F := F)) V main_c_83) (after (ops (F := F)) V main_v290) :=
  binary_eq ops_single V (lt_of_lt_of_eq (by decide : 480 < 668) ops_length.symm) main_c_83 main_v290 main_v291 (addi : (⟨S16, .i32⟩ : BufTy).Contents (Elt F) → (⟨S16, .i32⟩ : BufTy).Contents (Elt F) → (⟨S16, .i32⟩ : BufTy).Contents (Elt F)) ⟨by decide, rfl⟩ ⟨by decide, rfl⟩ ⟨by decide, rfl⟩ rfl (take_eq_of_earlier ops_single V (i := 84) (k := 480) (by decide) (lt_of_lt_of_eq (by decide : 84 < 668) ops_length.symm) (Finset.mem_singleton_self _)) (take_eq_of_earlier ops_single V (i := 479) (k := 480) (by decide) (lt_of_lt_of_eq (by decide : 479 < 668) ops_length.symm) (Finset.mem_singleton_self _))
theorem eq_main_v292 (V : Valuation τ sig (Elt F)) :
    after (ops (F := F)) V main_v292 = (select : (⟨S16, .i1⟩ : BufTy).Contents (Elt F) → (⟨S16, .i32⟩ : BufTy).Contents (Elt F) → (⟨S16, .i32⟩ : BufTy).Contents (Elt F) → (⟨S16, .i32⟩ : BufTy).Contents (Elt F)) (after (ops (F := F)) V main_c_87) (after (ops (F := F)) V main_v291) (after (ops (F := F)) V main_c_83) :=
  ternary_eq ops_single V (lt_of_lt_of_eq (by decide : 481 < 668) ops_length.symm) main_c_87 main_v291 main_c_83 main_v292 (select : (⟨S16, .i1⟩ : BufTy).Contents (Elt F) → (⟨S16, .i32⟩ : BufTy).Contents (Elt F) → (⟨S16, .i32⟩ : BufTy).Contents (Elt F) → (⟨S16, .i32⟩ : BufTy).Contents (Elt F)) ⟨by decide, rfl⟩ ⟨by decide, rfl⟩ ⟨by decide, rfl⟩ ⟨by decide, rfl⟩ rfl (take_eq_of_earlier ops_single V (i := 88) (k := 481) (by decide) (lt_of_lt_of_eq (by decide : 88 < 668) ops_length.symm) (Finset.mem_singleton_self _)) (take_eq_of_earlier ops_single V (i := 480) (k := 481) (by decide) (lt_of_lt_of_eq (by decide : 480 < 668) ops_length.symm) (Finset.mem_singleton_self _)) (take_eq_of_earlier ops_single V (i := 84) (k := 481) (by decide) (lt_of_lt_of_eq (by decide : 84 < 668) ops_length.symm) (Finset.mem_singleton_self _))
theorem eq_main_v293 (V : Valuation τ sig (Elt F)) :
    after (ops (F := F)) V main_v293 = (broadcastInDim S16x1 ![0] bcast_S16_S16x1_0 : (⟨S16, .i32⟩ : BufTy).Contents (Elt F) → (⟨S16x1, .i32⟩ : BufTy).Contents (Elt F)) (after (ops (F := F)) V main_v292) :=
  unary_eq ops_single V (lt_of_lt_of_eq (by decide : 482 < 668) ops_length.symm) main_v292 main_v293 (broadcastInDim S16x1 ![0] bcast_S16_S16x1_0 : (⟨S16, .i32⟩ : BufTy).Contents (Elt F) → (⟨S16x1, .i32⟩ : BufTy).Contents (Elt F)) ⟨by decide, rfl⟩ ⟨by decide, rfl⟩ rfl (take_eq_of_earlier ops_single V (i := 481) (k := 482) (by decide) (lt_of_lt_of_eq (by decide : 481 < 668) ops_length.symm) (Finset.mem_singleton_self _))
theorem eq_main_v294 (V : Valuation τ sig (Elt F)) :
    after (ops (F := F)) V main_v294 = ((fun x i u => Host.scatter scatter_S8x64x4096x16_S16x1_S8x64x16x16_013_2_2_1 (fun _ b => b) x i u) : (⟨S8x64x4096x16, .f32⟩ : BufTy).Contents (Elt F) → (⟨S16x1, .i32⟩ : BufTy).Contents (Elt F) → (⟨S8x64x16x16, .f32⟩ : BufTy).Contents (Elt F) → (⟨S8x64x4096x16, .f32⟩ : BufTy).Contents (Elt F)) (after (ops (F := F)) V main_v279) (after (ops (F := F)) V main_v293) (after (ops (F := F)) V main_v289) :=
  ternary_eq ops_single V (lt_of_lt_of_eq (by decide : 483 < 668) ops_length.symm) main_v279 main_v293 main_v289 main_v294 ((fun x i u => Host.scatter scatter_S8x64x4096x16_S16x1_S8x64x16x16_013_2_2_1 (fun _ b => b) x i u) : (⟨S8x64x4096x16, .f32⟩ : BufTy).Contents (Elt F) → (⟨S16x1, .i32⟩ : BufTy).Contents (Elt F) → (⟨S8x64x16x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 465) (k := 483) (by decide) (lt_of_lt_of_eq (by decide : 465 < 668) ops_length.symm) (Finset.mem_singleton_self _)) (take_eq_of_earlier ops_single V (i := 482) (k := 483) (by decide) (lt_of_lt_of_eq (by decide : 482 < 668) ops_length.symm) (Finset.mem_singleton_self _)) (take_eq_of_earlier ops_single V (i := 477) (k := 483) (by decide) (lt_of_lt_of_eq (by decide : 477 < 668) ops_length.symm) (Finset.mem_singleton_self _))
theorem eq_main_v295 (V : Valuation τ sig (Elt F)) :
    after (ops (F := F)) V main_v295 = (addf : (⟨S8x64x16x16, .f32⟩ : BufTy).Contents (Elt F) → (⟨S8x64x16x16, .f32⟩ : BufTy).Contents (Elt F) → (⟨S8x64x16x16, .f32⟩ : BufTy).Contents (Elt F)) (after (ops (F := F)) V main_v284) (after (ops (F := F)) V main_v289) :=
  binary_eq ops_single V (lt_of_lt_of_eq (by decide : 484 < 668) ops_length.symm) main_v284 main_v289 main_v295 (addf : (⟨S8x64x16x16, .f32⟩ : BufTy).Contents (Elt F) → (⟨S8x64x16x16, .f32⟩ : BufTy).Contents (Elt F) → (⟨S8x64x16x16, .f32⟩ : BufTy).Contents (Elt F)) ⟨by decide, rfl⟩ ⟨by decide, rfl⟩ ⟨by decide, rfl⟩ rfl (take_eq_of_earlier ops_single V (i := 471) (k := 484) (by decide) (lt_of_lt_of_eq (by decide : 471 < 668) ops_length.symm) (Finset.mem_singleton_self _)) (take_eq_of_earlier ops_single V (i := 477) (k := 484) (by decide) (lt_of_lt_of_eq (by decide : 477 < 668) ops_length.symm) (Finset.mem_singleton_self _))
theorem eq_main_c_187 (V : Valuation τ sig (Elt F)) :
    after (ops (F := F)) V main_c_187 = (constantI S_ 32 4096#32) :=
  nullary_eq ops_single V (lt_of_lt_of_eq (by decide : 485 < 668) ops_length.symm) main_c_187 (constantI S_ 32 4096#32) ⟨by decide, rfl⟩ rfl
theorem eq_main_v296 (V : Valuation τ sig (Elt F)) :
    after (ops (F := F)) V main_v296 = (broadcastInDim S16 ![] bcast_S_S16 : (⟨S_, .i32⟩ : BufTy).Contents (Elt F) → (⟨S16, .i32⟩ : BufTy).Contents (Elt F)) (after (ops (F := F)) V main_c_187) :=
  unary_eq ops_single V (lt_of_lt_of_eq (by decide : 486 < 668) ops_length.symm) main_c_187 main_v296 (broadcastInDim S16 ![] bcast_S_S16 : (⟨S_, .i32⟩ : BufTy).Contents (Elt F) → (⟨S16, .i32⟩ : BufTy).Contents (Elt F)) ⟨by decide, rfl⟩ ⟨by decide, rfl⟩ rfl (take_eq_of_earlier ops_single V (i := 485) (k := 486) (by decide) (lt_of_lt_of_eq (by decide : 485 < 668) ops_length.symm) (Finset.mem_singleton_self _))
theorem eq_main_v297 (V : Valuation τ sig (Elt F)) :
    after (ops (F := F)) V main_v297 = (addi : (⟨S16, .i32⟩ : BufTy).Contents (Elt F) → (⟨S16, .i32⟩ : BufTy).Contents (Elt F) → (⟨S16, .i32⟩ : BufTy).Contents (Elt F)) (after (ops (F := F)) V main_c_85) (after (ops (F := F)) V main_v296) :=
  binary_eq ops_single V (lt_of_lt_of_eq (by decide : 487 < 668) ops_length.symm) main_c_85 main_v296 main_v297 (addi : (⟨S16, .i32⟩ : BufTy).Contents (Elt F) → (⟨S16, .i32⟩ : BufTy).Contents (Elt F) → (⟨S16, .i32⟩ : BufTy).Contents (Elt F)) ⟨by decide, rfl⟩ ⟨by decide, rfl⟩ ⟨by decide, rfl⟩ rfl (take_eq_of_earlier ops_single V (i := 86) (k := 487) (by decide) (lt_of_lt_of_eq (by decide : 86 < 668) ops_length.symm) (Finset.mem_singleton_self _)) (take_eq_of_earlier ops_single V (i := 486) (k := 487) (by decide) (lt_of_lt_of_eq (by decide : 486 < 668) ops_length.symm) (Finset.mem_singleton_self _))
theorem eq_main_v298 (V : Valuation τ sig (Elt F)) :
    after (ops (F := F)) V main_v298 = (select : (⟨S16, .i1⟩ : BufTy).Contents (Elt F) → (⟨S16, .i32⟩ : BufTy).Contents (Elt F) → (⟨S16, .i32⟩ : BufTy).Contents (Elt F) → (⟨S16, .i32⟩ : BufTy).Contents (Elt F)) (after (ops (F := F)) V main_c_88) (after (ops (F := F)) V main_v297) (after (ops (F := F)) V main_c_85) :=
  ternary_eq ops_single V (lt_of_lt_of_eq (by decide : 488 < 668) ops_length.symm) main_c_88 main_v297 main_c_85 main_v298 (select : (⟨S16, .i1⟩ : BufTy).Contents (Elt F) → (⟨S16, .i32⟩ : BufTy).Contents (Elt F) → (⟨S16, .i32⟩ : BufTy).Contents (Elt F) → (⟨S16, .i32⟩ : BufTy).Contents (Elt F)) ⟨by decide, rfl⟩ ⟨by decide, rfl⟩ ⟨by decide, rfl⟩ ⟨by decide, rfl⟩ rfl (take_eq_of_earlier ops_single V (i := 89) (k := 488) (by decide) (lt_of_lt_of_eq (by decide : 89 < 668) ops_length.symm) (Finset.mem_singleton_self _)) (take_eq_of_earlier ops_single V (i := 487) (k := 488) (by decide) (lt_of_lt_of_eq (by decide : 487 < 668) ops_length.symm) (Finset.mem_singleton_self _)) (take_eq_of_earlier ops_single V (i := 86) (k := 488) (by decide) (lt_of_lt_of_eq (by decide : 86 < 668) ops_length.symm) (Finset.mem_singleton_self _))
theorem eq_main_v299 (V : Valuation τ sig (Elt F)) :
    after (ops (F := F)) V main_v299 = (broadcastInDim S16x1 ![0] bcast_S16_S16x1_0 : (⟨S16, .i32⟩ : BufTy).Contents (Elt F) → (⟨S16x1, .i32⟩ : BufTy).Contents (Elt F)) (after (ops (F := F)) V main_v298) :=
  unary_eq ops_single V (lt_of_lt_of_eq (by decide : 489 < 668) ops_length.symm) main_v298 main_v299 (broadcastInDim S16x1 ![0] bcast_S16_S16x1_0 : (⟨S16, .i32⟩ : BufTy).Contents (Elt F) → (⟨S16x1, .i32⟩ : BufTy).Contents (Elt F)) ⟨by decide, rfl⟩ ⟨by decide, rfl⟩ rfl (take_eq_of_earlier ops_single V (i := 488) (k := 489) (by decide) (lt_of_lt_of_eq (by decide : 488 < 668) ops_length.symm) (Finset.mem_singleton_self _))
theorem eq_main_v300 (V : Valuation τ sig (Elt F)) :
    after (ops (F := F)) V main_v300 = ((fun x i u => Host.scatter scatter_S8x64x4096x16_S16x1_S8x64x16x16_013_2_2_1 (fun _ b => b) x i u) : (⟨S8x64x4096x16, .f32⟩ : BufTy).Contents (Elt F) → (⟨S16x1, .i32⟩ : BufTy).Contents (Elt F) → (⟨S8x64x16x16, .f32⟩ : BufTy).Contents (Elt F) → (⟨S8x64x4096x16, .f32⟩ : BufTy).Contents (Elt F)) (after (ops (F := F)) V main_v294) (after (ops (F := F)) V main_v299) (after (ops (F := F)) V main_v295) :=
  ternary_eq ops_single V (lt_of_lt_of_eq (by decide : 490 < 668) ops_length.symm) main_v294 main_v299 main_v295 main_v300 ((fun x i u => Host.scatter scatter_S8x64x4096x16_S16x1_S8x64x16x16_013_2_2_1 (fun _ b => b) x i u) : (⟨S8x64x4096x16, .f32⟩ : BufTy).Contents (Elt F) → (⟨S16x1, .i32⟩ : BufTy).Contents (Elt F) → (⟨S8x64x16x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 483) (k := 490) (by decide) (lt_of_lt_of_eq (by decide : 483 < 668) ops_length.symm) (Finset.mem_singleton_self _)) (take_eq_of_earlier ops_single V (i := 489) (k := 490) (by decide) (lt_of_lt_of_eq (by decide : 489 < 668) ops_length.symm) (Finset.mem_singleton_self _)) (take_eq_of_earlier ops_single V (i := 484) (k := 490) (by decide) (lt_of_lt_of_eq (by decide : 484 < 668) ops_length.symm) (Finset.mem_singleton_self _))
theorem eq_main_c_188 (V : Valuation τ sig (Elt F)) :
    after (ops (F := F)) V main_c_188 = (constantI S_ 32 4096#32) :=
  nullary_eq ops_single V (lt_of_lt_of_eq (by decide : 491 < 668) ops_length.symm) main_c_188 (constantI S_ 32 4096#32) ⟨by decide, rfl⟩ rfl
theorem eq_main_v301 (V : Valuation τ sig (Elt F)) :
    after (ops (F := F)) V main_v301 = (broadcastInDim S32 ![] bcast_S_S32 : (⟨S_, .i32⟩ : BufTy).Contents (Elt F) → (⟨S32, .i32⟩ : BufTy).Contents (Elt F)) (after (ops (F := F)) V main_c_188) :=
  unary_eq ops_single V (lt_of_lt_of_eq (by decide : 492 < 668) ops_length.symm) main_c_188 main_v301 (broadcastInDim S32 ![] bcast_S_S32 : (⟨S_, .i32⟩ : BufTy).Contents (Elt F) → (⟨S32, .i32⟩ : BufTy).Contents (Elt F)) ⟨by decide, rfl⟩ ⟨by decide, rfl⟩ rfl (take_eq_of_earlier ops_single V (i := 491) (k := 492) (by decide) (lt_of_lt_of_eq (by decide : 491 < 668) ops_length.symm) (Finset.mem_singleton_self _))
theorem eq_main_v302 (V : Valuation τ sig (Elt F)) :
    after (ops (F := F)) V main_v302 = (addi : (⟨S32, .i32⟩ : BufTy).Contents (Elt F) → (⟨S32, .i32⟩ : BufTy).Contents (Elt F) → (⟨S32, .i32⟩ : BufTy).Contents (Elt F)) (after (ops (F := F)) V main_c_89) (after (ops (F := F)) V main_v301) :=
  binary_eq ops_single V (lt_of_lt_of_eq (by decide : 493 < 668) ops_length.symm) main_c_89 main_v301 main_v302 (addi : (⟨S32, .i32⟩ : BufTy).Contents (Elt F) → (⟨S32, .i32⟩ : BufTy).Contents (Elt F) → (⟨S32, .i32⟩ : BufTy).Contents (Elt F)) ⟨by decide, rfl⟩ ⟨by decide, rfl⟩ ⟨by decide, rfl⟩ rfl (take_eq_of_earlier ops_single V (i := 90) (k := 493) (by decide) (lt_of_lt_of_eq (by decide : 90 < 668) ops_length.symm) (Finset.mem_singleton_self _)) (take_eq_of_earlier ops_single V (i := 492) (k := 493) (by decide) (lt_of_lt_of_eq (by decide : 492 < 668) ops_length.symm) (Finset.mem_singleton_self _))
theorem eq_main_v303 (V : Valuation τ sig (Elt F)) :
    after (ops (F := F)) V main_v303 = (select : (⟨S32, .i1⟩ : BufTy).Contents (Elt F) → (⟨S32, .i32⟩ : BufTy).Contents (Elt F) → (⟨S32, .i32⟩ : BufTy).Contents (Elt F) → (⟨S32, .i32⟩ : BufTy).Contents (Elt F)) (after (ops (F := F)) V main_c_90) (after (ops (F := F)) V main_v302) (after (ops (F := F)) V main_c_89) :=
  ternary_eq ops_single V (lt_of_lt_of_eq (by decide : 494 < 668) ops_length.symm) main_c_90 main_v302 main_c_89 main_v303 (select : (⟨S32, .i1⟩ : BufTy).Contents (Elt F) → (⟨S32, .i32⟩ : BufTy).Contents (Elt F) → (⟨S32, .i32⟩ : BufTy).Contents (Elt F) → (⟨S32, .i32⟩ : BufTy).Contents (Elt F)) ⟨by decide, rfl⟩ ⟨by decide, rfl⟩ ⟨by decide, rfl⟩ ⟨by decide, rfl⟩ rfl (take_eq_of_earlier ops_single V (i := 91) (k := 494) (by decide) (lt_of_lt_of_eq (by decide : 91 < 668) ops_length.symm) (Finset.mem_singleton_self _)) (take_eq_of_earlier ops_single V (i := 493) (k := 494) (by decide) (lt_of_lt_of_eq (by decide : 493 < 668) ops_length.symm) (Finset.mem_singleton_self _)) (take_eq_of_earlier ops_single V (i := 90) (k := 494) (by decide) (lt_of_lt_of_eq (by decide : 90 < 668) ops_length.symm) (Finset.mem_singleton_self _))
theorem eq_main_v304 (V : Valuation τ sig (Elt F)) :
    after (ops (F := F)) V main_v304 = (broadcastInDim S32x1 ![0] bcast_S32_S32x1_0 : (⟨S32, .i32⟩ : BufTy).Contents (Elt F) → (⟨S32x1, .i32⟩ : BufTy).Contents (Elt F)) (after (ops (F := F)) V main_v303) :=
  unary_eq ops_single V (lt_of_lt_of_eq (by decide : 495 < 668) ops_length.symm) main_v303 main_v304 (broadcastInDim S32x1 ![0] bcast_S32_S32x1_0 : (⟨S32, .i32⟩ : BufTy).Contents (Elt F) → (⟨S32x1, .i32⟩ : BufTy).Contents (Elt F)) ⟨by decide, rfl⟩ ⟨by decide, rfl⟩ rfl (take_eq_of_earlier ops_single V (i := 494) (k := 495) (by decide) (lt_of_lt_of_eq (by decide : 494 < 668) ops_length.symm) (Finset.mem_singleton_self _))
theorem eq_main_v305 (V : Valuation τ sig (Elt F)) :
    after (ops (F := F)) V main_v305 = ((fun x i => Host.gather gather_S8x64x4096x16_S32x1_S8x64x32x16_013_2_n_n_2_1_864116 x i) : (⟨S8x64x4096x16, .f32⟩ : BufTy).Contents (Elt F) → (⟨S32x1, .i32⟩ : BufTy).Contents (Elt F) → (⟨S8x64x32x16, .f32⟩ : BufTy).Contents (Elt F)) (after (ops (F := F)) V main_v300) (after (ops (F := F)) V main_v304) :=
  binary_eq ops_single V (lt_of_lt_of_eq (by decide : 496 < 668) ops_length.symm) main_v300 main_v304 main_v305 ((fun x i => Host.gather gather_S8x64x4096x16_S32x1_S8x64x32x16_013_2_n_n_2_1_864116 x i) : (⟨S8x64x4096x16, .f32⟩ : BufTy).Contents (Elt F) → (⟨S32x1, .i32⟩ : BufTy).Contents (Elt F) → (⟨S8x64x32x16, .f32⟩ : BufTy).Contents (Elt F)) ⟨by decide, rfl⟩ ⟨by decide, rfl⟩ ⟨by decide, rfl⟩ rfl (take_eq_of_earlier ops_single V (i := 490) (k := 496) (by decide) (lt_of_lt_of_eq (by decide : 490 < 668) ops_length.symm) (Finset.mem_singleton_self _)) (take_eq_of_earlier ops_single V (i := 495) (k := 496) (by decide) (lt_of_lt_of_eq (by decide : 495 < 668) ops_length.symm) (Finset.mem_singleton_self _))
theorem eq_main_c_189 (V : Valuation τ sig (Elt F)) :
    after (ops (F := F)) V main_c_189 = (constantI S_ 32 4096#32) :=
  nullary_eq ops_single V (lt_of_lt_of_eq (by decide : 497 < 668) ops_length.symm) main_c_189 (constantI S_ 32 4096#32) ⟨by decide, rfl⟩ rfl
theorem eq_main_v306 (V : Valuation τ sig (Elt F)) :
    after (ops (F := F)) V main_v306 = (broadcastInDim S32 ![] bcast_S_S32 : (⟨S_, .i32⟩ : BufTy).Contents (Elt F) → (⟨S32, .i32⟩ : BufTy).Contents (Elt F)) (after (ops (F := F)) V main_c_189) :=
  unary_eq ops_single V (lt_of_lt_of_eq (by decide : 498 < 668) ops_length.symm) main_c_189 main_v306 (broadcastInDim S32 ![] bcast_S_S32 : (⟨S_, .i32⟩ : BufTy).Contents (Elt F) → (⟨S32, .i32⟩ : BufTy).Contents (Elt F)) ⟨by decide, rfl⟩ ⟨by decide, rfl⟩ rfl (take_eq_of_earlier ops_single V (i := 497) (k := 498) (by decide) (lt_of_lt_of_eq (by decide : 497 < 668) ops_length.symm) (Finset.mem_singleton_self _))
theorem eq_main_v307 (V : Valuation τ sig (Elt F)) :
    after (ops (F := F)) V main_v307 = (addi : (⟨S32, .i32⟩ : BufTy).Contents (Elt F) → (⟨S32, .i32⟩ : BufTy).Contents (Elt F) → (⟨S32, .i32⟩ : BufTy).Contents (Elt F)) (after (ops (F := F)) V main_c_91) (after (ops (F := F)) V main_v306) :=
  binary_eq ops_single V (lt_of_lt_of_eq (by decide : 499 < 668) ops_length.symm) main_c_91 main_v306 main_v307 (addi : (⟨S32, .i32⟩ : BufTy).Contents (Elt F) → (⟨S32, .i32⟩ : BufTy).Contents (Elt F) → (⟨S32, .i32⟩ : BufTy).Contents (Elt F)) ⟨by decide, rfl⟩ ⟨by decide, rfl⟩ ⟨by decide, rfl⟩ rfl (take_eq_of_earlier ops_single V (i := 92) (k := 499) (by decide) (lt_of_lt_of_eq (by decide : 92 < 668) ops_length.symm) (Finset.mem_singleton_self _)) (take_eq_of_earlier ops_single V (i := 498) (k := 499) (by decide) (lt_of_lt_of_eq (by decide : 498 < 668) ops_length.symm) (Finset.mem_singleton_self _))
theorem eq_main_v308 (V : Valuation τ sig (Elt F)) :
    after (ops (F := F)) V main_v308 = (select : (⟨S32, .i1⟩ : BufTy).Contents (Elt F) → (⟨S32, .i32⟩ : BufTy).Contents (Elt F) → (⟨S32, .i32⟩ : BufTy).Contents (Elt F) → (⟨S32, .i32⟩ : BufTy).Contents (Elt F)) (after (ops (F := F)) V main_c_92) (after (ops (F := F)) V main_v307) (after (ops (F := F)) V main_c_91) :=
  ternary_eq ops_single V (lt_of_lt_of_eq (by decide : 500 < 668) ops_length.symm) main_c_92 main_v307 main_c_91 main_v308 (select : (⟨S32, .i1⟩ : BufTy).Contents (Elt F) → (⟨S32, .i32⟩ : BufTy).Contents (Elt F) → (⟨S32, .i32⟩ : BufTy).Contents (Elt F) → (⟨S32, .i32⟩ : BufTy).Contents (Elt F)) ⟨by decide, rfl⟩ ⟨by decide, rfl⟩ ⟨by decide, rfl⟩ ⟨by decide, rfl⟩ rfl (take_eq_of_earlier ops_single V (i := 93) (k := 500) (by decide) (lt_of_lt_of_eq (by decide : 93 < 668) ops_length.symm) (Finset.mem_singleton_self _)) (take_eq_of_earlier ops_single V (i := 499) (k := 500) (by decide) (lt_of_lt_of_eq (by decide : 499 < 668) ops_length.symm) (Finset.mem_singleton_self _)) (take_eq_of_earlier ops_single V (i := 92) (k := 500) (by decide) (lt_of_lt_of_eq (by decide : 92 < 668) ops_length.symm) (Finset.mem_singleton_self _))
theorem eq_main_v309 (V : Valuation τ sig (Elt F)) :
    after (ops (F := F)) V main_v309 = (broadcastInDim S32x1 ![0] bcast_S32_S32x1_0 : (⟨S32, .i32⟩ : BufTy).Contents (Elt F) → (⟨S32x1, .i32⟩ : BufTy).Contents (Elt F)) (after (ops (F := F)) V main_v308) :=
  unary_eq ops_single V (lt_of_lt_of_eq (by decide : 501 < 668) ops_length.symm) main_v308 main_v309 (broadcastInDim S32x1 ![0] bcast_S32_S32x1_0 : (⟨S32, .i32⟩ : BufTy).Contents (Elt F) → (⟨S32x1, .i32⟩ : BufTy).Contents (Elt F)) ⟨by decide, rfl⟩ ⟨by decide, rfl⟩ rfl (take_eq_of_earlier ops_single V (i := 500) (k := 501) (by decide) (lt_of_lt_of_eq (by decide : 500 < 668) ops_length.symm) (Finset.mem_singleton_self _))
theorem eq_main_v310 (V : Valuation τ sig (Elt F)) :
    after (ops (F := F)) V main_v310 = ((fun x i => Host.gather gather_S8x64x4096x16_S32x1_S8x64x32x16_013_2_n_n_2_1_864116 x i) : (⟨S8x64x4096x16, .f32⟩ : BufTy).Contents (Elt F) → (⟨S32x1, .i32⟩ : BufTy).Contents (Elt F) → (⟨S8x64x32x16, .f32⟩ : BufTy).Contents (Elt F)) (after (ops (F := F)) V main_v300) (after (ops (F := F)) V main_v309) :=
  binary_eq ops_single V (lt_of_lt_of_eq (by decide : 502 < 668) ops_length.symm) main_v300 main_v309 main_v310 ((fun x i => Host.gather gather_S8x64x4096x16_S32x1_S8x64x32x16_013_2_n_n_2_1_864116 x i) : (⟨S8x64x4096x16, .f32⟩ : BufTy).Contents (Elt F) → (⟨S32x1, .i32⟩ : BufTy).Contents (Elt F) → (⟨S8x64x32x16, .f32⟩ : BufTy).Contents (Elt F)) ⟨by decide, rfl⟩ ⟨by decide, rfl⟩ ⟨by decide, rfl⟩ rfl (take_eq_of_earlier ops_single V (i := 490) (k := 502) (by decide) (lt_of_lt_of_eq (by decide : 490 < 668) ops_length.symm) (Finset.mem_singleton_self _)) (take_eq_of_earlier ops_single V (i := 501) (k := 502) (by decide) (lt_of_lt_of_eq (by decide : 501 < 668) ops_length.symm) (Finset.mem_singleton_self _))
theorem eq_main_c_190 (V : Valuation τ sig (Elt F)) :
    after (ops (F := F)) V main_c_190 = (constantI S_ 32 4096#32) :=
  nullary_eq ops_single V (lt_of_lt_of_eq (by decide : 503 < 668) ops_length.symm) main_c_190 (constantI S_ 32 4096#32) ⟨by decide, rfl⟩ rfl
theorem eq_main_v311 (V : Valuation τ sig (Elt F)) :
    after (ops (F := F)) V main_v311 = (broadcastInDim S32 ![] bcast_S_S32 : (⟨S_, .i32⟩ : BufTy).Contents (Elt F) → (⟨S32, .i32⟩ : BufTy).Contents (Elt F)) (after (ops (F := F)) V main_c_190) :=
  unary_eq ops_single V (lt_of_lt_of_eq (by decide : 504 < 668) ops_length.symm) main_c_190 main_v311 (broadcastInDim S32 ![] bcast_S_S32 : (⟨S_, .i32⟩ : BufTy).Contents (Elt F) → (⟨S32, .i32⟩ : BufTy).Contents (Elt F)) ⟨by decide, rfl⟩ ⟨by decide, rfl⟩ rfl (take_eq_of_earlier ops_single V (i := 503) (k := 504) (by decide) (lt_of_lt_of_eq (by decide : 503 < 668) ops_length.symm) (Finset.mem_singleton_self _))
theorem eq_main_v312 (V : Valuation τ sig (Elt F)) :
    after (ops (F := F)) V main_v312 = (addi : (⟨S32, .i32⟩ : BufTy).Contents (Elt F) → (⟨S32, .i32⟩ : BufTy).Contents (Elt F) → (⟨S32, .i32⟩ : BufTy).Contents (Elt F)) (after (ops (F := F)) V main_c_89) (after (ops (F := F)) V main_v311) :=
  binary_eq ops_single V (lt_of_lt_of_eq (by decide : 505 < 668) ops_length.symm) main_c_89 main_v311 main_v312 (addi : (⟨S32, .i32⟩ : BufTy).Contents (Elt F) → (⟨S32, .i32⟩ : BufTy).Contents (Elt F) → (⟨S32, .i32⟩ : BufTy).Contents (Elt F)) ⟨by decide, rfl⟩ ⟨by decide, rfl⟩ ⟨by decide, rfl⟩ rfl (take_eq_of_earlier ops_single V (i := 90) (k := 505) (by decide) (lt_of_lt_of_eq (by decide : 90 < 668) ops_length.symm) (Finset.mem_singleton_self _)) (take_eq_of_earlier ops_single V (i := 504) (k := 505) (by decide) (lt_of_lt_of_eq (by decide : 504 < 668) ops_length.symm) (Finset.mem_singleton_self _))
theorem eq_main_v313 (V : Valuation τ sig (Elt F)) :
    after (ops (F := F)) V main_v313 = (select : (⟨S32, .i1⟩ : BufTy).Contents (Elt F) → (⟨S32, .i32⟩ : BufTy).Contents (Elt F) → (⟨S32, .i32⟩ : BufTy).Contents (Elt F) → (⟨S32, .i32⟩ : BufTy).Contents (Elt F)) (after (ops (F := F)) V main_c_93) (after (ops (F := F)) V main_v312) (after (ops (F := F)) V main_c_89) :=
  ternary_eq ops_single V (lt_of_lt_of_eq (by decide : 506 < 668) ops_length.symm) main_c_93 main_v312 main_c_89 main_v313 (select : (⟨S32, .i1⟩ : BufTy).Contents (Elt F) → (⟨S32, .i32⟩ : BufTy).Contents (Elt F) → (⟨S32, .i32⟩ : BufTy).Contents (Elt F) → (⟨S32, .i32⟩ : BufTy).Contents (Elt F)) ⟨by decide, rfl⟩ ⟨by decide, rfl⟩ ⟨by decide, rfl⟩ ⟨by decide, rfl⟩ rfl (take_eq_of_earlier ops_single V (i := 94) (k := 506) (by decide) (lt_of_lt_of_eq (by decide : 94 < 668) ops_length.symm) (Finset.mem_singleton_self _)) (take_eq_of_earlier ops_single V (i := 505) (k := 506) (by decide) (lt_of_lt_of_eq (by decide : 505 < 668) ops_length.symm) (Finset.mem_singleton_self _)) (take_eq_of_earlier ops_single V (i := 90) (k := 506) (by decide) (lt_of_lt_of_eq (by decide : 90 < 668) ops_length.symm) (Finset.mem_singleton_self _))
theorem eq_main_v314 (V : Valuation τ sig (Elt F)) :
    after (ops (F := F)) V main_v314 = (broadcastInDim S32x1 ![0] bcast_S32_S32x1_0 : (⟨S32, .i32⟩ : BufTy).Contents (Elt F) → (⟨S32x1, .i32⟩ : BufTy).Contents (Elt F)) (after (ops (F := F)) V main_v313) :=
  unary_eq ops_single V (lt_of_lt_of_eq (by decide : 507 < 668) ops_length.symm) main_v313 main_v314 (broadcastInDim S32x1 ![0] bcast_S32_S32x1_0 : (⟨S32, .i32⟩ : BufTy).Contents (Elt F) → (⟨S32x1, .i32⟩ : BufTy).Contents (Elt F)) ⟨by decide, rfl⟩ ⟨by decide, rfl⟩ rfl (take_eq_of_earlier ops_single V (i := 506) (k := 507) (by decide) (lt_of_lt_of_eq (by decide : 506 < 668) ops_length.symm) (Finset.mem_singleton_self _))
theorem eq_main_v315 (V : Valuation τ sig (Elt F)) :
    after (ops (F := F)) V main_v315 = ((fun x i u => Host.scatter scatter_S8x64x4096x16_S32x1_S8x64x32x16_013_2_2_1 (fun _ b => b) x i u) : (⟨S8x64x4096x16, .f32⟩ : BufTy).Contents (Elt F) → (⟨S32x1, .i32⟩ : BufTy).Contents (Elt F) → (⟨S8x64x32x16, .f32⟩ : BufTy).Contents (Elt F) → (⟨S8x64x4096x16, .f32⟩ : BufTy).Contents (Elt F)) (after (ops (F := F)) V main_v300) (after (ops (F := F)) V main_v314) (after (ops (F := F)) V main_v310) :=
  ternary_eq ops_single V (lt_of_lt_of_eq (by decide : 508 < 668) ops_length.symm) main_v300 main_v314 main_v310 main_v315 ((fun x i u => Host.scatter scatter_S8x64x4096x16_S32x1_S8x64x32x16_013_2_2_1 (fun _ b => b) x i u) : (⟨S8x64x4096x16, .f32⟩ : BufTy).Contents (Elt F) → (⟨S32x1, .i32⟩ : BufTy).Contents (Elt F) → (⟨S8x64x32x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 490) (k := 508) (by decide) (lt_of_lt_of_eq (by decide : 490 < 668) ops_length.symm) (Finset.mem_singleton_self _)) (take_eq_of_earlier ops_single V (i := 507) (k := 508) (by decide) (lt_of_lt_of_eq (by decide : 507 < 668) ops_length.symm) (Finset.mem_singleton_self _)) (take_eq_of_earlier ops_single V (i := 502) (k := 508) (by decide) (lt_of_lt_of_eq (by decide : 502 < 668) ops_length.symm) (Finset.mem_singleton_self _))
theorem eq_main_v316 (V : Valuation τ sig (Elt F)) :
    after (ops (F := F)) V main_v316 = (addf : (⟨S8x64x32x16, .f32⟩ : BufTy).Contents (Elt F) → (⟨S8x64x32x16, .f32⟩ : BufTy).Contents (Elt F) → (⟨S8x64x32x16, .f32⟩ : BufTy).Contents (Elt F)) (after (ops (F := F)) V main_v305) (after (ops (F := F)) V main_v310) :=
  binary_eq ops_single V (lt_of_lt_of_eq (by decide : 509 < 668) ops_length.symm) main_v305 main_v310 main_v316 (addf : (⟨S8x64x32x16, .f32⟩ : BufTy).Contents (Elt F) → (⟨S8x64x32x16, .f32⟩ : BufTy).Contents (Elt F) → (⟨S8x64x32x16, .f32⟩ : BufTy).Contents (Elt F)) ⟨by decide, rfl⟩ ⟨by decide, rfl⟩ ⟨by decide, rfl⟩ rfl (take_eq_of_earlier ops_single V (i := 496) (k := 509) (by decide) (lt_of_lt_of_eq (by decide : 496 < 668) ops_length.symm) (Finset.mem_singleton_self _)) (take_eq_of_earlier ops_single V (i := 502) (k := 509) (by decide) (lt_of_lt_of_eq (by decide : 502 < 668) ops_length.symm) (Finset.mem_singleton_self _))
theorem eq_main_c_191 (V : Valuation τ sig (Elt F)) :
    after (ops (F := F)) V main_c_191 = (constantI S_ 32 4096#32) :=
  nullary_eq ops_single V (lt_of_lt_of_eq (by decide : 510 < 668) ops_length.symm) main_c_191 (constantI S_ 32 4096#32) ⟨by decide, rfl⟩ rfl
theorem eq_main_v317 (V : Valuation τ sig (Elt F)) :
    after (ops (F := F)) V main_v317 = (broadcastInDim S32 ![] bcast_S_S32 : (⟨S_, .i32⟩ : BufTy).Contents (Elt F) → (⟨S32, .i32⟩ : BufTy).Contents (Elt F)) (after (ops (F := F)) V main_c_191) :=
  unary_eq ops_single V (lt_of_lt_of_eq (by decide : 511 < 668) ops_length.symm) main_c_191 main_v317 (broadcastInDim S32 ![] bcast_S_S32 : (⟨S_, .i32⟩ : BufTy).Contents (Elt F) → (⟨S32, .i32⟩ : BufTy).Contents (Elt F)) ⟨by decide, rfl⟩ ⟨by decide, rfl⟩ rfl (take_eq_of_earlier ops_single V (i := 510) (k := 511) (by decide) (lt_of_lt_of_eq (by decide : 510 < 668) ops_length.symm) (Finset.mem_singleton_self _))
theorem eq_main_v318 (V : Valuation τ sig (Elt F)) :
    after (ops (F := F)) V main_v318 = (addi : (⟨S32, .i32⟩ : BufTy).Contents (Elt F) → (⟨S32, .i32⟩ : BufTy).Contents (Elt F) → (⟨S32, .i32⟩ : BufTy).Contents (Elt F)) (after (ops (F := F)) V main_c_91) (after (ops (F := F)) V main_v317) :=
  binary_eq ops_single V (lt_of_lt_of_eq (by decide : 512 < 668) ops_length.symm) main_c_91 main_v317 main_v318 (addi : (⟨S32, .i32⟩ : BufTy).Contents (Elt F) → (⟨S32, .i32⟩ : BufTy).Contents (Elt F) → (⟨S32, .i32⟩ : BufTy).Contents (Elt F)) ⟨by decide, rfl⟩ ⟨by decide, rfl⟩ ⟨by decide, rfl⟩ rfl (take_eq_of_earlier ops_single V (i := 92) (k := 512) (by decide) (lt_of_lt_of_eq (by decide : 92 < 668) ops_length.symm) (Finset.mem_singleton_self _)) (take_eq_of_earlier ops_single V (i := 511) (k := 512) (by decide) (lt_of_lt_of_eq (by decide : 511 < 668) ops_length.symm) (Finset.mem_singleton_self _))
theorem eq_main_v319 (V : Valuation τ sig (Elt F)) :
    after (ops (F := F)) V main_v319 = (select : (⟨S32, .i1⟩ : BufTy).Contents (Elt F) → (⟨S32, .i32⟩ : BufTy).Contents (Elt F) → (⟨S32, .i32⟩ : BufTy).Contents (Elt F) → (⟨S32, .i32⟩ : BufTy).Contents (Elt F)) (after (ops (F := F)) V main_c_94) (after (ops (F := F)) V main_v318) (after (ops (F := F)) V main_c_91) :=
  ternary_eq ops_single V (lt_of_lt_of_eq (by decide : 513 < 668) ops_length.symm) main_c_94 main_v318 main_c_91 main_v319 (select : (⟨S32, .i1⟩ : BufTy).Contents (Elt F) → (⟨S32, .i32⟩ : BufTy).Contents (Elt F) → (⟨S32, .i32⟩ : BufTy).Contents (Elt F) → (⟨S32, .i32⟩ : BufTy).Contents (Elt F)) ⟨by decide, rfl⟩ ⟨by decide, rfl⟩ ⟨by decide, rfl⟩ ⟨by decide, rfl⟩ rfl (take_eq_of_earlier ops_single V (i := 95) (k := 513) (by decide) (lt_of_lt_of_eq (by decide : 95 < 668) ops_length.symm) (Finset.mem_singleton_self _)) (take_eq_of_earlier ops_single V (i := 512) (k := 513) (by decide) (lt_of_lt_of_eq (by decide : 512 < 668) ops_length.symm) (Finset.mem_singleton_self _)) (take_eq_of_earlier ops_single V (i := 92) (k := 513) (by decide) (lt_of_lt_of_eq (by decide : 92 < 668) ops_length.symm) (Finset.mem_singleton_self _))
theorem eq_main_v320 (V : Valuation τ sig (Elt F)) :
    after (ops (F := F)) V main_v320 = (broadcastInDim S32x1 ![0] bcast_S32_S32x1_0 : (⟨S32, .i32⟩ : BufTy).Contents (Elt F) → (⟨S32x1, .i32⟩ : BufTy).Contents (Elt F)) (after (ops (F := F)) V main_v319) :=
  unary_eq ops_single V (lt_of_lt_of_eq (by decide : 514 < 668) ops_length.symm) main_v319 main_v320 (broadcastInDim S32x1 ![0] bcast_S32_S32x1_0 : (⟨S32, .i32⟩ : BufTy).Contents (Elt F) → (⟨S32x1, .i32⟩ : BufTy).Contents (Elt F)) ⟨by decide, rfl⟩ ⟨by decide, rfl⟩ rfl (take_eq_of_earlier ops_single V (i := 513) (k := 514) (by decide) (lt_of_lt_of_eq (by decide : 513 < 668) ops_length.symm) (Finset.mem_singleton_self _))
theorem eq_main_v321 (V : Valuation τ sig (Elt F)) :
    after (ops (F := F)) V main_v321 = ((fun x i u => Host.scatter scatter_S8x64x4096x16_S32x1_S8x64x32x16_013_2_2_1 (fun _ b => b) x i u) : (⟨S8x64x4096x16, .f32⟩ : BufTy).Contents (Elt F) → (⟨S32x1, .i32⟩ : BufTy).Contents (Elt F) → (⟨S8x64x32x16, .f32⟩ : BufTy).Contents (Elt F) → (⟨S8x64x4096x16, .f32⟩ : BufTy).Contents (Elt F)) (after (ops (F := F)) V main_v315) (after (ops (F := F)) V main_v320) (after (ops (F := F)) V main_v316) :=
  ternary_eq ops_single V (lt_of_lt_of_eq (by decide : 515 < 668) ops_length.symm) main_v315 main_v320 main_v316 main_v321 ((fun x i u => Host.scatter scatter_S8x64x4096x16_S32x1_S8x64x32x16_013_2_2_1 (fun _ b => b) x i u) : (⟨S8x64x4096x16, .f32⟩ : BufTy).Contents (Elt F) → (⟨S32x1, .i32⟩ : BufTy).Contents (Elt F) → (⟨S8x64x32x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 508) (k := 515) (by decide) (lt_of_lt_of_eq (by decide : 508 < 668) ops_length.symm) (Finset.mem_singleton_self _)) (take_eq_of_earlier ops_single V (i := 514) (k := 515) (by decide) (lt_of_lt_of_eq (by decide : 514 < 668) ops_length.symm) (Finset.mem_singleton_self _)) (take_eq_of_earlier ops_single V (i := 509) (k := 515) (by decide) (lt_of_lt_of_eq (by decide : 509 < 668) ops_length.symm) (Finset.mem_singleton_self _))
theorem eq_main_c_192 (V : Valuation τ sig (Elt F)) :
    after (ops (F := F)) V main_c_192 = (constantI S_ 32 4096#32) :=
  nullary_eq ops_single V (lt_of_lt_of_eq (by decide : 516 < 668) ops_length.symm) main_c_192 (constantI S_ 32 4096#32) ⟨by decide, rfl⟩ rfl
theorem eq_main_v322 (V : Valuation τ sig (Elt F)) :
    after (ops (F := F)) V main_v322 = (broadcastInDim S64 ![] bcast_S_S64 : (⟨S_, .i32⟩ : BufTy).Contents (Elt F) → (⟨S64, .i32⟩ : BufTy).Contents (Elt F)) (after (ops (F := F)) V main_c_192) :=
  unary_eq ops_single V (lt_of_lt_of_eq (by decide : 517 < 668) ops_length.symm) main_c_192 main_v322 (broadcastInDim S64 ![] bcast_S_S64 : (⟨S_, .i32⟩ : BufTy).Contents (Elt F) → (⟨S64, .i32⟩ : BufTy).Contents (Elt F)) ⟨by decide, rfl⟩ ⟨by decide, rfl⟩ rfl (take_eq_of_earlier ops_single V (i := 516) (k := 517) (by decide) (lt_of_lt_of_eq (by decide : 516 < 668) ops_length.symm) (Finset.mem_singleton_self _))
theorem eq_main_v323 (V : Valuation τ sig (Elt F)) :
    after (ops (F := F)) V main_v323 = (addi : (⟨S64, .i32⟩ : BufTy).Contents (Elt F) → (⟨S64, .i32⟩ : BufTy).Contents (Elt F) → (⟨S64, .i32⟩ : BufTy).Contents (Elt F)) (after (ops (F := F)) V main_c_95) (after (ops (F := F)) V main_v322) :=
  binary_eq ops_single V (lt_of_lt_of_eq (by decide : 518 < 668) ops_length.symm) main_c_95 main_v322 main_v323 (addi : (⟨S64, .i32⟩ : BufTy).Contents (Elt F) → (⟨S64, .i32⟩ : BufTy).Contents (Elt F) → (⟨S64, .i32⟩ : BufTy).Contents (Elt F)) ⟨by decide, rfl⟩ ⟨by decide, rfl⟩ ⟨by decide, rfl⟩ rfl (take_eq_of_earlier ops_single V (i := 96) (k := 518) (by decide) (lt_of_lt_of_eq (by decide : 96 < 668) ops_length.symm) (Finset.mem_singleton_self _)) (take_eq_of_earlier ops_single V (i := 517) (k := 518) (by decide) (lt_of_lt_of_eq (by decide : 517 < 668) ops_length.symm) (Finset.mem_singleton_self _))
theorem eq_main_v324 (V : Valuation τ sig (Elt F)) :
    after (ops (F := F)) V main_v324 = (select : (⟨S64, .i1⟩ : BufTy).Contents (Elt F) → (⟨S64, .i32⟩ : BufTy).Contents (Elt F) → (⟨S64, .i32⟩ : BufTy).Contents (Elt F) → (⟨S64, .i32⟩ : BufTy).Contents (Elt F)) (after (ops (F := F)) V main_c_96) (after (ops (F := F)) V main_v323) (after (ops (F := F)) V main_c_95) :=
  ternary_eq ops_single V (lt_of_lt_of_eq (by decide : 519 < 668) ops_length.symm) main_c_96 main_v323 main_c_95 main_v324 (select : (⟨S64, .i1⟩ : BufTy).Contents (Elt F) → (⟨S64, .i32⟩ : BufTy).Contents (Elt F) → (⟨S64, .i32⟩ : BufTy).Contents (Elt F) → (⟨S64, .i32⟩ : BufTy).Contents (Elt F)) ⟨by decide, rfl⟩ ⟨by decide, rfl⟩ ⟨by decide, rfl⟩ ⟨by decide, rfl⟩ rfl (take_eq_of_earlier ops_single V (i := 97) (k := 519) (by decide) (lt_of_lt_of_eq (by decide : 97 < 668) ops_length.symm) (Finset.mem_singleton_self _)) (take_eq_of_earlier ops_single V (i := 518) (k := 519) (by decide) (lt_of_lt_of_eq (by decide : 518 < 668) ops_length.symm) (Finset.mem_singleton_self _)) (take_eq_of_earlier ops_single V (i := 96) (k := 519) (by decide) (lt_of_lt_of_eq (by decide : 96 < 668) ops_length.symm) (Finset.mem_singleton_self _))
theorem eq_main_v325 (V : Valuation τ sig (Elt F)) :
    after (ops (F := F)) V main_v325 = (broadcastInDim S64x1 ![0] bcast_S64_S64x1_0 : (⟨S64, .i32⟩ : BufTy).Contents (Elt F) → (⟨S64x1, .i32⟩ : BufTy).Contents (Elt F)) (after (ops (F := F)) V main_v324) :=
  unary_eq ops_single V (lt_of_lt_of_eq (by decide : 520 < 668) ops_length.symm) main_v324 main_v325 (broadcastInDim S64x1 ![0] bcast_S64_S64x1_0 : (⟨S64, .i32⟩ : BufTy).Contents (Elt F) → (⟨S64x1, .i32⟩ : BufTy).Contents (Elt F)) ⟨by decide, rfl⟩ ⟨by decide, rfl⟩ rfl (take_eq_of_earlier ops_single V (i := 519) (k := 520) (by decide) (lt_of_lt_of_eq (by decide : 519 < 668) ops_length.symm) (Finset.mem_singleton_self _))
theorem eq_main_v326 (V : Valuation τ sig (Elt F)) :
    after (ops (F := F)) V main_v326 = ((fun x i => Host.gather gather_S8x64x4096x16_S64x1_S8x64x64x16_013_2_n_n_2_1_864116 x i) : (⟨S8x64x4096x16, .f32⟩ : BufTy).Contents (Elt F) → (⟨S64x1, .i32⟩ : BufTy).Contents (Elt F) → (⟨S8x64x64x16, .f32⟩ : BufTy).Contents (Elt F)) (after (ops (F := F)) V main_v321) (after (ops (F := F)) V main_v325) :=
  binary_eq ops_single V (lt_of_lt_of_eq (by decide : 521 < 668) ops_length.symm) main_v321 main_v325 main_v326 ((fun x i => Host.gather gather_S8x64x4096x16_S64x1_S8x64x64x16_013_2_n_n_2_1_864116 x i) : (⟨S8x64x4096x16, .f32⟩ : BufTy).Contents (Elt F) → (⟨S64x1, .i32⟩ : BufTy).Contents (Elt F) → (⟨S8x64x64x16, .f32⟩ : BufTy).Contents (Elt F)) ⟨by decide, rfl⟩ ⟨by decide, rfl⟩ ⟨by decide, rfl⟩ rfl (take_eq_of_earlier ops_single V (i := 515) (k := 521) (by decide) (lt_of_lt_of_eq (by decide : 515 < 668) ops_length.symm) (Finset.mem_singleton_self _)) (take_eq_of_earlier ops_single V (i := 520) (k := 521) (by decide) (lt_of_lt_of_eq (by decide : 520 < 668) ops_length.symm) (Finset.mem_singleton_self _))
theorem eq_main_c_193 (V : Valuation τ sig (Elt F)) :
    after (ops (F := F)) V main_c_193 = (constantI S_ 32 4096#32) :=
  nullary_eq ops_single V (lt_of_lt_of_eq (by decide : 522 < 668) ops_length.symm) main_c_193 (constantI S_ 32 4096#32) ⟨by decide, rfl⟩ rfl
theorem eq_main_v327 (V : Valuation τ sig (Elt F)) :
    after (ops (F := F)) V main_v327 = (broadcastInDim S64 ![] bcast_S_S64 : (⟨S_, .i32⟩ : BufTy).Contents (Elt F) → (⟨S64, .i32⟩ : BufTy).Contents (Elt F)) (after (ops (F := F)) V main_c_193) :=
  unary_eq ops_single V (lt_of_lt_of_eq (by decide : 523 < 668) ops_length.symm) main_c_193 main_v327 (broadcastInDim S64 ![] bcast_S_S64 : (⟨S_, .i32⟩ : BufTy).Contents (Elt F) → (⟨S64, .i32⟩ : BufTy).Contents (Elt F)) ⟨by decide, rfl⟩ ⟨by decide, rfl⟩ rfl (take_eq_of_earlier ops_single V (i := 522) (k := 523) (by decide) (lt_of_lt_of_eq (by decide : 522 < 668) ops_length.symm) (Finset.mem_singleton_self _))
theorem eq_main_v328 (V : Valuation τ sig (Elt F)) :
    after (ops (F := F)) V main_v328 = (addi : (⟨S64, .i32⟩ : BufTy).Contents (Elt F) → (⟨S64, .i32⟩ : BufTy).Contents (Elt F) → (⟨S64, .i32⟩ : BufTy).Contents (Elt F)) (after (ops (F := F)) V main_c_97) (after (ops (F := F)) V main_v327) :=
  binary_eq ops_single V (lt_of_lt_of_eq (by decide : 524 < 668) ops_length.symm) main_c_97 main_v327 main_v328 (addi : (⟨S64, .i32⟩ : BufTy).Contents (Elt F) → (⟨S64, .i32⟩ : BufTy).Contents (Elt F) → (⟨S64, .i32⟩ : BufTy).Contents (Elt F)) ⟨by decide, rfl⟩ ⟨by decide, rfl⟩ ⟨by decide, rfl⟩ rfl (take_eq_of_earlier ops_single V (i := 98) (k := 524) (by decide) (lt_of_lt_of_eq (by decide : 98 < 668) ops_length.symm) (Finset.mem_singleton_self _)) (take_eq_of_earlier ops_single V (i := 523) (k := 524) (by decide) (lt_of_lt_of_eq (by decide : 523 < 668) ops_length.symm) (Finset.mem_singleton_self _))
theorem eq_main_v329 (V : Valuation τ sig (Elt F)) :
    after (ops (F := F)) V main_v329 = (select : (⟨S64, .i1⟩ : BufTy).Contents (Elt F) → (⟨S64, .i32⟩ : BufTy).Contents (Elt F) → (⟨S64, .i32⟩ : BufTy).Contents (Elt F) → (⟨S64, .i32⟩ : BufTy).Contents (Elt F)) (after (ops (F := F)) V main_c_98) (after (ops (F := F)) V main_v328) (after (ops (F := F)) V main_c_97) :=
  ternary_eq ops_single V (lt_of_lt_of_eq (by decide : 525 < 668) ops_length.symm) main_c_98 main_v328 main_c_97 main_v329 (select : (⟨S64, .i1⟩ : BufTy).Contents (Elt F) → (⟨S64, .i32⟩ : BufTy).Contents (Elt F) → (⟨S64, .i32⟩ : BufTy).Contents (Elt F) → (⟨S64, .i32⟩ : BufTy).Contents (Elt F)) ⟨by decide, rfl⟩ ⟨by decide, rfl⟩ ⟨by decide, rfl⟩ ⟨by decide, rfl⟩ rfl (take_eq_of_earlier ops_single V (i := 99) (k := 525) (by decide) (lt_of_lt_of_eq (by decide : 99 < 668) ops_length.symm) (Finset.mem_singleton_self _)) (take_eq_of_earlier ops_single V (i := 524) (k := 525) (by decide) (lt_of_lt_of_eq (by decide : 524 < 668) ops_length.symm) (Finset.mem_singleton_self _)) (take_eq_of_earlier ops_single V (i := 98) (k := 525) (by decide) (lt_of_lt_of_eq (by decide : 98 < 668) ops_length.symm) (Finset.mem_singleton_self _))
theorem eq_main_v330 (V : Valuation τ sig (Elt F)) :
    after (ops (F := F)) V main_v330 = (broadcastInDim S64x1 ![0] bcast_S64_S64x1_0 : (⟨S64, .i32⟩ : BufTy).Contents (Elt F) → (⟨S64x1, .i32⟩ : BufTy).Contents (Elt F)) (after (ops (F := F)) V main_v329) :=
  unary_eq ops_single V (lt_of_lt_of_eq (by decide : 526 < 668) ops_length.symm) main_v329 main_v330 (broadcastInDim S64x1 ![0] bcast_S64_S64x1_0 : (⟨S64, .i32⟩ : BufTy).Contents (Elt F) → (⟨S64x1, .i32⟩ : BufTy).Contents (Elt F)) ⟨by decide, rfl⟩ ⟨by decide, rfl⟩ rfl (take_eq_of_earlier ops_single V (i := 525) (k := 526) (by decide) (lt_of_lt_of_eq (by decide : 525 < 668) ops_length.symm) (Finset.mem_singleton_self _))
theorem eq_main_v331 (V : Valuation τ sig (Elt F)) :
    after (ops (F := F)) V main_v331 = ((fun x i => Host.gather gather_S8x64x4096x16_S64x1_S8x64x64x16_013_2_n_n_2_1_864116 x i) : (⟨S8x64x4096x16, .f32⟩ : BufTy).Contents (Elt F) → (⟨S64x1, .i32⟩ : BufTy).Contents (Elt F) → (⟨S8x64x64x16, .f32⟩ : BufTy).Contents (Elt F)) (after (ops (F := F)) V main_v321) (after (ops (F := F)) V main_v330) :=
  binary_eq ops_single V (lt_of_lt_of_eq (by decide : 527 < 668) ops_length.symm) main_v321 main_v330 main_v331 ((fun x i => Host.gather gather_S8x64x4096x16_S64x1_S8x64x64x16_013_2_n_n_2_1_864116 x i) : (⟨S8x64x4096x16, .f32⟩ : BufTy).Contents (Elt F) → (⟨S64x1, .i32⟩ : BufTy).Contents (Elt F) → (⟨S8x64x64x16, .f32⟩ : BufTy).Contents (Elt F)) ⟨by decide, rfl⟩ ⟨by decide, rfl⟩ ⟨by decide, rfl⟩ rfl (take_eq_of_earlier ops_single V (i := 515) (k := 527) (by decide) (lt_of_lt_of_eq (by decide : 515 < 668) ops_length.symm) (Finset.mem_singleton_self _)) (take_eq_of_earlier ops_single V (i := 526) (k := 527) (by decide) (lt_of_lt_of_eq (by decide : 526 < 668) ops_length.symm) (Finset.mem_singleton_self _))
theorem eq_main_c_194 (V : Valuation τ sig (Elt F)) :
    after (ops (F := F)) V main_c_194 = (constantI S_ 32 4096#32) :=
  nullary_eq ops_single V (lt_of_lt_of_eq (by decide : 528 < 668) ops_length.symm) main_c_194 (constantI S_ 32 4096#32) ⟨by decide, rfl⟩ rfl
theorem eq_main_v332 (V : Valuation τ sig (Elt F)) :
    after (ops (F := F)) V main_v332 = (broadcastInDim S64 ![] bcast_S_S64 : (⟨S_, .i32⟩ : BufTy).Contents (Elt F) → (⟨S64, .i32⟩ : BufTy).Contents (Elt F)) (after (ops (F := F)) V main_c_194) :=
  unary_eq ops_single V (lt_of_lt_of_eq (by decide : 529 < 668) ops_length.symm) main_c_194 main_v332 (broadcastInDim S64 ![] bcast_S_S64 : (⟨S_, .i32⟩ : BufTy).Contents (Elt F) → (⟨S64, .i32⟩ : BufTy).Contents (Elt F)) ⟨by decide, rfl⟩ ⟨by decide, rfl⟩ rfl (take_eq_of_earlier ops_single V (i := 528) (k := 529) (by decide) (lt_of_lt_of_eq (by decide : 528 < 668) ops_length.symm) (Finset.mem_singleton_self _))
theorem eq_main_v333 (V : Valuation τ sig (Elt F)) :
    after (ops (F := F)) V main_v333 = (addi : (⟨S64, .i32⟩ : BufTy).Contents (Elt F) → (⟨S64, .i32⟩ : BufTy).Contents (Elt F) → (⟨S64, .i32⟩ : BufTy).Contents (Elt F)) (after (ops (F := F)) V main_c_95) (after (ops (F := F)) V main_v332) :=
  binary_eq ops_single V (lt_of_lt_of_eq (by decide : 530 < 668) ops_length.symm) main_c_95 main_v332 main_v333 (addi : (⟨S64, .i32⟩ : BufTy).Contents (Elt F) → (⟨S64, .i32⟩ : BufTy).Contents (Elt F) → (⟨S64, .i32⟩ : BufTy).Contents (Elt F)) ⟨by decide, rfl⟩ ⟨by decide, rfl⟩ ⟨by decide, rfl⟩ rfl (take_eq_of_earlier ops_single V (i := 96) (k := 530) (by decide) (lt_of_lt_of_eq (by decide : 96 < 668) ops_length.symm) (Finset.mem_singleton_self _)) (take_eq_of_earlier ops_single V (i := 529) (k := 530) (by decide) (lt_of_lt_of_eq (by decide : 529 < 668) ops_length.symm) (Finset.mem_singleton_self _))
theorem eq_main_v334 (V : Valuation τ sig (Elt F)) :
    after (ops (F := F)) V main_v334 = (select : (⟨S64, .i1⟩ : BufTy).Contents (Elt F) → (⟨S64, .i32⟩ : BufTy).Contents (Elt F) → (⟨S64, .i32⟩ : BufTy).Contents (Elt F) → (⟨S64, .i32⟩ : BufTy).Contents (Elt F)) (after (ops (F := F)) V main_c_99) (after (ops (F := F)) V main_v333) (after (ops (F := F)) V main_c_95) :=
  ternary_eq ops_single V (lt_of_lt_of_eq (by decide : 531 < 668) ops_length.symm) main_c_99 main_v333 main_c_95 main_v334 (select : (⟨S64, .i1⟩ : BufTy).Contents (Elt F) → (⟨S64, .i32⟩ : BufTy).Contents (Elt F) → (⟨S64, .i32⟩ : BufTy).Contents (Elt F) → (⟨S64, .i32⟩ : BufTy).Contents (Elt F)) ⟨by decide, rfl⟩ ⟨by decide, rfl⟩ ⟨by decide, rfl⟩ ⟨by decide, rfl⟩ rfl (take_eq_of_earlier ops_single V (i := 100) (k := 531) (by decide) (lt_of_lt_of_eq (by decide : 100 < 668) ops_length.symm) (Finset.mem_singleton_self _)) (take_eq_of_earlier ops_single V (i := 530) (k := 531) (by decide) (lt_of_lt_of_eq (by decide : 530 < 668) ops_length.symm) (Finset.mem_singleton_self _)) (take_eq_of_earlier ops_single V (i := 96) (k := 531) (by decide) (lt_of_lt_of_eq (by decide : 96 < 668) ops_length.symm) (Finset.mem_singleton_self _))
theorem eq_main_v335 (V : Valuation τ sig (Elt F)) :
    after (ops (F := F)) V main_v335 = (broadcastInDim S64x1 ![0] bcast_S64_S64x1_0 : (⟨S64, .i32⟩ : BufTy).Contents (Elt F) → (⟨S64x1, .i32⟩ : BufTy).Contents (Elt F)) (after (ops (F := F)) V main_v334) :=
  unary_eq ops_single V (lt_of_lt_of_eq (by decide : 532 < 668) ops_length.symm) main_v334 main_v335 (broadcastInDim S64x1 ![0] bcast_S64_S64x1_0 : (⟨S64, .i32⟩ : BufTy).Contents (Elt F) → (⟨S64x1, .i32⟩ : BufTy).Contents (Elt F)) ⟨by decide, rfl⟩ ⟨by decide, rfl⟩ rfl (take_eq_of_earlier ops_single V (i := 531) (k := 532) (by decide) (lt_of_lt_of_eq (by decide : 531 < 668) ops_length.symm) (Finset.mem_singleton_self _))
theorem eq_main_v336 (V : Valuation τ sig (Elt F)) :
    after (ops (F := F)) V main_v336 = ((fun x i u => Host.scatter scatter_S8x64x4096x16_S64x1_S8x64x64x16_013_2_2_1 (fun _ b => b) x i u) : (⟨S8x64x4096x16, .f32⟩ : BufTy).Contents (Elt F) → (⟨S64x1, .i32⟩ : BufTy).Contents (Elt F) → (⟨S8x64x64x16, .f32⟩ : BufTy).Contents (Elt F) → (⟨S8x64x4096x16, .f32⟩ : BufTy).Contents (Elt F)) (after (ops (F := F)) V main_v321) (after (ops (F := F)) V main_v335) (after (ops (F := F)) V main_v331) :=
  ternary_eq ops_single V (lt_of_lt_of_eq (by decide : 533 < 668) ops_length.symm) main_v321 main_v335 main_v331 main_v336 ((fun x i u => Host.scatter scatter_S8x64x4096x16_S64x1_S8x64x64x16_013_2_2_1 (fun _ b => b) x i u) : (⟨S8x64x4096x16, .f32⟩ : BufTy).Contents (Elt F) → (⟨S64x1, .i32⟩ : BufTy).Contents (Elt F) → (⟨S8x64x64x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 515) (k := 533) (by decide) (lt_of_lt_of_eq (by decide : 515 < 668) ops_length.symm) (Finset.mem_singleton_self _)) (take_eq_of_earlier ops_single V (i := 532) (k := 533) (by decide) (lt_of_lt_of_eq (by decide : 532 < 668) ops_length.symm) (Finset.mem_singleton_self _)) (take_eq_of_earlier ops_single V (i := 527) (k := 533) (by decide) (lt_of_lt_of_eq (by decide : 527 < 668) ops_length.symm) (Finset.mem_singleton_self _))
theorem eq_main_v337 (V : Valuation τ sig (Elt F)) :
    after (ops (F := F)) V main_v337 = (addf : (⟨S8x64x64x16, .f32⟩ : BufTy).Contents (Elt F) → (⟨S8x64x64x16, .f32⟩ : BufTy).Contents (Elt F) → (⟨S8x64x64x16, .f32⟩ : BufTy).Contents (Elt F)) (after (ops (F := F)) V main_v326) (after (ops (F := F)) V main_v331) :=
  binary_eq ops_single V (lt_of_lt_of_eq (by decide : 534 < 668) ops_length.symm) main_v326 main_v331 main_v337 (addf : (⟨S8x64x64x16, .f32⟩ : BufTy).Contents (Elt F) → (⟨S8x64x64x16, .f32⟩ : BufTy).Contents (Elt F) → (⟨S8x64x64x16, .f32⟩ : BufTy).Contents (Elt F)) ⟨by decide, rfl⟩ ⟨by decide, rfl⟩ ⟨by decide, rfl⟩ rfl (take_eq_of_earlier ops_single V (i := 521) (k := 534) (by decide) (lt_of_lt_of_eq (by decide : 521 < 668) ops_length.symm) (Finset.mem_singleton_self _)) (take_eq_of_earlier ops_single V (i := 527) (k := 534) (by decide) (lt_of_lt_of_eq (by decide : 527 < 668) ops_length.symm) (Finset.mem_singleton_self _))
theorem eq_main_c_195 (V : Valuation τ sig (Elt F)) :
    after (ops (F := F)) V main_c_195 = (constantI S_ 32 4096#32) :=
  nullary_eq ops_single V (lt_of_lt_of_eq (by decide : 535 < 668) ops_length.symm) main_c_195 (constantI S_ 32 4096#32) ⟨by decide, rfl⟩ rfl
theorem eq_main_v338 (V : Valuation τ sig (Elt F)) :
    after (ops (F := F)) V main_v338 = (broadcastInDim S64 ![] bcast_S_S64 : (⟨S_, .i32⟩ : BufTy).Contents (Elt F) → (⟨S64, .i32⟩ : BufTy).Contents (Elt F)) (after (ops (F := F)) V main_c_195) :=
  unary_eq ops_single V (lt_of_lt_of_eq (by decide : 536 < 668) ops_length.symm) main_c_195 main_v338 (broadcastInDim S64 ![] bcast_S_S64 : (⟨S_, .i32⟩ : BufTy).Contents (Elt F) → (⟨S64, .i32⟩ : BufTy).Contents (Elt F)) ⟨by decide, rfl⟩ ⟨by decide, rfl⟩ rfl (take_eq_of_earlier ops_single V (i := 535) (k := 536) (by decide) (lt_of_lt_of_eq (by decide : 535 < 668) ops_length.symm) (Finset.mem_singleton_self _))
theorem eq_main_v339 (V : Valuation τ sig (Elt F)) :
    after (ops (F := F)) V main_v339 = (addi : (⟨S64, .i32⟩ : BufTy).Contents (Elt F) → (⟨S64, .i32⟩ : BufTy).Contents (Elt F) → (⟨S64, .i32⟩ : BufTy).Contents (Elt F)) (after (ops (F := F)) V main_c_97) (after (ops (F := F)) V main_v338) :=
  binary_eq ops_single V (lt_of_lt_of_eq (by decide : 537 < 668) ops_length.symm) main_c_97 main_v338 main_v339 (addi : (⟨S64, .i32⟩ : BufTy).Contents (Elt F) → (⟨S64, .i32⟩ : BufTy).Contents (Elt F) → (⟨S64, .i32⟩ : BufTy).Contents (Elt F)) ⟨by decide, rfl⟩ ⟨by decide, rfl⟩ ⟨by decide, rfl⟩ rfl (take_eq_of_earlier ops_single V (i := 98) (k := 537) (by decide) (lt_of_lt_of_eq (by decide : 98 < 668) ops_length.symm) (Finset.mem_singleton_self _)) (take_eq_of_earlier ops_single V (i := 536) (k := 537) (by decide) (lt_of_lt_of_eq (by decide : 536 < 668) ops_length.symm) (Finset.mem_singleton_self _))
theorem eq_main_v340 (V : Valuation τ sig (Elt F)) :
    after (ops (F := F)) V main_v340 = (select : (⟨S64, .i1⟩ : BufTy).Contents (Elt F) → (⟨S64, .i32⟩ : BufTy).Contents (Elt F) → (⟨S64, .i32⟩ : BufTy).Contents (Elt F) → (⟨S64, .i32⟩ : BufTy).Contents (Elt F)) (after (ops (F := F)) V main_c_100) (after (ops (F := F)) V main_v339) (after (ops (F := F)) V main_c_97) :=
  ternary_eq ops_single V (lt_of_lt_of_eq (by decide : 538 < 668) ops_length.symm) main_c_100 main_v339 main_c_97 main_v340 (select : (⟨S64, .i1⟩ : BufTy).Contents (Elt F) → (⟨S64, .i32⟩ : BufTy).Contents (Elt F) → (⟨S64, .i32⟩ : BufTy).Contents (Elt F) → (⟨S64, .i32⟩ : BufTy).Contents (Elt F)) ⟨by decide, rfl⟩ ⟨by decide, rfl⟩ ⟨by decide, rfl⟩ ⟨by decide, rfl⟩ rfl (take_eq_of_earlier ops_single V (i := 101) (k := 538) (by decide) (lt_of_lt_of_eq (by decide : 101 < 668) ops_length.symm) (Finset.mem_singleton_self _)) (take_eq_of_earlier ops_single V (i := 537) (k := 538) (by decide) (lt_of_lt_of_eq (by decide : 537 < 668) ops_length.symm) (Finset.mem_singleton_self _)) (take_eq_of_earlier ops_single V (i := 98) (k := 538) (by decide) (lt_of_lt_of_eq (by decide : 98 < 668) ops_length.symm) (Finset.mem_singleton_self _))
theorem eq_main_v341 (V : Valuation τ sig (Elt F)) :
    after (ops (F := F)) V main_v341 = (broadcastInDim S64x1 ![0] bcast_S64_S64x1_0 : (⟨S64, .i32⟩ : BufTy).Contents (Elt F) → (⟨S64x1, .i32⟩ : BufTy).Contents (Elt F)) (after (ops (F := F)) V main_v340) :=
  unary_eq ops_single V (lt_of_lt_of_eq (by decide : 539 < 668) ops_length.symm) main_v340 main_v341 (broadcastInDim S64x1 ![0] bcast_S64_S64x1_0 : (⟨S64, .i32⟩ : BufTy).Contents (Elt F) → (⟨S64x1, .i32⟩ : BufTy).Contents (Elt F)) ⟨by decide, rfl⟩ ⟨by decide, rfl⟩ rfl (take_eq_of_earlier ops_single V (i := 538) (k := 539) (by decide) (lt_of_lt_of_eq (by decide : 538 < 668) ops_length.symm) (Finset.mem_singleton_self _))

end Cert.ReferenceIdeal.Line

end
-- ==== Proof.RefEq9.lean ====
/-
  The equations of the reference's operations in its window 9: what the whole line leaves at each operation's result is
  the operation's function of what the whole line leaves at its operands.
-/
import proofs.«140659_j42700564857293_1_alg».proof.Proof.RefSingle

noncomputable section

namespace Cert.ReferenceIdeal.Line

open Cert.ReferenceIdeal Cert.ReferenceIdeal.Gen Idealize.ShloMosaic Idealize.ShloMosaic.TcCoe Idealize.SL.Sem Idealize.ShloMosaic.StableHlo Cert.SingleAssignment

variable {F : FTy → Type} [FloatOps F]

theorem eq_main_v342 (V : Valuation τ sig (Elt F)) :
    after (ops (F := F)) V main_v342 = ((fun x i u => Host.scatter scatter_S8x64x4096x16_S64x1_S8x64x64x16_013_2_2_1 (fun _ b => b) x i u) : (⟨S8x64x4096x16, .f32⟩ : BufTy).Contents (Elt F) → (⟨S64x1, .i32⟩ : BufTy).Contents (Elt F) → (⟨S8x64x64x16, .f32⟩ : BufTy).Contents (Elt F) → (⟨S8x64x4096x16, .f32⟩ : BufTy).Contents (Elt F)) (after (ops (F := F)) V main_v336) (after (ops (F := F)) V main_v341) (after (ops (F := F)) V main_v337) :=
  ternary_eq ops_single V (lt_of_lt_of_eq (by decide : 540 < 668) ops_length.symm) main_v336 main_v341 main_v337 main_v342 ((fun x i u => Host.scatter scatter_S8x64x4096x16_S64x1_S8x64x64x16_013_2_2_1 (fun _ b => b) x i u) : (⟨S8x64x4096x16, .f32⟩ : BufTy).Contents (Elt F) → (⟨S64x1, .i32⟩ : BufTy).Contents (Elt F) → (⟨S8x64x64x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 533) (k := 540) (by decide) (lt_of_lt_of_eq (by decide : 533 < 668) ops_length.symm) (Finset.mem_singleton_self _)) (take_eq_of_earlier ops_single V (i := 539) (k := 540) (by decide) (lt_of_lt_of_eq (by decide : 539 < 668) ops_length.symm) (Finset.mem_singleton_self _)) (take_eq_of_earlier ops_single V (i := 534) (k := 540) (by decide) (lt_of_lt_of_eq (by decide : 534 < 668) ops_length.symm) (Finset.mem_singleton_self _))
theorem eq_main_c_196 (V : Valuation τ sig (Elt F)) :
    after (ops (F := F)) V main_c_196 = (constantI S_ 32 4096#32) :=
  nullary_eq ops_single V (lt_of_lt_of_eq (by decide : 541 < 668) ops_length.symm) main_c_196 (constantI S_ 32 4096#32) ⟨by decide, rfl⟩ rfl
theorem eq_main_v343 (V : Valuation τ sig (Elt F)) :
    after (ops (F := F)) V main_v343 = (broadcastInDim S128 ![] bcast_S_S128 : (⟨S_, .i32⟩ : BufTy).Contents (Elt F) → (⟨S128, .i32⟩ : BufTy).Contents (Elt F)) (after (ops (F := F)) V main_c_196) :=
  unary_eq ops_single V (lt_of_lt_of_eq (by decide : 542 < 668) ops_length.symm) main_c_196 main_v343 (broadcastInDim S128 ![] bcast_S_S128 : (⟨S_, .i32⟩ : BufTy).Contents (Elt F) → (⟨S128, .i32⟩ : BufTy).Contents (Elt F)) ⟨by decide, rfl⟩ ⟨by decide, rfl⟩ rfl (take_eq_of_earlier ops_single V (i := 541) (k := 542) (by decide) (lt_of_lt_of_eq (by decide : 541 < 668) ops_length.symm) (Finset.mem_singleton_self _))
theorem eq_main_v344 (V : Valuation τ sig (Elt F)) :
    after (ops (F := F)) V main_v344 = (addi : (⟨S128, .i32⟩ : BufTy).Contents (Elt F) → (⟨S128, .i32⟩ : BufTy).Contents (Elt F) → (⟨S128, .i32⟩ : BufTy).Contents (Elt F)) (after (ops (F := F)) V main_c_101) (after (ops (F := F)) V main_v343) :=
  binary_eq ops_single V (lt_of_lt_of_eq (by decide : 543 < 668) ops_length.symm) main_c_101 main_v343 main_v344 (addi : (⟨S128, .i32⟩ : BufTy).Contents (Elt F) → (⟨S128, .i32⟩ : BufTy).Contents (Elt F) → (⟨S128, .i32⟩ : BufTy).Contents (Elt F)) ⟨by decide, rfl⟩ ⟨by decide, rfl⟩ ⟨by decide, rfl⟩ rfl (take_eq_of_earlier ops_single V (i := 102) (k := 543) (by decide) (lt_of_lt_of_eq (by decide : 102 < 668) ops_length.symm) (Finset.mem_singleton_self _)) (take_eq_of_earlier ops_single V (i := 542) (k := 543) (by decide) (lt_of_lt_of_eq (by decide : 542 < 668) ops_length.symm) (Finset.mem_singleton_self _))
theorem eq_main_v345 (V : Valuation τ sig (Elt F)) :
    after (ops (F := F)) V main_v345 = (select : (⟨S128, .i1⟩ : BufTy).Contents (Elt F) → (⟨S128, .i32⟩ : BufTy).Contents (Elt F) → (⟨S128, .i32⟩ : BufTy).Contents (Elt F) → (⟨S128, .i32⟩ : BufTy).Contents (Elt F)) (after (ops (F := F)) V main_c_102) (after (ops (F := F)) V main_v344) (after (ops (F := F)) V main_c_101) :=
  ternary_eq ops_single V (lt_of_lt_of_eq (by decide : 544 < 668) ops_length.symm) main_c_102 main_v344 main_c_101 main_v345 (select : (⟨S128, .i1⟩ : BufTy).Contents (Elt F) → (⟨S128, .i32⟩ : BufTy).Contents (Elt F) → (⟨S128, .i32⟩ : BufTy).Contents (Elt F) → (⟨S128, .i32⟩ : BufTy).Contents (Elt F)) ⟨by decide, rfl⟩ ⟨by decide, rfl⟩ ⟨by decide, rfl⟩ ⟨by decide, rfl⟩ rfl (take_eq_of_earlier ops_single V (i := 103) (k := 544) (by decide) (lt_of_lt_of_eq (by decide : 103 < 668) ops_length.symm) (Finset.mem_singleton_self _)) (take_eq_of_earlier ops_single V (i := 543) (k := 544) (by decide) (lt_of_lt_of_eq (by decide : 543 < 668) ops_length.symm) (Finset.mem_singleton_self _)) (take_eq_of_earlier ops_single V (i := 102) (k := 544) (by decide) (lt_of_lt_of_eq (by decide : 102 < 668) ops_length.symm) (Finset.mem_singleton_self _))
theorem eq_main_v346 (V : Valuation τ sig (Elt F)) :
    after (ops (F := F)) V main_v346 = (broadcastInDim S128x1 ![0] bcast_S128_S128x1_0 : (⟨S128, .i32⟩ : BufTy).Contents (Elt F) → (⟨S128x1, .i32⟩ : BufTy).Contents (Elt F)) (after (ops (F := F)) V main_v345) :=
  unary_eq ops_single V (lt_of_lt_of_eq (by decide : 545 < 668) ops_length.symm) main_v345 main_v346 (broadcastInDim S128x1 ![0] bcast_S128_S128x1_0 : (⟨S128, .i32⟩ : BufTy).Contents (Elt F) → (⟨S128x1, .i32⟩ : BufTy).Contents (Elt F)) ⟨by decide, rfl⟩ ⟨by decide, rfl⟩ rfl (take_eq_of_earlier ops_single V (i := 544) (k := 545) (by decide) (lt_of_lt_of_eq (by decide : 544 < 668) ops_length.symm) (Finset.mem_singleton_self _))
theorem eq_main_v347 (V : Valuation τ sig (Elt F)) :
    after (ops (F := F)) V main_v347 = ((fun x i => Host.gather gather_S8x64x4096x16_S128x1_S8x64x128x16_013_2_n_n_2_1_864116 x i) : (⟨S8x64x4096x16, .f32⟩ : BufTy).Contents (Elt F) → (⟨S128x1, .i32⟩ : BufTy).Contents (Elt F) → (⟨S8x64x128x16, .f32⟩ : BufTy).Contents (Elt F)) (after (ops (F := F)) V main_v342) (after (ops (F := F)) V main_v346) :=
  binary_eq ops_single V (lt_of_lt_of_eq (by decide : 546 < 668) ops_length.symm) main_v342 main_v346 main_v347 ((fun x i => Host.gather gather_S8x64x4096x16_S128x1_S8x64x128x16_013_2_n_n_2_1_864116 x i) : (⟨S8x64x4096x16, .f32⟩ : BufTy).Contents (Elt F) → (⟨S128x1, .i32⟩ : BufTy).Contents (Elt F) → (⟨S8x64x128x16, .f32⟩ : BufTy).Contents (Elt F)) ⟨by decide, rfl⟩ ⟨by decide, rfl⟩ ⟨by decide, rfl⟩ rfl (take_eq_of_earlier ops_single V (i := 540) (k := 546) (by decide) (lt_of_lt_of_eq (by decide : 540 < 668) ops_length.symm) (Finset.mem_singleton_self _)) (take_eq_of_earlier ops_single V (i := 545) (k := 546) (by decide) (lt_of_lt_of_eq (by decide : 545 < 668) ops_length.symm) (Finset.mem_singleton_self _))
theorem eq_main_c_197 (V : Valuation τ sig (Elt F)) :
    after (ops (F := F)) V main_c_197 = (constantI S_ 32 4096#32) :=
  nullary_eq ops_single V (lt_of_lt_of_eq (by decide : 547 < 668) ops_length.symm) main_c_197 (constantI S_ 32 4096#32) ⟨by decide, rfl⟩ rfl
theorem eq_main_v348 (V : Valuation τ sig (Elt F)) :
    after (ops (F := F)) V main_v348 = (broadcastInDim S128 ![] bcast_S_S128 : (⟨S_, .i32⟩ : BufTy).Contents (Elt F) → (⟨S128, .i32⟩ : BufTy).Contents (Elt F)) (after (ops (F := F)) V main_c_197) :=
  unary_eq ops_single V (lt_of_lt_of_eq (by decide : 548 < 668) ops_length.symm) main_c_197 main_v348 (broadcastInDim S128 ![] bcast_S_S128 : (⟨S_, .i32⟩ : BufTy).Contents (Elt F) → (⟨S128, .i32⟩ : BufTy).Contents (Elt F)) ⟨by decide, rfl⟩ ⟨by decide, rfl⟩ rfl (take_eq_of_earlier ops_single V (i := 547) (k := 548) (by decide) (lt_of_lt_of_eq (by decide : 547 < 668) ops_length.symm) (Finset.mem_singleton_self _))
theorem eq_main_v349 (V : Valuation τ sig (Elt F)) :
    after (ops (F := F)) V main_v349 = (addi : (⟨S128, .i32⟩ : BufTy).Contents (Elt F) → (⟨S128, .i32⟩ : BufTy).Contents (Elt F) → (⟨S128, .i32⟩ : BufTy).Contents (Elt F)) (after (ops (F := F)) V main_c_103) (after (ops (F := F)) V main_v348) :=
  binary_eq ops_single V (lt_of_lt_of_eq (by decide : 549 < 668) ops_length.symm) main_c_103 main_v348 main_v349 (addi : (⟨S128, .i32⟩ : BufTy).Contents (Elt F) → (⟨S128, .i32⟩ : BufTy).Contents (Elt F) → (⟨S128, .i32⟩ : BufTy).Contents (Elt F)) ⟨by decide, rfl⟩ ⟨by decide, rfl⟩ ⟨by decide, rfl⟩ rfl (take_eq_of_earlier ops_single V (i := 104) (k := 549) (by decide) (lt_of_lt_of_eq (by decide : 104 < 668) ops_length.symm) (Finset.mem_singleton_self _)) (take_eq_of_earlier ops_single V (i := 548) (k := 549) (by decide) (lt_of_lt_of_eq (by decide : 548 < 668) ops_length.symm) (Finset.mem_singleton_self _))
theorem eq_main_v350 (V : Valuation τ sig (Elt F)) :
    after (ops (F := F)) V main_v350 = (select : (⟨S128, .i1⟩ : BufTy).Contents (Elt F) → (⟨S128, .i32⟩ : BufTy).Contents (Elt F) → (⟨S128, .i32⟩ : BufTy).Contents (Elt F) → (⟨S128, .i32⟩ : BufTy).Contents (Elt F)) (after (ops (F := F)) V main_c_104) (after (ops (F := F)) V main_v349) (after (ops (F := F)) V main_c_103) :=
  ternary_eq ops_single V (lt_of_lt_of_eq (by decide : 550 < 668) ops_length.symm) main_c_104 main_v349 main_c_103 main_v350 (select : (⟨S128, .i1⟩ : BufTy).Contents (Elt F) → (⟨S128, .i32⟩ : BufTy).Contents (Elt F) → (⟨S128, .i32⟩ : BufTy).Contents (Elt F) → (⟨S128, .i32⟩ : BufTy).Contents (Elt F)) ⟨by decide, rfl⟩ ⟨by decide, rfl⟩ ⟨by decide, rfl⟩ ⟨by decide, rfl⟩ rfl (take_eq_of_earlier ops_single V (i := 105) (k := 550) (by decide) (lt_of_lt_of_eq (by decide : 105 < 668) ops_length.symm) (Finset.mem_singleton_self _)) (take_eq_of_earlier ops_single V (i := 549) (k := 550) (by decide) (lt_of_lt_of_eq (by decide : 549 < 668) ops_length.symm) (Finset.mem_singleton_self _)) (take_eq_of_earlier ops_single V (i := 104) (k := 550) (by decide) (lt_of_lt_of_eq (by decide : 104 < 668) ops_length.symm) (Finset.mem_singleton_self _))
theorem eq_main_v351 (V : Valuation τ sig (Elt F)) :
    after (ops (F := F)) V main_v351 = (broadcastInDim S128x1 ![0] bcast_S128_S128x1_0 : (⟨S128, .i32⟩ : BufTy).Contents (Elt F) → (⟨S128x1, .i32⟩ : BufTy).Contents (Elt F)) (after (ops (F := F)) V main_v350) :=
  unary_eq ops_single V (lt_of_lt_of_eq (by decide : 551 < 668) ops_length.symm) main_v350 main_v351 (broadcastInDim S128x1 ![0] bcast_S128_S128x1_0 : (⟨S128, .i32⟩ : BufTy).Contents (Elt F) → (⟨S128x1, .i32⟩ : BufTy).Contents (Elt F)) ⟨by decide, rfl⟩ ⟨by decide, rfl⟩ rfl (take_eq_of_earlier ops_single V (i := 550) (k := 551) (by decide) (lt_of_lt_of_eq (by decide : 550 < 668) ops_length.symm) (Finset.mem_singleton_self _))
theorem eq_main_v352 (V : Valuation τ sig (Elt F)) :
    after (ops (F := F)) V main_v352 = ((fun x i => Host.gather gather_S8x64x4096x16_S128x1_S8x64x128x16_013_2_n_n_2_1_864116 x i) : (⟨S8x64x4096x16, .f32⟩ : BufTy).Contents (Elt F) → (⟨S128x1, .i32⟩ : BufTy).Contents (Elt F) → (⟨S8x64x128x16, .f32⟩ : BufTy).Contents (Elt F)) (after (ops (F := F)) V main_v342) (after (ops (F := F)) V main_v351) :=
  binary_eq ops_single V (lt_of_lt_of_eq (by decide : 552 < 668) ops_length.symm) main_v342 main_v351 main_v352 ((fun x i => Host.gather gather_S8x64x4096x16_S128x1_S8x64x128x16_013_2_n_n_2_1_864116 x i) : (⟨S8x64x4096x16, .f32⟩ : BufTy).Contents (Elt F) → (⟨S128x1, .i32⟩ : BufTy).Contents (Elt F) → (⟨S8x64x128x16, .f32⟩ : BufTy).Contents (Elt F)) ⟨by decide, rfl⟩ ⟨by decide, rfl⟩ ⟨by decide, rfl⟩ rfl (take_eq_of_earlier ops_single V (i := 540) (k := 552) (by decide) (lt_of_lt_of_eq (by decide : 540 < 668) ops_length.symm) (Finset.mem_singleton_self _)) (take_eq_of_earlier ops_single V (i := 551) (k := 552) (by decide) (lt_of_lt_of_eq (by decide : 551 < 668) ops_length.symm) (Finset.mem_singleton_self _))
theorem eq_main_c_198 (V : Valuation τ sig (Elt F)) :
    after (ops (F := F)) V main_c_198 = (constantI S_ 32 4096#32) :=
  nullary_eq ops_single V (lt_of_lt_of_eq (by decide : 553 < 668) ops_length.symm) main_c_198 (constantI S_ 32 4096#32) ⟨by decide, rfl⟩ rfl
theorem eq_main_v353 (V : Valuation τ sig (Elt F)) :
    after (ops (F := F)) V main_v353 = (broadcastInDim S128 ![] bcast_S_S128 : (⟨S_, .i32⟩ : BufTy).Contents (Elt F) → (⟨S128, .i32⟩ : BufTy).Contents (Elt F)) (after (ops (F := F)) V main_c_198) :=
  unary_eq ops_single V (lt_of_lt_of_eq (by decide : 554 < 668) ops_length.symm) main_c_198 main_v353 (broadcastInDim S128 ![] bcast_S_S128 : (⟨S_, .i32⟩ : BufTy).Contents (Elt F) → (⟨S128, .i32⟩ : BufTy).Contents (Elt F)) ⟨by decide, rfl⟩ ⟨by decide, rfl⟩ rfl (take_eq_of_earlier ops_single V (i := 553) (k := 554) (by decide) (lt_of_lt_of_eq (by decide : 553 < 668) ops_length.symm) (Finset.mem_singleton_self _))
theorem eq_main_v354 (V : Valuation τ sig (Elt F)) :
    after (ops (F := F)) V main_v354 = (addi : (⟨S128, .i32⟩ : BufTy).Contents (Elt F) → (⟨S128, .i32⟩ : BufTy).Contents (Elt F) → (⟨S128, .i32⟩ : BufTy).Contents (Elt F)) (after (ops (F := F)) V main_c_101) (after (ops (F := F)) V main_v353) :=
  binary_eq ops_single V (lt_of_lt_of_eq (by decide : 555 < 668) ops_length.symm) main_c_101 main_v353 main_v354 (addi : (⟨S128, .i32⟩ : BufTy).Contents (Elt F) → (⟨S128, .i32⟩ : BufTy).Contents (Elt F) → (⟨S128, .i32⟩ : BufTy).Contents (Elt F)) ⟨by decide, rfl⟩ ⟨by decide, rfl⟩ ⟨by decide, rfl⟩ rfl (take_eq_of_earlier ops_single V (i := 102) (k := 555) (by decide) (lt_of_lt_of_eq (by decide : 102 < 668) ops_length.symm) (Finset.mem_singleton_self _)) (take_eq_of_earlier ops_single V (i := 554) (k := 555) (by decide) (lt_of_lt_of_eq (by decide : 554 < 668) ops_length.symm) (Finset.mem_singleton_self _))
theorem eq_main_v355 (V : Valuation τ sig (Elt F)) :
    after (ops (F := F)) V main_v355 = (select : (⟨S128, .i1⟩ : BufTy).Contents (Elt F) → (⟨S128, .i32⟩ : BufTy).Contents (Elt F) → (⟨S128, .i32⟩ : BufTy).Contents (Elt F) → (⟨S128, .i32⟩ : BufTy).Contents (Elt F)) (after (ops (F := F)) V main_c_105) (after (ops (F := F)) V main_v354) (after (ops (F := F)) V main_c_101) :=
  ternary_eq ops_single V (lt_of_lt_of_eq (by decide : 556 < 668) ops_length.symm) main_c_105 main_v354 main_c_101 main_v355 (select : (⟨S128, .i1⟩ : BufTy).Contents (Elt F) → (⟨S128, .i32⟩ : BufTy).Contents (Elt F) → (⟨S128, .i32⟩ : BufTy).Contents (Elt F) → (⟨S128, .i32⟩ : BufTy).Contents (Elt F)) ⟨by decide, rfl⟩ ⟨by decide, rfl⟩ ⟨by decide, rfl⟩ ⟨by decide, rfl⟩ rfl (take_eq_of_earlier ops_single V (i := 106) (k := 556) (by decide) (lt_of_lt_of_eq (by decide : 106 < 668) ops_length.symm) (Finset.mem_singleton_self _)) (take_eq_of_earlier ops_single V (i := 555) (k := 556) (by decide) (lt_of_lt_of_eq (by decide : 555 < 668) ops_length.symm) (Finset.mem_singleton_self _)) (take_eq_of_earlier ops_single V (i := 102) (k := 556) (by decide) (lt_of_lt_of_eq (by decide : 102 < 668) ops_length.symm) (Finset.mem_singleton_self _))
theorem eq_main_v356 (V : Valuation τ sig (Elt F)) :
    after (ops (F := F)) V main_v356 = (broadcastInDim S128x1 ![0] bcast_S128_S128x1_0 : (⟨S128, .i32⟩ : BufTy).Contents (Elt F) → (⟨S128x1, .i32⟩ : BufTy).Contents (Elt F)) (after (ops (F := F)) V main_v355) :=
  unary_eq ops_single V (lt_of_lt_of_eq (by decide : 557 < 668) ops_length.symm) main_v355 main_v356 (broadcastInDim S128x1 ![0] bcast_S128_S128x1_0 : (⟨S128, .i32⟩ : BufTy).Contents (Elt F) → (⟨S128x1, .i32⟩ : BufTy).Contents (Elt F)) ⟨by decide, rfl⟩ ⟨by decide, rfl⟩ rfl (take_eq_of_earlier ops_single V (i := 556) (k := 557) (by decide) (lt_of_lt_of_eq (by decide : 556 < 668) ops_length.symm) (Finset.mem_singleton_self _))
theorem eq_main_v357 (V : Valuation τ sig (Elt F)) :
    after (ops (F := F)) V main_v357 = ((fun x i u => Host.scatter scatter_S8x64x4096x16_S128x1_S8x64x128x16_013_2_2_1 (fun _ b => b) x i u) : (⟨S8x64x4096x16, .f32⟩ : BufTy).Contents (Elt F) → (⟨S128x1, .i32⟩ : BufTy).Contents (Elt F) → (⟨S8x64x128x16, .f32⟩ : BufTy).Contents (Elt F) → (⟨S8x64x4096x16, .f32⟩ : BufTy).Contents (Elt F)) (after (ops (F := F)) V main_v342) (after (ops (F := F)) V main_v356) (after (ops (F := F)) V main_v352) :=
  ternary_eq ops_single V (lt_of_lt_of_eq (by decide : 558 < 668) ops_length.symm) main_v342 main_v356 main_v352 main_v357 ((fun x i u => Host.scatter scatter_S8x64x4096x16_S128x1_S8x64x128x16_013_2_2_1 (fun _ b => b) x i u) : (⟨S8x64x4096x16, .f32⟩ : BufTy).Contents (Elt F) → (⟨S128x1, .i32⟩ : BufTy).Contents (Elt F) → (⟨S8x64x128x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 540) (k := 558) (by decide) (lt_of_lt_of_eq (by decide : 540 < 668) ops_length.symm) (Finset.mem_singleton_self _)) (take_eq_of_earlier ops_single V (i := 557) (k := 558) (by decide) (lt_of_lt_of_eq (by decide : 557 < 668) ops_length.symm) (Finset.mem_singleton_self _)) (take_eq_of_earlier ops_single V (i := 552) (k := 558) (by decide) (lt_of_lt_of_eq (by decide : 552 < 668) ops_length.symm) (Finset.mem_singleton_self _))
theorem eq_main_v358 (V : Valuation τ sig (Elt F)) :
    after (ops (F := F)) V main_v358 = (addf : (⟨S8x64x128x16, .f32⟩ : BufTy).Contents (Elt F) → (⟨S8x64x128x16, .f32⟩ : BufTy).Contents (Elt F) → (⟨S8x64x128x16, .f32⟩ : BufTy).Contents (Elt F)) (after (ops (F := F)) V main_v347) (after (ops (F := F)) V main_v352) :=
  binary_eq ops_single V (lt_of_lt_of_eq (by decide : 559 < 668) ops_length.symm) main_v347 main_v352 main_v358 (addf : (⟨S8x64x128x16, .f32⟩ : BufTy).Contents (Elt F) → (⟨S8x64x128x16, .f32⟩ : BufTy).Contents (Elt F) → (⟨S8x64x128x16, .f32⟩ : BufTy).Contents (Elt F)) ⟨by decide, rfl⟩ ⟨by decide, rfl⟩ ⟨by decide, rfl⟩ rfl (take_eq_of_earlier ops_single V (i := 546) (k := 559) (by decide) (lt_of_lt_of_eq (by decide : 546 < 668) ops_length.symm) (Finset.mem_singleton_self _)) (take_eq_of_earlier ops_single V (i := 552) (k := 559) (by decide) (lt_of_lt_of_eq (by decide : 552 < 668) ops_length.symm) (Finset.mem_singleton_self _))
theorem eq_main_c_199 (V : Valuation τ sig (Elt F)) :
    after (ops (F := F)) V main_c_199 = (constantI S_ 32 4096#32) :=
  nullary_eq ops_single V (lt_of_lt_of_eq (by decide : 560 < 668) ops_length.symm) main_c_199 (constantI S_ 32 4096#32) ⟨by decide, rfl⟩ rfl
theorem eq_main_v359 (V : Valuation τ sig (Elt F)) :
    after (ops (F := F)) V main_v359 = (broadcastInDim S128 ![] bcast_S_S128 : (⟨S_, .i32⟩ : BufTy).Contents (Elt F) → (⟨S128, .i32⟩ : BufTy).Contents (Elt F)) (after (ops (F := F)) V main_c_199) :=
  unary_eq ops_single V (lt_of_lt_of_eq (by decide : 561 < 668) ops_length.symm) main_c_199 main_v359 (broadcastInDim S128 ![] bcast_S_S128 : (⟨S_, .i32⟩ : BufTy).Contents (Elt F) → (⟨S128, .i32⟩ : BufTy).Contents (Elt F)) ⟨by decide, rfl⟩ ⟨by decide, rfl⟩ rfl (take_eq_of_earlier ops_single V (i := 560) (k := 561) (by decide) (lt_of_lt_of_eq (by decide : 560 < 668) ops_length.symm) (Finset.mem_singleton_self _))
theorem eq_main_v360 (V : Valuation τ sig (Elt F)) :
    after (ops (F := F)) V main_v360 = (addi : (⟨S128, .i32⟩ : BufTy).Contents (Elt F) → (⟨S128, .i32⟩ : BufTy).Contents (Elt F) → (⟨S128, .i32⟩ : BufTy).Contents (Elt F)) (after (ops (F := F)) V main_c_103) (after (ops (F := F)) V main_v359) :=
  binary_eq ops_single V (lt_of_lt_of_eq (by decide : 562 < 668) ops_length.symm) main_c_103 main_v359 main_v360 (addi : (⟨S128, .i32⟩ : BufTy).Contents (Elt F) → (⟨S128, .i32⟩ : BufTy).Contents (Elt F) → (⟨S128, .i32⟩ : BufTy).Contents (Elt F)) ⟨by decide, rfl⟩ ⟨by decide, rfl⟩ ⟨by decide, rfl⟩ rfl (take_eq_of_earlier ops_single V (i := 104) (k := 562) (by decide) (lt_of_lt_of_eq (by decide : 104 < 668) ops_length.symm) (Finset.mem_singleton_self _)) (take_eq_of_earlier ops_single V (i := 561) (k := 562) (by decide) (lt_of_lt_of_eq (by decide : 561 < 668) ops_length.symm) (Finset.mem_singleton_self _))
theorem eq_main_v361 (V : Valuation τ sig (Elt F)) :
    after (ops (F := F)) V main_v361 = (select : (⟨S128, .i1⟩ : BufTy).Contents (Elt F) → (⟨S128, .i32⟩ : BufTy).Contents (Elt F) → (⟨S128, .i32⟩ : BufTy).Contents (Elt F) → (⟨S128, .i32⟩ : BufTy).Contents (Elt F)) (after (ops (F := F)) V main_c_106) (after (ops (F := F)) V main_v360) (after (ops (F := F)) V main_c_103) :=
  ternary_eq ops_single V (lt_of_lt_of_eq (by decide : 563 < 668) ops_length.symm) main_c_106 main_v360 main_c_103 main_v361 (select : (⟨S128, .i1⟩ : BufTy).Contents (Elt F) → (⟨S128, .i32⟩ : BufTy).Contents (Elt F) → (⟨S128, .i32⟩ : BufTy).Contents (Elt F) → (⟨S128, .i32⟩ : BufTy).Contents (Elt F)) ⟨by decide, rfl⟩ ⟨by decide, rfl⟩ ⟨by decide, rfl⟩ ⟨by decide, rfl⟩ rfl (take_eq_of_earlier ops_single V (i := 107) (k := 563) (by decide) (lt_of_lt_of_eq (by decide : 107 < 668) ops_length.symm) (Finset.mem_singleton_self _)) (take_eq_of_earlier ops_single V (i := 562) (k := 563) (by decide) (lt_of_lt_of_eq (by decide : 562 < 668) ops_length.symm) (Finset.mem_singleton_self _)) (take_eq_of_earlier ops_single V (i := 104) (k := 563) (by decide) (lt_of_lt_of_eq (by decide : 104 < 668) ops_length.symm) (Finset.mem_singleton_self _))
theorem eq_main_v362 (V : Valuation τ sig (Elt F)) :
    after (ops (F := F)) V main_v362 = (broadcastInDim S128x1 ![0] bcast_S128_S128x1_0 : (⟨S128, .i32⟩ : BufTy).Contents (Elt F) → (⟨S128x1, .i32⟩ : BufTy).Contents (Elt F)) (after (ops (F := F)) V main_v361) :=
  unary_eq ops_single V (lt_of_lt_of_eq (by decide : 564 < 668) ops_length.symm) main_v361 main_v362 (broadcastInDim S128x1 ![0] bcast_S128_S128x1_0 : (⟨S128, .i32⟩ : BufTy).Contents (Elt F) → (⟨S128x1, .i32⟩ : BufTy).Contents (Elt F)) ⟨by decide, rfl⟩ ⟨by decide, rfl⟩ rfl (take_eq_of_earlier ops_single V (i := 563) (k := 564) (by decide) (lt_of_lt_of_eq (by decide : 563 < 668) ops_length.symm) (Finset.mem_singleton_self _))
theorem eq_main_v363 (V : Valuation τ sig (Elt F)) :
    after (ops (F := F)) V main_v363 = ((fun x i u => Host.scatter scatter_S8x64x4096x16_S128x1_S8x64x128x16_013_2_2_1 (fun _ b => b) x i u) : (⟨S8x64x4096x16, .f32⟩ : BufTy).Contents (Elt F) → (⟨S128x1, .i32⟩ : BufTy).Contents (Elt F) → (⟨S8x64x128x16, .f32⟩ : BufTy).Contents (Elt F) → (⟨S8x64x4096x16, .f32⟩ : BufTy).Contents (Elt F)) (after (ops (F := F)) V main_v357) (after (ops (F := F)) V main_v362) (after (ops (F := F)) V main_v358) :=
  ternary_eq ops_single V (lt_of_lt_of_eq (by decide : 565 < 668) ops_length.symm) main_v357 main_v362 main_v358 main_v363 ((fun x i u => Host.scatter scatter_S8x64x4096x16_S128x1_S8x64x128x16_013_2_2_1 (fun _ b => b) x i u) : (⟨S8x64x4096x16, .f32⟩ : BufTy).Contents (Elt F) → (⟨S128x1, .i32⟩ : BufTy).Contents (Elt F) → (⟨S8x64x128x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 558) (k := 565) (by decide) (lt_of_lt_of_eq (by decide : 558 < 668) ops_length.symm) (Finset.mem_singleton_self _)) (take_eq_of_earlier ops_single V (i := 564) (k := 565) (by decide) (lt_of_lt_of_eq (by decide : 564 < 668) ops_length.symm) (Finset.mem_singleton_self _)) (take_eq_of_earlier ops_single V (i := 559) (k := 565) (by decide) (lt_of_lt_of_eq (by decide : 559 < 668) ops_length.symm) (Finset.mem_singleton_self _))
theorem eq_main_c_200 (V : Valuation τ sig (Elt F)) :
    after (ops (F := F)) V main_c_200 = (constantI S_ 32 4096#32) :=
  nullary_eq ops_single V (lt_of_lt_of_eq (by decide : 566 < 668) ops_length.symm) main_c_200 (constantI S_ 32 4096#32) ⟨by decide, rfl⟩ rfl
theorem eq_main_v364 (V : Valuation τ sig (Elt F)) :
    after (ops (F := F)) V main_v364 = (broadcastInDim S256 ![] bcast_S_S256 : (⟨S_, .i32⟩ : BufTy).Contents (Elt F) → (⟨S256, .i32⟩ : BufTy).Contents (Elt F)) (after (ops (F := F)) V main_c_200) :=
  unary_eq ops_single V (lt_of_lt_of_eq (by decide : 567 < 668) ops_length.symm) main_c_200 main_v364 (broadcastInDim S256 ![] bcast_S_S256 : (⟨S_, .i32⟩ : BufTy).Contents (Elt F) → (⟨S256, .i32⟩ : BufTy).Contents (Elt F)) ⟨by decide, rfl⟩ ⟨by decide, rfl⟩ rfl (take_eq_of_earlier ops_single V (i := 566) (k := 567) (by decide) (lt_of_lt_of_eq (by decide : 566 < 668) ops_length.symm) (Finset.mem_singleton_self _))
theorem eq_main_v365 (V : Valuation τ sig (Elt F)) :
    after (ops (F := F)) V main_v365 = (addi : (⟨S256, .i32⟩ : BufTy).Contents (Elt F) → (⟨S256, .i32⟩ : BufTy).Contents (Elt F) → (⟨S256, .i32⟩ : BufTy).Contents (Elt F)) (after (ops (F := F)) V main_c_107) (after (ops (F := F)) V main_v364) :=
  binary_eq ops_single V (lt_of_lt_of_eq (by decide : 568 < 668) ops_length.symm) main_c_107 main_v364 main_v365 (addi : (⟨S256, .i32⟩ : BufTy).Contents (Elt F) → (⟨S256, .i32⟩ : BufTy).Contents (Elt F) → (⟨S256, .i32⟩ : BufTy).Contents (Elt F)) ⟨by decide, rfl⟩ ⟨by decide, rfl⟩ ⟨by decide, rfl⟩ rfl (take_eq_of_earlier ops_single V (i := 108) (k := 568) (by decide) (lt_of_lt_of_eq (by decide : 108 < 668) ops_length.symm) (Finset.mem_singleton_self _)) (take_eq_of_earlier ops_single V (i := 567) (k := 568) (by decide) (lt_of_lt_of_eq (by decide : 567 < 668) ops_length.symm) (Finset.mem_singleton_self _))
theorem eq_main_v366 (V : Valuation τ sig (Elt F)) :
    after (ops (F := F)) V main_v366 = (select : (⟨S256, .i1⟩ : BufTy).Contents (Elt F) → (⟨S256, .i32⟩ : BufTy).Contents (Elt F) → (⟨S256, .i32⟩ : BufTy).Contents (Elt F) → (⟨S256, .i32⟩ : BufTy).Contents (Elt F)) (after (ops (F := F)) V main_c_108) (after (ops (F := F)) V main_v365) (after (ops (F := F)) V main_c_107) :=
  ternary_eq ops_single V (lt_of_lt_of_eq (by decide : 569 < 668) ops_length.symm) main_c_108 main_v365 main_c_107 main_v366 (select : (⟨S256, .i1⟩ : BufTy).Contents (Elt F) → (⟨S256, .i32⟩ : BufTy).Contents (Elt F) → (⟨S256, .i32⟩ : BufTy).Contents (Elt F) → (⟨S256, .i32⟩ : BufTy).Contents (Elt F)) ⟨by decide, rfl⟩ ⟨by decide, rfl⟩ ⟨by decide, rfl⟩ ⟨by decide, rfl⟩ rfl (take_eq_of_earlier ops_single V (i := 109) (k := 569) (by decide) (lt_of_lt_of_eq (by decide : 109 < 668) ops_length.symm) (Finset.mem_singleton_self _)) (take_eq_of_earlier ops_single V (i := 568) (k := 569) (by decide) (lt_of_lt_of_eq (by decide : 568 < 668) ops_length.symm) (Finset.mem_singleton_self _)) (take_eq_of_earlier ops_single V (i := 108) (k := 569) (by decide) (lt_of_lt_of_eq (by decide : 108 < 668) ops_length.symm) (Finset.mem_singleton_self _))
theorem eq_main_v367 (V : Valuation τ sig (Elt F)) :
    after (ops (F := F)) V main_v367 = (broadcastInDim S256x1 ![0] bcast_S256_S256x1_0 : (⟨S256, .i32⟩ : BufTy).Contents (Elt F) → (⟨S256x1, .i32⟩ : BufTy).Contents (Elt F)) (after (ops (F := F)) V main_v366) :=
  unary_eq ops_single V (lt_of_lt_of_eq (by decide : 570 < 668) ops_length.symm) main_v366 main_v367 (broadcastInDim S256x1 ![0] bcast_S256_S256x1_0 : (⟨S256, .i32⟩ : BufTy).Contents (Elt F) → (⟨S256x1, .i32⟩ : BufTy).Contents (Elt F)) ⟨by decide, rfl⟩ ⟨by decide, rfl⟩ rfl (take_eq_of_earlier ops_single V (i := 569) (k := 570) (by decide) (lt_of_lt_of_eq (by decide : 569 < 668) ops_length.symm) (Finset.mem_singleton_self _))
theorem eq_main_v368 (V : Valuation τ sig (Elt F)) :
    after (ops (F := F)) V main_v368 = ((fun x i => Host.gather gather_S8x64x4096x16_S256x1_S8x64x256x16_013_2_n_n_2_1_864116 x i) : (⟨S8x64x4096x16, .f32⟩ : BufTy).Contents (Elt F) → (⟨S256x1, .i32⟩ : BufTy).Contents (Elt F) → (⟨S8x64x256x16, .f32⟩ : BufTy).Contents (Elt F)) (after (ops (F := F)) V main_v363) (after (ops (F := F)) V main_v367) :=
  binary_eq ops_single V (lt_of_lt_of_eq (by decide : 571 < 668) ops_length.symm) main_v363 main_v367 main_v368 ((fun x i => Host.gather gather_S8x64x4096x16_S256x1_S8x64x256x16_013_2_n_n_2_1_864116 x i) : (⟨S8x64x4096x16, .f32⟩ : BufTy).Contents (Elt F) → (⟨S256x1, .i32⟩ : BufTy).Contents (Elt F) → (⟨S8x64x256x16, .f32⟩ : BufTy).Contents (Elt F)) ⟨by decide, rfl⟩ ⟨by decide, rfl⟩ ⟨by decide, rfl⟩ rfl (take_eq_of_earlier ops_single V (i := 565) (k := 571) (by decide) (lt_of_lt_of_eq (by decide : 565 < 668) ops_length.symm) (Finset.mem_singleton_self _)) (take_eq_of_earlier ops_single V (i := 570) (k := 571) (by decide) (lt_of_lt_of_eq (by decide : 570 < 668) ops_length.symm) (Finset.mem_singleton_self _))
theorem eq_main_c_201 (V : Valuation τ sig (Elt F)) :
    after (ops (F := F)) V main_c_201 = (constantI S_ 32 4096#32) :=
  nullary_eq ops_single V (lt_of_lt_of_eq (by decide : 572 < 668) ops_length.symm) main_c_201 (constantI S_ 32 4096#32) ⟨by decide, rfl⟩ rfl
theorem eq_main_v369 (V : Valuation τ sig (Elt F)) :
    after (ops (F := F)) V main_v369 = (broadcastInDim S256 ![] bcast_S_S256 : (⟨S_, .i32⟩ : BufTy).Contents (Elt F) → (⟨S256, .i32⟩ : BufTy).Contents (Elt F)) (after (ops (F := F)) V main_c_201) :=
  unary_eq ops_single V (lt_of_lt_of_eq (by decide : 573 < 668) ops_length.symm) main_c_201 main_v369 (broadcastInDim S256 ![] bcast_S_S256 : (⟨S_, .i32⟩ : BufTy).Contents (Elt F) → (⟨S256, .i32⟩ : BufTy).Contents (Elt F)) ⟨by decide, rfl⟩ ⟨by decide, rfl⟩ rfl (take_eq_of_earlier ops_single V (i := 572) (k := 573) (by decide) (lt_of_lt_of_eq (by decide : 572 < 668) ops_length.symm) (Finset.mem_singleton_self _))
theorem eq_main_v370 (V : Valuation τ sig (Elt F)) :
    after (ops (F := F)) V main_v370 = (addi : (⟨S256, .i32⟩ : BufTy).Contents (Elt F) → (⟨S256, .i32⟩ : BufTy).Contents (Elt F) → (⟨S256, .i32⟩ : BufTy).Contents (Elt F)) (after (ops (F := F)) V main_c_109) (after (ops (F := F)) V main_v369) :=
  binary_eq ops_single V (lt_of_lt_of_eq (by decide : 574 < 668) ops_length.symm) main_c_109 main_v369 main_v370 (addi : (⟨S256, .i32⟩ : BufTy).Contents (Elt F) → (⟨S256, .i32⟩ : BufTy).Contents (Elt F) → (⟨S256, .i32⟩ : BufTy).Contents (Elt F)) ⟨by decide, rfl⟩ ⟨by decide, rfl⟩ ⟨by decide, rfl⟩ rfl (take_eq_of_earlier ops_single V (i := 110) (k := 574) (by decide) (lt_of_lt_of_eq (by decide : 110 < 668) ops_length.symm) (Finset.mem_singleton_self _)) (take_eq_of_earlier ops_single V (i := 573) (k := 574) (by decide) (lt_of_lt_of_eq (by decide : 573 < 668) ops_length.symm) (Finset.mem_singleton_self _))
theorem eq_main_v371 (V : Valuation τ sig (Elt F)) :
    after (ops (F := F)) V main_v371 = (select : (⟨S256, .i1⟩ : BufTy).Contents (Elt F) → (⟨S256, .i32⟩ : BufTy).Contents (Elt F) → (⟨S256, .i32⟩ : BufTy).Contents (Elt F) → (⟨S256, .i32⟩ : BufTy).Contents (Elt F)) (after (ops (F := F)) V main_c_110) (after (ops (F := F)) V main_v370) (after (ops (F := F)) V main_c_109) :=
  ternary_eq ops_single V (lt_of_lt_of_eq (by decide : 575 < 668) ops_length.symm) main_c_110 main_v370 main_c_109 main_v371 (select : (⟨S256, .i1⟩ : BufTy).Contents (Elt F) → (⟨S256, .i32⟩ : BufTy).Contents (Elt F) → (⟨S256, .i32⟩ : BufTy).Contents (Elt F) → (⟨S256, .i32⟩ : BufTy).Contents (Elt F)) ⟨by decide, rfl⟩ ⟨by decide, rfl⟩ ⟨by decide, rfl⟩ ⟨by decide, rfl⟩ rfl (take_eq_of_earlier ops_single V (i := 111) (k := 575) (by decide) (lt_of_lt_of_eq (by decide : 111 < 668) ops_length.symm) (Finset.mem_singleton_self _)) (take_eq_of_earlier ops_single V (i := 574) (k := 575) (by decide) (lt_of_lt_of_eq (by decide : 574 < 668) ops_length.symm) (Finset.mem_singleton_self _)) (take_eq_of_earlier ops_single V (i := 110) (k := 575) (by decide) (lt_of_lt_of_eq (by decide : 110 < 668) ops_length.symm) (Finset.mem_singleton_self _))
theorem eq_main_v372 (V : Valuation τ sig (Elt F)) :
    after (ops (F := F)) V main_v372 = (broadcastInDim S256x1 ![0] bcast_S256_S256x1_0 : (⟨S256, .i32⟩ : BufTy).Contents (Elt F) → (⟨S256x1, .i32⟩ : BufTy).Contents (Elt F)) (after (ops (F := F)) V main_v371) :=
  unary_eq ops_single V (lt_of_lt_of_eq (by decide : 576 < 668) ops_length.symm) main_v371 main_v372 (broadcastInDim S256x1 ![0] bcast_S256_S256x1_0 : (⟨S256, .i32⟩ : BufTy).Contents (Elt F) → (⟨S256x1, .i32⟩ : BufTy).Contents (Elt F)) ⟨by decide, rfl⟩ ⟨by decide, rfl⟩ rfl (take_eq_of_earlier ops_single V (i := 575) (k := 576) (by decide) (lt_of_lt_of_eq (by decide : 575 < 668) ops_length.symm) (Finset.mem_singleton_self _))
theorem eq_main_v373 (V : Valuation τ sig (Elt F)) :
    after (ops (F := F)) V main_v373 = ((fun x i => Host.gather gather_S8x64x4096x16_S256x1_S8x64x256x16_013_2_n_n_2_1_864116 x i) : (⟨S8x64x4096x16, .f32⟩ : BufTy).Contents (Elt F) → (⟨S256x1, .i32⟩ : BufTy).Contents (Elt F) → (⟨S8x64x256x16, .f32⟩ : BufTy).Contents (Elt F)) (after (ops (F := F)) V main_v363) (after (ops (F := F)) V main_v372) :=
  binary_eq ops_single V (lt_of_lt_of_eq (by decide : 577 < 668) ops_length.symm) main_v363 main_v372 main_v373 ((fun x i => Host.gather gather_S8x64x4096x16_S256x1_S8x64x256x16_013_2_n_n_2_1_864116 x i) : (⟨S8x64x4096x16, .f32⟩ : BufTy).Contents (Elt F) → (⟨S256x1, .i32⟩ : BufTy).Contents (Elt F) → (⟨S8x64x256x16, .f32⟩ : BufTy).Contents (Elt F)) ⟨by decide, rfl⟩ ⟨by decide, rfl⟩ ⟨by decide, rfl⟩ rfl (take_eq_of_earlier ops_single V (i := 565) (k := 577) (by decide) (lt_of_lt_of_eq (by decide : 565 < 668) ops_length.symm) (Finset.mem_singleton_self _)) (take_eq_of_earlier ops_single V (i := 576) (k := 577) (by decide) (lt_of_lt_of_eq (by decide : 576 < 668) ops_length.symm) (Finset.mem_singleton_self _))
theorem eq_main_c_202 (V : Valuation τ sig (Elt F)) :
    after (ops (F := F)) V main_c_202 = (constantI S_ 32 4096#32) :=
  nullary_eq ops_single V (lt_of_lt_of_eq (by decide : 578 < 668) ops_length.symm) main_c_202 (constantI S_ 32 4096#32) ⟨by decide, rfl⟩ rfl
theorem eq_main_v374 (V : Valuation τ sig (Elt F)) :
    after (ops (F := F)) V main_v374 = (broadcastInDim S256 ![] bcast_S_S256 : (⟨S_, .i32⟩ : BufTy).Contents (Elt F) → (⟨S256, .i32⟩ : BufTy).Contents (Elt F)) (after (ops (F := F)) V main_c_202) :=
  unary_eq ops_single V (lt_of_lt_of_eq (by decide : 579 < 668) ops_length.symm) main_c_202 main_v374 (broadcastInDim S256 ![] bcast_S_S256 : (⟨S_, .i32⟩ : BufTy).Contents (Elt F) → (⟨S256, .i32⟩ : BufTy).Contents (Elt F)) ⟨by decide, rfl⟩ ⟨by decide, rfl⟩ rfl (take_eq_of_earlier ops_single V (i := 578) (k := 579) (by decide) (lt_of_lt_of_eq (by decide : 578 < 668) ops_length.symm) (Finset.mem_singleton_self _))
theorem eq_main_v375 (V : Valuation τ sig (Elt F)) :
    after (ops (F := F)) V main_v375 = (addi : (⟨S256, .i32⟩ : BufTy).Contents (Elt F) → (⟨S256, .i32⟩ : BufTy).Contents (Elt F) → (⟨S256, .i32⟩ : BufTy).Contents (Elt F)) (after (ops (F := F)) V main_c_107) (after (ops (F := F)) V main_v374) :=
  binary_eq ops_single V (lt_of_lt_of_eq (by decide : 580 < 668) ops_length.symm) main_c_107 main_v374 main_v375 (addi : (⟨S256, .i32⟩ : BufTy).Contents (Elt F) → (⟨S256, .i32⟩ : BufTy).Contents (Elt F) → (⟨S256, .i32⟩ : BufTy).Contents (Elt F)) ⟨by decide, rfl⟩ ⟨by decide, rfl⟩ ⟨by decide, rfl⟩ rfl (take_eq_of_earlier ops_single V (i := 108) (k := 580) (by decide) (lt_of_lt_of_eq (by decide : 108 < 668) ops_length.symm) (Finset.mem_singleton_self _)) (take_eq_of_earlier ops_single V (i := 579) (k := 580) (by decide) (lt_of_lt_of_eq (by decide : 579 < 668) ops_length.symm) (Finset.mem_singleton_self _))
theorem eq_main_v376 (V : Valuation τ sig (Elt F)) :
    after (ops (F := F)) V main_v376 = (select : (⟨S256, .i1⟩ : BufTy).Contents (Elt F) → (⟨S256, .i32⟩ : BufTy).Contents (Elt F) → (⟨S256, .i32⟩ : BufTy).Contents (Elt F) → (⟨S256, .i32⟩ : BufTy).Contents (Elt F)) (after (ops (F := F)) V main_c_111) (after (ops (F := F)) V main_v375) (after (ops (F := F)) V main_c_107) :=
  ternary_eq ops_single V (lt_of_lt_of_eq (by decide : 581 < 668) ops_length.symm) main_c_111 main_v375 main_c_107 main_v376 (select : (⟨S256, .i1⟩ : BufTy).Contents (Elt F) → (⟨S256, .i32⟩ : BufTy).Contents (Elt F) → (⟨S256, .i32⟩ : BufTy).Contents (Elt F) → (⟨S256, .i32⟩ : BufTy).Contents (Elt F)) ⟨by decide, rfl⟩ ⟨by decide, rfl⟩ ⟨by decide, rfl⟩ ⟨by decide, rfl⟩ rfl (take_eq_of_earlier ops_single V (i := 112) (k := 581) (by decide) (lt_of_lt_of_eq (by decide : 112 < 668) ops_length.symm) (Finset.mem_singleton_self _)) (take_eq_of_earlier ops_single V (i := 580) (k := 581) (by decide) (lt_of_lt_of_eq (by decide : 580 < 668) ops_length.symm) (Finset.mem_singleton_self _)) (take_eq_of_earlier ops_single V (i := 108) (k := 581) (by decide) (lt_of_lt_of_eq (by decide : 108 < 668) ops_length.symm) (Finset.mem_singleton_self _))
theorem eq_main_v377 (V : Valuation τ sig (Elt F)) :
    after (ops (F := F)) V main_v377 = (broadcastInDim S256x1 ![0] bcast_S256_S256x1_0 : (⟨S256, .i32⟩ : BufTy).Contents (Elt F) → (⟨S256x1, .i32⟩ : BufTy).Contents (Elt F)) (after (ops (F := F)) V main_v376) :=
  unary_eq ops_single V (lt_of_lt_of_eq (by decide : 582 < 668) ops_length.symm) main_v376 main_v377 (broadcastInDim S256x1 ![0] bcast_S256_S256x1_0 : (⟨S256, .i32⟩ : BufTy).Contents (Elt F) → (⟨S256x1, .i32⟩ : BufTy).Contents (Elt F)) ⟨by decide, rfl⟩ ⟨by decide, rfl⟩ rfl (take_eq_of_earlier ops_single V (i := 581) (k := 582) (by decide) (lt_of_lt_of_eq (by decide : 581 < 668) ops_length.symm) (Finset.mem_singleton_self _))
theorem eq_main_v378 (V : Valuation τ sig (Elt F)) :
    after (ops (F := F)) V main_v378 = ((fun x i u => Host.scatter scatter_S8x64x4096x16_S256x1_S8x64x256x16_013_2_2_1 (fun _ b => b) x i u) : (⟨S8x64x4096x16, .f32⟩ : BufTy).Contents (Elt F) → (⟨S256x1, .i32⟩ : BufTy).Contents (Elt F) → (⟨S8x64x256x16, .f32⟩ : BufTy).Contents (Elt F) → (⟨S8x64x4096x16, .f32⟩ : BufTy).Contents (Elt F)) (after (ops (F := F)) V main_v363) (after (ops (F := F)) V main_v377) (after (ops (F := F)) V main_v373) :=
  ternary_eq ops_single V (lt_of_lt_of_eq (by decide : 583 < 668) ops_length.symm) main_v363 main_v377 main_v373 main_v378 ((fun x i u => Host.scatter scatter_S8x64x4096x16_S256x1_S8x64x256x16_013_2_2_1 (fun _ b => b) x i u) : (⟨S8x64x4096x16, .f32⟩ : BufTy).Contents (Elt F) → (⟨S256x1, .i32⟩ : BufTy).Contents (Elt F) → (⟨S8x64x256x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 565) (k := 583) (by decide) (lt_of_lt_of_eq (by decide : 565 < 668) ops_length.symm) (Finset.mem_singleton_self _)) (take_eq_of_earlier ops_single V (i := 582) (k := 583) (by decide) (lt_of_lt_of_eq (by decide : 582 < 668) ops_length.symm) (Finset.mem_singleton_self _)) (take_eq_of_earlier ops_single V (i := 577) (k := 583) (by decide) (lt_of_lt_of_eq (by decide : 577 < 668) ops_length.symm) (Finset.mem_singleton_self _))
theorem eq_main_v379 (V : Valuation τ sig (Elt F)) :
    after (ops (F := F)) V main_v379 = (addf : (⟨S8x64x256x16, .f32⟩ : BufTy).Contents (Elt F) → (⟨S8x64x256x16, .f32⟩ : BufTy).Contents (Elt F) → (⟨S8x64x256x16, .f32⟩ : BufTy).Contents (Elt F)) (after (ops (F := F)) V main_v368) (after (ops (F := F)) V main_v373) :=
  binary_eq ops_single V (lt_of_lt_of_eq (by decide : 584 < 668) ops_length.symm) main_v368 main_v373 main_v379 (addf : (⟨S8x64x256x16, .f32⟩ : BufTy).Contents (Elt F) → (⟨S8x64x256x16, .f32⟩ : BufTy).Contents (Elt F) → (⟨S8x64x256x16, .f32⟩ : BufTy).Contents (Elt F)) ⟨by decide, rfl⟩ ⟨by decide, rfl⟩ ⟨by decide, rfl⟩ rfl (take_eq_of_earlier ops_single V (i := 571) (k := 584) (by decide) (lt_of_lt_of_eq (by decide : 571 < 668) ops_length.symm) (Finset.mem_singleton_self _)) (take_eq_of_earlier ops_single V (i := 577) (k := 584) (by decide) (lt_of_lt_of_eq (by decide : 577 < 668) ops_length.symm) (Finset.mem_singleton_self _))
theorem eq_main_c_203 (V : Valuation τ sig (Elt F)) :
    after (ops (F := F)) V main_c_203 = (constantI S_ 32 4096#32) :=
  nullary_eq ops_single V (lt_of_lt_of_eq (by decide : 585 < 668) ops_length.symm) main_c_203 (constantI S_ 32 4096#32) ⟨by decide, rfl⟩ rfl
theorem eq_main_v380 (V : Valuation τ sig (Elt F)) :
    after (ops (F := F)) V main_v380 = (broadcastInDim S256 ![] bcast_S_S256 : (⟨S_, .i32⟩ : BufTy).Contents (Elt F) → (⟨S256, .i32⟩ : BufTy).Contents (Elt F)) (after (ops (F := F)) V main_c_203) :=
  unary_eq ops_single V (lt_of_lt_of_eq (by decide : 586 < 668) ops_length.symm) main_c_203 main_v380 (broadcastInDim S256 ![] bcast_S_S256 : (⟨S_, .i32⟩ : BufTy).Contents (Elt F) → (⟨S256, .i32⟩ : BufTy).Contents (Elt F)) ⟨by decide, rfl⟩ ⟨by decide, rfl⟩ rfl (take_eq_of_earlier ops_single V (i := 585) (k := 586) (by decide) (lt_of_lt_of_eq (by decide : 585 < 668) ops_length.symm) (Finset.mem_singleton_self _))
theorem eq_main_v381 (V : Valuation τ sig (Elt F)) :
    after (ops (F := F)) V main_v381 = (addi : (⟨S256, .i32⟩ : BufTy).Contents (Elt F) → (⟨S256, .i32⟩ : BufTy).Contents (Elt F) → (⟨S256, .i32⟩ : BufTy).Contents (Elt F)) (after (ops (F := F)) V main_c_109) (after (ops (F := F)) V main_v380) :=
  binary_eq ops_single V (lt_of_lt_of_eq (by decide : 587 < 668) ops_length.symm) main_c_109 main_v380 main_v381 (addi : (⟨S256, .i32⟩ : BufTy).Contents (Elt F) → (⟨S256, .i32⟩ : BufTy).Contents (Elt F) → (⟨S256, .i32⟩ : BufTy).Contents (Elt F)) ⟨by decide, rfl⟩ ⟨by decide, rfl⟩ ⟨by decide, rfl⟩ rfl (take_eq_of_earlier ops_single V (i := 110) (k := 587) (by decide) (lt_of_lt_of_eq (by decide : 110 < 668) ops_length.symm) (Finset.mem_singleton_self _)) (take_eq_of_earlier ops_single V (i := 586) (k := 587) (by decide) (lt_of_lt_of_eq (by decide : 586 < 668) ops_length.symm) (Finset.mem_singleton_self _))
theorem eq_main_v382 (V : Valuation τ sig (Elt F)) :
    after (ops (F := F)) V main_v382 = (select : (⟨S256, .i1⟩ : BufTy).Contents (Elt F) → (⟨S256, .i32⟩ : BufTy).Contents (Elt F) → (⟨S256, .i32⟩ : BufTy).Contents (Elt F) → (⟨S256, .i32⟩ : BufTy).Contents (Elt F)) (after (ops (F := F)) V main_c_112) (after (ops (F := F)) V main_v381) (after (ops (F := F)) V main_c_109) :=
  ternary_eq ops_single V (lt_of_lt_of_eq (by decide : 588 < 668) ops_length.symm) main_c_112 main_v381 main_c_109 main_v382 (select : (⟨S256, .i1⟩ : BufTy).Contents (Elt F) → (⟨S256, .i32⟩ : BufTy).Contents (Elt F) → (⟨S256, .i32⟩ : BufTy).Contents (Elt F) → (⟨S256, .i32⟩ : BufTy).Contents (Elt F)) ⟨by decide, rfl⟩ ⟨by decide, rfl⟩ ⟨by decide, rfl⟩ ⟨by decide, rfl⟩ rfl (take_eq_of_earlier ops_single V (i := 113) (k := 588) (by decide) (lt_of_lt_of_eq (by decide : 113 < 668) ops_length.symm) (Finset.mem_singleton_self _)) (take_eq_of_earlier ops_single V (i := 587) (k := 588) (by decide) (lt_of_lt_of_eq (by decide : 587 < 668) ops_length.symm) (Finset.mem_singleton_self _)) (take_eq_of_earlier ops_single V (i := 110) (k := 588) (by decide) (lt_of_lt_of_eq (by decide : 110 < 668) ops_length.symm) (Finset.mem_singleton_self _))
theorem eq_main_v383 (V : Valuation τ sig (Elt F)) :
    after (ops (F := F)) V main_v383 = (broadcastInDim S256x1 ![0] bcast_S256_S256x1_0 : (⟨S256, .i32⟩ : BufTy).Contents (Elt F) → (⟨S256x1, .i32⟩ : BufTy).Contents (Elt F)) (after (ops (F := F)) V main_v382) :=
  unary_eq ops_single V (lt_of_lt_of_eq (by decide : 589 < 668) ops_length.symm) main_v382 main_v383 (broadcastInDim S256x1 ![0] bcast_S256_S256x1_0 : (⟨S256, .i32⟩ : BufTy).Contents (Elt F) → (⟨S256x1, .i32⟩ : BufTy).Contents (Elt F)) ⟨by decide, rfl⟩ ⟨by decide, rfl⟩ rfl (take_eq_of_earlier ops_single V (i := 588) (k := 589) (by decide) (lt_of_lt_of_eq (by decide : 588 < 668) ops_length.symm) (Finset.mem_singleton_self _))
theorem eq_main_v384 (V : Valuation τ sig (Elt F)) :
    after (ops (F := F)) V main_v384 = ((fun x i u => Host.scatter scatter_S8x64x4096x16_S256x1_S8x64x256x16_013_2_2_1 (fun _ b => b) x i u) : (⟨S8x64x4096x16, .f32⟩ : BufTy).Contents (Elt F) → (⟨S256x1, .i32⟩ : BufTy).Contents (Elt F) → (⟨S8x64x256x16, .f32⟩ : BufTy).Contents (Elt F) → (⟨S8x64x4096x16, .f32⟩ : BufTy).Contents (Elt F)) (after (ops (F := F)) V main_v378) (after (ops (F := F)) V main_v383) (after (ops (F := F)) V main_v379) :=
  ternary_eq ops_single V (lt_of_lt_of_eq (by decide : 590 < 668) ops_length.symm) main_v378 main_v383 main_v379 main_v384 ((fun x i u => Host.scatter scatter_S8x64x4096x16_S256x1_S8x64x256x16_013_2_2_1 (fun _ b => b) x i u) : (⟨S8x64x4096x16, .f32⟩ : BufTy).Contents (Elt F) → (⟨S256x1, .i32⟩ : BufTy).Contents (Elt F) → (⟨S8x64x256x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 583) (k := 590) (by decide) (lt_of_lt_of_eq (by decide : 583 < 668) ops_length.symm) (Finset.mem_singleton_self _)) (take_eq_of_earlier ops_single V (i := 589) (k := 590) (by decide) (lt_of_lt_of_eq (by decide : 589 < 668) ops_length.symm) (Finset.mem_singleton_self _)) (take_eq_of_earlier ops_single V (i := 584) (k := 590) (by decide) (lt_of_lt_of_eq (by decide : 584 < 668) ops_length.symm) (Finset.mem_singleton_self _))
theorem eq_main_c_204 (V : Valuation τ sig (Elt F)) :
    after (ops (F := F)) V main_c_204 = (constantI S_ 32 4096#32) :=
  nullary_eq ops_single V (lt_of_lt_of_eq (by decide : 591 < 668) ops_length.symm) main_c_204 (constantI S_ 32 4096#32) ⟨by decide, rfl⟩ rfl
theorem eq_main_v385 (V : Valuation τ sig (Elt F)) :
    after (ops (F := F)) V main_v385 = (broadcastInDim S512 ![] bcast_S_S512 : (⟨S_, .i32⟩ : BufTy).Contents (Elt F) → (⟨S512, .i32⟩ : BufTy).Contents (Elt F)) (after (ops (F := F)) V main_c_204) :=
  unary_eq ops_single V (lt_of_lt_of_eq (by decide : 592 < 668) ops_length.symm) main_c_204 main_v385 (broadcastInDim S512 ![] bcast_S_S512 : (⟨S_, .i32⟩ : BufTy).Contents (Elt F) → (⟨S512, .i32⟩ : BufTy).Contents (Elt F)) ⟨by decide, rfl⟩ ⟨by decide, rfl⟩ rfl (take_eq_of_earlier ops_single V (i := 591) (k := 592) (by decide) (lt_of_lt_of_eq (by decide : 591 < 668) ops_length.symm) (Finset.mem_singleton_self _))
theorem eq_main_v386 (V : Valuation τ sig (Elt F)) :
    after (ops (F := F)) V main_v386 = (addi : (⟨S512, .i32⟩ : BufTy).Contents (Elt F) → (⟨S512, .i32⟩ : BufTy).Contents (Elt F) → (⟨S512, .i32⟩ : BufTy).Contents (Elt F)) (after (ops (F := F)) V main_c_113) (after (ops (F := F)) V main_v385) :=
  binary_eq ops_single V (lt_of_lt_of_eq (by decide : 593 < 668) ops_length.symm) main_c_113 main_v385 main_v386 (addi : (⟨S512, .i32⟩ : BufTy).Contents (Elt F) → (⟨S512, .i32⟩ : BufTy).Contents (Elt F) → (⟨S512, .i32⟩ : BufTy).Contents (Elt F)) ⟨by decide, rfl⟩ ⟨by decide, rfl⟩ ⟨by decide, rfl⟩ rfl (take_eq_of_earlier ops_single V (i := 114) (k := 593) (by decide) (lt_of_lt_of_eq (by decide : 114 < 668) ops_length.symm) (Finset.mem_singleton_self _)) (take_eq_of_earlier ops_single V (i := 592) (k := 593) (by decide) (lt_of_lt_of_eq (by decide : 592 < 668) ops_length.symm) (Finset.mem_singleton_self _))
theorem eq_main_v387 (V : Valuation τ sig (Elt F)) :
    after (ops (F := F)) V main_v387 = (select : (⟨S512, .i1⟩ : BufTy).Contents (Elt F) → (⟨S512, .i32⟩ : BufTy).Contents (Elt F) → (⟨S512, .i32⟩ : BufTy).Contents (Elt F) → (⟨S512, .i32⟩ : BufTy).Contents (Elt F)) (after (ops (F := F)) V main_c_114) (after (ops (F := F)) V main_v386) (after (ops (F := F)) V main_c_113) :=
  ternary_eq ops_single V (lt_of_lt_of_eq (by decide : 594 < 668) ops_length.symm) main_c_114 main_v386 main_c_113 main_v387 (select : (⟨S512, .i1⟩ : BufTy).Contents (Elt F) → (⟨S512, .i32⟩ : BufTy).Contents (Elt F) → (⟨S512, .i32⟩ : BufTy).Contents (Elt F) → (⟨S512, .i32⟩ : BufTy).Contents (Elt F)) ⟨by decide, rfl⟩ ⟨by decide, rfl⟩ ⟨by decide, rfl⟩ ⟨by decide, rfl⟩ rfl (take_eq_of_earlier ops_single V (i := 115) (k := 594) (by decide) (lt_of_lt_of_eq (by decide : 115 < 668) ops_length.symm) (Finset.mem_singleton_self _)) (take_eq_of_earlier ops_single V (i := 593) (k := 594) (by decide) (lt_of_lt_of_eq (by decide : 593 < 668) ops_length.symm) (Finset.mem_singleton_self _)) (take_eq_of_earlier ops_single V (i := 114) (k := 594) (by decide) (lt_of_lt_of_eq (by decide : 114 < 668) ops_length.symm) (Finset.mem_singleton_self _))
theorem eq_main_v388 (V : Valuation τ sig (Elt F)) :
    after (ops (F := F)) V main_v388 = (broadcastInDim S512x1 ![0] bcast_S512_S512x1_0 : (⟨S512, .i32⟩ : BufTy).Contents (Elt F) → (⟨S512x1, .i32⟩ : BufTy).Contents (Elt F)) (after (ops (F := F)) V main_v387) :=
  unary_eq ops_single V (lt_of_lt_of_eq (by decide : 595 < 668) ops_length.symm) main_v387 main_v388 (broadcastInDim S512x1 ![0] bcast_S512_S512x1_0 : (⟨S512, .i32⟩ : BufTy).Contents (Elt F) → (⟨S512x1, .i32⟩ : BufTy).Contents (Elt F)) ⟨by decide, rfl⟩ ⟨by decide, rfl⟩ rfl (take_eq_of_earlier ops_single V (i := 594) (k := 595) (by decide) (lt_of_lt_of_eq (by decide : 594 < 668) ops_length.symm) (Finset.mem_singleton_self _))
theorem eq_main_v389 (V : Valuation τ sig (Elt F)) :
    after (ops (F := F)) V main_v389 = ((fun x i => Host.gather gather_S8x64x4096x16_S512x1_S8x64x512x16_013_2_n_n_2_1_864116 x i) : (⟨S8x64x4096x16, .f32⟩ : BufTy).Contents (Elt F) → (⟨S512x1, .i32⟩ : BufTy).Contents (Elt F) → (⟨S8x64x512x16, .f32⟩ : BufTy).Contents (Elt F)) (after (ops (F := F)) V main_v384) (after (ops (F := F)) V main_v388) :=
  binary_eq ops_single V (lt_of_lt_of_eq (by decide : 596 < 668) ops_length.symm) main_v384 main_v388 main_v389 ((fun x i => Host.gather gather_S8x64x4096x16_S512x1_S8x64x512x16_013_2_n_n_2_1_864116 x i) : (⟨S8x64x4096x16, .f32⟩ : BufTy).Contents (Elt F) → (⟨S512x1, .i32⟩ : BufTy).Contents (Elt F) → (⟨S8x64x512x16, .f32⟩ : BufTy).Contents (Elt F)) ⟨by decide, rfl⟩ ⟨by decide, rfl⟩ ⟨by decide, rfl⟩ rfl (take_eq_of_earlier ops_single V (i := 590) (k := 596) (by decide) (lt_of_lt_of_eq (by decide : 590 < 668) ops_length.symm) (Finset.mem_singleton_self _)) (take_eq_of_earlier ops_single V (i := 595) (k := 596) (by decide) (lt_of_lt_of_eq (by decide : 595 < 668) ops_length.symm) (Finset.mem_singleton_self _))
theorem eq_main_c_205 (V : Valuation τ sig (Elt F)) :
    after (ops (F := F)) V main_c_205 = (constantI S_ 32 4096#32) :=
  nullary_eq ops_single V (lt_of_lt_of_eq (by decide : 597 < 668) ops_length.symm) main_c_205 (constantI S_ 32 4096#32) ⟨by decide, rfl⟩ rfl
theorem eq_main_v390 (V : Valuation τ sig (Elt F)) :
    after (ops (F := F)) V main_v390 = (broadcastInDim S512 ![] bcast_S_S512 : (⟨S_, .i32⟩ : BufTy).Contents (Elt F) → (⟨S512, .i32⟩ : BufTy).Contents (Elt F)) (after (ops (F := F)) V main_c_205) :=
  unary_eq ops_single V (lt_of_lt_of_eq (by decide : 598 < 668) ops_length.symm) main_c_205 main_v390 (broadcastInDim S512 ![] bcast_S_S512 : (⟨S_, .i32⟩ : BufTy).Contents (Elt F) → (⟨S512, .i32⟩ : BufTy).Contents (Elt F)) ⟨by decide, rfl⟩ ⟨by decide, rfl⟩ rfl (take_eq_of_earlier ops_single V (i := 597) (k := 598) (by decide) (lt_of_lt_of_eq (by decide : 597 < 668) ops_length.symm) (Finset.mem_singleton_self _))
theorem eq_main_v391 (V : Valuation τ sig (Elt F)) :
    after (ops (F := F)) V main_v391 = (addi : (⟨S512, .i32⟩ : BufTy).Contents (Elt F) → (⟨S512, .i32⟩ : BufTy).Contents (Elt F) → (⟨S512, .i32⟩ : BufTy).Contents (Elt F)) (after (ops (F := F)) V main_c_115) (after (ops (F := F)) V main_v390) :=
  binary_eq ops_single V (lt_of_lt_of_eq (by decide : 599 < 668) ops_length.symm) main_c_115 main_v390 main_v391 (addi : (⟨S512, .i32⟩ : BufTy).Contents (Elt F) → (⟨S512, .i32⟩ : BufTy).Contents (Elt F) → (⟨S512, .i32⟩ : BufTy).Contents (Elt F)) ⟨by decide, rfl⟩ ⟨by decide, rfl⟩ ⟨by decide, rfl⟩ rfl (take_eq_of_earlier ops_single V (i := 116) (k := 599) (by decide) (lt_of_lt_of_eq (by decide : 116 < 668) ops_length.symm) (Finset.mem_singleton_self _)) (take_eq_of_earlier ops_single V (i := 598) (k := 599) (by decide) (lt_of_lt_of_eq (by decide : 598 < 668) ops_length.symm) (Finset.mem_singleton_self _))

end Cert.ReferenceIdeal.Line

end
-- ==== Proof.RefEq10.lean ====
/-
  The equations of the reference's operations in its window 10: what the whole line leaves at each operation's result is
  the operation's function of what the whole line leaves at its operands.
-/
import proofs.«140659_j42700564857293_1_alg».proof.Proof.RefSingle

noncomputable section

namespace Cert.ReferenceIdeal.Line

open Cert.ReferenceIdeal Cert.ReferenceIdeal.Gen Idealize.ShloMosaic Idealize.ShloMosaic.TcCoe Idealize.SL.Sem Idealize.ShloMosaic.StableHlo Cert.SingleAssignment

variable {F : FTy → Type} [FloatOps F]

theorem eq_main_v392 (V : Valuation τ sig (Elt F)) :
    after (ops (F := F)) V main_v392 = (select : (⟨S512, .i1⟩ : BufTy).Contents (Elt F) → (⟨S512, .i32⟩ : BufTy).Contents (Elt F) → (⟨S512, .i32⟩ : BufTy).Contents (Elt F) → (⟨S512, .i32⟩ : BufTy).Contents (Elt F)) (after (ops (F := F)) V main_c_116) (after (ops (F := F)) V main_v391) (after (ops (F := F)) V main_c_115) :=
  ternary_eq ops_single V (lt_of_lt_of_eq (by decide : 600 < 668) ops_length.symm) main_c_116 main_v391 main_c_115 main_v392 (select : (⟨S512, .i1⟩ : BufTy).Contents (Elt F) → (⟨S512, .i32⟩ : BufTy).Contents (Elt F) → (⟨S512, .i32⟩ : BufTy).Contents (Elt F) → (⟨S512, .i32⟩ : BufTy).Contents (Elt F)) ⟨by decide, rfl⟩ ⟨by decide, rfl⟩ ⟨by decide, rfl⟩ ⟨by decide, rfl⟩ rfl (take_eq_of_earlier ops_single V (i := 117) (k := 600) (by decide) (lt_of_lt_of_eq (by decide : 117 < 668) ops_length.symm) (Finset.mem_singleton_self _)) (take_eq_of_earlier ops_single V (i := 599) (k := 600) (by decide) (lt_of_lt_of_eq (by decide : 599 < 668) ops_length.symm) (Finset.mem_singleton_self _)) (take_eq_of_earlier ops_single V (i := 116) (k := 600) (by decide) (lt_of_lt_of_eq (by decide : 116 < 668) ops_length.symm) (Finset.mem_singleton_self _))
theorem eq_main_v393 (V : Valuation τ sig (Elt F)) :
    after (ops (F := F)) V main_v393 = (broadcastInDim S512x1 ![0] bcast_S512_S512x1_0 : (⟨S512, .i32⟩ : BufTy).Contents (Elt F) → (⟨S512x1, .i32⟩ : BufTy).Contents (Elt F)) (after (ops (F := F)) V main_v392) :=
  unary_eq ops_single V (lt_of_lt_of_eq (by decide : 601 < 668) ops_length.symm) main_v392 main_v393 (broadcastInDim S512x1 ![0] bcast_S512_S512x1_0 : (⟨S512, .i32⟩ : BufTy).Contents (Elt F) → (⟨S512x1, .i32⟩ : BufTy).Contents (Elt F)) ⟨by decide, rfl⟩ ⟨by decide, rfl⟩ rfl (take_eq_of_earlier ops_single V (i := 600) (k := 601) (by decide) (lt_of_lt_of_eq (by decide : 600 < 668) ops_length.symm) (Finset.mem_singleton_self _))
theorem eq_main_v394 (V : Valuation τ sig (Elt F)) :
    after (ops (F := F)) V main_v394 = ((fun x i => Host.gather gather_S8x64x4096x16_S512x1_S8x64x512x16_013_2_n_n_2_1_864116 x i) : (⟨S8x64x4096x16, .f32⟩ : BufTy).Contents (Elt F) → (⟨S512x1, .i32⟩ : BufTy).Contents (Elt F) → (⟨S8x64x512x16, .f32⟩ : BufTy).Contents (Elt F)) (after (ops (F := F)) V main_v384) (after (ops (F := F)) V main_v393) :=
  binary_eq ops_single V (lt_of_lt_of_eq (by decide : 602 < 668) ops_length.symm) main_v384 main_v393 main_v394 ((fun x i => Host.gather gather_S8x64x4096x16_S512x1_S8x64x512x16_013_2_n_n_2_1_864116 x i) : (⟨S8x64x4096x16, .f32⟩ : BufTy).Contents (Elt F) → (⟨S512x1, .i32⟩ : BufTy).Contents (Elt F) → (⟨S8x64x512x16, .f32⟩ : BufTy).Contents (Elt F)) ⟨by decide, rfl⟩ ⟨by decide, rfl⟩ ⟨by decide, rfl⟩ rfl (take_eq_of_earlier ops_single V (i := 590) (k := 602) (by decide) (lt_of_lt_of_eq (by decide : 590 < 668) ops_length.symm) (Finset.mem_singleton_self _)) (take_eq_of_earlier ops_single V (i := 601) (k := 602) (by decide) (lt_of_lt_of_eq (by decide : 601 < 668) ops_length.symm) (Finset.mem_singleton_self _))
theorem eq_main_c_206 (V : Valuation τ sig (Elt F)) :
    after (ops (F := F)) V main_c_206 = (constantI S_ 32 4096#32) :=
  nullary_eq ops_single V (lt_of_lt_of_eq (by decide : 603 < 668) ops_length.symm) main_c_206 (constantI S_ 32 4096#32) ⟨by decide, rfl⟩ rfl
theorem eq_main_v395 (V : Valuation τ sig (Elt F)) :
    after (ops (F := F)) V main_v395 = (broadcastInDim S512 ![] bcast_S_S512 : (⟨S_, .i32⟩ : BufTy).Contents (Elt F) → (⟨S512, .i32⟩ : BufTy).Contents (Elt F)) (after (ops (F := F)) V main_c_206) :=
  unary_eq ops_single V (lt_of_lt_of_eq (by decide : 604 < 668) ops_length.symm) main_c_206 main_v395 (broadcastInDim S512 ![] bcast_S_S512 : (⟨S_, .i32⟩ : BufTy).Contents (Elt F) → (⟨S512, .i32⟩ : BufTy).Contents (Elt F)) ⟨by decide, rfl⟩ ⟨by decide, rfl⟩ rfl (take_eq_of_earlier ops_single V (i := 603) (k := 604) (by decide) (lt_of_lt_of_eq (by decide : 603 < 668) ops_length.symm) (Finset.mem_singleton_self _))
theorem eq_main_v396 (V : Valuation τ sig (Elt F)) :
    after (ops (F := F)) V main_v396 = (addi : (⟨S512, .i32⟩ : BufTy).Contents (Elt F) → (⟨S512, .i32⟩ : BufTy).Contents (Elt F) → (⟨S512, .i32⟩ : BufTy).Contents (Elt F)) (after (ops (F := F)) V main_c_113) (after (ops (F := F)) V main_v395) :=
  binary_eq ops_single V (lt_of_lt_of_eq (by decide : 605 < 668) ops_length.symm) main_c_113 main_v395 main_v396 (addi : (⟨S512, .i32⟩ : BufTy).Contents (Elt F) → (⟨S512, .i32⟩ : BufTy).Contents (Elt F) → (⟨S512, .i32⟩ : BufTy).Contents (Elt F)) ⟨by decide, rfl⟩ ⟨by decide, rfl⟩ ⟨by decide, rfl⟩ rfl (take_eq_of_earlier ops_single V (i := 114) (k := 605) (by decide) (lt_of_lt_of_eq (by decide : 114 < 668) ops_length.symm) (Finset.mem_singleton_self _)) (take_eq_of_earlier ops_single V (i := 604) (k := 605) (by decide) (lt_of_lt_of_eq (by decide : 604 < 668) ops_length.symm) (Finset.mem_singleton_self _))
theorem eq_main_v397 (V : Valuation τ sig (Elt F)) :
    after (ops (F := F)) V main_v397 = (select : (⟨S512, .i1⟩ : BufTy).Contents (Elt F) → (⟨S512, .i32⟩ : BufTy).Contents (Elt F) → (⟨S512, .i32⟩ : BufTy).Contents (Elt F) → (⟨S512, .i32⟩ : BufTy).Contents (Elt F)) (after (ops (F := F)) V main_c_117) (after (ops (F := F)) V main_v396) (after (ops (F := F)) V main_c_113) :=
  ternary_eq ops_single V (lt_of_lt_of_eq (by decide : 606 < 668) ops_length.symm) main_c_117 main_v396 main_c_113 main_v397 (select : (⟨S512, .i1⟩ : BufTy).Contents (Elt F) → (⟨S512, .i32⟩ : BufTy).Contents (Elt F) → (⟨S512, .i32⟩ : BufTy).Contents (Elt F) → (⟨S512, .i32⟩ : BufTy).Contents (Elt F)) ⟨by decide, rfl⟩ ⟨by decide, rfl⟩ ⟨by decide, rfl⟩ ⟨by decide, rfl⟩ rfl (take_eq_of_earlier ops_single V (i := 118) (k := 606) (by decide) (lt_of_lt_of_eq (by decide : 118 < 668) ops_length.symm) (Finset.mem_singleton_self _)) (take_eq_of_earlier ops_single V (i := 605) (k := 606) (by decide) (lt_of_lt_of_eq (by decide : 605 < 668) ops_length.symm) (Finset.mem_singleton_self _)) (take_eq_of_earlier ops_single V (i := 114) (k := 606) (by decide) (lt_of_lt_of_eq (by decide : 114 < 668) ops_length.symm) (Finset.mem_singleton_self _))
theorem eq_main_v398 (V : Valuation τ sig (Elt F)) :
    after (ops (F := F)) V main_v398 = (broadcastInDim S512x1 ![0] bcast_S512_S512x1_0 : (⟨S512, .i32⟩ : BufTy).Contents (Elt F) → (⟨S512x1, .i32⟩ : BufTy).Contents (Elt F)) (after (ops (F := F)) V main_v397) :=
  unary_eq ops_single V (lt_of_lt_of_eq (by decide : 607 < 668) ops_length.symm) main_v397 main_v398 (broadcastInDim S512x1 ![0] bcast_S512_S512x1_0 : (⟨S512, .i32⟩ : BufTy).Contents (Elt F) → (⟨S512x1, .i32⟩ : BufTy).Contents (Elt F)) ⟨by decide, rfl⟩ ⟨by decide, rfl⟩ rfl (take_eq_of_earlier ops_single V (i := 606) (k := 607) (by decide) (lt_of_lt_of_eq (by decide : 606 < 668) ops_length.symm) (Finset.mem_singleton_self _))
theorem eq_main_v399 (V : Valuation τ sig (Elt F)) :
    after (ops (F := F)) V main_v399 = ((fun x i u => Host.scatter scatter_S8x64x4096x16_S512x1_S8x64x512x16_013_2_2_1 (fun _ b => b) x i u) : (⟨S8x64x4096x16, .f32⟩ : BufTy).Contents (Elt F) → (⟨S512x1, .i32⟩ : BufTy).Contents (Elt F) → (⟨S8x64x512x16, .f32⟩ : BufTy).Contents (Elt F) → (⟨S8x64x4096x16, .f32⟩ : BufTy).Contents (Elt F)) (after (ops (F := F)) V main_v384) (after (ops (F := F)) V main_v398) (after (ops (F := F)) V main_v394) :=
  ternary_eq ops_single V (lt_of_lt_of_eq (by decide : 608 < 668) ops_length.symm) main_v384 main_v398 main_v394 main_v399 ((fun x i u => Host.scatter scatter_S8x64x4096x16_S512x1_S8x64x512x16_013_2_2_1 (fun _ b => b) x i u) : (⟨S8x64x4096x16, .f32⟩ : BufTy).Contents (Elt F) → (⟨S512x1, .i32⟩ : BufTy).Contents (Elt F) → (⟨S8x64x512x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 590) (k := 608) (by decide) (lt_of_lt_of_eq (by decide : 590 < 668) ops_length.symm) (Finset.mem_singleton_self _)) (take_eq_of_earlier ops_single V (i := 607) (k := 608) (by decide) (lt_of_lt_of_eq (by decide : 607 < 668) ops_length.symm) (Finset.mem_singleton_self _)) (take_eq_of_earlier ops_single V (i := 602) (k := 608) (by decide) (lt_of_lt_of_eq (by decide : 602 < 668) ops_length.symm) (Finset.mem_singleton_self _))
theorem eq_main_v400 (V : Valuation τ sig (Elt F)) :
    after (ops (F := F)) V main_v400 = (addf : (⟨S8x64x512x16, .f32⟩ : BufTy).Contents (Elt F) → (⟨S8x64x512x16, .f32⟩ : BufTy).Contents (Elt F) → (⟨S8x64x512x16, .f32⟩ : BufTy).Contents (Elt F)) (after (ops (F := F)) V main_v389) (after (ops (F := F)) V main_v394) :=
  binary_eq ops_single V (lt_of_lt_of_eq (by decide : 609 < 668) ops_length.symm) main_v389 main_v394 main_v400 (addf : (⟨S8x64x512x16, .f32⟩ : BufTy).Contents (Elt F) → (⟨S8x64x512x16, .f32⟩ : BufTy).Contents (Elt F) → (⟨S8x64x512x16, .f32⟩ : BufTy).Contents (Elt F)) ⟨by decide, rfl⟩ ⟨by decide, rfl⟩ ⟨by decide, rfl⟩ rfl (take_eq_of_earlier ops_single V (i := 596) (k := 609) (by decide) (lt_of_lt_of_eq (by decide : 596 < 668) ops_length.symm) (Finset.mem_singleton_self _)) (take_eq_of_earlier ops_single V (i := 602) (k := 609) (by decide) (lt_of_lt_of_eq (by decide : 602 < 668) ops_length.symm) (Finset.mem_singleton_self _))
theorem eq_main_c_207 (V : Valuation τ sig (Elt F)) :
    after (ops (F := F)) V main_c_207 = (constantI S_ 32 4096#32) :=
  nullary_eq ops_single V (lt_of_lt_of_eq (by decide : 610 < 668) ops_length.symm) main_c_207 (constantI S_ 32 4096#32) ⟨by decide, rfl⟩ rfl
theorem eq_main_v401 (V : Valuation τ sig (Elt F)) :
    after (ops (F := F)) V main_v401 = (broadcastInDim S512 ![] bcast_S_S512 : (⟨S_, .i32⟩ : BufTy).Contents (Elt F) → (⟨S512, .i32⟩ : BufTy).Contents (Elt F)) (after (ops (F := F)) V main_c_207) :=
  unary_eq ops_single V (lt_of_lt_of_eq (by decide : 611 < 668) ops_length.symm) main_c_207 main_v401 (broadcastInDim S512 ![] bcast_S_S512 : (⟨S_, .i32⟩ : BufTy).Contents (Elt F) → (⟨S512, .i32⟩ : BufTy).Contents (Elt F)) ⟨by decide, rfl⟩ ⟨by decide, rfl⟩ rfl (take_eq_of_earlier ops_single V (i := 610) (k := 611) (by decide) (lt_of_lt_of_eq (by decide : 610 < 668) ops_length.symm) (Finset.mem_singleton_self _))
theorem eq_main_v402 (V : Valuation τ sig (Elt F)) :
    after (ops (F := F)) V main_v402 = (addi : (⟨S512, .i32⟩ : BufTy).Contents (Elt F) → (⟨S512, .i32⟩ : BufTy).Contents (Elt F) → (⟨S512, .i32⟩ : BufTy).Contents (Elt F)) (after (ops (F := F)) V main_c_115) (after (ops (F := F)) V main_v401) :=
  binary_eq ops_single V (lt_of_lt_of_eq (by decide : 612 < 668) ops_length.symm) main_c_115 main_v401 main_v402 (addi : (⟨S512, .i32⟩ : BufTy).Contents (Elt F) → (⟨S512, .i32⟩ : BufTy).Contents (Elt F) → (⟨S512, .i32⟩ : BufTy).Contents (Elt F)) ⟨by decide, rfl⟩ ⟨by decide, rfl⟩ ⟨by decide, rfl⟩ rfl (take_eq_of_earlier ops_single V (i := 116) (k := 612) (by decide) (lt_of_lt_of_eq (by decide : 116 < 668) ops_length.symm) (Finset.mem_singleton_self _)) (take_eq_of_earlier ops_single V (i := 611) (k := 612) (by decide) (lt_of_lt_of_eq (by decide : 611 < 668) ops_length.symm) (Finset.mem_singleton_self _))
theorem eq_main_v403 (V : Valuation τ sig (Elt F)) :
    after (ops (F := F)) V main_v403 = (select : (⟨S512, .i1⟩ : BufTy).Contents (Elt F) → (⟨S512, .i32⟩ : BufTy).Contents (Elt F) → (⟨S512, .i32⟩ : BufTy).Contents (Elt F) → (⟨S512, .i32⟩ : BufTy).Contents (Elt F)) (after (ops (F := F)) V main_c_118) (after (ops (F := F)) V main_v402) (after (ops (F := F)) V main_c_115) :=
  ternary_eq ops_single V (lt_of_lt_of_eq (by decide : 613 < 668) ops_length.symm) main_c_118 main_v402 main_c_115 main_v403 (select : (⟨S512, .i1⟩ : BufTy).Contents (Elt F) → (⟨S512, .i32⟩ : BufTy).Contents (Elt F) → (⟨S512, .i32⟩ : BufTy).Contents (Elt F) → (⟨S512, .i32⟩ : BufTy).Contents (Elt F)) ⟨by decide, rfl⟩ ⟨by decide, rfl⟩ ⟨by decide, rfl⟩ ⟨by decide, rfl⟩ rfl (take_eq_of_earlier ops_single V (i := 119) (k := 613) (by decide) (lt_of_lt_of_eq (by decide : 119 < 668) ops_length.symm) (Finset.mem_singleton_self _)) (take_eq_of_earlier ops_single V (i := 612) (k := 613) (by decide) (lt_of_lt_of_eq (by decide : 612 < 668) ops_length.symm) (Finset.mem_singleton_self _)) (take_eq_of_earlier ops_single V (i := 116) (k := 613) (by decide) (lt_of_lt_of_eq (by decide : 116 < 668) ops_length.symm) (Finset.mem_singleton_self _))
theorem eq_main_v404 (V : Valuation τ sig (Elt F)) :
    after (ops (F := F)) V main_v404 = (broadcastInDim S512x1 ![0] bcast_S512_S512x1_0 : (⟨S512, .i32⟩ : BufTy).Contents (Elt F) → (⟨S512x1, .i32⟩ : BufTy).Contents (Elt F)) (after (ops (F := F)) V main_v403) :=
  unary_eq ops_single V (lt_of_lt_of_eq (by decide : 614 < 668) ops_length.symm) main_v403 main_v404 (broadcastInDim S512x1 ![0] bcast_S512_S512x1_0 : (⟨S512, .i32⟩ : BufTy).Contents (Elt F) → (⟨S512x1, .i32⟩ : BufTy).Contents (Elt F)) ⟨by decide, rfl⟩ ⟨by decide, rfl⟩ rfl (take_eq_of_earlier ops_single V (i := 613) (k := 614) (by decide) (lt_of_lt_of_eq (by decide : 613 < 668) ops_length.symm) (Finset.mem_singleton_self _))
theorem eq_main_v405 (V : Valuation τ sig (Elt F)) :
    after (ops (F := F)) V main_v405 = ((fun x i u => Host.scatter scatter_S8x64x4096x16_S512x1_S8x64x512x16_013_2_2_1 (fun _ b => b) x i u) : (⟨S8x64x4096x16, .f32⟩ : BufTy).Contents (Elt F) → (⟨S512x1, .i32⟩ : BufTy).Contents (Elt F) → (⟨S8x64x512x16, .f32⟩ : BufTy).Contents (Elt F) → (⟨S8x64x4096x16, .f32⟩ : BufTy).Contents (Elt F)) (after (ops (F := F)) V main_v399) (after (ops (F := F)) V main_v404) (after (ops (F := F)) V main_v400) :=
  ternary_eq ops_single V (lt_of_lt_of_eq (by decide : 615 < 668) ops_length.symm) main_v399 main_v404 main_v400 main_v405 ((fun x i u => Host.scatter scatter_S8x64x4096x16_S512x1_S8x64x512x16_013_2_2_1 (fun _ b => b) x i u) : (⟨S8x64x4096x16, .f32⟩ : BufTy).Contents (Elt F) → (⟨S512x1, .i32⟩ : BufTy).Contents (Elt F) → (⟨S8x64x512x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 608) (k := 615) (by decide) (lt_of_lt_of_eq (by decide : 608 < 668) ops_length.symm) (Finset.mem_singleton_self _)) (take_eq_of_earlier ops_single V (i := 614) (k := 615) (by decide) (lt_of_lt_of_eq (by decide : 614 < 668) ops_length.symm) (Finset.mem_singleton_self _)) (take_eq_of_earlier ops_single V (i := 609) (k := 615) (by decide) (lt_of_lt_of_eq (by decide : 609 < 668) ops_length.symm) (Finset.mem_singleton_self _))
theorem eq_main_c_208 (V : Valuation τ sig (Elt F)) :
    after (ops (F := F)) V main_c_208 = (constantI S_ 32 4096#32) :=
  nullary_eq ops_single V (lt_of_lt_of_eq (by decide : 616 < 668) ops_length.symm) main_c_208 (constantI S_ 32 4096#32) ⟨by decide, rfl⟩ rfl
theorem eq_main_v406 (V : Valuation τ sig (Elt F)) :
    after (ops (F := F)) V main_v406 = (broadcastInDim S1024 ![] bcast_S_S1024 : (⟨S_, .i32⟩ : BufTy).Contents (Elt F) → (⟨S1024, .i32⟩ : BufTy).Contents (Elt F)) (after (ops (F := F)) V main_c_208) :=
  unary_eq ops_single V (lt_of_lt_of_eq (by decide : 617 < 668) ops_length.symm) main_c_208 main_v406 (broadcastInDim S1024 ![] bcast_S_S1024 : (⟨S_, .i32⟩ : BufTy).Contents (Elt F) → (⟨S1024, .i32⟩ : BufTy).Contents (Elt F)) ⟨by decide, rfl⟩ ⟨by decide, rfl⟩ rfl (take_eq_of_earlier ops_single V (i := 616) (k := 617) (by decide) (lt_of_lt_of_eq (by decide : 616 < 668) ops_length.symm) (Finset.mem_singleton_self _))
theorem eq_main_v407 (V : Valuation τ sig (Elt F)) :
    after (ops (F := F)) V main_v407 = (addi : (⟨S1024, .i32⟩ : BufTy).Contents (Elt F) → (⟨S1024, .i32⟩ : BufTy).Contents (Elt F) → (⟨S1024, .i32⟩ : BufTy).Contents (Elt F)) (after (ops (F := F)) V main_c_119) (after (ops (F := F)) V main_v406) :=
  binary_eq ops_single V (lt_of_lt_of_eq (by decide : 618 < 668) ops_length.symm) main_c_119 main_v406 main_v407 (addi : (⟨S1024, .i32⟩ : BufTy).Contents (Elt F) → (⟨S1024, .i32⟩ : BufTy).Contents (Elt F) → (⟨S1024, .i32⟩ : BufTy).Contents (Elt F)) ⟨by decide, rfl⟩ ⟨by decide, rfl⟩ ⟨by decide, rfl⟩ rfl (take_eq_of_earlier ops_single V (i := 120) (k := 618) (by decide) (lt_of_lt_of_eq (by decide : 120 < 668) ops_length.symm) (Finset.mem_singleton_self _)) (take_eq_of_earlier ops_single V (i := 617) (k := 618) (by decide) (lt_of_lt_of_eq (by decide : 617 < 668) ops_length.symm) (Finset.mem_singleton_self _))
theorem eq_main_v408 (V : Valuation τ sig (Elt F)) :
    after (ops (F := F)) V main_v408 = (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) (after (ops (F := F)) V main_c_120) (after (ops (F := F)) V main_v407) (after (ops (F := F)) V main_c_119) :=
  ternary_eq ops_single V (lt_of_lt_of_eq (by decide : 619 < 668) ops_length.symm) main_c_120 main_v407 main_c_119 main_v408 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) ⟨by decide, rfl⟩ ⟨by decide, rfl⟩ ⟨by decide, rfl⟩ ⟨by decide, rfl⟩ rfl (take_eq_of_earlier ops_single V (i := 121) (k := 619) (by decide) (lt_of_lt_of_eq (by decide : 121 < 668) ops_length.symm) (Finset.mem_singleton_self _)) (take_eq_of_earlier ops_single V (i := 618) (k := 619) (by decide) (lt_of_lt_of_eq (by decide : 618 < 668) ops_length.symm) (Finset.mem_singleton_self _)) (take_eq_of_earlier ops_single V (i := 120) (k := 619) (by decide) (lt_of_lt_of_eq (by decide : 120 < 668) ops_length.symm) (Finset.mem_singleton_self _))
theorem eq_main_v409 (V : Valuation τ sig (Elt F)) :
    after (ops (F := F)) V main_v409 = (broadcastInDim S1024x1 ![0] bcast_S1024_S1024x1_0 : (⟨S1024, .i32⟩ : BufTy).Contents (Elt F) → (⟨S1024x1, .i32⟩ : BufTy).Contents (Elt F)) (after (ops (F := F)) V main_v408) :=
  unary_eq ops_single V (lt_of_lt_of_eq (by decide : 620 < 668) ops_length.symm) main_v408 main_v409 (broadcastInDim S1024x1 ![0] bcast_S1024_S1024x1_0 : (⟨S1024, .i32⟩ : BufTy).Contents (Elt F) → (⟨S1024x1, .i32⟩ : BufTy).Contents (Elt F)) ⟨by decide, rfl⟩ ⟨by decide, rfl⟩ rfl (take_eq_of_earlier ops_single V (i := 619) (k := 620) (by decide) (lt_of_lt_of_eq (by decide : 619 < 668) ops_length.symm) (Finset.mem_singleton_self _))
theorem eq_main_v410 (V : Valuation τ sig (Elt F)) :
    after (ops (F := F)) V main_v410 = ((fun x i => Host.gather gather_S8x64x4096x16_S1024x1_S8x64x1024x16_013_2_n_n_2_1_864116 x i) : (⟨S8x64x4096x16, .f32⟩ : BufTy).Contents (Elt F) → (⟨S1024x1, .i32⟩ : BufTy).Contents (Elt F) → (⟨S8x64x1024x16, .f32⟩ : BufTy).Contents (Elt F)) (after (ops (F := F)) V main_v405) (after (ops (F := F)) V main_v409) :=
  binary_eq ops_single V (lt_of_lt_of_eq (by decide : 621 < 668) ops_length.symm) main_v405 main_v409 main_v410 ((fun x i => Host.gather gather_S8x64x4096x16_S1024x1_S8x64x1024x16_013_2_n_n_2_1_864116 x i) : (⟨S8x64x4096x16, .f32⟩ : BufTy).Contents (Elt F) → (⟨S1024x1, .i32⟩ : BufTy).Contents (Elt F) → (⟨S8x64x1024x16, .f32⟩ : BufTy).Contents (Elt F)) ⟨by decide, rfl⟩ ⟨by decide, rfl⟩ ⟨by decide, rfl⟩ rfl (take_eq_of_earlier ops_single V (i := 615) (k := 621) (by decide) (lt_of_lt_of_eq (by decide : 615 < 668) ops_length.symm) (Finset.mem_singleton_self _)) (take_eq_of_earlier ops_single V (i := 620) (k := 621) (by decide) (lt_of_lt_of_eq (by decide : 620 < 668) ops_length.symm) (Finset.mem_singleton_self _))
theorem eq_main_c_209 (V : Valuation τ sig (Elt F)) :
    after (ops (F := F)) V main_c_209 = (constantI S_ 32 4096#32) :=
  nullary_eq ops_single V (lt_of_lt_of_eq (by decide : 622 < 668) ops_length.symm) main_c_209 (constantI S_ 32 4096#32) ⟨by decide, rfl⟩ rfl
theorem eq_main_v411 (V : Valuation τ sig (Elt F)) :
    after (ops (F := F)) V main_v411 = (broadcastInDim S1024 ![] bcast_S_S1024 : (⟨S_, .i32⟩ : BufTy).Contents (Elt F) → (⟨S1024, .i32⟩ : BufTy).Contents (Elt F)) (after (ops (F := F)) V main_c_209) :=
  unary_eq ops_single V (lt_of_lt_of_eq (by decide : 623 < 668) ops_length.symm) main_c_209 main_v411 (broadcastInDim S1024 ![] bcast_S_S1024 : (⟨S_, .i32⟩ : BufTy).Contents (Elt F) → (⟨S1024, .i32⟩ : BufTy).Contents (Elt F)) ⟨by decide, rfl⟩ ⟨by decide, rfl⟩ rfl (take_eq_of_earlier ops_single V (i := 622) (k := 623) (by decide) (lt_of_lt_of_eq (by decide : 622 < 668) ops_length.symm) (Finset.mem_singleton_self _))
theorem eq_main_v412 (V : Valuation τ sig (Elt F)) :
    after (ops (F := F)) V main_v412 = (addi : (⟨S1024, .i32⟩ : BufTy).Contents (Elt F) → (⟨S1024, .i32⟩ : BufTy).Contents (Elt F) → (⟨S1024, .i32⟩ : BufTy).Contents (Elt F)) (after (ops (F := F)) V main_c_121) (after (ops (F := F)) V main_v411) :=
  binary_eq ops_single V (lt_of_lt_of_eq (by decide : 624 < 668) ops_length.symm) main_c_121 main_v411 main_v412 (addi : (⟨S1024, .i32⟩ : BufTy).Contents (Elt F) → (⟨S1024, .i32⟩ : BufTy).Contents (Elt F) → (⟨S1024, .i32⟩ : BufTy).Contents (Elt F)) ⟨by decide, rfl⟩ ⟨by decide, rfl⟩ ⟨by decide, rfl⟩ rfl (take_eq_of_earlier ops_single V (i := 122) (k := 624) (by decide) (lt_of_lt_of_eq (by decide : 122 < 668) ops_length.symm) (Finset.mem_singleton_self _)) (take_eq_of_earlier ops_single V (i := 623) (k := 624) (by decide) (lt_of_lt_of_eq (by decide : 623 < 668) ops_length.symm) (Finset.mem_singleton_self _))
theorem eq_main_v413 (V : Valuation τ sig (Elt F)) :
    after (ops (F := F)) V main_v413 = (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) (after (ops (F := F)) V main_c_122) (after (ops (F := F)) V main_v412) (after (ops (F := F)) V main_c_121) :=
  ternary_eq ops_single V (lt_of_lt_of_eq (by decide : 625 < 668) ops_length.symm) main_c_122 main_v412 main_c_121 main_v413 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) ⟨by decide, rfl⟩ ⟨by decide, rfl⟩ ⟨by decide, rfl⟩ ⟨by decide, rfl⟩ rfl (take_eq_of_earlier ops_single V (i := 123) (k := 625) (by decide) (lt_of_lt_of_eq (by decide : 123 < 668) ops_length.symm) (Finset.mem_singleton_self _)) (take_eq_of_earlier ops_single V (i := 624) (k := 625) (by decide) (lt_of_lt_of_eq (by decide : 624 < 668) ops_length.symm) (Finset.mem_singleton_self _)) (take_eq_of_earlier ops_single V (i := 122) (k := 625) (by decide) (lt_of_lt_of_eq (by decide : 122 < 668) ops_length.symm) (Finset.mem_singleton_self _))
theorem eq_main_v414 (V : Valuation τ sig (Elt F)) :
    after (ops (F := F)) V main_v414 = (broadcastInDim S1024x1 ![0] bcast_S1024_S1024x1_0 : (⟨S1024, .i32⟩ : BufTy).Contents (Elt F) → (⟨S1024x1, .i32⟩ : BufTy).Contents (Elt F)) (after (ops (F := F)) V main_v413) :=
  unary_eq ops_single V (lt_of_lt_of_eq (by decide : 626 < 668) ops_length.symm) main_v413 main_v414 (broadcastInDim S1024x1 ![0] bcast_S1024_S1024x1_0 : (⟨S1024, .i32⟩ : BufTy).Contents (Elt F) → (⟨S1024x1, .i32⟩ : BufTy).Contents (Elt F)) ⟨by decide, rfl⟩ ⟨by decide, rfl⟩ rfl (take_eq_of_earlier ops_single V (i := 625) (k := 626) (by decide) (lt_of_lt_of_eq (by decide : 625 < 668) ops_length.symm) (Finset.mem_singleton_self _))
theorem eq_main_v415 (V : Valuation τ sig (Elt F)) :
    after (ops (F := F)) V main_v415 = ((fun x i => Host.gather gather_S8x64x4096x16_S1024x1_S8x64x1024x16_013_2_n_n_2_1_864116 x i) : (⟨S8x64x4096x16, .f32⟩ : BufTy).Contents (Elt F) → (⟨S1024x1, .i32⟩ : BufTy).Contents (Elt F) → (⟨S8x64x1024x16, .f32⟩ : BufTy).Contents (Elt F)) (after (ops (F := F)) V main_v405) (after (ops (F := F)) V main_v414) :=
  binary_eq ops_single V (lt_of_lt_of_eq (by decide : 627 < 668) ops_length.symm) main_v405 main_v414 main_v415 ((fun x i => Host.gather gather_S8x64x4096x16_S1024x1_S8x64x1024x16_013_2_n_n_2_1_864116 x i) : (⟨S8x64x4096x16, .f32⟩ : BufTy).Contents (Elt F) → (⟨S1024x1, .i32⟩ : BufTy).Contents (Elt F) → (⟨S8x64x1024x16, .f32⟩ : BufTy).Contents (Elt F)) ⟨by decide, rfl⟩ ⟨by decide, rfl⟩ ⟨by decide, rfl⟩ rfl (take_eq_of_earlier ops_single V (i := 615) (k := 627) (by decide) (lt_of_lt_of_eq (by decide : 615 < 668) ops_length.symm) (Finset.mem_singleton_self _)) (take_eq_of_earlier ops_single V (i := 626) (k := 627) (by decide) (lt_of_lt_of_eq (by decide : 626 < 668) ops_length.symm) (Finset.mem_singleton_self _))
theorem eq_main_c_210 (V : Valuation τ sig (Elt F)) :
    after (ops (F := F)) V main_c_210 = (constantI S_ 32 4096#32) :=
  nullary_eq ops_single V (lt_of_lt_of_eq (by decide : 628 < 668) ops_length.symm) main_c_210 (constantI S_ 32 4096#32) ⟨by decide, rfl⟩ rfl
theorem eq_main_v416 (V : Valuation τ sig (Elt F)) :
    after (ops (F := F)) V main_v416 = (broadcastInDim S1024 ![] bcast_S_S1024 : (⟨S_, .i32⟩ : BufTy).Contents (Elt F) → (⟨S1024, .i32⟩ : BufTy).Contents (Elt F)) (after (ops (F := F)) V main_c_210) :=
  unary_eq ops_single V (lt_of_lt_of_eq (by decide : 629 < 668) ops_length.symm) main_c_210 main_v416 (broadcastInDim S1024 ![] bcast_S_S1024 : (⟨S_, .i32⟩ : BufTy).Contents (Elt F) → (⟨S1024, .i32⟩ : BufTy).Contents (Elt F)) ⟨by decide, rfl⟩ ⟨by decide, rfl⟩ rfl (take_eq_of_earlier ops_single V (i := 628) (k := 629) (by decide) (lt_of_lt_of_eq (by decide : 628 < 668) ops_length.symm) (Finset.mem_singleton_self _))
theorem eq_main_v417 (V : Valuation τ sig (Elt F)) :
    after (ops (F := F)) V main_v417 = (addi : (⟨S1024, .i32⟩ : BufTy).Contents (Elt F) → (⟨S1024, .i32⟩ : BufTy).Contents (Elt F) → (⟨S1024, .i32⟩ : BufTy).Contents (Elt F)) (after (ops (F := F)) V main_c_119) (after (ops (F := F)) V main_v416) :=
  binary_eq ops_single V (lt_of_lt_of_eq (by decide : 630 < 668) ops_length.symm) main_c_119 main_v416 main_v417 (addi : (⟨S1024, .i32⟩ : BufTy).Contents (Elt F) → (⟨S1024, .i32⟩ : BufTy).Contents (Elt F) → (⟨S1024, .i32⟩ : BufTy).Contents (Elt F)) ⟨by decide, rfl⟩ ⟨by decide, rfl⟩ ⟨by decide, rfl⟩ rfl (take_eq_of_earlier ops_single V (i := 120) (k := 630) (by decide) (lt_of_lt_of_eq (by decide : 120 < 668) ops_length.symm) (Finset.mem_singleton_self _)) (take_eq_of_earlier ops_single V (i := 629) (k := 630) (by decide) (lt_of_lt_of_eq (by decide : 629 < 668) ops_length.symm) (Finset.mem_singleton_self _))
theorem eq_main_v418 (V : Valuation τ sig (Elt F)) :
    after (ops (F := F)) V main_v418 = (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) (after (ops (F := F)) V main_c_123) (after (ops (F := F)) V main_v417) (after (ops (F := F)) V main_c_119) :=
  ternary_eq ops_single V (lt_of_lt_of_eq (by decide : 631 < 668) ops_length.symm) main_c_123 main_v417 main_c_119 main_v418 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) ⟨by decide, rfl⟩ ⟨by decide, rfl⟩ ⟨by decide, rfl⟩ ⟨by decide, rfl⟩ rfl (take_eq_of_earlier ops_single V (i := 124) (k := 631) (by decide) (lt_of_lt_of_eq (by decide : 124 < 668) ops_length.symm) (Finset.mem_singleton_self _)) (take_eq_of_earlier ops_single V (i := 630) (k := 631) (by decide) (lt_of_lt_of_eq (by decide : 630 < 668) ops_length.symm) (Finset.mem_singleton_self _)) (take_eq_of_earlier ops_single V (i := 120) (k := 631) (by decide) (lt_of_lt_of_eq (by decide : 120 < 668) ops_length.symm) (Finset.mem_singleton_self _))
theorem eq_main_v419 (V : Valuation τ sig (Elt F)) :
    after (ops (F := F)) V main_v419 = (broadcastInDim S1024x1 ![0] bcast_S1024_S1024x1_0 : (⟨S1024, .i32⟩ : BufTy).Contents (Elt F) → (⟨S1024x1, .i32⟩ : BufTy).Contents (Elt F)) (after (ops (F := F)) V main_v418) :=
  unary_eq ops_single V (lt_of_lt_of_eq (by decide : 632 < 668) ops_length.symm) main_v418 main_v419 (broadcastInDim S1024x1 ![0] bcast_S1024_S1024x1_0 : (⟨S1024, .i32⟩ : BufTy).Contents (Elt F) → (⟨S1024x1, .i32⟩ : BufTy).Contents (Elt F)) ⟨by decide, rfl⟩ ⟨by decide, rfl⟩ rfl (take_eq_of_earlier ops_single V (i := 631) (k := 632) (by decide) (lt_of_lt_of_eq (by decide : 631 < 668) ops_length.symm) (Finset.mem_singleton_self _))
theorem eq_main_v420 (V : Valuation τ sig (Elt F)) :
    after (ops (F := F)) V main_v420 = ((fun x i u => Host.scatter scatter_S8x64x4096x16_S1024x1_S8x64x1024x16_013_2_2_1 (fun _ b => b) x i u) : (⟨S8x64x4096x16, .f32⟩ : BufTy).Contents (Elt F) → (⟨S1024x1, .i32⟩ : BufTy).Contents (Elt F) → (⟨S8x64x1024x16, .f32⟩ : BufTy).Contents (Elt F) → (⟨S8x64x4096x16, .f32⟩ : BufTy).Contents (Elt F)) (after (ops (F := F)) V main_v405) (after (ops (F := F)) V main_v419) (after (ops (F := F)) V main_v415) :=
  ternary_eq ops_single V (lt_of_lt_of_eq (by decide : 633 < 668) ops_length.symm) main_v405 main_v419 main_v415 main_v420 ((fun x i u => Host.scatter scatter_S8x64x4096x16_S1024x1_S8x64x1024x16_013_2_2_1 (fun _ b => b) x i u) : (⟨S8x64x4096x16, .f32⟩ : BufTy).Contents (Elt F) → (⟨S1024x1, .i32⟩ : BufTy).Contents (Elt F) → (⟨S8x64x1024x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 615) (k := 633) (by decide) (lt_of_lt_of_eq (by decide : 615 < 668) ops_length.symm) (Finset.mem_singleton_self _)) (take_eq_of_earlier ops_single V (i := 632) (k := 633) (by decide) (lt_of_lt_of_eq (by decide : 632 < 668) ops_length.symm) (Finset.mem_singleton_self _)) (take_eq_of_earlier ops_single V (i := 627) (k := 633) (by decide) (lt_of_lt_of_eq (by decide : 627 < 668) ops_length.symm) (Finset.mem_singleton_self _))
theorem eq_main_v421 (V : Valuation τ sig (Elt F)) :
    after (ops (F := F)) V main_v421 = (addf : (⟨S8x64x1024x16, .f32⟩ : BufTy).Contents (Elt F) → (⟨S8x64x1024x16, .f32⟩ : BufTy).Contents (Elt F) → (⟨S8x64x1024x16, .f32⟩ : BufTy).Contents (Elt F)) (after (ops (F := F)) V main_v410) (after (ops (F := F)) V main_v415) :=
  binary_eq ops_single V (lt_of_lt_of_eq (by decide : 634 < 668) ops_length.symm) main_v410 main_v415 main_v421 (addf : (⟨S8x64x1024x16, .f32⟩ : BufTy).Contents (Elt F) → (⟨S8x64x1024x16, .f32⟩ : BufTy).Contents (Elt F) → (⟨S8x64x1024x16, .f32⟩ : BufTy).Contents (Elt F)) ⟨by decide, rfl⟩ ⟨by decide, rfl⟩ ⟨by decide, rfl⟩ rfl (take_eq_of_earlier ops_single V (i := 621) (k := 634) (by decide) (lt_of_lt_of_eq (by decide : 621 < 668) ops_length.symm) (Finset.mem_singleton_self _)) (take_eq_of_earlier ops_single V (i := 627) (k := 634) (by decide) (lt_of_lt_of_eq (by decide : 627 < 668) ops_length.symm) (Finset.mem_singleton_self _))
theorem eq_main_c_211 (V : Valuation τ sig (Elt F)) :
    after (ops (F := F)) V main_c_211 = (constantI S_ 32 4096#32) :=
  nullary_eq ops_single V (lt_of_lt_of_eq (by decide : 635 < 668) ops_length.symm) main_c_211 (constantI S_ 32 4096#32) ⟨by decide, rfl⟩ rfl
theorem eq_main_v422 (V : Valuation τ sig (Elt F)) :
    after (ops (F := F)) V main_v422 = (broadcastInDim S1024 ![] bcast_S_S1024 : (⟨S_, .i32⟩ : BufTy).Contents (Elt F) → (⟨S1024, .i32⟩ : BufTy).Contents (Elt F)) (after (ops (F := F)) V main_c_211) :=
  unary_eq ops_single V (lt_of_lt_of_eq (by decide : 636 < 668) ops_length.symm) main_c_211 main_v422 (broadcastInDim S1024 ![] bcast_S_S1024 : (⟨S_, .i32⟩ : BufTy).Contents (Elt F) → (⟨S1024, .i32⟩ : BufTy).Contents (Elt F)) ⟨by decide, rfl⟩ ⟨by decide, rfl⟩ rfl (take_eq_of_earlier ops_single V (i := 635) (k := 636) (by decide) (lt_of_lt_of_eq (by decide : 635 < 668) ops_length.symm) (Finset.mem_singleton_self _))
theorem eq_main_v423 (V : Valuation τ sig (Elt F)) :
    after (ops (F := F)) V main_v423 = (addi : (⟨S1024, .i32⟩ : BufTy).Contents (Elt F) → (⟨S1024, .i32⟩ : BufTy).Contents (Elt F) → (⟨S1024, .i32⟩ : BufTy).Contents (Elt F)) (after (ops (F := F)) V main_c_121) (after (ops (F := F)) V main_v422) :=
  binary_eq ops_single V (lt_of_lt_of_eq (by decide : 637 < 668) ops_length.symm) main_c_121 main_v422 main_v423 (addi : (⟨S1024, .i32⟩ : BufTy).Contents (Elt F) → (⟨S1024, .i32⟩ : BufTy).Contents (Elt F) → (⟨S1024, .i32⟩ : BufTy).Contents (Elt F)) ⟨by decide, rfl⟩ ⟨by decide, rfl⟩ ⟨by decide, rfl⟩ rfl (take_eq_of_earlier ops_single V (i := 122) (k := 637) (by decide) (lt_of_lt_of_eq (by decide : 122 < 668) ops_length.symm) (Finset.mem_singleton_self _)) (take_eq_of_earlier ops_single V (i := 636) (k := 637) (by decide) (lt_of_lt_of_eq (by decide : 636 < 668) ops_length.symm) (Finset.mem_singleton_self _))
theorem eq_main_v424 (V : Valuation τ sig (Elt F)) :
    after (ops (F := F)) V main_v424 = (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) (after (ops (F := F)) V main_c_124) (after (ops (F := F)) V main_v423) (after (ops (F := F)) V main_c_121) :=
  ternary_eq ops_single V (lt_of_lt_of_eq (by decide : 638 < 668) ops_length.symm) main_c_124 main_v423 main_c_121 main_v424 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) ⟨by decide, rfl⟩ ⟨by decide, rfl⟩ ⟨by decide, rfl⟩ ⟨by decide, rfl⟩ rfl (take_eq_of_earlier ops_single V (i := 125) (k := 638) (by decide) (lt_of_lt_of_eq (by decide : 125 < 668) ops_length.symm) (Finset.mem_singleton_self _)) (take_eq_of_earlier ops_single V (i := 637) (k := 638) (by decide) (lt_of_lt_of_eq (by decide : 637 < 668) ops_length.symm) (Finset.mem_singleton_self _)) (take_eq_of_earlier ops_single V (i := 122) (k := 638) (by decide) (lt_of_lt_of_eq (by decide : 122 < 668) ops_length.symm) (Finset.mem_singleton_self _))
theorem eq_main_v425 (V : Valuation τ sig (Elt F)) :
    after (ops (F := F)) V main_v425 = (broadcastInDim S1024x1 ![0] bcast_S1024_S1024x1_0 : (⟨S1024, .i32⟩ : BufTy).Contents (Elt F) → (⟨S1024x1, .i32⟩ : BufTy).Contents (Elt F)) (after (ops (F := F)) V main_v424) :=
  unary_eq ops_single V (lt_of_lt_of_eq (by decide : 639 < 668) ops_length.symm) main_v424 main_v425 (broadcastInDim S1024x1 ![0] bcast_S1024_S1024x1_0 : (⟨S1024, .i32⟩ : BufTy).Contents (Elt F) → (⟨S1024x1, .i32⟩ : BufTy).Contents (Elt F)) ⟨by decide, rfl⟩ ⟨by decide, rfl⟩ rfl (take_eq_of_earlier ops_single V (i := 638) (k := 639) (by decide) (lt_of_lt_of_eq (by decide : 638 < 668) ops_length.symm) (Finset.mem_singleton_self _))
theorem eq_main_v426 (V : Valuation τ sig (Elt F)) :
    after (ops (F := F)) V main_v426 = ((fun x i u => Host.scatter scatter_S8x64x4096x16_S1024x1_S8x64x1024x16_013_2_2_1 (fun _ b => b) x i u) : (⟨S8x64x4096x16, .f32⟩ : BufTy).Contents (Elt F) → (⟨S1024x1, .i32⟩ : BufTy).Contents (Elt F) → (⟨S8x64x1024x16, .f32⟩ : BufTy).Contents (Elt F) → (⟨S8x64x4096x16, .f32⟩ : BufTy).Contents (Elt F)) (after (ops (F := F)) V main_v420) (after (ops (F := F)) V main_v425) (after (ops (F := F)) V main_v421) :=
  ternary_eq ops_single V (lt_of_lt_of_eq (by decide : 640 < 668) ops_length.symm) main_v420 main_v425 main_v421 main_v426 ((fun x i u => Host.scatter scatter_S8x64x4096x16_S1024x1_S8x64x1024x16_013_2_2_1 (fun _ b => b) x i u) : (⟨S8x64x4096x16, .f32⟩ : BufTy).Contents (Elt F) → (⟨S1024x1, .i32⟩ : BufTy).Contents (Elt F) → (⟨S8x64x1024x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 633) (k := 640) (by decide) (lt_of_lt_of_eq (by decide : 633 < 668) ops_length.symm) (Finset.mem_singleton_self _)) (take_eq_of_earlier ops_single V (i := 639) (k := 640) (by decide) (lt_of_lt_of_eq (by decide : 639 < 668) ops_length.symm) (Finset.mem_singleton_self _)) (take_eq_of_earlier ops_single V (i := 634) (k := 640) (by decide) (lt_of_lt_of_eq (by decide : 634 < 668) ops_length.symm) (Finset.mem_singleton_self _))
theorem eq_main_c_212 (V : Valuation τ sig (Elt F)) :
    after (ops (F := F)) V main_c_212 = (constantI S_ 32 4096#32) :=
  nullary_eq ops_single V (lt_of_lt_of_eq (by decide : 641 < 668) ops_length.symm) main_c_212 (constantI S_ 32 4096#32) ⟨by decide, rfl⟩ rfl
theorem eq_main_v427 (V : Valuation τ sig (Elt F)) :
    after (ops (F := F)) V main_v427 = (broadcastInDim S2048 ![] bcast_S_S2048 : (⟨S_, .i32⟩ : BufTy).Contents (Elt F) → (⟨S2048, .i32⟩ : BufTy).Contents (Elt F)) (after (ops (F := F)) V main_c_212) :=
  unary_eq ops_single V (lt_of_lt_of_eq (by decide : 642 < 668) ops_length.symm) main_c_212 main_v427 (broadcastInDim S2048 ![] bcast_S_S2048 : (⟨S_, .i32⟩ : BufTy).Contents (Elt F) → (⟨S2048, .i32⟩ : BufTy).Contents (Elt F)) ⟨by decide, rfl⟩ ⟨by decide, rfl⟩ rfl (take_eq_of_earlier ops_single V (i := 641) (k := 642) (by decide) (lt_of_lt_of_eq (by decide : 641 < 668) ops_length.symm) (Finset.mem_singleton_self _))
theorem eq_main_v428 (V : Valuation τ sig (Elt F)) :
    after (ops (F := F)) V main_v428 = (addi : (⟨S2048, .i32⟩ : BufTy).Contents (Elt F) → (⟨S2048, .i32⟩ : BufTy).Contents (Elt F) → (⟨S2048, .i32⟩ : BufTy).Contents (Elt F)) (after (ops (F := F)) V main_c_125) (after (ops (F := F)) V main_v427) :=
  binary_eq ops_single V (lt_of_lt_of_eq (by decide : 643 < 668) ops_length.symm) main_c_125 main_v427 main_v428 (addi : (⟨S2048, .i32⟩ : BufTy).Contents (Elt F) → (⟨S2048, .i32⟩ : BufTy).Contents (Elt F) → (⟨S2048, .i32⟩ : BufTy).Contents (Elt F)) ⟨by decide, rfl⟩ ⟨by decide, rfl⟩ ⟨by decide, rfl⟩ rfl (take_eq_of_earlier ops_single V (i := 126) (k := 643) (by decide) (lt_of_lt_of_eq (by decide : 126 < 668) ops_length.symm) (Finset.mem_singleton_self _)) (take_eq_of_earlier ops_single V (i := 642) (k := 643) (by decide) (lt_of_lt_of_eq (by decide : 642 < 668) ops_length.symm) (Finset.mem_singleton_self _))
theorem eq_main_v429 (V : Valuation τ sig (Elt F)) :
    after (ops (F := F)) V main_v429 = (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) (after (ops (F := F)) V main_c_126) (after (ops (F := F)) V main_v428) (after (ops (F := F)) V main_c_125) :=
  ternary_eq ops_single V (lt_of_lt_of_eq (by decide : 644 < 668) ops_length.symm) main_c_126 main_v428 main_c_125 main_v429 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) ⟨by decide, rfl⟩ ⟨by decide, rfl⟩ ⟨by decide, rfl⟩ ⟨by decide, rfl⟩ rfl (take_eq_of_earlier ops_single V (i := 127) (k := 644) (by decide) (lt_of_lt_of_eq (by decide : 127 < 668) ops_length.symm) (Finset.mem_singleton_self _)) (take_eq_of_earlier ops_single V (i := 643) (k := 644) (by decide) (lt_of_lt_of_eq (by decide : 643 < 668) ops_length.symm) (Finset.mem_singleton_self _)) (take_eq_of_earlier ops_single V (i := 126) (k := 644) (by decide) (lt_of_lt_of_eq (by decide : 126 < 668) ops_length.symm) (Finset.mem_singleton_self _))
theorem eq_main_v430 (V : Valuation τ sig (Elt F)) :
    after (ops (F := F)) V main_v430 = (broadcastInDim S2048x1 ![0] bcast_S2048_S2048x1_0 : (⟨S2048, .i32⟩ : BufTy).Contents (Elt F) → (⟨S2048x1, .i32⟩ : BufTy).Contents (Elt F)) (after (ops (F := F)) V main_v429) :=
  unary_eq ops_single V (lt_of_lt_of_eq (by decide : 645 < 668) ops_length.symm) main_v429 main_v430 (broadcastInDim S2048x1 ![0] bcast_S2048_S2048x1_0 : (⟨S2048, .i32⟩ : BufTy).Contents (Elt F) → (⟨S2048x1, .i32⟩ : BufTy).Contents (Elt F)) ⟨by decide, rfl⟩ ⟨by decide, rfl⟩ rfl (take_eq_of_earlier ops_single V (i := 644) (k := 645) (by decide) (lt_of_lt_of_eq (by decide : 644 < 668) ops_length.symm) (Finset.mem_singleton_self _))
theorem eq_main_v431 (V : Valuation τ sig (Elt F)) :
    after (ops (F := F)) V main_v431 = ((fun x i => Host.gather gather_S8x64x4096x16_S2048x1_S8x64x2048x16_013_2_n_n_2_1_864116 x i) : (⟨S8x64x4096x16, .f32⟩ : BufTy).Contents (Elt F) → (⟨S2048x1, .i32⟩ : BufTy).Contents (Elt F) → (⟨S8x64x2048x16, .f32⟩ : BufTy).Contents (Elt F)) (after (ops (F := F)) V main_v426) (after (ops (F := F)) V main_v430) :=
  binary_eq ops_single V (lt_of_lt_of_eq (by decide : 646 < 668) ops_length.symm) main_v426 main_v430 main_v431 ((fun x i => Host.gather gather_S8x64x4096x16_S2048x1_S8x64x2048x16_013_2_n_n_2_1_864116 x i) : (⟨S8x64x4096x16, .f32⟩ : BufTy).Contents (Elt F) → (⟨S2048x1, .i32⟩ : BufTy).Contents (Elt F) → (⟨S8x64x2048x16, .f32⟩ : BufTy).Contents (Elt F)) ⟨by decide, rfl⟩ ⟨by decide, rfl⟩ ⟨by decide, rfl⟩ rfl (take_eq_of_earlier ops_single V (i := 640) (k := 646) (by decide) (lt_of_lt_of_eq (by decide : 640 < 668) ops_length.symm) (Finset.mem_singleton_self _)) (take_eq_of_earlier ops_single V (i := 645) (k := 646) (by decide) (lt_of_lt_of_eq (by decide : 645 < 668) ops_length.symm) (Finset.mem_singleton_self _))
theorem eq_main_c_213 (V : Valuation τ sig (Elt F)) :
    after (ops (F := F)) V main_c_213 = (constantI S_ 32 4096#32) :=
  nullary_eq ops_single V (lt_of_lt_of_eq (by decide : 647 < 668) ops_length.symm) main_c_213 (constantI S_ 32 4096#32) ⟨by decide, rfl⟩ rfl
theorem eq_main_v432 (V : Valuation τ sig (Elt F)) :
    after (ops (F := F)) V main_v432 = (broadcastInDim S2048 ![] bcast_S_S2048 : (⟨S_, .i32⟩ : BufTy).Contents (Elt F) → (⟨S2048, .i32⟩ : BufTy).Contents (Elt F)) (after (ops (F := F)) V main_c_213) :=
  unary_eq ops_single V (lt_of_lt_of_eq (by decide : 648 < 668) ops_length.symm) main_c_213 main_v432 (broadcastInDim S2048 ![] bcast_S_S2048 : (⟨S_, .i32⟩ : BufTy).Contents (Elt F) → (⟨S2048, .i32⟩ : BufTy).Contents (Elt F)) ⟨by decide, rfl⟩ ⟨by decide, rfl⟩ rfl (take_eq_of_earlier ops_single V (i := 647) (k := 648) (by decide) (lt_of_lt_of_eq (by decide : 647 < 668) ops_length.symm) (Finset.mem_singleton_self _))
theorem eq_main_v433 (V : Valuation τ sig (Elt F)) :
    after (ops (F := F)) V main_v433 = (addi : (⟨S2048, .i32⟩ : BufTy).Contents (Elt F) → (⟨S2048, .i32⟩ : BufTy).Contents (Elt F) → (⟨S2048, .i32⟩ : BufTy).Contents (Elt F)) (after (ops (F := F)) V main_c_127) (after (ops (F := F)) V main_v432) :=
  binary_eq ops_single V (lt_of_lt_of_eq (by decide : 649 < 668) ops_length.symm) main_c_127 main_v432 main_v433 (addi : (⟨S2048, .i32⟩ : BufTy).Contents (Elt F) → (⟨S2048, .i32⟩ : BufTy).Contents (Elt F) → (⟨S2048, .i32⟩ : BufTy).Contents (Elt F)) ⟨by decide, rfl⟩ ⟨by decide, rfl⟩ ⟨by decide, rfl⟩ rfl (take_eq_of_earlier ops_single V (i := 128) (k := 649) (by decide) (lt_of_lt_of_eq (by decide : 128 < 668) ops_length.symm) (Finset.mem_singleton_self _)) (take_eq_of_earlier ops_single V (i := 648) (k := 649) (by decide) (lt_of_lt_of_eq (by decide : 648 < 668) ops_length.symm) (Finset.mem_singleton_self _))
theorem eq_main_v434 (V : Valuation τ sig (Elt F)) :
    after (ops (F := F)) V main_v434 = (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) (after (ops (F := F)) V main_c_128) (after (ops (F := F)) V main_v433) (after (ops (F := F)) V main_c_127) :=
  ternary_eq ops_single V (lt_of_lt_of_eq (by decide : 650 < 668) ops_length.symm) main_c_128 main_v433 main_c_127 main_v434 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) ⟨by decide, rfl⟩ ⟨by decide, rfl⟩ ⟨by decide, rfl⟩ ⟨by decide, rfl⟩ rfl (take_eq_of_earlier ops_single V (i := 129) (k := 650) (by decide) (lt_of_lt_of_eq (by decide : 129 < 668) ops_length.symm) (Finset.mem_singleton_self _)) (take_eq_of_earlier ops_single V (i := 649) (k := 650) (by decide) (lt_of_lt_of_eq (by decide : 649 < 668) ops_length.symm) (Finset.mem_singleton_self _)) (take_eq_of_earlier ops_single V (i := 128) (k := 650) (by decide) (lt_of_lt_of_eq (by decide : 128 < 668) ops_length.symm) (Finset.mem_singleton_self _))
theorem eq_main_v435 (V : Valuation τ sig (Elt F)) :
    after (ops (F := F)) V main_v435 = (broadcastInDim S2048x1 ![0] bcast_S2048_S2048x1_0 : (⟨S2048, .i32⟩ : BufTy).Contents (Elt F) → (⟨S2048x1, .i32⟩ : BufTy).Contents (Elt F)) (after (ops (F := F)) V main_v434) :=
  unary_eq ops_single V (lt_of_lt_of_eq (by decide : 651 < 668) ops_length.symm) main_v434 main_v435 (broadcastInDim S2048x1 ![0] bcast_S2048_S2048x1_0 : (⟨S2048, .i32⟩ : BufTy).Contents (Elt F) → (⟨S2048x1, .i32⟩ : BufTy).Contents (Elt F)) ⟨by decide, rfl⟩ ⟨by decide, rfl⟩ rfl (take_eq_of_earlier ops_single V (i := 650) (k := 651) (by decide) (lt_of_lt_of_eq (by decide : 650 < 668) ops_length.symm) (Finset.mem_singleton_self _))
theorem eq_main_v436 (V : Valuation τ sig (Elt F)) :
    after (ops (F := F)) V main_v436 = ((fun x i => Host.gather gather_S8x64x4096x16_S2048x1_S8x64x2048x16_013_2_n_n_2_1_864116 x i) : (⟨S8x64x4096x16, .f32⟩ : BufTy).Contents (Elt F) → (⟨S2048x1, .i32⟩ : BufTy).Contents (Elt F) → (⟨S8x64x2048x16, .f32⟩ : BufTy).Contents (Elt F)) (after (ops (F := F)) V main_v426) (after (ops (F := F)) V main_v435) :=
  binary_eq ops_single V (lt_of_lt_of_eq (by decide : 652 < 668) ops_length.symm) main_v426 main_v435 main_v436 ((fun x i => Host.gather gather_S8x64x4096x16_S2048x1_S8x64x2048x16_013_2_n_n_2_1_864116 x i) : (⟨S8x64x4096x16, .f32⟩ : BufTy).Contents (Elt F) → (⟨S2048x1, .i32⟩ : BufTy).Contents (Elt F) → (⟨S8x64x2048x16, .f32⟩ : BufTy).Contents (Elt F)) ⟨by decide, rfl⟩ ⟨by decide, rfl⟩ ⟨by decide, rfl⟩ rfl (take_eq_of_earlier ops_single V (i := 640) (k := 652) (by decide) (lt_of_lt_of_eq (by decide : 640 < 668) ops_length.symm) (Finset.mem_singleton_self _)) (take_eq_of_earlier ops_single V (i := 651) (k := 652) (by decide) (lt_of_lt_of_eq (by decide : 651 < 668) ops_length.symm) (Finset.mem_singleton_self _))
theorem eq_main_c_214 (V : Valuation τ sig (Elt F)) :
    after (ops (F := F)) V main_c_214 = (constantI S_ 32 4096#32) :=
  nullary_eq ops_single V (lt_of_lt_of_eq (by decide : 653 < 668) ops_length.symm) main_c_214 (constantI S_ 32 4096#32) ⟨by decide, rfl⟩ rfl
theorem eq_main_v437 (V : Valuation τ sig (Elt F)) :
    after (ops (F := F)) V main_v437 = (broadcastInDim S2048 ![] bcast_S_S2048 : (⟨S_, .i32⟩ : BufTy).Contents (Elt F) → (⟨S2048, .i32⟩ : BufTy).Contents (Elt F)) (after (ops (F := F)) V main_c_214) :=
  unary_eq ops_single V (lt_of_lt_of_eq (by decide : 654 < 668) ops_length.symm) main_c_214 main_v437 (broadcastInDim S2048 ![] bcast_S_S2048 : (⟨S_, .i32⟩ : BufTy).Contents (Elt F) → (⟨S2048, .i32⟩ : BufTy).Contents (Elt F)) ⟨by decide, rfl⟩ ⟨by decide, rfl⟩ rfl (take_eq_of_earlier ops_single V (i := 653) (k := 654) (by decide) (lt_of_lt_of_eq (by decide : 653 < 668) ops_length.symm) (Finset.mem_singleton_self _))
theorem eq_main_v438 (V : Valuation τ sig (Elt F)) :
    after (ops (F := F)) V main_v438 = (addi : (⟨S2048, .i32⟩ : BufTy).Contents (Elt F) → (⟨S2048, .i32⟩ : BufTy).Contents (Elt F) → (⟨S2048, .i32⟩ : BufTy).Contents (Elt F)) (after (ops (F := F)) V main_c_125) (after (ops (F := F)) V main_v437) :=
  binary_eq ops_single V (lt_of_lt_of_eq (by decide : 655 < 668) ops_length.symm) main_c_125 main_v437 main_v438 (addi : (⟨S2048, .i32⟩ : BufTy).Contents (Elt F) → (⟨S2048, .i32⟩ : BufTy).Contents (Elt F) → (⟨S2048, .i32⟩ : BufTy).Contents (Elt F)) ⟨by decide, rfl⟩ ⟨by decide, rfl⟩ ⟨by decide, rfl⟩ rfl (take_eq_of_earlier ops_single V (i := 126) (k := 655) (by decide) (lt_of_lt_of_eq (by decide : 126 < 668) ops_length.symm) (Finset.mem_singleton_self _)) (take_eq_of_earlier ops_single V (i := 654) (k := 655) (by decide) (lt_of_lt_of_eq (by decide : 654 < 668) ops_length.symm) (Finset.mem_singleton_self _))
theorem eq_main_v439 (V : Valuation τ sig (Elt F)) :
    after (ops (F := F)) V main_v439 = (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) (after (ops (F := F)) V main_c_129) (after (ops (F := F)) V main_v438) (after (ops (F := F)) V main_c_125) :=
  ternary_eq ops_single V (lt_of_lt_of_eq (by decide : 656 < 668) ops_length.symm) main_c_129 main_v438 main_c_125 main_v439 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) ⟨by decide, rfl⟩ ⟨by decide, rfl⟩ ⟨by decide, rfl⟩ ⟨by decide, rfl⟩ rfl (take_eq_of_earlier ops_single V (i := 130) (k := 656) (by decide) (lt_of_lt_of_eq (by decide : 130 < 668) ops_length.symm) (Finset.mem_singleton_self _)) (take_eq_of_earlier ops_single V (i := 655) (k := 656) (by decide) (lt_of_lt_of_eq (by decide : 655 < 668) ops_length.symm) (Finset.mem_singleton_self _)) (take_eq_of_earlier ops_single V (i := 126) (k := 656) (by decide) (lt_of_lt_of_eq (by decide : 126 < 668) ops_length.symm) (Finset.mem_singleton_self _))
theorem eq_main_v440 (V : Valuation τ sig (Elt F)) :
    after (ops (F := F)) V main_v440 = (broadcastInDim S2048x1 ![0] bcast_S2048_S2048x1_0 : (⟨S2048, .i32⟩ : BufTy).Contents (Elt F) → (⟨S2048x1, .i32⟩ : BufTy).Contents (Elt F)) (after (ops (F := F)) V main_v439) :=
  unary_eq ops_single V (lt_of_lt_of_eq (by decide : 657 < 668) ops_length.symm) main_v439 main_v440 (broadcastInDim S2048x1 ![0] bcast_S2048_S2048x1_0 : (⟨S2048, .i32⟩ : BufTy).Contents (Elt F) → (⟨S2048x1, .i32⟩ : BufTy).Contents (Elt F)) ⟨by decide, rfl⟩ ⟨by decide, rfl⟩ rfl (take_eq_of_earlier ops_single V (i := 656) (k := 657) (by decide) (lt_of_lt_of_eq (by decide : 656 < 668) ops_length.symm) (Finset.mem_singleton_self _))
theorem eq_main_v441 (V : Valuation τ sig (Elt F)) :
    after (ops (F := F)) V main_v441 = ((fun x i u => Host.scatter scatter_S8x64x4096x16_S2048x1_S8x64x2048x16_013_2_2_1 (fun _ b => b) x i u) : (⟨S8x64x4096x16, .f32⟩ : BufTy).Contents (Elt F) → (⟨S2048x1, .i32⟩ : BufTy).Contents (Elt F) → (⟨S8x64x2048x16, .f32⟩ : BufTy).Contents (Elt F) → (⟨S8x64x4096x16, .f32⟩ : BufTy).Contents (Elt F)) (after (ops (F := F)) V main_v426) (after (ops (F := F)) V main_v440) (after (ops (F := F)) V main_v436) :=
  ternary_eq ops_single V (lt_of_lt_of_eq (by decide : 658 < 668) ops_length.symm) main_v426 main_v440 main_v436 main_v441 ((fun x i u => Host.scatter scatter_S8x64x4096x16_S2048x1_S8x64x2048x16_013_2_2_1 (fun _ b => b) x i u) : (⟨S8x64x4096x16, .f32⟩ : BufTy).Contents (Elt F) → (⟨S2048x1, .i32⟩ : BufTy).Contents (Elt F) → (⟨S8x64x2048x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 640) (k := 658) (by decide) (lt_of_lt_of_eq (by decide : 640 < 668) ops_length.symm) (Finset.mem_singleton_self _)) (take_eq_of_earlier ops_single V (i := 657) (k := 658) (by decide) (lt_of_lt_of_eq (by decide : 657 < 668) ops_length.symm) (Finset.mem_singleton_self _)) (take_eq_of_earlier ops_single V (i := 652) (k := 658) (by decide) (lt_of_lt_of_eq (by decide : 652 < 668) ops_length.symm) (Finset.mem_singleton_self _))
theorem eq_main_v442 (V : Valuation τ sig (Elt F)) :
    after (ops (F := F)) V main_v442 = (addf : (⟨S8x64x2048x16, .f32⟩ : BufTy).Contents (Elt F) → (⟨S8x64x2048x16, .f32⟩ : BufTy).Contents (Elt F) → (⟨S8x64x2048x16, .f32⟩ : BufTy).Contents (Elt F)) (after (ops (F := F)) V main_v431) (after (ops (F := F)) V main_v436) :=
  binary_eq ops_single V (lt_of_lt_of_eq (by decide : 659 < 668) ops_length.symm) main_v431 main_v436 main_v442 (addf : (⟨S8x64x2048x16, .f32⟩ : BufTy).Contents (Elt F) → (⟨S8x64x2048x16, .f32⟩ : BufTy).Contents (Elt F) → (⟨S8x64x2048x16, .f32⟩ : BufTy).Contents (Elt F)) ⟨by decide, rfl⟩ ⟨by decide, rfl⟩ ⟨by decide, rfl⟩ rfl (take_eq_of_earlier ops_single V (i := 646) (k := 659) (by decide) (lt_of_lt_of_eq (by decide : 646 < 668) ops_length.symm) (Finset.mem_singleton_self _)) (take_eq_of_earlier ops_single V (i := 652) (k := 659) (by decide) (lt_of_lt_of_eq (by decide : 652 < 668) ops_length.symm) (Finset.mem_singleton_self _))

end Cert.ReferenceIdeal.Line

end
-- ==== Proof.RefEq11.lean ====
/-
  The equations of the reference's operations in its window 11: what the whole line leaves at each operation's result is
  the operation's function of what the whole line leaves at its operands.
-/
import proofs.«140659_j42700564857293_1_alg».proof.Proof.RefSingle

noncomputable section

namespace Cert.ReferenceIdeal.Line

open Cert.ReferenceIdeal Cert.ReferenceIdeal.Gen Idealize.ShloMosaic Idealize.ShloMosaic.TcCoe Idealize.SL.Sem Idealize.ShloMosaic.StableHlo Cert.SingleAssignment

variable {F : FTy → Type} [FloatOps F]

theorem eq_main_c_215 (V : Valuation τ sig (Elt F)) :
    after (ops (F := F)) V main_c_215 = (constantI S_ 32 4096#32) :=
  nullary_eq ops_single V (lt_of_lt_of_eq (by decide : 660 < 668) ops_length.symm) main_c_215 (constantI S_ 32 4096#32) ⟨by decide, rfl⟩ rfl
theorem eq_main_v443 (V : Valuation τ sig (Elt F)) :
    after (ops (F := F)) V main_v443 = (broadcastInDim S2048 ![] bcast_S_S2048 : (⟨S_, .i32⟩ : BufTy).Contents (Elt F) → (⟨S2048, .i32⟩ : BufTy).Contents (Elt F)) (after (ops (F := F)) V main_c_215) :=
  unary_eq ops_single V (lt_of_lt_of_eq (by decide : 661 < 668) ops_length.symm) main_c_215 main_v443 (broadcastInDim S2048 ![] bcast_S_S2048 : (⟨S_, .i32⟩ : BufTy).Contents (Elt F) → (⟨S2048, .i32⟩ : BufTy).Contents (Elt F)) ⟨by decide, rfl⟩ ⟨by decide, rfl⟩ rfl (take_eq_of_earlier ops_single V (i := 660) (k := 661) (by decide) (lt_of_lt_of_eq (by decide : 660 < 668) ops_length.symm) (Finset.mem_singleton_self _))
theorem eq_main_v444 (V : Valuation τ sig (Elt F)) :
    after (ops (F := F)) V main_v444 = (addi : (⟨S2048, .i32⟩ : BufTy).Contents (Elt F) → (⟨S2048, .i32⟩ : BufTy).Contents (Elt F) → (⟨S2048, .i32⟩ : BufTy).Contents (Elt F)) (after (ops (F := F)) V main_c_127) (after (ops (F := F)) V main_v443) :=
  binary_eq ops_single V (lt_of_lt_of_eq (by decide : 662 < 668) ops_length.symm) main_c_127 main_v443 main_v444 (addi : (⟨S2048, .i32⟩ : BufTy).Contents (Elt F) → (⟨S2048, .i32⟩ : BufTy).Contents (Elt F) → (⟨S2048, .i32⟩ : BufTy).Contents (Elt F)) ⟨by decide, rfl⟩ ⟨by decide, rfl⟩ ⟨by decide, rfl⟩ rfl (take_eq_of_earlier ops_single V (i := 128) (k := 662) (by decide) (lt_of_lt_of_eq (by decide : 128 < 668) ops_length.symm) (Finset.mem_singleton_self _)) (take_eq_of_earlier ops_single V (i := 661) (k := 662) (by decide) (lt_of_lt_of_eq (by decide : 661 < 668) ops_length.symm) (Finset.mem_singleton_self _))
theorem eq_main_v445 (V : Valuation τ sig (Elt F)) :
    after (ops (F := F)) V main_v445 = (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) (after (ops (F := F)) V main_c_130) (after (ops (F := F)) V main_v444) (after (ops (F := F)) V main_c_127) :=
  ternary_eq ops_single V (lt_of_lt_of_eq (by decide : 663 < 668) ops_length.symm) main_c_130 main_v444 main_c_127 main_v445 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) ⟨by decide, rfl⟩ ⟨by decide, rfl⟩ ⟨by decide, rfl⟩ ⟨by decide, rfl⟩ rfl (take_eq_of_earlier ops_single V (i := 131) (k := 663) (by decide) (lt_of_lt_of_eq (by decide : 131 < 668) ops_length.symm) (Finset.mem_singleton_self _)) (take_eq_of_earlier ops_single V (i := 662) (k := 663) (by decide) (lt_of_lt_of_eq (by decide : 662 < 668) ops_length.symm) (Finset.mem_singleton_self _)) (take_eq_of_earlier ops_single V (i := 128) (k := 663) (by decide) (lt_of_lt_of_eq (by decide : 128 < 668) ops_length.symm) (Finset.mem_singleton_self _))
theorem eq_main_v446 (V : Valuation τ sig (Elt F)) :
    after (ops (F := F)) V main_v446 = (broadcastInDim S2048x1 ![0] bcast_S2048_S2048x1_0 : (⟨S2048, .i32⟩ : BufTy).Contents (Elt F) → (⟨S2048x1, .i32⟩ : BufTy).Contents (Elt F)) (after (ops (F := F)) V main_v445) :=
  unary_eq ops_single V (lt_of_lt_of_eq (by decide : 664 < 668) ops_length.symm) main_v445 main_v446 (broadcastInDim S2048x1 ![0] bcast_S2048_S2048x1_0 : (⟨S2048, .i32⟩ : BufTy).Contents (Elt F) → (⟨S2048x1, .i32⟩ : BufTy).Contents (Elt F)) ⟨by decide, rfl⟩ ⟨by decide, rfl⟩ rfl (take_eq_of_earlier ops_single V (i := 663) (k := 664) (by decide) (lt_of_lt_of_eq (by decide : 663 < 668) ops_length.symm) (Finset.mem_singleton_self _))
theorem eq_main_v447 (V : Valuation τ sig (Elt F)) :
    after (ops (F := F)) V main_v447 = ((fun x i u => Host.scatter scatter_S8x64x4096x16_S2048x1_S8x64x2048x16_013_2_2_1 (fun _ b => b) x i u) : (⟨S8x64x4096x16, .f32⟩ : BufTy).Contents (Elt F) → (⟨S2048x1, .i32⟩ : BufTy).Contents (Elt F) → (⟨S8x64x2048x16, .f32⟩ : BufTy).Contents (Elt F) → (⟨S8x64x4096x16, .f32⟩ : BufTy).Contents (Elt F)) (after (ops (F := F)) V main_v441) (after (ops (F := F)) V main_v446) (after (ops (F := F)) V main_v442) :=
  ternary_eq ops_single V (lt_of_lt_of_eq (by decide : 665 < 668) ops_length.symm) main_v441 main_v446 main_v442 main_v447 ((fun x i u => Host.scatter scatter_S8x64x4096x16_S2048x1_S8x64x2048x16_013_2_2_1 (fun _ b => b) x i u) : (⟨S8x64x4096x16, .f32⟩ : BufTy).Contents (Elt F) → (⟨S2048x1, .i32⟩ : BufTy).Contents (Elt F) → (⟨S8x64x2048x16, .f32⟩ : BufTy).Contents (Elt F) → (⟨S8x64x4096x16, .f32⟩ : BufTy).Contents (Elt F)) ⟨by decide, rfl⟩ ⟨by decide, rfl⟩ ⟨by decide, rfl⟩ ⟨by decide, rfl⟩ rfl (take_eq_of_earlier ops_single V (i := 658) (k := 665) (by decide) (lt_of_lt_of_eq (by decide : 658 < 668) ops_length.symm) (Finset.mem_singleton_self _)) (take_eq_of_earlier ops_single V (i := 664) (k := 665) (by decide) (lt_of_lt_of_eq (by decide : 664 < 668) ops_length.symm) (Finset.mem_singleton_self _)) (take_eq_of_earlier ops_single V (i := 659) (k := 665) (by decide) (lt_of_lt_of_eq (by decide : 659 < 668) ops_length.symm) (Finset.mem_singleton_self _))
theorem eq_main_v448 (V : Valuation τ sig (Elt F)) :
    after (ops (F := F)) V main_v448 = (addf : (⟨S8x64x4096x16, .f32⟩ : BufTy).Contents (Elt F) → (⟨S8x64x4096x16, .f32⟩ : BufTy).Contents (Elt F) → (⟨S8x64x4096x16, .f32⟩ : BufTy).Contents (Elt F)) (after (ops (F := F)) V main_v447) (after (ops (F := F)) V main_v1) :=
  binary_eq ops_single V (lt_of_lt_of_eq (by decide : 666 < 668) ops_length.symm) main_v447 main_v1 main_v448 (addf : (⟨S8x64x4096x16, .f32⟩ : BufTy).Contents (Elt F) → (⟨S8x64x4096x16, .f32⟩ : BufTy).Contents (Elt F) → (⟨S8x64x4096x16, .f32⟩ : BufTy).Contents (Elt F)) ⟨by decide, rfl⟩ ⟨by decide, rfl⟩ ⟨by decide, rfl⟩ rfl (take_eq_of_earlier ops_single V (i := 665) (k := 666) (by decide) (lt_of_lt_of_eq (by decide : 665 < 668) ops_length.symm) (Finset.mem_singleton_self _)) (take_eq_of_earlier ops_single V (i := 134) (k := 666) (by decide) (lt_of_lt_of_eq (by decide : 134 < 668) ops_length.symm) (Finset.mem_singleton_self _))
theorem eq_main_v449 (V : Valuation τ sig (Elt F)) :
    after (ops (F := F)) V main_v449 = ((transpose S8x4096x64x16 [0, 2, 1, 3] · transposes_S8x64x4096x16_S8x4096x64x16_0_2_1_3) : (⟨S8x64x4096x16, .f32⟩ : BufTy).Contents (Elt F) → (⟨S8x4096x64x16, .f32⟩ : BufTy).Contents (Elt F)) (after (ops (F := F)) V main_v448) :=
  unary_eq ops_single V (lt_of_lt_of_eq (by decide : 667 < 668) ops_length.symm) main_v448 main_v449 ((transpose S8x4096x64x16 [0, 2, 1, 3] · transposes_S8x64x4096x16_S8x4096x64x16_0_2_1_3) : (⟨S8x64x4096x16, .f32⟩ : BufTy).Contents (Elt F) → (⟨S8x4096x64x16, .f32⟩ : BufTy).Contents (Elt F)) ⟨by decide, rfl⟩ ⟨by decide, rfl⟩ rfl (take_eq_of_earlier ops_single V (i := 666) (k := 667) (by decide) (lt_of_lt_of_eq (by decide : 666 < 668) ops_length.symm) (Finset.mem_singleton_self _))

end Cert.ReferenceIdeal.Line

end
-- ==== Proof.RefEquations.lean ====
/-
  Every operation's equation over the final valuation of the reference's line, window by window. -/
import proofs.«140659_j42700564857293_1_alg».proof.Proof.RefEq0
import proofs.«140659_j42700564857293_1_alg».proof.Proof.RefEq1
import proofs.«140659_j42700564857293_1_alg».proof.Proof.RefEq2
import proofs.«140659_j42700564857293_1_alg».proof.Proof.RefEq3
import proofs.«140659_j42700564857293_1_alg».proof.Proof.RefEq4
import proofs.«140659_j42700564857293_1_alg».proof.Proof.RefEq5
import proofs.«140659_j42700564857293_1_alg».proof.Proof.RefEq6
import proofs.«140659_j42700564857293_1_alg».proof.Proof.RefEq7
import proofs.«140659_j42700564857293_1_alg».proof.Proof.RefEq8
import proofs.«140659_j42700564857293_1_alg».proof.Proof.RefEq9
import proofs.«140659_j42700564857293_1_alg».proof.Proof.RefEq10
import proofs.«140659_j42700564857293_1_alg».proof.Proof.RefEq11
-- ==== Proof.IndexTables.lean ====
/-
  The index tables of the tree scan.

  At the level of stride s (s = 1, 2, 4, …, 1024) the 4096 positions fall into 2048 / s pairs; pair number e consists of
  the LEFT position 2·s·e + s − 1 and the RIGHT position 2·s·e + 2·s − 1 (the last position of the left half and of the
  right half of the e-th block of 2·s positions).  The program lists these positions as literal tables, one LEFT and one
  RIGHT table per level for the up-sweep and again for the down-sweep.  Each theorem below states that a table's entry e is
  the position given by the formula; each is a finite check over the table's entries, evaluated entry by entry.
-/
import proofs.«140659_j42700564857293_1_alg».proof.ReferenceIdeal

namespace Cert.ReferenceIdeal.IndexTables

/-- The LEFT positions of the up-sweep's level of stride 1: 2048 entries. -/
theorem lit0_eq (e : Fin 2048) : Cert.ReferenceIdeal.lit0 e = BitVec.ofNat 32 (2 * 1 * e.val + 1 - 1) := by
  revert e; decide +kernel

/-- The RIGHT positions of the up-sweep's level of stride 1: 2048 entries. -/
theorem lit1_eq (e : Fin 2048) : Cert.ReferenceIdeal.lit1 e = BitVec.ofNat 32 (2 * 1 * e.val + 2 * 1 - 1) := by
  revert e; decide +kernel

/-- The LEFT positions of the up-sweep's level of stride 2: 1024 entries. -/
theorem lit2_eq (e : Fin 1024) : Cert.ReferenceIdeal.lit2 e = BitVec.ofNat 32 (2 * 2 * e.val + 2 - 1) := by
  revert e; decide +kernel

/-- The RIGHT positions of the up-sweep's level of stride 2: 1024 entries. -/
theorem lit3_eq (e : Fin 1024) : Cert.ReferenceIdeal.lit3 e = BitVec.ofNat 32 (2 * 2 * e.val + 2 * 2 - 1) := by
  revert e; decide +kernel

/-- The LEFT positions of the up-sweep's level of stride 4: 512 entries. -/
theorem lit4_eq (e : Fin 512) : Cert.ReferenceIdeal.lit4 e = BitVec.ofNat 32 (2 * 4 * e.val + 4 - 1) := by
  revert e; decide +kernel

/-- The RIGHT positions of the up-sweep's level of stride 4: 512 entries. -/
theorem lit5_eq (e : Fin 512) : Cert.ReferenceIdeal.lit5 e = BitVec.ofNat 32 (2 * 4 * e.val + 2 * 4 - 1) := by
  revert e; decide +kernel

/-- The LEFT positions of the up-sweep's level of stride 8: 256 entries. -/
theorem lit6_eq (e : Fin 256) : Cert.ReferenceIdeal.lit6 e = BitVec.ofNat 32 (2 * 8 * e.val + 8 - 1) := by
  revert e; decide +kernel

/-- The RIGHT positions of the up-sweep's level of stride 8: 256 entries. -/
theorem lit7_eq (e : Fin 256) : Cert.ReferenceIdeal.lit7 e = BitVec.ofNat 32 (2 * 8 * e.val + 2 * 8 - 1) := by
  revert e; decide +kernel

/-- The LEFT positions of the up-sweep's level of stride 16: 128 entries. -/
theorem lit8_eq (e : Fin 128) : Cert.ReferenceIdeal.lit8 e = BitVec.ofNat 32 (2 * 16 * e.val + 16 - 1) := by
  revert e; decide +kernel

/-- The RIGHT positions of the up-sweep's level of stride 16: 128 entries. -/
theorem lit9_eq (e : Fin 128) : Cert.ReferenceIdeal.lit9 e = BitVec.ofNat 32 (2 * 16 * e.val + 2 * 16 - 1) := by
  revert e; decide +kernel

/-- The LEFT positions of the up-sweep's level of stride 32: 64 entries. -/
theorem lit10_eq (e : Fin 64) : Cert.ReferenceIdeal.lit10 e = BitVec.ofNat 32 (2 * 32 * e.val + 32 - 1) := by
  revert e; decide +kernel

/-- The RIGHT positions of the up-sweep's level of stride 32: 64 entries. -/
theorem lit11_eq (e : Fin 64) : Cert.ReferenceIdeal.lit11 e = BitVec.ofNat 32 (2 * 32 * e.val + 2 * 32 - 1) := by
  revert e; decide +kernel

/-- The LEFT positions of the up-sweep's level of stride 64: 32 entries. -/
theorem lit12_eq (e : Fin 32) : Cert.ReferenceIdeal.lit12 e = BitVec.ofNat 32 (2 * 64 * e.val + 64 - 1) := by
  revert e; decide +kernel

/-- The RIGHT positions of the up-sweep's level of stride 64: 32 entries. -/
theorem lit13_eq (e : Fin 32) : Cert.ReferenceIdeal.lit13 e = BitVec.ofNat 32 (2 * 64 * e.val + 2 * 64 - 1) := by
  revert e; decide +kernel

/-- The LEFT positions of the up-sweep's level of stride 128: 16 entries. -/
theorem lit14_eq (e : Fin 16) : Cert.ReferenceIdeal.lit14 e = BitVec.ofNat 32 (2 * 128 * e.val + 128 - 1) := by
  revert e; decide +kernel

/-- The RIGHT positions of the up-sweep's level of stride 128: 16 entries. -/
theorem lit15_eq (e : Fin 16) : Cert.ReferenceIdeal.lit15 e = BitVec.ofNat 32 (2 * 128 * e.val + 2 * 128 - 1) := by
  revert e; decide +kernel

/-- The LEFT positions of the up-sweep's level of stride 256: 8 entries. -/
theorem lit16_eq (e : Fin 8) : Cert.ReferenceIdeal.lit16 e = BitVec.ofNat 32 (2 * 256 * e.val + 256 - 1) := by
  revert e; decide +kernel

/-- The RIGHT positions of the up-sweep's level of stride 256: 8 entries. -/
theorem lit17_eq (e : Fin 8) : Cert.ReferenceIdeal.lit17 e = BitVec.ofNat 32 (2 * 256 * e.val + 2 * 256 - 1) := by
  revert e; decide +kernel

/-- The LEFT positions of the up-sweep's level of stride 512: 4 entries. -/
theorem lit18_eq (e : Fin 4) : Cert.ReferenceIdeal.lit18 e = BitVec.ofNat 32 (2 * 512 * e.val + 512 - 1) := by
  revert e; decide +kernel

/-- The RIGHT positions of the up-sweep's level of stride 512: 4 entries. -/
theorem lit19_eq (e : Fin 4) : Cert.ReferenceIdeal.lit19 e = BitVec.ofNat 32 (2 * 512 * e.val + 2 * 512 - 1) := by
  revert e; decide +kernel

/-- The LEFT positions of the up-sweep's level of stride 1024: 2 entries. -/
theorem lit20_eq (e : Fin 2) : Cert.ReferenceIdeal.lit20 e = BitVec.ofNat 32 (2 * 1024 * e.val + 1024 - 1) := by
  revert e; decide +kernel

/-- The RIGHT positions of the up-sweep's level of stride 1024: 2 entries. -/
theorem lit21_eq (e : Fin 2) : Cert.ReferenceIdeal.lit21 e = BitVec.ofNat 32 (2 * 1024 * e.val + 2 * 1024 - 1) := by
  revert e; decide +kernel

/-- The LEFT positions of the down-sweep's level of stride 1024: 2 entries. -/
theorem lit22_eq (e : Fin 2) : Cert.ReferenceIdeal.lit22 e = BitVec.ofNat 32 (2 * 1024 * e.val + 1024 - 1) := by
  revert e; decide +kernel

/-- The RIGHT positions of the down-sweep's level of stride 1024: 2 entries. -/
theorem lit23_eq (e : Fin 2) : Cert.ReferenceIdeal.lit23 e = BitVec.ofNat 32 (2 * 1024 * e.val + 2 * 1024 - 1) := by
  revert e; decide +kernel

/-- The LEFT positions of the down-sweep's level of stride 512: 4 entries. -/
theorem lit24_eq (e : Fin 4) : Cert.ReferenceIdeal.lit24 e = BitVec.ofNat 32 (2 * 512 * e.val + 512 - 1) := by
  revert e; decide +kernel

/-- The RIGHT positions of the down-sweep's level of stride 512: 4 entries. -/
theorem lit25_eq (e : Fin 4) : Cert.ReferenceIdeal.lit25 e = BitVec.ofNat 32 (2 * 512 * e.val + 2 * 512 - 1) := by
  revert e; decide +kernel

/-- The LEFT positions of the down-sweep's level of stride 256: 8 entries. -/
theorem lit26_eq (e : Fin 8) : Cert.ReferenceIdeal.lit26 e = BitVec.ofNat 32 (2 * 256 * e.val + 256 - 1) := by
  revert e; decide +kernel

/-- The RIGHT positions of the down-sweep's level of stride 256: 8 entries. -/
theorem lit27_eq (e : Fin 8) : Cert.ReferenceIdeal.lit27 e = BitVec.ofNat 32 (2 * 256 * e.val + 2 * 256 - 1) := by
  revert e; decide +kernel

/-- The LEFT positions of the down-sweep's level of stride 128: 16 entries. -/
theorem lit28_eq (e : Fin 16) : Cert.ReferenceIdeal.lit28 e = BitVec.ofNat 32 (2 * 128 * e.val + 128 - 1) := by
  revert e; decide +kernel

/-- The RIGHT positions of the down-sweep's level of stride 128: 16 entries. -/
theorem lit29_eq (e : Fin 16) : Cert.ReferenceIdeal.lit29 e = BitVec.ofNat 32 (2 * 128 * e.val + 2 * 128 - 1) := by
  revert e; decide +kernel

/-- The LEFT positions of the down-sweep's level of stride 64: 32 entries. -/
theorem lit30_eq (e : Fin 32) : Cert.ReferenceIdeal.lit30 e = BitVec.ofNat 32 (2 * 64 * e.val + 64 - 1) := by
  revert e; decide +kernel

/-- The RIGHT positions of the down-sweep's level of stride 64: 32 entries. -/
theorem lit31_eq (e : Fin 32) : Cert.ReferenceIdeal.lit31 e = BitVec.ofNat 32 (2 * 64 * e.val + 2 * 64 - 1) := by
  revert e; decide +kernel

/-- The LEFT positions of the down-sweep's level of stride 32: 64 entries. -/
theorem lit32_eq (e : Fin 64) : Cert.ReferenceIdeal.lit32 e = BitVec.ofNat 32 (2 * 32 * e.val + 32 - 1) := by
  revert e; decide +kernel

/-- The RIGHT positions of the down-sweep's level of stride 32: 64 entries. -/
theorem lit33_eq (e : Fin 64) : Cert.ReferenceIdeal.lit33 e = BitVec.ofNat 32 (2 * 32 * e.val + 2 * 32 - 1) := by
  revert e; decide +kernel

/-- The LEFT positions of the down-sweep's level of stride 16: 128 entries. -/
theorem lit34_eq (e : Fin 128) : Cert.ReferenceIdeal.lit34 e = BitVec.ofNat 32 (2 * 16 * e.val + 16 - 1) := by
  revert e; decide +kernel

/-- The RIGHT positions of the down-sweep's level of stride 16: 128 entries. -/
theorem lit35_eq (e : Fin 128) : Cert.ReferenceIdeal.lit35 e = BitVec.ofNat 32 (2 * 16 * e.val + 2 * 16 - 1) := by
  revert e; decide +kernel

/-- The LEFT positions of the down-sweep's level of stride 8: 256 entries. -/
theorem lit36_eq (e : Fin 256) : Cert.ReferenceIdeal.lit36 e = BitVec.ofNat 32 (2 * 8 * e.val + 8 - 1) := by
  revert e; decide +kernel

/-- The RIGHT positions of the down-sweep's level of stride 8: 256 entries. -/
theorem lit37_eq (e : Fin 256) : Cert.ReferenceIdeal.lit37 e = BitVec.ofNat 32 (2 * 8 * e.val + 2 * 8 - 1) := by
  revert e; decide +kernel

/-- The LEFT positions of the down-sweep's level of stride 4: 512 entries. -/
theorem lit38_eq (e : Fin 512) : Cert.ReferenceIdeal.lit38 e = BitVec.ofNat 32 (2 * 4 * e.val + 4 - 1) := by
  revert e; decide +kernel

/-- The RIGHT positions of the down-sweep's level of stride 4: 512 entries. -/
theorem lit39_eq (e : Fin 512) : Cert.ReferenceIdeal.lit39 e = BitVec.ofNat 32 (2 * 4 * e.val + 2 * 4 - 1) := by
  revert e; decide +kernel

/-- The LEFT positions of the down-sweep's level of stride 2: 1024 entries. -/
theorem lit40_eq (e : Fin 1024) : Cert.ReferenceIdeal.lit40 e = BitVec.ofNat 32 (2 * 2 * e.val + 2 - 1) := by
  revert e; decide +kernel

/-- The RIGHT positions of the down-sweep's level of stride 2: 1024 entries. -/
theorem lit41_eq (e : Fin 1024) : Cert.ReferenceIdeal.lit41 e = BitVec.ofNat 32 (2 * 2 * e.val + 2 * 2 - 1) := by
  revert e; decide +kernel

/-- The LEFT positions of the down-sweep's level of stride 1: 2048 entries. -/
theorem lit42_eq (e : Fin 2048) : Cert.ReferenceIdeal.lit42 e = BitVec.ofNat 32 (2 * 1 * e.val + 1 - 1) := by
  revert e; decide +kernel

/-- The RIGHT positions of the down-sweep's level of stride 1: 2048 entries. -/
theorem lit43_eq (e : Fin 2048) : Cert.ReferenceIdeal.lit43 e = BitVec.ofNat 32 (2 * 1 * e.val + 2 * 1 - 1) := by
  revert e; decide +kernel

end Cert.ReferenceIdeal.IndexTables
-- ==== Proof.LibEdgeIndex.lean ====
/-
  Gathers and accumulating scatters whose index array is a column [E, 1] of row numbers, read at an index.

  An index column `idx : [E, 1]` names one row per entry `e` (an edge).  Two readings of it occur:

  * a GATHER takes, for entry `e`, the row `idx[e, 0]` of a table with `N` rows — read signed and clamped into
    `[0, N - 1]` (`rowOf`).  From a vector `[N]` the result is `[E]`, its entry `e` the table at that row; from a
    matrix `[N, D]` the result is `[E, D]`, its entry `(e, j)` the table at that row and column `j`.
  * an ACCUMULATING SCATTER adds, for entry `e`, an update into row `idx[e, 0]` of the operand — read signed and
    NOT clamped: an update whose row is outside `[0, N - 1]` is dropped.  Entry `e` lands on row `n` exactly when
    `idx[e, 0] = n` as integers (`lands`).  Over the extended reals the result at row `n` is the operand there plus
    the sum over the entries that land on `n` of their updates; into a matrix `[N, D]` from updates `[E, D]` the
    update `(e, j')` lands on `(n, j)` exactly when `e` lands on `n` and `j' = j`, so column `j` of the result
    collects column `j` of the updates.

  Stated for any extents, over the dimension records with these dimension numbers; a printed record with the same
  numbers is such a record by unfolding.
-/
import Idealize.ShloMosaic.Lib.ValueIdx
import Idealize.ShloMosaic.PureOps.Ideal
import Idealize.ShloMosaic.PureOps.Ideal.Laws

noncomputable section

namespace Cert.EdgeIndex

open Idealize.ShloMosaic Idealize.ShloMosaic.ValueIdx

variable {α : Type} {N E D w : ℕ}

/-- A sum over a rank-1 index set is the sum over its coordinate. -/
def idxEquiv1 {n : ℕ} : (⟨1, ![n]⟩ : Shape).Idx ≃ Fin n where
  toFun i := i 0
  invFun a := ix1 a
  left_inv i := (eq_ix1 i).symm
  right_inv _ := rfl

theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The index column's entry for `e`. -/
abbrev at0 (e : Fin E) : (⟨2, ![E, 1]⟩ : Shape).Idx := ix2 e (0 : Fin 1)

/-- The row a gather reads for entry `e`: the column's word read signed, clamped into `[0, N - 1]`. -/
def rowOf (hN : 0 < N) (idx : IVec ⟨2, ![E, 1]⟩ w) (e : Fin E) : Fin N :=
  ⟨min (idx (at0 e)).toInt.toNat (N - 1), by omega⟩

/-- Entry `e` of the index column names row `n`, as integers, with no clamping. -/
def lands (idx : IVec ⟨2, ![E, 1]⟩ w) (e : Fin E) (n : Fin N) : Prop := (idx (at0 e)).toInt = (n.val : Int)

instance (idx : IVec ⟨2, ![E, 1]⟩ w) (e : Fin E) (n : Fin N) : Decidable (lands idx e n) := by
  unfold lands; infer_instance

/-! ## Gathers -/

/-- The dimension numbers of `vector[idx]`: one collapsed axis, the index vector on the column's second axis. -/
abbrev vecGather (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- `vector[idx]` at entry `e`: the vector at the clamped row. -/
theorem vecGather_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (rowOf hN idx e)) := by
  unfold Host.gather
  congr 1
  funext a
  obtain rfl : a = 0 := Subsingleton.elim _ _
  refine Fin.ext ?_
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = at0 e := by
    funext b; refine Fin.ext ?_
    match b with
    | ⟨0, _⟩ => rfl
    | ⟨1, _⟩ => rfl
  rw [hsi]
  rfl

/-- The dimension numbers of `matrix[idx]` (whole rows): the row axis collapsed, the column axis an offset axis. -/
abbrev rowGather (N D E : ℕ) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- `matrix[idx]` at entry `(e, j)`: the matrix at the clamped row, column `j`. -/
theorem rowGather_apply (hN : 0 < N) (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGather N D E wf) x idx (ix2 e j) = x (ix2 (rowOf hN idx e) j) := by
  unfold Host.gather
  congr 1
  have h0 : ((rowGather N D E wf).operandIdx (ix2 e j) idx (0 : Fin 2)).val = (rowOf hN idx e).val := by
    show (rowGather N D E wf).start (ix2 e j) idx (0 : Fin 2) + (rowGather N D E wf).batchCoord (ix2 e j) (0 : Fin 2)
      + (rowGather N D E wf).offCoord (ix2 e j) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N D E wf).startIndexMap from List.mem_singleton.mpr rfl)]
    have hsi : (rowGather N D E wf).siIdx (ix2 e j) ⟨List.idxOf (0 : Fin 2) (rowGather N D E wf).startIndexMap,
        List.idxOf_lt_length_iff.2 (List.mem_singleton.mpr rfl)⟩ = at0 e := by
      funext b; refine Fin.ext ?_
      match b with
      | ⟨0, _⟩ => rfl
      | ⟨1, _⟩ => rfl
    rw [hsi]
    rfl
  have h1 : ((rowGather N D E wf).operandIdx (ix2 e j) idx (1 : Fin 2)).val = j.val := by
    show (rowGather N D E wf).start (ix2 e j) idx (1 : Fin 2) + (rowGather N D E wf).batchCoord (ix2 e j) (1 : Fin 2)
      + (rowGather N D E wf).offCoord (ix2 e j) (1 : Fin 2) = _
    rw [GatherDims.batchCoord_eq_zero _ _ _ List.not_mem_nil]
    have hs : (rowGather N D E wf).start (ix2 e j) idx (1 : Fin 2) = 0 := by
      unfold GatherDims.start
      split
      · rename_i h
        exact ((by decide : ¬ (1 : Fin 2) ∈ ([0] : List (Fin 2))) h).elim
      · rfl
    have ho : (rowGather N D E wf).offCoord (ix2 e j) (1 : Fin 2) = j.val := by
      unfold GatherDims.offCoord
      split
      · rfl
      · rename_i h
        exact absurd ((GatherDims.mem_sKept _ _).mpr
          ⟨fun hh => absurd (hh : (1 : Fin 2) ∈ ([0] : List (Fin 2))) (by decide), List.not_mem_nil⟩) h
    rw [hs, ho, Nat.add_zero, Nat.zero_add]
  funext a
  refine Fin.ext ?_
  match a with
  | ⟨0, _⟩ => exact h0
  | ⟨1, _⟩ => exact h1

/-! ## Accumulating scatters -/

/-- An update lands on the operand index `i` exactly when, on every axis, its start plus its window coordinate is
    `i`'s coordinate. -/
theorem resultIdx?_eq_some_iff {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hb
      have hf := Option.some.inj h
      intro a
      have ha := congrArg (fun f => ((f a).val : Int)) hf
      have hb' := (hb a).1
      simp only [Int.toNat_of_nonneg hb'] at ha
      exact ha
    · cases h
  · intro h
    have hb : ∀ a, 0 ≤ d.start j idx a + (d.window j a : Int) ∧ d.start j idx a + (d.window j a : Int) < s.size a := fun a => by
      rw [h a]
      exact ⟨Int.natCast_nonneg _, by exact_mod_cast (i a).isLt⟩
    rw [dif_pos hb]
    congr 1
    funext a
    apply Fin.ext
    show (d.start j idx a + (d.window j a : Int)).toNat = (i a).val
    rw [h a, Int.toNat_natCast]

/-- An operand axis carries a window coordinate exactly when it is not an inserted axis. -/
theorem mem_sKept_iff {s si u : Shape} (d : ScatterDims s si u) (a : Fin s.rank) : a ∈ d.sKept ↔ a ∉ d.insertedWindowDims := by
  simp [ScatterDims.sKept, Shape.kept, List.mem_filter, List.mem_finRange]

/-- The dimension numbers of `vector.at[idx].add(updates)`. -/
abbrev vecScatter (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem vecScatter_lands (wf : ScatterDims.WF ⟨1, ![N]⟩ ⟨2, ![E, 1]⟩ ⟨1, ![E]⟩ [] [0] [0] 1)
    (idx : IVec ⟨2, ![E, 1]⟩ w) (e : Fin E) (n : Fin N) :
    (vecScatter N E wf).resultIdx? (ix1 e) idx = some (ix1 n) ↔ lands idx e n := by
  rw [resultIdx?_eq_some_iff]
  have hstart : (vecScatter N E wf).start (ix1 e) idx (0 : Fin 1) = (idx (at0 e)).toInt := by
    unfold ScatterDims.start
    rw [dif_pos (show (0 : Fin 1) ∈ (vecScatter N E wf).scatterDimsToOperandDims from List.mem_singleton.mpr rfl)]
    congr 2
    funext b; refine Fin.ext ?_
    match b with
    | ⟨0, _⟩ => rfl
    | ⟨1, _⟩ => rfl
  have hwin : (vecScatter N E wf).window (ix1 e) (0 : Fin 1) = 0 := by
    unfold ScatterDims.window
    split
    · rename_i h
      exact absurd (List.mem_singleton.mpr rfl) ((mem_sKept_iff _ _).mp h)
    · rfl
  constructor
  · intro h
    have h0 : (idx (at0 e)).toInt + ((0 : ℕ) : Int) = (n.val : Int) := by
      have := h (0 : Fin 1)
      rw [hstart, hwin] at this
      exact this
    show (idx (at0 e)).toInt = (n.val : Int)
    rw [Nat.cast_zero, add_zero] at h0
    exact h0
  · intro h a
    obtain rfl : a = 0 := Subsingleton.elim _ _
    rw [hstart, hwin]
    show (idx (at0 e)).toInt + ((0 : ℕ) : Int) = (n.val : Int)
    rw [Nat.cast_zero, add_zero]
    exact h

/-- `vector.at[idx].add(updates)` at row `n`, over the extended reals: the operand there plus the updates of the
    entries that land on `n`. -/
theorem vecScatterAdd_apply (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (n : Fin N) :
    Host.scatterAdd (F := Ideal) (vecScatter N E wf) x idx upd (ix1 n)
      = x (ix1 n) + ∑ e : Fin E, if lands idx e n then upd (ix1 e) else 0 := by
  show Ideal.hostScatterAdd (vecScatter N E wf) x idx upd (ix1 n) = _
  unfold Ideal.hostScatterAdd
  congr 1
  rw [Finset.sum_filter, sum_idx1]
  exact Finset.sum_congr rfl fun e _ => if_congr (vecScatter_lands wf idx e n) rfl rfl

/-- The dimension numbers of `matrix.at[idx].add(updates)` with whole-row updates. -/
abbrev rowScatter (N D E : ℕ) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

theorem rowScatter_lands (wf : ScatterDims.WF ⟨2, ![N, D]⟩ ⟨2, ![E, 1]⟩ ⟨2, ![E, D]⟩ [1] [0] [0] 1)
    (idx : IVec ⟨2, ![E, 1]⟩ w) (e : Fin E) (j' : Fin D) (n : Fin N) (j : Fin D) :
    (rowScatter N D E wf).resultIdx? (ix2 e j') idx = some (ix2 n j) ↔ lands idx e n ∧ j' = j := by
  rw [resultIdx?_eq_some_iff]
  have hstart0 : (rowScatter N D E wf).start (ix2 e j') idx (0 : Fin 2) = (idx (at0 e)).toInt := by
    unfold ScatterDims.start
    rw [dif_pos (show (0 : Fin 2) ∈ (rowScatter N D E wf).scatterDimsToOperandDims from List.mem_singleton.mpr rfl)]
    congr 2
    funext b; refine Fin.ext ?_
    match b with
    | ⟨0, _⟩ => rfl
    | ⟨1, _⟩ => rfl
  have hwin0 : (rowScatter N D E wf).window (ix2 e j') (0 : Fin 2) = 0 := by
    unfold ScatterDims.window
    split
    · rename_i h
      exact absurd (List.mem_singleton.mpr rfl) ((mem_sKept_iff _ _).mp h)
    · rfl
  have hstart1 : (rowScatter N D E wf).start (ix2 e j') idx (1 : Fin 2) = 0 := by
    unfold ScatterDims.start
    split
    · rename_i h
      exact ((by decide : ¬ (1 : Fin 2) ∈ ([0] : List (Fin 2))) h).elim
    · rfl
  have hwin1 : (rowScatter N D E wf).window (ix2 e j') (1 : Fin 2) = j'.val := by
    unfold ScatterDims.window
    split
    · rfl
    · rename_i h
      exact absurd ((mem_sKept_iff _ _).mpr
        (fun hh => absurd (hh : (1 : Fin 2) ∈ ([0] : List (Fin 2))) (by decide))) h
  constructor
  · intro h
    have h0 : (idx (at0 e)).toInt + ((0 : ℕ) : Int) = (n.val : Int) := by
      have := h (0 : Fin 2)
      rw [hstart0, hwin0] at this
      exact this
    have h1 : (0 : Int) + ((j'.val : ℕ) : Int) = (j.val : Int) := by
      have := h (1 : Fin 2)
      rw [hstart1, hwin1] at this
      exact this
    rw [Nat.cast_zero, add_zero] at h0
    rw [zero_add] at h1
    exact ⟨h0, Fin.ext (by exact_mod_cast h1)⟩
  · rintro ⟨h, rfl⟩ a
    match a with
    | ⟨0, _⟩ =>
      show (rowScatter N D E wf).start (ix2 e j') idx (0 : Fin 2) + (((rowScatter N D E wf).window (ix2 e j') (0 : Fin 2) : ℕ) : Int) = (n.val : Int)
      rw [hstart0, hwin0, Nat.cast_zero, add_zero]
      exact h
    | ⟨1, _⟩ =>
      show (rowScatter N D E wf).start (ix2 e j') idx (1 : Fin 2) + (((rowScatter N D E wf).window (ix2 e j') (1 : Fin 2) : ℕ) : Int) = (j'.val : Int)
      rw [hstart1, hwin1, zero_add]

/-- `matrix.at[idx].add(updates)` at `(n, j)`, over the extended reals: the operand there plus column `j` of the
    updates of the entries that land on row `n`. -/
theorem rowScatterAdd_apply (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32) (n : Fin N) (j : Fin D) :
    Host.scatterAdd (F := Ideal) (rowScatter N D E wf) x idx upd (ix2 n j)
      = x (ix2 n j) + ∑ e : Fin E, if lands idx e n then upd (ix2 e j) else 0 := by
  show Ideal.hostScatterAdd (rowScatter N D E wf) x idx upd (ix2 n j) = _
  unfold Ideal.hostScatterAdd
  congr 1
  rw [Finset.sum_filter, sum_idx2]
  refine Finset.sum_congr rfl fun e _ => ?_
  rw [Finset.sum_congr rfl fun j' _ => if_congr (rowScatter_lands wf idx e j' n j) rfl rfl]
  by_cases h : lands idx e n
  · simp only [h, true_and, if_true]
    rw [Finset.sum_ite_eq' Finset.univ j (fun j' => upd (ix2 e j'))]
    simp
  · simp only [h, false_and, if_false, Finset.sum_const_zero]

end Cert.EdgeIndex

end
-- ==== Proof.LibBroadcasts.lean ====
/-
  Three broadcasts read at an entry.

  A scalar splat reads the scalar everywhere.  A vector `[a]` laid as a column `[a, 1]` and then along `b` columns reads,
  at `(n, j)`, the vector at `n`.  A vector `[b]` laid as a row `[1, b]` and then down `a` rows reads, at `(n, j)`, the
  vector at `j`.
-/
import Idealize.ShloMosaic.Lib.Pipeline.Value
import Idealize.ShloMosaic.Lib.ValueIdx

noncomputable section

namespace Cert.Broadcasts

open Idealize.ShloMosaic Idealize.ShloMosaic.ValueIdx

variable {α : Type}

/-- A splat of a scalar reads the scalar at every index. -/
theorem splat_apply {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun q => q.elim0)

/-- A vector laid as a column and then along the columns: at `(n, j)` the vector at `n`. -/
theorem alongColumns_apply {a b : ℕ} (d : (⟨1, ![a]⟩ : Shape).Idx → α)
    (h0 : (⟨1, ![a]⟩ : Shape).BroadcastsInDim ⟨2, ![a, 1]⟩ ![0])
    (h1 : (⟨2, ![a, 1]⟩ : Shape).BroadcastsInDim ⟨2, ![a, b]⟩ ![0, 1]) (n : Fin a) (j : Fin b) :
    broadcastInDim ⟨2, ![a, b]⟩ ![0, 1] h1 (broadcastInDim ⟨2, ![a, 1]⟩ ![0] h0 d) (ix2 n j) = d (ix1 n) := by
  refine (broadcastInDim_apply ![0, 1] h1 _ (ix2 n j) (ix2 n (0 : Fin 1)) (fun q => ?_)).trans ?_
  · match q with
    | ⟨0, _⟩ =>
      show n.val = if a = 1 then 0 else n.val
      by_cases ha : a = 1
      · rw [if_pos ha]; have := n.isLt; omega
      · rw [if_neg ha]
    | ⟨1, _⟩ =>
      show (0 : ℕ) = if (1 : ℕ) = 1 then 0 else j.val
      rw [if_pos rfl]
  · refine broadcastInDim_apply ![0] h0 d (ix2 n (0 : Fin 1)) (ix1 n) (fun q => ?_)
    match q with
    | ⟨0, _⟩ =>
      show n.val = if a = 1 then 0 else n.val
      by_cases ha : a = 1
      · rw [if_pos ha]; have := n.isLt; omega
      · rw [if_neg ha]

/-- A vector laid as a row and then down the rows: at `(n, j)` the vector at `j`. -/
theorem downRows_apply {a b : ℕ} (x : (⟨1, ![b]⟩ : Shape).Idx → α)
    (h0 : (⟨1, ![b]⟩ : Shape).BroadcastsInDim ⟨2, ![1, b]⟩ ![1])
    (h1 : (⟨2, ![1, b]⟩ : Shape).BroadcastsInDim ⟨2, ![a, b]⟩ ![0, 1]) (n : Fin a) (j : Fin b) :
    broadcastInDim ⟨2, ![a, b]⟩ ![0, 1] h1 (broadcastInDim ⟨2, ![1, b]⟩ ![1] h0 x) (ix2 n j) = x (ix1 j) := by
  refine (broadcastInDim_apply ![0, 1] h1 _ (ix2 n j) (ix2 (0 : Fin 1) j) (fun q => ?_)).trans ?_
  · match q with
    | ⟨0, _⟩ =>
      show (0 : ℕ) = if (1 : ℕ) = 1 then 0 else n.val
      rw [if_pos rfl]
    | ⟨1, _⟩ =>
      show j.val = if b = 1 then 0 else j.val
      by_cases hb : b = 1
      · rw [if_pos hb]; have := j.isLt; omega
      · rw [if_neg hb]
  · refine broadcastInDim_apply ![1] h0 x (ix2 (0 : Fin 1) j) (ix1 j) (fun q => ?_)
    match q with
    | ⟨0, _⟩ =>
      show j.val = if b = 1 then 0 else j.val
      by_cases hb : b = 1
      · rw [if_pos hb]; have := j.isLt; omega
      · rw [if_neg hb]

/-- A vector laid as a column: at `(n, u)` the vector at `n`. -/
theorem column_apply {a : ℕ} (d : (⟨1, ![a]⟩ : Shape).Idx → α)
    (h0 : (⟨1, ![a]⟩ : Shape).BroadcastsInDim ⟨2, ![a, 1]⟩ ![0]) (n : Fin a) (u : Fin 1) :
    broadcastInDim ⟨2, ![a, 1]⟩ ![0] h0 d (ix2 n u) = d (ix1 n) := by
  refine broadcastInDim_apply ![0] h0 d (ix2 n u) (ix1 n) (fun q => ?_)
  match q with
  | ⟨0, _⟩ =>
    show n.val = if a = 1 then 0 else n.val
    by_cases ha : a = 1
    · rw [if_pos ha]; have := n.isLt; omega
    · rw [if_neg ha]

end Cert.Broadcasts

end
-- ==== Proof.IndexColumn.lean ====
/-
  Index columns and literal tables read at an entry.

  An index vector tbl of n words is normalised as the column [n, 1] of select(mask, tbl + const, tbl); where the mask
  is false everywhere (the indices are non-negative) the column's entry for e is tbl at e.  A literal table is held as
  the function sending an index to the word at its row-major position; for a vector that position is the coordinate.
-/
import Idealize.ShloMosaic.Lib.ValueIdx
import Idealize.ShloMosaic.Lib.ValueLayout
import Idealize.ShloMosaic.Lib.Pipeline.Value
import proofs.«140659_j42700564857293_1_alg».proof.Proof.LibEdgeIndex
import proofs.«140659_j42700564857293_1_alg».proof.Proof.LibBroadcasts

noncomputable section

namespace Cert.IndexColumn

open Idealize.ShloMosaic Idealize.ShloMosaic.ValueIdx Cert.EdgeIndex

/-- The index column of a table whose mask is false everywhere: its entry for e is the table at e. -/
theorem column_apply {n : ℕ} (hb : (⟨1, ![n]⟩ : Shape).BroadcastsInDim ⟨2, ![n, 1]⟩ (![0] : Fin 1 → Fin 2))
    (mask : IVec ⟨1, ![n]⟩ 1) (hm : ∀ i, mask i = 0#1) (alt tbl : IVec ⟨1, ![n]⟩ 32) (e : Fin n) :
    broadcastInDim ⟨2, ![n, 1]⟩ ![0] hb (select mask alt tbl) (at0 e) = tbl (ix1 e) := by
  refine (Cert.Broadcasts.column_apply (select mask alt tbl) hb e (0 : Fin 1)).trans ?_
  rw [select_apply, hm, select_zero]

/-- The row-major position of a rank-1 index is its coordinate. -/
theorem rowMajor_ix1_val {n : ℕ} (e : Fin n) : ((⟨1, ![n]⟩ : Shape).rowMajor (ix1 e)).val = e.val :=
  Shape.rowMajor_val_one (ix1 e)

/-- A vector of n entries has n positions. -/
theorem numel_vec (n : ℕ) : (⟨1, ![n]⟩ : Shape).numel = n := by
  simp [Shape.numel]

/-- A literal table listed in row-major order, read at e, is its e-th word. -/
theorem table_apply (n : ℕ) (lit : Fin (⟨1, ![n]⟩ : Shape).numel → BitVec 32) (e : Fin n)
    (h : e.val < (⟨1, ![n]⟩ : Shape).numel) :
    (fun i : (⟨1, ![n]⟩ : Shape).Idx => lit ((⟨1, ![n]⟩ : Shape).rowMajor i)) (ix1 e) = lit ⟨e.val, h⟩ := by
  show lit ((⟨1, ![n]⟩ : Shape).rowMajor (ix1 e)) = lit ⟨e.val, h⟩
  exact congrArg lit (Fin.ext (rowMajor_ix1_val e))

/-- A splat of a word reads the word at every index. -/
theorem splat_apply {n : ℕ} (v : BitVec 32) (i : (⟨1, ![n]⟩ : Shape).Idx) : constantI ⟨1, ![n]⟩ 32 v i = v := rfl

/-- The all-false mask reads the bit 0 at every index. -/
theorem false_apply {n : ℕ} (i : (⟨1, ![n]⟩ : Shape).Idx) : constantI ⟨1, ![n]⟩ 1 0#1 i = 0#1 := rfl

end Cert.IndexColumn

end
-- ==== Proof.PositionGather.lean ====
/-
  Gathers along the position axis of an array [8, 64, 4096, 16] through an index column [E, 1], read at an index.

  The index column names one position per entry e.  The gather x[:, :, idx, :] takes, for entry e, the slab of the
  position idx[e, 0], read signed and clamped into [0, 4095]: the result [8, 64, E, 16] at (b, d, e, n) is the array
  at (b, d, that position, n).  The position axis is collapsed and carries the start index; the other three axes are
  offset axes of full width, so their start is 0 and their coordinate is the result's.
-/
import proofs.«140659_j42700564857293_1_alg».proof.Proof.RunningSum
import proofs.«140659_j42700564857293_1_alg».proof.Proof.LibEdgeIndex

noncomputable section

namespace Cert.PositionIndex

open Idealize.ShloMosaic Idealize.ShloMosaic.ValueIdx Cert.RunningSum Cert.EdgeIndex

variable {α : Type} {E w : ℕ}

/-- x[:, :, idx, :]: the position axis collapsed, the other three axes offset axes. -/
abbrev posGather (E : ℕ) (wf : GatherDims.WF SY ⟨2, ![E, 1]⟩ ⟨4, ![8, 64, E, 16]⟩ [0, 1, 3] [2] [] [2] [] 1 ![8, 64, 1, 16]) :
    GatherDims SY ⟨2, ![E, 1]⟩ ⟨4, ![8, 64, E, 16]⟩ where
  offsetDims := [0, 1, 3]
  collapsedSliceDims := [2]
  operandBatchingDims := []
  startIndicesBatchingDims := []
  startIndexMap := [2]
  indexVectorDim := 1
  sliceSizes := ![8, 64, 1, 16]
  wf := wf

/-- x[:, :, idx, :] at (b, d, e, n): the array at the clamped position of entry e, the other coordinates kept. -/
theorem posGather_apply
    (wf : GatherDims.WF SY ⟨2, ![E, 1]⟩ ⟨4, ![8, 64, E, 16]⟩ [0, 1, 3] [2] [] [2] [] 1 ![8, 64, 1, 16])
    (x : SY.Idx → α) (idx : IVec ⟨2, ![E, 1]⟩ w) (b : Fin 8) (d : Fin 64) (e : Fin E) (n : Fin 16) :
    Host.gather (posGather E wf) x idx (ix4 b d e n) = x (ix4 b d (rowOf (N := 4096) (by decide) idx e) n) := by
  unfold Host.gather
  congr 1
  -- the position axis: the clamped start index, no batch and no offset coordinate
  have h2 : ((posGather E wf).operandIdx (ix4 b d e n) idx (2 : Fin 4)).val
      = (rowOf (N := 4096) (by decide) idx e).val := by
    show (posGather E wf).start (ix4 b d e n) idx (2 : Fin 4) + (posGather E wf).batchCoord (ix4 b d e n) (2 : Fin 4)
      + (posGather E wf).offCoord (ix4 b d e n) (2 : Fin 4) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin 4) ∈ (posGather E wf).startIndexMap from List.mem_singleton.mpr rfl)]
    have hsi : (posGather E wf).siIdx (ix4 b d e n) ⟨List.idxOf (2 : Fin 4) (posGather E wf).startIndexMap,
        List.idxOf_lt_length_iff.2 (List.mem_singleton.mpr rfl)⟩ = at0 e := by
      funext c; refine Fin.ext ?_
      match c with
      | ⟨0, _⟩ => rfl
      | ⟨1, _⟩ => rfl
    rw [hsi]
    rfl
  -- the other axes: start 0, the result's own coordinate as offset
  have hstart : ∀ a : Fin 4, a ≠ 2 → (posGather E wf).start (ix4 b d e n) idx a = 0 := by
    intro a ha
    unfold GatherDims.start
    split
    · rename_i h
      exact absurd (List.mem_singleton.mp h) ha
    · rfl
  have h0 : ((posGather E wf).operandIdx (ix4 b d e n) idx (0 : Fin 4)).val = b.val := by
    show (posGather E wf).start (ix4 b d e n) idx (0 : Fin 4) + (posGather E wf).batchCoord (ix4 b d e n) (0 : Fin 4)
      + (posGather E wf).offCoord (ix4 b d e n) (0 : Fin 4) = _
    rw [GatherDims.batchCoord_eq_zero _ _ _ List.not_mem_nil, hstart 0 (by decide)]
    have ho : (posGather E wf).offCoord (ix4 b d e n) (0 : Fin 4) = b.val := by
      unfold GatherDims.offCoord
      split
      · rfl
      · rename_i h
        exact absurd ((GatherDims.mem_sKept _ _).mpr
          ⟨fun hh => absurd (hh : (0 : Fin 4) ∈ ([2] : List (Fin 4))) (by decide), List.not_mem_nil⟩) h
    rw [ho, Nat.add_zero, Nat.zero_add]
  have h1 : ((posGather E wf).operandIdx (ix4 b d e n) idx (1 : Fin 4)).val = d.val := by
    show (posGather E wf).start (ix4 b d e n) idx (1 : Fin 4) + (posGather E wf).batchCoord (ix4 b d e n) (1 : Fin 4)
      + (posGather E wf).offCoord (ix4 b d e n) (1 : Fin 4) = _
    rw [GatherDims.batchCoord_eq_zero _ _ _ List.not_mem_nil, hstart 1 (by decide)]
    have ho : (posGather E wf).offCoord (ix4 b d e n) (1 : Fin 4) = d.val := by
      unfold GatherDims.offCoord
      split
      · rfl
      · rename_i h
        exact absurd ((GatherDims.mem_sKept _ _).mpr
          ⟨fun hh => absurd (hh : (1 : Fin 4) ∈ ([2] : List (Fin 4))) (by decide), List.not_mem_nil⟩) h
    rw [ho, Nat.add_zero, Nat.zero_add]
  have h3 : ((posGather E wf).operandIdx (ix4 b d e n) idx (3 : Fin 4)).val = n.val := by
    show (posGather E wf).start (ix4 b d e n) idx (3 : Fin 4) + (posGather E wf).batchCoord (ix4 b d e n) (3 : Fin 4)
      + (posGather E wf).offCoord (ix4 b d e n) (3 : Fin 4) = _
    rw [GatherDims.batchCoord_eq_zero _ _ _ List.not_mem_nil, hstart 3 (by decide)]
    have ho : (posGather E wf).offCoord (ix4 b d e n) (3 : Fin 4) = n.val := by
      unfold GatherDims.offCoord
      split
      · rfl
      · rename_i h
        exact absurd ((GatherDims.mem_sKept _ _).mpr
          ⟨fun hh => absurd (hh : (3 : Fin 4) ∈ ([2] : List (Fin 4))) (by decide), List.not_mem_nil⟩) h
    rw [ho, Nat.add_zero, Nat.zero_add]
  funext a
  refine Fin.ext ?_
  match a with
  | ⟨0, _⟩ => exact h0
  | ⟨1, _⟩ => exact h1
  | ⟨2, _⟩ => exact h2
  | ⟨3, _⟩ => exact h3

end Cert.PositionIndex

end
-- ==== Proof.LibScatterFold.lean ====
/-
  A general fact about a scatter read at an index.

  The host's scatter is a left fold, over the update indices in row-major order, of single-point overwrites: the update
  with index j replaces the element at its result index ρ j by f (old element) (update j). When every update lands inside
  the operand and ρ is injective, each element of the result meets at most one update, so the fold can be read off
  directly:

      scatter x upd (ρ j) = f (x (ρ j)) (upd j),          scatter x upd i = x i   when no update lands on i.
-/
import Idealize.ShloMosaic.PureOps.ShapeOps

namespace Cert.ScatterFold

open Idealize.ShloMosaic

section fold

variable {ι κ α : Type} [DecidableEq κ] (f : α → α → α) (g : ι → κ) (v : ι → α)

/-- One overwrite: the value at `g n` becomes `f` of the old value there and `v n`; every other value stays. -/
def step (r : κ → α) (n : ι) : κ → α := fun i' => if i' = g n then f (r (g n)) (v n) else r i'

/-- A point none of the overwrites touches keeps its value through the fold. -/
theorem foldl_step_miss (i : κ) :
    ∀ (l : List ι) (x : κ → α), (∀ n ∈ l, g n ≠ i) → l.foldl (step f g v) x i = x i
  | [], _, _ => rfl
  | n :: l, x, h => by
    rw [List.foldl_cons, foldl_step_miss i l _ (fun n' hn' => h n' (List.mem_cons_of_mem _ hn'))]
    exact if_neg (fun e => h n List.mem_cons_self e.symm)

/-- When distinct overwrites touch distinct points and the list has no repeats, the point of overwrite `n` ends at
    `f` of its first value and `v n`: the overwrites before `n` and after it leave that point alone. -/
theorem foldl_step_hit (hg : Function.Injective g) (n : ι) :
    ∀ (l : List ι) (x : κ → α), l.Nodup → n ∈ l → l.foldl (step f g v) x (g n) = f (x (g n)) (v n)
  | [], _, _, h => absurd h List.not_mem_nil
  | a :: l, x, hnd, h => by
    rw [List.foldl_cons]
    have hnd' := List.nodup_cons.mp hnd
    rcases List.mem_cons.mp h with rfl | h'
    · rw [foldl_step_miss f g v (g n) l _ (fun n' hn' e => hnd'.1 (hg e ▸ hn'))]
      exact if_pos rfl
    · rw [foldl_step_hit hg n l _ hnd'.2 h']
      have hne : g n ≠ g a := fun e => hnd'.1 (hg e ▸ h')
      show f (if g n = g a then _ else x (g n)) (v n) = _
      rw [if_neg hne]

end fold

variable {s si u : Shape} {α : Type} {w : Nat}

/-- With every update inside the operand (`ρ` its result index), the scatter is the fold of the overwrites at `ρ`. -/
theorem scatter_eq_foldl (d : ScatterDims s si u) (f : α → α → α) (x : s.Idx → α) (idx : IVec si w) (upd : u.Idx → α)
    (ρ : u.Idx → s.Idx) (hρ : ∀ j, d.resultIdx? j idx = some (ρ j)) :
    Host.scatter d f x idx upd
      = (List.finRange u.numel).foldl (step f (fun n => ρ (u.rowMajor.symm n)) (fun n => upd (u.rowMajor.symm n))) x := by
  unfold Host.scatter
  refine congrArg (fun st => List.foldl st x (List.finRange u.numel)) ?_
  funext r n
  rw [hρ]
  rfl

/-- The scatter at the result index of update `j`, when distinct updates land on distinct elements. -/
theorem scatter_hit (d : ScatterDims s si u) (f : α → α → α) (x : s.Idx → α) (idx : IVec si w) (upd : u.Idx → α)
    (ρ : u.Idx → s.Idx) (hρ : ∀ j, d.resultIdx? j idx = some (ρ j)) (hinj : Function.Injective ρ) (j : u.Idx) :
    Host.scatter d f x idx upd (ρ j) = f (x (ρ j)) (upd j) := by
  rw [scatter_eq_foldl d f x idx upd ρ hρ]
  have h := foldl_step_hit f (fun n => ρ (u.rowMajor.symm n)) (fun n => upd (u.rowMajor.symm n))
    (hinj.comp u.rowMajor.symm.injective) (u.rowMajor j) (List.finRange u.numel) x (List.nodup_finRange _) (List.mem_finRange _)
  simp only [Equiv.symm_apply_apply] at h
  exact h

/-- The scatter at an element no update lands on. -/
theorem scatter_miss (d : ScatterDims s si u) (f : α → α → α) (x : s.Idx → α) (idx : IVec si w) (upd : u.Idx → α)
    (ρ : u.Idx → s.Idx) (hρ : ∀ j, d.resultIdx? j idx = some (ρ j)) (i : s.Idx) (hi : ∀ j, ρ j ≠ i) :
    Host.scatter d f x idx upd i = x i := by
  rw [scatter_eq_foldl d f x idx upd ρ hρ]
  exact foldl_step_miss _ _ _ i _ x (fun n _ => hi _)

end Cert.ScatterFold
-- ==== Proof.PositionScatter.lean ====
/-
  Overwriting scatters along the position axis of an array [8, 64, 4096, 16], read at an index.

  x.at[:, :, idx, :].set(u) writes, for entry e of an index column idx : [E, 1], the slab u[:, :, e, :] at the
  position idx[e, 0], read signed and NOT clamped: the update (b, d, e, n) lands on (b', d', p, n') exactly when
  idx[e, 0] = p as integers and b = b', d = d', n = n'.  When every entry e names a position pos e inside the array and
  distinct entries name distinct positions, each element meets at most one update, so the result is u(b, d, e, n) at
  (b, d, pos e, n) and the operand everywhere else.

  The same with ONE position given as a length-1 index vector: the update (b, d, n) lands on (b, d, p, n) exactly when
  the index is p.
-/
import proofs.«140659_j42700564857293_1_alg».proof.Proof.RunningSum
import proofs.«140659_j42700564857293_1_alg».proof.Proof.LibEdgeIndex
import proofs.«140659_j42700564857293_1_alg».proof.Proof.LibScatterFold

noncomputable section

namespace Cert.PositionIndex

open Idealize.ShloMosaic Idealize.ShloMosaic.ValueIdx Cert.RunningSum Cert.EdgeIndex

variable {α : Type} {E w : ℕ}

/-! ## Through an index column -/

/-- x.at[:, :, idx, :].set(u). -/
abbrev posScatter (E : ℕ) (wf : ScatterDims.WF SY ⟨2, ![E, 1]⟩ ⟨4, ![8, 64, E, 16]⟩ [0, 1, 3] [2] [2] 1) :
    ScatterDims SY ⟨2, ![E, 1]⟩ ⟨4, ![8, 64, E, 16]⟩ where
  updateWindowDims := [0, 1, 3]
  insertedWindowDims := [2]
  scatterDimsToOperandDims := [2]
  indexVectorDim := 1
  wf := wf

/-- The update (b, d, e, n) lands on (b', d', p, n') exactly when entry e names position p and the other coordinates
    agree. -/
theorem posScatter_lands (wf : ScatterDims.WF SY ⟨2, ![E, 1]⟩ ⟨4, ![8, 64, E, 16]⟩ [0, 1, 3] [2] [2] 1)
    (idx : IVec ⟨2, ![E, 1]⟩ w) (b : Fin 8) (d : Fin 64) (e : Fin E) (n : Fin 16)
    (b' : Fin 8) (d' : Fin 64) (p : Fin 4096) (n' : Fin 16) :
    (posScatter E wf).resultIdx? (ix4 b d e n) idx = some (ix4 b' d' p n')
      ↔ lands idx e p ∧ b = b' ∧ d = d' ∧ n = n' := by
  rw [resultIdx?_eq_some_iff]
  have hstart2 : (posScatter E wf).start (ix4 b d e n) idx (2 : Fin 4) = (idx (at0 e)).toInt := by
    unfold ScatterDims.start
    rw [dif_pos (show (2 : Fin 4) ∈ (posScatter E wf).scatterDimsToOperandDims from List.mem_singleton.mpr rfl)]
    congr 2
    funext c; refine Fin.ext ?_
    match c with
    | ⟨0, _⟩ => rfl
    | ⟨1, _⟩ => rfl
  have hwin2 : (posScatter E wf).window (ix4 b d e n) (2 : Fin 4) = 0 := by
    unfold ScatterDims.window
    split
    · rename_i h
      exact absurd (List.mem_singleton.mpr rfl) ((mem_sKept_iff _ _).mp h)
    · rfl
  have hstart : ∀ a : Fin 4, a ≠ 2 → (posScatter E wf).start (ix4 b d e n) idx a = 0 := by
    intro a ha
    unfold ScatterDims.start
    split
    · rename_i h
      exact absurd (List.mem_singleton.mp h) ha
    · rfl
  have hwin0 : (posScatter E wf).window (ix4 b d e n) (0 : Fin 4) = b.val := by
    unfold ScatterDims.window
    split
    · rfl
    · rename_i h
      exact absurd ((mem_sKept_iff _ _).mpr
        (fun hh => absurd (hh : (0 : Fin 4) ∈ ([2] : List (Fin 4))) (by decide))) h
  have hwin1 : (posScatter E wf).window (ix4 b d e n) (1 : Fin 4) = d.val := by
    unfold ScatterDims.window
    split
    · rfl
    · rename_i h
      exact absurd ((mem_sKept_iff _ _).mpr
        (fun hh => absurd (hh : (1 : Fin 4) ∈ ([2] : List (Fin 4))) (by decide))) h
  have hwin3 : (posScatter E wf).window (ix4 b d e n) (3 : Fin 4) = n.val := by
    unfold ScatterDims.window
    split
    · rfl
    · rename_i h
      exact absurd ((mem_sKept_iff _ _).mpr
        (fun hh => absurd (hh : (3 : Fin 4) ∈ ([2] : List (Fin 4))) (by decide))) h
  constructor
  · intro h
    have h2 : (idx (at0 e)).toInt + ((0 : ℕ) : Int) = (p.val : Int) := by
      have := h (2 : Fin 4)
      rw [hstart2, hwin2] at this
      exact this
    have h0 : (0 : Int) + ((b.val : ℕ) : Int) = (b'.val : Int) := by
      have := h (0 : Fin 4)
      rw [hstart 0 (by decide), hwin0] at this
      exact this
    have h1 : (0 : Int) + ((d.val : ℕ) : Int) = (d'.val : Int) := by
      have := h (1 : Fin 4)
      rw [hstart 1 (by decide), hwin1] at this
      exact this
    have h3 : (0 : Int) + ((n.val : ℕ) : Int) = (n'.val : Int) := by
      have := h (3 : Fin 4)
      rw [hstart 3 (by decide), hwin3] at this
      exact this
    rw [Nat.cast_zero, add_zero] at h2
    rw [zero_add] at h0 h1 h3
    exact ⟨h2, Fin.ext (by exact_mod_cast h0), Fin.ext (by exact_mod_cast h1), Fin.ext (by exact_mod_cast h3)⟩
  · rintro ⟨h, rfl, rfl, rfl⟩ a
    match a with
    | ⟨0, _⟩ =>
      show (posScatter E wf).start (ix4 b d e n) idx (0 : Fin 4)
        + (((posScatter E wf).window (ix4 b d e n) (0 : Fin 4) : ℕ) : Int) = (b.val : Int)
      rw [hstart 0 (by decide), hwin0, zero_add]
    | ⟨1, _⟩ =>
      show (posScatter E wf).start (ix4 b d e n) idx (1 : Fin 4)
        + (((posScatter E wf).window (ix4 b d e n) (1 : Fin 4) : ℕ) : Int) = (d.val : Int)
      rw [hstart 1 (by decide), hwin1, zero_add]
    | ⟨2, _⟩ =>
      show (posScatter E wf).start (ix4 b d e n) idx (2 : Fin 4)
        + (((posScatter E wf).window (ix4 b d e n) (2 : Fin 4) : ℕ) : Int) = (p.val : Int)
      rw [hstart2, hwin2, Nat.cast_zero, add_zero]
      exact h
    | ⟨3, _⟩ =>
      show (posScatter E wf).start (ix4 b d e n) idx (3 : Fin 4)
        + (((posScatter E wf).window (ix4 b d e n) (3 : Fin 4) : ℕ) : Int) = (n.val : Int)
      rw [hstart 3 (by decide), hwin3, zero_add]

/-- The element the update (b, d, e, n) overwrites when entry e names the position pos e. -/
def posTarget (pos : Fin E → Fin 4096) (j : (⟨4, ![8, 64, E, 16]⟩ : Shape).Idx) : SY.Idx :=
  ix4 (j 0) (j 1) (pos (j 2)) (j 3)

theorem posTarget_ix4 (pos : Fin E → Fin 4096) (b : Fin 8) (d : Fin 64) (e : Fin E) (n : Fin 16) :
    posTarget pos (ix4 b d e n) = ix4 b d (pos e) n := rfl

theorem posTarget_lands (wf : ScatterDims.WF SY ⟨2, ![E, 1]⟩ ⟨4, ![8, 64, E, 16]⟩ [0, 1, 3] [2] [2] 1)
    (idx : IVec ⟨2, ![E, 1]⟩ w) (pos : Fin E → Fin 4096) (hpos : ∀ e, lands idx e (pos e))
    (j : (⟨4, ![8, 64, E, 16]⟩ : Shape).Idx) :
    (posScatter E wf).resultIdx? j idx = some (posTarget pos j) := by
  obtain ⟨b, d, e, n, rfl⟩ : ∃ (b : Fin 8) (d : Fin 64) (e : Fin E) (n : Fin 16), j = ix4 b d e n :=
    ⟨j 0, j 1, j 2, j 3, eq_ix4 j⟩
  rw [posTarget_ix4]
  exact (posScatter_lands wf idx b d e n b d (pos e) n).mpr ⟨hpos e, rfl, rfl, rfl⟩

theorem posTarget_injective (pos : Fin E → Fin 4096) (hinj : Function.Injective pos) :
    Function.Injective (posTarget pos) := by
  intro j j' h
  obtain ⟨b, d, e, n, rfl⟩ : ∃ (b : Fin 8) (d : Fin 64) (e : Fin E) (n : Fin 16), j = ix4 b d e n :=
    ⟨j 0, j 1, j 2, j 3, eq_ix4 j⟩
  obtain ⟨b', d', e', n', rfl⟩ : ∃ (b : Fin 8) (d : Fin 64) (e : Fin E) (n : Fin 16), j' = ix4 b d e n :=
    ⟨j' 0, j' 1, j' 2, j' 3, eq_ix4 j'⟩
  rw [posTarget_ix4, posTarget_ix4] at h
  have h0 : b = b' := congrFun h (0 : Fin 4)
  have h1 : d = d' := congrFun h (1 : Fin 4)
  have h2 : e = e' := hinj (congrFun h (2 : Fin 4))
  have h3 : n = n' := congrFun h (3 : Fin 4)
  rw [h0, h1, h2, h3]

/-- x.at[:, :, idx, :].set(u) at the position entry e names: the update of entry e. -/
theorem posScatter_hit (wf : ScatterDims.WF SY ⟨2, ![E, 1]⟩ ⟨4, ![8, 64, E, 16]⟩ [0, 1, 3] [2] [2] 1)
    (x : SY.Idx → α) (idx : IVec ⟨2, ![E, 1]⟩ w) (upd : (⟨4, ![8, 64, E, 16]⟩ : Shape).Idx → α)
    (pos : Fin E → Fin 4096) (hpos : ∀ e, lands idx e (pos e)) (hinj : Function.Injective pos)
    (b : Fin 8) (d : Fin 64) (e : Fin E) (n : Fin 16) :
    Host.scatter (posScatter E wf) (fun _ v => v) x idx upd (ix4 b d (pos e) n) = upd (ix4 b d e n) := by
  have h := Cert.ScatterFold.scatter_hit (posScatter E wf) (fun _ v => v) x idx upd (posTarget pos)
    (posTarget_lands wf idx pos hpos) (posTarget_injective pos hinj) (ix4 b d e n)
  rw [posTarget_ix4] at h
  exact h

/-- x.at[:, :, idx, :].set(u) at a position no entry names: the operand. -/
theorem posScatter_miss (wf : ScatterDims.WF SY ⟨2, ![E, 1]⟩ ⟨4, ![8, 64, E, 16]⟩ [0, 1, 3] [2] [2] 1)
    (x : SY.Idx → α) (idx : IVec ⟨2, ![E, 1]⟩ w) (upd : (⟨4, ![8, 64, E, 16]⟩ : Shape).Idx → α)
    (pos : Fin E → Fin 4096) (hpos : ∀ e, lands idx e (pos e))
    (b : Fin 8) (d : Fin 64) (p : Fin 4096) (n : Fin 16) (hp : ∀ e, pos e ≠ p) :
    Host.scatter (posScatter E wf) (fun _ v => v) x idx upd (ix4 b d p n) = x (ix4 b d p n) := by
  refine Cert.ScatterFold.scatter_miss (posScatter E wf) (fun _ v => v) x idx upd (posTarget pos)
    (posTarget_lands wf idx pos hpos) (ix4 b d p n) ?_
  intro j h
  obtain ⟨b', d', e, n', rfl⟩ : ∃ (b : Fin 8) (d : Fin 64) (e : Fin E) (n : Fin 16), j = ix4 b d e n :=
    ⟨j 0, j 1, j 2, j 3, eq_ix4 j⟩
  rw [posTarget_ix4] at h
  exact hp e (congrFun h (2 : Fin 4))

/-! ## At one position -/

/-- x.at[:, :, i, :].set(u) at ONE position given as a length-1 index vector (index_vector_dim = 0). -/
abbrev lastScatter (wf : ScatterDims.WF SY ⟨1, ![1]⟩ ⟨3, ![8, 64, 16]⟩ [0, 1, 2] [2] [2] 0) :
    ScatterDims SY ⟨1, ![1]⟩ ⟨3, ![8, 64, 16]⟩ where
  updateWindowDims := [0, 1, 2]
  insertedWindowDims := [2]
  scatterDimsToOperandDims := [2]
  indexVectorDim := 0
  wf := wf

/-- The update (b, d, n) lands on (b', d', p, n') exactly when the index is p and the other coordinates agree. -/
theorem lastScatter_lands (wf : ScatterDims.WF SY ⟨1, ![1]⟩ ⟨3, ![8, 64, 16]⟩ [0, 1, 2] [2] [2] 0)
    (i0 : IVec ⟨1, ![1]⟩ w) (b : Fin 8) (d : Fin 64) (n : Fin 16)
    (b' : Fin 8) (d' : Fin 64) (p : Fin 4096) (n' : Fin 16) :
    (lastScatter wf).resultIdx? (ix3 b d n) i0 = some (ix4 b' d' p n')
      ↔ (i0 (ix1 (0 : Fin 1))).toInt = (p.val : Int) ∧ b = b' ∧ d = d' ∧ n = n' := by
  rw [resultIdx?_eq_some_iff]
  have hstart2 : (lastScatter wf).start (ix3 b d n) i0 (2 : Fin 4) = (i0 (ix1 (0 : Fin 1))).toInt := by
    unfold ScatterDims.start
    rw [dif_pos (show (2 : Fin 4) ∈ (lastScatter wf).scatterDimsToOperandDims from List.mem_singleton.mpr rfl)]
    congr 2
    funext c; refine Fin.ext ?_
    match c with
    | ⟨0, _⟩ => rfl
  have hwin2 : (lastScatter wf).window (ix3 b d n) (2 : Fin 4) = 0 := by
    unfold ScatterDims.window
    split
    · rename_i h
      exact absurd (List.mem_singleton.mpr rfl) ((mem_sKept_iff _ _).mp h)
    · rfl
  have hstart : ∀ a : Fin 4, a ≠ 2 → (lastScatter wf).start (ix3 b d n) i0 a = 0 := by
    intro a ha
    unfold ScatterDims.start
    split
    · rename_i h
      exact absurd (List.mem_singleton.mp h) ha
    · rfl
  have hwin0 : (lastScatter wf).window (ix3 b d n) (0 : Fin 4) = b.val := by
    unfold ScatterDims.window
    split
    · rfl
    · rename_i h
      exact absurd ((mem_sKept_iff _ _).mpr
        (fun hh => absurd (hh : (0 : Fin 4) ∈ ([2] : List (Fin 4))) (by decide))) h
  have hwin1 : (lastScatter wf).window (ix3 b d n) (1 : Fin 4) = d.val := by
    unfold ScatterDims.window
    split
    · rfl
    · rename_i h
      exact absurd ((mem_sKept_iff _ _).mpr
        (fun hh => absurd (hh : (1 : Fin 4) ∈ ([2] : List (Fin 4))) (by decide))) h
  have hwin3 : (lastScatter wf).window (ix3 b d n) (3 : Fin 4) = n.val := by
    unfold ScatterDims.window
    split
    · rfl
    · rename_i h
      exact absurd ((mem_sKept_iff _ _).mpr
        (fun hh => absurd (hh : (3 : Fin 4) ∈ ([2] : List (Fin 4))) (by decide))) h
  constructor
  · intro h
    have h2 : (i0 (ix1 (0 : Fin 1))).toInt + ((0 : ℕ) : Int) = (p.val : Int) := by
      have := h (2 : Fin 4)
      rw [hstart2, hwin2] at this
      exact this
    have h0 : (0 : Int) + ((b.val : ℕ) : Int) = (b'.val : Int) := by
      have := h (0 : Fin 4)
      rw [hstart 0 (by decide), hwin0] at this
      exact this
    have h1 : (0 : Int) + ((d.val : ℕ) : Int) = (d'.val : Int) := by
      have := h (1 : Fin 4)
      rw [hstart 1 (by decide), hwin1] at this
      exact this
    have h3 : (0 : Int) + ((n.val : ℕ) : Int) = (n'.val : Int) := by
      have := h (3 : Fin 4)
      rw [hstart 3 (by decide), hwin3] at this
      exact this
    rw [Nat.cast_zero, add_zero] at h2
    rw [zero_add] at h0 h1 h3
    exact ⟨h2, Fin.ext (by exact_mod_cast h0), Fin.ext (by exact_mod_cast h1), Fin.ext (by exact_mod_cast h3)⟩
  · rintro ⟨h, rfl, rfl, rfl⟩ a
    match a with
    | ⟨0, _⟩ =>
      show (lastScatter wf).start (ix3 b d n) i0 (0 : Fin 4)
        + (((lastScatter wf).window (ix3 b d n) (0 : Fin 4) : ℕ) : Int) = (b.val : Int)
      rw [hstart 0 (by decide), hwin0, zero_add]
    | ⟨1, _⟩ =>
      show (lastScatter wf).start (ix3 b d n) i0 (1 : Fin 4)
        + (((lastScatter wf).window (ix3 b d n) (1 : Fin 4) : ℕ) : Int) = (d.val : Int)
      rw [hstart 1 (by decide), hwin1, zero_add]
    | ⟨2, _⟩ =>
      show (lastScatter wf).start (ix3 b d n) i0 (2 : Fin 4)
        + (((lastScatter wf).window (ix3 b d n) (2 : Fin 4) : ℕ) : Int) = (p.val : Int)
      rw [hstart2, hwin2, Nat.cast_zero, add_zero]
      exact h
    | ⟨3, _⟩ =>
      show (lastScatter wf).start (ix3 b d n) i0 (3 : Fin 4)
        + (((lastScatter wf).window (ix3 b d n) (3 : Fin 4) : ℕ) : Int) = (n.val : Int)
      rw [hstart 3 (by decide), hwin3, zero_add]

/-- The element the update (b, d, n) overwrites when the index is position q. -/
def lastTarget (q : Fin 4096) (j : (⟨3, ![8, 64, 16]⟩ : Shape).Idx) : SY.Idx := ix4 (j 0) (j 1) q (j 2)

theorem lastTarget_ix3 (q : Fin 4096) (b : Fin 8) (d : Fin 64) (n : Fin 16) :
    lastTarget q (ix3 b d n) = ix4 b d q n := rfl

theorem lastTarget_lands (wf : ScatterDims.WF SY ⟨1, ![1]⟩ ⟨3, ![8, 64, 16]⟩ [0, 1, 2] [2] [2] 0)
    (i0 : IVec ⟨1, ![1]⟩ w) (q : Fin 4096) (hq : (i0 (ix1 (0 : Fin 1))).toInt = (q.val : Int))
    (j : (⟨3, ![8, 64, 16]⟩ : Shape).Idx) :
    (lastScatter wf).resultIdx? j i0 = some (lastTarget q j) := by
  obtain ⟨b, d, n, rfl⟩ : ∃ (b : Fin 8) (d : Fin 64) (n : Fin 16), j = ix3 b d n := ⟨j 0, j 1, j 2, eq_ix3 j⟩
  rw [lastTarget_ix3]
  exact (lastScatter_lands wf i0 b d n b d q n).mpr ⟨hq, rfl, rfl, rfl⟩

theorem lastTarget_injective (q : Fin 4096) : Function.Injective (lastTarget q) := by
  intro j j' h
  obtain ⟨b, d, n, rfl⟩ : ∃ (b : Fin 8) (d : Fin 64) (n : Fin 16), j = ix3 b d n := ⟨j 0, j 1, j 2, eq_ix3 j⟩
  obtain ⟨b', d', n', rfl⟩ : ∃ (b : Fin 8) (d : Fin 64) (n : Fin 16), j' = ix3 b d n := ⟨j' 0, j' 1, j' 2, eq_ix3 j'⟩
  rw [lastTarget_ix3, lastTarget_ix3] at h
  have h0 : b = b' := congrFun h (0 : Fin 4)
  have h1 : d = d' := congrFun h (1 : Fin 4)
  have h3 : n = n' := congrFun h (3 : Fin 4)
  rw [h0, h1, h3]

/-- x.at[:, :, q, :].set(u) at position q: the update. -/
theorem lastScatter_hit (wf : ScatterDims.WF SY ⟨1, ![1]⟩ ⟨3, ![8, 64, 16]⟩ [0, 1, 2] [2] [2] 0)
    (x : SY.Idx → α) (i0 : IVec ⟨1, ![1]⟩ w) (upd : (⟨3, ![8, 64, 16]⟩ : Shape).Idx → α)
    (q : Fin 4096) (hq : (i0 (ix1 (0 : Fin 1))).toInt = (q.val : Int)) (b : Fin 8) (d : Fin 64) (n : Fin 16) :
    Host.scatter (lastScatter wf) (fun _ v => v) x i0 upd (ix4 b d q n) = upd (ix3 b d n) := by
  have h := Cert.ScatterFold.scatter_hit (lastScatter wf) (fun _ v => v) x i0 upd (lastTarget q)
    (lastTarget_lands wf i0 q hq) (lastTarget_injective q) (ix3 b d n)
  rw [lastTarget_ix3] at h
  exact h

/-- x.at[:, :, q, :].set(u) at another position: the operand. -/
theorem lastScatter_miss (wf : ScatterDims.WF SY ⟨1, ![1]⟩ ⟨3, ![8, 64, 16]⟩ [0, 1, 2] [2] [2] 0)
    (x : SY.Idx → α) (i0 : IVec ⟨1, ![1]⟩ w) (upd : (⟨3, ![8, 64, 16]⟩ : Shape).Idx → α)
    (q : Fin 4096) (hq : (i0 (ix1 (0 : Fin 1))).toInt = (q.val : Int))
    (b : Fin 8) (d : Fin 64) (p : Fin 4096) (n : Fin 16) (hp : q ≠ p) :
    Host.scatter (lastScatter wf) (fun _ v => v) x i0 upd (ix4 b d p n) = x (ix4 b d p n) := by
  refine Cert.ScatterFold.scatter_miss (lastScatter wf) (fun _ v => v) x i0 upd (lastTarget q)
    (lastTarget_lands wf i0 q hq) (ix4 b d p n) ?_
  intro j h
  obtain ⟨b', d', n', rfl⟩ : ∃ (b : Fin 8) (d : Fin 64) (n : Fin 16), j = ix3 b d n := ⟨j 0, j 1, j 2, eq_ix3 j⟩
  rw [lastTarget_ix3] at h
  exact hp (congrFun h (2 : Fin 4))

end Cert.PositionIndex

end
-- ==== Proof.PositionLevels.lean ====
/-
  One level of the tree scan written with gathers and scatters along the position axis, read as a sequence operation
  on every fiber.

  A level of stride s pairs the positions: pair e (of E = 4096/(2s) pairs) has the LEFT position 2se + s − 1 and the
  RIGHT position 2se + 2s − 1.  Both are inside [0, 4095], distinct pairs have distinct left (right) positions, a
  position p is a right position exactly when 2s ∣ p + 1 and a left position exactly when p + 1 ≡ s (mod 2s); the left
  position of a pair is its right position minus s.  An index column holding these positions as 32-bit words names them
  both to a gather (clamping changes nothing) and to a scatter (every update lands, on distinct elements).

  * UP-SWEEP level: the sums left + right written at the right positions — a position p with 2s ∣ p + 1 takes
    X(p − s) + X(p), every other position keeps its entry.
  * DOWN-SWEEP level: the old right entries written at the left positions, then the sums left + right (of the old
    entries) at the right positions.
  * CLEARING: zeros written at position 4095.
-/
import proofs.«140659_j42700564857293_1_alg».proof.Proof.RunningSum
import proofs.«140659_j42700564857293_1_alg».proof.Proof.LibEdgeIndex
import proofs.«140659_j42700564857293_1_alg».proof.Proof.LibScatterFold
import proofs.«140659_j42700564857293_1_alg».proof.Proof.PositionGather
import proofs.«140659_j42700564857293_1_alg».proof.Proof.PositionScatter

noncomputable section

namespace Cert.PositionIndex

open Idealize.ShloMosaic Idealize.ShloMosaic.ValueIdx Cert.RunningSum Cert.EdgeIndex

/-! ## Index words that hold a position -/

/-- A position below 4096 written as a 32-bit word reads back, signed, as itself. -/
theorem toInt_ofNat_of_lt (v : ℕ) (hv : v < 4096) : (BitVec.ofNat 32 v).toInt = (v : Int) := by
  rw [BitVec.toInt_eq_toNat_cond, BitVec.toNat_ofNat]
  have h : v % 2 ^ 32 = v := Nat.mod_eq_of_lt (by omega)
  rw [h]
  split <;> omega

variable {E : ℕ}

/-- A gather reads the position the word holds: the clamp does nothing. -/
theorem rowOf_of_eq (idx : IVec ⟨2, ![E, 1]⟩ 32) (e : Fin E) (v : ℕ) (hv : v < 4096)
    (h : idx (at0 e) = BitVec.ofNat 32 v) : rowOf (N := 4096) (by decide) idx e = ⟨v, hv⟩ := by
  refine Fin.ext ?_
  show min (idx (at0 e)).toInt.toNat (4096 - 1) = v
  rw [h, toInt_ofNat_of_lt v hv, Int.toNat_natCast]
  omega

/-- A scatter's update lands on the position the word holds. -/
theorem lands_of_eq (idx : IVec ⟨2, ![E, 1]⟩ 32) (e : Fin E) (v : ℕ) (hv : v < 4096)
    (h : idx (at0 e) = BitVec.ofNat 32 v) : lands idx e (⟨v, hv⟩ : Fin 4096) := by
  show (idx (at0 e)).toInt = ((v : ℕ) : Int)
  rw [h, toInt_ofNat_of_lt v hv]

/-! ## The left and right positions of a level -/

section positions

variable {s : ℕ}

theorem right_lt (hs : 0 < s) (hEs : 2 * s * E = 4096) (e : Fin E) : 2 * s * e.val + 2 * s - 1 < 4096 := by
  have h := Nat.mul_le_mul_left (2 * s) (Nat.succ_le_of_lt e.isLt)
  rw [Nat.mul_succ, hEs] at h
  omega

theorem left_lt (hs : 0 < s) (hEs : 2 * s * E = 4096) (e : Fin E) : 2 * s * e.val + s - 1 < 4096 := by
  have h := right_lt hs hEs e
  omega

/-- The right position of pair e. -/
def rightPos (hs : 0 < s) (hEs : 2 * s * E = 4096) (e : Fin E) : Fin 4096 := ⟨2 * s * e.val + 2 * s - 1, right_lt hs hEs e⟩
/-- The left position of pair e. -/
def leftPos (hs : 0 < s) (hEs : 2 * s * E = 4096) (e : Fin E) : Fin 4096 := ⟨2 * s * e.val + s - 1, left_lt hs hEs e⟩

theorem rightPos_injective (hs : 0 < s) (hEs : 2 * s * E = 4096) : Function.Injective (rightPos (E := E) hs hEs) := by
  intro e e' h
  have h' : 2 * s * e.val + 2 * s - 1 = 2 * s * e'.val + 2 * s - 1 := congrArg Fin.val h
  have h'' : 2 * s * e.val = 2 * s * e'.val := by omega
  exact Fin.ext (Nat.eq_of_mul_eq_mul_left (by omega : 0 < 2 * s) h'')

theorem leftPos_injective (hs : 0 < s) (hEs : 2 * s * E = 4096) : Function.Injective (leftPos (E := E) hs hEs) := by
  intro e e' h
  have h' : 2 * s * e.val + s - 1 = 2 * s * e'.val + s - 1 := congrArg Fin.val h
  have h'' : 2 * s * e.val = 2 * s * e'.val := by omega
  exact Fin.ext (Nat.eq_of_mul_eq_mul_left (by omega : 0 < 2 * s) h'')

/-- A right position p has 2s ∣ p + 1. -/
theorem right_mod (hs : 0 < s) (e : ℕ) : (2 * s * e + 2 * s - 1 + 1) % (2 * s) = 0 := by
  have h : 2 * s * e + 2 * s - 1 + 1 = 2 * s * (e + 1) := by rw [Nat.mul_succ]; omega
  rw [h]
  exact Nat.mul_mod_right _ _

/-- A left position p has p + 1 ≡ s (mod 2s). -/
theorem left_mod (hs : 0 < s) (e : ℕ) : (2 * s * e + s - 1 + 1) % (2 * s) = s := by
  have h : 2 * s * e + s - 1 + 1 = 2 * s * e + s := by omega
  rw [h, Nat.mul_add_mod]
  exact Nat.mod_eq_of_lt (by omega)

/-- A position p with 2s ∣ p + 1 is the right position of a pair. -/
theorem exists_right (hs : 0 < s) (hEs : 2 * s * E = 4096) (p : Fin 4096) (h : (p.val + 1) % (2 * s) = 0) :
    ∃ e : Fin E, p.val = 2 * s * e.val + 2 * s - 1 := by
  obtain ⟨q, hq⟩ := Nat.dvd_of_mod_eq_zero h
  cases q with
  | zero => rw [Nat.mul_zero] at hq; omega
  | succ e =>
    rw [Nat.mul_succ] at hq
    have he : e < E := by
      by_contra hne
      have h1 := Nat.mul_le_mul_left (2 * s) (Nat.le_of_not_lt hne)
      have h2 := p.isLt
      omega
    exact ⟨⟨e, he⟩, by show p.val = 2 * s * e + 2 * s - 1; omega⟩

/-- A position p with p + 1 ≡ s (mod 2s) is the left position of a pair. -/
theorem exists_left (hs : 0 < s) (hEs : 2 * s * E = 4096) (p : Fin 4096) (h : (p.val + 1) % (2 * s) = s) :
    ∃ e : Fin E, p.val = 2 * s * e.val + s - 1 := by
  have hdm := Nat.div_add_mod (p.val + 1) (2 * s)
  rw [h] at hdm
  generalize (p.val + 1) / (2 * s) = q at hdm
  have hq : q < E := by
    by_contra hne
    have h1 := Nat.mul_le_mul_left (2 * s) (Nat.le_of_not_lt hne)
    have h2 := p.isLt
    omega
  exact ⟨⟨q, hq⟩, by show p.val = 2 * s * q + s - 1; omega⟩

end positions

/-! ## The three phases -/

/-- ONE UP-SWEEP LEVEL of stride s over E = 4096/(2s) pairs: gather the left entries (positions 2se + s − 1) and the
    right entries (positions 2se + 2s − 1), add, write the sums at the right positions. -/
theorem upLevel_read {E s : ℕ} (hs : 0 < s) (hEs : 2 * s * E = 4096)
    (wfG : GatherDims.WF SY ⟨2, ![E, 1]⟩ ⟨4, ![8, 64, E, 16]⟩ [0, 1, 3] [2] [] [2] [] 1 ![8, 64, 1, 16])
    (wfS : ScatterDims.WF SY ⟨2, ![E, 1]⟩ ⟨4, ![8, 64, E, 16]⟩ [0, 1, 3] [2] [2] 1)
    (Y : FVec Ideal SY .f32) (iL iR iW : IVec ⟨2, ![E, 1]⟩ 32)
    (hL : ∀ e : Fin E, iL (at0 e) = BitVec.ofNat 32 (2 * s * e.val + s - 1))
    (hR : ∀ e : Fin E, iR (at0 e) = BitVec.ofNat 32 (2 * s * e.val + 2 * s - 1))
    (hW : ∀ e : Fin E, iW (at0 e) = BitVec.ofNat 32 (2 * s * e.val + 2 * s - 1)) :
    Host.scatter (posScatter E wfS) (fun _ b => b) Y iW
        (addf (Host.gather (posGather E wfG) Y iL) (Host.gather (posGather E wfG) Y iR))
      = onFibers (upLevel s) Y := by
  funext i
  obtain ⟨b, d, p, n, rfl⟩ : ∃ (b : Fin 8) (d : Fin 64) (p : Fin 4096) (n : Fin 16), i = ix4 b d p n :=
    ⟨i 0, i 1, i 2, i 3, eq_ix4 i⟩
  rw [onFibers_ix4]
  have hlandW : ∀ e, lands iW e (rightPos hs hEs e) := fun e => lands_of_eq iW e _ (right_lt hs hEs e) (hW e)
  have hgL : ∀ e, rowOf (N := 4096) (by decide) iL e = leftPos hs hEs e :=
    fun e => rowOf_of_eq iL e _ (left_lt hs hEs e) (hL e)
  have hgR : ∀ e, rowOf (N := 4096) (by decide) iR e = rightPos hs hEs e :=
    fun e => rowOf_of_eq iR e _ (right_lt hs hEs e) (hR e)
  by_cases h : (p.val + 1) % (2 * s) = 0
  · -- a right position: the sum of the pair
    obtain ⟨e, he⟩ := exists_right hs hEs p h
    obtain rfl : p = rightPos hs hEs e := Fin.ext he
    rw [posScatter_hit wfS Y iW _ (rightPos hs hEs) hlandW (rightPos_injective hs hEs) b d e n, addf_apply,
      posGather_apply, posGather_apply, hgL, hgR]
    show _ = (if ((rightPos hs hEs e).val + 1) % (2 * s) = 0 then
      fiber Y b d n ⟨(rightPos hs hEs e).val - s, _⟩ + fiber Y b d n (rightPos hs hEs e) else _)
    rw [if_pos h]
    have hl : leftPos hs hEs e = ⟨(rightPos hs hEs e).val - s, lt_of_le_of_lt (Nat.sub_le _ _) (rightPos hs hEs e).isLt⟩ := by
      refine Fin.ext ?_
      show 2 * s * e.val + s - 1 = 2 * s * e.val + 2 * s - 1 - s
      omega
    rw [hl]
    rfl
  · -- not a right position: untouched
    rw [posScatter_miss wfS Y iW _ (rightPos hs hEs) hlandW b d p n
      (fun e he => h (by rw [← he]; exact right_mod hs e.val))]
    show _ = (if (p.val + 1) % (2 * s) = 0 then _ else fiber Y b d n p)
    rw [if_neg h]
    rfl

/-- CLEARING THE LAST ENTRY: a slab of zeros written at position 4095. -/
theorem clearLast_read (wf : ScatterDims.WF SY ⟨1, ![1]⟩ ⟨3, ![8, 64, 16]⟩ [0, 1, 2] [2] [2] 0)
    (Y : FVec Ideal SY .f32) (i0 : IVec ⟨1, ![1]⟩ 32) (h0 : ∀ k, i0 k = 4095#32)
    (Z : FVec Ideal ⟨3, ![8, 64, 16]⟩ .f32) (hZ : ∀ j, Z j = 0) :
    Host.scatter (lastScatter wf) (fun _ b => b) Y i0 Z = onFibers clearLast Y := by
  funext i
  obtain ⟨b, d, p, n, rfl⟩ : ∃ (b : Fin 8) (d : Fin 64) (p : Fin 4096) (n : Fin 16), i = ix4 b d p n :=
    ⟨i 0, i 1, i 2, i 3, eq_ix4 i⟩
  rw [onFibers_ix4]
  have hq : (i0 (ix1 (0 : Fin 1))).toInt = (((⟨4095, by decide⟩ : Fin 4096).val : ℕ) : Int) := by
    rw [h0]
    rfl
  show _ = (if p.val = 4095 then (0 : EReal) else fiber Y b d n p)
  by_cases h : p.val = 4095
  · obtain rfl : p = ⟨4095, by decide⟩ := Fin.ext h
    rw [if_pos h, lastScatter_hit wf Y i0 Z ⟨4095, by decide⟩ hq b d n, hZ]
  · rw [if_neg h, lastScatter_miss wf Y i0 Z ⟨4095, by decide⟩ hq b d p n (fun hh => h (by rw [← hh]))]
    rfl

/-- ONE DOWN-SWEEP LEVEL of stride s: the left and right entries gathered; the old right entries written at the left
    positions; then the sums of the old left and right entries written at the right positions. -/
theorem downLevel_read {E s : ℕ} (hs : 0 < s) (hEs : 2 * s * E = 4096)
    (wfG : GatherDims.WF SY ⟨2, ![E, 1]⟩ ⟨4, ![8, 64, E, 16]⟩ [0, 1, 3] [2] [] [2] [] 1 ![8, 64, 1, 16])
    (wfS : ScatterDims.WF SY ⟨2, ![E, 1]⟩ ⟨4, ![8, 64, E, 16]⟩ [0, 1, 3] [2] [2] 1)
    (Y : FVec Ideal SY .f32) (iL iR iWL iWR : IVec ⟨2, ![E, 1]⟩ 32)
    (hL : ∀ e : Fin E, iL (at0 e) = BitVec.ofNat 32 (2 * s * e.val + s - 1))
    (hR : ∀ e : Fin E, iR (at0 e) = BitVec.ofNat 32 (2 * s * e.val + 2 * s - 1))
    (hWL : ∀ e : Fin E, iWL (at0 e) = BitVec.ofNat 32 (2 * s * e.val + s - 1))
    (hWR : ∀ e : Fin E, iWR (at0 e) = BitVec.ofNat 32 (2 * s * e.val + 2 * s - 1)) :
    Host.scatter (posScatter E wfS) (fun _ b => b)
        (Host.scatter (posScatter E wfS) (fun _ b => b) Y iWL (Host.gather (posGather E wfG) Y iR))
        iWR (addf (Host.gather (posGather E wfG) Y iL) (Host.gather (posGather E wfG) Y iR))
      = onFibers (downLevel s) Y := by
  funext i
  obtain ⟨b, d, p, n, rfl⟩ : ∃ (b : Fin 8) (d : Fin 64) (p : Fin 4096) (n : Fin 16), i = ix4 b d p n :=
    ⟨i 0, i 1, i 2, i 3, eq_ix4 i⟩
  rw [onFibers_ix4]
  have hlandWL : ∀ e, lands iWL e (leftPos hs hEs e) := fun e => lands_of_eq iWL e _ (left_lt hs hEs e) (hWL e)
  have hlandWR : ∀ e, lands iWR e (rightPos hs hEs e) := fun e => lands_of_eq iWR e _ (right_lt hs hEs e) (hWR e)
  have hgL : ∀ e, rowOf (N := 4096) (by decide) iL e = leftPos hs hEs e :=
    fun e => rowOf_of_eq iL e _ (left_lt hs hEs e) (hL e)
  have hgR : ∀ e, rowOf (N := 4096) (by decide) iR e = rightPos hs hEs e :=
    fun e => rowOf_of_eq iR e _ (right_lt hs hEs e) (hR e)
  by_cases h : (p.val + 1) % (2 * s) = 0
  · -- a right position: the sum of the pair's old entries
    obtain ⟨e, he⟩ := exists_right hs hEs p h
    obtain rfl : p = rightPos hs hEs e := Fin.ext he
    rw [posScatter_hit wfS _ iWR _ (rightPos hs hEs) hlandWR (rightPos_injective hs hEs) b d e n, addf_apply,
      posGather_apply, posGather_apply, hgL, hgR]
    show _ = (if ((rightPos hs hEs e).val + 1) % (2 * s) = 0 then
      fiber Y b d n ⟨(rightPos hs hEs e).val - s, _⟩ + fiber Y b d n (rightPos hs hEs e) else _)
    rw [if_pos h]
    have hl : leftPos hs hEs e = ⟨(rightPos hs hEs e).val - s, lt_of_le_of_lt (Nat.sub_le _ _) (rightPos hs hEs e).isLt⟩ := by
      refine Fin.ext ?_
      show 2 * s * e.val + s - 1 = 2 * s * e.val + 2 * s - 1 - s
      omega
    rw [hl]
    rfl
  · -- not a right position: the second write leaves it alone
    rw [posScatter_miss wfS _ iWR _ (rightPos hs hEs) hlandWR b d p n
      (fun e he => h (by rw [← he]; exact right_mod hs e.val))]
    by_cases h' : (p.val + 1) % (2 * s) = s ∧ p.val + s < 4096
    · -- a left position: the pair's old right entry
      obtain ⟨e, he⟩ := exists_left hs hEs p h'.1
      obtain rfl : p = leftPos hs hEs e := Fin.ext he
      rw [posScatter_hit wfS Y iWL _ (leftPos hs hEs) hlandWL (leftPos_injective hs hEs) b d e n,
        posGather_apply, hgR]
      show _ = (if ((leftPos hs hEs e).val + 1) % (2 * s) = 0 then _ else
        if hh : ((leftPos hs hEs e).val + 1) % (2 * s) = s ∧ (leftPos hs hEs e).val + s < 4096 then
          fiber Y b d n ⟨(leftPos hs hEs e).val + s, hh.2⟩ else _)
      rw [if_neg h, dif_pos h']
      have hr : rightPos hs hEs e = ⟨(leftPos hs hEs e).val + s, h'.2⟩ := by
        refine Fin.ext ?_
        show 2 * s * e.val + 2 * s - 1 = 2 * s * e.val + s - 1 + s
        omega
      rw [hr]
      rfl
    · -- neither: both writes leave it alone
      rw [posScatter_miss wfS Y iWL _ (leftPos hs hEs) hlandWL b d p n
        (fun e he => h' (by
          rw [← he]
          refine ⟨left_mod hs e.val, ?_⟩
          have := right_lt hs hEs e
          show 2 * s * e.val + s - 1 + s < 4096
          omega))]
      show _ = (if (p.val + 1) % (2 * s) = 0 then _ else
        if hh : (p.val + 1) % (2 * s) = s ∧ p.val + s < 4096 then _ else fiber Y b d n p)
      rw [if_neg h, dif_neg h']
      rfl

end Cert.PositionIndex

end
-- ==== Proof.PositionIndex.lean ====
/-
  Gathers and scatters along the position axis through an index column, read at an index, and one lemma per phase of
  the tree scan: the gather (PositionGather), the overwriting scatters (PositionScatter), the levels (PositionLevels).
-/
import proofs.«140659_j42700564857293_1_alg».proof.Proof.PositionGather
import proofs.«140659_j42700564857293_1_alg».proof.Proof.PositionScatter
import proofs.«140659_j42700564857293_1_alg».proof.Proof.PositionLevels
-- ==== Proof.RefLevels.lean ====
/-
  The reference's tree scan, level by level, over the final valuation of its line of operations (every buffer there
  satisfies its operation's equation). An index column is a literal table of positions, normalised by a select on an
  all-false mask and reshaped to a column: its entry e is the table entry e, which is 2se + s - 1 (left positions) or
  2se + 2s - 1 (right positions) at stride s. An up-sweep level gathers left and right entries, adds them and writes the
  sums at the right positions; the clearing writes zeros at position 4095; a down-sweep level gathers left and right
  entries, writes the right ones at the left positions and the sums at the right positions. -/
import proofs.«140659_j42700564857293_1_alg».proof.Proof.RefEquations
import proofs.«140659_j42700564857293_1_alg».proof.Proof.IndexTables
import proofs.«140659_j42700564857293_1_alg».proof.Proof.IndexColumn
import proofs.«140659_j42700564857293_1_alg».proof.Proof.PositionIndex
import proofs.«140659_j42700564857293_1_alg».proof.Proof.RunningSum

noncomputable section

namespace Cert.ReferenceIdeal.Line

open Cert.ReferenceIdeal Cert.ReferenceIdeal.Gen Idealize.ShloMosaic Idealize.ShloMosaic.TcCoe Idealize.SL.Sem Idealize.ShloMosaic.StableHlo
open Idealize.ShloMosaic.ValueIdx Cert.RunningSum Cert.EdgeIndex Cert.PositionIndex Cert.IndexColumn Cert.ReferenceIdeal.IndexTables

/-! ## Up-sweep, stride 1 -/
theorem col_main_v5 (V : Valuation τ sig (Elt Ideal)) (e : Fin 2048) :
    (after (ops (F := Ideal)) V main_v5 : IVec ⟨2, ![2048, 1]⟩ 32) (at0 e) = BitVec.ofNat 32 (2 * 1 * e.val + 1 - 1) := by
  rw [eq_main_v5 V, eq_main_v4 V, eq_main_c_0 V, eq_main_c V]
  exact (column_apply _ _ (fun _ => rfl) _ _ e).trans ((show (fun i : S2048.Idx => lit0 (S2048.rowMajor i)) (ix1 e) = lit0 e from table_apply 2048 lit0 e e.isLt).trans (lit0_eq e))
theorem col_main_v10 (V : Valuation τ sig (Elt Ideal)) (e : Fin 2048) :
    (after (ops (F := Ideal)) V main_v10 : IVec ⟨2, ![2048, 1]⟩ 32) (at0 e) = BitVec.ofNat 32 (2 * 1 * e.val + 2 * 1 - 1) := by
  rw [eq_main_v10 V, eq_main_v9 V, eq_main_c_2 V, eq_main_c_1 V]
  exact (column_apply _ _ (fun _ => rfl) _ _ e).trans ((show (fun i : S2048.Idx => lit1 (S2048.rowMajor i)) (ix1 e) = lit1 e from table_apply 2048 lit1 e e.isLt).trans (lit1_eq e))
theorem col_main_v16 (V : Valuation τ sig (Elt Ideal)) (e : Fin 2048) :
    (after (ops (F := Ideal)) V main_v16 : IVec ⟨2, ![2048, 1]⟩ 32) (at0 e) = BitVec.ofNat 32 (2 * 1 * e.val + 2 * 1 - 1) := by
  rw [eq_main_v16 V, eq_main_v15 V, eq_main_c_3 V, eq_main_c_1 V]
  exact (column_apply _ _ (fun _ => rfl) _ _ e).trans ((show (fun i : S2048.Idx => lit1 (S2048.rowMajor i)) (ix1 e) = lit1 e from table_apply 2048 lit1 e e.isLt).trans (lit1_eq e))
theorem up_1 (V : Valuation τ sig (Elt Ideal)) :
    (after (ops (F := Ideal)) V main_v17 : FVec Ideal SY .f32) = onFibers (upLevel 1) (after (ops (F := Ideal)) V main_v1) := by
  rw [eq_main_v17 V, eq_main_v12 V, eq_main_v6 V, eq_main_v11 V]
  exact upLevel_read (E := 2048) (s := 1) (by norm_num) (by norm_num) _ _ _ _ _ _ (col_main_v5 V) (col_main_v10 V) (col_main_v16 V)
/-! ## Up-sweep, stride 2 -/
theorem col_main_v21 (V : Valuation τ sig (Elt Ideal)) (e : Fin 1024) :
    (after (ops (F := Ideal)) V main_v21 : IVec ⟨2, ![1024, 1]⟩ 32) (at0 e) = BitVec.ofNat 32 (2 * 2 * e.val + 2 - 1) := by
  rw [eq_main_v21 V, eq_main_v20 V, eq_main_c_5 V, eq_main_c_4 V]
  exact (column_apply _ _ (fun _ => rfl) _ _ e).trans ((show (fun i : S1024.Idx => lit2 (S1024.rowMajor i)) (ix1 e) = lit2 e from table_apply 1024 lit2 e e.isLt).trans (lit2_eq e))
theorem col_main_v26 (V : Valuation τ sig (Elt Ideal)) (e : Fin 1024) :
    (after (ops (F := Ideal)) V main_v26 : IVec ⟨2, ![1024, 1]⟩ 32) (at0 e) = BitVec.ofNat 32 (2 * 2 * e.val + 2 * 2 - 1) := by
  rw [eq_main_v26 V, eq_main_v25 V, eq_main_c_7 V, eq_main_c_6 V]
  exact (column_apply _ _ (fun _ => rfl) _ _ e).trans ((show (fun i : S1024.Idx => lit3 (S1024.rowMajor i)) (ix1 e) = lit3 e from table_apply 1024 lit3 e e.isLt).trans (lit3_eq e))
theorem col_main_v32 (V : Valuation τ sig (Elt Ideal)) (e : Fin 1024) :
    (after (ops (F := Ideal)) V main_v32 : IVec ⟨2, ![1024, 1]⟩ 32) (at0 e) = BitVec.ofNat 32 (2 * 2 * e.val + 2 * 2 - 1) := by
  rw [eq_main_v32 V, eq_main_v31 V, eq_main_c_8 V, eq_main_c_6 V]
  exact (column_apply _ _ (fun _ => rfl) _ _ e).trans ((show (fun i : S1024.Idx => lit3 (S1024.rowMajor i)) (ix1 e) = lit3 e from table_apply 1024 lit3 e e.isLt).trans (lit3_eq e))
theorem up_2 (V : Valuation τ sig (Elt Ideal)) :
    (after (ops (F := Ideal)) V main_v33 : FVec Ideal SY .f32) = onFibers (upLevel 2) (after (ops (F := Ideal)) V main_v17) := by
  rw [eq_main_v33 V, eq_main_v28 V, eq_main_v22 V, eq_main_v27 V]
  exact upLevel_read (E := 1024) (s := 2) (by norm_num) (by norm_num) _ _ _ _ _ _ (col_main_v21 V) (col_main_v26 V) (col_main_v32 V)
/-! ## Up-sweep, stride 4 -/
theorem col_main_v37 (V : Valuation τ sig (Elt Ideal)) (e : Fin 512) :
    (after (ops (F := Ideal)) V main_v37 : IVec ⟨2, ![512, 1]⟩ 32) (at0 e) = BitVec.ofNat 32 (2 * 4 * e.val + 4 - 1) := by
  rw [eq_main_v37 V, eq_main_v36 V, eq_main_c_10 V, eq_main_c_9 V]
  exact (column_apply _ _ (fun _ => rfl) _ _ e).trans ((show (fun i : S512.Idx => lit4 (S512.rowMajor i)) (ix1 e) = lit4 e from table_apply 512 lit4 e e.isLt).trans (lit4_eq e))
theorem col_main_v42 (V : Valuation τ sig (Elt Ideal)) (e : Fin 512) :
    (after (ops (F := Ideal)) V main_v42 : IVec ⟨2, ![512, 1]⟩ 32) (at0 e) = BitVec.ofNat 32 (2 * 4 * e.val + 2 * 4 - 1) := by
  rw [eq_main_v42 V, eq_main_v41 V, eq_main_c_12 V, eq_main_c_11 V]
  exact (column_apply _ _ (fun _ => rfl) _ _ e).trans ((show (fun i : S512.Idx => lit5 (S512.rowMajor i)) (ix1 e) = lit5 e from table_apply 512 lit5 e e.isLt).trans (lit5_eq e))
theorem col_main_v48 (V : Valuation τ sig (Elt Ideal)) (e : Fin 512) :
    (after (ops (F := Ideal)) V main_v48 : IVec ⟨2, ![512, 1]⟩ 32) (at0 e) = BitVec.ofNat 32 (2 * 4 * e.val + 2 * 4 - 1) := by
  rw [eq_main_v48 V, eq_main_v47 V, eq_main_c_13 V, eq_main_c_11 V]
  exact (column_apply _ _ (fun _ => rfl) _ _ e).trans ((show (fun i : S512.Idx => lit5 (S512.rowMajor i)) (ix1 e) = lit5 e from table_apply 512 lit5 e e.isLt).trans (lit5_eq e))
theorem up_4 (V : Valuation τ sig (Elt Ideal)) :
    (after (ops (F := Ideal)) V main_v49 : FVec Ideal SY .f32) = onFibers (upLevel 4) (after (ops (F := Ideal)) V main_v33) := by
  rw [eq_main_v49 V, eq_main_v44 V, eq_main_v38 V, eq_main_v43 V]
  exact upLevel_read (E := 512) (s := 4) (by norm_num) (by norm_num) _ _ _ _ _ _ (col_main_v37 V) (col_main_v42 V) (col_main_v48 V)
/-! ## Up-sweep, stride 8 -/
theorem col_main_v53 (V : Valuation τ sig (Elt Ideal)) (e : Fin 256) :
    (after (ops (F := Ideal)) V main_v53 : IVec ⟨2, ![256, 1]⟩ 32) (at0 e) = BitVec.ofNat 32 (2 * 8 * e.val + 8 - 1) := by
  rw [eq_main_v53 V, eq_main_v52 V, eq_main_c_15 V, eq_main_c_14 V]
  exact (column_apply _ _ (fun _ => rfl) _ _ e).trans ((show (fun i : S256.Idx => lit6 (S256.rowMajor i)) (ix1 e) = lit6 e from table_apply 256 lit6 e e.isLt).trans (lit6_eq e))
theorem col_main_v58 (V : Valuation τ sig (Elt Ideal)) (e : Fin 256) :
    (after (ops (F := Ideal)) V main_v58 : IVec ⟨2, ![256, 1]⟩ 32) (at0 e) = BitVec.ofNat 32 (2 * 8 * e.val + 2 * 8 - 1) := by
  rw [eq_main_v58 V, eq_main_v57 V, eq_main_c_17 V, eq_main_c_16 V]
  exact (column_apply _ _ (fun _ => rfl) _ _ e).trans ((show (fun i : S256.Idx => lit7 (S256.rowMajor i)) (ix1 e) = lit7 e from table_apply 256 lit7 e e.isLt).trans (lit7_eq e))
theorem col_main_v64 (V : Valuation τ sig (Elt Ideal)) (e : Fin 256) :
    (after (ops (F := Ideal)) V main_v64 : IVec ⟨2, ![256, 1]⟩ 32) (at0 e) = BitVec.ofNat 32 (2 * 8 * e.val + 2 * 8 - 1) := by
  rw [eq_main_v64 V, eq_main_v63 V, eq_main_c_18 V, eq_main_c_16 V]
  exact (column_apply _ _ (fun _ => rfl) _ _ e).trans ((show (fun i : S256.Idx => lit7 (S256.rowMajor i)) (ix1 e) = lit7 e from table_apply 256 lit7 e e.isLt).trans (lit7_eq e))
theorem up_8 (V : Valuation τ sig (Elt Ideal)) :
    (after (ops (F := Ideal)) V main_v65 : FVec Ideal SY .f32) = onFibers (upLevel 8) (after (ops (F := Ideal)) V main_v49) := by
  rw [eq_main_v65 V, eq_main_v60 V, eq_main_v54 V, eq_main_v59 V]
  exact upLevel_read (E := 256) (s := 8) (by norm_num) (by norm_num) _ _ _ _ _ _ (col_main_v53 V) (col_main_v58 V) (col_main_v64 V)
/-! ## Up-sweep, stride 16 -/
theorem col_main_v69 (V : Valuation τ sig (Elt Ideal)) (e : Fin 128) :
    (after (ops (F := Ideal)) V main_v69 : IVec ⟨2, ![128, 1]⟩ 32) (at0 e) = BitVec.ofNat 32 (2 * 16 * e.val + 16 - 1) := by
  rw [eq_main_v69 V, eq_main_v68 V, eq_main_c_20 V, eq_main_c_19 V]
  exact (column_apply _ _ (fun _ => rfl) _ _ e).trans ((show (fun i : S128.Idx => lit8 (S128.rowMajor i)) (ix1 e) = lit8 e from table_apply 128 lit8 e e.isLt).trans (lit8_eq e))
theorem col_main_v74 (V : Valuation τ sig (Elt Ideal)) (e : Fin 128) :
    (after (ops (F := Ideal)) V main_v74 : IVec ⟨2, ![128, 1]⟩ 32) (at0 e) = BitVec.ofNat 32 (2 * 16 * e.val + 2 * 16 - 1) := by
  rw [eq_main_v74 V, eq_main_v73 V, eq_main_c_22 V, eq_main_c_21 V]
  exact (column_apply _ _ (fun _ => rfl) _ _ e).trans ((show (fun i : S128.Idx => lit9 (S128.rowMajor i)) (ix1 e) = lit9 e from table_apply 128 lit9 e e.isLt).trans (lit9_eq e))
theorem col_main_v80 (V : Valuation τ sig (Elt Ideal)) (e : Fin 128) :
    (after (ops (F := Ideal)) V main_v80 : IVec ⟨2, ![128, 1]⟩ 32) (at0 e) = BitVec.ofNat 32 (2 * 16 * e.val + 2 * 16 - 1) := by
  rw [eq_main_v80 V, eq_main_v79 V, eq_main_c_23 V, eq_main_c_21 V]
  exact (column_apply _ _ (fun _ => rfl) _ _ e).trans ((show (fun i : S128.Idx => lit9 (S128.rowMajor i)) (ix1 e) = lit9 e from table_apply 128 lit9 e e.isLt).trans (lit9_eq e))
theorem up_16 (V : Valuation τ sig (Elt Ideal)) :
    (after (ops (F := Ideal)) V main_v81 : FVec Ideal SY .f32) = onFibers (upLevel 16) (after (ops (F := Ideal)) V main_v65) := by
  rw [eq_main_v81 V, eq_main_v76 V, eq_main_v70 V, eq_main_v75 V]
  exact upLevel_read (E := 128) (s := 16) (by norm_num) (by norm_num) _ _ _ _ _ _ (col_main_v69 V) (col_main_v74 V) (col_main_v80 V)
/-! ## Up-sweep, stride 32 -/
theorem col_main_v85 (V : Valuation τ sig (Elt Ideal)) (e : Fin 64) :
    (after (ops (F := Ideal)) V main_v85 : IVec ⟨2, ![64, 1]⟩ 32) (at0 e) = BitVec.ofNat 32 (2 * 32 * e.val + 32 - 1) := by
  rw [eq_main_v85 V, eq_main_v84 V, eq_main_c_25 V, eq_main_c_24 V]
  exact (column_apply _ _ (fun _ => rfl) _ _ e).trans ((show (fun i : S64.Idx => lit10 (S64.rowMajor i)) (ix1 e) = lit10 e from table_apply 64 lit10 e e.isLt).trans (lit10_eq e))
theorem col_main_v90 (V : Valuation τ sig (Elt Ideal)) (e : Fin 64) :
    (after (ops (F := Ideal)) V main_v90 : IVec ⟨2, ![64, 1]⟩ 32) (at0 e) = BitVec.ofNat 32 (2 * 32 * e.val + 2 * 32 - 1) := by
  rw [eq_main_v90 V, eq_main_v89 V, eq_main_c_27 V, eq_main_c_26 V]
  exact (column_apply _ _ (fun _ => rfl) _ _ e).trans ((show (fun i : S64.Idx => lit11 (S64.rowMajor i)) (ix1 e) = lit11 e from table_apply 64 lit11 e e.isLt).trans (lit11_eq e))
theorem col_main_v96 (V : Valuation τ sig (Elt Ideal)) (e : Fin 64) :
    (after (ops (F := Ideal)) V main_v96 : IVec ⟨2, ![64, 1]⟩ 32) (at0 e) = BitVec.ofNat 32 (2 * 32 * e.val + 2 * 32 - 1) := by
  rw [eq_main_v96 V, eq_main_v95 V, eq_main_c_28 V, eq_main_c_26 V]
  exact (column_apply _ _ (fun _ => rfl) _ _ e).trans ((show (fun i : S64.Idx => lit11 (S64.rowMajor i)) (ix1 e) = lit11 e from table_apply 64 lit11 e e.isLt).trans (lit11_eq e))
theorem up_32 (V : Valuation τ sig (Elt Ideal)) :
    (after (ops (F := Ideal)) V main_v97 : FVec Ideal SY .f32) = onFibers (upLevel 32) (after (ops (F := Ideal)) V main_v81) := by
  rw [eq_main_v97 V, eq_main_v92 V, eq_main_v86 V, eq_main_v91 V]
  exact upLevel_read (E := 64) (s := 32) (by norm_num) (by norm_num) _ _ _ _ _ _ (col_main_v85 V) (col_main_v90 V) (col_main_v96 V)
/-! ## Up-sweep, stride 64 -/
theorem col_main_v101 (V : Valuation τ sig (Elt Ideal)) (e : Fin 32) :
    (after (ops (F := Ideal)) V main_v101 : IVec ⟨2, ![32, 1]⟩ 32) (at0 e) = BitVec.ofNat 32 (2 * 64 * e.val + 64 - 1) := by
  rw [eq_main_v101 V, eq_main_v100 V, eq_main_c_30 V, eq_main_c_29 V]
  exact (column_apply _ _ (fun _ => rfl) _ _ e).trans ((show (fun i : S32.Idx => lit12 (S32.rowMajor i)) (ix1 e) = lit12 e from table_apply 32 lit12 e e.isLt).trans (lit12_eq e))
theorem col_main_v106 (V : Valuation τ sig (Elt Ideal)) (e : Fin 32) :
    (after (ops (F := Ideal)) V main_v106 : IVec ⟨2, ![32, 1]⟩ 32) (at0 e) = BitVec.ofNat 32 (2 * 64 * e.val + 2 * 64 - 1) := by
  rw [eq_main_v106 V, eq_main_v105 V, eq_main_c_32 V, eq_main_c_31 V]
  exact (column_apply _ _ (fun _ => rfl) _ _ e).trans ((show (fun i : S32.Idx => lit13 (S32.rowMajor i)) (ix1 e) = lit13 e from table_apply 32 lit13 e e.isLt).trans (lit13_eq e))
theorem col_main_v112 (V : Valuation τ sig (Elt Ideal)) (e : Fin 32) :
    (after (ops (F := Ideal)) V main_v112 : IVec ⟨2, ![32, 1]⟩ 32) (at0 e) = BitVec.ofNat 32 (2 * 64 * e.val + 2 * 64 - 1) := by
  rw [eq_main_v112 V, eq_main_v111 V, eq_main_c_33 V, eq_main_c_31 V]
  exact (column_apply _ _ (fun _ => rfl) _ _ e).trans ((show (fun i : S32.Idx => lit13 (S32.rowMajor i)) (ix1 e) = lit13 e from table_apply 32 lit13 e e.isLt).trans (lit13_eq e))
theorem up_64 (V : Valuation τ sig (Elt Ideal)) :
    (after (ops (F := Ideal)) V main_v113 : FVec Ideal SY .f32) = onFibers (upLevel 64) (after (ops (F := Ideal)) V main_v97) := by
  rw [eq_main_v113 V, eq_main_v108 V, eq_main_v102 V, eq_main_v107 V]
  exact upLevel_read (E := 32) (s := 64) (by norm_num) (by norm_num) _ _ _ _ _ _ (col_main_v101 V) (col_main_v106 V) (col_main_v112 V)
/-! ## Up-sweep, stride 128 -/
theorem col_main_v117 (V : Valuation τ sig (Elt Ideal)) (e : Fin 16) :
    (after (ops (F := Ideal)) V main_v117 : IVec ⟨2, ![16, 1]⟩ 32) (at0 e) = BitVec.ofNat 32 (2 * 128 * e.val + 128 - 1) := by
  rw [eq_main_v117 V, eq_main_v116 V, eq_main_c_35 V, eq_main_c_34 V]
  exact (column_apply _ _ (fun _ => rfl) _ _ e).trans ((show (fun i : S16.Idx => lit14 (S16.rowMajor i)) (ix1 e) = lit14 e from table_apply 16 lit14 e e.isLt).trans (lit14_eq e))
theorem col_main_v122 (V : Valuation τ sig (Elt Ideal)) (e : Fin 16) :
    (after (ops (F := Ideal)) V main_v122 : IVec ⟨2, ![16, 1]⟩ 32) (at0 e) = BitVec.ofNat 32 (2 * 128 * e.val + 2 * 128 - 1) := by
  rw [eq_main_v122 V, eq_main_v121 V, eq_main_c_37 V, eq_main_c_36 V]
  exact (column_apply _ _ (fun _ => rfl) _ _ e).trans ((show (fun i : S16.Idx => lit15 (S16.rowMajor i)) (ix1 e) = lit15 e from table_apply 16 lit15 e e.isLt).trans (lit15_eq e))
theorem col_main_v128 (V : Valuation τ sig (Elt Ideal)) (e : Fin 16) :
    (after (ops (F := Ideal)) V main_v128 : IVec ⟨2, ![16, 1]⟩ 32) (at0 e) = BitVec.ofNat 32 (2 * 128 * e.val + 2 * 128 - 1) := by
  rw [eq_main_v128 V, eq_main_v127 V, eq_main_c_38 V, eq_main_c_36 V]
  exact (column_apply _ _ (fun _ => rfl) _ _ e).trans ((show (fun i : S16.Idx => lit15 (S16.rowMajor i)) (ix1 e) = lit15 e from table_apply 16 lit15 e e.isLt).trans (lit15_eq e))
theorem up_128 (V : Valuation τ sig (Elt Ideal)) :
    (after (ops (F := Ideal)) V main_v129 : FVec Ideal SY .f32) = onFibers (upLevel 128) (after (ops (F := Ideal)) V main_v113) := by
  rw [eq_main_v129 V, eq_main_v124 V, eq_main_v118 V, eq_main_v123 V]
  exact upLevel_read (E := 16) (s := 128) (by norm_num) (by norm_num) _ _ _ _ _ _ (col_main_v117 V) (col_main_v122 V) (col_main_v128 V)
/-! ## Up-sweep, stride 256 -/
theorem col_main_v133 (V : Valuation τ sig (Elt Ideal)) (e : Fin 8) :
    (after (ops (F := Ideal)) V main_v133 : IVec ⟨2, ![8, 1]⟩ 32) (at0 e) = BitVec.ofNat 32 (2 * 256 * e.val + 256 - 1) := by
  rw [eq_main_v133 V, eq_main_v132 V, eq_main_c_40 V, eq_main_c_39 V]
  exact (column_apply _ _ (fun _ => rfl) _ _ e).trans ((show (fun i : S8.Idx => lit16 (S8.rowMajor i)) (ix1 e) = lit16 e from table_apply 8 lit16 e e.isLt).trans (lit16_eq e))
theorem col_main_v138 (V : Valuation τ sig (Elt Ideal)) (e : Fin 8) :
    (after (ops (F := Ideal)) V main_v138 : IVec ⟨2, ![8, 1]⟩ 32) (at0 e) = BitVec.ofNat 32 (2 * 256 * e.val + 2 * 256 - 1) := by
  rw [eq_main_v138 V, eq_main_v137 V, eq_main_c_42 V, eq_main_c_41 V]
  exact (column_apply _ _ (fun _ => rfl) _ _ e).trans ((show (fun i : S8.Idx => lit17 (S8.rowMajor i)) (ix1 e) = lit17 e from table_apply 8 lit17 e e.isLt).trans (lit17_eq e))
theorem col_main_v144 (V : Valuation τ sig (Elt Ideal)) (e : Fin 8) :
    (after (ops (F := Ideal)) V main_v144 : IVec ⟨2, ![8, 1]⟩ 32) (at0 e) = BitVec.ofNat 32 (2 * 256 * e.val + 2 * 256 - 1) := by
  rw [eq_main_v144 V, eq_main_v143 V, eq_main_c_43 V, eq_main_c_41 V]
  exact (column_apply _ _ (fun _ => rfl) _ _ e).trans ((show (fun i : S8.Idx => lit17 (S8.rowMajor i)) (ix1 e) = lit17 e from table_apply 8 lit17 e e.isLt).trans (lit17_eq e))
theorem up_256 (V : Valuation τ sig (Elt Ideal)) :
    (after (ops (F := Ideal)) V main_v145 : FVec Ideal SY .f32) = onFibers (upLevel 256) (after (ops (F := Ideal)) V main_v129) := by
  rw [eq_main_v145 V, eq_main_v140 V, eq_main_v134 V, eq_main_v139 V]
  exact upLevel_read (E := 8) (s := 256) (by norm_num) (by norm_num) _ _ _ _ _ _ (col_main_v133 V) (col_main_v138 V) (col_main_v144 V)
/-! ## Up-sweep, stride 512 -/
theorem col_main_v149 (V : Valuation τ sig (Elt Ideal)) (e : Fin 4) :
    (after (ops (F := Ideal)) V main_v149 : IVec ⟨2, ![4, 1]⟩ 32) (at0 e) = BitVec.ofNat 32 (2 * 512 * e.val + 512 - 1) := by
  rw [eq_main_v149 V, eq_main_v148 V, eq_main_c_45 V, eq_main_c_44 V]
  exact (column_apply _ _ (fun _ => rfl) _ _ e).trans ((show (fun i : S4.Idx => lit18 (S4.rowMajor i)) (ix1 e) = lit18 e from table_apply 4 lit18 e e.isLt).trans (lit18_eq e))
theorem col_main_v154 (V : Valuation τ sig (Elt Ideal)) (e : Fin 4) :
    (after (ops (F := Ideal)) V main_v154 : IVec ⟨2, ![4, 1]⟩ 32) (at0 e) = BitVec.ofNat 32 (2 * 512 * e.val + 2 * 512 - 1) := by
  rw [eq_main_v154 V, eq_main_v153 V, eq_main_c_47 V, eq_main_c_46 V]
  exact (column_apply _ _ (fun _ => rfl) _ _ e).trans ((show (fun i : S4.Idx => lit19 (S4.rowMajor i)) (ix1 e) = lit19 e from table_apply 4 lit19 e e.isLt).trans (lit19_eq e))
theorem col_main_v160 (V : Valuation τ sig (Elt Ideal)) (e : Fin 4) :
    (after (ops (F := Ideal)) V main_v160 : IVec ⟨2, ![4, 1]⟩ 32) (at0 e) = BitVec.ofNat 32 (2 * 512 * e.val + 2 * 512 - 1) := by
  rw [eq_main_v160 V, eq_main_v159 V, eq_main_c_48 V, eq_main_c_46 V]
  exact (column_apply _ _ (fun _ => rfl) _ _ e).trans ((show (fun i : S4.Idx => lit19 (S4.rowMajor i)) (ix1 e) = lit19 e from table_apply 4 lit19 e e.isLt).trans (lit19_eq e))
theorem up_512 (V : Valuation τ sig (Elt Ideal)) :
    (after (ops (F := Ideal)) V main_v161 : FVec Ideal SY .f32) = onFibers (upLevel 512) (after (ops (F := Ideal)) V main_v145) := by
  rw [eq_main_v161 V, eq_main_v156 V, eq_main_v150 V, eq_main_v155 V]
  exact upLevel_read (E := 4) (s := 512) (by norm_num) (by norm_num) _ _ _ _ _ _ (col_main_v149 V) (col_main_v154 V) (col_main_v160 V)
/-! ## Up-sweep, stride 1024 -/
theorem col_main_v165 (V : Valuation τ sig (Elt Ideal)) (e : Fin 2) :
    (after (ops (F := Ideal)) V main_v165 : IVec ⟨2, ![2, 1]⟩ 32) (at0 e) = BitVec.ofNat 32 (2 * 1024 * e.val + 1024 - 1) := by
  rw [eq_main_v165 V, eq_main_v164 V, eq_main_c_50 V, eq_main_c_49 V]
  exact (column_apply _ _ (fun _ => rfl) _ _ e).trans ((show (fun i : S2.Idx => lit20 (S2.rowMajor i)) (ix1 e) = lit20 e from table_apply 2 lit20 e e.isLt).trans (lit20_eq e))
theorem col_main_v170 (V : Valuation τ sig (Elt Ideal)) (e : Fin 2) :
    (after (ops (F := Ideal)) V main_v170 : IVec ⟨2, ![2, 1]⟩ 32) (at0 e) = BitVec.ofNat 32 (2 * 1024 * e.val + 2 * 1024 - 1) := by
  rw [eq_main_v170 V, eq_main_v169 V, eq_main_c_52 V, eq_main_c_51 V]
  exact (column_apply _ _ (fun _ => rfl) _ _ e).trans ((show (fun i : S2.Idx => lit21 (S2.rowMajor i)) (ix1 e) = lit21 e from table_apply 2 lit21 e e.isLt).trans (lit21_eq e))
theorem col_main_v176 (V : Valuation τ sig (Elt Ideal)) (e : Fin 2) :
    (after (ops (F := Ideal)) V main_v176 : IVec ⟨2, ![2, 1]⟩ 32) (at0 e) = BitVec.ofNat 32 (2 * 1024 * e.val + 2 * 1024 - 1) := by
  rw [eq_main_v176 V, eq_main_v175 V, eq_main_c_53 V, eq_main_c_51 V]
  exact (column_apply _ _ (fun _ => rfl) _ _ e).trans ((show (fun i : S2.Idx => lit21 (S2.rowMajor i)) (ix1 e) = lit21 e from table_apply 2 lit21 e e.isLt).trans (lit21_eq e))
theorem up_1024 (V : Valuation τ sig (Elt Ideal)) :
    (after (ops (F := Ideal)) V main_v177 : FVec Ideal SY .f32) = onFibers (upLevel 1024) (after (ops (F := Ideal)) V main_v161) := by
  rw [eq_main_v177 V, eq_main_v172 V, eq_main_v166 V, eq_main_v171 V]
  exact upLevel_read (E := 2) (s := 1024) (by norm_num) (by norm_num) _ _ _ _ _ _ (col_main_v165 V) (col_main_v170 V) (col_main_v176 V)
/-! ## Up-sweep, stride 2048 -/
theorem col_main_v181 (V : Valuation τ sig (Elt Ideal)) (e : Fin 1) :
    (after (ops (F := Ideal)) V main_v181 : IVec ⟨2, ![1, 1]⟩ 32) (at0 e) = BitVec.ofNat 32 (2 * 2048 * e.val + 2048 - 1) := by
  rw [eq_main_v181 V, eq_main_v180 V, eq_main_c_55 V, eq_main_c_54 V]
  exact (column_apply _ _ (fun _ => rfl) _ _ e).trans (match e with | ⟨0, _⟩ => rfl)
theorem col_main_v186 (V : Valuation τ sig (Elt Ideal)) (e : Fin 1) :
    (after (ops (F := Ideal)) V main_v186 : IVec ⟨2, ![1, 1]⟩ 32) (at0 e) = BitVec.ofNat 32 (2 * 2048 * e.val + 2 * 2048 - 1) := by
  rw [eq_main_v186 V, eq_main_v185 V, eq_main_c_57 V, eq_main_c_56 V]
  exact (column_apply _ _ (fun _ => rfl) _ _ e).trans (match e with | ⟨0, _⟩ => rfl)
theorem col_main_v192 (V : Valuation τ sig (Elt Ideal)) (e : Fin 1) :
    (after (ops (F := Ideal)) V main_v192 : IVec ⟨2, ![1, 1]⟩ 32) (at0 e) = BitVec.ofNat 32 (2 * 2048 * e.val + 2 * 2048 - 1) := by
  rw [eq_main_v192 V, eq_main_v191 V, eq_main_c_58 V, eq_main_c_56 V]
  exact (column_apply _ _ (fun _ => rfl) _ _ e).trans (match e with | ⟨0, _⟩ => rfl)
theorem up_2048 (V : Valuation τ sig (Elt Ideal)) :
    (after (ops (F := Ideal)) V main_v193 : FVec Ideal SY .f32) = onFibers (upLevel 2048) (after (ops (F := Ideal)) V main_v177) := by
  rw [eq_main_v193 V, eq_main_v188 V, eq_main_v182 V, eq_main_v187 V]
  exact upLevel_read (E := 1) (s := 2048) (by norm_num) (by norm_num) _ _ _ _ _ _ (col_main_v181 V) (col_main_v186 V) (col_main_v192 V)
/-! ## The last entry cleared -/
theorem cleared (V : Valuation τ sig (Elt Ideal)) :
    (after (ops (F := Ideal)) V main_v195 : FVec Ideal SY .f32) = onFibers clearLast (after (ops (F := Ideal)) V main_v193) := by
  rw [eq_main_v195 V, eq_main_v194 V, eq_main_c_167 V, eq_main_v0 V, eq_main_cst V]
  exact clearLast_read _ _ _ (fun _ => rfl) _ (fun _ => Ideal.ofBits_zero_f32)
/-! ## Down-sweep, stride 2048 -/
theorem col_main_v199 (V : Valuation τ sig (Elt Ideal)) (e : Fin 1) :
    (after (ops (F := Ideal)) V main_v199 : IVec ⟨2, ![1, 1]⟩ 32) (at0 e) = BitVec.ofNat 32 (2 * 2048 * e.val + 2048 - 1) := by
  rw [eq_main_v199 V, eq_main_v198 V, eq_main_c_60 V, eq_main_c_59 V]
  exact (column_apply _ _ (fun _ => rfl) _ _ e).trans (match e with | ⟨0, _⟩ => rfl)
theorem col_main_v204 (V : Valuation τ sig (Elt Ideal)) (e : Fin 1) :
    (after (ops (F := Ideal)) V main_v204 : IVec ⟨2, ![1, 1]⟩ 32) (at0 e) = BitVec.ofNat 32 (2 * 2048 * e.val + 2 * 2048 - 1) := by
  rw [eq_main_v204 V, eq_main_v203 V, eq_main_c_62 V, eq_main_c_61 V]
  exact (column_apply _ _ (fun _ => rfl) _ _ e).trans (match e with | ⟨0, _⟩ => rfl)
theorem col_main_v209 (V : Valuation τ sig (Elt Ideal)) (e : Fin 1) :
    (after (ops (F := Ideal)) V main_v209 : IVec ⟨2, ![1, 1]⟩ 32) (at0 e) = BitVec.ofNat 32 (2 * 2048 * e.val + 2048 - 1) := by
  rw [eq_main_v209 V, eq_main_v208 V, eq_main_c_63 V, eq_main_c_59 V]
  exact (column_apply _ _ (fun _ => rfl) _ _ e).trans (match e with | ⟨0, _⟩ => rfl)
theorem col_main_v215 (V : Valuation τ sig (Elt Ideal)) (e : Fin 1) :
    (after (ops (F := Ideal)) V main_v215 : IVec ⟨2, ![1, 1]⟩ 32) (at0 e) = BitVec.ofNat 32 (2 * 2048 * e.val + 2 * 2048 - 1) := by
  rw [eq_main_v215 V, eq_main_v214 V, eq_main_c_64 V, eq_main_c_61 V]
  exact (column_apply _ _ (fun _ => rfl) _ _ e).trans (match e with | ⟨0, _⟩ => rfl)
theorem down_2048 (V : Valuation τ sig (Elt Ideal)) :
    (after (ops (F := Ideal)) V main_v216 : FVec Ideal SY .f32) = onFibers (downLevel 2048) (after (ops (F := Ideal)) V main_v195) := by
  rw [eq_main_v216 V, eq_main_v210 V, eq_main_v211 V, eq_main_v200 V, eq_main_v205 V]
  exact downLevel_read (E := 1) (s := 2048) (by norm_num) (by norm_num) _ _ _ _ _ _ _ (col_main_v199 V) (col_main_v204 V) (col_main_v209 V) (col_main_v215 V)
/-! ## Down-sweep, stride 1024 -/
theorem col_main_v220 (V : Valuation τ sig (Elt Ideal)) (e : Fin 2) :
    (after (ops (F := Ideal)) V main_v220 : IVec ⟨2, ![2, 1]⟩ 32) (at0 e) = BitVec.ofNat 32 (2 * 1024 * e.val + 1024 - 1) := by
  rw [eq_main_v220 V, eq_main_v219 V, eq_main_c_66 V, eq_main_c_65 V]
  exact (column_apply _ _ (fun _ => rfl) _ _ e).trans ((show (fun i : S2.Idx => lit22 (S2.rowMajor i)) (ix1 e) = lit22 e from table_apply 2 lit22 e e.isLt).trans (lit22_eq e))
theorem col_main_v225 (V : Valuation τ sig (Elt Ideal)) (e : Fin 2) :
    (after (ops (F := Ideal)) V main_v225 : IVec ⟨2, ![2, 1]⟩ 32) (at0 e) = BitVec.ofNat 32 (2 * 1024 * e.val + 2 * 1024 - 1) := by
  rw [eq_main_v225 V, eq_main_v224 V, eq_main_c_68 V, eq_main_c_67 V]
  exact (column_apply _ _ (fun _ => rfl) _ _ e).trans ((show (fun i : S2.Idx => lit23 (S2.rowMajor i)) (ix1 e) = lit23 e from table_apply 2 lit23 e e.isLt).trans (lit23_eq e))
theorem col_main_v230 (V : Valuation τ sig (Elt Ideal)) (e : Fin 2) :
    (after (ops (F := Ideal)) V main_v230 : IVec ⟨2, ![2, 1]⟩ 32) (at0 e) = BitVec.ofNat 32 (2 * 1024 * e.val + 1024 - 1) := by
  rw [eq_main_v230 V, eq_main_v229 V, eq_main_c_69 V, eq_main_c_65 V]
  exact (column_apply _ _ (fun _ => rfl) _ _ e).trans ((show (fun i : S2.Idx => lit22 (S2.rowMajor i)) (ix1 e) = lit22 e from table_apply 2 lit22 e e.isLt).trans (lit22_eq e))
theorem col_main_v236 (V : Valuation τ sig (Elt Ideal)) (e : Fin 2) :
    (after (ops (F := Ideal)) V main_v236 : IVec ⟨2, ![2, 1]⟩ 32) (at0 e) = BitVec.ofNat 32 (2 * 1024 * e.val + 2 * 1024 - 1) := by
  rw [eq_main_v236 V, eq_main_v235 V, eq_main_c_70 V, eq_main_c_67 V]
  exact (column_apply _ _ (fun _ => rfl) _ _ e).trans ((show (fun i : S2.Idx => lit23 (S2.rowMajor i)) (ix1 e) = lit23 e from table_apply 2 lit23 e e.isLt).trans (lit23_eq e))
theorem down_1024 (V : Valuation τ sig (Elt Ideal)) :
    (after (ops (F := Ideal)) V main_v237 : FVec Ideal SY .f32) = onFibers (downLevel 1024) (after (ops (F := Ideal)) V main_v216) := by
  rw [eq_main_v237 V, eq_main_v231 V, eq_main_v232 V, eq_main_v221 V, eq_main_v226 V]
  exact downLevel_read (E := 2) (s := 1024) (by norm_num) (by norm_num) _ _ _ _ _ _ _ (col_main_v220 V) (col_main_v225 V) (col_main_v230 V) (col_main_v236 V)
/-! ## Down-sweep, stride 512 -/
theorem col_main_v241 (V : Valuation τ sig (Elt Ideal)) (e : Fin 4) :
    (after (ops (F := Ideal)) V main_v241 : IVec ⟨2, ![4, 1]⟩ 32) (at0 e) = BitVec.ofNat 32 (2 * 512 * e.val + 512 - 1) := by
  rw [eq_main_v241 V, eq_main_v240 V, eq_main_c_72 V, eq_main_c_71 V]
  exact (column_apply _ _ (fun _ => rfl) _ _ e).trans ((show (fun i : S4.Idx => lit24 (S4.rowMajor i)) (ix1 e) = lit24 e from table_apply 4 lit24 e e.isLt).trans (lit24_eq e))
theorem col_main_v246 (V : Valuation τ sig (Elt Ideal)) (e : Fin 4) :
    (after (ops (F := Ideal)) V main_v246 : IVec ⟨2, ![4, 1]⟩ 32) (at0 e) = BitVec.ofNat 32 (2 * 512 * e.val + 2 * 512 - 1) := by
  rw [eq_main_v246 V, eq_main_v245 V, eq_main_c_74 V, eq_main_c_73 V]
  exact (column_apply _ _ (fun _ => rfl) _ _ e).trans ((show (fun i : S4.Idx => lit25 (S4.rowMajor i)) (ix1 e) = lit25 e from table_apply 4 lit25 e e.isLt).trans (lit25_eq e))
theorem col_main_v251 (V : Valuation τ sig (Elt Ideal)) (e : Fin 4) :
    (after (ops (F := Ideal)) V main_v251 : IVec ⟨2, ![4, 1]⟩ 32) (at0 e) = BitVec.ofNat 32 (2 * 512 * e.val + 512 - 1) := by
  rw [eq_main_v251 V, eq_main_v250 V, eq_main_c_75 V, eq_main_c_71 V]
  exact (column_apply _ _ (fun _ => rfl) _ _ e).trans ((show (fun i : S4.Idx => lit24 (S4.rowMajor i)) (ix1 e) = lit24 e from table_apply 4 lit24 e e.isLt).trans (lit24_eq e))
theorem col_main_v257 (V : Valuation τ sig (Elt Ideal)) (e : Fin 4) :
    (after (ops (F := Ideal)) V main_v257 : IVec ⟨2, ![4, 1]⟩ 32) (at0 e) = BitVec.ofNat 32 (2 * 512 * e.val + 2 * 512 - 1) := by
  rw [eq_main_v257 V, eq_main_v256 V, eq_main_c_76 V, eq_main_c_73 V]
  exact (column_apply _ _ (fun _ => rfl) _ _ e).trans ((show (fun i : S4.Idx => lit25 (S4.rowMajor i)) (ix1 e) = lit25 e from table_apply 4 lit25 e e.isLt).trans (lit25_eq e))
theorem down_512 (V : Valuation τ sig (Elt Ideal)) :
    (after (ops (F := Ideal)) V main_v258 : FVec Ideal SY .f32) = onFibers (downLevel 512) (after (ops (F := Ideal)) V main_v237) := by
  rw [eq_main_v258 V, eq_main_v252 V, eq_main_v253 V, eq_main_v242 V, eq_main_v247 V]
  exact downLevel_read (E := 4) (s := 512) (by norm_num) (by norm_num) _ _ _ _ _ _ _ (col_main_v241 V) (col_main_v246 V) (col_main_v251 V) (col_main_v257 V)
/-! ## Down-sweep, stride 256 -/
theorem col_main_v262 (V : Valuation τ sig (Elt Ideal)) (e : Fin 8) :
    (after (ops (F := Ideal)) V main_v262 : IVec ⟨2, ![8, 1]⟩ 32) (at0 e) = BitVec.ofNat 32 (2 * 256 * e.val + 256 - 1) := by
  rw [eq_main_v262 V, eq_main_v261 V, eq_main_c_78 V, eq_main_c_77 V]
  exact (column_apply _ _ (fun _ => rfl) _ _ e).trans ((show (fun i : S8.Idx => lit26 (S8.rowMajor i)) (ix1 e) = lit26 e from table_apply 8 lit26 e e.isLt).trans (lit26_eq e))
theorem col_main_v267 (V : Valuation τ sig (Elt Ideal)) (e : Fin 8) :
    (after (ops (F := Ideal)) V main_v267 : IVec ⟨2, ![8, 1]⟩ 32) (at0 e) = BitVec.ofNat 32 (2 * 256 * e.val + 2 * 256 - 1) := by
  rw [eq_main_v267 V, eq_main_v266 V, eq_main_c_80 V, eq_main_c_79 V]
  exact (column_apply _ _ (fun _ => rfl) _ _ e).trans ((show (fun i : S8.Idx => lit27 (S8.rowMajor i)) (ix1 e) = lit27 e from table_apply 8 lit27 e e.isLt).trans (lit27_eq e))
theorem col_main_v272 (V : Valuation τ sig (Elt Ideal)) (e : Fin 8) :
    (after (ops (F := Ideal)) V main_v272 : IVec ⟨2, ![8, 1]⟩ 32) (at0 e) = BitVec.ofNat 32 (2 * 256 * e.val + 256 - 1) := by
  rw [eq_main_v272 V, eq_main_v271 V, eq_main_c_81 V, eq_main_c_77 V]
  exact (column_apply _ _ (fun _ => rfl) _ _ e).trans ((show (fun i : S8.Idx => lit26 (S8.rowMajor i)) (ix1 e) = lit26 e from table_apply 8 lit26 e e.isLt).trans (lit26_eq e))
theorem col_main_v278 (V : Valuation τ sig (Elt Ideal)) (e : Fin 8) :
    (after (ops (F := Ideal)) V main_v278 : IVec ⟨2, ![8, 1]⟩ 32) (at0 e) = BitVec.ofNat 32 (2 * 256 * e.val + 2 * 256 - 1) := by
  rw [eq_main_v278 V, eq_main_v277 V, eq_main_c_82 V, eq_main_c_79 V]
  exact (column_apply _ _ (fun _ => rfl) _ _ e).trans ((show (fun i : S8.Idx => lit27 (S8.rowMajor i)) (ix1 e) = lit27 e from table_apply 8 lit27 e e.isLt).trans (lit27_eq e))
theorem down_256 (V : Valuation τ sig (Elt Ideal)) :
    (after (ops (F := Ideal)) V main_v279 : FVec Ideal SY .f32) = onFibers (downLevel 256) (after (ops (F := Ideal)) V main_v258) := by
  rw [eq_main_v279 V, eq_main_v273 V, eq_main_v274 V, eq_main_v263 V, eq_main_v268 V]
  exact downLevel_read (E := 8) (s := 256) (by norm_num) (by norm_num) _ _ _ _ _ _ _ (col_main_v262 V) (col_main_v267 V) (col_main_v272 V) (col_main_v278 V)
/-! ## Down-sweep, stride 128 -/
theorem col_main_v283 (V : Valuation τ sig (Elt Ideal)) (e : Fin 16) :
    (after (ops (F := Ideal)) V main_v283 : IVec ⟨2, ![16, 1]⟩ 32) (at0 e) = BitVec.ofNat 32 (2 * 128 * e.val + 128 - 1) := by
  rw [eq_main_v283 V, eq_main_v282 V, eq_main_c_84 V, eq_main_c_83 V]
  exact (column_apply _ _ (fun _ => rfl) _ _ e).trans ((show (fun i : S16.Idx => lit28 (S16.rowMajor i)) (ix1 e) = lit28 e from table_apply 16 lit28 e e.isLt).trans (lit28_eq e))
theorem col_main_v288 (V : Valuation τ sig (Elt Ideal)) (e : Fin 16) :
    (after (ops (F := Ideal)) V main_v288 : IVec ⟨2, ![16, 1]⟩ 32) (at0 e) = BitVec.ofNat 32 (2 * 128 * e.val + 2 * 128 - 1) := by
  rw [eq_main_v288 V, eq_main_v287 V, eq_main_c_86 V, eq_main_c_85 V]
  exact (column_apply _ _ (fun _ => rfl) _ _ e).trans ((show (fun i : S16.Idx => lit29 (S16.rowMajor i)) (ix1 e) = lit29 e from table_apply 16 lit29 e e.isLt).trans (lit29_eq e))
theorem col_main_v293 (V : Valuation τ sig (Elt Ideal)) (e : Fin 16) :
    (after (ops (F := Ideal)) V main_v293 : IVec ⟨2, ![16, 1]⟩ 32) (at0 e) = BitVec.ofNat 32 (2 * 128 * e.val + 128 - 1) := by
  rw [eq_main_v293 V, eq_main_v292 V, eq_main_c_87 V, eq_main_c_83 V]
  exact (column_apply _ _ (fun _ => rfl) _ _ e).trans ((show (fun i : S16.Idx => lit28 (S16.rowMajor i)) (ix1 e) = lit28 e from table_apply 16 lit28 e e.isLt).trans (lit28_eq e))
theorem col_main_v299 (V : Valuation τ sig (Elt Ideal)) (e : Fin 16) :
    (after (ops (F := Ideal)) V main_v299 : IVec ⟨2, ![16, 1]⟩ 32) (at0 e) = BitVec.ofNat 32 (2 * 128 * e.val + 2 * 128 - 1) := by
  rw [eq_main_v299 V, eq_main_v298 V, eq_main_c_88 V, eq_main_c_85 V]
  exact (column_apply _ _ (fun _ => rfl) _ _ e).trans ((show (fun i : S16.Idx => lit29 (S16.rowMajor i)) (ix1 e) = lit29 e from table_apply 16 lit29 e e.isLt).trans (lit29_eq e))
theorem down_128 (V : Valuation τ sig (Elt Ideal)) :
    (after (ops (F := Ideal)) V main_v300 : FVec Ideal SY .f32) = onFibers (downLevel 128) (after (ops (F := Ideal)) V main_v279) := by
  rw [eq_main_v300 V, eq_main_v294 V, eq_main_v295 V, eq_main_v284 V, eq_main_v289 V]
  exact downLevel_read (E := 16) (s := 128) (by norm_num) (by norm_num) _ _ _ _ _ _ _ (col_main_v283 V) (col_main_v288 V) (col_main_v293 V) (col_main_v299 V)
/-! ## Down-sweep, stride 64 -/
theorem col_main_v304 (V : Valuation τ sig (Elt Ideal)) (e : Fin 32) :
    (after (ops (F := Ideal)) V main_v304 : IVec ⟨2, ![32, 1]⟩ 32) (at0 e) = BitVec.ofNat 32 (2 * 64 * e.val + 64 - 1) := by
  rw [eq_main_v304 V, eq_main_v303 V, eq_main_c_90 V, eq_main_c_89 V]
  exact (column_apply _ _ (fun _ => rfl) _ _ e).trans ((show (fun i : S32.Idx => lit30 (S32.rowMajor i)) (ix1 e) = lit30 e from table_apply 32 lit30 e e.isLt).trans (lit30_eq e))
theorem col_main_v309 (V : Valuation τ sig (Elt Ideal)) (e : Fin 32) :
    (after (ops (F := Ideal)) V main_v309 : IVec ⟨2, ![32, 1]⟩ 32) (at0 e) = BitVec.ofNat 32 (2 * 64 * e.val + 2 * 64 - 1) := by
  rw [eq_main_v309 V, eq_main_v308 V, eq_main_c_92 V, eq_main_c_91 V]
  exact (column_apply _ _ (fun _ => rfl) _ _ e).trans ((show (fun i : S32.Idx => lit31 (S32.rowMajor i)) (ix1 e) = lit31 e from table_apply 32 lit31 e e.isLt).trans (lit31_eq e))
theorem col_main_v314 (V : Valuation τ sig (Elt Ideal)) (e : Fin 32) :
    (after (ops (F := Ideal)) V main_v314 : IVec ⟨2, ![32, 1]⟩ 32) (at0 e) = BitVec.ofNat 32 (2 * 64 * e.val + 64 - 1) := by
  rw [eq_main_v314 V, eq_main_v313 V, eq_main_c_93 V, eq_main_c_89 V]
  exact (column_apply _ _ (fun _ => rfl) _ _ e).trans ((show (fun i : S32.Idx => lit30 (S32.rowMajor i)) (ix1 e) = lit30 e from table_apply 32 lit30 e e.isLt).trans (lit30_eq e))
theorem col_main_v320 (V : Valuation τ sig (Elt Ideal)) (e : Fin 32) :
    (after (ops (F := Ideal)) V main_v320 : IVec ⟨2, ![32, 1]⟩ 32) (at0 e) = BitVec.ofNat 32 (2 * 64 * e.val + 2 * 64 - 1) := by
  rw [eq_main_v320 V, eq_main_v319 V, eq_main_c_94 V, eq_main_c_91 V]
  exact (column_apply _ _ (fun _ => rfl) _ _ e).trans ((show (fun i : S32.Idx => lit31 (S32.rowMajor i)) (ix1 e) = lit31 e from table_apply 32 lit31 e e.isLt).trans (lit31_eq e))
theorem down_64 (V : Valuation τ sig (Elt Ideal)) :
    (after (ops (F := Ideal)) V main_v321 : FVec Ideal SY .f32) = onFibers (downLevel 64) (after (ops (F := Ideal)) V main_v300) := by
  rw [eq_main_v321 V, eq_main_v315 V, eq_main_v316 V, eq_main_v305 V, eq_main_v310 V]
  exact downLevel_read (E := 32) (s := 64) (by norm_num) (by norm_num) _ _ _ _ _ _ _ (col_main_v304 V) (col_main_v309 V) (col_main_v314 V) (col_main_v320 V)
/-! ## Down-sweep, stride 32 -/
theorem col_main_v325 (V : Valuation τ sig (Elt Ideal)) (e : Fin 64) :
    (after (ops (F := Ideal)) V main_v325 : IVec ⟨2, ![64, 1]⟩ 32) (at0 e) = BitVec.ofNat 32 (2 * 32 * e.val + 32 - 1) := by
  rw [eq_main_v325 V, eq_main_v324 V, eq_main_c_96 V, eq_main_c_95 V]
  exact (column_apply _ _ (fun _ => rfl) _ _ e).trans ((show (fun i : S64.Idx => lit32 (S64.rowMajor i)) (ix1 e) = lit32 e from table_apply 64 lit32 e e.isLt).trans (lit32_eq e))
theorem col_main_v330 (V : Valuation τ sig (Elt Ideal)) (e : Fin 64) :
    (after (ops (F := Ideal)) V main_v330 : IVec ⟨2, ![64, 1]⟩ 32) (at0 e) = BitVec.ofNat 32 (2 * 32 * e.val + 2 * 32 - 1) := by
  rw [eq_main_v330 V, eq_main_v329 V, eq_main_c_98 V, eq_main_c_97 V]
  exact (column_apply _ _ (fun _ => rfl) _ _ e).trans ((show (fun i : S64.Idx => lit33 (S64.rowMajor i)) (ix1 e) = lit33 e from table_apply 64 lit33 e e.isLt).trans (lit33_eq e))
theorem col_main_v335 (V : Valuation τ sig (Elt Ideal)) (e : Fin 64) :
    (after (ops (F := Ideal)) V main_v335 : IVec ⟨2, ![64, 1]⟩ 32) (at0 e) = BitVec.ofNat 32 (2 * 32 * e.val + 32 - 1) := by
  rw [eq_main_v335 V, eq_main_v334 V, eq_main_c_99 V, eq_main_c_95 V]
  exact (column_apply _ _ (fun _ => rfl) _ _ e).trans ((show (fun i : S64.Idx => lit32 (S64.rowMajor i)) (ix1 e) = lit32 e from table_apply 64 lit32 e e.isLt).trans (lit32_eq e))
theorem col_main_v341 (V : Valuation τ sig (Elt Ideal)) (e : Fin 64) :
    (after (ops (F := Ideal)) V main_v341 : IVec ⟨2, ![64, 1]⟩ 32) (at0 e) = BitVec.ofNat 32 (2 * 32 * e.val + 2 * 32 - 1) := by
  rw [eq_main_v341 V, eq_main_v340 V, eq_main_c_100 V, eq_main_c_97 V]
  exact (column_apply _ _ (fun _ => rfl) _ _ e).trans ((show (fun i : S64.Idx => lit33 (S64.rowMajor i)) (ix1 e) = lit33 e from table_apply 64 lit33 e e.isLt).trans (lit33_eq e))
theorem down_32 (V : Valuation τ sig (Elt Ideal)) :
    (after (ops (F := Ideal)) V main_v342 : FVec Ideal SY .f32) = onFibers (downLevel 32) (after (ops (F := Ideal)) V main_v321) := by
  rw [eq_main_v342 V, eq_main_v336 V, eq_main_v337 V, eq_main_v326 V, eq_main_v331 V]
  exact downLevel_read (E := 64) (s := 32) (by norm_num) (by norm_num) _ _ _ _ _ _ _ (col_main_v325 V) (col_main_v330 V) (col_main_v335 V) (col_main_v341 V)
/-! ## Down-sweep, stride 16 -/
theorem col_main_v346 (V : Valuation τ sig (Elt Ideal)) (e : Fin 128) :
    (after (ops (F := Ideal)) V main_v346 : IVec ⟨2, ![128, 1]⟩ 32) (at0 e) = BitVec.ofNat 32 (2 * 16 * e.val + 16 - 1) := by
  rw [eq_main_v346 V, eq_main_v345 V, eq_main_c_102 V, eq_main_c_101 V]
  exact (column_apply _ _ (fun _ => rfl) _ _ e).trans ((show (fun i : S128.Idx => lit34 (S128.rowMajor i)) (ix1 e) = lit34 e from table_apply 128 lit34 e e.isLt).trans (lit34_eq e))
theorem col_main_v351 (V : Valuation τ sig (Elt Ideal)) (e : Fin 128) :
    (after (ops (F := Ideal)) V main_v351 : IVec ⟨2, ![128, 1]⟩ 32) (at0 e) = BitVec.ofNat 32 (2 * 16 * e.val + 2 * 16 - 1) := by
  rw [eq_main_v351 V, eq_main_v350 V, eq_main_c_104 V, eq_main_c_103 V]
  exact (column_apply _ _ (fun _ => rfl) _ _ e).trans ((show (fun i : S128.Idx => lit35 (S128.rowMajor i)) (ix1 e) = lit35 e from table_apply 128 lit35 e e.isLt).trans (lit35_eq e))
theorem col_main_v356 (V : Valuation τ sig (Elt Ideal)) (e : Fin 128) :
    (after (ops (F := Ideal)) V main_v356 : IVec ⟨2, ![128, 1]⟩ 32) (at0 e) = BitVec.ofNat 32 (2 * 16 * e.val + 16 - 1) := by
  rw [eq_main_v356 V, eq_main_v355 V, eq_main_c_105 V, eq_main_c_101 V]
  exact (column_apply _ _ (fun _ => rfl) _ _ e).trans ((show (fun i : S128.Idx => lit34 (S128.rowMajor i)) (ix1 e) = lit34 e from table_apply 128 lit34 e e.isLt).trans (lit34_eq e))
theorem col_main_v362 (V : Valuation τ sig (Elt Ideal)) (e : Fin 128) :
    (after (ops (F := Ideal)) V main_v362 : IVec ⟨2, ![128, 1]⟩ 32) (at0 e) = BitVec.ofNat 32 (2 * 16 * e.val + 2 * 16 - 1) := by
  rw [eq_main_v362 V, eq_main_v361 V, eq_main_c_106 V, eq_main_c_103 V]
  exact (column_apply _ _ (fun _ => rfl) _ _ e).trans ((show (fun i : S128.Idx => lit35 (S128.rowMajor i)) (ix1 e) = lit35 e from table_apply 128 lit35 e e.isLt).trans (lit35_eq e))
theorem down_16 (V : Valuation τ sig (Elt Ideal)) :
    (after (ops (F := Ideal)) V main_v363 : FVec Ideal SY .f32) = onFibers (downLevel 16) (after (ops (F := Ideal)) V main_v342) := by
  rw [eq_main_v363 V, eq_main_v357 V, eq_main_v358 V, eq_main_v347 V, eq_main_v352 V]
  exact downLevel_read (E := 128) (s := 16) (by norm_num) (by norm_num) _ _ _ _ _ _ _ (col_main_v346 V) (col_main_v351 V) (col_main_v356 V) (col_main_v362 V)
/-! ## Down-sweep, stride 8 -/
theorem col_main_v367 (V : Valuation τ sig (Elt Ideal)) (e : Fin 256) :
    (after (ops (F := Ideal)) V main_v367 : IVec ⟨2, ![256, 1]⟩ 32) (at0 e) = BitVec.ofNat 32 (2 * 8 * e.val + 8 - 1) := by
  rw [eq_main_v367 V, eq_main_v366 V, eq_main_c_108 V, eq_main_c_107 V]
  exact (column_apply _ _ (fun _ => rfl) _ _ e).trans ((show (fun i : S256.Idx => lit36 (S256.rowMajor i)) (ix1 e) = lit36 e from table_apply 256 lit36 e e.isLt).trans (lit36_eq e))
theorem col_main_v372 (V : Valuation τ sig (Elt Ideal)) (e : Fin 256) :
    (after (ops (F := Ideal)) V main_v372 : IVec ⟨2, ![256, 1]⟩ 32) (at0 e) = BitVec.ofNat 32 (2 * 8 * e.val + 2 * 8 - 1) := by
  rw [eq_main_v372 V, eq_main_v371 V, eq_main_c_110 V, eq_main_c_109 V]
  exact (column_apply _ _ (fun _ => rfl) _ _ e).trans ((show (fun i : S256.Idx => lit37 (S256.rowMajor i)) (ix1 e) = lit37 e from table_apply 256 lit37 e e.isLt).trans (lit37_eq e))
theorem col_main_v377 (V : Valuation τ sig (Elt Ideal)) (e : Fin 256) :
    (after (ops (F := Ideal)) V main_v377 : IVec ⟨2, ![256, 1]⟩ 32) (at0 e) = BitVec.ofNat 32 (2 * 8 * e.val + 8 - 1) := by
  rw [eq_main_v377 V, eq_main_v376 V, eq_main_c_111 V, eq_main_c_107 V]
  exact (column_apply _ _ (fun _ => rfl) _ _ e).trans ((show (fun i : S256.Idx => lit36 (S256.rowMajor i)) (ix1 e) = lit36 e from table_apply 256 lit36 e e.isLt).trans (lit36_eq e))
theorem col_main_v383 (V : Valuation τ sig (Elt Ideal)) (e : Fin 256) :
    (after (ops (F := Ideal)) V main_v383 : IVec ⟨2, ![256, 1]⟩ 32) (at0 e) = BitVec.ofNat 32 (2 * 8 * e.val + 2 * 8 - 1) := by
  rw [eq_main_v383 V, eq_main_v382 V, eq_main_c_112 V, eq_main_c_109 V]
  exact (column_apply _ _ (fun _ => rfl) _ _ e).trans ((show (fun i : S256.Idx => lit37 (S256.rowMajor i)) (ix1 e) = lit37 e from table_apply 256 lit37 e e.isLt).trans (lit37_eq e))
theorem down_8 (V : Valuation τ sig (Elt Ideal)) :
    (after (ops (F := Ideal)) V main_v384 : FVec Ideal SY .f32) = onFibers (downLevel 8) (after (ops (F := Ideal)) V main_v363) := by
  rw [eq_main_v384 V, eq_main_v378 V, eq_main_v379 V, eq_main_v368 V, eq_main_v373 V]
  exact downLevel_read (E := 256) (s := 8) (by norm_num) (by norm_num) _ _ _ _ _ _ _ (col_main_v367 V) (col_main_v372 V) (col_main_v377 V) (col_main_v383 V)
/-! ## Down-sweep, stride 4 -/
theorem col_main_v388 (V : Valuation τ sig (Elt Ideal)) (e : Fin 512) :
    (after (ops (F := Ideal)) V main_v388 : IVec ⟨2, ![512, 1]⟩ 32) (at0 e) = BitVec.ofNat 32 (2 * 4 * e.val + 4 - 1) := by
  rw [eq_main_v388 V, eq_main_v387 V, eq_main_c_114 V, eq_main_c_113 V]
  exact (column_apply _ _ (fun _ => rfl) _ _ e).trans ((show (fun i : S512.Idx => lit38 (S512.rowMajor i)) (ix1 e) = lit38 e from table_apply 512 lit38 e e.isLt).trans (lit38_eq e))
theorem col_main_v393 (V : Valuation τ sig (Elt Ideal)) (e : Fin 512) :
    (after (ops (F := Ideal)) V main_v393 : IVec ⟨2, ![512, 1]⟩ 32) (at0 e) = BitVec.ofNat 32 (2 * 4 * e.val + 2 * 4 - 1) := by
  rw [eq_main_v393 V, eq_main_v392 V, eq_main_c_116 V, eq_main_c_115 V]
  exact (column_apply _ _ (fun _ => rfl) _ _ e).trans ((show (fun i : S512.Idx => lit39 (S512.rowMajor i)) (ix1 e) = lit39 e from table_apply 512 lit39 e e.isLt).trans (lit39_eq e))
theorem col_main_v398 (V : Valuation τ sig (Elt Ideal)) (e : Fin 512) :
    (after (ops (F := Ideal)) V main_v398 : IVec ⟨2, ![512, 1]⟩ 32) (at0 e) = BitVec.ofNat 32 (2 * 4 * e.val + 4 - 1) := by
  rw [eq_main_v398 V, eq_main_v397 V, eq_main_c_117 V, eq_main_c_113 V]
  exact (column_apply _ _ (fun _ => rfl) _ _ e).trans ((show (fun i : S512.Idx => lit38 (S512.rowMajor i)) (ix1 e) = lit38 e from table_apply 512 lit38 e e.isLt).trans (lit38_eq e))
theorem col_main_v404 (V : Valuation τ sig (Elt Ideal)) (e : Fin 512) :
    (after (ops (F := Ideal)) V main_v404 : IVec ⟨2, ![512, 1]⟩ 32) (at0 e) = BitVec.ofNat 32 (2 * 4 * e.val + 2 * 4 - 1) := by
  rw [eq_main_v404 V, eq_main_v403 V, eq_main_c_118 V, eq_main_c_115 V]
  exact (column_apply _ _ (fun _ => rfl) _ _ e).trans ((show (fun i : S512.Idx => lit39 (S512.rowMajor i)) (ix1 e) = lit39 e from table_apply 512 lit39 e e.isLt).trans (lit39_eq e))
theorem down_4 (V : Valuation τ sig (Elt Ideal)) :
    (after (ops (F := Ideal)) V main_v405 : FVec Ideal SY .f32) = onFibers (downLevel 4) (after (ops (F := Ideal)) V main_v384) := by
  rw [eq_main_v405 V, eq_main_v399 V, eq_main_v400 V, eq_main_v389 V, eq_main_v394 V]
  exact downLevel_read (E := 512) (s := 4) (by norm_num) (by norm_num) _ _ _ _ _ _ _ (col_main_v388 V) (col_main_v393 V) (col_main_v398 V) (col_main_v404 V)
/-! ## Down-sweep, stride 2 -/
theorem col_main_v409 (V : Valuation τ sig (Elt Ideal)) (e : Fin 1024) :
    (after (ops (F := Ideal)) V main_v409 : IVec ⟨2, ![1024, 1]⟩ 32) (at0 e) = BitVec.ofNat 32 (2 * 2 * e.val + 2 - 1) := by
  rw [eq_main_v409 V, eq_main_v408 V, eq_main_c_120 V, eq_main_c_119 V]
  exact (column_apply _ _ (fun _ => rfl) _ _ e).trans ((show (fun i : S1024.Idx => lit40 (S1024.rowMajor i)) (ix1 e) = lit40 e from table_apply 1024 lit40 e e.isLt).trans (lit40_eq e))
theorem col_main_v414 (V : Valuation τ sig (Elt Ideal)) (e : Fin 1024) :
    (after (ops (F := Ideal)) V main_v414 : IVec ⟨2, ![1024, 1]⟩ 32) (at0 e) = BitVec.ofNat 32 (2 * 2 * e.val + 2 * 2 - 1) := by
  rw [eq_main_v414 V, eq_main_v413 V, eq_main_c_122 V, eq_main_c_121 V]
  exact (column_apply _ _ (fun _ => rfl) _ _ e).trans ((show (fun i : S1024.Idx => lit41 (S1024.rowMajor i)) (ix1 e) = lit41 e from table_apply 1024 lit41 e e.isLt).trans (lit41_eq e))
theorem col_main_v419 (V : Valuation τ sig (Elt Ideal)) (e : Fin 1024) :
    (after (ops (F := Ideal)) V main_v419 : IVec ⟨2, ![1024, 1]⟩ 32) (at0 e) = BitVec.ofNat 32 (2 * 2 * e.val + 2 - 1) := by
  rw [eq_main_v419 V, eq_main_v418 V, eq_main_c_123 V, eq_main_c_119 V]
  exact (column_apply _ _ (fun _ => rfl) _ _ e).trans ((show (fun i : S1024.Idx => lit40 (S1024.rowMajor i)) (ix1 e) = lit40 e from table_apply 1024 lit40 e e.isLt).trans (lit40_eq e))
theorem col_main_v425 (V : Valuation τ sig (Elt Ideal)) (e : Fin 1024) :
    (after (ops (F := Ideal)) V main_v425 : IVec ⟨2, ![1024, 1]⟩ 32) (at0 e) = BitVec.ofNat 32 (2 * 2 * e.val + 2 * 2 - 1) := by
  rw [eq_main_v425 V, eq_main_v424 V, eq_main_c_124 V, eq_main_c_121 V]
  exact (column_apply _ _ (fun _ => rfl) _ _ e).trans ((show (fun i : S1024.Idx => lit41 (S1024.rowMajor i)) (ix1 e) = lit41 e from table_apply 1024 lit41 e e.isLt).trans (lit41_eq e))
theorem down_2 (V : Valuation τ sig (Elt Ideal)) :
    (after (ops (F := Ideal)) V main_v426 : FVec Ideal SY .f32) = onFibers (downLevel 2) (after (ops (F := Ideal)) V main_v405) := by
  rw [eq_main_v426 V, eq_main_v420 V, eq_main_v421 V, eq_main_v410 V, eq_main_v415 V]
  exact downLevel_read (E := 1024) (s := 2) (by norm_num) (by norm_num) _ _ _ _ _ _ _ (col_main_v409 V) (col_main_v414 V) (col_main_v419 V) (col_main_v425 V)
/-! ## Down-sweep, stride 1 -/
theorem col_main_v430 (V : Valuation τ sig (Elt Ideal)) (e : Fin 2048) :
    (after (ops (F := Ideal)) V main_v430 : IVec ⟨2, ![2048, 1]⟩ 32) (at0 e) = BitVec.ofNat 32 (2 * 1 * e.val + 1 - 1) := by
  rw [eq_main_v430 V, eq_main_v429 V, eq_main_c_126 V, eq_main_c_125 V]
  exact (column_apply _ _ (fun _ => rfl) _ _ e).trans ((show (fun i : S2048.Idx => lit42 (S2048.rowMajor i)) (ix1 e) = lit42 e from table_apply 2048 lit42 e e.isLt).trans (lit42_eq e))
theorem col_main_v435 (V : Valuation τ sig (Elt Ideal)) (e : Fin 2048) :
    (after (ops (F := Ideal)) V main_v435 : IVec ⟨2, ![2048, 1]⟩ 32) (at0 e) = BitVec.ofNat 32 (2 * 1 * e.val + 2 * 1 - 1) := by
  rw [eq_main_v435 V, eq_main_v434 V, eq_main_c_128 V, eq_main_c_127 V]
  exact (column_apply _ _ (fun _ => rfl) _ _ e).trans ((show (fun i : S2048.Idx => lit43 (S2048.rowMajor i)) (ix1 e) = lit43 e from table_apply 2048 lit43 e e.isLt).trans (lit43_eq e))
theorem col_main_v440 (V : Valuation τ sig (Elt Ideal)) (e : Fin 2048) :
    (after (ops (F := Ideal)) V main_v440 : IVec ⟨2, ![2048, 1]⟩ 32) (at0 e) = BitVec.ofNat 32 (2 * 1 * e.val + 1 - 1) := by
  rw [eq_main_v440 V, eq_main_v439 V, eq_main_c_129 V, eq_main_c_125 V]
  exact (column_apply _ _ (fun _ => rfl) _ _ e).trans ((show (fun i : S2048.Idx => lit42 (S2048.rowMajor i)) (ix1 e) = lit42 e from table_apply 2048 lit42 e e.isLt).trans (lit42_eq e))
theorem col_main_v446 (V : Valuation τ sig (Elt Ideal)) (e : Fin 2048) :
    (after (ops (F := Ideal)) V main_v446 : IVec ⟨2, ![2048, 1]⟩ 32) (at0 e) = BitVec.ofNat 32 (2 * 1 * e.val + 2 * 1 - 1) := by
  rw [eq_main_v446 V, eq_main_v445 V, eq_main_c_130 V, eq_main_c_127 V]
  exact (column_apply _ _ (fun _ => rfl) _ _ e).trans ((show (fun i : S2048.Idx => lit43 (S2048.rowMajor i)) (ix1 e) = lit43 e from table_apply 2048 lit43 e e.isLt).trans (lit43_eq e))
theorem down_1 (V : Valuation τ sig (Elt Ideal)) :
    (after (ops (F := Ideal)) V main_v447 : FVec Ideal SY .f32) = onFibers (downLevel 1) (after (ops (F := Ideal)) V main_v426) := by
  rw [eq_main_v447 V, eq_main_v441 V, eq_main_v442 V, eq_main_v431 V, eq_main_v436 V]
  exact downLevel_read (E := 2048) (s := 1) (by norm_num) (by norm_num) _ _ _ _ _ _ _ (col_main_v430 V) (col_main_v435 V) (col_main_v440 V) (col_main_v446 V)

end Cert.ReferenceIdeal.Line

end
-- ==== Proof.ScanLaw.lean ====
/-
  The scan law: the work-efficient tree scan of a sequence of 4096 terms of a commutative additive monoid is its
  inclusive running sum.

  The sequence is extended by zero to all natural-number positions, so that blocks are sums over intervals of ℕ.
  UP-SWEEP: after k levels the position p holds the sum of the block of 2^t terms ending at p, where t is the largest
  t ≤ k with 2^t ∣ p + 1.  After twelve levels the last entry is cleared.  DOWN-SWEEP: when the strides 2^K and above
  are done, a position p with 2^K ∣ p + 1 holds the sum of all the terms strictly before its block of 2^K terms, and
  every other position still holds the sum of its own block.  At K = 0 every position holds the sum of the terms
  strictly before it; adding the original term gives the inclusive sum.
-/
import proofs.«140659_j42700564857293_1_alg».proof.Proof.RunningSum

namespace Cert.RunningSum

open Finset

section scanlaw

variable {M : Type*} [AddCommMonoid M]

/-- The sequence extended by zero to all natural-number positions. -/
def zext (X : Fin 4096 → M) (j : ℕ) : M := if h : j < 4096 then X ⟨j, h⟩ else 0

theorem zext_val (X : Fin 4096 → M) (p : Fin 4096) : zext X p.val = X p := by
  simp [zext]

/-! ### Arithmetic of a stride s and the residues modulo 2s -/

/-- A multiple of s that is not a multiple of 2s is s modulo 2s, and s further on is a multiple of 2s. -/
theorem mod_two_mul_of_dvd {s n : ℕ} (hs : 0 < s) (h1 : s ∣ n) (h2 : ¬ 2 * s ∣ n) :
    n % (2 * s) = s ∧ 2 * s ∣ n + s := by
  obtain ⟨q, rfl⟩ := h1
  rcases Nat.even_or_odd' q with ⟨r, rfl | rfl⟩
  · exact absurd ⟨r, by ring⟩ h2
  · constructor
    · have e : s * (2 * r + 1) = s + 2 * s * r := by ring
      rw [e, Nat.add_mul_mod_self_left]
      exact Nat.mod_eq_of_lt (by omega)
    · exact ⟨r + 1, by ring⟩

/-- A number that is not a multiple of s is neither 0 nor s modulo 2s. -/
theorem mod_two_mul_of_not_dvd {s n : ℕ} (h : ¬ s ∣ n) : n % (2 * s) ≠ 0 ∧ n % (2 * s) ≠ s := by
  constructor
  · intro h0
    exact h (dvd_trans (dvd_mul_left s 2) (Nat.dvd_of_mod_eq_zero h0))
  · intro hs
    have e := Nat.div_add_mod n (2 * s)
    rw [hs] at e
    exact h ⟨2 * (n / (2 * s)) + 1, e.symm.trans (by ring)⟩

/-! ### The up-sweep -/

theorem upSweep_spec (X : Fin 4096 → M) : ∀ (k : ℕ) (p : Fin 4096) (t : ℕ), t ≤ k → 2 ^ t ∣ p.val + 1 →
    (t = k ∨ ¬ 2 ^ (t + 1) ∣ p.val + 1) →
    upSweep k X p = ∑ j ∈ Ico (p.val + 1 - 2 ^ t) (p.val + 1), zext X j := by
  intro k
  induction k with
  | zero =>
    intro p t ht _ _
    obtain rfl : t = 0 := by omega
    simp [upSweep, zext_val]
  | succ k ih =>
    intro p t ht hd hmax
    show upLevel (2 ^ k) (upSweep k X) p = _
    unfold upLevel
    have hs : 0 < 2 ^ k := by positivity
    have hpow : 2 ^ (k + 1) = 2 * 2 ^ k := pow_succ' 2 k
    by_cases h2 : 2 ^ (k + 1) ∣ p.val + 1
    · have hmod : (p.val + 1) % (2 * 2 ^ k) = 0 := by
        rw [← hpow]; exact Nat.mod_eq_zero_of_dvd h2
      rw [if_pos hmod]
      have htk : t = k + 1 := by
        rcases hmax with h | h
        · exact h
        · by_contra hne
          exact h (dvd_trans (pow_dvd_pow 2 (by omega)) h2)
      subst htk
      have hk : 2 ^ k ∣ p.val + 1 := dvd_trans (pow_dvd_pow 2 (Nat.le_succ k)) h2
      have hle : 2 ^ (k + 1) ≤ p.val + 1 := Nat.le_of_dvd (by omega) h2
      have e2 : p.val - 2 ^ k + 1 = p.val + 1 - 2 ^ k := by omega
      have e1 : p.val + 1 - 2 ^ k - 2 ^ k = p.val + 1 - 2 ^ (k + 1) := by omega
      have hkm : 2 ^ k ∣ p.val - 2 ^ k + 1 := by rw [e2]; exact Nat.dvd_sub hk dvd_rfl
      have hprev : ∀ h : p.val - 2 ^ k < 4096, upSweep k X ⟨p.val - 2 ^ k, h⟩
          = ∑ j ∈ Ico (p.val + 1 - 2 ^ (k + 1)) (p.val + 1 - 2 ^ k), zext X j := by
        intro h
        have := ih ⟨p.val - 2 ^ k, h⟩ k le_rfl hkm (Or.inl rfl)
        simp only [e2, e1] at this
        exact this
      rw [hprev, ih p k le_rfl hk (Or.inl rfl)]
      exact sum_Ico_consecutive _ (by omega) (by omega)
    · have hmod : ¬ (p.val + 1) % (2 * 2 ^ k) = 0 := by
        intro h; exact h2 (by rw [hpow]; exact Nat.dvd_of_mod_eq_zero h)
      rw [if_neg hmod]
      have htk : t ≤ k := by
        rcases Nat.lt_or_ge k t with h | h
        · obtain rfl : t = k + 1 := by omega
          exact absurd hd h2
        · exact h
      have hmax' : ¬ 2 ^ (t + 1) ∣ p.val + 1 := by
        rcases hmax with h | h
        · subst h; exact absurd hd h2
        · exact h
      exact ih p t htk hd (Or.inr hmax')

/-! ### The down-sweep -/

/-- The state of the sequence when the down-sweep levels of the strides 2^K and above are done. -/
def DownInv (X : Fin 4096 → M) (K : ℕ) (Y : Fin 4096 → M) : Prop :=
  ∀ p : Fin 4096,
    (2 ^ K ∣ p.val + 1 → Y p = ∑ j ∈ Ico 0 (p.val + 1 - 2 ^ K), zext X j) ∧
    (∀ t < K, 2 ^ t ∣ p.val + 1 → ¬ 2 ^ (t + 1) ∣ p.val + 1 →
      Y p = ∑ j ∈ Ico (p.val + 1 - 2 ^ t) (p.val + 1), zext X j)

theorem downInv_clear (X : Fin 4096 → M) : DownInv X 12 (clearLast (upSweep 12 X)) := by
  intro p
  have h4096 : (4096 : ℕ) = 2 ^ 12 := by norm_num
  constructor
  · intro hd
    have hle := Nat.le_of_dvd (by omega) hd
    have hp : p.val = 4095 := by
      have := p.isLt
      norm_num at hle
      omega
    simp [clearLast, hp]
  · intro t ht hd hnd
    have hp : p.val ≠ 4095 := by
      intro h
      apply hnd
      rw [h]
      show 2 ^ (t + 1) ∣ 4096
      rw [h4096]
      exact pow_dvd_pow 2 (by omega)
    simp only [clearLast, if_neg hp]
    exact upSweep_spec X 12 p t (by omega) hd (Or.inr hnd)

theorem downInv_step (X : Fin 4096 → M) (K : ℕ) (hK : K + 1 ≤ 12) (Y : Fin 4096 → M)
    (hY : DownInv X (K + 1) Y) : DownInv X K (downLevel (2 ^ K) Y) := by
  intro p
  have hs : 0 < 2 ^ K := by positivity
  have hpow : 2 ^ (K + 1) = 2 * 2 ^ K := pow_succ' 2 K
  have h4096 : 2 ^ (K + 1) ∣ 4096 := by
    have : (4096 : ℕ) = 2 ^ 12 := by norm_num
    rw [this]; exact pow_dvd_pow 2 hK
  constructor
  · intro hd
    unfold downLevel
    by_cases h2 : 2 ^ (K + 1) ∣ p.val + 1
    · have hmod : (p.val + 1) % (2 * 2 ^ K) = 0 := by
        rw [← hpow]; exact Nat.mod_eq_zero_of_dvd h2
      rw [if_pos hmod]
      have hle : 2 ^ (K + 1) ≤ p.val + 1 := Nat.le_of_dvd (by omega) h2
      have e2 : p.val - 2 ^ K + 1 = p.val + 1 - 2 ^ K := by omega
      have e1 : p.val + 1 - 2 ^ K - 2 ^ K = p.val + 1 - 2 ^ (K + 1) := by omega
      have hdm : 2 ^ K ∣ p.val - 2 ^ K + 1 := by rw [e2]; exact Nat.dvd_sub hd dvd_rfl
      have hnd : ¬ 2 ^ (K + 1) ∣ p.val - 2 ^ K + 1 := by
        intro h
        have h3 : 2 ^ (K + 1) ∣ (p.val + 1) - (p.val - 2 ^ K + 1) := Nat.dvd_sub h2 h
        have e : (p.val + 1) - (p.val - 2 ^ K + 1) = 2 ^ K := by omega
        rw [e] at h3
        have := Nat.le_of_dvd hs h3
        omega
      have hprev : ∀ h : p.val - 2 ^ K < 4096, Y ⟨p.val - 2 ^ K, h⟩
          = ∑ j ∈ Ico (p.val + 1 - 2 ^ (K + 1)) (p.val + 1 - 2 ^ K), zext X j := by
        intro h
        have := (hY ⟨p.val - 2 ^ K, h⟩).2 K (Nat.lt_succ_self K) hdm hnd
        simp only [e2, e1] at this
        exact this
      rw [hprev, (hY p).1 h2, add_comm]
      exact sum_Ico_consecutive _ (Nat.zero_le _) (by omega)
    · obtain ⟨hmod, hdvd⟩ := mod_two_mul_of_dvd hs hd (by rwa [← hpow])
      have hlt : p.val + 2 ^ K < 4096 := by
        by_contra hge
        have hp := p.isLt
        rw [← hpow] at hdvd
        have h3 : 2 ^ (K + 1) ∣ (p.val + 1 + 2 ^ K) - 4096 := Nat.dvd_sub hdvd h4096
        have := Nat.le_of_dvd (by omega) h3
        omega
      rw [if_neg (by rw [hmod]; omega), dif_pos ⟨hmod, hlt⟩]
      have hd2 : 2 ^ (K + 1) ∣ p.val + 2 ^ K + 1 := by
        have e : p.val + 2 ^ K + 1 = p.val + 1 + 2 ^ K := by omega
        rw [e, hpow]; exact hdvd
      rw [(hY ⟨p.val + 2 ^ K, hlt⟩).1 hd2]
      have e : p.val + 2 ^ K + 1 - 2 ^ (K + 1) = p.val + 1 - 2 ^ K := by omega
      simp only [e]
  · intro t ht hd hnd
    have hns : ¬ 2 ^ K ∣ p.val + 1 := fun h => hnd (dvd_trans (pow_dvd_pow 2 (by omega)) h)
    obtain ⟨h0, h1⟩ := mod_two_mul_of_not_dvd hns
    unfold downLevel
    rw [if_neg h0, dif_neg (fun h => h1 h.1)]
    exact (hY p).2 t (by omega) hd hnd

theorem downSweep_of_inv (X : Fin 4096 → M) : ∀ K : ℕ, K ≤ 12 → ∀ Y : Fin 4096 → M, DownInv X K Y →
    ∀ p : Fin 4096, downSweep K Y p = ∑ j ∈ Ico 0 p.val, zext X j := by
  intro K
  induction K with
  | zero =>
    intro _ Y hY p
    have := (hY p).1 (by simp)
    simpa [downSweep] using this
  | succ K ih =>
    intro hK Y hY p
    exact ih (by omega) _ (downInv_step X K hK Y hY) p

/-! ### The scan law -/

theorem treeScan_eq (X : Fin 4096 → M) (p : Fin 4096) :
    treeScan X p = ∑ j : Fin 4096, if j.val ≤ p.val then X j else 0 := by
  unfold treeScan
  rw [downSweep_of_inv X 12 le_rfl _ (downInv_clear X) p, ← zext_val X p,
    ← sum_Ico_succ_top (Nat.zero_le _)]
  have hterm : ∀ j : Fin 4096, (if j.val ≤ p.val then X j else 0)
      = (fun n : ℕ => if n ≤ p.val then zext X n else 0) j.val := by
    intro j; simp only [zext_val]
  rw [Finset.sum_congr rfl (fun j _ => hterm j),
    Fin.sum_univ_eq_sum_range (fun n : ℕ => if n ≤ p.val then zext X n else 0) 4096,
    ← sum_filter]
  apply Finset.sum_congr _ (fun _ _ => rfl)
  ext j
  have := p.isLt
  simp only [mem_Ico, mem_filter, mem_range]
  omega

end scanlaw

end Cert.RunningSum
-- ==== Proof.ScanBridge.lean ====
/-
  From the chain of levels to the running sum.  The tree scan works on arrays [8, 64, 4096, 16], position axis third;
  the argument and the result are laid out [8, 4096, 64, 16].  Transposing in, scanning every fiber along the position
  axis (twelve levels up, the last entry cleared, twelve levels down), adding the transposed argument and transposing
  back is the inclusive running sum: at the index (b, l, d, n) the fiber of the transposed argument at (b, d, n) is
  the sequence p ↦ x(b, p, d, n), and the scan law gives the sum of its terms up to l.
-/
import proofs.«140659_j42700564857293_1_alg».proof.Proof.RunningSum
import proofs.«140659_j42700564857293_1_alg».proof.Proof.ScanLaw
import Idealize.ShloMosaic.Lib.Pipeline.Value

noncomputable section

namespace Cert.RunningSum

open Idealize.ShloMosaic Idealize.ShloMosaic.ValueIdx

/-- Two sequence operations applied fiber by fiber, one after the other, are their composite applied fiber by fiber. -/
theorem onFibers_comp (f g : (Fin 4096 → EReal) → (Fin 4096 → EReal)) (Y : SY.Idx → EReal) :
    onFibers f (onFibers g Y) = onFibers (fun X => f (g X)) Y := rfl

/-- The twelve up-sweep levels written out, strides 1, 2, …, 2048. -/
theorem upSweep12_eq {M : Type*} [AddCommMonoid M] (X : Fin 4096 → M) :
    upSweep 12 X = upLevel 2048 (upLevel 1024 (upLevel 512 (upLevel 256 (upLevel 128 (upLevel 64 (upLevel 32
      (upLevel 16 (upLevel 8 (upLevel 4 (upLevel 2 (upLevel 1 X))))))))))) := rfl

/-- The twelve down-sweep levels written out, strides 2048, 1024, …, 1. -/
theorem downSweep12_eq {M : Type*} [AddCommMonoid M] (X : Fin 4096 → M) :
    downSweep 12 X = downLevel 1 (downLevel 2 (downLevel 4 (downLevel 8 (downLevel 16 (downLevel 32 (downLevel 64
      (downLevel 128 (downLevel 256 (downLevel 512 (downLevel 1024 (downLevel 2048 X))))))))))) := rfl

/-- A rank-4 array with its two middle axes exchanged reads, at (i, k, j, l), the operand at (i, j, k, l). -/
theorem transpose_ix4_0213_apply {α : Type} {a b c d : ℕ} (x : (⟨4, ![a, b, c, d]⟩ : Shape).Idx → α)
    (h : (⟨4, ![a, b, c, d]⟩ : Shape).Transposes [0, 2, 1, 3] ⟨4, ![a, c, b, d]⟩)
    (i : Fin a) (k : Fin c) (j : Fin b) (l : Fin d) :
    transpose ⟨4, ![a, c, b, d]⟩ [0, 2, 1, 3] x h (ix4 i k j l) = x (ix4 i j k l) :=
  transpose_apply _ x h _ _ fun e => match e with | ⟨0, _⟩ => rfl | ⟨1, _⟩ => rfl | ⟨2, _⟩ => rfl | ⟨3, _⟩ => rfl

/-- Transposed in, scanned along every fiber, the transposed argument added, transposed back: the running sum. -/
theorem scan_bridge (x : FVec Ideal SX .f32) (h1 : SX.Transposes [0, 2, 1, 3] SY) (h2 : SY.Transposes [0, 2, 1, 3] SX) :
    transpose SX [0, 2, 1, 3] (addf (onFibers (fun X => downSweep 12 (clearLast (upSweep 12 X)))
      (transpose SY [0, 2, 1, 3] x h1)) (transpose SY [0, 2, 1, 3] x h1)) h2 = runningSum x := by
  funext i
  obtain ⟨b, l, d, n, rfl⟩ : ∃ b l d n, i = ix4 b l d n := ⟨_, _, _, _, eq_ix4 i⟩
  have hfib : fiber (transpose SY [0, 2, 1, 3] x h1) b d n = fun p => x (ix4 b p d n) :=
    funext fun p => transpose_ix4_0213_apply x h1 b d p n
  refine (transpose_ix4_0213_apply _ h2 b l d n).trans ?_
  rw [addf_apply, onFibers_ix4, runningSum_ix4, hfib, transpose_ix4_0213_apply x h1 b d l n]
  exact treeScan_eq (fun p => x (ix4 b p d n)) l

end Cert.RunningSum

end
-- ==== Proof.ScanNested.lean ====
/-
  The tree scan applied level by level to a whole array [8, 64, 4096, 16] is the tree scan of every fiber: applying
  sequence operations f then g to every fiber is applying their composite to every fiber, and the twenty-five levels compose
  to the up-sweep, the clearing and the down-sweep. With the two transposes this gives the inclusive running sum.
-/
import proofs.«140659_j42700564857293_1_alg».proof.Proof.ScanBridge

noncomputable section

namespace Cert.RunningSum

open Idealize.ShloMosaic Idealize.ShloMosaic.ValueIdx

/-- Two sequence operations applied fiberwise, one after the other, are their composite applied fiberwise. -/
theorem onFibers_onFibers (f g : (Fin 4096 → EReal) → (Fin 4096 → EReal)) (Y : SY.Idx → EReal) :
    onFibers f (onFibers g Y) = onFibers (fun X => f (g X)) Y := by
  funext i
  rfl

/-- The twenty-five levels, composed, are the up-sweep, the clearing and the down-sweep. -/
theorem levels_eq : (fun X : Fin 4096 → EReal => (downLevel 1 (downLevel 2 (downLevel 4 (downLevel 8 (downLevel 16 (downLevel 32 (downLevel 64 (downLevel 128 (downLevel 256 (downLevel 512 (downLevel 1024 (downLevel 2048 (clearLast (upLevel 2048 (upLevel 1024 (upLevel 512 (upLevel 256 (upLevel 128 (upLevel 64 (upLevel 32 (upLevel 16 (upLevel 8 (upLevel 4 (upLevel 2 (upLevel 1 X))))))))))))))))))))))))))
    = fun X => downSweep 12 (clearLast (upSweep 12 X)) := by
  funext X
  rw [upSweep12_eq, downSweep12_eq]

/-- The tree scan written level by level on the transposed array, transposed back, is the inclusive running sum. -/
theorem scan_nested (x : FVec Ideal SX .f32) (h1 : SX.Transposes [0, 2, 1, 3] SY) (h2 : SY.Transposes [0, 2, 1, 3] SX) :
    transpose SX [0, 2, 1, 3] (addf (onFibers (downLevel 1) (onFibers (downLevel 2) (onFibers (downLevel 4) (onFibers (downLevel 8) (onFibers (downLevel 16) (onFibers (downLevel 32) (onFibers (downLevel 64) (onFibers (downLevel 128) (onFibers (downLevel 256) (onFibers (downLevel 512) (onFibers (downLevel 1024) (onFibers (downLevel 2048) (onFibers clearLast (onFibers (upLevel 2048) (onFibers (upLevel 1024) (onFibers (upLevel 512) (onFibers (upLevel 256) (onFibers (upLevel 128) (onFibers (upLevel 64) (onFibers (upLevel 32) (onFibers (upLevel 16) (onFibers (upLevel 8) (onFibers (upLevel 4) (onFibers (upLevel 2) (onFibers (upLevel 1) (transpose SY [0, 2, 1, 3] x h1))))))))))))))))))))))))))
      (transpose SY [0, 2, 1, 3] x h1)) h2 = runningSum x := by
  rw [onFibers_onFibers, onFibers_onFibers, onFibers_onFibers, onFibers_onFibers, onFibers_onFibers, onFibers_onFibers, onFibers_onFibers, onFibers_onFibers, onFibers_onFibers, onFibers_onFibers, onFibers_onFibers, onFibers_onFibers, onFibers_onFibers, onFibers_onFibers, onFibers_onFibers, onFibers_onFibers, onFibers_onFibers, onFibers_onFibers, onFibers_onFibers, onFibers_onFibers, onFibers_onFibers, onFibers_onFibers, onFibers_onFibers, onFibers_onFibers, levels_eq]
  exact scan_bridge x h1 h2

end Cert.RunningSum

end
-- ==== Proof.RefScan.lean ====
/-
  The reference's tree scan, level by level, over the final valuation of its line of operations (every buffer there
  satisfies its operation's equation). An index column is a literal table of positions, normalised by a select on an
  all-false mask and reshaped to a column: its entry e is the table entry e, which is 2se + s - 1 (left positions) or
  2se + 2s - 1 (right positions) at stride s. An up-sweep level gathers left and right entries, adds them and writes the
  sums at the right positions; the clearing writes zeros at position 4095; a down-sweep level gathers left and right
  entries, writes the right ones at the left positions and the sums at the right positions. -/
import proofs.«140659_j42700564857293_1_alg».proof.Proof.RefLevels
import proofs.«140659_j42700564857293_1_alg».proof.Proof.ScanNested

noncomputable section

namespace Cert.ReferenceIdeal.Line

open Cert.ReferenceIdeal Cert.ReferenceIdeal.Gen Idealize.ShloMosaic Idealize.ShloMosaic.TcCoe Idealize.SL.Sem Idealize.ShloMosaic.StableHlo
open Idealize.ShloMosaic.ValueIdx Cert.RunningSum Cert.EdgeIndex Cert.PositionIndex Cert.IndexColumn Cert.ReferenceIdeal.IndexTables

/-! ## The whole scan -/
/-- The result buffer ends at the inclusive running sum of the argument buffer. -/
theorem value (V : Valuation τ sig (Elt Ideal)) :
    (after (ops (F := Ideal)) V main_v449 : FVec Ideal SX .f32) = runningSum (V (Proc.devRef .tc main_arg0)) := by
  rw [eq_main_v449 V, eq_main_v448 V, down_1 V, down_2 V, down_4 V, down_8 V, down_16 V, down_32 V, down_64 V, down_128 V, down_256 V, down_512 V, down_1024 V, down_2048 V, cleared V, up_2048 V, up_1024 V, up_512 V, up_256 V, up_128 V, up_64 V, up_32 V, up_16 V, up_8 V, up_4 V, up_2 V, up_1 V, eq_main_v1 V,
    after_of_forall_not_mem _ V arg0_unwritten]
  exact scan_nested _ transposes_S8x4096x64x16_S8x64x4096x16_0_2_1_3 transposes_S8x64x4096x16_S8x4096x64x16_0_2_1_3

end Cert.ReferenceIdeal.Line

end
-- ==== Proof.RefValue.lean ====
/-
  The reference's value: every weakly fair execution of its @main terminates with the result buffer at the inclusive
  running sum, along the position axis, of the argument buffer, and the argument buffer unchanged.

  The run leaves every buffer at the fold of the line's operations over the launch contents; the fold's result buffer is
  the tree scan of the transposed argument, transposed back, which is the running sum.
-/
import proofs.«140659_j42700564857293_1_alg».proof.Proof.RefScan

noncomputable section

namespace Cert.ReferenceIdeal.ScanValue

open Cert.ReferenceIdeal Cert.ReferenceIdeal.Gen Idealize.ShloMosaic Idealize.ShloMosaic.TcCoe Idealize.SL.Sem Idealize.ShloMosaic.StableHlo
open Cert.RunningSum

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v449) = runningSum (m ((c.tc : Thread nD τ).loc main_arg0))
      ∧ r.2.mem ((c.tc : Thread nD τ).loc main_arg0) = m ((c.tc : Thread nD τ).loc main_arg0)) :=
  (θ_run defs _ _).mono
    (fun _ h c => ⟨(h c main_v449).trans (Line.value (launchContents m c)),
      (h c main_arg0).trans (after_of_forall_not_mem _ _ Line.arg0_unwritten)⟩)
    (Line.run_line m ρ)

end Cert.ReferenceIdeal.ScanValue

end
-- ==== Proof.lean ====
/-
  An inclusive running sum along the position axis of x : [8, 4096, 64, 16], computed two ways.

  THE KERNEL reshapes x to [8, 4096, 1024] and walks each batch in eight chunks of 512 positions. In a chunk it multiplies
  the lower-triangular matrix of ones (entry (i, j) is 1 when j ≤ i, else 0) by the chunk — row i of the product is the
  sum of the chunk's rows 0 … i — and adds a carried row holding the sum of all earlier chunks' rows; the carried row then
  takes the chunk's last product row. Over the extended reals 0·a = 0 and 1·a = a for every a, so the product row i is
  exactly the sum of rows 0 … i, and the output at position l is the sum of x over the positions ≤ l.

  THE REFERENCE transposes x to [8, 64, 4096, 16] and runs a work-efficient tree scan along the position axis with
  gathers and scatters through literal index tables: twelve up-sweep levels (stride s = 1, 2, …, 2048: position p with
  2s ∣ p + 1 takes X(p − s) + X(p)), the last entry cleared, twelve down-sweep levels (stride s = 2048, …, 1: position p
  with 2s ∣ p + 1 takes X(p − s) + X(p), position p − s takes the old X(p)), then the original added, and transposes back.
  In a commutative additive monoid the up-sweep leaves at p the sum of the block of 2^t terms ending at p (2^t the
  largest power of two dividing p + 1), the down-sweep the sum of the terms strictly before p, so the result is again the
  sum of x over the positions ≤ l.

  Both runs are stated with the same function (RunningSum.lean's runningSum) of the argument array; the extended reals
  enter only as a commutative additive monoid with a multiplication in which 0 and 1 act as they should, so the
  precondition (finite inputs) is never opened. The kernel's idealization rewrote no operation, so the preservation
  claim is trivial; the three frames are the generated frame certificates and the reference's run with its value dropped.
-/
import proofs.«140659_j42700564857293_1_alg».proof.Defs
import proofs.«140659_j42700564857293_1_alg».proof.Proof.Gen.Kernel
import proofs.«140659_j42700564857293_1_alg».proof.Proof.Gen.Kernel.Frame
import proofs.«140659_j42700564857293_1_alg».proof.Proof.Gen.KernelIdeal
import proofs.«140659_j42700564857293_1_alg».proof.Proof.Gen.KernelIdeal.Frame
import proofs.«140659_j42700564857293_1_alg».proof.Proof.Gen.ReferenceIdeal
import proofs.«140659_j42700564857293_1_alg».proof.Proof.Gen.Pre_finite_inputs
import proofs.«140659_j42700564857293_1_alg».proof.Proof.KernelValue
import proofs.«140659_j42700564857293_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the value dropped. -/
theorem frame_referenceIdeal : Cert.frame_ReferenceIdeal := fun m ρ _ =>
  (θ_run Cert.ReferenceIdeal.defs _ _).mono (fun _ h c => (h c).2) (Cert.ReferenceIdeal.ScanValue.run m ρ)

theorem preserves : Cert.preserves_Kernel_KernelIdeal := trivial

/-- Both idealized programs end with the inclusive running sum of the argument, from memories agreeing on it. -/
theorem algebraic : Cert.algebraic_KernelIdeal_ReferenceIdeal := by
  intro m ρ m' ρ' _ hagree
  refine ⟨_, Cert.KernelIdeal.CumValue.run m ρ, ?_⟩
  refine (θ_run Cert.ReferenceIdeal.defs _ _).mono (fun _ h c => ⟨(h c).1.trans ?_, (h c).2⟩)
    (Cert.ReferenceIdeal.ScanValue.run m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
